-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42)) (m ((c.tc : Thread Cert.Kernel.nD Cert.Kernel.τ).loc Cert.Kernel.main_arg43)) (m ((c.tc : Thread Cert.Kernel.nD Cert.Kernel.τ).loc Cert.Kernel.main_arg44)) (m ((c.tc : Thread Cert.Kernel.nD Cert.Kernel.τ).loc Cert.Kernel.main_arg45)) (m ((c.tc : Thread Cert.Kernel.nD Cert.Kernel.τ).loc Cert.Kernel.main_arg46)) (m ((c.tc : Thread Cert.Kernel.nD Cert.Kernel.τ).loc Cert.Kernel.main_arg47)) (m ((c.tc : Thread Cert.Kernel.nD Cert.Kernel.τ).loc Cert.Kernel.main_arg48)) (m ((c.tc : Thread Cert.Kernel.nD Cert.Kernel.τ).loc Cert.Kernel.main_arg49)) (m ((c.tc : Thread Cert.Kernel.nD Cert.Kernel.τ).loc Cert.Kernel.main_arg50)) (m ((c.tc : Thread Cert.Kernel.nD Cert.Kernel.τ).loc Cert.Kernel.main_arg51)) (m ((c.tc : Thread Cert.Kernel.nD Cert.Kernel.τ).loc Cert.Kernel.main_arg52)) (m ((c.tc : Thread Cert.Kernel.nD Cert.Kernel.τ).loc Cert.Kernel.main_arg53)) (m ((c.tc : Thread Cert.Kernel.nD Cert.Kernel.τ).loc Cert.Kernel.main_arg54))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46)) (m ((c.tc : Thread Cert.KernelIdeal.nD Cert.KernelIdeal.τ).loc Cert.KernelIdeal.main_arg47)) (m ((c.tc : Thread Cert.KernelIdeal.nD Cert.KernelIdeal.τ).loc Cert.KernelIdeal.main_arg48)) (m ((c.tc : Thread Cert.KernelIdeal.nD Cert.KernelIdeal.τ).loc Cert.KernelIdeal.main_arg49)) (m ((c.tc : Thread Cert.KernelIdeal.nD Cert.KernelIdeal.τ).loc Cert.KernelIdeal.main_arg50)) (m ((c.tc : Thread Cert.KernelIdeal.nD Cert.KernelIdeal.τ).loc Cert.KernelIdeal.main_arg51)) (m ((c.tc : Thread Cert.KernelIdeal.nD Cert.KernelIdeal.τ).loc Cert.KernelIdeal.main_arg52)) (m ((c.tc : Thread Cert.KernelIdeal.nD Cert.KernelIdeal.τ).loc Cert.KernelIdeal.main_arg53)) (m ((c.tc : Thread Cert.KernelIdeal.nD Cert.KernelIdeal.τ).loc Cert.KernelIdeal.main_arg54))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44)) (m ((c.tc : Thread Cert.ReferenceIdeal.nD Cert.ReferenceIdeal.τ).loc Cert.ReferenceIdeal.main_arg45)) (m ((c.tc : Thread Cert.ReferenceIdeal.nD Cert.ReferenceIdeal.τ).loc Cert.ReferenceIdeal.main_arg46)) (m ((c.tc : Thread Cert.ReferenceIdeal.nD Cert.ReferenceIdeal.τ).loc Cert.ReferenceIdeal.main_arg47)) (m ((c.tc : Thread Cert.ReferenceIdeal.nD Cert.ReferenceIdeal.τ).loc Cert.ReferenceIdeal.main_arg48)) (m ((c.tc : Thread Cert.ReferenceIdeal.nD Cert.ReferenceIdeal.τ).loc Cert.ReferenceIdeal.main_arg49)) (m ((c.tc : Thread Cert.ReferenceIdeal.nD Cert.ReferenceIdeal.τ).loc Cert.ReferenceIdeal.main_arg50)) (m ((c.tc : Thread Cert.ReferenceIdeal.nD Cert.ReferenceIdeal.τ).loc Cert.ReferenceIdeal.main_arg51)) (m ((c.tc : Thread Cert.ReferenceIdeal.nD Cert.ReferenceIdeal.τ).loc Cert.ReferenceIdeal.main_arg52)) (m ((c.tc : Thread Cert.ReferenceIdeal.nD Cert.ReferenceIdeal.τ).loc Cert.ReferenceIdeal.main_arg53)) (m ((c.tc : Thread Cert.ReferenceIdeal.nD Cert.ReferenceIdeal.τ).loc Cert.ReferenceIdeal.main_arg54))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46)
      ∧ r.2.mem ((c.tc : Thread Cert.Kernel.nD Cert.Kernel.τ).loc Cert.Kernel.main_arg47) = m ((c.tc : Thread Cert.Kernel.nD Cert.Kernel.τ).loc Cert.Kernel.main_arg47)
      ∧ r.2.mem ((c.tc : Thread Cert.Kernel.nD Cert.Kernel.τ).loc Cert.Kernel.main_arg48) = m ((c.tc : Thread Cert.Kernel.nD Cert.Kernel.τ).loc Cert.Kernel.main_arg48)
      ∧ r.2.mem ((c.tc : Thread Cert.Kernel.nD Cert.Kernel.τ).loc Cert.Kernel.main_arg49) = m ((c.tc : Thread Cert.Kernel.nD Cert.Kernel.τ).loc Cert.Kernel.main_arg49)
      ∧ r.2.mem ((c.tc : Thread Cert.Kernel.nD Cert.Kernel.τ).loc Cert.Kernel.main_arg50) = m ((c.tc : Thread Cert.Kernel.nD Cert.Kernel.τ).loc Cert.Kernel.main_arg50)
      ∧ r.2.mem ((c.tc : Thread Cert.Kernel.nD Cert.Kernel.τ).loc Cert.Kernel.main_arg51) = m ((c.tc : Thread Cert.Kernel.nD Cert.Kernel.τ).loc Cert.Kernel.main_arg51)
      ∧ r.2.mem ((c.tc : Thread Cert.Kernel.nD Cert.Kernel.τ).loc Cert.Kernel.main_arg52) = m ((c.tc : Thread Cert.Kernel.nD Cert.Kernel.τ).loc Cert.Kernel.main_arg52)
      ∧ r.2.mem ((c.tc : Thread Cert.Kernel.nD Cert.Kernel.τ).loc Cert.Kernel.main_arg53) = m ((c.tc : Thread Cert.Kernel.nD Cert.Kernel.τ).loc Cert.Kernel.main_arg53)
      ∧ r.2.mem ((c.tc : Thread Cert.Kernel.nD Cert.Kernel.τ).loc Cert.Kernel.main_arg54) = m ((c.tc : Thread Cert.Kernel.nD Cert.Kernel.τ).loc Cert.Kernel.main_arg54))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
      ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
      ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
      ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
      ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
      ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51)
      ∧ r.2.mem ((c.tc : Thread Cert.KernelIdeal.nD Cert.KernelIdeal.τ).loc Cert.KernelIdeal.main_arg52) = m ((c.tc : Thread Cert.KernelIdeal.nD Cert.KernelIdeal.τ).loc Cert.KernelIdeal.main_arg52)
      ∧ r.2.mem ((c.tc : Thread Cert.KernelIdeal.nD Cert.KernelIdeal.τ).loc Cert.KernelIdeal.main_arg53) = m ((c.tc : Thread Cert.KernelIdeal.nD Cert.KernelIdeal.τ).loc Cert.KernelIdeal.main_arg53)
      ∧ r.2.mem ((c.tc : Thread Cert.KernelIdeal.nD Cert.KernelIdeal.τ).loc Cert.KernelIdeal.main_arg54) = m ((c.tc : Thread Cert.KernelIdeal.nD Cert.KernelIdeal.τ).loc Cert.KernelIdeal.main_arg54))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46)
      ∧ r.2.mem ((c.tc : Thread Cert.ReferenceIdeal.nD Cert.ReferenceIdeal.τ).loc Cert.ReferenceIdeal.main_arg47) = m ((c.tc : Thread Cert.ReferenceIdeal.nD Cert.ReferenceIdeal.τ).loc Cert.ReferenceIdeal.main_arg47)
      ∧ r.2.mem ((c.tc : Thread Cert.ReferenceIdeal.nD Cert.ReferenceIdeal.τ).loc Cert.ReferenceIdeal.main_arg48) = m ((c.tc : Thread Cert.ReferenceIdeal.nD Cert.ReferenceIdeal.τ).loc Cert.ReferenceIdeal.main_arg48)
      ∧ r.2.mem ((c.tc : Thread Cert.ReferenceIdeal.nD Cert.ReferenceIdeal.τ).loc Cert.ReferenceIdeal.main_arg49) = m ((c.tc : Thread Cert.ReferenceIdeal.nD Cert.ReferenceIdeal.τ).loc Cert.ReferenceIdeal.main_arg49)
      ∧ r.2.mem ((c.tc : Thread Cert.ReferenceIdeal.nD Cert.ReferenceIdeal.τ).loc Cert.ReferenceIdeal.main_arg50) = m ((c.tc : Thread Cert.ReferenceIdeal.nD Cert.ReferenceIdeal.τ).loc Cert.ReferenceIdeal.main_arg50)
      ∧ r.2.mem ((c.tc : Thread Cert.ReferenceIdeal.nD Cert.ReferenceIdeal.τ).loc Cert.ReferenceIdeal.main_arg51) = m ((c.tc : Thread Cert.ReferenceIdeal.nD Cert.ReferenceIdeal.τ).loc Cert.ReferenceIdeal.main_arg51)
      ∧ r.2.mem ((c.tc : Thread Cert.ReferenceIdeal.nD Cert.ReferenceIdeal.τ).loc Cert.ReferenceIdeal.main_arg52) = m ((c.tc : Thread Cert.ReferenceIdeal.nD Cert.ReferenceIdeal.τ).loc Cert.ReferenceIdeal.main_arg52)
      ∧ r.2.mem ((c.tc : Thread Cert.ReferenceIdeal.nD Cert.ReferenceIdeal.τ).loc Cert.ReferenceIdeal.main_arg53) = m ((c.tc : Thread Cert.ReferenceIdeal.nD Cert.ReferenceIdeal.τ).loc Cert.ReferenceIdeal.main_arg53)
      ∧ r.2.mem ((c.tc : Thread Cert.ReferenceIdeal.nD Cert.ReferenceIdeal.τ).loc Cert.ReferenceIdeal.main_arg54) = m ((c.tc : Thread Cert.ReferenceIdeal.nD Cert.ReferenceIdeal.τ).loc Cert.ReferenceIdeal.main_arg54))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)
      ∧ m' ((c.tc : Thread Cert.ReferenceIdeal.nD Cert.ReferenceIdeal.τ).loc Cert.ReferenceIdeal.main_arg49) = m ((c.tc : Thread Cert.KernelIdeal.nD Cert.KernelIdeal.τ).loc Cert.KernelIdeal.main_arg49)
      ∧ m' ((c.tc : Thread Cert.ReferenceIdeal.nD Cert.ReferenceIdeal.τ).loc Cert.ReferenceIdeal.main_arg50) = m ((c.tc : Thread Cert.KernelIdeal.nD Cert.KernelIdeal.τ).loc Cert.KernelIdeal.main_arg50)
      ∧ m' ((c.tc : Thread Cert.ReferenceIdeal.nD Cert.ReferenceIdeal.τ).loc Cert.ReferenceIdeal.main_arg51) = m ((c.tc : Thread Cert.KernelIdeal.nD Cert.KernelIdeal.τ).loc Cert.KernelIdeal.main_arg51)
      ∧ m' ((c.tc : Thread Cert.ReferenceIdeal.nD Cert.ReferenceIdeal.τ).loc Cert.ReferenceIdeal.main_arg52) = m ((c.tc : Thread Cert.KernelIdeal.nD Cert.KernelIdeal.τ).loc Cert.KernelIdeal.main_arg52)
      ∧ m' ((c.tc : Thread Cert.ReferenceIdeal.nD Cert.ReferenceIdeal.τ).loc Cert.ReferenceIdeal.main_arg53) = m ((c.tc : Thread Cert.KernelIdeal.nD Cert.KernelIdeal.τ).loc Cert.KernelIdeal.main_arg53)
      ∧ m' ((c.tc : Thread Cert.ReferenceIdeal.nD Cert.ReferenceIdeal.τ).loc Cert.ReferenceIdeal.main_arg54) = m ((c.tc : Thread Cert.KernelIdeal.nD Cert.KernelIdeal.τ).loc Cert.KernelIdeal.main_arg54)) →
    ∃ (v0 : (c : Dev Cert.KernelIdeal.nD) → Buf (Elt Ideal) ((c.tc : Thread Cert.KernelIdeal.nD Cert.KernelIdeal.τ).loc Cert.KernelIdeal.main_v195)) (v1 : (c : Dev Cert.KernelIdeal.nD) → Buf (Elt Ideal) ((c.tc : Thread Cert.KernelIdeal.nD Cert.KernelIdeal.τ).loc Cert.KernelIdeal.main_v196)) (v2 : (c : Dev Cert.KernelIdeal.nD) → Buf (Elt Ideal) ((c.tc : Thread Cert.KernelIdeal.nD Cert.KernelIdeal.τ).loc Cert.KernelIdeal.main_v197)) (v3 : (c : Dev Cert.KernelIdeal.nD) → Buf (Elt Ideal) ((c.tc : Thread Cert.KernelIdeal.nD Cert.KernelIdeal.τ).loc Cert.KernelIdeal.main_v198)) (v4 : (c : Dev Cert.KernelIdeal.nD) → Buf (Elt Ideal) ((c.tc : Thread Cert.KernelIdeal.nD Cert.KernelIdeal.τ).loc Cert.KernelIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v195) = v0 c
          ∧ r.2.mem ((c.tc : Thread Cert.KernelIdeal.nD Cert.KernelIdeal.τ).loc Cert.KernelIdeal.main_v196) = v1 c
          ∧ r.2.mem ((c.tc : Thread Cert.KernelIdeal.nD Cert.KernelIdeal.τ).loc Cert.KernelIdeal.main_v197) = v2 c
          ∧ r.2.mem ((c.tc : Thread Cert.KernelIdeal.nD Cert.KernelIdeal.τ).loc Cert.KernelIdeal.main_v198) = v3 c
          ∧ r.2.mem ((c.tc : Thread Cert.KernelIdeal.nD Cert.KernelIdeal.τ).loc Cert.KernelIdeal.main_v199) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
          ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
          ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
          ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
          ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
          ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51)
          ∧ r.2.mem ((c.tc : Thread Cert.KernelIdeal.nD Cert.KernelIdeal.τ).loc Cert.KernelIdeal.main_arg52) = m ((c.tc : Thread Cert.KernelIdeal.nD Cert.KernelIdeal.τ).loc Cert.KernelIdeal.main_arg52)
          ∧ r.2.mem ((c.tc : Thread Cert.KernelIdeal.nD Cert.KernelIdeal.τ).loc Cert.KernelIdeal.main_arg53) = m ((c.tc : Thread Cert.KernelIdeal.nD Cert.KernelIdeal.τ).loc Cert.KernelIdeal.main_arg53)
          ∧ r.2.mem ((c.tc : Thread Cert.KernelIdeal.nD Cert.KernelIdeal.τ).loc Cert.KernelIdeal.main_arg54) = m ((c.tc : Thread Cert.KernelIdeal.nD Cert.KernelIdeal.τ).loc Cert.KernelIdeal.main_arg54))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v206) = v1 c
          ∧ r.2.mem ((c.tc : Thread Cert.ReferenceIdeal.nD Cert.ReferenceIdeal.τ).loc Cert.ReferenceIdeal.main_v210) = v2 c
          ∧ r.2.mem ((c.tc : Thread Cert.ReferenceIdeal.nD Cert.ReferenceIdeal.τ).loc Cert.ReferenceIdeal.main_v214) = v3 c
          ∧ r.2.mem ((c.tc : Thread Cert.ReferenceIdeal.nD Cert.ReferenceIdeal.τ).loc Cert.ReferenceIdeal.main_v217) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46)
          ∧ r.2.mem ((c.tc : Thread Cert.ReferenceIdeal.nD Cert.ReferenceIdeal.τ).loc Cert.ReferenceIdeal.main_arg47) = m' ((c.tc : Thread Cert.ReferenceIdeal.nD Cert.ReferenceIdeal.τ).loc Cert.ReferenceIdeal.main_arg47)
          ∧ r.2.mem ((c.tc : Thread Cert.ReferenceIdeal.nD Cert.ReferenceIdeal.τ).loc Cert.ReferenceIdeal.main_arg48) = m' ((c.tc : Thread Cert.ReferenceIdeal.nD Cert.ReferenceIdeal.τ).loc Cert.ReferenceIdeal.main_arg48)
          ∧ r.2.mem ((c.tc : Thread Cert.ReferenceIdeal.nD Cert.ReferenceIdeal.τ).loc Cert.ReferenceIdeal.main_arg49) = m' ((c.tc : Thread Cert.ReferenceIdeal.nD Cert.ReferenceIdeal.τ).loc Cert.ReferenceIdeal.main_arg49)
          ∧ r.2.mem ((c.tc : Thread Cert.ReferenceIdeal.nD Cert.ReferenceIdeal.τ).loc Cert.ReferenceIdeal.main_arg50) = m' ((c.tc : Thread Cert.ReferenceIdeal.nD Cert.ReferenceIdeal.τ).loc Cert.ReferenceIdeal.main_arg50)
          ∧ r.2.mem ((c.tc : Thread Cert.ReferenceIdeal.nD Cert.ReferenceIdeal.τ).loc Cert.ReferenceIdeal.main_arg51) = m' ((c.tc : Thread Cert.ReferenceIdeal.nD Cert.ReferenceIdeal.τ).loc Cert.ReferenceIdeal.main_arg51)
          ∧ r.2.mem ((c.tc : Thread Cert.ReferenceIdeal.nD Cert.ReferenceIdeal.τ).loc Cert.ReferenceIdeal.main_arg52) = m' ((c.tc : Thread Cert.ReferenceIdeal.nD Cert.ReferenceIdeal.τ).loc Cert.ReferenceIdeal.main_arg52)
          ∧ r.2.mem ((c.tc : Thread Cert.ReferenceIdeal.nD Cert.ReferenceIdeal.τ).loc Cert.ReferenceIdeal.main_arg53) = m' ((c.tc : Thread Cert.ReferenceIdeal.nD Cert.ReferenceIdeal.τ).loc Cert.ReferenceIdeal.main_arg53)
          ∧ r.2.mem ((c.tc : Thread Cert.ReferenceIdeal.nD Cert.ReferenceIdeal.τ).loc Cert.ReferenceIdeal.main_arg54) = m' ((c.tc : Thread Cert.ReferenceIdeal.nD Cert.ReferenceIdeal.τ).loc Cert.ReferenceIdeal.main_arg54))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S150000x64 : Shape := ⟨2, ![150000, 64]⟩
abbrev S100000x64 : Shape := ⟨2, ![100000, 64]⟩
abbrev S40000x64 : Shape := ⟨2, ![40000, 64]⟩
abbrev S10000x64 : Shape := ⟨2, ![10000, 64]⟩
abbrev S400000 : Shape := ⟨1, ![400000]⟩
abbrev S1200000 : Shape := ⟨1, ![1200000]⟩
abbrev S800000 : Shape := ⟨1, ![800000]⟩
abbrev S320000 : Shape := ⟨1, ![320000]⟩
abbrev S80000 : Shape := ⟨1, ![80000]⟩
abbrev S64x64 : Shape := ⟨2, ![64, 64]⟩
abbrev S600000 : Shape := ⟨1, ![600000]⟩
abbrev S160000 : Shape := ⟨1, ![160000]⟩
abbrev S40000 : Shape := ⟨1, ![40000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S40000x64 : S_.BroadcastsInDim S40000x64 (![] : Fin 0 → Fin S40000x64.rank)
  reducesTo_S40000x64_S_d0_1 : S40000x64.ReducesTo [0, 1] S_
  bcast_S_S10000x64 : S_.BroadcastsInDim S10000x64 (![] : Fin 0 → Fin S10000x64.rank)
  reducesTo_S10000x64_S_d0_1 : S10000x64.ReducesTo [0, 1] S_
  bcast_S_S400000 : S_.BroadcastsInDim S400000 (![] : Fin 0 → Fin S400000.rank)
  reducesTo_S400000_S_d0 : S400000.ReducesTo [0] S_
  bcast_S_S1200000 : S_.BroadcastsInDim S1200000 (![] : Fin 0 → Fin S1200000.rank)
  reducesTo_S1200000_S_d0 : S1200000.ReducesTo [0] S_
  bcast_S_S800000 : S_.BroadcastsInDim S800000 (![] : Fin 0 → Fin S800000.rank)
  reducesTo_S800000_S_d0 : S800000.ReducesTo [0] S_
  bcast_S_S320000 : S_.BroadcastsInDim S320000 (![] : Fin 0 → Fin S320000.rank)
  reducesTo_S320000_S_d0 : S320000.ReducesTo [0] S_
  bcast_S_S80000 : S_.BroadcastsInDim S80000 (![] : Fin 0 → Fin S80000.rank)
  reducesTo_S80000_S_d0 : S80000.ReducesTo [0] S_
  bcast_S_S64x64 : S_.BroadcastsInDim S64x64 (![] : Fin 0 → Fin S64x64.rank)
  reducesTo_S64x64_S_d0_1 : S64x64.ReducesTo [0, 1] S_
  bcast_S_S600000 : S_.BroadcastsInDim S600000 (![] : Fin 0 → Fin S600000.rank)
  reducesTo_S600000_S_d0 : S600000.ReducesTo [0] S_
  bcast_S_S160000 : S_.BroadcastsInDim S160000 (![] : Fin 0 → Fin S160000.rank)
  reducesTo_S160000_S_d0 : S160000.ReducesTo [0] S_
  bcast_S_S40000 : S_.BroadcastsInDim S40000 (![] : Fin 0 → Fin S40000.rank)
  reducesTo_S40000_S_d0 : S40000.ReducesTo [0] S_

variable [Facts]

def fn_part10 {F : FTy → Type} [FloatOps F] (main_arg53 : FVec F S64x64 .f32) (main_arg54 : FVec F S64x64 .f32) (main_v168 : IVec S_ 1) (main_v169 : FVec F S64x64 .f32) (main_v170 : FVec F S64x64 .f32) : IVec S_ 1 :=
  let main_v171 : IVec S64x64 1 := cmpf .olt main_v169 main_v170
  let main_c_67 : IVec S_ 1 := constantI S_ 1 1#1
  let main_v172 : IVec S_ 1 := (fun x v => Host.reduce IntOp.andi x v reducesTo_S64x64_S_d0_1 h_S_) main_v171 main_c_67
  let main_v173 : IVec S_ 1 := andi main_v168 main_v172
  let main_v174 : FVec F S64x64 .f32 := Host.absf main_arg53
  let main_cst_68 : FVec F S_ .f32 := constant S_ .f32 0x7F800000#32
  let main_v175 : FVec F S64x64 .f32 := broadcastInDim S64x64 ![] bcast_S_S64x64 main_cst_68
  let main_v176 : IVec S64x64 1 := cmpf .olt main_v174 main_v175
  let main_c_69 : IVec S_ 1 := constantI S_ 1 1#1
  let main_v177 : IVec S_ 1 := (fun x v => Host.reduce IntOp.andi x v reducesTo_S64x64_S_d0_1 h_S_) main_v176 main_c_69
  let main_v178 : IVec S_ 1 := andi main_v173 main_v177
  let main_v179 : FVec F S64x64 .f32 := Host.absf main_arg54
  let main_cst_70 : FVec F S_ .f32 := constant S_ .f32 0x7F800000#32
  let main_v180 : FVec F S64x64 .f32 := broadcastInDim S64x64 ![] bcast_S_S64x64 main_cst_70
  let main_v181 : IVec S64x64 1 := cmpf .olt main_v179 main_v180
  let main_c_71 : IVec S_ 1 := constantI S_ 1 1#1
  let main_v182 : IVec S_ 1 := (fun x v => Host.reduce IntOp.andi x v reducesTo_S64x64_S_d0_1 h_S_) main_v181 main_c_71
  let main_v183 : IVec S_ 1 := andi main_v178 main_v182
  main_v183

def fn_part9 {F : FTy → Type} [FloatOps F] (main_arg49 : FVec F S64x64 .f32) (main_arg50 : FVec F S64x64 .f32) (main_arg51 : FVec F S64x64 .f32) (main_arg52 : FVec F S64x64 .f32) (main_arg53 : FVec F S64x64 .f32) (main_arg54 : FVec F S64x64 .f32) (main_v153 : IVec S_ 1) : IVec S_ 1 :=
  let main_v154 : FVec F S64x64 .f32 := Host.absf main_arg49
  let main_cst_60 : FVec F S_ .f32 := constant S_ .f32 0x7F800000#32
  let main_v155 : FVec F S64x64 .f32 := broadcastInDim S64x64 ![] bcast_S_S64x64 main_cst_60
  let main_v156 : IVec S64x64 1 := cmpf .olt main_v154 main_v155
  let main_c_61 : IVec S_ 1 := constantI S_ 1 1#1
  let main_v157 : IVec S_ 1 := (fun x v => Host.reduce IntOp.andi x v reducesTo_S64x64_S_d0_1 h_S_) main_v156 main_c_61
  let main_v158 : IVec S_ 1 := andi main_v153 main_v157
  let main_v159 : FVec F S64x64 .f32 := Host.absf main_arg50
  let main_cst_62 : FVec F S_ .f32 := constant S_ .f32 0x7F800000#32
  let main_v160 : FVec F S64x64 .f32 := broadcastInDim S64x64 ![] bcast_S_S64x64 main_cst_62
  let main_v161 : IVec S64x64 1 := cmpf .olt main_v159 main_v160
  let main_c_63 : IVec S_ 1 := constantI S_ 1 1#1
  let main_v162 : IVec S_ 1 := (fun x v => Host.reduce IntOp.andi x v reducesTo_S64x64_S_d0_1 h_S_) main_v161 main_c_63
  let main_v163 : IVec S_ 1 := andi main_v158 main_v162
  let main_v164 : FVec F S64x64 .f32 := Host.absf main_arg51
  let main_cst_64 : FVec F S_ .f32 := constant S_ .f32 0x7F800000#32
  let main_v165 : FVec F S64x64 .f32 := broadcastInDim S64x64 ![] bcast_S_S64x64 main_cst_64
  let main_v166 : IVec S64x64 1 := cmpf .olt main_v164 main_v165
  let main_c_65 : IVec S_ 1 := constantI S_ 1 1#1
  let main_v167 : IVec S_ 1 := (fun x v => Host.reduce IntOp.andi x v reducesTo_S64x64_S_d0_1 h_S_) main_v166 main_c_65
  let main_v168 : IVec S_ 1 := andi main_v163 main_v167
  let main_v169 : FVec F S64x64 .f32 := Host.absf main_arg52
  let main_cst_66 : FVec F S_ .f32 := constant S_ .f32 0x7F800000#32
  let main_v170 : FVec F S64x64 .f32 := broadcastInDim S64x64 ![] bcast_S_S64x64 main_cst_66
  fn_part10 (F := F) main_arg53 main_arg54 main_v168 main_v169 main_v170

def fn_part8 {F : FTy → Type} [FloatOps F] (main_arg46 : FVec F S40000 .f32) (main_arg47 : FVec F S64x64 .f32) (main_arg48 : FVec F S64x64 .f32) (main_arg49 : FVec F S64x64 .f32) (main_arg50 : FVec F S64x64 .f32) (main_arg51 : FVec F S64x64 .f32) (main_arg52 : FVec F S64x64 .f32) (main_arg53 : FVec F S64x64 .f32) (main_arg54 : FVec F S64x64 .f32) (main_v133 : IVec S_ 1) (main_v136 : IVec S160000 1) : IVec S_ 1 :=
  let main_c_53 : IVec S_ 1 := constantI S_ 1 1#1
  let main_v137 : IVec S_ 1 := (fun x v => Host.reduce IntOp.andi x v reducesTo_S160000_S_d0 h_S_) main_v136 main_c_53
  let main_v138 : IVec S_ 1 := andi main_v133 main_v137
  let main_v139 : FVec F S40000 .f32 := Host.absf main_arg46
  let main_cst_54 : FVec F S_ .f32 := constant S_ .f32 0x7F800000#32
  let main_v140 : FVec F S40000 .f32 := broadcastInDim S40000 ![] bcast_S_S40000 main_cst_54
  let main_v141 : IVec S40000 1 := cmpf .olt main_v139 main_v140
  let main_c_55 : IVec S_ 1 := constantI S_ 1 1#1
  let main_v142 : IVec S_ 1 := (fun x v => Host.reduce IntOp.andi x v reducesTo_S40000_S_d0 h_S_) main_v141 main_c_55
  let main_v143 : IVec S_ 1 := andi main_v138 main_v142
  let main_v144 : FVec F S64x64 .f32 := Host.absf main_arg47
  let main_cst_56 : FVec F S_ .f32 := constant S_ .f32 0x7F800000#32
  let main_v145 : FVec F S64x64 .f32 := broadcastInDim S64x64 ![] bcast_S_S64x64 main_cst_56
  let main_v146 : IVec S64x64 1 := cmpf .olt main_v144 main_v145
  let main_c_57 : IVec S_ 1 := constantI S_ 1 1#1
  let main_v147 : IVec S_ 1 := (fun x v => Host.reduce IntOp.andi x v reducesTo_S64x64_S_d0_1 h_S_) main_v146 main_c_57
  let main_v148 : IVec S_ 1 := andi main_v143 main_v147
  let main_v149 : FVec F S64x64 .f32 := Host.absf main_arg48
  let main_cst_58 : FVec F S_ .f32 := constant S_ .f32 0x7F800000#32
  let main_v150 : FVec F S64x64 .f32 := broadcastInDim S64x64 ![] bcast_S_S64x64 main_cst_58
  let main_v151 : IVec S64x64 1 := cmpf .olt main_v149 main_v150
  let main_c_59 : IVec S_ 1 := constantI S_ 1 1#1
  let main_v152 : IVec S_ 1 := (fun x v => Host.reduce IntOp.andi x v reducesTo_S64x64_S_d0_1 h_S_) main_v151 main_c_59
  let main_v153 : IVec S_ 1 := andi main_v148 main_v152
  fn_part9 (F := F) main_arg49 main_arg50 main_arg51 main_arg52 main_arg53 main_arg54 main_v153

def fn_part7 {F : FTy → Type} [FloatOps F] (main_arg37 : FVec F S600000 .f32) (main_arg40 : FVec F S400000 .f32) (main_arg43 : FVec F S160000 .f32) (main_arg46 : FVec F S40000 .f32) (main_arg47 : FVec F S64x64 .f32) (main_arg48 : FVec F S64x64 .f32) (main_arg49 : FVec F S64x64 .f32) (main_arg50 : FVec F S64x64 .f32) (main_arg51 : FVec F S64x64 .f32) (main_arg52 : FVec F S64x64 .f32) (main_arg53 : FVec F S64x64 .f32) (main_arg54 : FVec F S64x64 .f32) (main_v118 : IVec S_ 1) (main_v119 : FVec F S64x64 .f32) : IVec S_ 1 :=
  let main_cst_46 : FVec F S_ .f32 := constant S_ .f32 0x7F800000#32
  let main_v120 : FVec F S64x64 .f32 := broadcastInDim S64x64 ![] bcast_S_S64x64 main_cst_46
  let main_v121 : IVec S64x64 1 := cmpf .olt main_v119 main_v120
  let main_c_47 : IVec S_ 1 := constantI S_ 1 1#1
  let main_v122 : IVec S_ 1 := (fun x v => Host.reduce IntOp.andi x v reducesTo_S64x64_S_d0_1 h_S_) main_v121 main_c_47
  let main_v123 : IVec S_ 1 := andi main_v118 main_v122
  let main_v124 : FVec F S600000 .f32 := Host.absf main_arg37
  let main_cst_48 : FVec F S_ .f32 := constant S_ .f32 0x7F800000#32
  let main_v125 : FVec F S600000 .f32 := broadcastInDim S600000 ![] bcast_S_S600000 main_cst_48
  let main_v126 : IVec S600000 1 := cmpf .olt main_v124 main_v125
  let main_c_49 : IVec S_ 1 := constantI S_ 1 1#1
  let main_v127 : IVec S_ 1 := (fun x v => Host.reduce IntOp.andi x v reducesTo_S600000_S_d0 h_S_) main_v126 main_c_49
  let main_v128 : IVec S_ 1 := andi main_v123 main_v127
  let main_v129 : FVec F S400000 .f32 := Host.absf main_arg40
  let main_cst_50 : FVec F S_ .f32 := constant S_ .f32 0x7F800000#32
  let main_v130 : FVec F S400000 .f32 := broadcastInDim S400000 ![] bcast_S_S400000 main_cst_50
  let main_v131 : IVec S400000 1 := cmpf .olt main_v129 main_v130
  let main_c_51 : IVec S_ 1 := constantI S_ 1 1#1
  let main_v132 : IVec S_ 1 := (fun x v => Host.reduce IntOp.andi x v reducesTo_S400000_S_d0 h_S_) main_v131 main_c_51
  let main_v133 : IVec S_ 1 := andi main_v128 main_v132
  let main_v134 : FVec F S160000 .f32 := Host.absf main_arg43
  let main_cst_52 : FVec F S_ .f32 := constant S_ .f32 0x7F800000#32
  let main_v135 : FVec F S160000 .f32 := broadcastInDim S160000 ![] bcast_S_S160000 main_cst_52
  let main_v136 : IVec S160000 1 := cmpf .olt main_v134 main_v135
  fn_part8 (F := F) main_arg46 main_arg47 main_arg48 main_arg49 main_arg50 main_arg51 main_arg52 main_arg53 main_arg54 main_v133 main_v136

def fn_part6 {F : FTy → Type} [FloatOps F] (main_arg31 : FVec F S64x64 .f32) (main_arg32 : FVec F S64x64 .f32) (main_arg33 : FVec F S64x64 .f32) (main_arg34 : FVec F S64x64 .f32) (main_arg37 : FVec F S600000 .f32) (main_arg40 : FVec F S400000 .f32) (main_arg43 : FVec F S160000 .f32) (main_arg46 : FVec F S40000 .f32) (main_arg47 : FVec F S64x64 .f32) (main_arg48 : FVec F S64x64 .f32) (main_arg49 : FVec F S64x64 .f32) (main_arg50 : FVec F S64x64 .f32) (main_arg51 : FVec F S64x64 .f32) (main_arg52 : FVec F S64x64 .f32) (main_arg53 : FVec F S64x64 .f32) (main_arg54 : FVec F S64x64 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64x64 .f32 := Host.absf main_arg31
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64x64 .f32 := Host.absf main_arg32
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64x64 .f32 := Host.absf main_arg33
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64x64 .f32 := Host.absf main_arg34
  fn_part7 (F := F) main_arg37 main_arg40 main_arg43 main_arg46 main_arg47 main_arg48 main_arg49 main_arg50 main_arg51 main_arg52 main_arg53 main_arg54 main_v118 main_v119

def fn_part5 {F : FTy → Type} [FloatOps F] (main_arg28 : FVec F S64x64 .f32) (main_arg29 : FVec F S64x64 .f32) (main_arg30 : FVec F S64x64 .f32) (main_arg31 : FVec F S64x64 .f32) (main_arg32 : FVec F S64x64 .f32) (main_arg33 : FVec F S64x64 .f32) (main_arg34 : FVec F S64x64 .f32) (main_arg37 : FVec F S600000 .f32) (main_arg40 : FVec F S400000 .f32) (main_arg43 : FVec F S160000 .f32) (main_arg46 : FVec F S40000 .f32) (main_arg47 : FVec F S64x64 .f32) (main_arg48 : FVec F S64x64 .f32) (main_arg49 : FVec F S64x64 .f32) (main_arg50 : FVec F S64x64 .f32) (main_arg51 : FVec F S64x64 .f32) (main_arg52 : FVec F S64x64 .f32) (main_arg53 : FVec F S64x64 .f32) (main_arg54 : FVec F S64x64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64x64 .f32 := Host.absf main_arg28
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64x64 .f32 := Host.absf main_arg29
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64x64 .f32 := Host.absf main_arg30
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg31 main_arg32 main_arg33 main_arg34 main_arg37 main_arg40 main_arg43 main_arg46 main_arg47 main_arg48 main_arg49 main_arg50 main_arg51 main_arg52 main_arg53 main_arg54 main_v98 main_v101 main_c_39

def fn_part4 {F : FTy → Type} [FloatOps F] (main_arg24 : FVec F S10000x64 .f32) (main_arg25 : FVec F S64x64 .f32) (main_arg26 : FVec F S64x64 .f32) (main_arg27 : FVec F S64x64 .f32) (main_arg28 : FVec F S64x64 .f32) (main_arg29 : FVec F S64x64 .f32) (main_arg30 : FVec F S64x64 .f32) (main_arg31 : FVec F S64x64 .f32) (main_arg32 : FVec F S64x64 .f32) (main_arg33 : FVec F S64x64 .f32) (main_arg34 : FVec F S64x64 .f32) (main_arg37 : FVec F S600000 .f32) (main_arg40 : FVec F S400000 .f32) (main_arg43 : FVec F S160000 .f32) (main_arg46 : FVec F S40000 .f32) (main_arg47 : FVec F S64x64 .f32) (main_arg48 : FVec F S64x64 .f32) (main_arg49 : FVec F S64x64 .f32) (main_arg50 : FVec F S64x64 .f32) (main_arg51 : FVec F S64x64 .f32) (main_arg52 : FVec F S64x64 .f32) (main_arg53 : FVec F S64x64 .f32) (main_arg54 : FVec F S64x64 .f32) (main_v63 : IVec S_ 1) (main_v67 : IVec S_ 1) : IVec S_ 1 :=
  let main_v68 : IVec S_ 1 := andi main_v63 main_v67
  let main_v69 : FVec F S10000x64 .f32 := Host.absf main_arg24
  let main_cst_26 : FVec F S_ .f32 := constant S_ .f32 0x7F800000#32
  let main_v70 : FVec F S10000x64 .f32 := broadcastInDim S10000x64 ![] bcast_S_S10000x64 main_cst_26
  let main_v71 : IVec S10000x64 1 := cmpf .olt main_v69 main_v70
  let main_c_27 : IVec S_ 1 := constantI S_ 1 1#1
  let main_v72 : IVec S_ 1 := (fun x v => Host.reduce IntOp.andi x v reducesTo_S10000x64_S_d0_1 h_S_) main_v71 main_c_27
  let main_v73 : IVec S_ 1 := andi main_v68 main_v72
  let main_v74 : FVec F S64x64 .f32 := Host.absf main_arg25
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64x64 .f32 := Host.absf main_arg26
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64x64 .f32 := Host.absf main_arg27
  let main_cst_32 : FVec F S_ .f32 := constant S_ .f32 0x7F800000#32
  fn_part5 (F := F) main_arg28 main_arg29 main_arg30 main_arg31 main_arg32 main_arg33 main_arg34 main_arg37 main_arg40 main_arg43 main_arg46 main_arg47 main_arg48 main_arg49 main_arg50 main_arg51 main_arg52 main_arg53 main_arg54 main_v83 main_v84 main_cst_32

def fn_part3 {F : FTy → Type} [FloatOps F] (main_arg21 : FVec F S150000x64 .f32) (main_arg22 : FVec F S100000x64 .f32) (main_arg23 : FVec F S40000x64 .f32) (main_arg24 : FVec F S10000x64 .f32) (main_arg25 : FVec F S64x64 .f32) (main_arg26 : FVec F S64x64 .f32) (main_arg27 : FVec F S64x64 .f32) (main_arg28 : FVec F S64x64 .f32) (main_arg29 : FVec F S64x64 .f32) (main_arg30 : FVec F S64x64 .f32) (main_arg31 : FVec F S64x64 .f32) (main_arg32 : FVec F S64x64 .f32) (main_arg33 : FVec F S64x64 .f32) (main_arg34 : FVec F S64x64 .f32) (main_arg37 : FVec F S600000 .f32) (main_arg40 : FVec F S400000 .f32) (main_arg43 : FVec F S160000 .f32) (main_arg46 : FVec F S40000 .f32) (main_arg47 : FVec F S64x64 .f32) (main_arg48 : FVec F S64x64 .f32) (main_arg49 : FVec F S64x64 .f32) (main_arg50 : FVec F S64x64 .f32) (main_arg51 : FVec F S64x64 .f32) (main_arg52 : FVec F S64x64 .f32) (main_arg53 : FVec F S64x64 .f32) (main_arg54 : FVec F S64x64 .f32) (main_v48 : IVec S_ 1) (main_v49 : FVec F S50000x64 .f32) (main_v50 : FVec F S50000x64 .f32) : IVec S_ 1 :=
  let main_v51 : IVec S50000x64 1 := cmpf .olt main_v49 main_v50
  let main_c_19 : IVec S_ 1 := constantI S_ 1 1#1
  let main_v52 : IVec S_ 1 := (fun x v => Host.reduce IntOp.andi x v reducesTo_S50000x64_S_d0_1 h_S_) main_v51 main_c_19
  let main_v53 : IVec S_ 1 := andi main_v48 main_v52
  let main_v54 : FVec F S150000x64 .f32 := Host.absf main_arg21
  let main_cst_20 : FVec F S_ .f32 := constant S_ .f32 0x7F800000#32
  let main_v55 : FVec F S150000x64 .f32 := broadcastInDim S150000x64 ![] bcast_S_S150000x64 main_cst_20
  let main_v56 : IVec S150000x64 1 := cmpf .olt main_v54 main_v55
  let main_c_21 : IVec S_ 1 := constantI S_ 1 1#1
  let main_v57 : IVec S_ 1 := (fun x v => Host.reduce IntOp.andi x v reducesTo_S150000x64_S_d0_1 h_S_) main_v56 main_c_21
  let main_v58 : IVec S_ 1 := andi main_v53 main_v57
  let main_v59 : FVec F S100000x64 .f32 := Host.absf main_arg22
  let main_cst_22 : FVec F S_ .f32 := constant S_ .f32 0x7F800000#32
  let main_v60 : FVec F S100000x64 .f32 := broadcastInDim S100000x64 ![] bcast_S_S100000x64 main_cst_22
  let main_v61 : IVec S100000x64 1 := cmpf .olt main_v59 main_v60
  let main_c_23 : IVec S_ 1 := constantI S_ 1 1#1
  let main_v62 : IVec S_ 1 := (fun x v => Host.reduce IntOp.andi x v reducesTo_S100000x64_S_d0_1 h_S_) main_v61 main_c_23
  let main_v63 : IVec S_ 1 := andi main_v58 main_v62
  let main_v64 : FVec F S40000x64 .f32 := Host.absf main_arg23
  let main_cst_24 : FVec F S_ .f32 := constant S_ .f32 0x7F800000#32
  let main_v65 : FVec F S40000x64 .f32 := broadcastInDim S40000x64 ![] bcast_S_S40000x64 main_cst_24
  let main_v66 : IVec S40000x64 1 := cmpf .olt main_v64 main_v65
  let main_c_25 : IVec S_ 1 := constantI S_ 1 1#1
  let main_v67 : IVec S_ 1 := (fun x v => Host.reduce IntOp.andi x v reducesTo_S40000x64_S_d0_1 h_S_) main_v66 main_c_25
  fn_part4 (F := F) main_arg24 main_arg25 main_arg26 main_arg27 main_arg28 main_arg29 main_arg30 main_arg31 main_arg32 main_arg33 main_arg34 main_arg37 main_arg40 main_arg43 main_arg46 main_arg47 main_arg48 main_arg49 main_arg50 main_arg51 main_arg52 main_arg53 main_arg54 main_v63 main_v67

def fn_part2 {F : FTy → Type} [FloatOps F] (main_arg13 : FVec F S800000 .f32) (main_arg16 : FVec F S320000 .f32) (main_arg19 : FVec F S80000 .f32) (main_arg20 : FVec F S50000x64 .f32) (main_arg21 : FVec F S150000x64 .f32) (main_arg22 : FVec F S100000x64 .f32) (main_arg23 : FVec F S40000x64 .f32) (main_arg24 : FVec F S10000x64 .f32) (main_arg25 : FVec F S64x64 .f32) (main_arg26 : FVec F S64x64 .f32) (main_arg27 : FVec F S64x64 .f32) (main_arg28 : FVec F S64x64 .f32) (main_arg29 : FVec F S64x64 .f32) (main_arg30 : FVec F S64x64 .f32) (main_arg31 : FVec F S64x64 .f32) (main_arg32 : FVec F S64x64 .f32) (main_arg33 : FVec F S64x64 .f32) (main_arg34 : FVec F S64x64 .f32) (main_arg37 : FVec F S600000 .f32) (main_arg40 : FVec F S400000 .f32) (main_arg43 : FVec F S160000 .f32) (main_arg46 : FVec F S40000 .f32) (main_arg47 : FVec F S64x64 .f32) (main_arg48 : FVec F S64x64 .f32) (main_arg49 : FVec F S64x64 .f32) (main_arg50 : FVec F S64x64 .f32) (main_arg51 : FVec F S64x64 .f32) (main_arg52 : FVec F S64x64 .f32) (main_arg53 : FVec F S64x64 .f32) (main_arg54 : FVec F S64x64 .f32) (main_v33 : IVec S_ 1) : IVec S_ 1 :=
  let main_v34 : FVec F S800000 .f32 := Host.absf main_arg13
  let main_cst_12 : FVec F S_ .f32 := constant S_ .f32 0x7F800000#32
  let main_v35 : FVec F S800000 .f32 := broadcastInDim S800000 ![] bcast_S_S800000 main_cst_12
  let main_v36 : IVec S800000 1 := cmpf .olt main_v34 main_v35
  let main_c_13 : IVec S_ 1 := constantI S_ 1 1#1
  let main_v37 : IVec S_ 1 := (fun x v => Host.reduce IntOp.andi x v reducesTo_S800000_S_d0 h_S_) main_v36 main_c_13
  let main_v38 : IVec S_ 1 := andi main_v33 main_v37
  let main_v39 : FVec F S320000 .f32 := Host.absf main_arg16
  let main_cst_14 : FVec F S_ .f32 := constant S_ .f32 0x7F800000#32
  let main_v40 : FVec F S320000 .f32 := broadcastInDim S320000 ![] bcast_S_S320000 main_cst_14
  let main_v41 : IVec S320000 1 := cmpf .olt main_v39 main_v40
  let main_c_15 : IVec S_ 1 := constantI S_ 1 1#1
  let main_v42 : IVec S_ 1 := (fun x v => Host.reduce IntOp.andi x v reducesTo_S320000_S_d0 h_S_) main_v41 main_c_15
  let main_v43 : IVec S_ 1 := andi main_v38 main_v42
  let main_v44 : FVec F S80000 .f32 := Host.absf main_arg19
  let main_cst_16 : FVec F S_ .f32 := constant S_ .f32 0x7F800000#32
  let main_v45 : FVec F S80000 .f32 := broadcastInDim S80000 ![] bcast_S_S80000 main_cst_16
  let main_v46 : IVec S80000 1 := cmpf .olt main_v44 main_v45
  let main_c_17 : IVec S_ 1 := constantI S_ 1 1#1
  let main_v47 : IVec S_ 1 := (fun x v => Host.reduce IntOp.andi x v reducesTo_S80000_S_d0 h_S_) main_v46 main_c_17
  let main_v48 : IVec S_ 1 := andi main_v43 main_v47
  let main_v49 : FVec F S50000x64 .f32 := Host.absf main_arg20
  let main_cst_18 : FVec F S_ .f32 := constant S_ .f32 0x7F800000#32
  let main_v50 : FVec F S50000x64 .f32 := broadcastInDim S50000x64 ![] bcast_S_S50000x64 main_cst_18
  fn_part3 (F := F) main_arg21 main_arg22 main_arg23 main_arg24 main_arg25 main_arg26 main_arg27 main_arg28 main_arg29 main_arg30 main_arg31 main_arg32 main_arg33 main_arg34 main_arg37 main_arg40 main_arg43 main_arg46 main_arg47 main_arg48 main_arg49 main_arg50 main_arg51 main_arg52 main_arg53 main_arg54 main_v48 main_v49 main_v50

def fn_part1 {F : FTy → Type} [FloatOps F] (main_arg4 : FVec F S10000x64 .f32) (main_arg7 : FVec F S400000 .f32) (main_arg10 : FVec F S1200000 .f32) (main_arg13 : FVec F S800000 .f32) (main_arg16 : FVec F S320000 .f32) (main_arg19 : FVec F S80000 .f32) (main_arg20 : FVec F S50000x64 .f32) (main_arg21 : FVec F S150000x64 .f32) (main_arg22 : FVec F S100000x64 .f32) (main_arg23 : FVec F S40000x64 .f32) (main_arg24 : FVec F S10000x64 .f32) (main_arg25 : FVec F S64x64 .f32) (main_arg26 : FVec F S64x64 .f32) (main_arg27 : FVec F S64x64 .f32) (main_arg28 : FVec F S64x64 .f32) (main_arg29 : FVec F S64x64 .f32) (main_arg30 : FVec F S64x64 .f32) (main_arg31 : FVec F S64x64 .f32) (main_arg32 : FVec F S64x64 .f32) (main_arg33 : FVec F S64x64 .f32) (main_arg34 : FVec F S64x64 .f32) (main_arg37 : FVec F S600000 .f32) (main_arg40 : FVec F S400000 .f32) (main_arg43 : FVec F S160000 .f32) (main_arg46 : FVec F S40000 .f32) (main_arg47 : FVec F S64x64 .f32) (main_arg48 : FVec F S64x64 .f32) (main_arg49 : FVec F S64x64 .f32) (main_arg50 : FVec F S64x64 .f32) (main_arg51 : FVec F S64x64 .f32) (main_arg52 : FVec F S64x64 .f32) (main_arg53 : FVec F S64x64 .f32) (main_arg54 : FVec F S64x64 .f32) (main_v13 : IVec S_ 1) (main_v16 : IVec S40000x64 1) : IVec S_ 1 :=
  let main_c_5 : IVec S_ 1 := constantI S_ 1 1#1
  let main_v17 : IVec S_ 1 := (fun x v => Host.reduce IntOp.andi x v reducesTo_S40000x64_S_d0_1 h_S_) main_v16 main_c_5
  let main_v18 : IVec S_ 1 := andi main_v13 main_v17
  let main_v19 : FVec F S10000x64 .f32 := Host.absf main_arg4
  let main_cst_6 : FVec F S_ .f32 := constant S_ .f32 0x7F800000#32
  let main_v20 : FVec F S10000x64 .f32 := broadcastInDim S10000x64 ![] bcast_S_S10000x64 main_cst_6
  let main_v21 : IVec S10000x64 1 := cmpf .olt main_v19 main_v20
  let main_c_7 : IVec S_ 1 := constantI S_ 1 1#1
  let main_v22 : IVec S_ 1 := (fun x v => Host.reduce IntOp.andi x v reducesTo_S10000x64_S_d0_1 h_S_) main_v21 main_c_7
  let main_v23 : IVec S_ 1 := andi main_v18 main_v22
  let main_v24 : FVec F S400000 .f32 := Host.absf main_arg7
  let main_cst_8 : FVec F S_ .f32 := constant S_ .f32 0x7F800000#32
  let main_v25 : FVec F S400000 .f32 := broadcastInDim S400000 ![] bcast_S_S400000 main_cst_8
  let main_v26 : IVec S400000 1 := cmpf .olt main_v24 main_v25
  let main_c_9 : IVec S_ 1 := constantI S_ 1 1#1
  let main_v27 : IVec S_ 1 := (fun x v => Host.reduce IntOp.andi x v reducesTo_S400000_S_d0 h_S_) main_v26 main_c_9
  let main_v28 : IVec S_ 1 := andi main_v23 main_v27
  let main_v29 : FVec F S1200000 .f32 := Host.absf main_arg10
  let main_cst_10 : FVec F S_ .f32 := constant S_ .f32 0x7F800000#32
  let main_v30 : FVec F S1200000 .f32 := broadcastInDim S1200000 ![] bcast_S_S1200000 main_cst_10
  let main_v31 : IVec S1200000 1 := cmpf .olt main_v29 main_v30
  let main_c_11 : IVec S_ 1 := constantI S_ 1 1#1
  let main_v32 : IVec S_ 1 := (fun x v => Host.reduce IntOp.andi x v reducesTo_S1200000_S_d0 h_S_) main_v31 main_c_11
  let main_v33 : IVec S_ 1 := andi main_v28 main_v32
  fn_part2 (F := F) main_arg13 main_arg16 main_arg19 main_arg20 main_arg21 main_arg22 main_arg23 main_arg24 main_arg25 main_arg26 main_arg27 main_arg28 main_arg29 main_arg30 main_arg31 main_arg32 main_arg33 main_arg34 main_arg37 main_arg40 main_arg43 main_arg46 main_arg47 main_arg48 main_arg49 main_arg50 main_arg51 main_arg52 main_arg53 main_arg54 main_v33

def fn {F : FTy → Type} [FloatOps F] (main_arg0 : FVec F S50000x64 .f32) (main_arg1 : FVec F S150000x64 .f32) (main_arg2 : FVec F S100000x64 .f32) (main_arg3 : FVec F S40000x64 .f32) (main_arg4 : FVec F S10000x64 .f32) (main_arg5 : IVec S400000 32) (main_arg6 : IVec S400000 32) (main_arg7 : FVec F S400000 .f32) (main_arg8 : IVec S1200000 32) (main_arg9 : IVec S1200000 32) (main_arg10 : FVec F S1200000 .f32) (main_arg11 : IVec S800000 32) (main_arg12 : IVec S800000 32) (main_arg13 : FVec F S800000 .f32) (main_arg14 : IVec S320000 32) (main_arg15 : IVec S320000 32) (main_arg16 : FVec F S320000 .f32) (main_arg17 : IVec S80000 32) (main_arg18 : IVec S80000 32) (main_arg19 : FVec F S80000 .f32) (main_arg20 : FVec F S50000x64 .f32) (main_arg21 : FVec F S150000x64 .f32) (main_arg22 : FVec F S100000x64 .f32) (main_arg23 : FVec F S40000x64 .f32) (main_arg24 : FVec F S10000x64 .f32) (main_arg25 : FVec F S64x64 .f32) (main_arg26 : FVec F S64x64 .f32) (main_arg27 : FVec F S64x64 .f32) (main_arg28 : FVec F S64x64 .f32) (main_arg29 : FVec F S64x64 .f32) (main_arg30 : FVec F S64x64 .f32) (main_arg31 : FVec F S64x64 .f32) (main_arg32 : FVec F S64x64 .f32) (main_arg33 : FVec F S64x64 .f32) (main_arg34 : FVec F S64x64 .f32) (main_arg35 : IVec S600000 32) (main_arg36 : IVec S600000 32) (main_arg37 : FVec F S600000 .f32) (main_arg38 : IVec S400000 32) (main_arg39 : IVec S400000 32) (main_arg40 : FVec F S400000 .f32) (main_arg41 : IVec S160000 32) (main_arg42 : IVec S160000 32) (main_arg43 : FVec F S160000 .f32) (main_arg44 : IVec S40000 32) (main_arg45 : IVec S40000 32) (main_arg46 : FVec F S40000 .f32) (main_arg47 : FVec F S64x64 .f32) (main_arg48 : FVec F S64x64 .f32) (main_arg49 : FVec F S64x64 .f32) (main_arg50 : FVec F S64x64 .f32) (main_arg51 : FVec F S64x64 .f32) (main_arg52 : FVec F S64x64 .f32) (main_arg53 : FVec F S64x64 .f32) (main_arg54 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S40000x64 .f32 := Host.absf main_arg3
  let main_cst_4 : FVec F S_ .f32 := constant S_ .f32 0x7F800000#32
  let main_v15 : FVec F S40000x64 .f32 := broadcastInDim S40000x64 ![] bcast_S_S40000x64 main_cst_4
  let main_v16 : IVec S40000x64 1 := cmpf .olt main_v14 main_v15
  fn_part1 (F := F) main_arg4 main_arg7 main_arg10 main_arg13 main_arg16 main_arg19 main_arg20 main_arg21 main_arg22 main_arg23 main_arg24 main_arg25 main_arg26 main_arg27 main_arg28 main_arg29 main_arg30 main_arg31 main_arg32 main_arg33 main_arg34 main_arg37 main_arg40 main_arg43 main_arg46 main_arg47 main_arg48 main_arg49 main_arg50 main_arg51 main_arg52 main_arg53 main_arg54 main_v13 main_v16
-- ==== Kernel.lean ====
abbrev S50000x64 : Shape := ⟨2, ![50000, 64]⟩
abbrev S150000x64 : Shape := ⟨2, ![150000, 64]⟩
abbrev S100000x64 : Shape := ⟨2, ![100000, 64]⟩
abbrev S40000x64 : Shape := ⟨2, ![40000, 64]⟩
abbrev S10000x64 : Shape := ⟨2, ![10000, 64]⟩
abbrev S400000 : Shape := ⟨1, ![400000]⟩
abbrev S1200000 : Shape := ⟨1, ![1200000]⟩
abbrev S800000 : Shape := ⟨1, ![800000]⟩
abbrev S320000 : Shape := ⟨1, ![320000]⟩
abbrev S80000 : Shape := ⟨1, ![80000]⟩
abbrev S64x64 : Shape := ⟨2, ![64, 64]⟩
abbrev S600000 : Shape := ⟨1, ![600000]⟩
abbrev S160000 : Shape := ⟨1, ![160000]⟩
abbrev S40000 : Shape := ⟨1, ![40000]⟩
abbrev S64x128 : Shape := ⟨2, ![64, 128]⟩
abbrev S50000x128 : Shape := ⟨2, ![50000, 128]⟩
abbrev S10000x128 : Shape := ⟨2, ![10000, 128]⟩
abbrev S64x192 : Shape := ⟨2, ![64, 192]⟩
abbrev S_ : Shape := ⟨0, ![]⟩
abbrev S64x256 : Shape := ⟨2, ![64, 256]⟩
abbrev S150000x256 : Shape := ⟨2, ![150000, 256]⟩
abbrev S10000x256 : Shape := ⟨2, ![10000, 256]⟩
abbrev S100000x256 : Shape := ⟨2, ![100000, 256]⟩
abbrev S40000x256 : Shape := ⟨2, ![40000, 256]⟩
abbrev S400000x1 : Shape := ⟨2, ![400000, 1]⟩
abbrev S400000x64 : Shape := ⟨2, ![400000, 64]⟩
abbrev S1200000x1 : Shape := ⟨2, ![1200000, 1]⟩
abbrev S1200000x64 : Shape := ⟨2, ![1200000, 64]⟩
abbrev S800000x1 : Shape := ⟨2, ![800000, 1]⟩
abbrev S800000x64 : Shape := ⟨2, ![800000, 64]⟩
abbrev S320000x1 : Shape := ⟨2, ![320000, 1]⟩
abbrev S320000x64 : Shape := ⟨2, ![320000, 64]⟩
abbrev S80000x1 : Shape := ⟨2, ![80000, 1]⟩
abbrev S80000x64 : Shape := ⟨2, ![80000, 64]⟩
abbrev S600000x1 : Shape := ⟨2, ![600000, 1]⟩
abbrev S600000x64 : Shape := ⟨2, ![600000, 64]⟩
abbrev S160000x1 : Shape := ⟨2, ![160000, 1]⟩
abbrev S160000x64 : Shape := ⟨2, ![160000, 64]⟩
abbrev S40000x1 : Shape := ⟨2, ![40000, 1]⟩

abbrev nBuf : Space → Nat
  | .hbm => 300
  | .vmem => 70
  | .smem => 0
  | _ => 0

abbrev hbmTy0_0 (i : Nat) : BufTy := match i % 128 with
  | 0 => ⟨S50000x64, .f32⟩
  | 1 => ⟨S150000x64, .f32⟩
  | 2 => ⟨S100000x64, .f32⟩
  | 3 => ⟨S40000x64, .f32⟩
  | 4 => ⟨S10000x64, .f32⟩
  | 5 => ⟨S400000, .i32⟩
  | 6 => ⟨S400000, .i32⟩
  | 7 => ⟨S400000, .f32⟩
  | 8 => ⟨S1200000, .i32⟩
  | 9 => ⟨S1200000, .i32⟩
  | 10 => ⟨S1200000, .f32⟩
  | 11 => ⟨S800000, .i32⟩
  | 12 => ⟨S800000, .i32⟩
  | 13 => ⟨S800000, .f32⟩
  | 14 => ⟨S320000, .i32⟩
  | 15 => ⟨S320000, .i32⟩
  | 16 => ⟨S320000, .f32⟩
  | 17 => ⟨S80000, .i32⟩
  | 18 => ⟨S80000, .i32⟩
  | 19 => ⟨S80000, .f32⟩
  | 20 => ⟨S50000x64, .f32⟩
  | 21 => ⟨S150000x64, .f32⟩
  | 22 => ⟨S100000x64, .f32⟩
  | 23 => ⟨S40000x64, .f32⟩
  | 24 => ⟨S10000x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S600000, .i32⟩
  | 36 => ⟨S600000, .i32⟩
  | 37 => ⟨S600000, .f32⟩
  | 38 => ⟨S400000, .i32⟩
  | 39 => ⟨S400000, .i32⟩
  | 40 => ⟨S400000, .f32⟩
  | 41 => ⟨S160000, .i32⟩
  | 42 => ⟨S160000, .i32⟩
  | 43 => ⟨S160000, .f32⟩
  | 44 => ⟨S40000, .i32⟩
  | 45 => ⟨S40000, .i32⟩
  | 46 => ⟨S40000, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S64x64, .f32⟩
  | 54 => ⟨S64x64, .f32⟩
  | 55 => ⟨S64x128, .f32⟩
  | 56 => ⟨S50000x128, .f32⟩
  | 57 => ⟨S50000x64, .f32⟩
  | 58 => ⟨S50000x64, .f32⟩
  | 59 => ⟨S64x192, .f32⟩
  | 60 => ⟨S_, .i32⟩
  | 61 => ⟨S_, .f32⟩
  | 62 => ⟨S64x256, .f32⟩
  | 63 => ⟨S150000x256, .f32⟩
  | 64 => ⟨S150000x64, .f32⟩
  | 65 => ⟨S150000x64, .f32⟩
  | 66 => ⟨S150000x64, .f32⟩
  | 67 => ⟨S64x192, .f32⟩
  | 68 => ⟨S_, .i32⟩
  | 69 => ⟨S_, .f32⟩
  | 70 => ⟨S64x256, .f32⟩
  | 71 => ⟨S100000x256, .f32⟩
  | 72 => ⟨S100000x64, .f32⟩
  | 73 => ⟨S100000x64, .f32⟩
  | 74 => ⟨S100000x64, .f32⟩
  | 75 => ⟨S64x192, .f32⟩
  | 76 => ⟨S_, .i32⟩
  | 77 => ⟨S_, .f32⟩
  | 78 => ⟨S64x256, .f32⟩
  | 79 => ⟨S40000x256, .f32⟩
  | 80 => ⟨S40000x64, .f32⟩
  | 81 => ⟨S40000x64, .f32⟩
  | 82 => ⟨S40000x64, .f32⟩
  | 83 => ⟨S64x128, .f32⟩
  | 84 => ⟨S10000x128, .f32⟩
  | 85 => ⟨S10000x64, .f32⟩
  | 86 => ⟨S10000x64, .f32⟩
  | 87 => ⟨S400000x1, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S400000x64, .f32⟩
  | 97 => ⟨S400000x64, .f32⟩
  | 98 => ⟨S400000x64, .f32⟩
  | 99 => ⟨S_, .f32⟩
  | 100 => ⟨S50000x64, .f32⟩
  | 101 => ⟨S400000x1, .i32⟩
  | 102 => ⟨S50000x64, .f32⟩
  | 103 => ⟨S1200000x1, .f32⟩
  | 104 => ⟨S_, .i32⟩
  | 105 => ⟨S1200000, .i32⟩
  | 106 => ⟨S1200000, .i1⟩
  | 107 => ⟨S_, .i32⟩
  | 108 => ⟨S1200000, .i32⟩
  | 109 => ⟨S1200000, .i32⟩
  | 110 => ⟨S1200000, .i32⟩
  | 111 => ⟨S1200000x1, .i32⟩
  | 112 => ⟨S1200000x64, .f32⟩
  | 113 => ⟨S1200000x64, .f32⟩
  | 114 => ⟨S1200000x64, .f32⟩
  | 115 => ⟨S_, .f32⟩
  | 116 => ⟨S150000x64, .f32⟩
  | 117 => ⟨S1200000x1, .i32⟩
  | 118 => ⟨S150000x64, .f32⟩
  | 119 => ⟨S800000x1, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S800000x64, .f32⟩
  | 1 => ⟨S800000x64, .f32⟩
  | 2 => ⟨S800000x64, .f32⟩
  | 3 => ⟨S_, .f32⟩
  | 4 => ⟨S100000x64, .f32⟩
  | 5 => ⟨S800000x1, .i32⟩
  | 6 => ⟨S100000x64, .f32⟩
  | 7 => ⟨S320000x1, .f32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S320000x64, .f32⟩
  | 17 => ⟨S320000x64, .f32⟩
  | 18 => ⟨S320000x64, .f32⟩
  | 19 => ⟨S_, .f32⟩
  | 20 => ⟨S40000x64, .f32⟩
  | 21 => ⟨S320000x1, .i32⟩
  | 22 => ⟨S40000x64, .f32⟩
  | 23 => ⟨S80000x1, .f32⟩
  | 24 => ⟨S_, .i32⟩
  | 25 => ⟨S80000, .i32⟩
  | 26 => ⟨S80000, .i1⟩
  | 27 => ⟨S_, .i32⟩
  | 28 => ⟨S80000, .i32⟩
  | 29 => ⟨S80000, .i32⟩
  | 30 => ⟨S80000, .i32⟩
  | 31 => ⟨S80000x1, .i32⟩
  | 32 => ⟨S80000x64, .f32⟩
  | 33 => ⟨S80000x64, .f32⟩
  | 34 => ⟨S80000x64, .f32⟩
  | 35 => ⟨S_, .f32⟩
  | 36 => ⟨S10000x64, .f32⟩
  | 37 => ⟨S80000x1, .i32⟩
  | 38 => ⟨S10000x64, .f32⟩
  | 39 => ⟨S600000x1, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x64, .f32⟩
  | 49 => ⟨S600000x64, .f32⟩
  | 50 => ⟨S600000x64, .f32⟩
  | 51 => ⟨S_, .f32⟩
  | 52 => ⟨S50000x64, .f32⟩
  | 53 => ⟨S600000x1, .i32⟩
  | 54 => ⟨S50000x64, .f32⟩
  | 55 => ⟨S600000x1, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x64, .f32⟩
  | 65 => ⟨S600000x64, .f32⟩
  | 66 => ⟨S600000x64, .f32⟩
  | 67 => ⟨S_, .f32⟩
  | 68 => ⟨S150000x64, .f32⟩
  | 69 => ⟨S600000x1, .i32⟩
  | 70 => ⟨S150000x64, .f32⟩
  | 71 => ⟨S400000x1, .f32⟩
  | 72 => ⟨S_, .i32⟩
  | 73 => ⟨S400000, .i32⟩
  | 74 => ⟨S400000, .i1⟩
  | 75 => ⟨S_, .i32⟩
  | 76 => ⟨S400000, .i32⟩
  | 77 => ⟨S400000, .i32⟩
  | 78 => ⟨S400000, .i32⟩
  | 79 => ⟨S400000x1, .i32⟩
  | 80 => ⟨S400000x64, .f32⟩
  | 81 => ⟨S400000x64, .f32⟩
  | 82 => ⟨S400000x64, .f32⟩
  | 83 => ⟨S_, .f32⟩
  | 84 => ⟨S150000x64, .f32⟩
  | 85 => ⟨S400000x1, .i32⟩
  | 86 => ⟨S150000x64, .f32⟩
  | 87 => ⟨S400000x1, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S400000x64, .f32⟩
  | 97 => ⟨S400000x64, .f32⟩
  | 98 => ⟨S400000x64, .f32⟩
  | 99 => ⟨S_, .f32⟩
  | 100 => ⟨S100000x64, .f32⟩
  | 101 => ⟨S400000x1, .i32⟩
  | 102 => ⟨S100000x64, .f32⟩
  | 103 => ⟨S160000x1, .f32⟩
  | 104 => ⟨S_, .i32⟩
  | 105 => ⟨S160000, .i32⟩
  | 106 => ⟨S160000, .i1⟩
  | 107 => ⟨S_, .i32⟩
  | 108 => ⟨S160000, .i32⟩
  | 109 => ⟨S160000, .i32⟩
  | 110 => ⟨S160000, .i32⟩
  | 111 => ⟨S160000x1, .i32⟩
  | 112 => ⟨S160000x64, .f32⟩
  | 113 => ⟨S160000x64, .f32⟩
  | 114 => ⟨S160000x64, .f32⟩
  | 115 => ⟨S_, .f32⟩
  | 116 => ⟨S100000x64, .f32⟩
  | 117 => ⟨S160000x1, .i32⟩
  | 118 => ⟨S100000x64, .f32⟩
  | 119 => ⟨S160000x1, .f32⟩
  | 120 => ⟨S_, .i32⟩
  | 121 => ⟨S160000, .i32⟩
  | 122 => ⟨S160000, .i1⟩
  | 123 => ⟨S_, .i32⟩
  | 124 => ⟨S160000, .i32⟩
  | 125 => ⟨S160000, .i32⟩
  | 126 => ⟨S160000, .i32⟩
  | 127 => ⟨S160000x1, .i32⟩
  | _ => ⟨S50000x64, .f32⟩

abbrev hbmTy0_2 (i : Nat) : BufTy := match i % 128 with
  | 0 => ⟨S160000x64, .f32⟩
  | 1 => ⟨S160000x64, .f32⟩
  | 2 => ⟨S160000x64, .f32⟩
  | 3 => ⟨S_, .f32⟩
  | 4 => ⟨S40000x64, .f32⟩
  | 5 => ⟨S160000x1, .i32⟩
  | 6 => ⟨S40000x64, .f32⟩
  | 7 => ⟨S40000x1, .f32⟩
  | 8 => ⟨S_, .i32⟩
  | 9 => ⟨S40000, .i32⟩
  | 10 => ⟨S40000, .i1⟩
  | 11 => ⟨S_, .i32⟩
  | 12 => ⟨S40000, .i32⟩
  | 13 => ⟨S40000, .i32⟩
  | 14 => ⟨S40000, .i32⟩
  | 15 => ⟨S40000x1, .i32⟩
  | 16 => ⟨S40000x64, .f32⟩
  | 17 => ⟨S40000x64, .f32⟩
  | 18 => ⟨S40000x64, .f32⟩
  | 19 => ⟨S_, .f32⟩
  | 20 => ⟨S40000x64, .f32⟩
  | 21 => ⟨S40000x1, .i32⟩
  | 22 => ⟨S40000x64, .f32⟩
  | 23 => ⟨S40000x1, .f32⟩
  | 24 => ⟨S_, .i32⟩
  | 25 => ⟨S40000, .i32⟩
  | 26 => ⟨S40000, .i1⟩
  | 27 => ⟨S_, .i32⟩
  | 28 => ⟨S40000, .i32⟩
  | 29 => ⟨S40000, .i32⟩
  | 30 => ⟨S40000, .i32⟩
  | 31 => ⟨S40000x1, .i32⟩
  | 32 => ⟨S40000x64, .f32⟩
  | 33 => ⟨S40000x64, .f32⟩
  | 34 => ⟨S40000x64, .f32⟩
  | 35 => ⟨S_, .f32⟩
  | 36 => ⟨S10000x64, .f32⟩
  | 37 => ⟨S40000x1, .i32⟩
  | 38 => ⟨S10000x64, .f32⟩
  | 39 => ⟨S50000x64, .f32⟩
  | 40 => ⟨S150000x64, .f32⟩
  | 41 => ⟨S100000x64, .f32⟩
  | 42 => ⟨S40000x64, .f32⟩
  | 43 => ⟨S10000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x64, .f32⟩
  | .local _ .vmem, ⟨6, _⟩ => ⟨S10000x64, .f32⟩
  | .local _ .vmem, ⟨7, _⟩ => ⟨S64x256, .f32⟩
  | .local _ .vmem, ⟨8, _⟩ => ⟨S10000x256, .f32⟩
  | .local _ .vmem, ⟨9, _⟩ => ⟨S10000x256, .f32⟩
  | .local _ .vmem, ⟨10, _⟩ => ⟨S10000x64, .f32⟩
  | .local _ .vmem, ⟨11, _⟩ => ⟨S10000x64, .f32⟩
  | .local _ .vmem, ⟨12, _⟩ => ⟨S64x256, .f32⟩
  | .local _ .vmem, ⟨13, _⟩ => ⟨S10000x256, .f32⟩
  | .local _ .vmem, ⟨14, _⟩ => ⟨S10000x256, .f32⟩
  | .local _ .vmem, ⟨15, _⟩ => ⟨S10000x64, .f32⟩
  | .local _ .vmem, ⟨16, _⟩ => ⟨S10000x64, .f32⟩
  | .local _ .vmem, ⟨17, _⟩ => ⟨S64x256, .f32⟩
  | .local _ .vmem, ⟨18, _⟩ => ⟨S10000x256, .f32⟩
  | .local _ .vmem, ⟨19, _⟩ => ⟨S10000x256, .f32⟩
  | .local _ .vmem, ⟨20, _⟩ => ⟨S10000x64, .f32⟩
  | .local _ .vmem, ⟨21, _⟩ => ⟨S64x128, .f32⟩
  | .local _ .vmem, ⟨22, _⟩ => ⟨S10000x128, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S64x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S64x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S64x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S64x64, .f32⟩
  | .local _ .vmem, ⟨69, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_v0 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_c : Ref sig .tc := ⟨.hbm, 60, rfl⟩
abbrev main_call0_v0 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_c_0 : Ref sig .tc := ⟨.hbm, 68, rfl⟩
abbrev main_call1_v0 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_c_1 : Ref sig .tc := ⟨.hbm, 76, rfl⟩
abbrev main_call2_v0 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_c_2 : Ref sig .tc := ⟨.hbm, 88, rfl⟩
abbrev main_v27 : Ref sig .tc := ⟨.hbm, 89, rfl⟩
abbrev main_v28 : Ref sig .tc := ⟨.hbm, 90, rfl⟩
abbrev main_c_3 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_cst : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_c_4 : Ref sig .tc := ⟨.hbm, 104, rfl⟩
abbrev main_v40 : Ref sig .tc := ⟨.hbm, 105, rfl⟩
abbrev main_v41 : Ref sig .tc := ⟨.hbm, 106, rfl⟩
abbrev main_c_5 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_cst_6 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_c_7 : Ref sig .tc := ⟨.hbm, 120, rfl⟩
abbrev main_v53 : Ref sig .tc := ⟨.hbm, 121, rfl⟩
abbrev main_v54 : Ref sig .tc := ⟨.hbm, 122, rfl⟩
abbrev main_c_8 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_cst_9 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_c_10 : Ref sig .tc := ⟨.hbm, 136, rfl⟩
abbrev main_v66 : Ref sig .tc := ⟨.hbm, 137, rfl⟩
abbrev main_v67 : Ref sig .tc := ⟨.hbm, 138, rfl⟩
abbrev main_c_11 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_cst_12 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_c_13 : Ref sig .tc := ⟨.hbm, 152, rfl⟩
abbrev main_v79 : Ref sig .tc := ⟨.hbm, 153, rfl⟩
abbrev main_v80 : Ref sig .tc := ⟨.hbm, 154, rfl⟩
abbrev main_c_14 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_cst_15 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_c_16 : Ref sig .tc := ⟨.hbm, 168, rfl⟩
abbrev main_v92 : Ref sig .tc := ⟨.hbm, 169, rfl⟩
abbrev main_v93 : Ref sig .tc := ⟨.hbm, 170, rfl⟩
abbrev main_c_17 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_18 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_c_19 : Ref sig .tc := ⟨.hbm, 184, rfl⟩
abbrev main_v105 : Ref sig .tc := ⟨.hbm, 185, rfl⟩
abbrev main_v106 : Ref sig .tc := ⟨.hbm, 186, rfl⟩
abbrev main_c_20 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_cst_21 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_c_22 : Ref sig .tc := ⟨.hbm, 200, rfl⟩
abbrev main_v118 : Ref sig .tc := ⟨.hbm, 201, rfl⟩
abbrev main_v119 : Ref sig .tc := ⟨.hbm, 202, rfl⟩
abbrev main_c_23 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_cst_24 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_c_25 : Ref sig .tc := ⟨.hbm, 216, rfl⟩
abbrev main_v131 : Ref sig .tc := ⟨.hbm, 217, rfl⟩
abbrev main_v132 : Ref sig .tc := ⟨.hbm, 218, rfl⟩
abbrev main_c_26 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_cst_27 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_c_28 : Ref sig .tc := ⟨.hbm, 232, rfl⟩
abbrev main_v144 : Ref sig .tc := ⟨.hbm, 233, rfl⟩
abbrev main_v145 : Ref sig .tc := ⟨.hbm, 234, rfl⟩
abbrev main_c_29 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_cst_30 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_c_31 : Ref sig .tc := ⟨.hbm, 248, rfl⟩
abbrev main_v157 : Ref sig .tc := ⟨.hbm, 249, rfl⟩
abbrev main_v158 : Ref sig .tc := ⟨.hbm, 250, rfl⟩
abbrev main_c_32 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_cst_33 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_c_34 : Ref sig .tc := ⟨.hbm, 264, rfl⟩
abbrev main_v170 : Ref sig .tc := ⟨.hbm, 265, rfl⟩
abbrev main_v171 : Ref sig .tc := ⟨.hbm, 266, rfl⟩
abbrev main_c_35 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_cst_36 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_c_37 : Ref sig .tc := ⟨.hbm, 280, rfl⟩
abbrev main_v183 : Ref sig .tc := ⟨.hbm, 281, rfl⟩
abbrev main_v184 : Ref sig .tc := ⟨.hbm, 282, rfl⟩
abbrev main_c_38 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_cst_39 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg1_1 : Ref sig .tc := ⟨.vmem, 26, rfl⟩
abbrev cc5_stg2_0 : Ref sig .tc := ⟨.vmem, 27, rfl⟩
abbrev cc5_stg2_1 : Ref sig .tc := ⟨.vmem, 28, rfl⟩
abbrev cc5_stg3_0 : Ref sig .tc := ⟨.vmem, 29, rfl⟩
abbrev cc5_stg4_0 : Ref sig .tc := ⟨.vmem, 30, rfl⟩
abbrev cc5_stg4_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc6_stg3_0 : Ref sig .tc := ⟨.vmem, 38, rfl⟩
abbrev cc6_stg3_1 : Ref sig .tc := ⟨.vmem, 39, rfl⟩
abbrev cc6_stg4_0 : Ref sig .tc := ⟨.vmem, 40, rfl⟩
abbrev cc6_stg5_0 : Ref sig .tc := ⟨.vmem, 41, rfl⟩
abbrev cc6_stg5_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc7_stg3_0 : Ref sig .tc := ⟨.vmem, 49, rfl⟩
abbrev cc7_stg3_1 : Ref sig .tc := ⟨.vmem, 50, rfl⟩
abbrev cc7_stg4_0 : Ref sig .tc := ⟨.vmem, 51, rfl⟩
abbrev cc7_stg5_0 : Ref sig .tc := ⟨.vmem, 52, rfl⟩
abbrev cc7_stg5_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg2_1 : Ref sig .tc := ⟨.vmem, 59, rfl⟩
abbrev cc8_stg3_0 : Ref sig .tc := ⟨.vmem, 60, rfl⟩
abbrev cc8_stg3_1 : Ref sig .tc := ⟨.vmem, 61, rfl⟩
abbrev cc8_stg4_0 : Ref sig .tc := ⟨.vmem, 62, rfl⟩
abbrev cc8_stg5_0 : Ref sig .tc := ⟨.vmem, 63, rfl⟩
abbrev cc8_stg5_1 : Ref sig .tc := ⟨.vmem, 64, rfl⟩
abbrev cc9_stg0_0 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg4_0 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc5_sem0_0 : DmaSem sig := 23
abbrev cc5_sem0_1 : DmaSem sig := 24
abbrev cc5_sem1_0 : DmaSem sig := 25
abbrev cc5_sem1_1 : DmaSem sig := 26
abbrev cc5_sem2_0 : DmaSem sig := 27
abbrev cc5_sem2_1 : DmaSem sig := 28
abbrev cc5_sem3_0 : DmaSem sig := 29
abbrev cc5_sem4_0 : DmaSem sig := 30
abbrev cc5_sem4_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37
abbrev cc6_sem3_0 : DmaSem sig := 38
abbrev cc6_sem3_1 : DmaSem sig := 39
abbrev cc6_sem4_0 : DmaSem sig := 40
abbrev cc6_sem5_0 : DmaSem sig := 41
abbrev cc6_sem5_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48
abbrev cc7_sem3_0 : DmaSem sig := 49
abbrev cc7_sem3_1 : DmaSem sig := 50
abbrev cc7_sem4_0 : DmaSem sig := 51
abbrev cc7_sem5_0 : DmaSem sig := 52
abbrev cc7_sem5_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem2_1 : DmaSem sig := 59
abbrev cc8_sem3_0 : DmaSem sig := 60
abbrev cc8_sem3_1 : DmaSem sig := 61
abbrev cc8_sem4_0 : DmaSem sig := 62
abbrev cc8_sem5_0 : DmaSem sig := 63
abbrev cc8_sem5_1 : DmaSem sig := 64
abbrev cc9_sem0_0 : DmaSem sig := 65
abbrev cc9_sem1_0 : DmaSem sig := 66
abbrev cc9_sem2_0 : DmaSem sig := 67
abbrev cc9_sem3_0 : DmaSem sig := 68
abbrev cc9_sem4_0 : DmaSem sig := 69

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S10000x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S10000x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![15], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S10000x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S10000x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S10000x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S10000x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true]

class Facts₀ : Prop where
  concatenates_S64x64_S64x64_S64x128_d1 : Shape.Concatenates [S64x64, S64x64] S64x128 1
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x128_S10000x128_0_0 : ∀ a, (![0, 0] : Fin 2 → Nat) a + S10000x128.size a ≤ S10000x128.size a
  h_S10000x128 : 0 < S10000x128.numel
  slices_S50000x128_S50000x64_0_0 : S50000x128.Slices ![0, 0] S50000x64
  slices_S50000x128_S50000x64_0_64 : S50000x128.Slices ![0, 64] S50000x64
  concatenates_S64x64_S64x64_S64x64_S64x192_d1 : Shape.Concatenates [S64x64, S64x64, S64x64] S64x192 1
  pads_S64x192_S64x256_000_0640 : S64x192.Pads (![0, 0] : Fin 2 → Nat) ![0, 64] ![0, 0] S64x256
  h_S_ : 0 < S_.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S10000x256_S10000x256_0_0 : ∀ a, (![0, 0] : Fin 2 → Nat) a + S10000x256.size a ≤ S10000x256.size a
  h_S10000x256 : 0 < S10000x256.numel
  slices_S150000x256_S150000x64_0_0 : S150000x256.Slices ![0, 0] S150000x64
  slices_S150000x256_S150000x64_0_64 : S150000x256.Slices ![0, 64] S150000x64
  slices_S150000x256_S150000x64_0_128 : S150000x256.Slices ![0, 128] S150000x64
  slices_S100000x256_S100000x64_0_0 : S100000x256.Slices ![0, 0] S100000x64
  slices_S100000x256_S100000x64_0_64 : S100000x256.Slices ![0, 64] S100000x64
  slices_S100000x256_S100000x64_0_128 : S100000x256.Slices ![0, 128] S100000x64
  slices_S40000x256_S40000x64_0_0 : S40000x256.Slices ![0, 0] S40000x64
  slices_S40000x256_S40000x64_0_64 : S40000x256.Slices ![0, 64] S40000x64
  slices_S40000x256_S40000x64_0_128 : S40000x256.Slices ![0, 128] S40000x64
  slices_S10000x128_S10000x64_0_0 : S10000x128.Slices ![0, 0] S10000x64
  slices_S10000x128_S10000x64_0_64 : S10000x128.Slices ![0, 64] S10000x64
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x64_0_1 : S400000x1.BroadcastsInDim S400000x64 (![0, 1] : Fin 2 → Fin S400000x64.rank)
  bcast_S_S50000x64 : S_.BroadcastsInDim S50000x64 (![] : Fin 0 → Fin S50000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x64_0_1 : S320000x1.BroadcastsInDim S320000x64 (![0, 1] : Fin 2 → Fin S320000x64.rank)
  bcast_S_S40000x64 : S_.BroadcastsInDim S40000x64 (![] : Fin 0 → Fin S40000x64.rank)
  bcast_S80000_S80000x1_0 : S80000.BroadcastsInDim S80000x1 (![0] : Fin 1 → Fin S80000x1.rank)
  bcast_S_S80000 : S_.BroadcastsInDim S80000 (![] : Fin 0 → Fin S80000.rank)
  bcast_S80000x1_S80000x64_0_1 : S80000x1.BroadcastsInDim S80000x64 (![0, 1] : Fin 2 → Fin S80000x64.rank)
  bcast_S_S10000x64 : S_.BroadcastsInDim S10000x64 (![] : Fin 0 → Fin S10000x64.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x64_0_1 : S600000x1.BroadcastsInDim S600000x64 (![0, 1] : Fin 2 → Fin S600000x64.rank)
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x64_0_1 : S160000x1.BroadcastsInDim S160000x64 (![0, 1] : Fin 2 → Fin S160000x64.rank)
  bcast_S40000_S40000x1_0 : S40000.BroadcastsInDim S40000x1 (![0] : Fin 1 → Fin S40000x1.rank)
  bcast_S_S40000 : S_.BroadcastsInDim S40000 (![] : Fin 0 → Fin S40000.rank)
  bcast_S40000x1_S40000x64_0_1 : S40000x1.BroadcastsInDim S40000x64 (![0, 1] : Fin 2 → Fin S40000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  dot_S10000x64_S64x128_S10000x128_1_0_0_1_n_n_wf : DotDims.WF S10000x64 S64x128 S10000x128 [1] [0] [0] [1] [] []
  dot_S10000x64_S64x256_S10000x256_1_0_0_1_n_n_wf : DotDims.WF S10000x64 S64x256 S10000x256 [1] [0] [0] [1] [] []
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  gather_S40000x64_S320000x1_S320000x64_1_0_n_n_0_1_164_wf : GatherDims.WF S40000x64 S320000x1 S320000x64 [1] [0] [] [0] [] 1 ![1, 64]
  scatter_S40000x64_S320000x1_S320000x64_1_0_0_1_wf : ScatterDims.WF S40000x64 S320000x1 S320000x64 [1] [0] [0] 1
  gather_S10000x64_S80000x1_S80000x64_1_0_n_n_0_1_164_wf : GatherDims.WF S10000x64 S80000x1 S80000x64 [1] [0] [] [0] [] 1 ![1, 64]
  scatter_S10000x64_S80000x1_S80000x64_1_0_0_1_wf : ScatterDims.WF S10000x64 S80000x1 S80000x64 [1] [0] [0] 1
  gather_S150000x64_S600000x1_S600000x64_1_0_n_n_0_1_164_wf : GatherDims.WF S150000x64 S600000x1 S600000x64 [1] [0] [] [0] [] 1 ![1, 64]
  scatter_S50000x64_S600000x1_S600000x64_1_0_0_1_wf : ScatterDims.WF S50000x64 S600000x1 S600000x64 [1] [0] [0] 1
  gather_S50000x64_S600000x1_S600000x64_1_0_n_n_0_1_164_wf : GatherDims.WF S50000x64 S600000x1 S600000x64 [1] [0] [] [0] [] 1 ![1, 64]
  scatter_S150000x64_S600000x1_S600000x64_1_0_0_1_wf : ScatterDims.WF S150000x64 S600000x1 S600000x64 [1] [0] [0] 1
  gather_S100000x64_S400000x1_S400000x64_1_0_n_n_0_1_164_wf : GatherDims.WF S100000x64 S400000x1 S400000x64 [1] [0] [] [0] [] 1 ![1, 64]
  scatter_S150000x64_S400000x1_S400000x64_1_0_0_1_wf : ScatterDims.WF S150000x64 S400000x1 S400000x64 [1] [0] [0] 1
  gather_S150000x64_S400000x1_S400000x64_1_0_n_n_0_1_164_wf : GatherDims.WF S150000x64 S400000x1 S400000x64 [1] [0] [] [0] [] 1 ![1, 64]
  scatter_S100000x64_S400000x1_S400000x64_1_0_0_1_wf : ScatterDims.WF S100000x64 S400000x1 S400000x64 [1] [0] [0] 1
  gather_S40000x64_S160000x1_S160000x64_1_0_n_n_0_1_164_wf : GatherDims.WF S40000x64 S160000x1 S160000x64 [1] [0] [] [0] [] 1 ![1, 64]
  scatter_S100000x64_S160000x1_S160000x64_1_0_0_1_wf : ScatterDims.WF S100000x64 S160000x1 S160000x64 [1] [0] [0] 1
  gather_S100000x64_S160000x1_S160000x64_1_0_n_n_0_1_164_wf : GatherDims.WF S100000x64 S160000x1 S160000x64 [1] [0] [] [0] [] 1 ![1, 64]
  scatter_S40000x64_S160000x1_S160000x64_1_0_0_1_wf : ScatterDims.WF S40000x64 S160000x1 S160000x64 [1] [0] [0] 1
  gather_S10000x64_S40000x1_S40000x64_1_0_n_n_0_1_164_wf : GatherDims.WF S10000x64 S40000x1 S40000x64 [1] [0] [] [0] [] 1 ![1, 64]
  scatter_S40000x64_S40000x1_S40000x64_1_0_0_1_wf : ScatterDims.WF S40000x64 S40000x1 S40000x64 [1] [0] [0] 1
  gather_S40000x64_S40000x1_S40000x64_1_0_n_n_0_1_164_wf : GatherDims.WF S40000x64 S40000x1 S40000x64 [1] [0] [] [0] [] 1 ![1, 64]
  scatter_S10000x64_S40000x1_S40000x64_1_0_0_1_wf : ScatterDims.WF S10000x64 S40000x1 S40000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S150000x64.size a
  hwx1_0 : ∀ i : grid1.Coords, EltTy.bits .f32 = 32 ∨ (Rect.block (s := S150000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S150000x256.size a
  hwx1_2 : ∀ i : grid1.Coords, EltTy.bits .f32 = 32 ∨ (Rect.block (s := S150000x256) S10000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x256.size a ≤ S100000x256.size a
  hwx2_2 : ∀ i : grid2.Coords, EltTy.bits .f32 = 32 ∨ (Rect.block (s := S100000x256) S10000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S40000x64.size a
  hwx3_0 : ∀ i : grid3.Coords, EltTy.bits .f32 = 32 ∨ (Rect.block (s := S40000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x256.size a ≤ S64x256.size a
  hwx3_1 : ∀ i : grid3.Coords, EltTy.bits .f32 = 32 ∨ (Rect.block (s := S64x256) S64x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x256.size a ≤ S40000x256.size a
  hwx3_2 : ∀ i : grid3.Coords, EltTy.bits .f32 = 32 ∨ (Rect.block (s := S40000x256) S10000x256.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S10000x64.size a
  hwx4_0 : ∀ i : grid4.Coords, EltTy.bits .f32 = 32 ∨ (Rect.block (s := S10000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S10000x128.size a
  hwx4_2 : ∀ i : grid4.Coords, EltTy.bits .f32 = 32 ∨ (Rect.block (s := S10000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S50000x64.size a
  hwx5_1 : ∀ i : grid5.Coords, EltTy.bits .f32 = 32 ∨ (Rect.block (s := S50000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S50000x64.size a
  hwx5_2 : ∀ i : grid5.Coords, EltTy.bits .f32 = 32 ∨ (Rect.block (s := S50000x64) S10000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S50000x64.size a
  hwx5_4 : ∀ i : grid5.Coords, EltTy.bits .f32 = 32 ∨ (Rect.block (s := S50000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S150000x64.size a
  hwx6_0 : ∀ i : grid6.Coords, EltTy.bits .f32 = 32 ∨ (Rect.block (s := S150000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S150000x64.size a
  hwx6_1 : ∀ i : grid6.Coords, EltTy.bits .f32 = 32 ∨ (Rect.block (s := S150000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S150000x64.size a
  hwx6_2 : ∀ i : grid6.Coords, EltTy.bits .f32 = 32 ∨ (Rect.block (s := S150000x64) S10000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S150000x64.size a
  hwx6_3 : ∀ i : grid6.Coords, EltTy.bits .f32 = 32 ∨ (Rect.block (s := S150000x64) S10000x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S150000x64.size a
  hwx6_5 : ∀ i : grid6.Coords, EltTy.bits .f32 = 32 ∨ (Rect.block (s := S150000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x64.size a ≤ S100000x64.size a
  hwx7_5 : ∀ i : grid7.Coords, EltTy.bits .f32 = 32 ∨ (Rect.block (s := S100000x64) S10000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S40000x64.size a
  hwx8_0 : ∀ i : grid8.Coords, EltTy.bits .f32 = 32 ∨ (Rect.block (s := S40000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S40000x64.size a
  hwx8_1 : ∀ i : grid8.Coords, EltTy.bits .f32 = 32 ∨ (Rect.block (s := S40000x64) S10000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S40000x64.size a
  hwx8_2 : ∀ i : grid8.Coords, EltTy.bits .f32 = 32 ∨ (Rect.block (s := S40000x64) S10000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S40000x64.size a
  hwx8_3 : ∀ i : grid8.Coords, EltTy.bits .f32 = 32 ∨ (Rect.block (s := S40000x64) S10000x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S40000x64.size a
  hwx8_5 : ∀ i : grid8.Coords, EltTy.bits .f32 = 32 ∨ (Rect.block (s := S40000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S10000x64.size a
  hwx9_0 : ∀ i : grid9.Coords, EltTy.bits .f32 = 32 ∨ (Rect.block (s := S10000x64) S10000x64.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S10000x64.size a
  hwx9_1 : ∀ i : grid9.Coords, EltTy.bits .f32 = 32 ∨ (Rect.block (s := S10000x64) S10000x64.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S10000x64.size a
  hwx9_2 : ∀ i : grid9.Coords, EltTy.bits .f32 = 32 ∨ (Rect.block (s := S10000x64) S10000x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 false = 1
  hreads9_4 : ∀ i i' : grid9.Coords, (∀ a, reads9_4 a = true → i a = i' a) → cc9_transform_4 i = cc9_transform_4 i'
  hinb9_4 : ∀ (i : grid9.Coords) a, (cc9_transform_4 i a + 1) * S10000x64.size a ≤ S10000x64.size a
  hwx9_4 : ∀ i : grid9.Coords, EltTy.bits .f32 = 32 ∨ (Rect.block (s := S10000x64) S10000x64.size (cc9_transform_4 i) (hinb9_4 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def gather_S40000x64_S320000x1_S320000x64_1_0_n_n_0_1_164 : GatherDims S40000x64 S320000x1 S320000x64 where
  offsetDims := [1]
  collapsedSliceDims := [0]
  operandBatchingDims := []
  startIndicesBatchingDims := []
  startIndexMap := [0]
  indexVectorDim := 1
  sliceSizes := ![1, 64]
  wf := gather_S40000x64_S320000x1_S320000x64_1_0_n_n_0_1_164_wf
def scatter_S40000x64_S320000x1_S320000x64_1_0_0_1 : ScatterDims S40000x64 S320000x1 S320000x64 where
  updateWindowDims := [1]
  insertedWindowDims := [0]
  scatterDimsToOperandDims := [0]
  indexVectorDim := 1
  wf := scatter_S40000x64_S320000x1_S320000x64_1_0_0_1_wf
def gather_S10000x64_S80000x1_S80000x64_1_0_n_n_0_1_164 : GatherDims S10000x64 S80000x1 S80000x64 where
  offsetDims := [1]
  collapsedSliceDims := [0]
  operandBatchingDims := []
  startIndicesBatchingDims := []
  startIndexMap := [0]
  indexVectorDim := 1
  sliceSizes := ![1, 64]
  wf := gather_S10000x64_S80000x1_S80000x64_1_0_n_n_0_1_164_wf
def scatter_S10000x64_S80000x1_S80000x64_1_0_0_1 : ScatterDims S10000x64 S80000x1 S80000x64 where
  updateWindowDims := [1]
  insertedWindowDims := [0]
  scatterDimsToOperandDims := [0]
  indexVectorDim := 1
  wf := scatter_S10000x64_S80000x1_S80000x64_1_0_0_1_wf
def gather_S150000x64_S600000x1_S600000x64_1_0_n_n_0_1_164 : GatherDims S150000x64 S600000x1 S600000x64 where
  offsetDims := [1]
  collapsedSliceDims := [0]
  operandBatchingDims := []
  startIndicesBatchingDims := []
  startIndexMap := [0]
  indexVectorDim := 1
  sliceSizes := ![1, 64]
  wf := gather_S150000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S150000x64_S600000x1_S600000x64_1_0_0_1 : ScatterDims S150000x64 S600000x1 S600000x64 where
  updateWindowDims := [1]
  insertedWindowDims := [0]
  scatterDimsToOperandDims := [0]
  indexVectorDim := 1
  wf := scatter_S150000x64_S600000x1_S600000x64_1_0_0_1_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def scatter_S150000x64_S400000x1_S400000x64_1_0_0_1 : ScatterDims S150000x64 S400000x1 S400000x64 where
  updateWindowDims := [1]
  insertedWindowDims := [0]
  scatterDimsToOperandDims := [0]
  indexVectorDim := 1
  wf := scatter_S150000x64_S400000x1_S400000x64_1_0_0_1_wf
def gather_S150000x64_S400000x1_S400000x64_1_0_n_n_0_1_164 : GatherDims S150000x64 S400000x1 S400000x64 where
  offsetDims := [1]
  collapsedSliceDims := [0]
  operandBatchingDims := []
  startIndicesBatchingDims := []
  startIndexMap := [0]
  indexVectorDim := 1
  sliceSizes := ![1, 64]
  wf := gather_S150000x64_S400000x1_S400000x64_1_0_n_n_0_1_164_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def gather_S40000x64_S160000x1_S160000x64_1_0_n_n_0_1_164 : GatherDims S40000x64 S160000x1 S160000x64 where
  offsetDims := [1]
  collapsedSliceDims := [0]
  operandBatchingDims := []
  startIndicesBatchingDims := []
  startIndexMap := [0]
  indexVectorDim := 1
  sliceSizes := ![1, 64]
  wf := gather_S40000x64_S160000x1_S160000x64_1_0_n_n_0_1_164_wf
def scatter_S100000x64_S160000x1_S160000x64_1_0_0_1 : ScatterDims S100000x64 S160000x1 S160000x64 where
  updateWindowDims := [1]
  insertedWindowDims := [0]
  scatterDimsToOperandDims := [0]
  indexVectorDim := 1
  wf := scatter_S100000x64_S160000x1_S160000x64_1_0_0_1_wf
def gather_S100000x64_S160000x1_S160000x64_1_0_n_n_0_1_164 : GatherDims S100000x64 S160000x1 S160000x64 where
  offsetDims := [1]
  collapsedSliceDims := [0]
  operandBatchingDims := []
  startIndicesBatchingDims := []
  startIndexMap := [0]
  indexVectorDim := 1
  sliceSizes := ![1, 64]
  wf := gather_S100000x64_S160000x1_S160000x64_1_0_n_n_0_1_164_wf
def scatter_S40000x64_S160000x1_S160000x64_1_0_0_1 : ScatterDims S40000x64 S160000x1 S160000x64 where
  updateWindowDims := [1]
  insertedWindowDims := [0]
  scatterDimsToOperandDims := [0]
  indexVectorDim := 1
  wf := scatter_S40000x64_S160000x1_S160000x64_1_0_0_1_wf
def gather_S10000x64_S40000x1_S40000x64_1_0_n_n_0_1_164 : GatherDims S10000x64 S40000x1 S40000x64 where
  offsetDims := [1]
  collapsedSliceDims := [0]
  operandBatchingDims := []
  startIndicesBatchingDims := []
  startIndexMap := [0]
  indexVectorDim := 1
  sliceSizes := ![1, 64]
  wf := gather_S10000x64_S40000x1_S40000x64_1_0_n_n_0_1_164_wf
def scatter_S40000x64_S40000x1_S40000x64_1_0_0_1 : ScatterDims S40000x64 S40000x1 S40000x64 where
  updateWindowDims := [1]
  insertedWindowDims := [0]
  scatterDimsToOperandDims := [0]
  indexVectorDim := 1
  wf := scatter_S40000x64_S40000x1_S40000x64_1_0_0_1_wf
def gather_S40000x64_S40000x1_S40000x64_1_0_n_n_0_1_164 : GatherDims S40000x64 S40000x1 S40000x64 where
  offsetDims := [1]
  collapsedSliceDims := [0]
  operandBatchingDims := []
  startIndicesBatchingDims := []
  startIndexMap := [0]
  indexVectorDim := 1
  sliceSizes := ![1, 64]
  wf := gather_S40000x64_S40000x1_S40000x64_1_0_n_n_0_1_164_wf
def scatter_S10000x64_S40000x1_S40000x64_1_0_0_1 : ScatterDims S10000x64 S40000x1 S40000x64 where
  updateWindowDims := [1]
  insertedWindowDims := [0]
  scatterDimsToOperandDims := [0]
  indexVectorDim := 1
  wf := scatter_S10000x64_S40000x1_S40000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S10000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S64x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S10000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg4) S10000x64.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v22) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v23) S10000x128.size cc4_transform_2 reads4_2 true false 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v38) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg20) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v103) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg30) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v195) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v116) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v51) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg21) S10000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v129) S10000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_arg31) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v196) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v142) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v64) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg22) S10000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v155) S10000x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_arg32) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v197) S10000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v168) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v77) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg23) S10000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v181) S10000x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_arg33) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v198) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v194) S10000x64.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v90) S10000x64.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_arg24) S10000x64.size cc9_transform_2 reads9_2 false false 1 stage9_2 sem9_2
    hrank9 hreads9_2 hinb9_2 nbuf9_2 (Memref.isWhole_whole _) hwx9_2 hstage9_2

abbrev win9_3 : Pipeline.Window sig grid9 :=
  Pipeline.Window.ofSpec (Memref.whole main_arg34) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v199) S10000x64.size cc9_transform_4 reads9_4 true false 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S50000x64 : Shape := ⟨2, ![50000, 64]⟩
abbrev S150000x64 : Shape := ⟨2, ![150000, 64]⟩
abbrev S100000x64 : Shape := ⟨2, ![100000, 64]⟩
abbrev S40000x64 : Shape := ⟨2, ![40000, 64]⟩
abbrev S10000x64 : Shape := ⟨2, ![10000, 64]⟩
abbrev S400000 : Shape := ⟨1, ![400000]⟩
abbrev S1200000 : Shape := ⟨1, ![1200000]⟩
abbrev S800000 : Shape := ⟨1, ![800000]⟩
abbrev S320000 : Shape := ⟨1, ![320000]⟩
abbrev S80000 : Shape := ⟨1, ![80000]⟩
abbrev S64x64 : Shape := ⟨2, ![64, 64]⟩
abbrev S600000 : Shape := ⟨1, ![600000]⟩
abbrev S160000 : Shape := ⟨1, ![160000]⟩
abbrev S40000 : Shape := ⟨1, ![40000]⟩
abbrev S400000x1 : Shape := ⟨2, ![400000, 1]⟩
abbrev S_ : Shape := ⟨0, ![]⟩
abbrev S400000x64 : Shape := ⟨2, ![400000, 64]⟩
abbrev S1200000x1 : Shape := ⟨2, ![1200000, 1]⟩
abbrev S1200000x64 : Shape := ⟨2, ![1200000, 64]⟩
abbrev S800000x1 : Shape := ⟨2, ![800000, 1]⟩
abbrev S800000x64 : Shape := ⟨2, ![800000, 64]⟩
abbrev S320000x1 : Shape := ⟨2, ![320000, 1]⟩
abbrev S320000x64 : Shape := ⟨2, ![320000, 64]⟩
abbrev S80000x1 : Shape := ⟨2, ![80000, 1]⟩
abbrev S80000x64 : Shape := ⟨2, ![80000, 64]⟩
abbrev S600000x1 : Shape := ⟨2, ![600000, 1]⟩
abbrev S600000x64 : Shape := ⟨2, ![600000, 64]⟩
abbrev S160000x1 : Shape := ⟨2, ![160000, 1]⟩
abbrev S160000x64 : Shape := ⟨2, ![160000, 64]⟩
abbrev S40000x1 : Shape := ⟨2, ![40000, 1]⟩

abbrev nBuf : Space → Nat
  | .hbm => 348
  | .vmem => 0
  | .smem => 0
  | _ => 0

abbrev hbmTy0_0 (i : Nat) : BufTy := match i % 128 with
  | 0 => ⟨S50000x64, .f32⟩
  | 1 => ⟨S150000x64, .f32⟩
  | 2 => ⟨S100000x64, .f32⟩
  | 3 => ⟨S40000x64, .f32⟩
  | 4 => ⟨S10000x64, .f32⟩
  | 5 => ⟨S400000, .i32⟩
  | 6 => ⟨S400000, .i32⟩
  | 7 => ⟨S400000, .f32⟩
  | 8 => ⟨S1200000, .i32⟩
  | 9 => ⟨S1200000, .i32⟩
  | 10 => ⟨S1200000, .f32⟩
  | 11 => ⟨S800000, .i32⟩
  | 12 => ⟨S800000, .i32⟩
  | 13 => ⟨S800000, .f32⟩
  | 14 => ⟨S320000, .i32⟩
  | 15 => ⟨S320000, .i32⟩
  | 16 => ⟨S320000, .f32⟩
  | 17 => ⟨S80000, .i32⟩
  | 18 => ⟨S80000, .i32⟩
  | 19 => ⟨S80000, .f32⟩
  | 20 => ⟨S50000x64, .f32⟩
  | 21 => ⟨S150000x64, .f32⟩
  | 22 => ⟨S100000x64, .f32⟩
  | 23 => ⟨S40000x64, .f32⟩
  | 24 => ⟨S10000x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S600000, .i32⟩
  | 36 => ⟨S600000, .i32⟩
  | 37 => ⟨S600000, .f32⟩
  | 38 => ⟨S400000, .i32⟩
  | 39 => ⟨S400000, .i32⟩
  | 40 => ⟨S400000, .f32⟩
  | 41 => ⟨S160000, .i32⟩
  | 42 => ⟨S160000, .i32⟩
  | 43 => ⟨S160000, .f32⟩
  | 44 => ⟨S40000, .i32⟩
  | 45 => ⟨S40000, .i32⟩
  | 46 => ⟨S40000, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S64x64, .f32⟩
  | 54 => ⟨S64x64, .f32⟩
  | 55 => ⟨S50000x64, .f32⟩
  | 56 => ⟨S400000x1, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000x64, .f32⟩
  | 66 => ⟨S400000x64, .f32⟩
  | 67 => ⟨S400000x64, .f32⟩
  | 68 => ⟨S_, .f32⟩
  | 69 => ⟨S50000x64, .f32⟩
  | 70 => ⟨S400000x1, .i32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S150000x64, .f32⟩
  | 77 => ⟨S1200000x1, .f32⟩
  | 78 => ⟨S_, .i32⟩
  | 79 => ⟨S1200000, .i32⟩
  | 80 => ⟨S1200000, .i1⟩
  | 81 => ⟨S_, .i32⟩
  | 82 => ⟨S1200000, .i32⟩
  | 83 => ⟨S1200000, .i32⟩
  | 84 => ⟨S1200000, .i32⟩
  | 85 => ⟨S1200000x1, .i32⟩
  | 86 => ⟨S1200000x64, .f32⟩
  | 87 => ⟨S1200000x64, .f32⟩
  | 88 => ⟨S1200000x64, .f32⟩
  | 89 => ⟨S_, .f32⟩
  | 90 => ⟨S150000x64, .f32⟩
  | 91 => ⟨S1200000x1, .i32⟩
  | 92 => ⟨S150000x64, .f32⟩
  | 93 => ⟨S150000x64, .f32⟩
  | 94 => ⟨S_, .f32⟩
  | 95 => ⟨S150000x64, .f32⟩
  | 96 => ⟨S150000x64, .f32⟩
  | 97 => ⟨S100000x64, .f32⟩
  | 98 => ⟨S800000x1, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x64, .f32⟩
  | 108 => ⟨S800000x64, .f32⟩
  | 109 => ⟨S800000x64, .f32⟩
  | 110 => ⟨S_, .f32⟩
  | 111 => ⟨S100000x64, .f32⟩
  | 112 => ⟨S800000x1, .i32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S40000x64, .f32⟩
  | 119 => ⟨S320000x1, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S50000x64, .f32⟩

abbrev hbmTy0_1 (i : Nat) : BufTy := match i % 128 with
  | 0 => ⟨S320000x64, .f32⟩
  | 1 => ⟨S320000x64, .f32⟩
  | 2 => ⟨S320000x64, .f32⟩
  | 3 => ⟨S_, .f32⟩
  | 4 => ⟨S40000x64, .f32⟩
  | 5 => ⟨S320000x1, .i32⟩
  | 6 => ⟨S40000x64, .f32⟩
  | 7 => ⟨S40000x64, .f32⟩
  | 8 => ⟨S_, .f32⟩
  | 9 => ⟨S40000x64, .f32⟩
  | 10 => ⟨S40000x64, .f32⟩
  | 11 => ⟨S10000x64, .f32⟩
  | 12 => ⟨S80000x1, .f32⟩
  | 13 => ⟨S_, .i32⟩
  | 14 => ⟨S80000, .i32⟩
  | 15 => ⟨S80000, .i1⟩
  | 16 => ⟨S_, .i32⟩
  | 17 => ⟨S80000, .i32⟩
  | 18 => ⟨S80000, .i32⟩
  | 19 => ⟨S80000, .i32⟩
  | 20 => ⟨S80000x1, .i32⟩
  | 21 => ⟨S80000x64, .f32⟩
  | 22 => ⟨S80000x64, .f32⟩
  | 23 => ⟨S80000x64, .f32⟩
  | 24 => ⟨S_, .f32⟩
  | 25 => ⟨S10000x64, .f32⟩
  | 26 => ⟨S80000x1, .i32⟩
  | 27 => ⟨S10000x64, .f32⟩
  | 28 => ⟨S10000x64, .f32⟩
  | 29 => ⟨S_, .f32⟩
  | 30 => ⟨S10000x64, .f32⟩
  | 31 => ⟨S10000x64, .f32⟩
  | 32 => ⟨S150000x64, .f32⟩
  | 33 => ⟨S600000x1, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x64, .f32⟩
  | 43 => ⟨S600000x64, .f32⟩
  | 44 => ⟨S600000x64, .f32⟩
  | 45 => ⟨S_, .f32⟩
  | 46 => ⟨S50000x64, .f32⟩
  | 47 => ⟨S600000x1, .i32⟩
  | 48 => ⟨S50000x64, .f32⟩
  | 49 => ⟨S_, .f32⟩
  | 50 => ⟨S50000x64, .f32⟩
  | 51 => ⟨S50000x64, .f32⟩
  | 52 => ⟨S50000x64, .f32⟩
  | 53 => ⟨S600000x1, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x64, .f32⟩
  | 63 => ⟨S600000x64, .f32⟩
  | 64 => ⟨S600000x64, .f32⟩
  | 65 => ⟨S_, .f32⟩
  | 66 => ⟨S150000x64, .f32⟩
  | 67 => ⟨S600000x1, .i32⟩
  | 68 => ⟨S150000x64, .f32⟩
  | 69 => ⟨S_, .f32⟩
  | 70 => ⟨S150000x64, .f32⟩
  | 71 => ⟨S150000x64, .f32⟩
  | 72 => ⟨S100000x64, .f32⟩
  | 73 => ⟨S400000x1, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x64, .f32⟩
  | 83 => ⟨S400000x64, .f32⟩
  | 84 => ⟨S400000x64, .f32⟩
  | 85 => ⟨S_, .f32⟩
  | 86 => ⟨S150000x64, .f32⟩
  | 87 => ⟨S400000x1, .i32⟩
  | 88 => ⟨S150000x64, .f32⟩
  | 89 => ⟨S_, .f32⟩
  | 90 => ⟨S150000x64, .f32⟩
  | 91 => ⟨S150000x64, .f32⟩
  | 92 => ⟨S150000x64, .f32⟩
  | 93 => ⟨S400000x1, .f32⟩
  | 94 => ⟨S_, .i32⟩
  | 95 => ⟨S400000, .i32⟩
  | 96 => ⟨S400000, .i1⟩
  | 97 => ⟨S_, .i32⟩
  | 98 => ⟨S400000, .i32⟩
  | 99 => ⟨S400000, .i32⟩
  | 100 => ⟨S400000, .i32⟩
  | 101 => ⟨S400000x1, .i32⟩
  | 102 => ⟨S400000x64, .f32⟩
  | 103 => ⟨S400000x64, .f32⟩
  | 104 => ⟨S400000x64, .f32⟩
  | 105 => ⟨S_, .f32⟩
  | 106 => ⟨S100000x64, .f32⟩
  | 107 => ⟨S400000x1, .i32⟩
  | 108 => ⟨S100000x64, .f32⟩
  | 109 => ⟨S_, .f32⟩
  | 110 => ⟨S100000x64, .f32⟩
  | 111 => ⟨S100000x64, .f32⟩
  | 112 => ⟨S40000x64, .f32⟩
  | 113 => ⟨S160000x1, .f32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S160000x64, .f32⟩
  | 123 => ⟨S160000x64, .f32⟩
  | 124 => ⟨S160000x64, .f32⟩
  | 125 => ⟨S_, .f32⟩
  | 126 => ⟨S100000x64, .f32⟩
  | 127 => ⟨S160000x1, .i32⟩
  | _ => ⟨S50000x64, .f32⟩

abbrev hbmTy0_2 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x64, .f32⟩
  | 5 => ⟨S160000x1, .f32⟩
  | 6 => ⟨S_, .i32⟩
  | 7 => ⟨S160000, .i32⟩
  | 8 => ⟨S160000, .i1⟩
  | 9 => ⟨S_, .i32⟩
  | 10 => ⟨S160000, .i32⟩
  | 11 => ⟨S160000, .i32⟩
  | 12 => ⟨S160000, .i32⟩
  | 13 => ⟨S160000x1, .i32⟩
  | 14 => ⟨S160000x64, .f32⟩
  | 15 => ⟨S160000x64, .f32⟩
  | 16 => ⟨S160000x64, .f32⟩
  | 17 => ⟨S_, .f32⟩
  | 18 => ⟨S40000x64, .f32⟩
  | 19 => ⟨S160000x1, .i32⟩
  | 20 => ⟨S40000x64, .f32⟩
  | 21 => ⟨S_, .f32⟩
  | 22 => ⟨S40000x64, .f32⟩
  | 23 => ⟨S40000x64, .f32⟩
  | 24 => ⟨S10000x64, .f32⟩
  | 25 => ⟨S40000x1, .f32⟩
  | 26 => ⟨S_, .i32⟩
  | 27 => ⟨S40000, .i32⟩
  | 28 => ⟨S40000, .i1⟩
  | 29 => ⟨S_, .i32⟩
  | 30 => ⟨S40000, .i32⟩
  | 31 => ⟨S40000, .i32⟩
  | 32 => ⟨S40000, .i32⟩
  | 33 => ⟨S40000x1, .i32⟩
  | 34 => ⟨S40000x64, .f32⟩
  | 35 => ⟨S40000x64, .f32⟩
  | 36 => ⟨S40000x64, .f32⟩
  | 37 => ⟨S_, .f32⟩
  | 38 => ⟨S40000x64, .f32⟩
  | 39 => ⟨S40000x1, .i32⟩
  | 40 => ⟨S40000x64, .f32⟩
  | 41 => ⟨S_, .f32⟩
  | 42 => ⟨S40000x64, .f32⟩
  | 43 => ⟨S40000x64, .f32⟩
  | 44 => ⟨S40000x64, .f32⟩
  | 45 => ⟨S40000x1, .f32⟩
  | 46 => ⟨S_, .i32⟩
  | 47 => ⟨S40000, .i32⟩
  | 48 => ⟨S40000, .i1⟩
  | 49 => ⟨S_, .i32⟩
  | 50 => ⟨S40000, .i32⟩
  | 51 => ⟨S40000, .i32⟩
  | 52 => ⟨S40000, .i32⟩
  | 53 => ⟨S40000x1, .i32⟩
  | 54 => ⟨S40000x64, .f32⟩
  | 55 => ⟨S40000x64, .f32⟩
  | 56 => ⟨S40000x64, .f32⟩
  | 57 => ⟨S_, .f32⟩
  | 58 => ⟨S10000x64, .f32⟩
  | 59 => ⟨S40000x1, .i32⟩
  | 60 => ⟨S10000x64, .f32⟩
  | 61 => ⟨S_, .f32⟩
  | 62 => ⟨S10000x64, .f32⟩
  | 63 => ⟨S10000x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S150000x64, .f32⟩
  | 70 => ⟨S150000x64, .f32⟩
  | 71 => ⟨S150000x64, .f32⟩
  | 72 => ⟨S_, .f32⟩
  | 73 => ⟨S150000x64, .f32⟩
  | 74 => ⟨S150000x64, .f32⟩
  | 75 => ⟨S100000x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S40000x64, .f32⟩
  | 82 => ⟨S40000x64, .f32⟩
  | 83 => ⟨S40000x64, .f32⟩
  | 84 => ⟨S_, .f32⟩
  | 85 => ⟨S40000x64, .f32⟩
  | 86 => ⟨S40000x64, .f32⟩
  | 87 => ⟨S10000x64, .f32⟩
  | 88 => ⟨S10000x64, .f32⟩
  | 89 => ⟨S_, .f32⟩
  | 90 => ⟨S10000x64, .f32⟩
  | 91 => ⟨S10000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_v0 : Ref sig .tc := ⟨.hbm, 55, rfl⟩
abbrev main_v1 : Ref sig .tc := ⟨.hbm, 56, rfl⟩
abbrev main_c : Ref sig .tc := ⟨.hbm, 57, rfl⟩
abbrev main_v2 : Ref sig .tc := ⟨.hbm, 58, rfl⟩
abbrev main_v3 : Ref sig .tc := ⟨.hbm, 59, rfl⟩
abbrev main_c_0 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_cst : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_call0_cst : Ref sig .tc := ⟨.hbm, 73, rfl⟩
abbrev main_call0_v0 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_c_1 : Ref sig .tc := ⟨.hbm, 78, rfl⟩
abbrev main_v18 : Ref sig .tc := ⟨.hbm, 79, rfl⟩
abbrev main_v19 : Ref sig .tc := ⟨.hbm, 80, rfl⟩
abbrev main_c_2 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_cst_3 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_call1_cst : Ref sig .tc := ⟨.hbm, 94, rfl⟩
abbrev main_call1_v0 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_c_4 : Ref sig .tc := ⟨.hbm, 99, rfl⟩
abbrev main_v34 : Ref sig .tc := ⟨.hbm, 100, rfl⟩
abbrev main_v35 : Ref sig .tc := ⟨.hbm, 101, rfl⟩
abbrev main_c_5 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_cst_6 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_call2_cst : Ref sig .tc := ⟨.hbm, 115, rfl⟩
abbrev main_call2_v0 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_c_7 : Ref sig .tc := ⟨.hbm, 120, rfl⟩
abbrev main_v50 : Ref sig .tc := ⟨.hbm, 121, rfl⟩
abbrev main_v51 : Ref sig .tc := ⟨.hbm, 122, rfl⟩
abbrev main_c_8 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_9 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_call3_cst : Ref sig .tc := ⟨.hbm, 136, rfl⟩
abbrev main_call3_v0 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_c_10 : Ref sig .tc := ⟨.hbm, 141, rfl⟩
abbrev main_v66 : Ref sig .tc := ⟨.hbm, 142, rfl⟩
abbrev main_v67 : Ref sig .tc := ⟨.hbm, 143, rfl⟩
abbrev main_c_11 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_cst_12 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_call4_cst : Ref sig .tc := ⟨.hbm, 157, rfl⟩
abbrev main_call4_v0 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_c_13 : Ref sig .tc := ⟨.hbm, 162, rfl⟩
abbrev main_v82 : Ref sig .tc := ⟨.hbm, 163, rfl⟩
abbrev main_v83 : Ref sig .tc := ⟨.hbm, 164, rfl⟩
abbrev main_c_14 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_15 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_call5_cst : Ref sig .tc := ⟨.hbm, 177, rfl⟩
abbrev main_call5_v0 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_c_16 : Ref sig .tc := ⟨.hbm, 182, rfl⟩
abbrev main_v97 : Ref sig .tc := ⟨.hbm, 183, rfl⟩
abbrev main_v98 : Ref sig .tc := ⟨.hbm, 184, rfl⟩
abbrev main_c_17 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_cst_18 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_call6_cst : Ref sig .tc := ⟨.hbm, 197, rfl⟩
abbrev main_call6_v0 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_c_19 : Ref sig .tc := ⟨.hbm, 202, rfl⟩
abbrev main_v112 : Ref sig .tc := ⟨.hbm, 203, rfl⟩
abbrev main_v113 : Ref sig .tc := ⟨.hbm, 204, rfl⟩
abbrev main_c_20 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_cst_21 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_call7_cst : Ref sig .tc := ⟨.hbm, 217, rfl⟩
abbrev main_call7_v0 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_c_22 : Ref sig .tc := ⟨.hbm, 222, rfl⟩
abbrev main_v127 : Ref sig .tc := ⟨.hbm, 223, rfl⟩
abbrev main_v128 : Ref sig .tc := ⟨.hbm, 224, rfl⟩
abbrev main_c_23 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_cst_24 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_call8_cst : Ref sig .tc := ⟨.hbm, 237, rfl⟩
abbrev main_call8_v0 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_c_25 : Ref sig .tc := ⟨.hbm, 242, rfl⟩
abbrev main_v142 : Ref sig .tc := ⟨.hbm, 243, rfl⟩
abbrev main_v143 : Ref sig .tc := ⟨.hbm, 244, rfl⟩
abbrev main_c_26 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_cst_27 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_call9_cst : Ref sig .tc := ⟨.hbm, 257, rfl⟩
abbrev main_call9_v0 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_c_28 : Ref sig .tc := ⟨.hbm, 262, rfl⟩
abbrev main_v157 : Ref sig .tc := ⟨.hbm, 263, rfl⟩
abbrev main_v158 : Ref sig .tc := ⟨.hbm, 264, rfl⟩
abbrev main_c_29 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_cst_30 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_call10_cst : Ref sig .tc := ⟨.hbm, 277, rfl⟩
abbrev main_call10_v0 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_c_31 : Ref sig .tc := ⟨.hbm, 282, rfl⟩
abbrev main_v172 : Ref sig .tc := ⟨.hbm, 283, rfl⟩
abbrev main_v173 : Ref sig .tc := ⟨.hbm, 284, rfl⟩
abbrev main_c_32 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_cst_33 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_call11_cst : Ref sig .tc := ⟨.hbm, 297, rfl⟩
abbrev main_call11_v0 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_c_34 : Ref sig .tc := ⟨.hbm, 302, rfl⟩
abbrev main_v187 : Ref sig .tc := ⟨.hbm, 303, rfl⟩
abbrev main_v188 : Ref sig .tc := ⟨.hbm, 304, rfl⟩
abbrev main_c_35 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_v192 : Ref sig .tc := ⟨.hbm, 309, rfl⟩
abbrev main_v193 : Ref sig .tc := ⟨.hbm, 310, rfl⟩
abbrev main_v194 : Ref sig .tc := ⟨.hbm, 311, rfl⟩
abbrev main_v195 : Ref sig .tc := ⟨.hbm, 312, rfl⟩
abbrev main_cst_36 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_call12_cst : Ref sig .tc := ⟨.hbm, 317, rfl⟩
abbrev main_call12_v0 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_call13_cst : Ref sig .tc := ⟨.hbm, 322, rfl⟩
abbrev main_call13_v0 : Ref sig .tc := ⟨.hbm, 323, rfl⟩
abbrev main_v202 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_call14_cst : Ref sig .tc := ⟨.hbm, 328, rfl⟩
abbrev main_call14_v0 : Ref sig .tc := ⟨.hbm, 329, rfl⟩
abbrev main_v206 : Ref sig .tc := ⟨.hbm, 330, rfl⟩
abbrev main_v207 : Ref sig .tc := ⟨.hbm, 331, rfl⟩
abbrev main_v208 : Ref sig .tc := ⟨.hbm, 332, rfl⟩
abbrev main_v209 : Ref sig .tc := ⟨.hbm, 333, rfl⟩
abbrev main_call15_cst : Ref sig .tc := ⟨.hbm, 334, rfl⟩
abbrev main_call15_v0 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_call16_cst : Ref sig .tc := ⟨.hbm, 340, rfl⟩
abbrev main_call16_v0 : Ref sig .tc := ⟨.hbm, 341, rfl⟩
abbrev main_v214 : Ref sig .tc := ⟨.hbm, 342, rfl⟩
abbrev main_v215 : Ref sig .tc := ⟨.hbm, 343, rfl⟩
abbrev main_v216 : Ref sig .tc := ⟨.hbm, 344, rfl⟩
abbrev main_call17_cst : Ref sig .tc := ⟨.hbm, 345, rfl⟩
abbrev main_call17_v0 : Ref sig .tc := ⟨.hbm, 346, rfl⟩
abbrev main_v217 : Ref sig .tc := ⟨.hbm, 347, rfl⟩

abbrev nD : Nat := 1
abbrev τ : Topo := Topo.v7x

variable {F : FTy → Type} [FloatOps F]

class Facts₀ : Prop where
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x64_0_1 : S400000x1.BroadcastsInDim S400000x64 (![0, 1] : Fin 2 → Fin S400000x64.rank)
  bcast_S_S50000x64 : S_.BroadcastsInDim S50000x64 (![] : Fin 0 → Fin S50000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x64_0_1 : S320000x1.BroadcastsInDim S320000x64 (![0, 1] : Fin 2 → Fin S320000x64.rank)
  bcast_S_S40000x64 : S_.BroadcastsInDim S40000x64 (![] : Fin 0 → Fin S40000x64.rank)
  bcast_S80000_S80000x1_0 : S80000.BroadcastsInDim S80000x1 (![0] : Fin 1 → Fin S80000x1.rank)
  bcast_S_S80000 : S_.BroadcastsInDim S80000 (![] : Fin 0 → Fin S80000.rank)
  bcast_S80000x1_S80000x64_0_1 : S80000x1.BroadcastsInDim S80000x64 (![0, 1] : Fin 2 → Fin S80000x64.rank)
  bcast_S_S10000x64 : S_.BroadcastsInDim S10000x64 (![] : Fin 0 → Fin S10000x64.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x64_0_1 : S600000x1.BroadcastsInDim S600000x64 (![0, 1] : Fin 2 → Fin S600000x64.rank)
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x64_0_1 : S160000x1.BroadcastsInDim S160000x64 (![0, 1] : Fin 2 → Fin S160000x64.rank)
  bcast_S40000_S40000x1_0 : S40000.BroadcastsInDim S40000x1 (![0] : Fin 1 → Fin S40000x1.rank)
  bcast_S_S40000 : S_.BroadcastsInDim S40000 (![] : Fin 0 → Fin S40000.rank)
  bcast_S40000x1_S40000x64_0_1 : S40000x1.BroadcastsInDim S40000x64 (![0, 1] : Fin 2 → Fin S40000x64.rank)
  dot_S50000x64_S64x64_S50000x64_1_0_0_1_n_n_wf : DotDims.WF S50000x64 S64x64 S50000x64 [1] [0] [0] [1] [] []
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  dot_S150000x64_S64x64_S150000x64_1_0_0_1_n_n_wf : DotDims.WF S150000x64 S64x64 S150000x64 [1] [0] [0] [1] [] []
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  dot_S100000x64_S64x64_S100000x64_1_0_0_1_n_n_wf : DotDims.WF S100000x64 S64x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S40000x64_S64x64_S40000x64_1_0_0_1_n_n_wf : DotDims.WF S40000x64 S64x64 S40000x64 [1] [0] [0] [1] [] []
  gather_S40000x64_S320000x1_S320000x64_1_0_n_n_0_1_164_wf : GatherDims.WF S40000x64 S320000x1 S320000x64 [1] [0] [] [0] [] 1 ![1, 64]
  scatter_S40000x64_S320000x1_S320000x64_1_0_0_1_wf : ScatterDims.WF S40000x64 S320000x1 S320000x64 [1] [0] [0] 1
  dot_S10000x64_S64x64_S10000x64_1_0_0_1_n_n_wf : DotDims.WF S10000x64 S64x64 S10000x64 [1] [0] [0] [1] [] []
  gather_S10000x64_S80000x1_S80000x64_1_0_n_n_0_1_164_wf : GatherDims.WF S10000x64 S80000x1 S80000x64 [1] [0] [] [0] [] 1 ![1, 64]
  scatter_S10000x64_S80000x1_S80000x64_1_0_0_1_wf : ScatterDims.WF S10000x64 S80000x1 S80000x64 [1] [0] [0] 1
  gather_S150000x64_S600000x1_S600000x64_1_0_n_n_0_1_164_wf : GatherDims.WF S150000x64 S600000x1 S600000x64 [1] [0] [] [0] [] 1 ![1, 64]
  scatter_S50000x64_S600000x1_S600000x64_1_0_0_1_wf : ScatterDims.WF S50000x64 S600000x1 S600000x64 [1] [0] [0] 1
  gather_S50000x64_S600000x1_S600000x64_1_0_n_n_0_1_164_wf : GatherDims.WF S50000x64 S600000x1 S600000x64 [1] [0] [] [0] [] 1 ![1, 64]
  scatter_S150000x64_S600000x1_S600000x64_1_0_0_1_wf : ScatterDims.WF S150000x64 S600000x1 S600000x64 [1] [0] [0] 1
  gather_S100000x64_S400000x1_S400000x64_1_0_n_n_0_1_164_wf : GatherDims.WF S100000x64 S400000x1 S400000x64 [1] [0] [] [0] [] 1 ![1, 64]
  scatter_S150000x64_S400000x1_S400000x64_1_0_0_1_wf : ScatterDims.WF S150000x64 S400000x1 S400000x64 [1] [0] [0] 1
  gather_S150000x64_S400000x1_S400000x64_1_0_n_n_0_1_164_wf : GatherDims.WF S150000x64 S400000x1 S400000x64 [1] [0] [] [0] [] 1 ![1, 64]
  scatter_S100000x64_S400000x1_S400000x64_1_0_0_1_wf : ScatterDims.WF S100000x64 S400000x1 S400000x64 [1] [0] [0] 1
  gather_S40000x64_S160000x1_S160000x64_1_0_n_n_0_1_164_wf : GatherDims.WF S40000x64 S160000x1 S160000x64 [1] [0] [] [0] [] 1 ![1, 64]
  scatter_S100000x64_S160000x1_S160000x64_1_0_0_1_wf : ScatterDims.WF S100000x64 S160000x1 S160000x64 [1] [0] [0] 1
  gather_S100000x64_S160000x1_S160000x64_1_0_n_n_0_1_164_wf : GatherDims.WF S100000x64 S160000x1 S160000x64 [1] [0] [] [0] [] 1 ![1, 64]
  scatter_S40000x64_S160000x1_S160000x64_1_0_0_1_wf : ScatterDims.WF S40000x64 S160000x1 S160000x64 [1] [0] [0] 1
  gather_S10000x64_S40000x1_S40000x64_1_0_n_n_0_1_164_wf : GatherDims.WF S10000x64 S40000x1 S40000x64 [1] [0] [] [0] [] 1 ![1, 64]
  scatter_S40000x64_S40000x1_S40000x64_1_0_0_1_wf : ScatterDims.WF S40000x64 S40000x1 S40000x64 [1] [0] [0] 1
  gather_S40000x64_S40000x1_S40000x64_1_0_n_n_0_1_164_wf : GatherDims.WF S40000x64 S40000x1 S40000x64 [1] [0] [] [0] [] 1 ![1, 64]
  scatter_S10000x64_S40000x1_S40000x64_1_0_0_1_wf : ScatterDims.WF S10000x64 S40000x1 S40000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf
def gather_S40000x64_S320000x1_S320000x64_1_0_n_n_0_1_164 : GatherDims S40000x64 S320000x1 S320000x64 where
  offsetDims := [1]
  collapsedSliceDims := [0]
  operandBatchingDims := []
  startIndicesBatchingDims := []
  startIndexMap := [0]
  indexVectorDim := 1
  sliceSizes := ![1, 64]
  wf := gather_S40000x64_S320000x1_S320000x64_1_0_n_n_0_1_164_wf
def scatter_S40000x64_S320000x1_S320000x64_1_0_0_1 : ScatterDims S40000x64 S320000x1 S320000x64 where
  updateWindowDims := [1]
  insertedWindowDims := [0]
  scatterDimsToOperandDims := [0]
  indexVectorDim := 1
  wf := scatter_S40000x64_S320000x1_S320000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x64_S80000x1_S80000x64_1_0_n_n_0_1_164 : GatherDims S10000x64 S80000x1 S80000x64 where
  offsetDims := [1]
  collapsedSliceDims := [0]
  operandBatchingDims := []
  startIndicesBatchingDims := []
  startIndexMap := [0]
  indexVectorDim := 1
  sliceSizes := ![1, 64]
  wf := gather_S10000x64_S80000x1_S80000x64_1_0_n_n_0_1_164_wf
def scatter_S10000x64_S80000x1_S80000x64_1_0_0_1 : ScatterDims S10000x64 S80000x1 S80000x64 where
  updateWindowDims := [1]
  insertedWindowDims := [0]
  scatterDimsToOperandDims := [0]
  indexVectorDim := 1
  wf := scatter_S10000x64_S80000x1_S80000x64_1_0_0_1_wf
def gather_S150000x64_S600000x1_S600000x64_1_0_n_n_0_1_164 : GatherDims S150000x64 S600000x1 S600000x64 where
  offsetDims := [1]
  collapsedSliceDims := [0]
  operandBatchingDims := []
  startIndicesBatchingDims := []
  startIndexMap := [0]
  indexVectorDim := 1
  sliceSizes := ![1, 64]
  wf := gather_S150000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S150000x64_S600000x1_S600000x64_1_0_0_1 : ScatterDims S150000x64 S600000x1 S600000x64 where
  updateWindowDims := [1]
  insertedWindowDims := [0]
  scatterDimsToOperandDims := [0]
  indexVectorDim := 1
  wf := scatter_S150000x64_S600000x1_S600000x64_1_0_0_1_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def scatter_S150000x64_S400000x1_S400000x64_1_0_0_1 : ScatterDims S150000x64 S400000x1 S400000x64 where
  updateWindowDims := [1]
  insertedWindowDims := [0]
  scatterDimsToOperandDims := [0]
  indexVectorDim := 1
  wf := scatter_S150000x64_S400000x1_S400000x64_1_0_0_1_wf
def gather_S150000x64_S400000x1_S400000x64_1_0_n_n_0_1_164 : GatherDims S150000x64 S400000x1 S400000x64 where
  offsetDims := [1]
  collapsedSliceDims := [0]
  operandBatchingDims := []
  startIndicesBatchingDims := []
  startIndexMap := [0]
  indexVectorDim := 1
  sliceSizes := ![1, 64]
  wf := gather_S150000x64_S400000x1_S400000x64_1_0_n_n_0_1_164_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def gather_S40000x64_S160000x1_S160000x64_1_0_n_n_0_1_164 : GatherDims S40000x64 S160000x1 S160000x64 where
  offsetDims := [1]
  collapsedSliceDims := [0]
  operandBatchingDims := []
  startIndicesBatchingDims := []
  startIndexMap := [0]
  indexVectorDim := 1
  sliceSizes := ![1, 64]
  wf := gather_S40000x64_S160000x1_S160000x64_1_0_n_n_0_1_164_wf
def scatter_S100000x64_S160000x1_S160000x64_1_0_0_1 : ScatterDims S100000x64 S160000x1 S160000x64 where
  updateWindowDims := [1]
  insertedWindowDims := [0]
  scatterDimsToOperandDims := [0]
  indexVectorDim := 1
  wf := scatter_S100000x64_S160000x1_S160000x64_1_0_0_1_wf
def gather_S100000x64_S160000x1_S160000x64_1_0_n_n_0_1_164 : GatherDims S100000x64 S160000x1 S160000x64 where
  offsetDims := [1]
  collapsedSliceDims := [0]
  operandBatchingDims := []
  startIndicesBatchingDims := []
  startIndexMap := [0]
  indexVectorDim := 1
  sliceSizes := ![1, 64]
  wf := gather_S100000x64_S160000x1_S160000x64_1_0_n_n_0_1_164_wf
def scatter_S40000x64_S160000x1_S160000x64_1_0_0_1 : ScatterDims S40000x64 S160000x1 S160000x64 where
  updateWindowDims := [1]
  insertedWindowDims := [0]
  scatterDimsToOperandDims := [0]
  indexVectorDim := 1
  wf := scatter_S40000x64_S160000x1_S160000x64_1_0_0_1_wf
def gather_S10000x64_S40000x1_S40000x64_1_0_n_n_0_1_164 : GatherDims S10000x64 S40000x1 S40000x64 where
  offsetDims := [1]
  collapsedSliceDims := [0]
  operandBatchingDims := []
  startIndicesBatchingDims := []
  startIndexMap := [0]
  indexVectorDim := 1
  sliceSizes := ![1, 64]
  wf := gather_S10000x64_S40000x1_S40000x64_1_0_n_n_0_1_164_wf
def scatter_S40000x64_S40000x1_S40000x64_1_0_0_1 : ScatterDims S40000x64 S40000x1 S40000x64 where
  updateWindowDims := [1]
  insertedWindowDims := [0]
  scatterDimsToOperandDims := [0]
  indexVectorDim := 1
  wf := scatter_S40000x64_S40000x1_S40000x64_1_0_0_1_wf
def gather_S40000x64_S40000x1_S40000x64_1_0_n_n_0_1_164 : GatherDims S40000x64 S40000x1 S40000x64 where
  offsetDims := [1]
  collapsedSliceDims := [0]
  operandBatchingDims := []
  startIndicesBatchingDims := []
  startIndexMap := [0]
  indexVectorDim := 1
  sliceSizes := ![1, 64]
  wf := gather_S40000x64_S40000x1_S40000x64_1_0_n_n_0_1_164_wf
def scatter_S10000x64_S40000x1_S40000x64_1_0_0_1 : ScatterDims S10000x64 S40000x1 S40000x64 where
  updateWindowDims := [1]
  insertedWindowDims := [0]
  scatterDimsToOperandDims := [0]
  indexVectorDim := 1
  wf := scatter_S10000x64_S40000x1_S40000x64_1_0_0_1_wf

class Facts : Prop extends Facts₀ where

variable [Facts]
-- ==== Proof.K.R0.lean ====
/-
  Region 0 of @main, the pallas_call `cc0__linear_multi_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.Kernel.Launch
import proofs.«140264_j78443282694634_2_alg».proof.Proof.Gen.Kernel.Skeleton
import proofs.«140264_j78443282694634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every grid point, whether or not the pipeline fetched it
    there (an unfetched window's block index has not moved), for any proof data over the arrays `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every grid point, whether or not the pipeline fetched it
    there (an unfetched window's block index has not moved), for any proof data over the arrays `V` whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0
abbrev r0_1 : Rect S64x128 := Rect.unit (s := S64x128) ![0, 0] S64x128.size inb_S64x128_S64x128_0_0
abbrev r0_2 : Rect S10000x128 := Rect.unit (s := S10000x128) ![0, 0] S10000x128.size inb_S10000x128_S10000x128_0_0

/-- The output window's staging buffer after the body, as a function of the input blocks: the body's one store, of the
    body's value of the loaded blocks, through the whole rectangle. -/
def out0_2 (x0 : Vec F S10000x64 .f32) (x1 : Vec F S64x128 .f32) : Vec F S10000x128 .f32 :=
  View.canon [⟨r0_2, k0_pay1 (View.ld x0 r0_0) (View.ld x1 r0_1)⟩]

/-- That one store covers the buffer. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

set_option maxHeartbeats 1000000 in
/-- The body on whole staging memrefs, the inputs' holding `xJ` and the output's anything, runs without fault to a
    state where the inputs' are unchanged and the output's holds `out0_2` of the inputs. -/
theorem sound_kernel0 (c : Dev nD) (E : Set ℕ) (i : grid0.Coords) (arg0 : Memref sig .tc .vmem S10000x64 .f32) (harg0 : arg0.IsWhole) (arg1 : Memref sig .tc .vmem S64x128 .f32) (harg1 : arg1.IsWhole) (arg2 : Memref sig .tc .vmem S10000x128 .f32) (harg2 : arg2.IsWhole)
    (x0 : Vec F S10000x64 .f32) (x1 : Vec F S64x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_multi_kernel i arg0 harg0 arg1 harg1 arg2 harg2) K := by
  simp only [cc0__linear_multi_kernel_eq_skeleton]; unfold cc0__linear_multi_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` every
    input buffer at its block and the output buffer at `out0_2` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1.lean ====
/-
  Region 1 of @main, the pallas_call `cc1__linear_multi_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.Kernel.Launch
import proofs.«140264_j78443282694634_2_alg».proof.Proof.Gen.Kernel.Skeleton
import proofs.«140264_j78443282694634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, whether or not the pipeline fetched it
    there (an unfetched window's block index has not moved), for any proof data over the arrays `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every grid point, whether or not the pipeline fetched it
    there (an unfetched window's block index has not moved), for any proof data over the arrays `V` whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0
abbrev r1_1 : Rect S64x256 := Rect.unit (s := S64x256) ![0, 0] S64x256.size inb_S64x256_S64x256_0_0
abbrev r1_2 : Rect S10000x256 := Rect.unit (s := S10000x256) ![0, 0] S10000x256.size inb_S10000x256_S10000x256_0_0

/-- The output window's staging buffer after the body, as a function of the input blocks: the body's one store, of the
    body's value of the loaded blocks, through the whole rectangle. -/
def out1_2 (x0 : Vec F S10000x64 .f32) (x1 : Vec F S64x256 .f32) : Vec F S10000x256 .f32 :=
  View.canon [⟨r1_2, k1_pay1 (View.ld x0 r1_0) (View.ld x1 r1_1)⟩]

/-- That one store covers the buffer. -/
theorem cover1_2 (p0 : Vec F S10000x256 .f32) (y : S10000x256.Idx) :
    ∃ pc ∈ ([⟨r1_2, p0⟩] : List (View.Piece (Elt F) S10000x256 .f32)), y ∈ pc.1.set :=
  View.cover_of_tiled [⟨r1_2, p0⟩] S10000x256.size (by rfl) y

set_option maxHeartbeats 1000000 in
/-- The body on whole staging memrefs, the inputs' holding `xJ` and the output's anything, runs without fault to a
    state where the inputs' are unchanged and the output's holds `out1_2` of the inputs. -/
theorem sound_kernel1 (c : Dev nD) (E : Set ℕ) (i : grid1.Coords) (arg0 : Memref sig .tc .vmem S10000x64 .f32) (harg0 : arg0.IsWhole) (arg1 : Memref sig .tc .vmem S64x256 .f32) (harg1 : arg1.IsWhole) (arg2 : Memref sig .tc .vmem S10000x256 .f32) (harg2 : arg2.IsWhole)
    (x0 : Vec F S10000x64 .f32) (x1 : Vec F S64x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__linear_multi_kernel i arg0 harg0 arg1 harg1 arg2 harg2) K := by
  simp only [cc1__linear_multi_kernel_eq_skeleton]; unfold cc1__linear_multi_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` every
    input buffer at its block and the output buffer at `out1_2` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.R2.lean ====
/-
  Region 2 of @main, the pallas_call `cc2__linear_multi_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.Kernel.Launch
import proofs.«140264_j78443282694634_2_alg».proof.Proof.Gen.Kernel.Skeleton
import proofs.«140264_j78443282694634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every grid point, whether or not the pipeline fetched it
    there (an unfetched window's block index has not moved), for any proof data over the arrays `V` whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every grid point, whether or not the pipeline fetched it
    there (an unfetched window's block index has not moved), for any proof data over the arrays `V` whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S64x256 := Rect.unit (s := S64x256) ![0, 0] S64x256.size inb_S64x256_S64x256_0_0
abbrev r2_2 : Rect S10000x256 := Rect.unit (s := S10000x256) ![0, 0] S10000x256.size inb_S10000x256_S10000x256_0_0

/-- The output window's staging buffer after the body, as a function of the input blocks: the body's one store, of the
    body's value of the loaded blocks, through the whole rectangle. -/
def out2_2 (x0 : Vec F S10000x64 .f32) (x1 : Vec F S64x256 .f32) : Vec F S10000x256 .f32 :=
  View.canon [⟨r2_2, k2_pay1 (View.ld x0 r2_0) (View.ld x1 r2_1)⟩]

/-- That one store covers the buffer. -/
theorem cover2_2 (p0 : Vec F S10000x256 .f32) (y : S10000x256.Idx) :
    ∃ pc ∈ ([⟨r2_2, p0⟩] : List (View.Piece (Elt F) S10000x256 .f32)), y ∈ pc.1.set :=
  View.cover_of_tiled [⟨r2_2, p0⟩] S10000x256.size (by rfl) y

set_option maxHeartbeats 1000000 in
/-- The body on whole staging memrefs, the inputs' holding `xJ` and the output's anything, runs without fault to a
    state where the inputs' are unchanged and the output's holds `out2_2` of the inputs. -/
theorem sound_kernel2 (c : Dev nD) (E : Set ℕ) (i : grid2.Coords) (arg0 : Memref sig .tc .vmem S10000x64 .f32) (harg0 : arg0.IsWhole) (arg1 : Memref sig .tc .vmem S64x256 .f32) (harg1 : arg1.IsWhole) (arg2 : Memref sig .tc .vmem S10000x256 .f32) (harg2 : arg2.IsWhole)
    (x0 : Vec F S10000x64 .f32) (x1 : Vec F S64x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_multi_kernel i arg0 harg0 arg1 harg1 arg2 harg2) K := by
  simp only [cc2__linear_multi_kernel_eq_skeleton]; unfold cc2__linear_multi_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` every
    input buffer at its block and the output buffer at `out2_2` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.R3.lean ====
/-
  Region 3 of @main, the pallas_call `cc3__linear_multi_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.Kernel.Launch
import proofs.«140264_j78443282694634_2_alg».proof.Proof.Gen.Kernel.Skeleton
import proofs.«140264_j78443282694634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every grid point, whether or not the pipeline fetched it
    there (an unfetched window's block index has not moved), for any proof data over the arrays `V` whose body leaves
    the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every grid point, whether or not the pipeline fetched it
    there (an unfetched window's block index has not moved), for any proof data over the arrays `V` whose body leaves
    the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x64 := Rect.unit (s := S10000x64) ![0, 0] S10000x64.size inb_S10000x64_S10000x64_0_0
abbrev r3_1 : Rect S64x256 := Rect.unit (s := S64x256) ![0, 0] S64x256.size inb_S64x256_S64x256_0_0
abbrev r3_2 : Rect S10000x256 := Rect.unit (s := S10000x256) ![0, 0] S10000x256.size inb_S10000x256_S10000x256_0_0

/-- The output window's staging buffer after the body, as a function of the input blocks: the body's one store, of the
    body's value of the loaded blocks, through the whole rectangle. -/
def out3_2 (x0 : Vec F S10000x64 .f32) (x1 : Vec F S64x256 .f32) : Vec F S10000x256 .f32 :=
  View.canon [⟨r3_2, k3_pay1 (View.ld x0 r3_0) (View.ld x1 r3_1)⟩]

/-- That one store covers the buffer. -/
theorem cover3_2 (p0 : Vec F S10000x256 .f32) (y : S10000x256.Idx) :
    ∃ pc ∈ ([⟨r3_2, p0⟩] : List (View.Piece (Elt F) S10000x256 .f32)), y ∈ pc.1.set :=
  View.cover_of_tiled [⟨r3_2, p0⟩] S10000x256.size (by rfl) y

set_option maxHeartbeats 1000000 in
/-- The body on whole staging memrefs, the inputs' holding `xJ` and the output's anything, runs without fault to a
    state where the inputs' are unchanged and the output's holds `out3_2` of the inputs. -/
theorem sound_kernel3 (c : Dev nD) (E : Set ℕ) (i : grid3.Coords) (arg0 : Memref sig .tc .vmem S10000x64 .f32) (harg0 : arg0.IsWhole) (arg1 : Memref sig .tc .vmem S64x256 .f32) (harg1 : arg1.IsWhole) (arg2 : Memref sig .tc .vmem S10000x256 .f32) (harg2 : arg2.IsWhole)
    (x0 : Vec F S10000x64 .f32) (x1 : Vec F S64x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__linear_multi_kernel i arg0 harg0 arg1 harg1 arg2 harg2) K := by
  simp only [cc3__linear_multi_kernel_eq_skeleton]; unfold cc3__linear_multi_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` every
    input buffer at its block and the output buffer at `out3_2` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any grid point: the input buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.R4.lean ====
/-
  Region 4 of @main, the pallas_call `cc4__linear_multi_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.Kernel.Launch
import proofs.«140264_j78443282694634_2_alg».proof.Proof.Gen.Kernel.Skeleton
import proofs.«140264_j78443282694634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every grid point, whether or not the pipeline fetched it
    there (an unfetched window's block index has not moved), for any proof data over the arrays `V` whose body leaves
    the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every grid point, whether or not the pipeline fetched it
    there (an unfetched window's block index has not moved), for any proof data over the arrays `V` whose body leaves
    the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S10000x64 := Rect.unit (s := S10000x64) ![0, 0] S10000x64.size inb_S10000x64_S10000x64_0_0
abbrev r4_1 : Rect S64x128 := Rect.unit (s := S64x128) ![0, 0] S64x128.size inb_S64x128_S64x128_0_0
abbrev r4_2 : Rect S10000x128 := Rect.unit (s := S10000x128) ![0, 0] S10000x128.size inb_S10000x128_S10000x128_0_0

/-- The output window's staging buffer after the body, as a function of the input blocks: the body's one store, of the
    body's value of the loaded blocks, through the whole rectangle. -/
def out4_2 (x0 : Vec F S10000x64 .f32) (x1 : Vec F S64x128 .f32) : Vec F S10000x128 .f32 :=
  View.canon [⟨r4_2, k4_pay1 (View.ld x0 r4_0) (View.ld x1 r4_1)⟩]

/-- That one store covers the buffer. -/
theorem cover4_2 (p0 : Vec F S10000x128 .f32) (y : S10000x128.Idx) :
    ∃ pc ∈ ([⟨r4_2, p0⟩] : List (View.Piece (Elt F) S10000x128 .f32)), y ∈ pc.1.set :=
  View.cover_of_tiled [⟨r4_2, p0⟩] S10000x128.size (by rfl) y

set_option maxHeartbeats 1000000 in
/-- The body on whole staging memrefs, the inputs' holding `xJ` and the output's anything, runs without fault to a
    state where the inputs' are unchanged and the output's holds `out4_2` of the inputs. -/
theorem sound_kernel4 (c : Dev nD) (E : Set ℕ) (i : grid4.Coords) (arg0 : Memref sig .tc .vmem S10000x64 .f32) (harg0 : arg0.IsWhole) (arg1 : Memref sig .tc .vmem S64x128 .f32) (harg1 : arg1.IsWhole) (arg2 : Memref sig .tc .vmem S10000x128 .f32) (harg2 : arg2.IsWhole)
    (x0 : Vec F S10000x64 .f32) (x1 : Vec F S64x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__linear_multi_kernel i arg0 harg0 arg1 harg1 arg2 harg2) K := by
  simp only [cc4__linear_multi_kernel_eq_skeleton]; unfold cc4__linear_multi_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core `c`: the arrays as the region finds them; after the body at point `t` every
    input buffer at its block and the output buffer at `out4_2` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any grid point: the input buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.R5.lean ====
/-
  Region 5 of @main, the pallas_call `cc5__agg_first_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.Kernel.Launch
import proofs.«140264_j78443282694634_2_alg».proof.Proof.Gen.Kernel.Skeleton
import proofs.«140264_j78443282694634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every grid point, whether or not the pipeline fetched it
    there (an unfetched window's block index has not moved), for any proof data over the arrays `V` whose body leaves
    the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every grid point, whether or not the pipeline fetched it
    there (an unfetched window's block index has not moved), for any proof data over the arrays `V` whose body leaves
    the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every grid point, whether or not the pipeline fetched it
    there (an unfetched window's block index has not moved), for any proof data over the arrays `V` whose body leaves
    the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every grid point, whether or not the pipeline fetched it
    there (an unfetched window's block index has not moved), for any proof data over the arrays `V` whose body leaves
    the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x64 := Rect.unit (s := S10000x64) ![0, 0] S10000x64.size inb_S10000x64_S10000x64_0_0
abbrev r5_1 : Rect S10000x64 := Rect.unit (s := S10000x64) ![0, 0] S10000x64.size inb_S10000x64_S10000x64_0_0
abbrev r5_2 : Rect S10000x64 := Rect.unit (s := S10000x64) ![0, 0] S10000x64.size inb_S10000x64_S10000x64_0_0
abbrev r5_3 : Rect S64x64 := Rect.unit (s := S64x64) ![0, 0] S64x64.size inb_S64x64_S64x64_0_0
abbrev r5_4 : Rect S10000x64 := Rect.unit (s := S10000x64) ![0, 0] S10000x64.size inb_S10000x64_S10000x64_0_0

/-- The output window's staging buffer after the body, as a function of the input blocks: the body's one store, of the
    body's value of the loaded blocks, through the whole rectangle. -/
def out5_4 (x0 : Vec F S10000x64 .f32) (x1 : Vec F S10000x64 .f32) (x2 : Vec F S10000x64 .f32) (x3 : Vec F S64x64 .f32) : Vec F S10000x64 .f32 :=
  View.canon [⟨r5_4, k5_pay1 (View.ld x0 r5_0) (View.ld x1 r5_1) (View.ld x2 r5_2) (View.ld x3 r5_3)⟩]

/-- That one store covers the buffer. -/
theorem cover5_4 (p0 : Vec F S10000x64 .f32) (y : S10000x64.Idx) :
    ∃ pc ∈ ([⟨r5_4, p0⟩] : List (View.Piece (Elt F) S10000x64 .f32)), y ∈ pc.1.set :=
  View.cover_of_tiled [⟨r5_4, p0⟩] S10000x64.size (by rfl) y

set_option maxHeartbeats 1000000 in
/-- The body on whole staging memrefs, the inputs' holding `xJ` and the output's anything, runs without fault to a
    state where the inputs' are unchanged and the output's holds `out5_4` of the inputs. -/
theorem sound_kernel5 (c : Dev nD) (E : Set ℕ) (i : grid5.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S10000x64 .f32) (harg4 : arg4.IsWhole)
    (x0 : Vec F S10000x64 .f32) (x1 : Vec F S10000x64 .f32) (x2 : Vec F S10000x64 .f32) (x3 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out5_4 x0 x1 x2 x3)) -∗ K ⟨⟩))
      ⊢ wp frame (wpE (defs₀ (F := F)) Variants.none c none) E (cc5__agg_first_kernel i arg0 harg0 arg1 harg1 arg2 harg2 arg3 harg3 arg4 harg4) K := by
  simp only [cc5__agg_first_kernel_eq_skeleton]; unfold cc5__agg_first_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The pipeline's proof data on core `c`: the arrays as the region finds them; after the body at point `t` every
    input buffer at its block and the output buffer at `out5_4` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any grid point: the input buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every grid point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.R6.lean ====
/-
  Region 6 of @main, the pallas_call `cc6__agg_mid_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.Kernel.Launch
import proofs.«140264_j78443282694634_2_alg».proof.Proof.Gen.Kernel.Skeleton
import proofs.«140264_j78443282694634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every grid point, whether or not the pipeline fetched it
    there (an unfetched window's block index has not moved), for any proof data over the arrays `V` whose body leaves
    the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every grid point, whether or not the pipeline fetched it
    there (an unfetched window's block index has not moved), for any proof data over the arrays `V` whose body leaves
    the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every grid point, whether or not the pipeline fetched it
    there (an unfetched window's block index has not moved), for any proof data over the arrays `V` whose body leaves
    the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every grid point, whether or not the pipeline fetched it
    there (an unfetched window's block index has not moved), for any proof data over the arrays `V` whose body leaves
    the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every grid point, whether or not the pipeline fetched it
    there (an unfetched window's block index has not moved), for any proof data over the arrays `V` whose body leaves
    the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S10000x64 := Rect.unit (s := S10000x64) ![0, 0] S10000x64.size inb_S10000x64_S10000x64_0_0
abbrev r6_1 : Rect S10000x64 := Rect.unit (s := S10000x64) ![0, 0] S10000x64.size inb_S10000x64_S10000x64_0_0
abbrev r6_2 : Rect S10000x64 := Rect.unit (s := S10000x64) ![0, 0] S10000x64.size inb_S10000x64_S10000x64_0_0
abbrev r6_3 : Rect S10000x64 := Rect.unit (s := S10000x64) ![0, 0] S10000x64.size inb_S10000x64_S10000x64_0_0
abbrev r6_4 : Rect S64x64 := Rect.unit (s := S64x64) ![0, 0] S64x64.size inb_S64x64_S64x64_0_0
abbrev r6_5 : Rect S10000x64 := Rect.unit (s := S10000x64) ![0, 0] S10000x64.size inb_S10000x64_S10000x64_0_0

/-- The output window's staging buffer after the body, as a function of the input blocks: the body's one store, of the
    body's value of the loaded blocks, through the whole rectangle. -/
def out6_5 (x0 : Vec F S10000x64 .f32) (x1 : Vec F S10000x64 .f32) (x2 : Vec F S10000x64 .f32) (x3 : Vec F S10000x64 .f32) (x4 : Vec F S64x64 .f32) : Vec F S10000x64 .f32 :=
  View.canon [⟨r6_5, k6_pay1 (View.ld x0 r6_0) (View.ld x1 r6_1) (View.ld x2 r6_2) (View.ld x3 r6_3) (View.ld x4 r6_4)⟩]

/-- That one store covers the buffer. -/
theorem cover6_5 (p0 : Vec F S10000x64 .f32) (y : S10000x64.Idx) :
    ∃ pc ∈ ([⟨r6_5, p0⟩] : List (View.Piece (Elt F) S10000x64 .f32)), y ∈ pc.1.set :=
  View.cover_of_tiled [⟨r6_5, p0⟩] S10000x64.size (by rfl) y

set_option maxHeartbeats 1000000 in
/-- The body on whole staging memrefs, the inputs' holding `xJ` and the output's anything, runs without fault to a
    state where the inputs' are unchanged and the output's holds `out6_5` of the inputs. -/
theorem sound_kernel6 (c : Dev nD) (E : Set ℕ) (i : grid6.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S10000x64 .f32) (harg5 : arg5.IsWhole)
    (x0 : Vec F S10000x64 .f32) (x1 : Vec F S10000x64 .f32) (x2 : Vec F S10000x64 .f32) (x3 : Vec F S10000x64 .f32) (x4 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out6_5 x0 x1 x2 x3 x4)) -∗ K ⟨⟩))
      ⊢ wp frame (wpE (defs₀ (F := F)) Variants.none c none) E (cc6__agg_mid_kernel i arg0 harg0 arg1 harg1 arg2 harg2 arg3 harg3 arg4 harg4 arg5 harg5) K := by
  simp only [cc6__agg_mid_kernel_eq_skeleton]; unfold cc6__agg_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The pipeline's proof data on core `c`: the arrays as the region finds them; after the body at point `t` every
    input buffer at its block and the output buffer at `out6_5` of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any grid point: the input buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.K.R7.lean ====
/-
  Region 7 of @main, the pallas_call `cc7__agg_mid_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.Kernel.Launch
import proofs.«140264_j78443282694634_2_alg».proof.Proof.Gen.Kernel.Skeleton
import proofs.«140264_j78443282694634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every grid point, whether or not the pipeline fetched it
    there (an unfetched window's block index has not moved), for any proof data over the arrays `V` whose body leaves
    the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every grid point, whether or not the pipeline fetched it
    there (an unfetched window's block index has not moved), for any proof data over the arrays `V` whose body leaves
    the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every grid point, whether or not the pipeline fetched it
    there (an unfetched window's block index has not moved), for any proof data over the arrays `V` whose body leaves
    the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every grid point, whether or not the pipeline fetched it
    there (an unfetched window's block index has not moved), for any proof data over the arrays `V` whose body leaves
    the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every grid point, whether or not the pipeline fetched it
    there (an unfetched window's block index has not moved), for any proof data over the arrays `V` whose body leaves
    the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S10000x64 := Rect.unit (s := S10000x64) ![0, 0] S10000x64.size inb_S10000x64_S10000x64_0_0
abbrev r7_1 : Rect S10000x64 := Rect.unit (s := S10000x64) ![0, 0] S10000x64.size inb_S10000x64_S10000x64_0_0
abbrev r7_2 : Rect S10000x64 := Rect.unit (s := S10000x64) ![0, 0] S10000x64.size inb_S10000x64_S10000x64_0_0
abbrev r7_3 : Rect S10000x64 := Rect.unit (s := S10000x64) ![0, 0] S10000x64.size inb_S10000x64_S10000x64_0_0
abbrev r7_4 : Rect S64x64 := Rect.unit (s := S64x64) ![0, 0] S64x64.size inb_S64x64_S64x64_0_0
abbrev r7_5 : Rect S10000x64 := Rect.unit (s := S10000x64) ![0, 0] S10000x64.size inb_S10000x64_S10000x64_0_0

/-- The output window's staging buffer after the body, as a function of the input blocks: the body's one store, of the
    body's value of the loaded blocks, through the whole rectangle. -/
def out7_5 (x0 : Vec F S10000x64 .f32) (x1 : Vec F S10000x64 .f32) (x2 : Vec F S10000x64 .f32) (x3 : Vec F S10000x64 .f32) (x4 : Vec F S64x64 .f32) : Vec F S10000x64 .f32 :=
  View.canon [⟨r7_5, k7_pay1 (View.ld x0 r7_0) (View.ld x1 r7_1) (View.ld x2 r7_2) (View.ld x3 r7_3) (View.ld x4 r7_4)⟩]

/-- That one store covers the buffer. -/
theorem cover7_5 (p0 : Vec F S10000x64 .f32) (y : S10000x64.Idx) :
    ∃ pc ∈ ([⟨r7_5, p0⟩] : List (View.Piece (Elt F) S10000x64 .f32)), y ∈ pc.1.set :=
  View.cover_of_tiled [⟨r7_5, p0⟩] S10000x64.size (by rfl) y

set_option maxHeartbeats 1000000 in
/-- The body on whole staging memrefs, the inputs' holding `xJ` and the output's anything, runs without fault to a
    state where the inputs' are unchanged and the output's holds `out7_5` of the inputs. -/
theorem sound_kernel7 (c : Dev nD) (E : Set ℕ) (i : grid7.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S10000x64 .f32) (harg5 : arg5.IsWhole)
    (x0 : Vec F S10000x64 .f32) (x1 : Vec F S10000x64 .f32) (x2 : Vec F S10000x64 .f32) (x3 : Vec F S10000x64 .f32) (x4 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out7_5 x0 x1 x2 x3 x4)) -∗ K ⟨⟩))
      ⊢ wp frame (wpE (defs₀ (F := F)) Variants.none c none) E (cc7__agg_mid_kernel i arg0 harg0 arg1 harg1 arg2 harg2 arg3 harg3 arg4 harg4 arg5 harg5) K := by
  simp only [cc7__agg_mid_kernel_eq_skeleton]; unfold cc7__agg_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The pipeline's proof data on core `c`: the arrays as the region finds them; after the body at point `t` every
    input buffer at its block and the output buffer at `out7_5` of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any grid point: the input buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.K.R8.lean ====
/-
  Region 8 of @main, the pallas_call `cc8__agg_mid_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.Kernel.Launch
import proofs.«140264_j78443282694634_2_alg».proof.Proof.Gen.Kernel.Skeleton
import proofs.«140264_j78443282694634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every grid point, whether or not the pipeline fetched it
    there (an unfetched window's block index has not moved), for any proof data over the arrays `V` whose body leaves
    the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every grid point, whether or not the pipeline fetched it
    there (an unfetched window's block index has not moved), for any proof data over the arrays `V` whose body leaves
    the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every grid point, whether or not the pipeline fetched it
    there (an unfetched window's block index has not moved), for any proof data over the arrays `V` whose body leaves
    the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every grid point, whether or not the pipeline fetched it
    there (an unfetched window's block index has not moved), for any proof data over the arrays `V` whose body leaves
    the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every grid point, whether or not the pipeline fetched it
    there (an unfetched window's block index has not moved), for any proof data over the arrays `V` whose body leaves
    the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S10000x64 := Rect.unit (s := S10000x64) ![0, 0] S10000x64.size inb_S10000x64_S10000x64_0_0
abbrev r8_1 : Rect S10000x64 := Rect.unit (s := S10000x64) ![0, 0] S10000x64.size inb_S10000x64_S10000x64_0_0
abbrev r8_2 : Rect S10000x64 := Rect.unit (s := S10000x64) ![0, 0] S10000x64.size inb_S10000x64_S10000x64_0_0
abbrev r8_3 : Rect S10000x64 := Rect.unit (s := S10000x64) ![0, 0] S10000x64.size inb_S10000x64_S10000x64_0_0
abbrev r8_4 : Rect S64x64 := Rect.unit (s := S64x64) ![0, 0] S64x64.size inb_S64x64_S64x64_0_0
abbrev r8_5 : Rect S10000x64 := Rect.unit (s := S10000x64) ![0, 0] S10000x64.size inb_S10000x64_S10000x64_0_0

/-- The output window's staging buffer after the body, as a function of the input blocks: the body's one store, of the
    body's value of the loaded blocks, through the whole rectangle. -/
def out8_5 (x0 : Vec F S10000x64 .f32) (x1 : Vec F S10000x64 .f32) (x2 : Vec F S10000x64 .f32) (x3 : Vec F S10000x64 .f32) (x4 : Vec F S64x64 .f32) : Vec F S10000x64 .f32 :=
  View.canon [⟨r8_5, k8_pay1 (View.ld x0 r8_0) (View.ld x1 r8_1) (View.ld x2 r8_2) (View.ld x3 r8_3) (View.ld x4 r8_4)⟩]

/-- That one store covers the buffer. -/
theorem cover8_5 (p0 : Vec F S10000x64 .f32) (y : S10000x64.Idx) :
    ∃ pc ∈ ([⟨r8_5, p0⟩] : List (View.Piece (Elt F) S10000x64 .f32)), y ∈ pc.1.set :=
  View.cover_of_tiled [⟨r8_5, p0⟩] S10000x64.size (by rfl) y

set_option maxHeartbeats 1000000 in
/-- The body on whole staging memrefs, the inputs' holding `xJ` and the output's anything, runs without fault to a
    state where the inputs' are unchanged and the output's holds `out8_5` of the inputs. -/
theorem sound_kernel8 (c : Dev nD) (E : Set ℕ) (i : grid8.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S10000x64 .f32) (harg5 : arg5.IsWhole)
    (x0 : Vec F S10000x64 .f32) (x1 : Vec F S10000x64 .f32) (x2 : Vec F S10000x64 .f32) (x3 : Vec F S10000x64 .f32) (x4 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out8_5 x0 x1 x2 x3 x4)) -∗ K ⟨⟩))
      ⊢ wp frame (wpE (defs₀ (F := F)) Variants.none c none) E (cc8__agg_mid_kernel i arg0 harg0 arg1 harg1 arg2 harg2 arg3 harg3 arg4 harg4 arg5 harg5) K := by
  simp only [cc8__agg_mid_kernel_eq_skeleton]; unfold cc8__agg_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The pipeline's proof data on core `c`: the arrays as the region finds them; after the body at point `t` every
    input buffer at its block and the output buffer at `out8_5` of the input blocks; nothing owed, full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any grid point: the input buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.K.R9.lean ====
/-
  Region 9 of @main, the pallas_call `cc9__agg_last_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.Kernel.Launch
import proofs.«140264_j78443282694634_2_alg».proof.Proof.Gen.Kernel.Skeleton
import proofs.«140264_j78443282694634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every grid point, whether or not the pipeline fetched it
    there (an unfetched window's block index has not moved), for any proof data over the arrays `V` whose body leaves
    the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every grid point, whether or not the pipeline fetched it
    there (an unfetched window's block index has not moved), for any proof data over the arrays `V` whose body leaves
    the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every grid point, whether or not the pipeline fetched it
    there (an unfetched window's block index has not moved), for any proof data over the arrays `V` whose body leaves
    the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds its block at every grid point, whether or not the pipeline fetched it
    there (an unfetched window's block index has not moved), for any proof data over the arrays `V` whose body leaves
    the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S10000x64 := Rect.unit (s := S10000x64) ![0, 0] S10000x64.size inb_S10000x64_S10000x64_0_0
abbrev r9_1 : Rect S10000x64 := Rect.unit (s := S10000x64) ![0, 0] S10000x64.size inb_S10000x64_S10000x64_0_0
abbrev r9_2 : Rect S10000x64 := Rect.unit (s := S10000x64) ![0, 0] S10000x64.size inb_S10000x64_S10000x64_0_0
abbrev r9_3 : Rect S64x64 := Rect.unit (s := S64x64) ![0, 0] S64x64.size inb_S64x64_S64x64_0_0
abbrev r9_4 : Rect S10000x64 := Rect.unit (s := S10000x64) ![0, 0] S10000x64.size inb_S10000x64_S10000x64_0_0

/-- The output window's staging buffer after the body, as a function of the input blocks: the body's one store, of the
    body's value of the loaded blocks, through the whole rectangle. -/
def out9_4 (x0 : Vec F S10000x64 .f32) (x1 : Vec F S10000x64 .f32) (x2 : Vec F S10000x64 .f32) (x3 : Vec F S64x64 .f32) : Vec F S10000x64 .f32 :=
  View.canon [⟨r9_4, k9_pay1 (View.ld x0 r9_0) (View.ld x1 r9_1) (View.ld x2 r9_2) (View.ld x3 r9_3)⟩]

/-- That one store covers the buffer. -/
theorem cover9_4 (p0 : Vec F S10000x64 .f32) (y : S10000x64.Idx) :
    ∃ pc ∈ ([⟨r9_4, p0⟩] : List (View.Piece (Elt F) S10000x64 .f32)), y ∈ pc.1.set :=
  View.cover_of_tiled [⟨r9_4, p0⟩] S10000x64.size (by rfl) y

set_option maxHeartbeats 1000000 in
/-- The body on whole staging memrefs, the inputs' holding `xJ` and the output's anything, runs without fault to a
    state where the inputs' are unchanged and the output's holds `out9_4` of the inputs. -/
theorem sound_kernel9 (c : Dev nD) (E : Set ℕ) (i : grid9.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S10000x64 .f32) (harg4 : arg4.IsWhole)
    (x0 : Vec F S10000x64 .f32) (x1 : Vec F S10000x64 .f32) (x2 : Vec F S10000x64 .f32) (x3 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out9_4 x0 x1 x2 x3)) -∗ K ⟨⟩))
      ⊢ wp frame (wpE (defs₀ (F := F)) Variants.none c none) E (cc9__agg_last_kernel i arg0 harg0 arg1 harg1 arg2 harg2 arg3 harg3 arg4 harg4) K := by
  simp only [cc9__agg_last_kernel_eq_skeleton]; unfold cc9__agg_last_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-- The pipeline's proof data on core `c`: the arrays as the region finds them; after the body at point `t` every
    input buffer at its block and the output buffer at `out9_4` of the input blocks; nothing owed, full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any grid point: the input buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every grid point. -/
theorem body_obligation9 (c : Dev nD) : BodyObligation (dat9 (F := F) V c) (defs₀ (F := F)) Variants.none () Set.univ := fun t => by
  rw [bigSep_W9, bigSep_W9]
  exact sound_body9 V c t

end Cert.Kernel.Fr

end
-- ==== Proof.K.Fold.lean ====
/-
  The buffers' contents at every boundary between two items of @main, as a fold from the launch memory: a stretch of
  host operations leaves what the operations compute; a pallas_call leaves its windows' arrays at what its
  write-backs left (the input arrays as entered, the output array block by block) and every other buffer as entered.
  No item writes an argument, so every argument's buffer reaches the end as launched.
-/
import proofs.«140264_j78443282694634_2_alg».proof.Proof.K.R0
import proofs.«140264_j78443282694634_2_alg».proof.Proof.K.R1
import proofs.«140264_j78443282694634_2_alg».proof.Proof.K.R2
import proofs.«140264_j78443282694634_2_alg».proof.Proof.K.R3
import proofs.«140264_j78443282694634_2_alg».proof.Proof.K.R4
import proofs.«140264_j78443282694634_2_alg».proof.Proof.K.R5
import proofs.«140264_j78443282694634_2_alg».proof.Proof.K.R6
import proofs.«140264_j78443282694634_2_alg».proof.Proof.K.R7
import proofs.«140264_j78443282694634_2_alg».proof.Proof.K.R8
import proofs.«140264_j78443282694634_2_alg».proof.Proof.K.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch `main_part0_ops0`. -/
abbrev W1 : Dev nD → Valuation τ sig (Elt F) := fun c => StableHlo.after main_part0_ops0 (W0 m ρ c)
/-- No operation of `main_part0_ops0` allocates a buffer. -/
theorem main_part0_ops0_fresh : (main_part0_ops0 : List (HloOp τ sig (Elt F))).Forall fun op => op.fresh = ∅ := by
  simp only [List.Forall]; repeat' constructor
/-- The buffers `main_part0_ops0` writes. -/
abbrev wl1 : List (Ref sig .tc) := [main_v0]
theorem main_part0_ops0_writes : (main_part0_ops0 : List (HloOp τ sig (Elt F))).Forall fun op => op.writes ⊆ (wl1.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep1 (c : Dev nD) (r : Ref sig .tc) (h : r ∉ wl1) : W1 m ρ c (Proc.devRef .tc r) = W0 m ρ c (Proc.devRef .tc r) :=
  StableHlo.after_of_writes_sub main_part0_ops0 _ main_part0_ops0_writes h

/-- The contents region 0 is entered with, read at the TensorCore's references. -/
abbrev V1 : (c : Dev nD) → (b : Ref sig .tc) → Buf (Elt F) ((c : Thread nD τ).loc b) := fun c b => W1 m ρ c b
/-- After region 0: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array `main_v1`: an input window's array is never written back, and a buffer
    that is no window's array is not touched. -/
theorem keep2 (c : Dev nD) (r : Ref sig .tc) (h : r ≠ main_v1) : W2 m ρ c (Proc.devRef .tc r) = W1 m ρ c (Proc.devRef .tc r) := by
  by_cases hw : ∃ w, Pipeline.arrRef spec0 w = r
  · obtain ⟨w, rfl⟩ := hw
    have hin : (cfg0.win w).isOut = false := by
      match w with
      | ⟨0, _⟩ => rfl
      | ⟨1, _⟩ => rfl
      | ⟨2, _⟩ => exact absurd rfl h
    exact (W2_arr m ρ c w).trans (((dat0 (V1 m ρ) c).arrAt_in w hin _).trans (A_eq0 (V1 m ρ) c w))
  · exact W2_of_ne m ρ c r (fun w e => hw ⟨w, e⟩)

/-- After the host stretch `main_part0_ops1`. -/
abbrev W3 : Dev nD → Valuation τ sig (Elt F) := fun c => StableHlo.after main_part0_ops1 (W2 m ρ c)
/-- No operation of `main_part0_ops1` allocates a buffer. -/
theorem main_part0_ops1_fresh : (main_part0_ops1 : List (HloOp τ sig (Elt F))).Forall fun op => op.fresh = ∅ := by
  simp only [List.Forall]; repeat' constructor
/-- The buffers `main_part0_ops1` writes. -/
abbrev wl3 : List (Ref sig .tc) := [main_v2, main_v3, main_v4, main_c]
theorem main_part0_ops1_writes : (main_part0_ops1 : List (HloOp τ sig (Elt F))).Forall fun op => op.writes ⊆ (wl3.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep3 (c : Dev nD) (r : Ref sig .tc) (h : r ∉ wl3) : W3 m ρ c (Proc.devRef .tc r) = W2 m ρ c (Proc.devRef .tc r) :=
  StableHlo.after_of_writes_sub main_part0_ops1 _ main_part0_ops1_writes h

/-- After the host stretch `main_part0_ops2`. -/
abbrev W4 : Dev nD → Valuation τ sig (Elt F) := fun c => StableHlo.after main_part0_ops2 (W3 m ρ c)
/-- No operation of `main_part0_ops2` allocates a buffer. -/
theorem main_part0_ops2_fresh : (main_part0_ops2 : List (HloOp τ sig (Elt F))).Forall fun op => op.fresh = ∅ := by
  simp only [List.Forall]; repeat' constructor
/-- The buffers `main_part0_ops2` writes. -/
abbrev wl4 : List (Ref sig .tc) := [main_call0_v0, main_v5]
theorem main_part0_ops2_writes : (main_part0_ops2 : List (HloOp τ sig (Elt F))).Forall fun op => op.writes ⊆ (wl4.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep4 (c : Dev nD) (r : Ref sig .tc) (h : r ∉ wl4) : W4 m ρ c (Proc.devRef .tc r) = W3 m ρ c (Proc.devRef .tc r) :=
  StableHlo.after_of_writes_sub main_part0_ops2 _ main_part0_ops2_writes h

/-- The contents region 1 is entered with, read at the TensorCore's references. -/
abbrev V4 : (c : Dev nD) → (b : Ref sig .tc) → Buf (Elt F) ((c : Thread nD τ).loc b) := fun c b => W4 m ρ c b
/-- After region 1: its windows' arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
/-- Region 1 changes only its output array `main_v6`: an input window's array is never written back, and a buffer
    that is no window's array is not touched. -/
theorem keep5 (c : Dev nD) (r : Ref sig .tc) (h : r ≠ main_v6) : W5 m ρ c (Proc.devRef .tc r) = W4 m ρ c (Proc.devRef .tc r) := by
  by_cases hw : ∃ w, Pipeline.arrRef spec1 w = r
  · obtain ⟨w, rfl⟩ := hw
    have hin : (cfg1.win w).isOut = false := by
      match w with
      | ⟨0, _⟩ => rfl
      | ⟨1, _⟩ => rfl
      | ⟨2, _⟩ => exact absurd rfl h
    exact (W5_arr m ρ c w).trans (((dat1 (V4 m ρ) c).arrAt_in w hin _).trans (A_eq1 (V4 m ρ) c w))
  · exact W5_of_ne m ρ c r (fun w e => hw ⟨w, e⟩)

/-- After the host stretch `main_part0_ops3`. -/
abbrev W6 : Dev nD → Valuation τ sig (Elt F) := fun c => StableHlo.after main_part0_ops3 (W5 m ρ c)
/-- No operation of `main_part0_ops3` allocates a buffer. -/
theorem main_part0_ops3_fresh : (main_part0_ops3 : List (HloOp τ sig (Elt F))).Forall fun op => op.fresh = ∅ := by
  simp only [List.Forall]; repeat' constructor
/-- The buffers `main_part0_ops3` writes. -/
abbrev wl6 : List (Ref sig .tc) := [main_v7, main_v8, main_v9, main_v10, main_c_0]
theorem main_part0_ops3_writes : (main_part0_ops3 : List (HloOp τ sig (Elt F))).Forall fun op => op.writes ⊆ (wl6.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep6 (c : Dev nD) (r : Ref sig .tc) (h : r ∉ wl6) : W6 m ρ c (Proc.devRef .tc r) = W5 m ρ c (Proc.devRef .tc r) :=
  StableHlo.after_of_writes_sub main_part0_ops3 _ main_part0_ops3_writes h

/-- After the host stretch `main_part0_ops4`. -/
abbrev W7 : Dev nD → Valuation τ sig (Elt F) := fun c => StableHlo.after main_part0_ops4 (W6 m ρ c)
/-- No operation of `main_part0_ops4` allocates a buffer. -/
theorem main_part0_ops4_fresh : (main_part0_ops4 : List (HloOp τ sig (Elt F))).Forall fun op => op.fresh = ∅ := by
  simp only [List.Forall]; repeat' constructor
/-- The buffers `main_part0_ops4` writes. -/
abbrev wl7 : List (Ref sig .tc) := [main_call1_v0, main_v11]
theorem main_part0_ops4_writes : (main_part0_ops4 : List (HloOp τ sig (Elt F))).Forall fun op => op.writes ⊆ (wl7.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep7 (c : Dev nD) (r : Ref sig .tc) (h : r ∉ wl7) : W7 m ρ c (Proc.devRef .tc r) = W6 m ρ c (Proc.devRef .tc r) :=
  StableHlo.after_of_writes_sub main_part0_ops4 _ main_part0_ops4_writes h

/-- The contents region 2 is entered with, read at the TensorCore's references. -/
abbrev V7 : (c : Dev nD) → (b : Ref sig .tc) → Buf (Elt F) ((c : Thread nD τ).loc b) := fun c b => W7 m ρ c b
/-- After region 2: its windows' arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- Region 2 changes only its output array `main_v12`: an input window's array is never written back, and a buffer
    that is no window's array is not touched. -/
theorem keep8 (c : Dev nD) (r : Ref sig .tc) (h : r ≠ main_v12) : W8 m ρ c (Proc.devRef .tc r) = W7 m ρ c (Proc.devRef .tc r) := by
  by_cases hw : ∃ w, Pipeline.arrRef spec2 w = r
  · obtain ⟨w, rfl⟩ := hw
    have hin : (cfg2.win w).isOut = false := by
      match w with
      | ⟨0, _⟩ => rfl
      | ⟨1, _⟩ => rfl
      | ⟨2, _⟩ => exact absurd rfl h
    exact (W8_arr m ρ c w).trans (((dat2 (V7 m ρ) c).arrAt_in w hin _).trans (A_eq2 (V7 m ρ) c w))
  · exact W8_of_ne m ρ c r (fun w e => hw ⟨w, e⟩)

/-- After the host stretch `main_part0_ops5`. -/
abbrev W9 : Dev nD → Valuation τ sig (Elt F) := fun c => StableHlo.after main_part0_ops5 (W8 m ρ c)
/-- No operation of `main_part0_ops5` allocates a buffer. -/
theorem main_part0_ops5_fresh : (main_part0_ops5 : List (HloOp τ sig (Elt F))).Forall fun op => op.fresh = ∅ := by
  simp only [List.Forall]; repeat' constructor
/-- The buffers `main_part0_ops5` writes. -/
abbrev wl9 : List (Ref sig .tc) := [main_v13, main_v14, main_v15, main_v16, main_c_1]
theorem main_part0_ops5_writes : (main_part0_ops5 : List (HloOp τ sig (Elt F))).Forall fun op => op.writes ⊆ (wl9.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep9 (c : Dev nD) (r : Ref sig .tc) (h : r ∉ wl9) : W9 m ρ c (Proc.devRef .tc r) = W8 m ρ c (Proc.devRef .tc r) :=
  StableHlo.after_of_writes_sub main_part0_ops5 _ main_part0_ops5_writes h

/-- After the host stretch `main_part0_ops6`. -/
abbrev W10 : Dev nD → Valuation τ sig (Elt F) := fun c => StableHlo.after main_part0_ops6 (W9 m ρ c)
/-- No operation of `main_part0_ops6` allocates a buffer. -/
theorem main_part0_ops6_fresh : (main_part0_ops6 : List (HloOp τ sig (Elt F))).Forall fun op => op.fresh = ∅ := by
  simp only [List.Forall]; repeat' constructor
/-- The buffers `main_part0_ops6` writes. -/
abbrev wl10 : List (Ref sig .tc) := [main_call2_v0, main_v17]
theorem main_part0_ops6_writes : (main_part0_ops6 : List (HloOp τ sig (Elt F))).Forall fun op => op.writes ⊆ (wl10.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep10 (c : Dev nD) (r : Ref sig .tc) (h : r ∉ wl10) : W10 m ρ c (Proc.devRef .tc r) = W9 m ρ c (Proc.devRef .tc r) :=
  StableHlo.after_of_writes_sub main_part0_ops6 _ main_part0_ops6_writes h

/-- The contents region 3 is entered with, read at the TensorCore's references. -/
abbrev V10 : (c : Dev nD) → (b : Ref sig .tc) → Buf (Elt F) ((c : Thread nD τ).loc b) := fun c b => W10 m ρ c b
/-- After region 3: its windows' arrays at what the pipeline leaves, every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
abbrev V11 : (c : Dev nD) → (b : Ref sig .tc) → Buf (Elt F) ((c : Thread nD τ).loc b) := fun c b => W11 m ρ c b
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)
/-- Region 3 changes only its output array `main_v18`: an input window's array is never written back, and a buffer
    that is no window's array is not touched. -/
theorem keep11 (c : Dev nD) (r : Ref sig .tc) (h : r ≠ main_v18) : W11 m ρ c (Proc.devRef .tc r) = W10 m ρ c (Proc.devRef .tc r) := by
  by_cases hw : ∃ w, Pipeline.arrRef spec3 w = r
  · obtain ⟨w, rfl⟩ := hw
    have hin : (cfg3.win w).isOut = false := by
      match w with
      | ⟨0, _⟩ => rfl
      | ⟨1, _⟩ => rfl
      | ⟨2, _⟩ => exact absurd rfl h
    exact (W11_arr m ρ c w).trans (((dat3 (V10 m ρ) c).arrAt_in w hin _).trans (A_eq3 (V10 m ρ) c w))
  · exact W11_of_ne m ρ c r (fun w e => hw ⟨w, e⟩)

/-- After the host stretch `main_part0_ops7`. -/
abbrev W12 : Dev nD → Valuation τ sig (Elt F) := fun c => StableHlo.after main_part0_ops7 (W11 m ρ c)
/-- No operation of `main_part0_ops7` allocates a buffer. -/
theorem main_part0_ops7_fresh : (main_part0_ops7 : List (HloOp τ sig (Elt F))).Forall fun op => op.fresh = ∅ := by
  simp only [List.Forall]; repeat' constructor
/-- The buffers `main_part0_ops7` writes. -/
abbrev wl12 : List (Ref sig .tc) := [main_v19, main_v20, main_v21, main_v22]
theorem main_part0_ops7_writes : (main_part0_ops7 : List (HloOp τ sig (Elt F))).Forall fun op => op.writes ⊆ (wl12.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep12 (c : Dev nD) (r : Ref sig .tc) (h : r ∉ wl12) : W12 m ρ c (Proc.devRef .tc r) = W11 m ρ c (Proc.devRef .tc r) :=
  StableHlo.after_of_writes_sub main_part0_ops7 _ main_part0_ops7_writes h

/-- The contents region 4 is entered with, read at the TensorCore's references. -/
abbrev V12 : (c : Dev nD) → (b : Ref sig .tc) → Buf (Elt F) ((c : Thread nD τ).loc b) := fun c b => W12 m ρ c b
/-- After region 4: its windows' arrays at what the pipeline leaves, every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)
/-- Region 4 changes only its output array `main_v23`: an input window's array is never written back, and a buffer
    that is no window's array is not touched. -/
theorem keep13 (c : Dev nD) (r : Ref sig .tc) (h : r ≠ main_v23) : W13 m ρ c (Proc.devRef .tc r) = W12 m ρ c (Proc.devRef .tc r) := by
  by_cases hw : ∃ w, Pipeline.arrRef spec4 w = r
  · obtain ⟨w, rfl⟩ := hw
    have hin : (cfg4.win w).isOut = false := by
      match w with
      | ⟨0, _⟩ => rfl
      | ⟨1, _⟩ => rfl
      | ⟨2, _⟩ => exact absurd rfl h
    exact (W13_arr m ρ c w).trans (((dat4 (V12 m ρ) c).arrAt_in w hin _).trans (A_eq4 (V12 m ρ) c w))
  · exact W13_of_ne m ρ c r (fun w e => hw ⟨w, e⟩)

/-- After the host stretch `main_part0_ops8`. -/
abbrev W14 : Dev nD → Valuation τ sig (Elt F) := fun c => StableHlo.after main_part0_ops8 (W13 m ρ c)
/-- No operation of `main_part0_ops8` allocates a buffer. -/
theorem main_part0_ops8_fresh : (main_part0_ops8 : List (HloOp τ sig (Elt F))).Forall fun op => op.fresh = ∅ := by
  simp only [List.Forall]; repeat' constructor
/-- The buffers `main_part0_ops8` writes. -/
abbrev wl14 : List (Ref sig .tc) := [main_v24, main_v25, main_v26, main_c_2, main_v27, main_v28, main_c_3, main_v29, main_v30, main_v31, main_v32, main_v33, main_v34, main_v35, main_cst, main_v36, main_v37, main_v38, main_v39, main_c_4, main_v40, main_v41, main_c_5, main_v42, main_v43, main_v44, main_v45, main_v46, main_v47, main_v48, main_cst_6, main_v49, main_v50]
theorem main_part0_ops8_writes : (main_part0_ops8 : List (HloOp τ sig (Elt F))).Forall fun op => op.writes ⊆ (wl14.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep14 (c : Dev nD) (r : Ref sig .tc) (h : r ∉ wl14) : W14 m ρ c (Proc.devRef .tc r) = W13 m ρ c (Proc.devRef .tc r) :=
  StableHlo.after_of_writes_sub main_part0_ops8 _ main_part0_ops8_writes h

/-- After the host stretch `main_part1_ops0`. -/
abbrev W15 : Dev nD → Valuation τ sig (Elt F) := fun c => StableHlo.after main_part1_ops0 (W14 m ρ c)
/-- No operation of `main_part1_ops0` allocates a buffer. -/
theorem main_part1_ops0_fresh : (main_part1_ops0 : List (HloOp τ sig (Elt F))).Forall fun op => op.fresh = ∅ := by
  simp only [List.Forall]; repeat' constructor
/-- The buffers `main_part1_ops0` writes. -/
abbrev wl15 : List (Ref sig .tc) := [main_v51, main_v52, main_c_7, main_v53, main_v54, main_c_8, main_v55, main_v56, main_v57, main_v58, main_v59, main_v60, main_v61, main_cst_9, main_v62, main_v63, main_v64, main_v65, main_c_10, main_v66, main_v67, main_c_11, main_v68, main_v69, main_v70, main_v71, main_v72, main_v73, main_v74, main_cst_12, main_v75, main_v76, main_v77, main_v78, main_c_13, main_v79, main_v80, main_c_14, main_v81, main_v82, main_v83, main_v84, main_v85, main_v86, main_v87, main_cst_15, main_v88, main_v89, main_v90, main_v91, main_c_16, main_v92, main_v93, main_c_17, main_v94, main_v95, main_v96, main_v97, main_v98, main_v99]
theorem main_part1_ops0_writes : (main_part1_ops0 : List (HloOp τ sig (Elt F))).Forall fun op => op.writes ⊆ (wl15.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep15 (c : Dev nD) (r : Ref sig .tc) (h : r ∉ wl15) : W15 m ρ c (Proc.devRef .tc r) = W14 m ρ c (Proc.devRef .tc r) :=
  StableHlo.after_of_writes_sub main_part1_ops0 _ main_part1_ops0_writes h

/-- After the host stretch `main_part2_ops0`. -/
abbrev W16 : Dev nD → Valuation τ sig (Elt F) := fun c => StableHlo.after main_part2_ops0 (W15 m ρ c)
/-- No operation of `main_part2_ops0` allocates a buffer. -/
theorem main_part2_ops0_fresh : (main_part2_ops0 : List (HloOp τ sig (Elt F))).Forall fun op => op.fresh = ∅ := by
  simp only [List.Forall]; repeat' constructor
/-- The buffers `main_part2_ops0` writes. -/
abbrev wl16 : List (Ref sig .tc) := [main_v100, main_cst_18, main_v101, main_v102, main_v103, main_v104, main_c_19, main_v105, main_v106, main_c_20, main_v107, main_v108, main_v109, main_v110, main_v111, main_v112, main_v113, main_cst_21, main_v114, main_v115, main_v116, main_v117, main_c_22, main_v118, main_v119, main_c_23, main_v120, main_v121, main_v122, main_v123, main_v124, main_v125, main_v126, main_cst_24, main_v127, main_v128, main_v129, main_v130, main_c_25, main_v131, main_v132, main_c_26, main_v133, main_v134, main_v135, main_v136, main_v137, main_v138, main_v139, main_cst_27, main_v140, main_v141, main_v142, main_v143, main_c_28, main_v144, main_v145, main_c_29, main_v146, main_v147]
theorem main_part2_ops0_writes : (main_part2_ops0 : List (HloOp τ sig (Elt F))).Forall fun op => op.writes ⊆ (wl16.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep16 (c : Dev nD) (r : Ref sig .tc) (h : r ∉ wl16) : W16 m ρ c (Proc.devRef .tc r) = W15 m ρ c (Proc.devRef .tc r) :=
  StableHlo.after_of_writes_sub main_part2_ops0 _ main_part2_ops0_writes h

/-- After the host stretch `main_part3_ops0`. -/
abbrev W17 : Dev nD → Valuation τ sig (Elt F) := fun c => StableHlo.after main_part3_ops0 (W16 m ρ c)
/-- No operation of `main_part3_ops0` allocates a buffer. -/
theorem main_part3_ops0_fresh : (main_part3_ops0 : List (HloOp τ sig (Elt F))).Forall fun op => op.fresh = ∅ := by
  simp only [List.Forall]; repeat' constructor
/-- The buffers `main_part3_ops0` writes. -/
abbrev wl17 : List (Ref sig .tc) := [main_v148, main_v149, main_v150, main_v151, main_v152, main_cst_30, main_v153, main_v154, main_v155, main_v156, main_c_31, main_v157, main_v158, main_c_32, main_v159, main_v160, main_v161, main_v162, main_v163, main_v164, main_v165, main_cst_33, main_v166, main_v167, main_v168, main_v169, main_c_34, main_v170, main_v171, main_c_35, main_v172, main_v173, main_v174, main_v175, main_v176, main_v177, main_v178, main_cst_36, main_v179, main_v180, main_v181, main_v182, main_c_37, main_v183, main_v184, main_c_38, main_v185, main_v186, main_v187, main_v188, main_v189, main_v190, main_v191, main_cst_39, main_v192, main_v193, main_v194]
theorem main_part3_ops0_writes : (main_part3_ops0 : List (HloOp τ sig (Elt F))).Forall fun op => op.writes ⊆ (wl17.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep17 (c : Dev nD) (r : Ref sig .tc) (h : r ∉ wl17) : W17 m ρ c (Proc.devRef .tc r) = W16 m ρ c (Proc.devRef .tc r) :=
  StableHlo.after_of_writes_sub main_part3_ops0 _ main_part3_ops0_writes h

/-- The contents region 5 is entered with, read at the TensorCore's references. -/
abbrev V17 : (c : Dev nD) → (b : Ref sig .tc) → Buf (Elt F) ((c : Thread nD τ).loc b) := fun c b => W17 m ρ c b
/-- After region 5: its windows' arrays at what the pipeline leaves, every other buffer as entered. -/
def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb
abbrev V18 : (c : Dev nD) → (b : Ref sig .tc) → Buf (Elt F) ((c : Thread nD τ).loc b) := fun c b => W18 m ρ c b
theorem hF5 (c : Dev nD) (w : Fin cfg5.W) : (dat5 (V17 m ρ) c).arrAt w cfg5.N = V18 m ρ c (Pipeline.arrRef spec5 w) :=
  (W18_arr m ρ c w).symm
theorem hrest5 (c : Dev nD) : ∀ b, b ∉ Finset.univ.image (Pipeline.arrRef spec5) → V18 m ρ c b = V17 m ρ c b :=
  fun b hb => W18_of_ne m ρ c b fun w e => hb (Finset.mem_image.mpr ⟨w, Finset.mem_univ _, e⟩)
/-- Region 5 changes only its output array `main_v195`: an input window's array is never written back, and a buffer
    that is no window's array is not touched. -/
theorem keep18 (c : Dev nD) (r : Ref sig .tc) (h : r ≠ main_v195) : W18 m ρ c (Proc.devRef .tc r) = W17 m ρ c (Proc.devRef .tc r) := by
  by_cases hw : ∃ w, Pipeline.arrRef spec5 w = r
  · obtain ⟨w, rfl⟩ := hw
    have hin : (cfg5.win w).isOut = false := by
      match w with
      | ⟨0, _⟩ => rfl
      | ⟨1, _⟩ => rfl
      | ⟨2, _⟩ => rfl
      | ⟨3, _⟩ => rfl
      | ⟨4, _⟩ => exact absurd rfl h
    exact (W18_arr m ρ c w).trans (((dat5 (V17 m ρ) c).arrAt_in w hin _).trans (A_eq5 (V17 m ρ) c w))
  · exact W18_of_ne m ρ c r (fun w e => hw ⟨w, e⟩)

/-- After region 6: its windows' arrays at what the pipeline leaves, every other buffer as entered. -/
def W19 (c : Dev nD) : Valuation τ sig (Elt F) :=
  Pipeline.withArrays spec6 c (W18 m ρ c) fun w => (dat6 (V18 m ρ) c).arrAt w cfg6.N
theorem W19_arr (c : Dev nD) (w : Fin cfg6.W) :
    W19 m ρ c (Proc.devRef .tc (Pipeline.arrRef spec6 w)) = (dat6 (V18 m ρ) c).arrAt w cfg6.N := by
  unfold W19; exact Pipeline.withArrays_arr spec6 launch6.win.arr_inj c _ _ w
theorem W19_of_ne (c : Dev nD) (b : Ref sig .tc) (hb : ∀ w, Pipeline.arrRef spec6 w ≠ b) :
    W19 m ρ c (Proc.devRef .tc b) = W18 m ρ c (Proc.devRef .tc b) := by
  unfold W19; exact Pipeline.withArrays_of_ne spec6 c _ _ b hb
abbrev V19 : (c : Dev nD) → (b : Ref sig .tc) → Buf (Elt F) ((c : Thread nD τ).loc b) := fun c b => W19 m ρ c b
theorem hF6 (c : Dev nD) (w : Fin cfg6.W) : (dat6 (V18 m ρ) c).arrAt w cfg6.N = V19 m ρ c (Pipeline.arrRef spec6 w) :=
  (W19_arr m ρ c w).symm
theorem hrest6 (c : Dev nD) : ∀ b, b ∉ Finset.univ.image (Pipeline.arrRef spec6) → V19 m ρ c b = V18 m ρ c b :=
  fun b hb => W19_of_ne m ρ c b fun w e => hb (Finset.mem_image.mpr ⟨w, Finset.mem_univ _, e⟩)
/-- Region 6 changes only its output array `main_v196`: an input window's array is never written back, and a buffer
    that is no window's array is not touched. -/
theorem keep19 (c : Dev nD) (r : Ref sig .tc) (h : r ≠ main_v196) : W19 m ρ c (Proc.devRef .tc r) = W18 m ρ c (Proc.devRef .tc r) := by
  by_cases hw : ∃ w, Pipeline.arrRef spec6 w = r
  · obtain ⟨w, rfl⟩ := hw
    have hin : (cfg6.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl h
    exact (W19_arr m ρ c w).trans (((dat6 (V18 m ρ) c).arrAt_in w hin _).trans (A_eq6 (V18 m ρ) c w))
  · exact W19_of_ne m ρ c r (fun w e => hw ⟨w, e⟩)

/-- After region 7: its windows' arrays at what the pipeline leaves, every other buffer as entered. -/
def W20 (c : Dev nD) : Valuation τ sig (Elt F) :=
  Pipeline.withArrays spec7 c (W19 m ρ c) fun w => (dat7 (V19 m ρ) c).arrAt w cfg7.N
theorem W20_arr (c : Dev nD) (w : Fin cfg7.W) :
    W20 m ρ c (Proc.devRef .tc (Pipeline.arrRef spec7 w)) = (dat7 (V19 m ρ) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) := by
  unfold W20; exact Pipeline.withArrays_of_ne spec7 c _ _ b hb
abbrev V20 : (c : Dev nD) → (b : Ref sig .tc) → Buf (Elt F) ((c : Thread nD τ).loc b) := fun c b => W20 m ρ c b
theorem hF7 (c : Dev nD) (w : Fin cfg7.W) : (dat7 (V19 m ρ) c).arrAt w cfg7.N = V20 m ρ c (Pipeline.arrRef spec7 w) :=
  (W20_arr m ρ c w).symm
theorem hrest7 (c : Dev nD) : ∀ b, b ∉ Finset.univ.image (Pipeline.arrRef spec7) → V20 m ρ c b = V19 m ρ c b :=
  fun b hb => W20_of_ne m ρ c b fun w e => hb (Finset.mem_image.mpr ⟨w, Finset.mem_univ _, e⟩)
/-- Region 7 changes only its output array `main_v197`: an input window's array is never written back, and a buffer
    that is no window's array is not touched. -/
theorem keep20 (c : Dev nD) (r : Ref sig .tc) (h : r ≠ main_v197) : W20 m ρ c (Proc.devRef .tc r) = W19 m ρ c (Proc.devRef .tc r) := by
  by_cases hw : ∃ w, Pipeline.arrRef spec7 w = r
  · obtain ⟨w, rfl⟩ := hw
    have hin : (cfg7.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl h
    exact (W20_arr m ρ c w).trans (((dat7 (V19 m ρ) c).arrAt_in w hin _).trans (A_eq7 (V19 m ρ) c w))
  · exact W20_of_ne m ρ c r (fun w e => hw ⟨w, e⟩)

/-- After region 8: its windows' arrays at what the pipeline leaves, every other buffer as entered. -/
def W21 (c : Dev nD) : Valuation τ sig (Elt F) :=
  Pipeline.withArrays spec8 c (W20 m ρ c) fun w => (dat8 (V20 m ρ) c).arrAt w cfg8.N
theorem W21_arr (c : Dev nD) (w : Fin cfg8.W) :
    W21 m ρ c (Proc.devRef .tc (Pipeline.arrRef spec8 w)) = (dat8 (V20 m ρ) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m ρ c (Proc.devRef .tc b) = W20 m ρ c (Proc.devRef .tc b) := by
  unfold W21; exact Pipeline.withArrays_of_ne spec8 c _ _ b hb
abbrev V21 : (c : Dev nD) → (b : Ref sig .tc) → Buf (Elt F) ((c : Thread nD τ).loc b) := fun c b => W21 m ρ c b
theorem hF8 (c : Dev nD) (w : Fin cfg8.W) : (dat8 (V20 m ρ) c).arrAt w cfg8.N = V21 m ρ c (Pipeline.arrRef spec8 w) :=
  (W21_arr m ρ c w).symm
theorem hrest8 (c : Dev nD) : ∀ b, b ∉ Finset.univ.image (Pipeline.arrRef spec8) → V21 m ρ c b = V20 m ρ c b :=
  fun b hb => W21_of_ne m ρ c b fun w e => hb (Finset.mem_image.mpr ⟨w, Finset.mem_univ _, e⟩)
/-- Region 8 changes only its output array `main_v198`: an input window's array is never written back, and a buffer
    that is no window's array is not touched. -/
theorem keep21 (c : Dev nD) (r : Ref sig .tc) (h : r ≠ main_v198) : W21 m ρ c (Proc.devRef .tc r) = W20 m ρ c (Proc.devRef .tc r) := by
  by_cases hw : ∃ w, Pipeline.arrRef spec8 w = r
  · obtain ⟨w, rfl⟩ := hw
    have hin : (cfg8.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl h
    exact (W21_arr m ρ c w).trans (((dat8 (V20 m ρ) c).arrAt_in w hin _).trans (A_eq8 (V20 m ρ) c w))
  · exact W21_of_ne m ρ c r (fun w e => hw ⟨w, e⟩)

/-- After region 9: its windows' arrays at what the pipeline leaves, every other buffer as entered. -/
def W22 (c : Dev nD) : Valuation τ sig (Elt F) :=
  Pipeline.withArrays spec9 c (W21 m ρ c) fun w => (dat9 (V21 m ρ) c).arrAt w cfg9.N
theorem W22_arr (c : Dev nD) (w : Fin cfg9.W) :
    W22 m ρ c (Proc.devRef .tc (Pipeline.arrRef spec9 w)) = (dat9 (V21 m ρ) c).arrAt w cfg9.N := by
  unfold W22; exact Pipeline.withArrays_arr spec9 launch9.win.arr_inj c _ _ w
theorem W22_of_ne (c : Dev nD) (b : Ref sig .tc) (hb : ∀ w, Pipeline.arrRef spec9 w ≠ b) :
    W22 m ρ c (Proc.devRef .tc b) = W21 m ρ c (Proc.devRef .tc b) := by
  unfold W22; exact Pipeline.withArrays_of_ne spec9 c _ _ b hb
abbrev V22 : (c : Dev nD) → (b : Ref sig .tc) → Buf (Elt F) ((c : Thread nD τ).loc b) := fun c b => W22 m ρ c b
theorem hF9 (c : Dev nD) (w : Fin cfg9.W) : (dat9 (V21 m ρ) c).arrAt w cfg9.N = V22 m ρ c (Pipeline.arrRef spec9 w) :=
  (W22_arr m ρ c w).symm
theorem hrest9 (c : Dev nD) : ∀ b, b ∉ Finset.univ.image (Pipeline.arrRef spec9) → V22 m ρ c b = V21 m ρ c b :=
  fun b hb => W22_of_ne m ρ c b fun w e => hb (Finset.mem_image.mpr ⟨w, Finset.mem_univ _, e⟩)
/-- Region 9 changes only its output array `main_v199`: an input window's array is never written back, and a buffer
    that is no window's array is not touched. -/
theorem keep22 (c : Dev nD) (r : Ref sig .tc) (h : r ≠ main_v199) : W22 m ρ c (Proc.devRef .tc r) = W21 m ρ c (Proc.devRef .tc r) := by
  by_cases hw : ∃ w, Pipeline.arrRef spec9 w = r
  · obtain ⟨w, rfl⟩ := hw
    have hin : (cfg9.win w).isOut = false := by
      match w with
      | ⟨0, _⟩ => rfl
      | ⟨1, _⟩ => rfl
      | ⟨2, _⟩ => rfl
      | ⟨3, _⟩ => rfl
      | ⟨4, _⟩ => exact absurd rfl h
    exact (W22_arr m ρ c w).trans (((dat9 (V21 m ρ) c).arrAt_in w hin _).trans (A_eq9 (V21 m ρ) c w))
  · exact W22_of_ne m ρ c r (fun w e => hw ⟨w, e⟩)

/-- Every buffer some item of @main writes. -/
abbrev written : List (Ref sig .tc) := [main_v0, main_v1, main_v2, main_v3, main_v4, main_c, main_call0_v0, main_v5, main_v6, main_v7, main_v8, main_v9, main_v10, main_c_0, main_call1_v0, main_v11, main_v12, main_v13, main_v14, main_v15, main_v16, main_c_1, main_call2_v0, main_v17, main_v18, main_v19, main_v20, main_v21, main_v22, main_v23, main_v24, main_v25, main_v26, main_c_2, main_v27, main_v28, main_c_3, main_v29, main_v30, main_v31, main_v32, main_v33, main_v34, main_v35, main_cst, main_v36, main_v37, main_v38, main_v39, main_c_4, main_v40, main_v41, main_c_5, main_v42, main_v43, main_v44, main_v45, main_v46, main_v47, main_v48, main_cst_6, main_v49, main_v50, main_v51, main_v52, main_c_7, main_v53, main_v54, main_c_8, main_v55, main_v56, main_v57, main_v58, main_v59, main_v60, main_v61, main_cst_9, main_v62, main_v63, main_v64, main_v65, main_c_10, main_v66, main_v67, main_c_11, main_v68, main_v69, main_v70, main_v71, main_v72, main_v73, main_v74, main_cst_12, main_v75, main_v76, main_v77, main_v78, main_c_13, main_v79, main_v80, main_c_14, main_v81, main_v82, main_v83, main_v84, main_v85, main_v86, main_v87, main_cst_15, main_v88, main_v89, main_v90, main_v91, main_c_16, main_v92, main_v93, main_c_17, main_v94, main_v95, main_v96, main_v97, main_v98, main_v99, main_v100, main_cst_18, main_v101, main_v102, main_v103, main_v104, main_c_19, main_v105, main_v106, main_c_20, main_v107, main_v108, main_v109, main_v110, main_v111, main_v112, main_v113, main_cst_21, main_v114, main_v115, main_v116, main_v117, main_c_22, main_v118, main_v119, main_c_23, main_v120, main_v121, main_v122, main_v123, main_v124, main_v125, main_v126, main_cst_24, main_v127, main_v128, main_v129, main_v130, main_c_25, main_v131, main_v132, main_c_26, main_v133, main_v134, main_v135, main_v136, main_v137, main_v138, main_v139, main_cst_27, main_v140, main_v141, main_v142, main_v143, main_c_28, main_v144, main_v145, main_c_29, main_v146, main_v147, main_v148, main_v149, main_v150, main_v151, main_v152, main_cst_30, main_v153, main_v154, main_v155, main_v156, main_c_31, main_v157, main_v158, main_c_32, main_v159, main_v160, main_v161, main_v162, main_v163, main_v164, main_v165, main_cst_33, main_v166, main_v167, main_v168, main_v169, main_c_34, main_v170, main_v171, main_c_35, main_v172, main_v173, main_v174, main_v175, main_v176, main_v177, main_v178, main_cst_36, main_v179, main_v180, main_v181, main_v182, main_c_37, main_v183, main_v184, main_c_38, main_v185, main_v186, main_v187, main_v188, main_v189, main_v190, main_v191, main_cst_39, main_v192, main_v193, main_v194, main_v195, main_v196, main_v197, main_v198, main_v199]

theorem wl1_sub : wl1 ⊆ (written : List (Ref sig .tc)) := by decide
theorem out2_mem : main_v1 ∈ (written : List (Ref sig .tc)) := by decide
theorem wl3_sub : wl3 ⊆ (written : List (Ref sig .tc)) := by decide
theorem wl4_sub : wl4 ⊆ (written : List (Ref sig .tc)) := by decide
theorem out5_mem : main_v6 ∈ (written : List (Ref sig .tc)) := by decide
theorem wl6_sub : wl6 ⊆ (written : List (Ref sig .tc)) := by decide
theorem wl7_sub : wl7 ⊆ (written : List (Ref sig .tc)) := by decide
theorem out8_mem : main_v12 ∈ (written : List (Ref sig .tc)) := by decide
theorem wl9_sub : wl9 ⊆ (written : List (Ref sig .tc)) := by decide
theorem wl10_sub : wl10 ⊆ (written : List (Ref sig .tc)) := by decide
theorem out11_mem : main_v18 ∈ (written : List (Ref sig .tc)) := by decide
theorem wl12_sub : wl12 ⊆ (written : List (Ref sig .tc)) := by decide
theorem out13_mem : main_v23 ∈ (written : List (Ref sig .tc)) := by decide
theorem wl14_sub : wl14 ⊆ (written : List (Ref sig .tc)) := by decide
theorem wl15_sub : wl15 ⊆ (written : List (Ref sig .tc)) := by decide
theorem wl16_sub : wl16 ⊆ (written : List (Ref sig .tc)) := by decide
theorem wl17_sub : wl17 ⊆ (written : List (Ref sig .tc)) := by decide
theorem out18_mem : main_v195 ∈ (written : List (Ref sig .tc)) := by decide
theorem out19_mem : main_v196 ∈ (written : List (Ref sig .tc)) := by decide
theorem out20_mem : main_v197 ∈ (written : List (Ref sig .tc)) := by decide
theorem out21_mem : main_v198 ∈ (written : List (Ref sig .tc)) := by decide
theorem out22_mem : main_v199 ∈ (written : List (Ref sig .tc)) := by decide

/-- A buffer no item writes holds at every boundary what the launch memory held. -/
theorem W0_unwritten (c : Dev nD) (r : Ref sig .tc) (h : r ∉ (written : List (Ref sig .tc))) :
    W0 m ρ c (Proc.devRef .tc r) = m ((c : Thread nD τ).loc r) := rfl
theorem W1_unwritten (c : Dev nD) (r : Ref sig .tc) (h : r ∉ (written : List (Ref sig .tc))) :
    W1 m ρ c (Proc.devRef .tc r) = m ((c : Thread nD τ).loc r) := (keep1 m ρ c r (fun hm => h (wl1_sub hm))).trans (W0_unwritten m ρ c r h)
theorem W2_unwritten (c : Dev nD) (r : Ref sig .tc) (h : r ∉ (written : List (Ref sig .tc))) :
    W2 m ρ c (Proc.devRef .tc r) = m ((c : Thread nD τ).loc r) := (keep2 m ρ c r (fun e => h (e ▸ out2_mem))).trans (W1_unwritten m ρ c r h)
theorem W3_unwritten (c : Dev nD) (r : Ref sig .tc) (h : r ∉ (written : List (Ref sig .tc))) :
    W3 m ρ c (Proc.devRef .tc r) = m ((c : Thread nD τ).loc r) := (keep3 m ρ c r (fun hm => h (wl3_sub hm))).trans (W2_unwritten m ρ c r h)
theorem W4_unwritten (c : Dev nD) (r : Ref sig .tc) (h : r ∉ (written : List (Ref sig .tc))) :
    W4 m ρ c (Proc.devRef .tc r) = m ((c : Thread nD τ).loc r) := (keep4 m ρ c r (fun hm => h (wl4_sub hm))).trans (W3_unwritten m ρ c r h)
theorem W5_unwritten (c : Dev nD) (r : Ref sig .tc) (h : r ∉ (written : List (Ref sig .tc))) :
    W5 m ρ c (Proc.devRef .tc r) = m ((c : Thread nD τ).loc r) := (keep5 m ρ c r (fun e => h (e ▸ out5_mem))).trans (W4_unwritten m ρ c r h)
theorem W6_unwritten (c : Dev nD) (r : Ref sig .tc) (h : r ∉ (written : List (Ref sig .tc))) :
    W6 m ρ c (Proc.devRef .tc r) = m ((c : Thread nD τ).loc r) := (keep6 m ρ c r (fun hm => h (wl6_sub hm))).trans (W5_unwritten m ρ c r h)
theorem W7_unwritten (c : Dev nD) (r : Ref sig .tc) (h : r ∉ (written : List (Ref sig .tc))) :
    W7 m ρ c (Proc.devRef .tc r) = m ((c : Thread nD τ).loc r) := (keep7 m ρ c r (fun hm => h (wl7_sub hm))).trans (W6_unwritten m ρ c r h)
theorem W8_unwritten (c : Dev nD) (r : Ref sig .tc) (h : r ∉ (written : List (Ref sig .tc))) :
    W8 m ρ c (Proc.devRef .tc r) = m ((c : Thread nD τ).loc r) := (keep8 m ρ c r (fun e => h (e ▸ out8_mem))).trans (W7_unwritten m ρ c r h)
theorem W9_unwritten (c : Dev nD) (r : Ref sig .tc) (h : r ∉ (written : List (Ref sig .tc))) :
    W9 m ρ c (Proc.devRef .tc r) = m ((c : Thread nD τ).loc r) := (keep9 m ρ c r (fun hm => h (wl9_sub hm))).trans (W8_unwritten m ρ c r h)
theorem W10_unwritten (c : Dev nD) (r : Ref sig .tc) (h : r ∉ (written : List (Ref sig .tc))) :
    W10 m ρ c (Proc.devRef .tc r) = m ((c : Thread nD τ).loc r) := (keep10 m ρ c r (fun hm => h (wl10_sub hm))).trans (W9_unwritten m ρ c r h)
theorem W11_unwritten (c : Dev nD) (r : Ref sig .tc) (h : r ∉ (written : List (Ref sig .tc))) :
    W11 m ρ c (Proc.devRef .tc r) = m ((c : Thread nD τ).loc r) := (keep11 m ρ c r (fun e => h (e ▸ out11_mem))).trans (W10_unwritten m ρ c r h)
theorem W12_unwritten (c : Dev nD) (r : Ref sig .tc) (h : r ∉ (written : List (Ref sig .tc))) :
    W12 m ρ c (Proc.devRef .tc r) = m ((c : Thread nD τ).loc r) := (keep12 m ρ c r (fun hm => h (wl12_sub hm))).trans (W11_unwritten m ρ c r h)
theorem W13_unwritten (c : Dev nD) (r : Ref sig .tc) (h : r ∉ (written : List (Ref sig .tc))) :
    W13 m ρ c (Proc.devRef .tc r) = m ((c : Thread nD τ).loc r) := (keep13 m ρ c r (fun e => h (e ▸ out13_mem))).trans (W12_unwritten m ρ c r h)
theorem W14_unwritten (c : Dev nD) (r : Ref sig .tc) (h : r ∉ (written : List (Ref sig .tc))) :
    W14 m ρ c (Proc.devRef .tc r) = m ((c : Thread nD τ).loc r) := (keep14 m ρ c r (fun hm => h (wl14_sub hm))).trans (W13_unwritten m ρ c r h)
theorem W15_unwritten (c : Dev nD) (r : Ref sig .tc) (h : r ∉ (written : List (Ref sig .tc))) :
    W15 m ρ c (Proc.devRef .tc r) = m ((c : Thread nD τ).loc r) := (keep15 m ρ c r (fun hm => h (wl15_sub hm))).trans (W14_unwritten m ρ c r h)
theorem W16_unwritten (c : Dev nD) (r : Ref sig .tc) (h : r ∉ (written : List (Ref sig .tc))) :
    W16 m ρ c (Proc.devRef .tc r) = m ((c : Thread nD τ).loc r) := (keep16 m ρ c r (fun hm => h (wl16_sub hm))).trans (W15_unwritten m ρ c r h)
theorem W17_unwritten (c : Dev nD) (r : Ref sig .tc) (h : r ∉ (written : List (Ref sig .tc))) :
    W17 m ρ c (Proc.devRef .tc r) = m ((c : Thread nD τ).loc r) := (keep17 m ρ c r (fun hm => h (wl17_sub hm))).trans (W16_unwritten m ρ c r h)
theorem W18_unwritten (c : Dev nD) (r : Ref sig .tc) (h : r ∉ (written : List (Ref sig .tc))) :
    W18 m ρ c (Proc.devRef .tc r) = m ((c : Thread nD τ).loc r) := (keep18 m ρ c r (fun e => h (e ▸ out18_mem))).trans (W17_unwritten m ρ c r h)
theorem W19_unwritten (c : Dev nD) (r : Ref sig .tc) (h : r ∉ (written : List (Ref sig .tc))) :
    W19 m ρ c (Proc.devRef .tc r) = m ((c : Thread nD τ).loc r) := (keep19 m ρ c r (fun e => h (e ▸ out19_mem))).trans (W18_unwritten m ρ c r h)
theorem W20_unwritten (c : Dev nD) (r : Ref sig .tc) (h : r ∉ (written : List (Ref sig .tc))) :
    W20 m ρ c (Proc.devRef .tc r) = m ((c : Thread nD τ).loc r) := (keep20 m ρ c r (fun e => h (e ▸ out20_mem))).trans (W19_unwritten m ρ c r h)
theorem W21_unwritten (c : Dev nD) (r : Ref sig .tc) (h : r ∉ (written : List (Ref sig .tc))) :
    W21 m ρ c (Proc.devRef .tc r) = m ((c : Thread nD τ).loc r) := (keep21 m ρ c r (fun e => h (e ▸ out21_mem))).trans (W20_unwritten m ρ c r h)
theorem W22_unwritten (c : Dev nD) (r : Ref sig .tc) (h : r ∉ (written : List (Ref sig .tc))) :
    W22 m ρ c (Proc.devRef .tc r) = m ((c : Thread nD τ).loc r) := (keep22 m ρ c r (fun e => h (e ▸ out22_mem))).trans (W21_unwritten m ρ c r h)

end Cert.Kernel.Fr

end
-- ==== Proof.K.Segs.lean ====
/-
  @main as a list of segments — one per stretch of host operations, one per pallas_call — over the thread state
  "every unscoped buffer at the boundary's contents, the generator register at some state, nothing owed", and the
  run: from any launch memory with zero counters every weakly fair execution of @main terminates without a fault, and
  the final memory holds every unscoped buffer at the last boundary's contents.
-/
import proofs.«140264_j78443282694634_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pallas_call has a prefetched table. -/
abbrev adm : (p : Fin 10) → (pcfgs (F := F) p).Adm := fun p => (cfgs p).toPCfg_adm
/-- Every pipeline's proof data, each at the contents its region is entered with. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V7 m ρ) c
  | ⟨3, _⟩ => fun c => dat3 (V10 m ρ) c
  | ⟨4, _⟩ => fun c => dat4 (V12 m ρ) c
  | ⟨5, _⟩ => fun c => dat5 (V17 m ρ) c
  | ⟨6, _⟩ => fun c => dat6 (V18 m ρ) c
  | ⟨7, _⟩ => fun c => dat7 (V19 m ρ) c
  | ⟨8, _⟩ => fun c => dat8 (V20 m ρ) c
  | ⟨9, _⟩ => fun c => dat9 (V21 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W22 m ρ c) ∗ ∃ r, prngReg c r)

set_option backward.isDefEq.respectTransparency.types false in
/-- Region 0 over the thread state: entered with every unscoped buffer at `W1`, left at `W2`. Its windows' arrays
    are split out of the unscoped buffers at entry and put back at the exit contents; the generator register goes into
    the pipeline's invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W4`, left at `W5`. Its windows' arrays
    are split out of the unscoped buffers at entry and put back at the exit contents; the generator register goes into
    the pipeline's invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left at `W8`. Its windows' arrays
    are split out of the unscoped buffers at entry and put back at the exit contents; the generator register goes into
    the pipeline's invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W10`, left at `W11`. Its windows' arrays
    are split out of the unscoped buffers at entry and put back at the exit contents; the generator register goes into
    the pipeline's invariant and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W12`, left at `W13`. Its windows' arrays
    are split out of the unscoped buffers at entry and put back at the exit contents; the generator register goes into
    the pipeline's invariant and comes out; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W17`, left at `W18`. Its windows' arrays
    are split out of the unscoped buffers at entry and put back at the exit contents; the generator register goes into
    the pipeline's invariant and comes out; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V17 m ρ) c).loose
  hwaits := Pipeline.hwaits_of_owed_zero _ _ _ _ L lv 5 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec5 c (V17 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V17 m ρ c) (V18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `W18`, left at `W19`. Its windows' arrays
    are split out of the unscoped buffers at entry and put back at the exit contents; the generator register goes into
    the pipeline's invariant and comes out; nothing is owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V18 m ρ) c).loose
  hwaits := Pipeline.hwaits_of_owed_zero _ _ _ _ L lv 6 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec6 c (V18 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V18 m ρ c) (V19 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered with every unscoped buffer at `W19`, left at `W20`. Its windows' arrays
    are split out of the unscoped buffers at entry and put back at the exit contents; the generator register goes into
    the pipeline's invariant and comes out; nothing is owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V19 m ρ) c).loose
  hwaits := Pipeline.hwaits_of_owed_zero _ _ _ _ L lv 7 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec7 c (V19 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V19 m ρ c) (V20 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered with every unscoped buffer at `W20`, left at `W21`. Its windows' arrays
    are split out of the unscoped buffers at entry and put back at the exit contents; the generator register goes into
    the pipeline's invariant and comes out; nothing is owed. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V20 m ρ) c).loose
  hwaits := Pipeline.hwaits_of_owed_zero _ _ _ _ L lv 8 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec8 c (V20 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V20 m ρ c) (V21 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered with every unscoped buffer at `W21`, left at `W22`. Its windows' arrays
    are split out of the unscoped buffers at entry and put back at the exit contents; the generator register goes into
    the pipeline's invariant and comes out; nothing is owed. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V21 m ρ) c).loose
  hwaits := Pipeline.hwaits_of_owed_zero _ _ _ _ L lv 9 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V21 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V21 m ρ c) (V22 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's 22 segments in order. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .host (hseg main_part0_ops2 main_part0_ops2_sub main_part0_ops2_fresh (W3 m ρ)),
    .region (reg1 m ρ),
    .host (hseg main_part0_ops3 main_part0_ops3_sub main_part0_ops3_fresh (W5 m ρ)),
    .host (hseg main_part0_ops4 main_part0_ops4_sub main_part0_ops4_fresh (W6 m ρ)),
    .region (reg2 m ρ),
    .host (hseg main_part0_ops5 main_part0_ops5_sub main_part0_ops5_fresh (W8 m ρ)),
    .host (hseg main_part0_ops6 main_part0_ops6_sub main_part0_ops6_fresh (W9 m ρ)),
    .region (reg3 m ρ),
    .host (hseg main_part0_ops7 main_part0_ops7_sub main_part0_ops7_fresh (W11 m ρ)),
    .region (reg4 m ρ),
    .host (hseg main_part0_ops8 main_part0_ops8_sub main_part0_ops8_fresh (W13 m ρ)),
    .host (hseg main_part1_ops0 main_part1_ops0_sub main_part1_ops0_fresh (W14 m ρ)),
    .host (hseg main_part2_ops0 main_part2_ops0_sub main_part2_ops0_fresh (W15 m ρ)),
    .host (hseg main_part3_ops0 main_part3_ops0_sub main_part3_ops0_fresh (W16 m ρ)),
    .region (reg5 m ρ),
    .region (reg6 m ρ),
    .region (reg7 m ρ),
    .region (reg8 m ρ),
    .region (reg9 m ρ) ]
/-- @main is the run of the segments. -/
theorem main_run (c : Dev nD) : main (F := F) c = Pipeline.Seg.run (segs m ρ) := (main_chain_windows c).trans (by chain_rfl)

set_option backward.isDefEq.respectTransparency.types false in
/-- THE RUN. From any memory with zero counters every weakly fair execution of @main on the TensorCores terminates,
    nothing faulting, and the final memory holds every unscoped buffer at the last boundary's contents `W22`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

end Cert.Kernel.Fr

end
-- ==== Proof.K.Frame.lean ====
/-
  The frame of @main: every weakly fair execution terminates without a fault and every argument array ends as
  launched (no item of @main writes an argument); and the same run with the five result buffers named at the last
  boundary's contents.
-/
import proofs.«140264_j78443282694634_2_alg».proof.Proof.K.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)) :=
  (θ_run defs _ _).mono (fun r h c =>
      ⟨(h c _ (mem_uc main_arg0 (by decide))).trans (W22_unwritten m ρ c main_arg0 (by decide)),
      ⟨(h c _ (mem_uc main_arg1 (by decide))).trans (W22_unwritten m ρ c main_arg1 (by decide)),
      ⟨(h c _ (mem_uc main_arg2 (by decide))).trans (W22_unwritten m ρ c main_arg2 (by decide)),
      ⟨(h c _ (mem_uc main_arg3 (by decide))).trans (W22_unwritten m ρ c main_arg3 (by decide)),
      ⟨(h c _ (mem_uc main_arg4 (by decide))).trans (W22_unwritten m ρ c main_arg4 (by decide)),
      ⟨(h c _ (mem_uc main_arg5 (by decide))).trans (W22_unwritten m ρ c main_arg5 (by decide)),
      ⟨(h c _ (mem_uc main_arg6 (by decide))).trans (W22_unwritten m ρ c main_arg6 (by decide)),
      ⟨(h c _ (mem_uc main_arg7 (by decide))).trans (W22_unwritten m ρ c main_arg7 (by decide)),
      ⟨(h c _ (mem_uc main_arg8 (by decide))).trans (W22_unwritten m ρ c main_arg8 (by decide)),
      ⟨(h c _ (mem_uc main_arg9 (by decide))).trans (W22_unwritten m ρ c main_arg9 (by decide)),
      ⟨(h c _ (mem_uc main_arg10 (by decide))).trans (W22_unwritten m ρ c main_arg10 (by decide)),
      ⟨(h c _ (mem_uc main_arg11 (by decide))).trans (W22_unwritten m ρ c main_arg11 (by decide)),
      ⟨(h c _ (mem_uc main_arg12 (by decide))).trans (W22_unwritten m ρ c main_arg12 (by decide)),
      ⟨(h c _ (mem_uc main_arg13 (by decide))).trans (W22_unwritten m ρ c main_arg13 (by decide)),
      ⟨(h c _ (mem_uc main_arg14 (by decide))).trans (W22_unwritten m ρ c main_arg14 (by decide)),
      ⟨(h c _ (mem_uc main_arg15 (by decide))).trans (W22_unwritten m ρ c main_arg15 (by decide)),
      ⟨(h c _ (mem_uc main_arg16 (by decide))).trans (W22_unwritten m ρ c main_arg16 (by decide)),
      ⟨(h c _ (mem_uc main_arg17 (by decide))).trans (W22_unwritten m ρ c main_arg17 (by decide)),
      ⟨(h c _ (mem_uc main_arg18 (by decide))).trans (W22_unwritten m ρ c main_arg18 (by decide)),
      ⟨(h c _ (mem_uc main_arg19 (by decide))).trans (W22_unwritten m ρ c main_arg19 (by decide)),
      ⟨(h c _ (mem_uc main_arg20 (by decide))).trans (W22_unwritten m ρ c main_arg20 (by decide)),
      ⟨(h c _ (mem_uc main_arg21 (by decide))).trans (W22_unwritten m ρ c main_arg21 (by decide)),
      ⟨(h c _ (mem_uc main_arg22 (by decide))).trans (W22_unwritten m ρ c main_arg22 (by decide)),
      ⟨(h c _ (mem_uc main_arg23 (by decide))).trans (W22_unwritten m ρ c main_arg23 (by decide)),
      ⟨(h c _ (mem_uc main_arg24 (by decide))).trans (W22_unwritten m ρ c main_arg24 (by decide)),
      ⟨(h c _ (mem_uc main_arg25 (by decide))).trans (W22_unwritten m ρ c main_arg25 (by decide)),
      ⟨(h c _ (mem_uc main_arg26 (by decide))).trans (W22_unwritten m ρ c main_arg26 (by decide)),
      ⟨(h c _ (mem_uc main_arg27 (by decide))).trans (W22_unwritten m ρ c main_arg27 (by decide)),
      ⟨(h c _ (mem_uc main_arg28 (by decide))).trans (W22_unwritten m ρ c main_arg28 (by decide)),
      ⟨(h c _ (mem_uc main_arg29 (by decide))).trans (W22_unwritten m ρ c main_arg29 (by decide)),
      ⟨(h c _ (mem_uc main_arg30 (by decide))).trans (W22_unwritten m ρ c main_arg30 (by decide)),
      ⟨(h c _ (mem_uc main_arg31 (by decide))).trans (W22_unwritten m ρ c main_arg31 (by decide)),
      ⟨(h c _ (mem_uc main_arg32 (by decide))).trans (W22_unwritten m ρ c main_arg32 (by decide)),
      ⟨(h c _ (mem_uc main_arg33 (by decide))).trans (W22_unwritten m ρ c main_arg33 (by decide)),
      ⟨(h c _ (mem_uc main_arg34 (by decide))).trans (W22_unwritten m ρ c main_arg34 (by decide)),
      ⟨(h c _ (mem_uc main_arg35 (by decide))).trans (W22_unwritten m ρ c main_arg35 (by decide)),
      ⟨(h c _ (mem_uc main_arg36 (by decide))).trans (W22_unwritten m ρ c main_arg36 (by decide)),
      ⟨(h c _ (mem_uc main_arg37 (by decide))).trans (W22_unwritten m ρ c main_arg37 (by decide)),
      ⟨(h c _ (mem_uc main_arg38 (by decide))).trans (W22_unwritten m ρ c main_arg38 (by decide)),
      ⟨(h c _ (mem_uc main_arg39 (by decide))).trans (W22_unwritten m ρ c main_arg39 (by decide)),
      ⟨(h c _ (mem_uc main_arg40 (by decide))).trans (W22_unwritten m ρ c main_arg40 (by decide)),
      ⟨(h c _ (mem_uc main_arg41 (by decide))).trans (W22_unwritten m ρ c main_arg41 (by decide)),
      ⟨(h c _ (mem_uc main_arg42 (by decide))).trans (W22_unwritten m ρ c main_arg42 (by decide)),
      ⟨(h c _ (mem_uc main_arg43 (by decide))).trans (W22_unwritten m ρ c main_arg43 (by decide)),
      ⟨(h c _ (mem_uc main_arg44 (by decide))).trans (W22_unwritten m ρ c main_arg44 (by decide)),
      ⟨(h c _ (mem_uc main_arg45 (by decide))).trans (W22_unwritten m ρ c main_arg45 (by decide)),
      ⟨(h c _ (mem_uc main_arg46 (by decide))).trans (W22_unwritten m ρ c main_arg46 (by decide)),
      ⟨(h c _ (mem_uc main_arg47 (by decide))).trans (W22_unwritten m ρ c main_arg47 (by decide)),
      ⟨(h c _ (mem_uc main_arg48 (by decide))).trans (W22_unwritten m ρ c main_arg48 (by decide)),
      ⟨(h c _ (mem_uc main_arg49 (by decide))).trans (W22_unwritten m ρ c main_arg49 (by decide)),
      ⟨(h c _ (mem_uc main_arg50 (by decide))).trans (W22_unwritten m ρ c main_arg50 (by decide)),
      ⟨(h c _ (mem_uc main_arg51 (by decide))).trans (W22_unwritten m ρ c main_arg51 (by decide)),
      ⟨(h c _ (mem_uc main_arg52 (by decide))).trans (W22_unwritten m ρ c main_arg52 (by decide)),
      ⟨(h c _ (mem_uc main_arg53 (by decide))).trans (W22_unwritten m ρ c main_arg53 (by decide)),
      (h c _ (mem_uc main_arg54 (by decide))).trans (W22_unwritten m ρ c main_arg54 (by decide))⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩) (run_all m ρ)

/-- The run with the results named: each result buffer ends at the last boundary's contents, the arguments as launched. -/
theorem run_results : θ_run defs (onTc (τ := τ) (main (F := F))) ⟨m, fun _ => 0, ρ⟩ (fun r => ∀ c : Dev nD,
      r.2.mem ((c.tc : Thread nD τ).loc main_v195) = W22 m ρ c (Proc.devRef .tc main_v195)
      ∧ r.2.mem ((c.tc : Thread nD τ).loc main_v196) = W22 m ρ c (Proc.devRef .tc main_v196)
      ∧ r.2.mem ((c.tc : Thread nD τ).loc main_v197) = W22 m ρ c (Proc.devRef .tc main_v197)
      ∧ r.2.mem ((c.tc : Thread nD τ).loc main_v198) = W22 m ρ c (Proc.devRef .tc main_v198)
      ∧ r.2.mem ((c.tc : Thread nD τ).loc main_v199) = W22 m ρ c (Proc.devRef .tc main_v199)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)) :=
  (θ_run defs _ _).mono (fun r h c =>
      ⟨h c _ (mem_uc main_v195 (by decide)),
      ⟨h c _ (mem_uc main_v196 (by decide)),
      ⟨h c _ (mem_uc main_v197 (by decide)),
      ⟨h c _ (mem_uc main_v198 (by decide)),
      ⟨h c _ (mem_uc main_v199 (by decide)),
      ⟨(h c _ (mem_uc main_arg0 (by decide))).trans (W22_unwritten m ρ c main_arg0 (by decide)),
      ⟨(h c _ (mem_uc main_arg1 (by decide))).trans (W22_unwritten m ρ c main_arg1 (by decide)),
      ⟨(h c _ (mem_uc main_arg2 (by decide))).trans (W22_unwritten m ρ c main_arg2 (by decide)),
      ⟨(h c _ (mem_uc main_arg3 (by decide))).trans (W22_unwritten m ρ c main_arg3 (by decide)),
      ⟨(h c _ (mem_uc main_arg4 (by decide))).trans (W22_unwritten m ρ c main_arg4 (by decide)),
      ⟨(h c _ (mem_uc main_arg5 (by decide))).trans (W22_unwritten m ρ c main_arg5 (by decide)),
      ⟨(h c _ (mem_uc main_arg6 (by decide))).trans (W22_unwritten m ρ c main_arg6 (by decide)),
      ⟨(h c _ (mem_uc main_arg7 (by decide))).trans (W22_unwritten m ρ c main_arg7 (by decide)),
      ⟨(h c _ (mem_uc main_arg8 (by decide))).trans (W22_unwritten m ρ c main_arg8 (by decide)),
      ⟨(h c _ (mem_uc main_arg9 (by decide))).trans (W22_unwritten m ρ c main_arg9 (by decide)),
      ⟨(h c _ (mem_uc main_arg10 (by decide))).trans (W22_unwritten m ρ c main_arg10 (by decide)),
      ⟨(h c _ (mem_uc main_arg11 (by decide))).trans (W22_unwritten m ρ c main_arg11 (by decide)),
      ⟨(h c _ (mem_uc main_arg12 (by decide))).trans (W22_unwritten m ρ c main_arg12 (by decide)),
      ⟨(h c _ (mem_uc main_arg13 (by decide))).trans (W22_unwritten m ρ c main_arg13 (by decide)),
      ⟨(h c _ (mem_uc main_arg14 (by decide))).trans (W22_unwritten m ρ c main_arg14 (by decide)),
      ⟨(h c _ (mem_uc main_arg15 (by decide))).trans (W22_unwritten m ρ c main_arg15 (by decide)),
      ⟨(h c _ (mem_uc main_arg16 (by decide))).trans (W22_unwritten m ρ c main_arg16 (by decide)),
      ⟨(h c _ (mem_uc main_arg17 (by decide))).trans (W22_unwritten m ρ c main_arg17 (by decide)),
      ⟨(h c _ (mem_uc main_arg18 (by decide))).trans (W22_unwritten m ρ c main_arg18 (by decide)),
      ⟨(h c _ (mem_uc main_arg19 (by decide))).trans (W22_unwritten m ρ c main_arg19 (by decide)),
      ⟨(h c _ (mem_uc main_arg20 (by decide))).trans (W22_unwritten m ρ c main_arg20 (by decide)),
      ⟨(h c _ (mem_uc main_arg21 (by decide))).trans (W22_unwritten m ρ c main_arg21 (by decide)),
      ⟨(h c _ (mem_uc main_arg22 (by decide))).trans (W22_unwritten m ρ c main_arg22 (by decide)),
      ⟨(h c _ (mem_uc main_arg23 (by decide))).trans (W22_unwritten m ρ c main_arg23 (by decide)),
      ⟨(h c _ (mem_uc main_arg24 (by decide))).trans (W22_unwritten m ρ c main_arg24 (by decide)),
      ⟨(h c _ (mem_uc main_arg25 (by decide))).trans (W22_unwritten m ρ c main_arg25 (by decide)),
      ⟨(h c _ (mem_uc main_arg26 (by decide))).trans (W22_unwritten m ρ c main_arg26 (by decide)),
      ⟨(h c _ (mem_uc main_arg27 (by decide))).trans (W22_unwritten m ρ c main_arg27 (by decide)),
      ⟨(h c _ (mem_uc main_arg28 (by decide))).trans (W22_unwritten m ρ c main_arg28 (by decide)),
      ⟨(h c _ (mem_uc main_arg29 (by decide))).trans (W22_unwritten m ρ c main_arg29 (by decide)),
      ⟨(h c _ (mem_uc main_arg30 (by decide))).trans (W22_unwritten m ρ c main_arg30 (by decide)),
      ⟨(h c _ (mem_uc main_arg31 (by decide))).trans (W22_unwritten m ρ c main_arg31 (by decide)),
      ⟨(h c _ (mem_uc main_arg32 (by decide))).trans (W22_unwritten m ρ c main_arg32 (by decide)),
      ⟨(h c _ (mem_uc main_arg33 (by decide))).trans (W22_unwritten m ρ c main_arg33 (by decide)),
      ⟨(h c _ (mem_uc main_arg34 (by decide))).trans (W22_unwritten m ρ c main_arg34 (by decide)),
      ⟨(h c _ (mem_uc main_arg35 (by decide))).trans (W22_unwritten m ρ c main_arg35 (by decide)),
      ⟨(h c _ (mem_uc main_arg36 (by decide))).trans (W22_unwritten m ρ c main_arg36 (by decide)),
      ⟨(h c _ (mem_uc main_arg37 (by decide))).trans (W22_unwritten m ρ c main_arg37 (by decide)),
      ⟨(h c _ (mem_uc main_arg38 (by decide))).trans (W22_unwritten m ρ c main_arg38 (by decide)),
      ⟨(h c _ (mem_uc main_arg39 (by decide))).trans (W22_unwritten m ρ c main_arg39 (by decide)),
      ⟨(h c _ (mem_uc main_arg40 (by decide))).trans (W22_unwritten m ρ c main_arg40 (by decide)),
      ⟨(h c _ (mem_uc main_arg41 (by decide))).trans (W22_unwritten m ρ c main_arg41 (by decide)),
      ⟨(h c _ (mem_uc main_arg42 (by decide))).trans (W22_unwritten m ρ c main_arg42 (by decide)),
      ⟨(h c _ (mem_uc main_arg43 (by decide))).trans (W22_unwritten m ρ c main_arg43 (by decide)),
      ⟨(h c _ (mem_uc main_arg44 (by decide))).trans (W22_unwritten m ρ c main_arg44 (by decide)),
      ⟨(h c _ (mem_uc main_arg45 (by decide))).trans (W22_unwritten m ρ c main_arg45 (by decide)),
      ⟨(h c _ (mem_uc main_arg46 (by decide))).trans (W22_unwritten m ρ c main_arg46 (by decide)),
      ⟨(h c _ (mem_uc main_arg47 (by decide))).trans (W22_unwritten m ρ c main_arg47 (by decide)),
      ⟨(h c _ (mem_uc main_arg48 (by decide))).trans (W22_unwritten m ρ c main_arg48 (by decide)),
      ⟨(h c _ (mem_uc main_arg49 (by decide))).trans (W22_unwritten m ρ c main_arg49 (by decide)),
      ⟨(h c _ (mem_uc main_arg50 (by decide))).trans (W22_unwritten m ρ c main_arg50 (by decide)),
      ⟨(h c _ (mem_uc main_arg51 (by decide))).trans (W22_unwritten m ρ c main_arg51 (by decide)),
      ⟨(h c _ (mem_uc main_arg52 (by decide))).trans (W22_unwritten m ρ c main_arg52 (by decide)),
      ⟨(h c _ (mem_uc main_arg53 (by decide))).trans (W22_unwritten m ρ c main_arg53 (by decide)),
      (h c _ (mem_uc main_arg54 (by decide))).trans (W22_unwritten m ρ c main_arg54 (by decide))⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩) (run_all m ρ)

end Cert.Kernel.Fr

end
-- ==== Proof.KI.R0.lean ====
/-
  Region 0 of @main, the pallas_call `cc0__linear_multi_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.KernelIdeal.Launch
import proofs.«140264_j78443282694634_2_alg».proof.Proof.Gen.KernelIdeal.Skeleton
import proofs.«140264_j78443282694634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every grid point, whether or not the pipeline fetched it
    there (an unfetched window's block index has not moved), for any proof data over the arrays `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every grid point, whether or not the pipeline fetched it
    there (an unfetched window's block index has not moved), for any proof data over the arrays `V` whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0
abbrev r0_1 : Rect S64x128 := Rect.unit (s := S64x128) ![0, 0] S64x128.size inb_S64x128_S64x128_0_0
abbrev r0_2 : Rect S10000x128 := Rect.unit (s := S10000x128) ![0, 0] S10000x128.size inb_S10000x128_S10000x128_0_0

/-- The output window's staging buffer after the body, as a function of the input blocks: the body's one store, of the
    body's value of the loaded blocks, through the whole rectangle. -/
def out0_2 (x0 : Vec F S10000x64 .f32) (x1 : Vec F S64x128 .f32) : Vec F S10000x128 .f32 :=
  View.canon [⟨r0_2, k0_pay1 (View.ld x0 r0_0) (View.ld x1 r0_1)⟩]

/-- That one store covers the buffer. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

set_option maxHeartbeats 1000000 in
/-- The body on whole staging memrefs, the inputs' holding `xJ` and the output's anything, runs without fault to a
    state where the inputs' are unchanged and the output's holds `out0_2` of the inputs. -/
theorem sound_kernel0 (c : Dev nD) (E : Set ℕ) (i : grid0.Coords) (arg0 : Memref sig .tc .vmem S10000x64 .f32) (harg0 : arg0.IsWhole) (arg1 : Memref sig .tc .vmem S64x128 .f32) (harg1 : arg1.IsWhole) (arg2 : Memref sig .tc .vmem S10000x128 .f32) (harg2 : arg2.IsWhole)
    (x0 : Vec F S10000x64 .f32) (x1 : Vec F S64x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_multi_kernel i arg0 harg0 arg1 harg1 arg2 harg2) K := by
  simp only [cc0__linear_multi_kernel_eq_skeleton]; unfold cc0__linear_multi_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` every
    input buffer at its block and the output buffer at `out0_2` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
/-
  Region 1 of @main, the pallas_call `cc1__linear_multi_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.KernelIdeal.Launch
import proofs.«140264_j78443282694634_2_alg».proof.Proof.Gen.KernelIdeal.Skeleton
import proofs.«140264_j78443282694634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, whether or not the pipeline fetched it
    there (an unfetched window's block index has not moved), for any proof data over the arrays `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every grid point, whether or not the pipeline fetched it
    there (an unfetched window's block index has not moved), for any proof data over the arrays `V` whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0
abbrev r1_1 : Rect S64x256 := Rect.unit (s := S64x256) ![0, 0] S64x256.size inb_S64x256_S64x256_0_0
abbrev r1_2 : Rect S10000x256 := Rect.unit (s := S10000x256) ![0, 0] S10000x256.size inb_S10000x256_S10000x256_0_0

/-- The output window's staging buffer after the body, as a function of the input blocks: the body's one store, of the
    body's value of the loaded blocks, through the whole rectangle. -/
def out1_2 (x0 : Vec F S10000x64 .f32) (x1 : Vec F S64x256 .f32) : Vec F S10000x256 .f32 :=
  View.canon [⟨r1_2, k1_pay1 (View.ld x0 r1_0) (View.ld x1 r1_1)⟩]

/-- That one store covers the buffer. -/
theorem cover1_2 (p0 : Vec F S10000x256 .f32) (y : S10000x256.Idx) :
    ∃ pc ∈ ([⟨r1_2, p0⟩] : List (View.Piece (Elt F) S10000x256 .f32)), y ∈ pc.1.set :=
  View.cover_of_tiled [⟨r1_2, p0⟩] S10000x256.size (by rfl) y

set_option maxHeartbeats 1000000 in
/-- The body on whole staging memrefs, the inputs' holding `xJ` and the output's anything, runs without fault to a
    state where the inputs' are unchanged and the output's holds `out1_2` of the inputs. -/
theorem sound_kernel1 (c : Dev nD) (E : Set ℕ) (i : grid1.Coords) (arg0 : Memref sig .tc .vmem S10000x64 .f32) (harg0 : arg0.IsWhole) (arg1 : Memref sig .tc .vmem S64x256 .f32) (harg1 : arg1.IsWhole) (arg2 : Memref sig .tc .vmem S10000x256 .f32) (harg2 : arg2.IsWhole)
    (x0 : Vec F S10000x64 .f32) (x1 : Vec F S64x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__linear_multi_kernel i arg0 harg0 arg1 harg1 arg2 harg2) K := by
  simp only [cc1__linear_multi_kernel_eq_skeleton]; unfold cc1__linear_multi_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` every
    input buffer at its block and the output buffer at `out1_2` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.lean ====
/-
  Region 2 of @main, the pallas_call `cc2__linear_multi_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.KernelIdeal.Launch
import proofs.«140264_j78443282694634_2_alg».proof.Proof.Gen.KernelIdeal.Skeleton
import proofs.«140264_j78443282694634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every grid point, whether or not the pipeline fetched it
    there (an unfetched window's block index has not moved), for any proof data over the arrays `V` whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every grid point, whether or not the pipeline fetched it
    there (an unfetched window's block index has not moved), for any proof data over the arrays `V` whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S64x256 := Rect.unit (s := S64x256) ![0, 0] S64x256.size inb_S64x256_S64x256_0_0
abbrev r2_2 : Rect S10000x256 := Rect.unit (s := S10000x256) ![0, 0] S10000x256.size inb_S10000x256_S10000x256_0_0

/-- The output window's staging buffer after the body, as a function of the input blocks: the body's one store, of the
    body's value of the loaded blocks, through the whole rectangle. -/
def out2_2 (x0 : Vec F S10000x64 .f32) (x1 : Vec F S64x256 .f32) : Vec F S10000x256 .f32 :=
  View.canon [⟨r2_2, k2_pay1 (View.ld x0 r2_0) (View.ld x1 r2_1)⟩]

/-- That one store covers the buffer. -/
theorem cover2_2 (p0 : Vec F S10000x256 .f32) (y : S10000x256.Idx) :
    ∃ pc ∈ ([⟨r2_2, p0⟩] : List (View.Piece (Elt F) S10000x256 .f32)), y ∈ pc.1.set :=
  View.cover_of_tiled [⟨r2_2, p0⟩] S10000x256.size (by rfl) y

set_option maxHeartbeats 1000000 in
/-- The body on whole staging memrefs, the inputs' holding `xJ` and the output's anything, runs without fault to a
    state where the inputs' are unchanged and the output's holds `out2_2` of the inputs. -/
theorem sound_kernel2 (c : Dev nD) (E : Set ℕ) (i : grid2.Coords) (arg0 : Memref sig .tc .vmem S10000x64 .f32) (harg0 : arg0.IsWhole) (arg1 : Memref sig .tc .vmem S64x256 .f32) (harg1 : arg1.IsWhole) (arg2 : Memref sig .tc .vmem S10000x256 .f32) (harg2 : arg2.IsWhole)
    (x0 : Vec F S10000x64 .f32) (x1 : Vec F S64x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_multi_kernel i arg0 harg0 arg1 harg1 arg2 harg2) K := by
  simp only [cc2__linear_multi_kernel_eq_skeleton]; unfold cc2__linear_multi_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` every
    input buffer at its block and the output buffer at `out2_2` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R3.lean ====
/-
  Region 3 of @main, the pallas_call `cc3__linear_multi_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.KernelIdeal.Launch
import proofs.«140264_j78443282694634_2_alg».proof.Proof.Gen.KernelIdeal.Skeleton
import proofs.«140264_j78443282694634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every grid point, whether or not the pipeline fetched it
    there (an unfetched window's block index has not moved), for any proof data over the arrays `V` whose body leaves
    the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every grid point, whether or not the pipeline fetched it
    there (an unfetched window's block index has not moved), for any proof data over the arrays `V` whose body leaves
    the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x64 := Rect.unit (s := S10000x64) ![0, 0] S10000x64.size inb_S10000x64_S10000x64_0_0
abbrev r3_1 : Rect S64x256 := Rect.unit (s := S64x256) ![0, 0] S64x256.size inb_S64x256_S64x256_0_0
abbrev r3_2 : Rect S10000x256 := Rect.unit (s := S10000x256) ![0, 0] S10000x256.size inb_S10000x256_S10000x256_0_0

/-- The output window's staging buffer after the body, as a function of the input blocks: the body's one store, of the
    body's value of the loaded blocks, through the whole rectangle. -/
def out3_2 (x0 : Vec F S10000x64 .f32) (x1 : Vec F S64x256 .f32) : Vec F S10000x256 .f32 :=
  View.canon [⟨r3_2, k3_pay1 (View.ld x0 r3_0) (View.ld x1 r3_1)⟩]

/-- That one store covers the buffer. -/
theorem cover3_2 (p0 : Vec F S10000x256 .f32) (y : S10000x256.Idx) :
    ∃ pc ∈ ([⟨r3_2, p0⟩] : List (View.Piece (Elt F) S10000x256 .f32)), y ∈ pc.1.set :=
  View.cover_of_tiled [⟨r3_2, p0⟩] S10000x256.size (by rfl) y

set_option maxHeartbeats 1000000 in
/-- The body on whole staging memrefs, the inputs' holding `xJ` and the output's anything, runs without fault to a
    state where the inputs' are unchanged and the output's holds `out3_2` of the inputs. -/
theorem sound_kernel3 (c : Dev nD) (E : Set ℕ) (i : grid3.Coords) (arg0 : Memref sig .tc .vmem S10000x64 .f32) (harg0 : arg0.IsWhole) (arg1 : Memref sig .tc .vmem S64x256 .f32) (harg1 : arg1.IsWhole) (arg2 : Memref sig .tc .vmem S10000x256 .f32) (harg2 : arg2.IsWhole)
    (x0 : Vec F S10000x64 .f32) (x1 : Vec F S64x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__linear_multi_kernel i arg0 harg0 arg1 harg1 arg2 harg2) K := by
  simp only [cc3__linear_multi_kernel_eq_skeleton]; unfold cc3__linear_multi_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` every
    input buffer at its block and the output buffer at `out3_2` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any grid point: the input buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.R4.lean ====
/-
  Region 4 of @main, the pallas_call `cc4__linear_multi_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.KernelIdeal.Launch
import proofs.«140264_j78443282694634_2_alg».proof.Proof.Gen.KernelIdeal.Skeleton
import proofs.«140264_j78443282694634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every grid point, whether or not the pipeline fetched it
    there (an unfetched window's block index has not moved), for any proof data over the arrays `V` whose body leaves
    the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every grid point, whether or not the pipeline fetched it
    there (an unfetched window's block index has not moved), for any proof data over the arrays `V` whose body leaves
    the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S10000x64 := Rect.unit (s := S10000x64) ![0, 0] S10000x64.size inb_S10000x64_S10000x64_0_0
abbrev r4_1 : Rect S64x128 := Rect.unit (s := S64x128) ![0, 0] S64x128.size inb_S64x128_S64x128_0_0
abbrev r4_2 : Rect S10000x128 := Rect.unit (s := S10000x128) ![0, 0] S10000x128.size inb_S10000x128_S10000x128_0_0

/-- The output window's staging buffer after the body, as a function of the input blocks: the body's one store, of the
    body's value of the loaded blocks, through the whole rectangle. -/
def out4_2 (x0 : Vec F S10000x64 .f32) (x1 : Vec F S64x128 .f32) : Vec F S10000x128 .f32 :=
  View.canon [⟨r4_2, k4_pay1 (View.ld x0 r4_0) (View.ld x1 r4_1)⟩]

/-- That one store covers the buffer. -/
theorem cover4_2 (p0 : Vec F S10000x128 .f32) (y : S10000x128.Idx) :
    ∃ pc ∈ ([⟨r4_2, p0⟩] : List (View.Piece (Elt F) S10000x128 .f32)), y ∈ pc.1.set :=
  View.cover_of_tiled [⟨r4_2, p0⟩] S10000x128.size (by rfl) y

set_option maxHeartbeats 1000000 in
/-- The body on whole staging memrefs, the inputs' holding `xJ` and the output's anything, runs without fault to a
    state where the inputs' are unchanged and the output's holds `out4_2` of the inputs. -/
theorem sound_kernel4 (c : Dev nD) (E : Set ℕ) (i : grid4.Coords) (arg0 : Memref sig .tc .vmem S10000x64 .f32) (harg0 : arg0.IsWhole) (arg1 : Memref sig .tc .vmem S64x128 .f32) (harg1 : arg1.IsWhole) (arg2 : Memref sig .tc .vmem S10000x128 .f32) (harg2 : arg2.IsWhole)
    (x0 : Vec F S10000x64 .f32) (x1 : Vec F S64x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__linear_multi_kernel i arg0 harg0 arg1 harg1 arg2 harg2) K := by
  simp only [cc4__linear_multi_kernel_eq_skeleton]; unfold cc4__linear_multi_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core `c`: the arrays as the region finds them; after the body at point `t` every
    input buffer at its block and the output buffer at `out4_2` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any grid point: the input buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.R5.lean ====
/-
  Region 5 of @main, the pallas_call `cc5__agg_first_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.KernelIdeal.Launch
import proofs.«140264_j78443282694634_2_alg».proof.Proof.Gen.KernelIdeal.Skeleton
import proofs.«140264_j78443282694634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every grid point, whether or not the pipeline fetched it
    there (an unfetched window's block index has not moved), for any proof data over the arrays `V` whose body leaves
    the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every grid point, whether or not the pipeline fetched it
    there (an unfetched window's block index has not moved), for any proof data over the arrays `V` whose body leaves
    the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every grid point, whether or not the pipeline fetched it
    there (an unfetched window's block index has not moved), for any proof data over the arrays `V` whose body leaves
    the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every grid point, whether or not the pipeline fetched it
    there (an unfetched window's block index has not moved), for any proof data over the arrays `V` whose body leaves
    the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x64 := Rect.unit (s := S10000x64) ![0, 0] S10000x64.size inb_S10000x64_S10000x64_0_0
abbrev r5_1 : Rect S10000x64 := Rect.unit (s := S10000x64) ![0, 0] S10000x64.size inb_S10000x64_S10000x64_0_0
abbrev r5_2 : Rect S10000x64 := Rect.unit (s := S10000x64) ![0, 0] S10000x64.size inb_S10000x64_S10000x64_0_0
abbrev r5_3 : Rect S64x64 := Rect.unit (s := S64x64) ![0, 0] S64x64.size inb_S64x64_S64x64_0_0
abbrev r5_4 : Rect S10000x64 := Rect.unit (s := S10000x64) ![0, 0] S10000x64.size inb_S10000x64_S10000x64_0_0

/-- The output window's staging buffer after the body, as a function of the input blocks: the body's one store, of the
    body's value of the loaded blocks, through the whole rectangle. -/
def out5_4 (x0 : Vec F S10000x64 .f32) (x1 : Vec F S10000x64 .f32) (x2 : Vec F S10000x64 .f32) (x3 : Vec F S64x64 .f32) : Vec F S10000x64 .f32 :=
  View.canon [⟨r5_4, k5_pay1 (View.ld x0 r5_0) (View.ld x1 r5_1) (View.ld x2 r5_2) (View.ld x3 r5_3)⟩]

/-- That one store covers the buffer. -/
theorem cover5_4 (p0 : Vec F S10000x64 .f32) (y : S10000x64.Idx) :
    ∃ pc ∈ ([⟨r5_4, p0⟩] : List (View.Piece (Elt F) S10000x64 .f32)), y ∈ pc.1.set :=
  View.cover_of_tiled [⟨r5_4, p0⟩] S10000x64.size (by rfl) y

set_option maxHeartbeats 1000000 in
/-- The body on whole staging memrefs, the inputs' holding `xJ` and the output's anything, runs without fault to a
    state where the inputs' are unchanged and the output's holds `out5_4` of the inputs. -/
theorem sound_kernel5 (c : Dev nD) (E : Set ℕ) (i : grid5.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S10000x64 .f32) (harg4 : arg4.IsWhole)
    (x0 : Vec F S10000x64 .f32) (x1 : Vec F S10000x64 .f32) (x2 : Vec F S10000x64 .f32) (x3 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out5_4 x0 x1 x2 x3)) -∗ K ⟨⟩))
      ⊢ wp frame (wpE (defs₀ (F := F)) Variants.none c none) E (cc5__agg_first_kernel i arg0 harg0 arg1 harg1 arg2 harg2 arg3 harg3 arg4 harg4) K := by
  simp only [cc5__agg_first_kernel_eq_skeleton]; unfold cc5__agg_first_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The pipeline's proof data on core `c`: the arrays as the region finds them; after the body at point `t` every
    input buffer at its block and the output buffer at `out5_4` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any grid point: the input buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.R6.lean ====
/-
  Region 6 of @main, the pallas_call `cc6__agg_mid_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.KernelIdeal.Launch
import proofs.«140264_j78443282694634_2_alg».proof.Proof.Gen.KernelIdeal.Skeleton
import proofs.«140264_j78443282694634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every grid point, whether or not the pipeline fetched it
    there (an unfetched window's block index has not moved), for any proof data over the arrays `V` whose body leaves
    the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every grid point, whether or not the pipeline fetched it
    there (an unfetched window's block index has not moved), for any proof data over the arrays `V` whose body leaves
    the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every grid point, whether or not the pipeline fetched it
    there (an unfetched window's block index has not moved), for any proof data over the arrays `V` whose body leaves
    the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every grid point, whether or not the pipeline fetched it
    there (an unfetched window's block index has not moved), for any proof data over the arrays `V` whose body leaves
    the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every grid point, whether or not the pipeline fetched it
    there (an unfetched window's block index has not moved), for any proof data over the arrays `V` whose body leaves
    the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S10000x64 := Rect.unit (s := S10000x64) ![0, 0] S10000x64.size inb_S10000x64_S10000x64_0_0
abbrev r6_1 : Rect S10000x64 := Rect.unit (s := S10000x64) ![0, 0] S10000x64.size inb_S10000x64_S10000x64_0_0
abbrev r6_2 : Rect S10000x64 := Rect.unit (s := S10000x64) ![0, 0] S10000x64.size inb_S10000x64_S10000x64_0_0
abbrev r6_3 : Rect S10000x64 := Rect.unit (s := S10000x64) ![0, 0] S10000x64.size inb_S10000x64_S10000x64_0_0
abbrev r6_4 : Rect S64x64 := Rect.unit (s := S64x64) ![0, 0] S64x64.size inb_S64x64_S64x64_0_0
abbrev r6_5 : Rect S10000x64 := Rect.unit (s := S10000x64) ![0, 0] S10000x64.size inb_S10000x64_S10000x64_0_0

/-- The output window's staging buffer after the body, as a function of the input blocks: the body's one store, of the
    body's value of the loaded blocks, through the whole rectangle. -/
def out6_5 (x0 : Vec F S10000x64 .f32) (x1 : Vec F S10000x64 .f32) (x2 : Vec F S10000x64 .f32) (x3 : Vec F S10000x64 .f32) (x4 : Vec F S64x64 .f32) : Vec F S10000x64 .f32 :=
  View.canon [⟨r6_5, k6_pay1 (View.ld x0 r6_0) (View.ld x1 r6_1) (View.ld x2 r6_2) (View.ld x3 r6_3) (View.ld x4 r6_4)⟩]

/-- That one store covers the buffer. -/
theorem cover6_5 (p0 : Vec F S10000x64 .f32) (y : S10000x64.Idx) :
    ∃ pc ∈ ([⟨r6_5, p0⟩] : List (View.Piece (Elt F) S10000x64 .f32)), y ∈ pc.1.set :=
  View.cover_of_tiled [⟨r6_5, p0⟩] S10000x64.size (by rfl) y

set_option maxHeartbeats 1000000 in
/-- The body on whole staging memrefs, the inputs' holding `xJ` and the output's anything, runs without fault to a
    state where the inputs' are unchanged and the output's holds `out6_5` of the inputs. -/
theorem sound_kernel6 (c : Dev nD) (E : Set ℕ) (i : grid6.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S10000x64 .f32) (harg5 : arg5.IsWhole)
    (x0 : Vec F S10000x64 .f32) (x1 : Vec F S10000x64 .f32) (x2 : Vec F S10000x64 .f32) (x3 : Vec F S10000x64 .f32) (x4 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out6_5 x0 x1 x2 x3 x4)) -∗ K ⟨⟩))
      ⊢ wp frame (wpE (defs₀ (F := F)) Variants.none c none) E (cc6__agg_mid_kernel i arg0 harg0 arg1 harg1 arg2 harg2 arg3 harg3 arg4 harg4 arg5 harg5) K := by
  simp only [cc6__agg_mid_kernel_eq_skeleton]; unfold cc6__agg_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The pipeline's proof data on core `c`: the arrays as the region finds them; after the body at point `t` every
    input buffer at its block and the output buffer at `out6_5` of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any grid point: the input buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.R7.lean ====
/-
  Region 7 of @main, the pallas_call `cc7__agg_mid_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.KernelIdeal.Launch
import proofs.«140264_j78443282694634_2_alg».proof.Proof.Gen.KernelIdeal.Skeleton
import proofs.«140264_j78443282694634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every grid point, whether or not the pipeline fetched it
    there (an unfetched window's block index has not moved), for any proof data over the arrays `V` whose body leaves
    the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every grid point, whether or not the pipeline fetched it
    there (an unfetched window's block index has not moved), for any proof data over the arrays `V` whose body leaves
    the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every grid point, whether or not the pipeline fetched it
    there (an unfetched window's block index has not moved), for any proof data over the arrays `V` whose body leaves
    the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every grid point, whether or not the pipeline fetched it
    there (an unfetched window's block index has not moved), for any proof data over the arrays `V` whose body leaves
    the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every grid point, whether or not the pipeline fetched it
    there (an unfetched window's block index has not moved), for any proof data over the arrays `V` whose body leaves
    the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S10000x64 := Rect.unit (s := S10000x64) ![0, 0] S10000x64.size inb_S10000x64_S10000x64_0_0
abbrev r7_1 : Rect S10000x64 := Rect.unit (s := S10000x64) ![0, 0] S10000x64.size inb_S10000x64_S10000x64_0_0
abbrev r7_2 : Rect S10000x64 := Rect.unit (s := S10000x64) ![0, 0] S10000x64.size inb_S10000x64_S10000x64_0_0
abbrev r7_3 : Rect S10000x64 := Rect.unit (s := S10000x64) ![0, 0] S10000x64.size inb_S10000x64_S10000x64_0_0
abbrev r7_4 : Rect S64x64 := Rect.unit (s := S64x64) ![0, 0] S64x64.size inb_S64x64_S64x64_0_0
abbrev r7_5 : Rect S10000x64 := Rect.unit (s := S10000x64) ![0, 0] S10000x64.size inb_S10000x64_S10000x64_0_0

/-- The output window's staging buffer after the body, as a function of the input blocks: the body's one store, of the
    body's value of the loaded blocks, through the whole rectangle. -/
def out7_5 (x0 : Vec F S10000x64 .f32) (x1 : Vec F S10000x64 .f32) (x2 : Vec F S10000x64 .f32) (x3 : Vec F S10000x64 .f32) (x4 : Vec F S64x64 .f32) : Vec F S10000x64 .f32 :=
  View.canon [⟨r7_5, k7_pay1 (View.ld x0 r7_0) (View.ld x1 r7_1) (View.ld x2 r7_2) (View.ld x3 r7_3) (View.ld x4 r7_4)⟩]

/-- That one store covers the buffer. -/
theorem cover7_5 (p0 : Vec F S10000x64 .f32) (y : S10000x64.Idx) :
    ∃ pc ∈ ([⟨r7_5, p0⟩] : List (View.Piece (Elt F) S10000x64 .f32)), y ∈ pc.1.set :=
  View.cover_of_tiled [⟨r7_5, p0⟩] S10000x64.size (by rfl) y

set_option maxHeartbeats 1000000 in
/-- The body on whole staging memrefs, the inputs' holding `xJ` and the output's anything, runs without fault to a
    state where the inputs' are unchanged and the output's holds `out7_5` of the inputs. -/
theorem sound_kernel7 (c : Dev nD) (E : Set ℕ) (i : grid7.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S10000x64 .f32) (harg5 : arg5.IsWhole)
    (x0 : Vec F S10000x64 .f32) (x1 : Vec F S10000x64 .f32) (x2 : Vec F S10000x64 .f32) (x3 : Vec F S10000x64 .f32) (x4 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out7_5 x0 x1 x2 x3 x4)) -∗ K ⟨⟩))
      ⊢ wp frame (wpE (defs₀ (F := F)) Variants.none c none) E (cc7__agg_mid_kernel i arg0 harg0 arg1 harg1 arg2 harg2 arg3 harg3 arg4 harg4 arg5 harg5) K := by
  simp only [cc7__agg_mid_kernel_eq_skeleton]; unfold cc7__agg_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The pipeline's proof data on core `c`: the arrays as the region finds them; after the body at point `t` every
    input buffer at its block and the output buffer at `out7_5` of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any grid point: the input buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.R8.lean ====
/-
  Region 8 of @main, the pallas_call `cc8__agg_mid_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.KernelIdeal.Launch
import proofs.«140264_j78443282694634_2_alg».proof.Proof.Gen.KernelIdeal.Skeleton
import proofs.«140264_j78443282694634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every grid point, whether or not the pipeline fetched it
    there (an unfetched window's block index has not moved), for any proof data over the arrays `V` whose body leaves
    the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every grid point, whether or not the pipeline fetched it
    there (an unfetched window's block index has not moved), for any proof data over the arrays `V` whose body leaves
    the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every grid point, whether or not the pipeline fetched it
    there (an unfetched window's block index has not moved), for any proof data over the arrays `V` whose body leaves
    the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every grid point, whether or not the pipeline fetched it
    there (an unfetched window's block index has not moved), for any proof data over the arrays `V` whose body leaves
    the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every grid point, whether or not the pipeline fetched it
    there (an unfetched window's block index has not moved), for any proof data over the arrays `V` whose body leaves
    the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S10000x64 := Rect.unit (s := S10000x64) ![0, 0] S10000x64.size inb_S10000x64_S10000x64_0_0
abbrev r8_1 : Rect S10000x64 := Rect.unit (s := S10000x64) ![0, 0] S10000x64.size inb_S10000x64_S10000x64_0_0
abbrev r8_2 : Rect S10000x64 := Rect.unit (s := S10000x64) ![0, 0] S10000x64.size inb_S10000x64_S10000x64_0_0
abbrev r8_3 : Rect S10000x64 := Rect.unit (s := S10000x64) ![0, 0] S10000x64.size inb_S10000x64_S10000x64_0_0
abbrev r8_4 : Rect S64x64 := Rect.unit (s := S64x64) ![0, 0] S64x64.size inb_S64x64_S64x64_0_0
abbrev r8_5 : Rect S10000x64 := Rect.unit (s := S10000x64) ![0, 0] S10000x64.size inb_S10000x64_S10000x64_0_0

/-- The output window's staging buffer after the body, as a function of the input blocks: the body's one store, of the
    body's value of the loaded blocks, through the whole rectangle. -/
def out8_5 (x0 : Vec F S10000x64 .f32) (x1 : Vec F S10000x64 .f32) (x2 : Vec F S10000x64 .f32) (x3 : Vec F S10000x64 .f32) (x4 : Vec F S64x64 .f32) : Vec F S10000x64 .f32 :=
  View.canon [⟨r8_5, k8_pay1 (View.ld x0 r8_0) (View.ld x1 r8_1) (View.ld x2 r8_2) (View.ld x3 r8_3) (View.ld x4 r8_4)⟩]

/-- That one store covers the buffer. -/
theorem cover8_5 (p0 : Vec F S10000x64 .f32) (y : S10000x64.Idx) :
    ∃ pc ∈ ([⟨r8_5, p0⟩] : List (View.Piece (Elt F) S10000x64 .f32)), y ∈ pc.1.set :=
  View.cover_of_tiled [⟨r8_5, p0⟩] S10000x64.size (by rfl) y

set_option maxHeartbeats 1000000 in
/-- The body on whole staging memrefs, the inputs' holding `xJ` and the output's anything, runs without fault to a
    state where the inputs' are unchanged and the output's holds `out8_5` of the inputs. -/
theorem sound_kernel8 (c : Dev nD) (E : Set ℕ) (i : grid8.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S10000x64 .f32) (harg5 : arg5.IsWhole)
    (x0 : Vec F S10000x64 .f32) (x1 : Vec F S10000x64 .f32) (x2 : Vec F S10000x64 .f32) (x3 : Vec F S10000x64 .f32) (x4 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out8_5 x0 x1 x2 x3 x4)) -∗ K ⟨⟩))
      ⊢ wp frame (wpE (defs₀ (F := F)) Variants.none c none) E (cc8__agg_mid_kernel i arg0 harg0 arg1 harg1 arg2 harg2 arg3 harg3 arg4 harg4 arg5 harg5) K := by
  simp only [cc8__agg_mid_kernel_eq_skeleton]; unfold cc8__agg_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The pipeline's proof data on core `c`: the arrays as the region finds them; after the body at point `t` every
    input buffer at its block and the output buffer at `out8_5` of the input blocks; nothing owed, full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any grid point: the input buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KI.R9.lean ====
/-
  Region 9 of @main, the pallas_call `cc9__agg_last_kernel`, at the buffer contents `V` the region is entered with:
  what each window's staging buffer holds before and after the body at a grid point. The body reads each input
  block whole, computes one value from them and stores it whole into the output block; so after the body the
  input buffers hold their blocks unchanged and the output buffer holds that value of the input blocks.
  From this follow the body's triple and the pipeline's obligation at every grid point, at any float instance.
-/
import proofs.«140264_j78443282694634_2_alg».proof.Proof.Gen.KernelIdeal.Launch
import proofs.«140264_j78443282694634_2_alg».proof.Proof.Gen.KernelIdeal.Skeleton
import proofs.«140264_j78443282694634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every grid point, whether or not the pipeline fetched it
    there (an unfetched window's block index has not moved), for any proof data over the arrays `V` whose body leaves
    the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every grid point, whether or not the pipeline fetched it
    there (an unfetched window's block index has not moved), for any proof data over the arrays `V` whose body leaves
    the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every grid point, whether or not the pipeline fetched it
    there (an unfetched window's block index has not moved), for any proof data over the arrays `V` whose body leaves
    the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds its block at every grid point, whether or not the pipeline fetched it
    there (an unfetched window's block index has not moved), for any proof data over the arrays `V` whose body leaves
    the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S10000x64 := Rect.unit (s := S10000x64) ![0, 0] S10000x64.size inb_S10000x64_S10000x64_0_0
abbrev r9_1 : Rect S10000x64 := Rect.unit (s := S10000x64) ![0, 0] S10000x64.size inb_S10000x64_S10000x64_0_0
abbrev r9_2 : Rect S10000x64 := Rect.unit (s := S10000x64) ![0, 0] S10000x64.size inb_S10000x64_S10000x64_0_0
abbrev r9_3 : Rect S64x64 := Rect.unit (s := S64x64) ![0, 0] S64x64.size inb_S64x64_S64x64_0_0
abbrev r9_4 : Rect S10000x64 := Rect.unit (s := S10000x64) ![0, 0] S10000x64.size inb_S10000x64_S10000x64_0_0

/-- The output window's staging buffer after the body, as a function of the input blocks: the body's one store, of the
    body's value of the loaded blocks, through the whole rectangle. -/
def out9_4 (x0 : Vec F S10000x64 .f32) (x1 : Vec F S10000x64 .f32) (x2 : Vec F S10000x64 .f32) (x3 : Vec F S64x64 .f32) : Vec F S10000x64 .f32 :=
  View.canon [⟨r9_4, k9_pay1 (View.ld x0 r9_0) (View.ld x1 r9_1) (View.ld x2 r9_2) (View.ld x3 r9_3)⟩]

/-- That one store covers the buffer. -/
theorem cover9_4 (p0 : Vec F S10000x64 .f32) (y : S10000x64.Idx) :
    ∃ pc ∈ ([⟨r9_4, p0⟩] : List (View.Piece (Elt F) S10000x64 .f32)), y ∈ pc.1.set :=
  View.cover_of_tiled [⟨r9_4, p0⟩] S10000x64.size (by rfl) y

set_option maxHeartbeats 1000000 in
/-- The body on whole staging memrefs, the inputs' holding `xJ` and the output's anything, runs without fault to a
    state where the inputs' are unchanged and the output's holds `out9_4` of the inputs. -/
theorem sound_kernel9 (c : Dev nD) (E : Set ℕ) (i : grid9.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S10000x64 .f32) (harg4 : arg4.IsWhole)
    (x0 : Vec F S10000x64 .f32) (x1 : Vec F S10000x64 .f32) (x2 : Vec F S10000x64 .f32) (x3 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out9_4 x0 x1 x2 x3)) -∗ K ⟨⟩))
      ⊢ wp frame (wpE (defs₀ (F := F)) Variants.none c none) E (cc9__agg_last_kernel i arg0 harg0 arg1 harg1 arg2 harg2 arg3 harg3 arg4 harg4) K := by
  simp only [cc9__agg_last_kernel_eq_skeleton]; unfold cc9__agg_last_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-- The pipeline's proof data on core `c`: the arrays as the region finds them; after the body at point `t` every
    input buffer at its block and the output buffer at `out9_4` of the input blocks; nothing owed, full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any grid point: the input buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every grid point. -/
theorem body_obligation9 (c : Dev nD) : BodyObligation (dat9 (F := F) V c) (defs₀ (F := F)) Variants.none () Set.univ := fun t => by
  rw [bigSep_W9, bigSep_W9]
  exact sound_body9 V c t

end Cert.KernelIdeal.Fr

end
-- ==== Proof.KI.Fold.lean ====
/-
  The buffers' contents at every boundary between two items of @main, as a fold from the launch memory: a stretch of
  host operations leaves what the operations compute; a pallas_call leaves its windows' arrays at what its
  write-backs left (the input arrays as entered, the output array block by block) and every other buffer as entered.
  No item writes an argument, so every argument's buffer reaches the end as launched.
-/
import proofs.«140264_j78443282694634_2_alg».proof.Proof.KI.R0
import proofs.«140264_j78443282694634_2_alg».proof.Proof.KI.R1
import proofs.«140264_j78443282694634_2_alg».proof.Proof.KI.R2
import proofs.«140264_j78443282694634_2_alg».proof.Proof.KI.R3
import proofs.«140264_j78443282694634_2_alg».proof.Proof.KI.R4
import proofs.«140264_j78443282694634_2_alg».proof.Proof.KI.R5
import proofs.«140264_j78443282694634_2_alg».proof.Proof.KI.R6
import proofs.«140264_j78443282694634_2_alg».proof.Proof.KI.R7
import proofs.«140264_j78443282694634_2_alg».proof.Proof.KI.R8
import proofs.«140264_j78443282694634_2_alg».proof.Proof.KI.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch `main_part0_ops0`. -/
abbrev W1 : Dev nD → Valuation τ sig (Elt F) := fun c => StableHlo.after main_part0_ops0 (W0 m ρ c)
/-- No operation of `main_part0_ops0` allocates a buffer. -/
theorem main_part0_ops0_fresh : (main_part0_ops0 : List (HloOp τ sig (Elt F))).Forall fun op => op.fresh = ∅ := by
  simp only [List.Forall]; repeat' constructor
/-- The buffers `main_part0_ops0` writes. -/
abbrev wl1 : List (Ref sig .tc) := [main_v0]
theorem main_part0_ops0_writes : (main_part0_ops0 : List (HloOp τ sig (Elt F))).Forall fun op => op.writes ⊆ (wl1.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep1 (c : Dev nD) (r : Ref sig .tc) (h : r ∉ wl1) : W1 m ρ c (Proc.devRef .tc r) = W0 m ρ c (Proc.devRef .tc r) :=
  StableHlo.after_of_writes_sub main_part0_ops0 _ main_part0_ops0_writes h

/-- The contents region 0 is entered with, read at the TensorCore's references. -/
abbrev V1 : (c : Dev nD) → (b : Ref sig .tc) → Buf (Elt F) ((c : Thread nD τ).loc b) := fun c b => W1 m ρ c b
/-- After region 0: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array `main_v1`: an input window's array is never written back, and a buffer
    that is no window's array is not touched. -/
theorem keep2 (c : Dev nD) (r : Ref sig .tc) (h : r ≠ main_v1) : W2 m ρ c (Proc.devRef .tc r) = W1 m ρ c (Proc.devRef .tc r) := by
  by_cases hw : ∃ w, Pipeline.arrRef spec0 w = r
  · obtain ⟨w, rfl⟩ := hw
    have hin : (cfg0.win w).isOut = false := by
      match w with
      | ⟨0, _⟩ => rfl
      | ⟨1, _⟩ => rfl
      | ⟨2, _⟩ => exact absurd rfl h
    exact (W2_arr m ρ c w).trans (((dat0 (V1 m ρ) c).arrAt_in w hin _).trans (A_eq0 (V1 m ρ) c w))
  · exact W2_of_ne m ρ c r (fun w e => hw ⟨w, e⟩)

/-- After the host stretch `main_part0_ops1`. -/
abbrev W3 : Dev nD → Valuation τ sig (Elt F) := fun c => StableHlo.after main_part0_ops1 (W2 m ρ c)
/-- No operation of `main_part0_ops1` allocates a buffer. -/
theorem main_part0_ops1_fresh : (main_part0_ops1 : List (HloOp τ sig (Elt F))).Forall fun op => op.fresh = ∅ := by
  simp only [List.Forall]; repeat' constructor
/-- The buffers `main_part0_ops1` writes. -/
abbrev wl3 : List (Ref sig .tc) := [main_v2, main_v3, main_v4, main_c]
theorem main_part0_ops1_writes : (main_part0_ops1 : List (HloOp τ sig (Elt F))).Forall fun op => op.writes ⊆ (wl3.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep3 (c : Dev nD) (r : Ref sig .tc) (h : r ∉ wl3) : W3 m ρ c (Proc.devRef .tc r) = W2 m ρ c (Proc.devRef .tc r) :=
  StableHlo.after_of_writes_sub main_part0_ops1 _ main_part0_ops1_writes h

/-- After the host stretch `main_part0_ops2`. -/
abbrev W4 : Dev nD → Valuation τ sig (Elt F) := fun c => StableHlo.after main_part0_ops2 (W3 m ρ c)
/-- No operation of `main_part0_ops2` allocates a buffer. -/
theorem main_part0_ops2_fresh : (main_part0_ops2 : List (HloOp τ sig (Elt F))).Forall fun op => op.fresh = ∅ := by
  simp only [List.Forall]; repeat' constructor
/-- The buffers `main_part0_ops2` writes. -/
abbrev wl4 : List (Ref sig .tc) := [main_call0_v0, main_v5]
theorem main_part0_ops2_writes : (main_part0_ops2 : List (HloOp τ sig (Elt F))).Forall fun op => op.writes ⊆ (wl4.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep4 (c : Dev nD) (r : Ref sig .tc) (h : r ∉ wl4) : W4 m ρ c (Proc.devRef .tc r) = W3 m ρ c (Proc.devRef .tc r) :=
  StableHlo.after_of_writes_sub main_part0_ops2 _ main_part0_ops2_writes h

/-- The contents region 1 is entered with, read at the TensorCore's references. -/
abbrev V4 : (c : Dev nD) → (b : Ref sig .tc) → Buf (Elt F) ((c : Thread nD τ).loc b) := fun c b => W4 m ρ c b
/-- After region 1: its windows' arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
/-- Region 1 changes only its output array `main_v6`: an input window's array is never written back, and a buffer
    that is no window's array is not touched. -/
theorem keep5 (c : Dev nD) (r : Ref sig .tc) (h : r ≠ main_v6) : W5 m ρ c (Proc.devRef .tc r) = W4 m ρ c (Proc.devRef .tc r) := by
  by_cases hw : ∃ w, Pipeline.arrRef spec1 w = r
  · obtain ⟨w, rfl⟩ := hw
    have hin : (cfg1.win w).isOut = false := by
      match w with
      | ⟨0, _⟩ => rfl
      | ⟨1, _⟩ => rfl
      | ⟨2, _⟩ => exact absurd rfl h
    exact (W5_arr m ρ c w).trans (((dat1 (V4 m ρ) c).arrAt_in w hin _).trans (A_eq1 (V4 m ρ) c w))
  · exact W5_of_ne m ρ c r (fun w e => hw ⟨w, e⟩)

/-- After the host stretch `main_part0_ops3`. -/
abbrev W6 : Dev nD → Valuation τ sig (Elt F) := fun c => StableHlo.after main_part0_ops3 (W5 m ρ c)
/-- No operation of `main_part0_ops3` allocates a buffer. -/
theorem main_part0_ops3_fresh : (main_part0_ops3 : List (HloOp τ sig (Elt F))).Forall fun op => op.fresh = ∅ := by
  simp only [List.Forall]; repeat' constructor
/-- The buffers `main_part0_ops3` writes. -/
abbrev wl6 : List (Ref sig .tc) := [main_v7, main_v8, main_v9, main_v10, main_c_0]
theorem main_part0_ops3_writes : (main_part0_ops3 : List (HloOp τ sig (Elt F))).Forall fun op => op.writes ⊆ (wl6.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep6 (c : Dev nD) (r : Ref sig .tc) (h : r ∉ wl6) : W6 m ρ c (Proc.devRef .tc r) = W5 m ρ c (Proc.devRef .tc r) :=
  StableHlo.after_of_writes_sub main_part0_ops3 _ main_part0_ops3_writes h

/-- After the host stretch `main_part0_ops4`. -/
abbrev W7 : Dev nD → Valuation τ sig (Elt F) := fun c => StableHlo.after main_part0_ops4 (W6 m ρ c)
/-- No operation of `main_part0_ops4` allocates a buffer. -/
theorem main_part0_ops4_fresh : (main_part0_ops4 : List (HloOp τ sig (Elt F))).Forall fun op => op.fresh = ∅ := by
  simp only [List.Forall]; repeat' constructor
/-- The buffers `main_part0_ops4` writes. -/
abbrev wl7 : List (Ref sig .tc) := [main_call1_v0, main_v11]
theorem main_part0_ops4_writes : (main_part0_ops4 : List (HloOp τ sig (Elt F))).Forall fun op => op.writes ⊆ (wl7.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep7 (c : Dev nD) (r : Ref sig .tc) (h : r ∉ wl7) : W7 m ρ c (Proc.devRef .tc r) = W6 m ρ c (Proc.devRef .tc r) :=
  StableHlo.after_of_writes_sub main_part0_ops4 _ main_part0_ops4_writes h

/-- The contents region 2 is entered with, read at the TensorCore's references. -/
abbrev V7 : (c : Dev nD) → (b : Ref sig .tc) → Buf (Elt F) ((c : Thread nD τ).loc b) := fun c b => W7 m ρ c b
/-- After region 2: its windows' arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- Region 2 changes only its output array `main_v12`: an input window's array is never written back, and a buffer
    that is no window's array is not touched. -/
theorem keep8 (c : Dev nD) (r : Ref sig .tc) (h : r ≠ main_v12) : W8 m ρ c (Proc.devRef .tc r) = W7 m ρ c (Proc.devRef .tc r) := by
  by_cases hw : ∃ w, Pipeline.arrRef spec2 w = r
  · obtain ⟨w, rfl⟩ := hw
    have hin : (cfg2.win w).isOut = false := by
      match w with
      | ⟨0, _⟩ => rfl
      | ⟨1, _⟩ => rfl
      | ⟨2, _⟩ => exact absurd rfl h
    exact (W8_arr m ρ c w).trans (((dat2 (V7 m ρ) c).arrAt_in w hin _).trans (A_eq2 (V7 m ρ) c w))
  · exact W8_of_ne m ρ c r (fun w e => hw ⟨w, e⟩)

/-- After the host stretch `main_part0_ops5`. -/
abbrev W9 : Dev nD → Valuation τ sig (Elt F) := fun c => StableHlo.after main_part0_ops5 (W8 m ρ c)
/-- No operation of `main_part0_ops5` allocates a buffer. -/
theorem main_part0_ops5_fresh : (main_part0_ops5 : List (HloOp τ sig (Elt F))).Forall fun op => op.fresh = ∅ := by
  simp only [List.Forall]; repeat' constructor
/-- The buffers `main_part0_ops5` writes. -/
abbrev wl9 : List (Ref sig .tc) := [main_v13, main_v14, main_v15, main_v16, main_c_1]
theorem main_part0_ops5_writes : (main_part0_ops5 : List (HloOp τ sig (Elt F))).Forall fun op => op.writes ⊆ (wl9.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep9 (c : Dev nD) (r : Ref sig .tc) (h : r ∉ wl9) : W9 m ρ c (Proc.devRef .tc r) = W8 m ρ c (Proc.devRef .tc r) :=
  StableHlo.after_of_writes_sub main_part0_ops5 _ main_part0_ops5_writes h

/-- After the host stretch `main_part0_ops6`. -/
abbrev W10 : Dev nD → Valuation τ sig (Elt F) := fun c => StableHlo.after main_part0_ops6 (W9 m ρ c)
/-- No operation of `main_part0_ops6` allocates a buffer. -/
theorem main_part0_ops6_fresh : (main_part0_ops6 : List (HloOp τ sig (Elt F))).Forall fun op => op.fresh = ∅ := by
  simp only [List.Forall]; repeat' constructor
/-- The buffers `main_part0_ops6` writes. -/
abbrev wl10 : List (Ref sig .tc) := [main_call2_v0, main_v17]
theorem main_part0_ops6_writes : (main_part0_ops6 : List (HloOp τ sig (Elt F))).Forall fun op => op.writes ⊆ (wl10.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep10 (c : Dev nD) (r : Ref sig .tc) (h : r ∉ wl10) : W10 m ρ c (Proc.devRef .tc r) = W9 m ρ c (Proc.devRef .tc r) :=
  StableHlo.after_of_writes_sub main_part0_ops6 _ main_part0_ops6_writes h

/-- The contents region 3 is entered with, read at the TensorCore's references. -/
abbrev V10 : (c : Dev nD) → (b : Ref sig .tc) → Buf (Elt F) ((c : Thread nD τ).loc b) := fun c b => W10 m ρ c b
/-- After region 3: its windows' arrays at what the pipeline leaves, every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
abbrev V11 : (c : Dev nD) → (b : Ref sig .tc) → Buf (Elt F) ((c : Thread nD τ).loc b) := fun c b => W11 m ρ c b
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)
/-- Region 3 changes only its output array `main_v18`: an input window's array is never written back, and a buffer
    that is no window's array is not touched. -/
theorem keep11 (c : Dev nD) (r : Ref sig .tc) (h : r ≠ main_v18) : W11 m ρ c (Proc.devRef .tc r) = W10 m ρ c (Proc.devRef .tc r) := by
  by_cases hw : ∃ w, Pipeline.arrRef spec3 w = r
  · obtain ⟨w, rfl⟩ := hw
    have hin : (cfg3.win w).isOut = false := by
      match w with
      | ⟨0, _⟩ => rfl
      | ⟨1, _⟩ => rfl
      | ⟨2, _⟩ => exact absurd rfl h
    exact (W11_arr m ρ c w).trans (((dat3 (V10 m ρ) c).arrAt_in w hin _).trans (A_eq3 (V10 m ρ) c w))
  · exact W11_of_ne m ρ c r (fun w e => hw ⟨w, e⟩)

/-- After the host stretch `main_part0_ops7`. -/
abbrev W12 : Dev nD → Valuation τ sig (Elt F) := fun c => StableHlo.after main_part0_ops7 (W11 m ρ c)
/-- No operation of `main_part0_ops7` allocates a buffer. -/
theorem main_part0_ops7_fresh : (main_part0_ops7 : List (HloOp τ sig (Elt F))).Forall fun op => op.fresh = ∅ := by
  simp only [List.Forall]; repeat' constructor
/-- The buffers `main_part0_ops7` writes. -/
abbrev wl12 : List (Ref sig .tc) := [main_v19, main_v20, main_v21, main_v22]
theorem main_part0_ops7_writes : (main_part0_ops7 : List (HloOp τ sig (Elt F))).Forall fun op => op.writes ⊆ (wl12.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep12 (c : Dev nD) (r : Ref sig .tc) (h : r ∉ wl12) : W12 m ρ c (Proc.devRef .tc r) = W11 m ρ c (Proc.devRef .tc r) :=
  StableHlo.after_of_writes_sub main_part0_ops7 _ main_part0_ops7_writes h

/-- The contents region 4 is entered with, read at the TensorCore's references. -/
abbrev V12 : (c : Dev nD) → (b : Ref sig .tc) → Buf (Elt F) ((c : Thread nD τ).loc b) := fun c b => W12 m ρ c b
/-- After region 4: its windows' arrays at what the pipeline leaves, every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)
/-- Region 4 changes only its output array `main_v23`: an input window's array is never written back, and a buffer
    that is no window's array is not touched. -/
theorem keep13 (c : Dev nD) (r : Ref sig .tc) (h : r ≠ main_v23) : W13 m ρ c (Proc.devRef .tc r) = W12 m ρ c (Proc.devRef .tc r) := by
  by_cases hw : ∃ w, Pipeline.arrRef spec4 w = r
  · obtain ⟨w, rfl⟩ := hw
    have hin : (cfg4.win w).isOut = false := by
      match w with
      | ⟨0, _⟩ => rfl
      | ⟨1, _⟩ => rfl
      | ⟨2, _⟩ => exact absurd rfl h
    exact (W13_arr m ρ c w).trans (((dat4 (V12 m ρ) c).arrAt_in w hin _).trans (A_eq4 (V12 m ρ) c w))
  · exact W13_of_ne m ρ c r (fun w e => hw ⟨w, e⟩)

/-- After the host stretch `main_part0_ops8`. -/
abbrev W14 : Dev nD → Valuation τ sig (Elt F) := fun c => StableHlo.after main_part0_ops8 (W13 m ρ c)
/-- No operation of `main_part0_ops8` allocates a buffer. -/
theorem main_part0_ops8_fresh : (main_part0_ops8 : List (HloOp τ sig (Elt F))).Forall fun op => op.fresh = ∅ := by
  simp only [List.Forall]; repeat' constructor
/-- The buffers `main_part0_ops8` writes. -/
abbrev wl14 : List (Ref sig .tc) := [main_v24, main_v25, main_v26, main_c_2, main_v27, main_v28, main_c_3, main_v29, main_v30, main_v31, main_v32, main_v33, main_v34, main_v35, main_cst, main_v36, main_v37, main_v38, main_v39, main_c_4, main_v40, main_v41, main_c_5, main_v42, main_v43, main_v44, main_v45, main_v46, main_v47, main_v48, main_cst_6, main_v49, main_v50]
theorem main_part0_ops8_writes : (main_part0_ops8 : List (HloOp τ sig (Elt F))).Forall fun op => op.writes ⊆ (wl14.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep14 (c : Dev nD) (r : Ref sig .tc) (h : r ∉ wl14) : W14 m ρ c (Proc.devRef .tc r) = W13 m ρ c (Proc.devRef .tc r) :=
  StableHlo.after_of_writes_sub main_part0_ops8 _ main_part0_ops8_writes h

/-- After the host stretch `main_part1_ops0`. -/
abbrev W15 : Dev nD → Valuation τ sig (Elt F) := fun c => StableHlo.after main_part1_ops0 (W14 m ρ c)
/-- No operation of `main_part1_ops0` allocates a buffer. -/
theorem main_part1_ops0_fresh : (main_part1_ops0 : List (HloOp τ sig (Elt F))).Forall fun op => op.fresh = ∅ := by
  simp only [List.Forall]; repeat' constructor
/-- The buffers `main_part1_ops0` writes. -/
abbrev wl15 : List (Ref sig .tc) := [main_v51, main_v52, main_c_7, main_v53, main_v54, main_c_8, main_v55, main_v56, main_v57, main_v58, main_v59, main_v60, main_v61, main_cst_9, main_v62, main_v63, main_v64, main_v65, main_c_10, main_v66, main_v67, main_c_11, main_v68, main_v69, main_v70, main_v71, main_v72, main_v73, main_v74, main_cst_12, main_v75, main_v76, main_v77, main_v78, main_c_13, main_v79, main_v80, main_c_14, main_v81, main_v82, main_v83, main_v84, main_v85, main_v86, main_v87, main_cst_15, main_v88, main_v89, main_v90, main_v91, main_c_16, main_v92, main_v93, main_c_17, main_v94, main_v95, main_v96, main_v97, main_v98, main_v99]
theorem main_part1_ops0_writes : (main_part1_ops0 : List (HloOp τ sig (Elt F))).Forall fun op => op.writes ⊆ (wl15.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep15 (c : Dev nD) (r : Ref sig .tc) (h : r ∉ wl15) : W15 m ρ c (Proc.devRef .tc r) = W14 m ρ c (Proc.devRef .tc r) :=
  StableHlo.after_of_writes_sub main_part1_ops0 _ main_part1_ops0_writes h

/-- After the host stretch `main_part2_ops0`. -/
abbrev W16 : Dev nD → Valuation τ sig (Elt F) := fun c => StableHlo.after main_part2_ops0 (W15 m ρ c)
/-- No operation of `main_part2_ops0` allocates a buffer. -/
theorem main_part2_ops0_fresh : (main_part2_ops0 : List (HloOp τ sig (Elt F))).Forall fun op => op.fresh = ∅ := by
  simp only [List.Forall]; repeat' constructor
/-- The buffers `main_part2_ops0` writes. -/
abbrev wl16 : List (Ref sig .tc) := [main_v100, main_cst_18, main_v101, main_v102, main_v103, main_v104, main_c_19, main_v105, main_v106, main_c_20, main_v107, main_v108, main_v109, main_v110, main_v111, main_v112, main_v113, main_cst_21, main_v114, main_v115, main_v116, main_v117, main_c_22, main_v118, main_v119, main_c_23, main_v120, main_v121, main_v122, main_v123, main_v124, main_v125, main_v126, main_cst_24, main_v127, main_v128, main_v129, main_v130, main_c_25, main_v131, main_v132, main_c_26, main_v133, main_v134, main_v135, main_v136, main_v137, main_v138, main_v139, main_cst_27, main_v140, main_v141, main_v142, main_v143, main_c_28, main_v144, main_v145, main_c_29, main_v146, main_v147]
theorem main_part2_ops0_writes : (main_part2_ops0 : List (HloOp τ sig (Elt F))).Forall fun op => op.writes ⊆ (wl16.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep16 (c : Dev nD) (r : Ref sig .tc) (h : r ∉ wl16) : W16 m ρ c (Proc.devRef .tc r) = W15 m ρ c (Proc.devRef .tc r) :=
  StableHlo.after_of_writes_sub main_part2_ops0 _ main_part2_ops0_writes h

/-- After the host stretch `main_part3_ops0`. -/
abbrev W17 : Dev nD → Valuation τ sig (Elt F) := fun c => StableHlo.after main_part3_ops0 (W16 m ρ c)
/-- No operation of `main_part3_ops0` allocates a buffer. -/
theorem main_part3_ops0_fresh : (main_part3_ops0 : List (HloOp τ sig (Elt F))).Forall fun op => op.fresh = ∅ := by
  simp only [List.Forall]; repeat' constructor
/-- The buffers `main_part3_ops0` writes. -/
abbrev wl17 : List (Ref sig .tc) := [main_v148, main_v149, main_v150, main_v151, main_v152, main_cst_30, main_v153, main_v154, main_v155, main_v156, main_c_31, main_v157, main_v158, main_c_32, main_v159, main_v160, main_v161, main_v162, main_v163, main_v164, main_v165, main_cst_33, main_v166, main_v167, main_v168, main_v169, main_c_34, main_v170, main_v171, main_c_35, main_v172, main_v173, main_v174, main_v175, main_v176, main_v177, main_v178, main_cst_36, main_v179, main_v180, main_v181, main_v182, main_c_37, main_v183, main_v184, main_c_38, main_v185, main_v186, main_v187, main_v188, main_v189, main_v190, main_v191, main_cst_39, main_v192, main_v193, main_v194]
theorem main_part3_ops0_writes : (main_part3_ops0 : List (HloOp τ sig (Elt F))).Forall fun op => op.writes ⊆ (wl17.map (Proc.devRef (τ := τ) .tc)).toFinset := by
  simp only [List.Forall, StableHlo.nullary_writes, StableHlo.unary_writes, StableHlo.binary_writes, StableHlo.ternary_writes, StableHlo.quaternary_writes, StableHlo.nary_writes, StableHlo.TRef.unary, StableHlo.TRef.binary, Finset.singleton_subset_iff, List.mem_toFinset]
  repeat' apply And.intro
  all_goals exact List.mem_map_of_mem (by decide)
/-- A buffer the stretch does not write is as before it. -/
theorem keep17 (c : Dev nD) (r : Ref sig .tc) (h : r ∉ wl17) : W17 m ρ c (Proc.devRef .tc r) = W16 m ρ c (Proc.devRef .tc r) :=
  StableHlo.after_of_writes_sub main_part3_ops0 _ main_part3_ops0_writes h

/-- The contents region 5 is entered with, read at the TensorCore's references. -/
abbrev V17 : (c : Dev nD) → (b : Ref sig .tc) → Buf (Elt F) ((c : Thread nD τ).loc b) := fun c b => W17 m ρ c b
/-- After region 5: its windows' arrays at what the pipeline leaves, every other buffer as entered. -/
def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb
abbrev V18 : (c : Dev nD) → (b : Ref sig .tc) → Buf (Elt F) ((c : Thread nD τ).loc b) := fun c b => W18 m ρ c b
theorem hF5 (c : Dev nD) (w : Fin cfg5.W) : (dat5 (V17 m ρ) c).arrAt w cfg5.N = V18 m ρ c (Pipeline.arrRef spec5 w) :=
  (W18_arr m ρ c w).symm
theorem hrest5 (c : Dev nD) : ∀ b, b ∉ Finset.univ.image (Pipeline.arrRef spec5) → V18 m ρ c b = V17 m ρ c b :=
  fun b hb => W18_of_ne m ρ c b fun w e => hb (Finset.mem_image.mpr ⟨w, Finset.mem_univ _, e⟩)
/-- Region 5 changes only its output array `main_v195`: an input window's array is never written back, and a buffer
    that is no window's array is not touched. -/
theorem keep18 (c : Dev nD) (r : Ref sig .tc) (h : r ≠ main_v195) : W18 m ρ c (Proc.devRef .tc r) = W17 m ρ c (Proc.devRef .tc r) := by
  by_cases hw : ∃ w, Pipeline.arrRef spec5 w = r
  · obtain ⟨w, rfl⟩ := hw
    have hin : (cfg5.win w).isOut = false := by
      match w with
      | ⟨0, _⟩ => rfl
      | ⟨1, _⟩ => rfl
      | ⟨2, _⟩ => rfl
      | ⟨3, _⟩ => rfl
      | ⟨4, _⟩ => exact absurd rfl h
    exact (W18_arr m ρ c w).trans (((dat5 (V17 m ρ) c).arrAt_in w hin _).trans (A_eq5 (V17 m ρ) c w))
  · exact W18_of_ne m ρ c r (fun w e => hw ⟨w, e⟩)

/-- After region 6: its windows' arrays at what the pipeline leaves, every other buffer as entered. -/
def W19 (c : Dev nD) : Valuation τ sig (Elt F) :=
  Pipeline.withArrays spec6 c (W18 m ρ c) fun w => (dat6 (V18 m ρ) c).arrAt w cfg6.N
theorem W19_arr (c : Dev nD) (w : Fin cfg6.W) :
    W19 m ρ c (Proc.devRef .tc (Pipeline.arrRef spec6 w)) = (dat6 (V18 m ρ) c).arrAt w cfg6.N := by
  unfold W19; exact Pipeline.withArrays_arr spec6 launch6.win.arr_inj c _ _ w
theorem W19_of_ne (c : Dev nD) (b : Ref sig .tc) (hb : ∀ w, Pipeline.arrRef spec6 w ≠ b) :
    W19 m ρ c (Proc.devRef .tc b) = W18 m ρ c (Proc.devRef .tc b) := by
  unfold W19; exact Pipeline.withArrays_of_ne spec6 c _ _ b hb
abbrev V19 : (c : Dev nD) → (b : Ref sig .tc) → Buf (Elt F) ((c : Thread nD τ).loc b) := fun c b => W19 m ρ c b
theorem hF6 (c : Dev nD) (w : Fin cfg6.W) : (dat6 (V18 m ρ) c).arrAt w cfg6.N = V19 m ρ c (Pipeline.arrRef spec6 w) :=
  (W19_arr m ρ c w).symm
theorem hrest6 (c : Dev nD) : ∀ b, b ∉ Finset.univ.image (Pipeline.arrRef spec6) → V19 m ρ c b = V18 m ρ c b :=
  fun b hb => W19_of_ne m ρ c b fun w e => hb (Finset.mem_image.mpr ⟨w, Finset.mem_univ _, e⟩)
/-- Region 6 changes only its output array `main_v196`: an input window's array is never written back, and a buffer
    that is no window's array is not touched. -/
theorem keep19 (c : Dev nD) (r : Ref sig .tc) (h : r ≠ main_v196) : W19 m ρ c (Proc.devRef .tc r) = W18 m ρ c (Proc.devRef .tc r) := by
  by_cases hw : ∃ w, Pipeline.arrRef spec6 w = r
  · obtain ⟨w, rfl⟩ := hw
    have hin : (cfg6.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl h
    exact (W19_arr m ρ c w).trans (((dat6 (V18 m ρ) c).arrAt_in w hin _).trans (A_eq6 (V18 m ρ) c w))
  · exact W19_of_ne m ρ c r (fun w e => hw ⟨w, e⟩)

/-- After region 7: its windows' arrays at what the pipeline leaves, every other buffer as entered. -/
def W20 (c : Dev nD) : Valuation τ sig (Elt F) :=
  Pipeline.withArrays spec7 c (W19 m ρ c) fun w => (dat7 (V19 m ρ) c).arrAt w cfg7.N
theorem W20_arr (c : Dev nD) (w : Fin cfg7.W) :
    W20 m ρ c (Proc.devRef .tc (Pipeline.arrRef spec7 w)) = (dat7 (V19 m ρ) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) := by
  unfold W20; exact Pipeline.withArrays_of_ne spec7 c _ _ b hb
abbrev V20 : (c : Dev nD) → (b : Ref sig .tc) → Buf (Elt F) ((c : Thread nD τ).loc b) := fun c b => W20 m ρ c b
theorem hF7 (c : Dev nD) (w : Fin cfg7.W) : (dat7 (V19 m ρ) c).arrAt w cfg7.N = V20 m ρ c (Pipeline.arrRef spec7 w) :=
  (W20_arr m ρ c w).symm
theorem hrest7 (c : Dev nD) : ∀ b, b ∉ Finset.univ.image (Pipeline.arrRef spec7) → V20 m ρ c b = V19 m ρ c b :=
  fun b hb => W20_of_ne m ρ c b fun w e => hb (Finset.mem_image.mpr ⟨w, Finset.mem_univ _, e⟩)
/-- Region 7 changes only its output array `main_v197`: an input window's array is never written back, and a buffer
    that is no window's array is not touched. -/
theorem keep20 (c : Dev nD) (r : Ref sig .tc) (h : r ≠ main_v197) : W20 m ρ c (Proc.devRef .tc r) = W19 m ρ c (Proc.devRef .tc r) := by
  by_cases hw : ∃ w, Pipeline.arrRef spec7 w = r
  · obtain ⟨w, rfl⟩ := hw
    have hin : (cfg7.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl h
    exact (W20_arr m ρ c w).trans (((dat7 (V19 m ρ) c).arrAt_in w hin _).trans (A_eq7 (V19 m ρ) c w))
  · exact W20_of_ne m ρ c r (fun w e => hw ⟨w, e⟩)

/-- After region 8: its windows' arrays at what the pipeline leaves, every other buffer as entered. -/
def W21 (c : Dev nD) : Valuation τ sig (Elt F) :=
  Pipeline.withArrays spec8 c (W20 m ρ c) fun w => (dat8 (V20 m ρ) c).arrAt w cfg8.N
theorem W21_arr (c : Dev nD) (w : Fin cfg8.W) :
    W21 m ρ c (Proc.devRef .tc (Pipeline.arrRef spec8 w)) = (dat8 (V20 m ρ) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m ρ c (Proc.devRef .tc b) = W20 m ρ c (Proc.devRef .tc b) := by
  unfold W21; exact Pipeline.withArrays_of_ne spec8 c _ _ b hb
abbrev V21 : (c : Dev nD) → (b : Ref sig .tc) → Buf (Elt F) ((c : Thread nD τ).loc b) := fun c b => W21 m ρ c b
theorem hF8 (c : Dev nD) (w : Fin cfg8.W) : (dat8 (V20 m ρ) c).arrAt w cfg8.N = V21 m ρ c (Pipeline.arrRef spec8 w) :=
  (W21_arr m ρ c w).symm
theorem hrest8 (c : Dev nD) : ∀ b, b ∉ Finset.univ.image (Pipeline.arrRef spec8) → V21 m ρ c b = V20 m ρ c b :=
  fun b hb => W21_of_ne m ρ c b fun w e => hb (Finset.mem_image.mpr ⟨w, Finset.mem_univ _, e⟩)
/-- Region 8 changes only its output array `main_v198`: an input window's array is never written back, and a buffer
    that is no window's array is not touched. -/
theorem keep21 (c : Dev nD) (r : Ref sig .tc) (h : r ≠ main_v198) : W21 m ρ c (Proc.devRef .tc r) = W20 m ρ c (Proc.devRef .tc r) := by
  by_cases hw : ∃ w, Pipeline.arrRef spec8 w = r
  · obtain ⟨w, rfl⟩ := hw
    have hin : (cfg8.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl h
    exact (W21_arr m ρ c w).trans (((dat8 (V20 m ρ) c).arrAt_in w hin _).trans (A_eq8 (V20 m ρ) c w))
  · exact W21_of_ne m ρ c r (fun w e => hw ⟨w, e⟩)

/-- After region 9: its windows' arrays at what the pipeline leaves, every other buffer as entered. -/
def W22 (c : Dev nD) : Valuation τ sig (Elt F) :=
  Pipeline.withArrays spec9 c (W21 m ρ c) fun w => (dat9 (V21 m ρ) c).arrAt w cfg9.N
theorem W22_arr (c : Dev nD) (w : Fin cfg9.W) :
    W22 m ρ c (Proc.devRef .tc (Pipeline.arrRef spec9 w)) = (dat9 (V21 m ρ) c).arrAt w cfg9.N := by
  unfold W22; exact Pipeline.withArrays_arr spec9 launch9.win.arr_inj c _ _ w
theorem W22_of_ne (c : Dev nD) (b : Ref sig .tc) (hb : ∀ w, Pipeline.arrRef spec9 w ≠ b) :
    W22 m ρ c (Proc.devRef .tc b) = W21 m ρ c (Proc.devRef .tc b) := by
  unfold W22; exact Pipeline.withArrays_of_ne spec9 c _ _ b hb
abbrev V22 : (c : Dev nD) → (b : Ref sig .tc) → Buf (Elt F) ((c : Thread nD τ).loc b) := fun c b => W22 m ρ c b
theorem hF9 (c : Dev nD) (w : Fin cfg9.W) : (dat9 (V21 m ρ) c).arrAt w cfg9.N = V22 m ρ c (Pipeline.arrRef spec9 w) :=
  (W22_arr m ρ c w).symm
theorem hrest9 (c : Dev nD) : ∀ b, b ∉ Finset.univ.image (Pipeline.arrRef spec9) → V22 m ρ c b = V21 m ρ c b :=
  fun b hb => W22_of_ne m ρ c b fun w e => hb (Finset.mem_image.mpr ⟨w, Finset.mem_univ _, e⟩)
/-- Region 9 changes only its output array `main_v199`: an input window's array is never written back, and a buffer
    that is no window's array is not touched. -/
theorem keep22 (c : Dev nD) (r : Ref sig .tc) (h : r ≠ main_v199) : W22 m ρ c (Proc.devRef .tc r) = W21 m ρ c (Proc.devRef .tc r) := by
  by_cases hw : ∃ w, Pipeline.arrRef spec9 w = r
  · obtain ⟨w, rfl⟩ := hw
    have hin : (cfg9.win w).isOut = false := by
      match w with
      | ⟨0, _⟩ => rfl
      | ⟨1, _⟩ => rfl
      | ⟨2, _⟩ => rfl
      | ⟨3, _⟩ => rfl
      | ⟨4, _⟩ => exact absurd rfl h
    exact (W22_arr m ρ c w).trans (((dat9 (V21 m ρ) c).arrAt_in w hin _).trans (A_eq9 (V21 m ρ) c w))
  · exact W22_of_ne m ρ c r (fun w e => hw ⟨w, e⟩)

/-- Every buffer some item of @main writes. -/
abbrev written : List (Ref sig .tc) := [main_v0, main_v1, main_v2, main_v3, main_v4, main_c, main_call0_v0, main_v5, main_v6, main_v7, main_v8, main_v9, main_v10, main_c_0, main_call1_v0, main_v11, main_v12, main_v13, main_v14, main_v15, main_v16, main_c_1, main_call2_v0, main_v17, main_v18, main_v19, main_v20, main_v21, main_v22, main_v23, main_v24, main_v25, main_v26, main_c_2, main_v27, main_v28, main_c_3, main_v29, main_v30, main_v31, main_v32, main_v33, main_v34, main_v35, main_cst, main_v36, main_v37, main_v38, main_v39, main_c_4, main_v40, main_v41, main_c_5, main_v42, main_v43, main_v44, main_v45, main_v46, main_v47, main_v48, main_cst_6, main_v49, main_v50, main_v51, main_v52, main_c_7, main_v53, main_v54, main_c_8, main_v55, main_v56, main_v57, main_v58, main_v59, main_v60, main_v61, main_cst_9, main_v62, main_v63, main_v64, main_v65, main_c_10, main_v66, main_v67, main_c_11, main_v68, main_v69, main_v70, main_v71, main_v72, main_v73, main_v74, main_cst_12, main_v75, main_v76, main_v77, main_v78, main_c_13, main_v79, main_v80, main_c_14, main_v81, main_v82, main_v83, main_v84, main_v85, main_v86, main_v87, main_cst_15, main_v88, main_v89, main_v90, main_v91, main_c_16, main_v92, main_v93, main_c_17, main_v94, main_v95, main_v96, main_v97, main_v98, main_v99, main_v100, main_cst_18, main_v101, main_v102, main_v103, main_v104, main_c_19, main_v105, main_v106, main_c_20, main_v107, main_v108, main_v109, main_v110, main_v111, main_v112, main_v113, main_cst_21, main_v114, main_v115, main_v116, main_v117, main_c_22, main_v118, main_v119, main_c_23, main_v120, main_v121, main_v122, main_v123, main_v124, main_v125, main_v126, main_cst_24, main_v127, main_v128, main_v129, main_v130, main_c_25, main_v131, main_v132, main_c_26, main_v133, main_v134, main_v135, main_v136, main_v137, main_v138, main_v139, main_cst_27, main_v140, main_v141, main_v142, main_v143, main_c_28, main_v144, main_v145, main_c_29, main_v146, main_v147, main_v148, main_v149, main_v150, main_v151, main_v152, main_cst_30, main_v153, main_v154, main_v155, main_v156, main_c_31, main_v157, main_v158, main_c_32, main_v159, main_v160, main_v161, main_v162, main_v163, main_v164, main_v165, main_cst_33, main_v166, main_v167, main_v168, main_v169, main_c_34, main_v170, main_v171, main_c_35, main_v172, main_v173, main_v174, main_v175, main_v176, main_v177, main_v178, main_cst_36, main_v179, main_v180, main_v181, main_v182, main_c_37, main_v183, main_v184, main_c_38, main_v185, main_v186, main_v187, main_v188, main_v189, main_v190, main_v191, main_cst_39, main_v192, main_v193, main_v194, main_v195, main_v196, main_v197, main_v198, main_v199]

theorem wl1_sub : wl1 ⊆ (written : List (Ref sig .tc)) := by decide
theorem out2_mem : main_v1 ∈ (written : List (Ref sig .tc)) := by decide
theorem wl3_sub : wl3 ⊆ (written : List (Ref sig .tc)) := by decide
theorem wl4_sub : wl4 ⊆ (written : List (Ref sig .tc)) := by decide
theorem out5_mem : main_v6 ∈ (written : List (Ref sig .tc)) := by decide
theorem wl6_sub : wl6 ⊆ (written : List (Ref sig .tc)) := by decide
theorem wl7_sub : wl7 ⊆ (written : List (Ref sig .tc)) := by decide
theorem out8_mem : main_v12 ∈ (written : List (Ref sig .tc)) := by decide
theorem wl9_sub : wl9 ⊆ (written : List (Ref sig .tc)) := by decide
theorem wl10_sub : wl10 ⊆ (written : List (Ref sig .tc)) := by decide
theorem out11_mem : main_v18 ∈ (written : List (Ref sig .tc)) := by decide
theorem wl12_sub : wl12 ⊆ (written : List (Ref sig .tc)) := by decide
theorem out13_mem : main_v23 ∈ (written : List (Ref sig .tc)) := by decide
theorem wl14_sub : wl14 ⊆ (written : List (Ref sig .tc)) := by decide
theorem wl15_sub : wl15 ⊆ (written : List (Ref sig .tc)) := by decide
theorem wl16_sub : wl16 ⊆ (written : List (Ref sig .tc)) := by decide
theorem wl17_sub : wl17 ⊆ (written : List (Ref sig .tc)) := by decide
theorem out18_mem : main_v195 ∈ (written : List (Ref sig .tc)) := by decide
theorem out19_mem : main_v196 ∈ (written : List (Ref sig .tc)) := by decide
theorem out20_mem : main_v197 ∈ (written : List (Ref sig .tc)) := by decide
theorem out21_mem : main_v198 ∈ (written : List (Ref sig .tc)) := by decide
theorem out22_mem : main_v199 ∈ (written : List (Ref sig .tc)) := by decide

/-- A buffer no item writes holds at every boundary what the launch memory held. -/
theorem W0_unwritten (c : Dev nD) (r : Ref sig .tc) (h : r ∉ (written : List (Ref sig .tc))) :
    W0 m ρ c (Proc.devRef .tc r) = m ((c : Thread nD τ).loc r) := rfl
theorem W1_unwritten (c : Dev nD) (r : Ref sig .tc) (h : r ∉ (written : List (Ref sig .tc))) :
    W1 m ρ c (Proc.devRef .tc r) = m ((c : Thread nD τ).loc r) := (keep1 m ρ c r (fun hm => h (wl1_sub hm))).trans (W0_unwritten m ρ c r h)
theorem W2_unwritten (c : Dev nD) (r : Ref sig .tc) (h : r ∉ (written : List (Ref sig .tc))) :
    W2 m ρ c (Proc.devRef .tc r) = m ((c : Thread nD τ).loc r) := (keep2 m ρ c r (fun e => h (e ▸ out2_mem))).trans (W1_unwritten m ρ c r h)
theorem W3_unwritten (c : Dev nD) (r : Ref sig .tc) (h : r ∉ (written : List (Ref sig .tc))) :
    W3 m ρ c (Proc.devRef .tc r) = m ((c : Thread nD τ).loc r) := (keep3 m ρ c r (fun hm => h (wl3_sub hm))).trans (W2_unwritten m ρ c r h)
theorem W4_unwritten (c : Dev nD) (r : Ref sig .tc) (h : r ∉ (written : List (Ref sig .tc))) :
    W4 m ρ c (Proc.devRef .tc r) = m ((c : Thread nD τ).loc r) := (keep4 m ρ c r (fun hm => h (wl4_sub hm))).trans (W3_unwritten m ρ c r h)
theorem W5_unwritten (c : Dev nD) (r : Ref sig .tc) (h : r ∉ (written : List (Ref sig .tc))) :
    W5 m ρ c (Proc.devRef .tc r) = m ((c : Thread nD τ).loc r) := (keep5 m ρ c r (fun e => h (e ▸ out5_mem))).trans (W4_unwritten m ρ c r h)
theorem W6_unwritten (c : Dev nD) (r : Ref sig .tc) (h : r ∉ (written : List (Ref sig .tc))) :
    W6 m ρ c (Proc.devRef .tc r) = m ((c : Thread nD τ).loc r) := (keep6 m ρ c r (fun hm => h (wl6_sub hm))).trans (W5_unwritten m ρ c r h)
theorem W7_unwritten (c : Dev nD) (r : Ref sig .tc) (h : r ∉ (written : List (Ref sig .tc))) :
    W7 m ρ c (Proc.devRef .tc r) = m ((c : Thread nD τ).loc r) := (keep7 m ρ c r (fun hm => h (wl7_sub hm))).trans (W6_unwritten m ρ c r h)
theorem W8_unwritten (c : Dev nD) (r : Ref sig .tc) (h : r ∉ (written : List (Ref sig .tc))) :
    W8 m ρ c (Proc.devRef .tc r) = m ((c : Thread nD τ).loc r) := (keep8 m ρ c r (fun e => h (e ▸ out8_mem))).trans (W7_unwritten m ρ c r h)
theorem W9_unwritten (c : Dev nD) (r : Ref sig .tc) (h : r ∉ (written : List (Ref sig .tc))) :
    W9 m ρ c (Proc.devRef .tc r) = m ((c : Thread nD τ).loc r) := (keep9 m ρ c r (fun hm => h (wl9_sub hm))).trans (W8_unwritten m ρ c r h)
theorem W10_unwritten (c : Dev nD) (r : Ref sig .tc) (h : r ∉ (written : List (Ref sig .tc))) :
    W10 m ρ c (Proc.devRef .tc r) = m ((c : Thread nD τ).loc r) := (keep10 m ρ c r (fun hm => h (wl10_sub hm))).trans (W9_unwritten m ρ c r h)
theorem W11_unwritten (c : Dev nD) (r : Ref sig .tc) (h : r ∉ (written : List (Ref sig .tc))) :
    W11 m ρ c (Proc.devRef .tc r) = m ((c : Thread nD τ).loc r) := (keep11 m ρ c r (fun e => h (e ▸ out11_mem))).trans (W10_unwritten m ρ c r h)
theorem W12_unwritten (c : Dev nD) (r : Ref sig .tc) (h : r ∉ (written : List (Ref sig .tc))) :
    W12 m ρ c (Proc.devRef .tc r) = m ((c : Thread nD τ).loc r) := (keep12 m ρ c r (fun hm => h (wl12_sub hm))).trans (W11_unwritten m ρ c r h)
theorem W13_unwritten (c : Dev nD) (r : Ref sig .tc) (h : r ∉ (written : List (Ref sig .tc))) :
    W13 m ρ c (Proc.devRef .tc r) = m ((c : Thread nD τ).loc r) := (keep13 m ρ c r (fun e => h (e ▸ out13_mem))).trans (W12_unwritten m ρ c r h)
theorem W14_unwritten (c : Dev nD) (r : Ref sig .tc) (h : r ∉ (written : List (Ref sig .tc))) :
    W14 m ρ c (Proc.devRef .tc r) = m ((c : Thread nD τ).loc r) := (keep14 m ρ c r (fun hm => h (wl14_sub hm))).trans (W13_unwritten m ρ c r h)
theorem W15_unwritten (c : Dev nD) (r : Ref sig .tc) (h : r ∉ (written : List (Ref sig .tc))) :
    W15 m ρ c (Proc.devRef .tc r) = m ((c : Thread nD τ).loc r) := (keep15 m ρ c r (fun hm => h (wl15_sub hm))).trans (W14_unwritten m ρ c r h)
theorem W16_unwritten (c : Dev nD) (r : Ref sig .tc) (h : r ∉ (written : List (Ref sig .tc))) :
    W16 m ρ c (Proc.devRef .tc r) = m ((c : Thread nD τ).loc r) := (keep16 m ρ c r (fun hm => h (wl16_sub hm))).trans (W15_unwritten m ρ c r h)
theorem W17_unwritten (c : Dev nD) (r : Ref sig .tc) (h : r ∉ (written : List (Ref sig .tc))) :
    W17 m ρ c (Proc.devRef .tc r) = m ((c : Thread nD τ).loc r) := (keep17 m ρ c r (fun hm => h (wl17_sub hm))).trans (W16_unwritten m ρ c r h)
theorem W18_unwritten (c : Dev nD) (r : Ref sig .tc) (h : r ∉ (written : List (Ref sig .tc))) :
    W18 m ρ c (Proc.devRef .tc r) = m ((c : Thread nD τ).loc r) := (keep18 m ρ c r (fun e => h (e ▸ out18_mem))).trans (W17_unwritten m ρ c r h)
theorem W19_unwritten (c : Dev nD) (r : Ref sig .tc) (h : r ∉ (written : List (Ref sig .tc))) :
    W19 m ρ c (Proc.devRef .tc r) = m ((c : Thread nD τ).loc r) := (keep19 m ρ c r (fun e => h (e ▸ out19_mem))).trans (W18_unwritten m ρ c r h)
theorem W20_unwritten (c : Dev nD) (r : Ref sig .tc) (h : r ∉ (written : List (Ref sig .tc))) :
    W20 m ρ c (Proc.devRef .tc r) = m ((c : Thread nD τ).loc r) := (keep20 m ρ c r (fun e => h (e ▸ out20_mem))).trans (W19_unwritten m ρ c r h)
theorem W21_unwritten (c : Dev nD) (r : Ref sig .tc) (h : r ∉ (written : List (Ref sig .tc))) :
    W21 m ρ c (Proc.devRef .tc r) = m ((c : Thread nD τ).loc r) := (keep21 m ρ c r (fun e => h (e ▸ out21_mem))).trans (W20_unwritten m ρ c r h)
theorem W22_unwritten (c : Dev nD) (r : Ref sig .tc) (h : r ∉ (written : List (Ref sig .tc))) :
    W22 m ρ c (Proc.devRef .tc r) = m ((c : Thread nD τ).loc r) := (keep22 m ρ c r (fun e => h (e ▸ out22_mem))).trans (W21_unwritten m ρ c r h)

end Cert.KernelIdeal.Fr

end
-- ==== Proof.KI.Segs.lean ====
/-
  @main as a list of segments — one per stretch of host operations, one per pallas_call — over the thread state
  "every unscoped buffer at the boundary's contents, the generator register at some state, nothing owed", and the
  run: from any launch memory with zero counters every weakly fair execution of @main terminates without a fault, and
  the final memory holds every unscoped buffer at the last boundary's contents.
-/
import proofs.«140264_j78443282694634_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pallas_call has a prefetched table. -/
abbrev adm : (p : Fin 10) → (pcfgs (F := F) p).Adm := fun p => (cfgs p).toPCfg_adm
/-- Every pipeline's proof data, each at the contents its region is entered with. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V7 m ρ) c
  | ⟨3, _⟩ => fun c => dat3 (V10 m ρ) c
  | ⟨4, _⟩ => fun c => dat4 (V12 m ρ) c
  | ⟨5, _⟩ => fun c => dat5 (V17 m ρ) c
  | ⟨6, _⟩ => fun c => dat6 (V18 m ρ) c
  | ⟨7, _⟩ => fun c => dat7 (V19 m ρ) c
  | ⟨8, _⟩ => fun c => dat8 (V20 m ρ) c
  | ⟨9, _⟩ => fun c => dat9 (V21 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W22 m ρ c) ∗ ∃ r, prngReg c r)

set_option backward.isDefEq.respectTransparency.types false in
/-- Region 0 over the thread state: entered with every unscoped buffer at `W1`, left at `W2`. Its windows' arrays
    are split out of the unscoped buffers at entry and put back at the exit contents; the generator register goes into
    the pipeline's invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W4`, left at `W5`. Its windows' arrays
    are split out of the unscoped buffers at entry and put back at the exit contents; the generator register goes into
    the pipeline's invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left at `W8`. Its windows' arrays
    are split out of the unscoped buffers at entry and put back at the exit contents; the generator register goes into
    the pipeline's invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W10`, left at `W11`. Its windows' arrays
    are split out of the unscoped buffers at entry and put back at the exit contents; the generator register goes into
    the pipeline's invariant and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W12`, left at `W13`. Its windows' arrays
    are split out of the unscoped buffers at entry and put back at the exit contents; the generator register goes into
    the pipeline's invariant and comes out; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W17`, left at `W18`. Its windows' arrays
    are split out of the unscoped buffers at entry and put back at the exit contents; the generator register goes into
    the pipeline's invariant and comes out; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V17 m ρ) c).loose
  hwaits := Pipeline.hwaits_of_owed_zero _ _ _ _ L lv 5 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec5 c (V17 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V17 m ρ c) (V18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `W18`, left at `W19`. Its windows' arrays
    are split out of the unscoped buffers at entry and put back at the exit contents; the generator register goes into
    the pipeline's invariant and comes out; nothing is owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V18 m ρ) c).loose
  hwaits := Pipeline.hwaits_of_owed_zero _ _ _ _ L lv 6 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec6 c (V18 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V18 m ρ c) (V19 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered with every unscoped buffer at `W19`, left at `W20`. Its windows' arrays
    are split out of the unscoped buffers at entry and put back at the exit contents; the generator register goes into
    the pipeline's invariant and comes out; nothing is owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V19 m ρ) c).loose
  hwaits := Pipeline.hwaits_of_owed_zero _ _ _ _ L lv 7 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec7 c (V19 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V19 m ρ c) (V20 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered with every unscoped buffer at `W20`, left at `W21`. Its windows' arrays
    are split out of the unscoped buffers at entry and put back at the exit contents; the generator register goes into
    the pipeline's invariant and comes out; nothing is owed. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V20 m ρ) c).loose
  hwaits := Pipeline.hwaits_of_owed_zero _ _ _ _ L lv 8 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec8 c (V20 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V20 m ρ c) (V21 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered with every unscoped buffer at `W21`, left at `W22`. Its windows' arrays
    are split out of the unscoped buffers at entry and put back at the exit contents; the generator register goes into
    the pipeline's invariant and comes out; nothing is owed. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V21 m ρ) c).loose
  hwaits := Pipeline.hwaits_of_owed_zero _ _ _ _ L lv 9 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V21 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V21 m ρ c) (V22 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's 22 segments in order. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .host (hseg main_part0_ops2 main_part0_ops2_sub main_part0_ops2_fresh (W3 m ρ)),
    .region (reg1 m ρ),
    .host (hseg main_part0_ops3 main_part0_ops3_sub main_part0_ops3_fresh (W5 m ρ)),
    .host (hseg main_part0_ops4 main_part0_ops4_sub main_part0_ops4_fresh (W6 m ρ)),
    .region (reg2 m ρ),
    .host (hseg main_part0_ops5 main_part0_ops5_sub main_part0_ops5_fresh (W8 m ρ)),
    .host (hseg main_part0_ops6 main_part0_ops6_sub main_part0_ops6_fresh (W9 m ρ)),
    .region (reg3 m ρ),
    .host (hseg main_part0_ops7 main_part0_ops7_sub main_part0_ops7_fresh (W11 m ρ)),
    .region (reg4 m ρ),
    .host (hseg main_part0_ops8 main_part0_ops8_sub main_part0_ops8_fresh (W13 m ρ)),
    .host (hseg main_part1_ops0 main_part1_ops0_sub main_part1_ops0_fresh (W14 m ρ)),
    .host (hseg main_part2_ops0 main_part2_ops0_sub main_part2_ops0_fresh (W15 m ρ)),
    .host (hseg main_part3_ops0 main_part3_ops0_sub main_part3_ops0_fresh (W16 m ρ)),
    .region (reg5 m ρ),
    .region (reg6 m ρ),
    .region (reg7 m ρ),
    .region (reg8 m ρ),
    .region (reg9 m ρ) ]
/-- @main is the run of the segments. -/
theorem main_run (c : Dev nD) : main (F := F) c = Pipeline.Seg.run (segs m ρ) := (main_chain_windows c).trans (by chain_rfl)

set_option backward.isDefEq.respectTransparency.types false in
/-- THE RUN. From any memory with zero counters every weakly fair execution of @main on the TensorCores terminates,
    nothing faulting, and the final memory holds every unscoped buffer at the last boundary's contents `W22`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

end Cert.KernelIdeal.Fr

end
-- ==== Proof.KI.Frame.lean ====
/-
  The frame of @main: every weakly fair execution terminates without a fault and every argument array ends as
  launched (no item of @main writes an argument); and the same run with the five result buffers named at the last
  boundary's contents.
-/
import proofs.«140264_j78443282694634_2_alg».proof.Proof.KI.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)) :=
  (θ_run defs _ _).mono (fun r h c =>
      ⟨(h c _ (mem_uc main_arg0 (by decide))).trans (W22_unwritten m ρ c main_arg0 (by decide)),
      ⟨(h c _ (mem_uc main_arg1 (by decide))).trans (W22_unwritten m ρ c main_arg1 (by decide)),
      ⟨(h c _ (mem_uc main_arg2 (by decide))).trans (W22_unwritten m ρ c main_arg2 (by decide)),
      ⟨(h c _ (mem_uc main_arg3 (by decide))).trans (W22_unwritten m ρ c main_arg3 (by decide)),
      ⟨(h c _ (mem_uc main_arg4 (by decide))).trans (W22_unwritten m ρ c main_arg4 (by decide)),
      ⟨(h c _ (mem_uc main_arg5 (by decide))).trans (W22_unwritten m ρ c main_arg5 (by decide)),
      ⟨(h c _ (mem_uc main_arg6 (by decide))).trans (W22_unwritten m ρ c main_arg6 (by decide)),
      ⟨(h c _ (mem_uc main_arg7 (by decide))).trans (W22_unwritten m ρ c main_arg7 (by decide)),
      ⟨(h c _ (mem_uc main_arg8 (by decide))).trans (W22_unwritten m ρ c main_arg8 (by decide)),
      ⟨(h c _ (mem_uc main_arg9 (by decide))).trans (W22_unwritten m ρ c main_arg9 (by decide)),
      ⟨(h c _ (mem_uc main_arg10 (by decide))).trans (W22_unwritten m ρ c main_arg10 (by decide)),
      ⟨(h c _ (mem_uc main_arg11 (by decide))).trans (W22_unwritten m ρ c main_arg11 (by decide)),
      ⟨(h c _ (mem_uc main_arg12 (by decide))).trans (W22_unwritten m ρ c main_arg12 (by decide)),
      ⟨(h c _ (mem_uc main_arg13 (by decide))).trans (W22_unwritten m ρ c main_arg13 (by decide)),
      ⟨(h c _ (mem_uc main_arg14 (by decide))).trans (W22_unwritten m ρ c main_arg14 (by decide)),
      ⟨(h c _ (mem_uc main_arg15 (by decide))).trans (W22_unwritten m ρ c main_arg15 (by decide)),
      ⟨(h c _ (mem_uc main_arg16 (by decide))).trans (W22_unwritten m ρ c main_arg16 (by decide)),
      ⟨(h c _ (mem_uc main_arg17 (by decide))).trans (W22_unwritten m ρ c main_arg17 (by decide)),
      ⟨(h c _ (mem_uc main_arg18 (by decide))).trans (W22_unwritten m ρ c main_arg18 (by decide)),
      ⟨(h c _ (mem_uc main_arg19 (by decide))).trans (W22_unwritten m ρ c main_arg19 (by decide)),
      ⟨(h c _ (mem_uc main_arg20 (by decide))).trans (W22_unwritten m ρ c main_arg20 (by decide)),
      ⟨(h c _ (mem_uc main_arg21 (by decide))).trans (W22_unwritten m ρ c main_arg21 (by decide)),
      ⟨(h c _ (mem_uc main_arg22 (by decide))).trans (W22_unwritten m ρ c main_arg22 (by decide)),
      ⟨(h c _ (mem_uc main_arg23 (by decide))).trans (W22_unwritten m ρ c main_arg23 (by decide)),
      ⟨(h c _ (mem_uc main_arg24 (by decide))).trans (W22_unwritten m ρ c main_arg24 (by decide)),
      ⟨(h c _ (mem_uc main_arg25 (by decide))).trans (W22_unwritten m ρ c main_arg25 (by decide)),
      ⟨(h c _ (mem_uc main_arg26 (by decide))).trans (W22_unwritten m ρ c main_arg26 (by decide)),
      ⟨(h c _ (mem_uc main_arg27 (by decide))).trans (W22_unwritten m ρ c main_arg27 (by decide)),
      ⟨(h c _ (mem_uc main_arg28 (by decide))).trans (W22_unwritten m ρ c main_arg28 (by decide)),
      ⟨(h c _ (mem_uc main_arg29 (by decide))).trans (W22_unwritten m ρ c main_arg29 (by decide)),
      ⟨(h c _ (mem_uc main_arg30 (by decide))).trans (W22_unwritten m ρ c main_arg30 (by decide)),
      ⟨(h c _ (mem_uc main_arg31 (by decide))).trans (W22_unwritten m ρ c main_arg31 (by decide)),
      ⟨(h c _ (mem_uc main_arg32 (by decide))).trans (W22_unwritten m ρ c main_arg32 (by decide)),
      ⟨(h c _ (mem_uc main_arg33 (by decide))).trans (W22_unwritten m ρ c main_arg33 (by decide)),
      ⟨(h c _ (mem_uc main_arg34 (by decide))).trans (W22_unwritten m ρ c main_arg34 (by decide)),
      ⟨(h c _ (mem_uc main_arg35 (by decide))).trans (W22_unwritten m ρ c main_arg35 (by decide)),
      ⟨(h c _ (mem_uc main_arg36 (by decide))).trans (W22_unwritten m ρ c main_arg36 (by decide)),
      ⟨(h c _ (mem_uc main_arg37 (by decide))).trans (W22_unwritten m ρ c main_arg37 (by decide)),
      ⟨(h c _ (mem_uc main_arg38 (by decide))).trans (W22_unwritten m ρ c main_arg38 (by decide)),
      ⟨(h c _ (mem_uc main_arg39 (by decide))).trans (W22_unwritten m ρ c main_arg39 (by decide)),
      ⟨(h c _ (mem_uc main_arg40 (by decide))).trans (W22_unwritten m ρ c main_arg40 (by decide)),
      ⟨(h c _ (mem_uc main_arg41 (by decide))).trans (W22_unwritten m ρ c main_arg41 (by decide)),
      ⟨(h c _ (mem_uc main_arg42 (by decide))).trans (W22_unwritten m ρ c main_arg42 (by decide)),
      ⟨(h c _ (mem_uc main_arg43 (by decide))).trans (W22_unwritten m ρ c main_arg43 (by decide)),
      ⟨(h c _ (mem_uc main_arg44 (by decide))).trans (W22_unwritten m ρ c main_arg44 (by decide)),
      ⟨(h c _ (mem_uc main_arg45 (by decide))).trans (W22_unwritten m ρ c main_arg45 (by decide)),
      ⟨(h c _ (mem_uc main_arg46 (by decide))).trans (W22_unwritten m ρ c main_arg46 (by decide)),
      ⟨(h c _ (mem_uc main_arg47 (by decide))).trans (W22_unwritten m ρ c main_arg47 (by decide)),
      ⟨(h c _ (mem_uc main_arg48 (by decide))).trans (W22_unwritten m ρ c main_arg48 (by decide)),
      ⟨(h c _ (mem_uc main_arg49 (by decide))).trans (W22_unwritten m ρ c main_arg49 (by decide)),
      ⟨(h c _ (mem_uc main_arg50 (by decide))).trans (W22_unwritten m ρ c main_arg50 (by decide)),
      ⟨(h c _ (mem_uc main_arg51 (by decide))).trans (W22_unwritten m ρ c main_arg51 (by decide)),
      ⟨(h c _ (mem_uc main_arg52 (by decide))).trans (W22_unwritten m ρ c main_arg52 (by decide)),
      ⟨(h c _ (mem_uc main_arg53 (by decide))).trans (W22_unwritten m ρ c main_arg53 (by decide)),
      (h c _ (mem_uc main_arg54 (by decide))).trans (W22_unwritten m ρ c main_arg54 (by decide))⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩) (run_all m ρ)

/-- The run with the results named: each result buffer ends at the last boundary's contents, the arguments as launched. -/
theorem run_results : θ_run defs (onTc (τ := τ) (main (F := F))) ⟨m, fun _ => 0, ρ⟩ (fun r => ∀ c : Dev nD,
      r.2.mem ((c.tc : Thread nD τ).loc main_v195) = W22 m ρ c (Proc.devRef .tc main_v195)
      ∧ r.2.mem ((c.tc : Thread nD τ).loc main_v196) = W22 m ρ c (Proc.devRef .tc main_v196)
      ∧ r.2.mem ((c.tc : Thread nD τ).loc main_v197) = W22 m ρ c (Proc.devRef .tc main_v197)
      ∧ r.2.mem ((c.tc : Thread nD τ).loc main_v198) = W22 m ρ c (Proc.devRef .tc main_v198)
      ∧ r.2.mem ((c.tc : Thread nD τ).loc main_v199) = W22 m ρ c (Proc.devRef .tc main_v199)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)) :=
  (θ_run defs _ _).mono (fun r h c =>
      ⟨h c _ (mem_uc main_v195 (by decide)),
      ⟨h c _ (mem_uc main_v196 (by decide)),
      ⟨h c _ (mem_uc main_v197 (by decide)),
      ⟨h c _ (mem_uc main_v198 (by decide)),
      ⟨h c _ (mem_uc main_v199 (by decide)),
      ⟨(h c _ (mem_uc main_arg0 (by decide))).trans (W22_unwritten m ρ c main_arg0 (by decide)),
      ⟨(h c _ (mem_uc main_arg1 (by decide))).trans (W22_unwritten m ρ c main_arg1 (by decide)),
      ⟨(h c _ (mem_uc main_arg2 (by decide))).trans (W22_unwritten m ρ c main_arg2 (by decide)),
      ⟨(h c _ (mem_uc main_arg3 (by decide))).trans (W22_unwritten m ρ c main_arg3 (by decide)),
      ⟨(h c _ (mem_uc main_arg4 (by decide))).trans (W22_unwritten m ρ c main_arg4 (by decide)),
      ⟨(h c _ (mem_uc main_arg5 (by decide))).trans (W22_unwritten m ρ c main_arg5 (by decide)),
      ⟨(h c _ (mem_uc main_arg6 (by decide))).trans (W22_unwritten m ρ c main_arg6 (by decide)),
      ⟨(h c _ (mem_uc main_arg7 (by decide))).trans (W22_unwritten m ρ c main_arg7 (by decide)),
      ⟨(h c _ (mem_uc main_arg8 (by decide))).trans (W22_unwritten m ρ c main_arg8 (by decide)),
      ⟨(h c _ (mem_uc main_arg9 (by decide))).trans (W22_unwritten m ρ c main_arg9 (by decide)),
      ⟨(h c _ (mem_uc main_arg10 (by decide))).trans (W22_unwritten m ρ c main_arg10 (by decide)),
      ⟨(h c _ (mem_uc main_arg11 (by decide))).trans (W22_unwritten m ρ c main_arg11 (by decide)),
      ⟨(h c _ (mem_uc main_arg12 (by decide))).trans (W22_unwritten m ρ c main_arg12 (by decide)),
      ⟨(h c _ (mem_uc main_arg13 (by decide))).trans (W22_unwritten m ρ c main_arg13 (by decide)),
      ⟨(h c _ (mem_uc main_arg14 (by decide))).trans (W22_unwritten m ρ c main_arg14 (by decide)),
      ⟨(h c _ (mem_uc main_arg15 (by decide))).trans (W22_unwritten m ρ c main_arg15 (by decide)),
      ⟨(h c _ (mem_uc main_arg16 (by decide))).trans (W22_unwritten m ρ c main_arg16 (by decide)),
      ⟨(h c _ (mem_uc main_arg17 (by decide))).trans (W22_unwritten m ρ c main_arg17 (by decide)),
      ⟨(h c _ (mem_uc main_arg18 (by decide))).trans (W22_unwritten m ρ c main_arg18 (by decide)),
      ⟨(h c _ (mem_uc main_arg19 (by decide))).trans (W22_unwritten m ρ c main_arg19 (by decide)),
      ⟨(h c _ (mem_uc main_arg20 (by decide))).trans (W22_unwritten m ρ c main_arg20 (by decide)),
      ⟨(h c _ (mem_uc main_arg21 (by decide))).trans (W22_unwritten m ρ c main_arg21 (by decide)),
      ⟨(h c _ (mem_uc main_arg22 (by decide))).trans (W22_unwritten m ρ c main_arg22 (by decide)),
      ⟨(h c _ (mem_uc main_arg23 (by decide))).trans (W22_unwritten m ρ c main_arg23 (by decide)),
      ⟨(h c _ (mem_uc main_arg24 (by decide))).trans (W22_unwritten m ρ c main_arg24 (by decide)),
      ⟨(h c _ (mem_uc main_arg25 (by decide))).trans (W22_unwritten m ρ c main_arg25 (by decide)),
      ⟨(h c _ (mem_uc main_arg26 (by decide))).trans (W22_unwritten m ρ c main_arg26 (by decide)),
      ⟨(h c _ (mem_uc main_arg27 (by decide))).trans (W22_unwritten m ρ c main_arg27 (by decide)),
      ⟨(h c _ (mem_uc main_arg28 (by decide))).trans (W22_unwritten m ρ c main_arg28 (by decide)),
      ⟨(h c _ (mem_uc main_arg29 (by decide))).trans (W22_unwritten m ρ c main_arg29 (by decide)),
      ⟨(h c _ (mem_uc main_arg30 (by decide))).trans (W22_unwritten m ρ c main_arg30 (by decide)),
      ⟨(h c _ (mem_uc main_arg31 (by decide))).trans (W22_unwritten m ρ c main_arg31 (by decide)),
      ⟨(h c _ (mem_uc main_arg32 (by decide))).trans (W22_unwritten m ρ c main_arg32 (by decide)),
      ⟨(h c _ (mem_uc main_arg33 (by decide))).trans (W22_unwritten m ρ c main_arg33 (by decide)),
      ⟨(h c _ (mem_uc main_arg34 (by decide))).trans (W22_unwritten m ρ c main_arg34 (by decide)),
      ⟨(h c _ (mem_uc main_arg35 (by decide))).trans (W22_unwritten m ρ c main_arg35 (by decide)),
      ⟨(h c _ (mem_uc main_arg36 (by decide))).trans (W22_unwritten m ρ c main_arg36 (by decide)),
      ⟨(h c _ (mem_uc main_arg37 (by decide))).trans (W22_unwritten m ρ c main_arg37 (by decide)),
      ⟨(h c _ (mem_uc main_arg38 (by decide))).trans (W22_unwritten m ρ c main_arg38 (by decide)),
      ⟨(h c _ (mem_uc main_arg39 (by decide))).trans (W22_unwritten m ρ c main_arg39 (by decide)),
      ⟨(h c _ (mem_uc main_arg40 (by decide))).trans (W22_unwritten m ρ c main_arg40 (by decide)),
      ⟨(h c _ (mem_uc main_arg41 (by decide))).trans (W22_unwritten m ρ c main_arg41 (by decide)),
      ⟨(h c _ (mem_uc main_arg42 (by decide))).trans (W22_unwritten m ρ c main_arg42 (by decide)),
      ⟨(h c _ (mem_uc main_arg43 (by decide))).trans (W22_unwritten m ρ c main_arg43 (by decide)),
      ⟨(h c _ (mem_uc main_arg44 (by decide))).trans (W22_unwritten m ρ c main_arg44 (by decide)),
      ⟨(h c _ (mem_uc main_arg45 (by decide))).trans (W22_unwritten m ρ c main_arg45 (by decide)),
      ⟨(h c _ (mem_uc main_arg46 (by decide))).trans (W22_unwritten m ρ c main_arg46 (by decide)),
      ⟨(h c _ (mem_uc main_arg47 (by decide))).trans (W22_unwritten m ρ c main_arg47 (by decide)),
      ⟨(h c _ (mem_uc main_arg48 (by decide))).trans (W22_unwritten m ρ c main_arg48 (by decide)),
      ⟨(h c _ (mem_uc main_arg49 (by decide))).trans (W22_unwritten m ρ c main_arg49 (by decide)),
      ⟨(h c _ (mem_uc main_arg50 (by decide))).trans (W22_unwritten m ρ c main_arg50 (by decide)),
      ⟨(h c _ (mem_uc main_arg51 (by decide))).trans (W22_unwritten m ρ c main_arg51 (by decide)),
      ⟨(h c _ (mem_uc main_arg52 (by decide))).trans (W22_unwritten m ρ c main_arg52 (by decide)),
      ⟨(h c _ (mem_uc main_arg53 (by decide))).trans (W22_unwritten m ρ c main_arg53 (by decide)),
      (h c _ (mem_uc main_arg54 (by decide))).trans (W22_unwritten m ρ c main_arg54 (by decide))⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩) (run_all m ρ)

end Cert.KernelIdeal.Fr

end
-- ==== Proof.Ref2.LibAfter.lean ====
/-
  Two general facts about the fold of a line of host operations over a valuation: the fold over a concatenation is the
  fold over the second line from the fold over the first, and an operation that writes one buffer of a list writes
  inside that list.
-/
import Idealize.ShloMosaic.Lib.StableHlo.Run

noncomputable section

namespace Idealize.ShloMosaic.StableHlo

variable {τ : Topo} {sig : RefSig} {Val : EltTy → Type}

/-- Running two lines one after the other: the contents after the concatenation are the contents after the second
    line, started from the contents after the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The one buffer `y`, a member of the list `W`, lies in `W` read as a set of device buffers. -/
theorem singleton_sub_of_mem {W : List (Ref sig .tc)} {y : Ref sig .tc} (h : y ∈ W) :
    ({(Proc.devRef .tc y : DevRef τ sig)} : Finset (DevRef τ sig)) ⊆ (W.map (Proc.devRef (τ := τ) .tc)).toFinset :=
  Finset.singleton_subset_iff.mpr (List.mem_toFinset.mpr (List.mem_map_of_mem h))

end Idealize.ShloMosaic.StableHlo

end
-- ==== Proof.Ref2.Win0.lean ====
/-
  Operations 0 … 20 of the reference's @main: one message — a sparse product (gather the source rows, scale each by its
  coefficient, add into the target rows) of a linear map of one rank's features, rectified — written to `main_v15`. From ANY
  contents `V` the operations are entered with, `main_v15` ends at the Read module's stage `val_main_v15` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 0 … 20 of the reference's @main, in order. -/
abbrev win0 : List (HloOp τ sig (Elt F)) :=
  [ binary main_arg0 main_arg25 main_v0 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg7 main_v1 (broadcastInDim S400000x1 ![0] bcast_S400000_S400000x1_0 : (⟨S400000, .f32⟩ : BufTy).Contents (Elt F) → (⟨S400000x1, .f32⟩ : BufTy).Contents (Elt F)),
    nullary main_c (constantI S_ 32 0#32),
    unary main_c main_v2 (broadcastInDim S400000 ![] bcast_S_S400000 : (⟨S_, .i32⟩ : BufTy).Contents (Elt F) → (⟨S400000, .i32⟩ : BufTy).Contents (Elt F)),
    binary main_arg6 main_v2 main_v3 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v4 (broadcastInDim S400000 ![] bcast_S_S400000 : (⟨S_, .i32⟩ : BufTy).Contents (Elt F) → (⟨S400000, .i32⟩ : BufTy).Contents (Elt F)),
    binary main_arg6 main_v4 main_v5 (addi : (⟨S400000, .i32⟩ : BufTy).Contents (Elt F) → (⟨S400000, .i32⟩ : BufTy).Contents (Elt F) → (⟨S400000, .i32⟩ : BufTy).Contents (Elt F)),
    ternary main_v3 main_v5 main_arg6 main_v6 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v6 main_v7 (broadcastInDim S400000x1 ![0] bcast_S400000_S400000x1_0 : (⟨S400000, .i32⟩ : BufTy).Contents (Elt F) → (⟨S400000x1, .i32⟩ : BufTy).Contents (Elt F)),
    binary main_v0 main_v7 main_v8 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    unary main_v1 main_v9 (broadcastInDim S400000x64 ![0, 1] bcast_S400000x1_S400000x64_0_1 : (⟨S400000x1, .f32⟩ : BufTy).Contents (Elt F) → (⟨S400000x64, .f32⟩ : BufTy).Contents (Elt F)),
    binary main_v9 main_v8 main_v10 (mulf : (⟨S400000x64, .f32⟩ : BufTy).Contents (Elt F) → (⟨S400000x64, .f32⟩ : BufTy).Contents (Elt F) → (⟨S400000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_arg5 main_v12 (broadcastInDim S400000x1 ![0] bcast_S400000_S400000x1_0 : (⟨S400000, .i32⟩ : BufTy).Contents (Elt F) → (⟨S400000x1, .i32⟩ : BufTy).Contents (Elt F)),
    ternary main_v11 main_v12 main_v10 main_v13 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)),
    binary main_arg20 main_v13 main_v14 (mulf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v14) (TRef.of (T := ⟨S50000x64, .f32⟩) main_call0_v0) (TRef.of (T := ⟨S50000x64, .f32⟩) main_v15) maximumf ]

/-- The buffers those operations write. -/
abbrev wl0 : List (Ref sig .tc) := [main_v0, main_v1, main_c, main_v2, main_v3, main_c_0, main_v4, main_v5, main_v6, main_v7, main_v8, main_v9, main_v10, main_cst, main_v11, main_v12, main_v13, main_v14, main_call0_cst, main_call0_v0, main_v15]

theorem win0_writes : (win0 : List (HloOp τ sig (Elt F))).Forall fun op => op.writes ⊆ (wl0.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win0_fresh : (win0 : List (HloOp τ sig (Elt F))).Forall fun op => op.fresh = ∅ := by
  simp only [List.Forall]; repeat' constructor

/-- A buffer they do not write is as before them. -/
theorem win0_keep (V : Valuation τ sig (Elt F)) (r : Ref sig .tc) (h : r ∉ wl0) :
    after win0 V (Proc.devRef .tc r) = V (Proc.devRef .tc r) :=
  after_of_writes_sub win0 V win0_writes h

/-- The message: `main_v15` after the operations is its stage of the arguments, read off `V`. -/
theorem win0_out (V : Valuation τ sig (Elt F)) :
    after win0 V (Proc.devRef .tc main_v15)
      = ReadP.val_main_v15 (F := F) (V (Proc.devRef .tc main_arg0)) (V (Proc.devRef .tc main_arg5)) (V (Proc.devRef .tc main_arg6)) (V (Proc.devRef .tc main_arg7)) (V (Proc.devRef .tc main_arg20)) (V (Proc.devRef .tc main_arg25)) := by
  after_results_simp
  rfl

end Cert.Proof.Ref2

end
-- ==== Proof.Ref2.Win1.lean ====
/-
  Operations 21 … 41 of the reference's @main: one message — a sparse product (gather the source rows, scale each by its
  coefficient, add into the target rows) of a linear map of one rank's features, rectified — written to `main_v31`. From ANY
  contents `V` the operations are entered with, `main_v31` ends at the Read module's stage `val_main_v31` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 21 … 41 of the reference's @main, in order. -/
abbrev win1 : List (HloOp τ sig (Elt F)) :=
  [ binary main_arg1 main_arg26 main_v16 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg10 main_v17 (broadcastInDim S1200000x1 ![0] bcast_S1200000_S1200000x1_0 : (⟨S1200000, .f32⟩ : BufTy).Contents (Elt F) → (⟨S1200000x1, .f32⟩ : BufTy).Contents (Elt F)),
    nullary main_c_1 (constantI S_ 32 0#32),
    unary main_c_1 main_v18 (broadcastInDim S1200000 ![] bcast_S_S1200000 : (⟨S_, .i32⟩ : BufTy).Contents (Elt F) → (⟨S1200000, .i32⟩ : BufTy).Contents (Elt F)),
    binary main_arg9 main_v18 main_v19 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 150000#32),
    unary main_c_2 main_v20 (broadcastInDim S1200000 ![] bcast_S_S1200000 : (⟨S_, .i32⟩ : BufTy).Contents (Elt F) → (⟨S1200000, .i32⟩ : BufTy).Contents (Elt F)),
    binary main_arg9 main_v20 main_v21 (addi : (⟨S1200000, .i32⟩ : BufTy).Contents (Elt F) → (⟨S1200000, .i32⟩ : BufTy).Contents (Elt F) → (⟨S1200000, .i32⟩ : BufTy).Contents (Elt F)),
    ternary main_v19 main_v21 main_arg9 main_v22 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v22 main_v23 (broadcastInDim S1200000x1 ![0] bcast_S1200000_S1200000x1_0 : (⟨S1200000, .i32⟩ : BufTy).Contents (Elt F) → (⟨S1200000x1, .i32⟩ : BufTy).Contents (Elt F)),
    binary main_v16 main_v23 main_v24 ((fun x i => Host.gather gather_S150000x64_S1200000x1_S1200000x64_1_0_n_n_0_1_164 x i) : (⟨S150000x64, .f32⟩ : BufTy).Contents (Elt F) → (⟨S1200000x1, .i32⟩ : BufTy).Contents (Elt F) → (⟨S1200000x64, .f32⟩ : BufTy).Contents (Elt F)),
    unary main_v17 main_v25 (broadcastInDim S1200000x64 ![0, 1] bcast_S1200000x1_S1200000x64_0_1 : (⟨S1200000x1, .f32⟩ : BufTy).Contents (Elt F) → (⟨S1200000x64, .f32⟩ : BufTy).Contents (Elt F)),
    binary main_v25 main_v24 main_v26 (mulf : (⟨S1200000x64, .f32⟩ : BufTy).Contents (Elt F) → (⟨S1200000x64, .f32⟩ : BufTy).Contents (Elt F) → (⟨S1200000x64, .f32⟩ : BufTy).Contents (Elt F)),
    nullary main_cst_3 (constant S_ .f32 0x00000000#32),
    unary main_cst_3 main_v27 (broadcastInDim S150000x64 ![] bcast_S_S150000x64 : (⟨S_, .f32⟩ : BufTy).Contents (Elt F) → (⟨S150000x64, .f32⟩ : BufTy).Contents (Elt F)),
    unary main_arg8 main_v28 (broadcastInDim S1200000x1 ![0] bcast_S1200000_S1200000x1_0 : (⟨S1200000, .i32⟩ : BufTy).Contents (Elt F) → (⟨S1200000x1, .i32⟩ : BufTy).Contents (Elt F)),
    ternary main_v27 main_v28 main_v26 main_v29 ((fun x i u => Host.scatterAdd scatter_S150000x64_S1200000x1_S1200000x64_1_0_0_1 x i u) : (⟨S150000x64, .f32⟩ : BufTy).Contents (Elt F) → (⟨S1200000x1, .i32⟩ : BufTy).Contents (Elt F) → (⟨S1200000x64, .f32⟩ : BufTy).Contents (Elt F) → (⟨S150000x64, .f32⟩ : BufTy).Contents (Elt F)),
    binary main_arg21 main_v29 main_v30 (mulf : (⟨S150000x64, .f32⟩ : BufTy).Contents (Elt F) → (⟨S150000x64, .f32⟩ : BufTy).Contents (Elt F) → (⟨S150000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S150000x64, .f32⟩) main_call1_v0) (broadcastInDim S150000x64 ![] bcast_S_S150000x64),
    TRef.binary (TRef.of (T := ⟨S150000x64, .f32⟩) main_v30) (TRef.of (T := ⟨S150000x64, .f32⟩) main_call1_v0) (TRef.of (T := ⟨S150000x64, .f32⟩) main_v31) maximumf ]

/-- The buffers those operations write. -/
abbrev wl1 : List (Ref sig .tc) := [main_v16, main_v17, main_c_1, main_v18, main_v19, main_c_2, main_v20, main_v21, main_v22, main_v23, main_v24, main_v25, main_v26, main_cst_3, main_v27, main_v28, main_v29, main_v30, main_call1_cst, main_call1_v0, main_v31]

theorem win1_writes : (win1 : List (HloOp τ sig (Elt F))).Forall fun op => op.writes ⊆ (wl1.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win1_fresh : (win1 : List (HloOp τ sig (Elt F))).Forall fun op => op.fresh = ∅ := by
  simp only [List.Forall]; repeat' constructor

/-- A buffer they do not write is as before them. -/
theorem win1_keep (V : Valuation τ sig (Elt F)) (r : Ref sig .tc) (h : r ∉ wl1) :
    after win1 V (Proc.devRef .tc r) = V (Proc.devRef .tc r) :=
  after_of_writes_sub win1 V win1_writes h

/-- The message: `main_v31` after the operations is its stage of the arguments, read off `V`. -/
theorem win1_out (V : Valuation τ sig (Elt F)) :
    after win1 V (Proc.devRef .tc main_v31)
      = ReadP.val_main_v31 (F := F) (V (Proc.devRef .tc main_arg1)) (V (Proc.devRef .tc main_arg8)) (V (Proc.devRef .tc main_arg9)) (V (Proc.devRef .tc main_arg10)) (V (Proc.devRef .tc main_arg21)) (V (Proc.devRef .tc main_arg26)) := by
  after_results_simp
  rfl

end Cert.Proof.Ref2

end
-- ==== Proof.Ref2.Win2.lean ====
/-
  Operations 42 … 62 of the reference's @main: one message — a sparse product (gather the source rows, scale each by its
  coefficient, add into the target rows) of a linear map of one rank's features, rectified — written to `main_v47`. From ANY
  contents `V` the operations are entered with, `main_v47` ends at the Read module's stage `val_main_v47` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 42 … 62 of the reference's @main, in order. -/
abbrev win2 : List (HloOp τ sig (Elt F)) :=
  [ binary main_arg2 main_arg27 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg13 main_v33 (broadcastInDim S800000x1 ![0] bcast_S800000_S800000x1_0 : (⟨S800000, .f32⟩ : BufTy).Contents (Elt F) → (⟨S800000x1, .f32⟩ : BufTy).Contents (Elt F)),
    nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_arg12 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 100000#32),
    unary main_c_5 main_v36 (broadcastInDim S800000 ![] bcast_S_S800000 : (⟨S_, .i32⟩ : BufTy).Contents (Elt F) → (⟨S800000, .i32⟩ : BufTy).Contents (Elt F)),
    binary main_arg12 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_arg12 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v32 main_v39 main_v40 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_v33 main_v41 (broadcastInDim S800000x64 ![0, 1] bcast_S800000x1_S800000x64_0_1 : (⟨S800000x1, .f32⟩ : BufTy).Contents (Elt F) → (⟨S800000x64, .f32⟩ : BufTy).Contents (Elt F)),
    binary main_v41 main_v40 main_v42 (mulf : (⟨S800000x64, .f32⟩ : BufTy).Contents (Elt F) → (⟨S800000x64, .f32⟩ : BufTy).Contents (Elt F) → (⟨S800000x64, .f32⟩ : BufTy).Contents (Elt F)),
    nullary main_cst_6 (constant S_ .f32 0x00000000#32),
    unary main_cst_6 main_v43 (broadcastInDim S100000x64 ![] bcast_S_S100000x64 : (⟨S_, .f32⟩ : BufTy).Contents (Elt F) → (⟨S100000x64, .f32⟩ : BufTy).Contents (Elt F)),
    unary main_arg11 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    binary main_arg22 main_v45 main_v46 (mulf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v46) (TRef.of (T := ⟨S100000x64, .f32⟩) main_call2_v0) (TRef.of (T := ⟨S100000x64, .f32⟩) main_v47) maximumf ]

/-- The buffers those operations write. -/
abbrev wl2 : List (Ref sig .tc) := [main_v32, main_v33, main_c_4, main_v34, main_v35, main_c_5, main_v36, main_v37, main_v38, main_v39, main_v40, main_v41, main_v42, main_cst_6, main_v43, main_v44, main_v45, main_v46, main_call2_cst, main_call2_v0, main_v47]

theorem win2_writes : (win2 : List (HloOp τ sig (Elt F))).Forall fun op => op.writes ⊆ (wl2.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win2_fresh : (win2 : List (HloOp τ sig (Elt F))).Forall fun op => op.fresh = ∅ := by
  simp only [List.Forall]; repeat' constructor

/-- A buffer they do not write is as before them. -/
theorem win2_keep (V : Valuation τ sig (Elt F)) (r : Ref sig .tc) (h : r ∉ wl2) :
    after win2 V (Proc.devRef .tc r) = V (Proc.devRef .tc r) :=
  after_of_writes_sub win2 V win2_writes h

/-- The message: `main_v47` after the operations is its stage of the arguments, read off `V`. -/
theorem win2_out (V : Valuation τ sig (Elt F)) :
    after win2 V (Proc.devRef .tc main_v47)
      = ReadP.val_main_v47 (F := F) (V (Proc.devRef .tc main_arg2)) (V (Proc.devRef .tc main_arg11)) (V (Proc.devRef .tc main_arg12)) (V (Proc.devRef .tc main_arg13)) (V (Proc.devRef .tc main_arg22)) (V (Proc.devRef .tc main_arg27)) := by
  after_results_simp
  rfl

end Cert.Proof.Ref2

end
-- ==== Proof.Ref2.Win3.lean ====
/-
  Operations 63 … 83 of the reference's @main: one message — a sparse product (gather the source rows, scale each by its
  coefficient, add into the target rows) of a linear map of one rank's features, rectified — written to `main_v63`. From ANY
  contents `V` the operations are entered with, `main_v63` ends at the Read module's stage `val_main_v63` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 63 … 83 of the reference's @main, in order. -/
abbrev win3 : List (HloOp τ sig (Elt F)) :=
  [ binary main_arg3 main_arg28 main_v48 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)),
    unary main_arg16 main_v49 (broadcastInDim S320000x1 ![0] bcast_S320000_S320000x1_0 : (⟨S320000, .f32⟩ : BufTy).Contents (Elt F) → (⟨S320000x1, .f32⟩ : BufTy).Contents (Elt F)),
    nullary main_c_7 (constantI S_ 32 0#32),
    unary main_c_7 main_v50 (broadcastInDim S320000 ![] bcast_S_S320000 : (⟨S_, .i32⟩ : BufTy).Contents (Elt F) → (⟨S320000, .i32⟩ : BufTy).Contents (Elt F)),
    binary main_arg15 main_v50 main_v51 (cmpi .slt : (⟨S320000, .i32⟩ : BufTy).Contents (Elt F) → (⟨S320000, .i32⟩ : BufTy).Contents (Elt F) → (⟨S320000, .i1⟩ : BufTy).Contents (Elt F)),
    nullary main_c_8 (constantI S_ 32 40000#32),
    unary main_c_8 main_v52 (broadcastInDim S320000 ![] bcast_S_S320000 : (⟨S_, .i32⟩ : BufTy).Contents (Elt F) → (⟨S320000, .i32⟩ : BufTy).Contents (Elt F)),
    binary main_arg15 main_v52 main_v53 (addi : (⟨S320000, .i32⟩ : BufTy).Contents (Elt F) → (⟨S320000, .i32⟩ : BufTy).Contents (Elt F) → (⟨S320000, .i32⟩ : BufTy).Contents (Elt F)),
    ternary main_v51 main_v53 main_arg15 main_v54 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v54 main_v55 (broadcastInDim S320000x1 ![0] bcast_S320000_S320000x1_0 : (⟨S320000, .i32⟩ : BufTy).Contents (Elt F) → (⟨S320000x1, .i32⟩ : BufTy).Contents (Elt F)),
    binary main_v48 main_v55 main_v56 ((fun x i => Host.gather gather_S40000x64_S320000x1_S320000x64_1_0_n_n_0_1_164 x i) : (⟨S40000x64, .f32⟩ : BufTy).Contents (Elt F) → (⟨S320000x1, .i32⟩ : BufTy).Contents (Elt F) → (⟨S320000x64, .f32⟩ : BufTy).Contents (Elt F)),
    unary main_v49 main_v57 (broadcastInDim S320000x64 ![0, 1] bcast_S320000x1_S320000x64_0_1 : (⟨S320000x1, .f32⟩ : BufTy).Contents (Elt F) → (⟨S320000x64, .f32⟩ : BufTy).Contents (Elt F)),
    binary main_v57 main_v56 main_v58 (mulf : (⟨S320000x64, .f32⟩ : BufTy).Contents (Elt F) → (⟨S320000x64, .f32⟩ : BufTy).Contents (Elt F) → (⟨S320000x64, .f32⟩ : BufTy).Contents (Elt F)),
    nullary main_cst_9 (constant S_ .f32 0x00000000#32),
    unary main_cst_9 main_v59 (broadcastInDim S40000x64 ![] bcast_S_S40000x64 : (⟨S_, .f32⟩ : BufTy).Contents (Elt F) → (⟨S40000x64, .f32⟩ : BufTy).Contents (Elt F)),
    unary main_arg14 main_v60 (broadcastInDim S320000x1 ![0] bcast_S320000_S320000x1_0 : (⟨S320000, .i32⟩ : BufTy).Contents (Elt F) → (⟨S320000x1, .i32⟩ : BufTy).Contents (Elt F)),
    ternary main_v59 main_v60 main_v58 main_v61 ((fun x i u => Host.scatterAdd scatter_S40000x64_S320000x1_S320000x64_1_0_0_1 x i u) : (⟨S40000x64, .f32⟩ : BufTy).Contents (Elt F) → (⟨S320000x1, .i32⟩ : BufTy).Contents (Elt F) → (⟨S320000x64, .f32⟩ : BufTy).Contents (Elt F) → (⟨S40000x64, .f32⟩ : BufTy).Contents (Elt F)),
    binary main_arg23 main_v61 main_v62 (mulf : (⟨S40000x64, .f32⟩ : BufTy).Contents (Elt F) → (⟨S40000x64, .f32⟩ : BufTy).Contents (Elt F) → (⟨S40000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S40000x64, .f32⟩) main_call3_v0) (broadcastInDim S40000x64 ![] bcast_S_S40000x64),
    TRef.binary (TRef.of (T := ⟨S40000x64, .f32⟩) main_v62) (TRef.of (T := ⟨S40000x64, .f32⟩) main_call3_v0) (TRef.of (T := ⟨S40000x64, .f32⟩) main_v63) maximumf ]

/-- The buffers those operations write. -/
abbrev wl3 : List (Ref sig .tc) := [main_v48, main_v49, main_c_7, main_v50, main_v51, main_c_8, main_v52, main_v53, main_v54, main_v55, main_v56, main_v57, main_v58, main_cst_9, main_v59, main_v60, main_v61, main_v62, main_call3_cst, main_call3_v0, main_v63]

theorem win3_writes : (win3 : List (HloOp τ sig (Elt F))).Forall fun op => op.writes ⊆ (wl3.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win3_fresh : (win3 : List (HloOp τ sig (Elt F))).Forall fun op => op.fresh = ∅ := by
  simp only [List.Forall]; repeat' constructor

/-- A buffer they do not write is as before them. -/
theorem win3_keep (V : Valuation τ sig (Elt F)) (r : Ref sig .tc) (h : r ∉ wl3) :
    after win3 V (Proc.devRef .tc r) = V (Proc.devRef .tc r) :=
  after_of_writes_sub win3 V win3_writes h

/-- The message: `main_v63` after the operations is its stage of the arguments, read off `V`. -/
theorem win3_out (V : Valuation τ sig (Elt F)) :
    after win3 V (Proc.devRef .tc main_v63)
      = ReadP.val_main_v63 (F := F) (V (Proc.devRef .tc main_arg3)) (V (Proc.devRef .tc main_arg14)) (V (Proc.devRef .tc main_arg15)) (V (Proc.devRef .tc main_arg16)) (V (Proc.devRef .tc main_arg23)) (V (Proc.devRef .tc main_arg28)) := by
  after_results_simp
  rfl

end Cert.Proof.Ref2

end
-- ==== Proof.Ref2.Win4.lean ====
/-
  Operations 84 … 104 of the reference's @main: one message — a sparse product (gather the source rows, scale each by its
  coefficient, add into the target rows) of a linear map of one rank's features, rectified — written to `main_v79`. From ANY
  contents `V` the operations are entered with, `main_v79` ends at the Read module's stage `val_main_v79` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 84 … 104 of the reference's @main, in order. -/
abbrev win4 : List (HloOp τ sig (Elt F)) :=
  [ binary main_arg4 main_arg29 main_v64 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    unary main_arg19 main_v65 (broadcastInDim S80000x1 ![0] bcast_S80000_S80000x1_0 : (⟨S80000, .f32⟩ : BufTy).Contents (Elt F) → (⟨S80000x1, .f32⟩ : BufTy).Contents (Elt F)),
    nullary main_c_10 (constantI S_ 32 0#32),
    unary main_c_10 main_v66 (broadcastInDim S80000 ![] bcast_S_S80000 : (⟨S_, .i32⟩ : BufTy).Contents (Elt F) → (⟨S80000, .i32⟩ : BufTy).Contents (Elt F)),
    binary main_arg18 main_v66 main_v67 (cmpi .slt : (⟨S80000, .i32⟩ : BufTy).Contents (Elt F) → (⟨S80000, .i32⟩ : BufTy).Contents (Elt F) → (⟨S80000, .i1⟩ : BufTy).Contents (Elt F)),
    nullary main_c_11 (constantI S_ 32 10000#32),
    unary main_c_11 main_v68 (broadcastInDim S80000 ![] bcast_S_S80000 : (⟨S_, .i32⟩ : BufTy).Contents (Elt F) → (⟨S80000, .i32⟩ : BufTy).Contents (Elt F)),
    binary main_arg18 main_v68 main_v69 (addi : (⟨S80000, .i32⟩ : BufTy).Contents (Elt F) → (⟨S80000, .i32⟩ : BufTy).Contents (Elt F) → (⟨S80000, .i32⟩ : BufTy).Contents (Elt F)),
    ternary main_v67 main_v69 main_arg18 main_v70 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),
    unary main_v70 main_v71 (broadcastInDim S80000x1 ![0] bcast_S80000_S80000x1_0 : (⟨S80000, .i32⟩ : BufTy).Contents (Elt F) → (⟨S80000x1, .i32⟩ : BufTy).Contents (Elt F)),
    binary main_v64 main_v71 main_v72 ((fun x i => Host.gather gather_S10000x64_S80000x1_S80000x64_1_0_n_n_0_1_164 x i) : (⟨S10000x64, .f32⟩ : BufTy).Contents (Elt F) → (⟨S80000x1, .i32⟩ : BufTy).Contents (Elt F) → (⟨S80000x64, .f32⟩ : BufTy).Contents (Elt F)),
    unary main_v65 main_v73 (broadcastInDim S80000x64 ![0, 1] bcast_S80000x1_S80000x64_0_1 : (⟨S80000x1, .f32⟩ : BufTy).Contents (Elt F) → (⟨S80000x64, .f32⟩ : BufTy).Contents (Elt F)),
    binary main_v73 main_v72 main_v74 (mulf : (⟨S80000x64, .f32⟩ : BufTy).Contents (Elt F) → (⟨S80000x64, .f32⟩ : BufTy).Contents (Elt F) → (⟨S80000x64, .f32⟩ : BufTy).Contents (Elt F)),
    nullary main_cst_12 (constant S_ .f32 0x00000000#32),
    unary main_cst_12 main_v75 (broadcastInDim S10000x64 ![] bcast_S_S10000x64 : (⟨S_, .f32⟩ : BufTy).Contents (Elt F) → (⟨S10000x64, .f32⟩ : BufTy).Contents (Elt F)),
    unary main_arg17 main_v76 (broadcastInDim S80000x1 ![0] bcast_S80000_S80000x1_0 : (⟨S80000, .i32⟩ : BufTy).Contents (Elt F) → (⟨S80000x1, .i32⟩ : BufTy).Contents (Elt F)),
    ternary main_v75 main_v76 main_v74 main_v77 ((fun x i u => Host.scatterAdd scatter_S10000x64_S80000x1_S80000x64_1_0_0_1 x i u) : (⟨S10000x64, .f32⟩ : BufTy).Contents (Elt F) → (⟨S80000x1, .i32⟩ : BufTy).Contents (Elt F) → (⟨S80000x64, .f32⟩ : BufTy).Contents (Elt F) → (⟨S10000x64, .f32⟩ : BufTy).Contents (Elt F)),
    binary main_arg24 main_v77 main_v78 (mulf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S10000x64, .f32⟩) main_call4_v0) (broadcastInDim S10000x64 ![] bcast_S_S10000x64),
    TRef.binary (TRef.of (T := ⟨S10000x64, .f32⟩) main_v78) (TRef.of (T := ⟨S10000x64, .f32⟩) main_call4_v0) (TRef.of (T := ⟨S10000x64, .f32⟩) main_v79) maximumf ]

/-- The buffers those operations write. -/
abbrev wl4 : List (Ref sig .tc) := [main_v64, main_v65, main_c_10, main_v66, main_v67, main_c_11, main_v68, main_v69, main_v70, main_v71, main_v72, main_v73, main_v74, main_cst_12, main_v75, main_v76, main_v77, main_v78, main_call4_cst, main_call4_v0, main_v79]

theorem win4_writes : (win4 : List (HloOp τ sig (Elt F))).Forall fun op => op.writes ⊆ (wl4.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win4_fresh : (win4 : List (HloOp τ sig (Elt F))).Forall fun op => op.fresh = ∅ := by
  simp only [List.Forall]; repeat' constructor

/-- A buffer they do not write is as before them. -/
theorem win4_keep (V : Valuation τ sig (Elt F)) (r : Ref sig .tc) (h : r ∉ wl4) :
    after win4 V (Proc.devRef .tc r) = V (Proc.devRef .tc r) :=
  after_of_writes_sub win4 V win4_writes h

/-- The message: `main_v79` after the operations is its stage of the arguments, read off `V`. -/
theorem win4_out (V : Valuation τ sig (Elt F)) :
    after win4 V (Proc.devRef .tc main_v79)
      = ReadP.val_main_v79 (F := F) (V (Proc.devRef .tc main_arg4)) (V (Proc.devRef .tc main_arg17)) (V (Proc.devRef .tc main_arg18)) (V (Proc.devRef .tc main_arg19)) (V (Proc.devRef .tc main_arg24)) (V (Proc.devRef .tc main_arg29)) := by
  after_results_simp
  rfl

end Cert.Proof.Ref2

end
-- ==== Proof.Ref2.Win5.lean ====
/-
  Operations 105 … 124 of the reference's @main: one message — a sparse product (gather the source rows, scale each by its
  coefficient, add into the target rows) of a linear map of one rank's features, rectified — written to `main_v94`. From ANY
  contents `V` the operations are entered with, `main_v94` ends at the Read module's stage `val_main_v94` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 105 … 124 of the reference's @main, in order. -/
abbrev win5 : List (HloOp τ sig (Elt F)) :=
  [ binary main_arg1 main_arg47 main_v80 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg37 main_v81 (broadcastInDim S600000x1 ![0] bcast_S600000_S600000x1_0 : (⟨S600000, .f32⟩ : BufTy).Contents (Elt F) → (⟨S600000x1, .f32⟩ : BufTy).Contents (Elt F)),
    nullary main_c_13 (constantI S_ 32 0#32),
    unary main_c_13 main_v82 (broadcastInDim S600000 ![] bcast_S_S600000 : (⟨S_, .i32⟩ : BufTy).Contents (Elt F) → (⟨S600000, .i32⟩ : BufTy).Contents (Elt F)),
    binary main_arg36 main_v82 main_v83 (cmpi .slt : (⟨S600000, .i32⟩ : BufTy).Contents (Elt F) → (⟨S600000, .i32⟩ : BufTy).Contents (Elt F) → (⟨S600000, .i1⟩ : BufTy).Contents (Elt F)),
    nullary main_c_14 (constantI S_ 32 150000#32),
    unary main_c_14 main_v84 (broadcastInDim S600000 ![] bcast_S_S600000 : (⟨S_, .i32⟩ : BufTy).Contents (Elt F) → (⟨S600000, .i32⟩ : BufTy).Contents (Elt F)),
    binary main_arg36 main_v84 main_v85 (addi : (⟨S600000, .i32⟩ : BufTy).Contents (Elt F) → (⟨S600000, .i32⟩ : BufTy).Contents (Elt F) → (⟨S600000, .i32⟩ : BufTy).Contents (Elt F)),
    ternary main_v83 main_v85 main_arg36 main_v86 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v86 main_v87 (broadcastInDim S600000x1 ![0] bcast_S600000_S600000x1_0 : (⟨S600000, .i32⟩ : BufTy).Contents (Elt F) → (⟨S600000x1, .i32⟩ : BufTy).Contents (Elt F)),
    binary main_v80 main_v87 main_v88 ((fun x i => Host.gather gather_S150000x64_S600000x1_S600000x64_1_0_n_n_0_1_164 x i) : (⟨S150000x64, .f32⟩ : BufTy).Contents (Elt F) → (⟨S600000x1, .i32⟩ : BufTy).Contents (Elt F) → (⟨S600000x64, .f32⟩ : BufTy).Contents (Elt F)),
    unary main_v81 main_v89 (broadcastInDim S600000x64 ![0, 1] bcast_S600000x1_S600000x64_0_1 : (⟨S600000x1, .f32⟩ : BufTy).Contents (Elt F) → (⟨S600000x64, .f32⟩ : BufTy).Contents (Elt F)),
    binary main_v89 main_v88 main_v90 (mulf : (⟨S600000x64, .f32⟩ : BufTy).Contents (Elt F) → (⟨S600000x64, .f32⟩ : BufTy).Contents (Elt F) → (⟨S600000x64, .f32⟩ : BufTy).Contents (Elt F)),
    nullary main_cst_15 (constant S_ .f32 0x00000000#32),
    unary main_cst_15 main_v91 (broadcastInDim S50000x64 ![] bcast_S_S50000x64 : (⟨S_, .f32⟩ : BufTy).Contents (Elt F) → (⟨S50000x64, .f32⟩ : BufTy).Contents (Elt F)),
    unary main_arg35 main_v92 (broadcastInDim S600000x1 ![0] bcast_S600000_S600000x1_0 : (⟨S600000, .i32⟩ : BufTy).Contents (Elt F) → (⟨S600000x1, .i32⟩ : BufTy).Contents (Elt F)),
    ternary main_v91 main_v92 main_v90 main_v93 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v93) (TRef.of (T := ⟨S50000x64, .f32⟩) main_call5_v0) (TRef.of (T := ⟨S50000x64, .f32⟩) main_v94) maximumf ]

/-- The buffers those operations write. -/
abbrev wl5 : List (Ref sig .tc) := [main_v80, main_v81, main_c_13, main_v82, main_v83, main_c_14, main_v84, main_v85, main_v86, main_v87, main_v88, main_v89, main_v90, main_cst_15, main_v91, main_v92, main_v93, main_call5_cst, main_call5_v0, main_v94]

theorem win5_writes : (win5 : List (HloOp τ sig (Elt F))).Forall fun op => op.writes ⊆ (wl5.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win5_fresh : (win5 : List (HloOp τ sig (Elt F))).Forall fun op => op.fresh = ∅ := by
  simp only [List.Forall]; repeat' constructor

/-- A buffer they do not write is as before them. -/
theorem win5_keep (V : Valuation τ sig (Elt F)) (r : Ref sig .tc) (h : r ∉ wl5) :
    after win5 V (Proc.devRef .tc r) = V (Proc.devRef .tc r) :=
  after_of_writes_sub win5 V win5_writes h

/-- The message: `main_v94` after the operations is its stage of the arguments, read off `V`. -/
theorem win5_out (V : Valuation τ sig (Elt F)) :
    after win5 V (Proc.devRef .tc main_v94)
      = ReadP.val_main_v94 (F := F) (V (Proc.devRef .tc main_arg1)) (V (Proc.devRef .tc main_arg35)) (V (Proc.devRef .tc main_arg36)) (V (Proc.devRef .tc main_arg37)) (V (Proc.devRef .tc main_arg47)) := by
  after_results_simp
  rfl

end Cert.Proof.Ref2

end
-- ==== Proof.Ref2.Win6.lean ====
/-
  Operations 125 … 144 of the reference's @main: one message — a sparse product (gather the source rows, scale each by its
  coefficient, add into the target rows) of a linear map of one rank's features, rectified — written to `main_v109`. From ANY
  contents `V` the operations are entered with, `main_v109` ends at the Read module's stage `val_main_v109` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 125 … 144 of the reference's @main, in order. -/
abbrev win6 : List (HloOp τ sig (Elt F)) :=
  [ binary main_arg0 main_arg48 main_v95 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg37 main_v96 (broadcastInDim S600000x1 ![0] bcast_S600000_S600000x1_0 : (⟨S600000, .f32⟩ : BufTy).Contents (Elt F) → (⟨S600000x1, .f32⟩ : BufTy).Contents (Elt F)),
    nullary main_c_16 (constantI S_ 32 0#32),
    unary main_c_16 main_v97 (broadcastInDim S600000 ![] bcast_S_S600000 : (⟨S_, .i32⟩ : BufTy).Contents (Elt F) → (⟨S600000, .i32⟩ : BufTy).Contents (Elt F)),
    binary main_arg35 main_v97 main_v98 (cmpi .slt : (⟨S600000, .i32⟩ : BufTy).Contents (Elt F) → (⟨S600000, .i32⟩ : BufTy).Contents (Elt F) → (⟨S600000, .i1⟩ : BufTy).Contents (Elt F)),
    nullary main_c_17 (constantI S_ 32 50000#32),
    unary main_c_17 main_v99 (broadcastInDim S600000 ![] bcast_S_S600000 : (⟨S_, .i32⟩ : BufTy).Contents (Elt F) → (⟨S600000, .i32⟩ : BufTy).Contents (Elt F)),
    binary main_arg35 main_v99 main_v100 (addi : (⟨S600000, .i32⟩ : BufTy).Contents (Elt F) → (⟨S600000, .i32⟩ : BufTy).Contents (Elt F) → (⟨S600000, .i32⟩ : BufTy).Contents (Elt F)),
    ternary main_v98 main_v100 main_arg35 main_v101 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v101 main_v102 (broadcastInDim S600000x1 ![0] bcast_S600000_S600000x1_0 : (⟨S600000, .i32⟩ : BufTy).Contents (Elt F) → (⟨S600000x1, .i32⟩ : BufTy).Contents (Elt F)),
    binary main_v95 main_v102 main_v103 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    unary main_v96 main_v104 (broadcastInDim S600000x64 ![0, 1] bcast_S600000x1_S600000x64_0_1 : (⟨S600000x1, .f32⟩ : BufTy).Contents (Elt F) → (⟨S600000x64, .f32⟩ : BufTy).Contents (Elt F)),
    binary main_v104 main_v103 main_v105 (mulf : (⟨S600000x64, .f32⟩ : BufTy).Contents (Elt F) → (⟨S600000x64, .f32⟩ : BufTy).Contents (Elt F) → (⟨S600000x64, .f32⟩ : BufTy).Contents (Elt F)),
    nullary main_cst_18 (constant S_ .f32 0x00000000#32),
    unary main_cst_18 main_v106 (broadcastInDim S150000x64 ![] bcast_S_S150000x64 : (⟨S_, .f32⟩ : BufTy).Contents (Elt F) → (⟨S150000x64, .f32⟩ : BufTy).Contents (Elt F)),
    unary main_arg36 main_v107 (broadcastInDim S600000x1 ![0] bcast_S600000_S600000x1_0 : (⟨S600000, .i32⟩ : BufTy).Contents (Elt F) → (⟨S600000x1, .i32⟩ : BufTy).Contents (Elt F)),
    ternary main_v106 main_v107 main_v105 main_v108 ((fun x i u => Host.scatterAdd scatter_S150000x64_S600000x1_S600000x64_1_0_0_1 x i u) : (⟨S150000x64, .f32⟩ : BufTy).Contents (Elt F) → (⟨S600000x1, .i32⟩ : BufTy).Contents (Elt F) → (⟨S600000x64, .f32⟩ : BufTy).Contents (Elt F) → (⟨S150000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S150000x64, .f32⟩) main_call6_v0) (broadcastInDim S150000x64 ![] bcast_S_S150000x64),
    TRef.binary (TRef.of (T := ⟨S150000x64, .f32⟩) main_v108) (TRef.of (T := ⟨S150000x64, .f32⟩) main_call6_v0) (TRef.of (T := ⟨S150000x64, .f32⟩) main_v109) maximumf ]

/-- The buffers those operations write. -/
abbrev wl6 : List (Ref sig .tc) := [main_v95, main_v96, main_c_16, main_v97, main_v98, main_c_17, main_v99, main_v100, main_v101, main_v102, main_v103, main_v104, main_v105, main_cst_18, main_v106, main_v107, main_v108, main_call6_cst, main_call6_v0, main_v109]

theorem win6_writes : (win6 : List (HloOp τ sig (Elt F))).Forall fun op => op.writes ⊆ (wl6.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win6_fresh : (win6 : List (HloOp τ sig (Elt F))).Forall fun op => op.fresh = ∅ := by
  simp only [List.Forall]; repeat' constructor

/-- A buffer they do not write is as before them. -/
theorem win6_keep (V : Valuation τ sig (Elt F)) (r : Ref sig .tc) (h : r ∉ wl6) :
    after win6 V (Proc.devRef .tc r) = V (Proc.devRef .tc r) :=
  after_of_writes_sub win6 V win6_writes h

/-- The message: `main_v109` after the operations is its stage of the arguments, read off `V`. -/
theorem win6_out (V : Valuation τ sig (Elt F)) :
    after win6 V (Proc.devRef .tc main_v109)
      = ReadP.val_main_v109 (F := F) (V (Proc.devRef .tc main_arg0)) (V (Proc.devRef .tc main_arg35)) (V (Proc.devRef .tc main_arg36)) (V (Proc.devRef .tc main_arg37)) (V (Proc.devRef .tc main_arg48)) := by
  after_results_simp
  rfl

end Cert.Proof.Ref2

end
-- ==== Proof.Ref2.Win7.lean ====
/-
  Operations 145 … 164 of the reference's @main: one message — a sparse product (gather the source rows, scale each by its
  coefficient, add into the target rows) of a linear map of one rank's features, rectified — written to `main_v124`. From ANY
  contents `V` the operations are entered with, `main_v124` ends at the Read module's stage `val_main_v124` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 145 … 164 of the reference's @main, in order. -/
abbrev win7 : List (HloOp τ sig (Elt F)) :=
  [ binary main_arg2 main_arg49 main_v110 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg40 main_v111 (broadcastInDim S400000x1 ![0] bcast_S400000_S400000x1_0 : (⟨S400000, .f32⟩ : BufTy).Contents (Elt F) → (⟨S400000x1, .f32⟩ : BufTy).Contents (Elt F)),
    nullary main_c_19 (constantI S_ 32 0#32),
    unary main_c_19 main_v112 (broadcastInDim S400000 ![] bcast_S_S400000 : (⟨S_, .i32⟩ : BufTy).Contents (Elt F) → (⟨S400000, .i32⟩ : BufTy).Contents (Elt F)),
    binary main_arg39 main_v112 main_v113 (cmpi .slt : (⟨S400000, .i32⟩ : BufTy).Contents (Elt F) → (⟨S400000, .i32⟩ : BufTy).Contents (Elt F) → (⟨S400000, .i1⟩ : BufTy).Contents (Elt F)),
    nullary main_c_20 (constantI S_ 32 100000#32),
    unary main_c_20 main_v114 (broadcastInDim S400000 ![] bcast_S_S400000 : (⟨S_, .i32⟩ : BufTy).Contents (Elt F) → (⟨S400000, .i32⟩ : BufTy).Contents (Elt F)),
    binary main_arg39 main_v114 main_v115 (addi : (⟨S400000, .i32⟩ : BufTy).Contents (Elt F) → (⟨S400000, .i32⟩ : BufTy).Contents (Elt F) → (⟨S400000, .i32⟩ : BufTy).Contents (Elt F)),
    ternary main_v113 main_v115 main_arg39 main_v116 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v116 main_v117 (broadcastInDim S400000x1 ![0] bcast_S400000_S400000x1_0 : (⟨S400000, .i32⟩ : BufTy).Contents (Elt F) → (⟨S400000x1, .i32⟩ : BufTy).Contents (Elt F)),
    binary main_v110 main_v117 main_v118 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    unary main_v111 main_v119 (broadcastInDim S400000x64 ![0, 1] bcast_S400000x1_S400000x64_0_1 : (⟨S400000x1, .f32⟩ : BufTy).Contents (Elt F) → (⟨S400000x64, .f32⟩ : BufTy).Contents (Elt F)),
    binary main_v119 main_v118 main_v120 (mulf : (⟨S400000x64, .f32⟩ : BufTy).Contents (Elt F) → (⟨S400000x64, .f32⟩ : BufTy).Contents (Elt F) → (⟨S400000x64, .f32⟩ : BufTy).Contents (Elt F)),
    nullary main_cst_21 (constant S_ .f32 0x00000000#32),
    unary main_cst_21 main_v121 (broadcastInDim S150000x64 ![] bcast_S_S150000x64 : (⟨S_, .f32⟩ : BufTy).Contents (Elt F) → (⟨S150000x64, .f32⟩ : BufTy).Contents (Elt F)),
    unary main_arg38 main_v122 (broadcastInDim S400000x1 ![0] bcast_S400000_S400000x1_0 : (⟨S400000, .i32⟩ : BufTy).Contents (Elt F) → (⟨S400000x1, .i32⟩ : BufTy).Contents (Elt F)),
    ternary main_v121 main_v122 main_v120 main_v123 ((fun x i u => Host.scatterAdd scatter_S150000x64_S400000x1_S400000x64_1_0_0_1 x i u) : (⟨S150000x64, .f32⟩ : BufTy).Contents (Elt F) → (⟨S400000x1, .i32⟩ : BufTy).Contents (Elt F) → (⟨S400000x64, .f32⟩ : BufTy).Contents (Elt F) → (⟨S150000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S150000x64, .f32⟩) main_call7_v0) (broadcastInDim S150000x64 ![] bcast_S_S150000x64),
    TRef.binary (TRef.of (T := ⟨S150000x64, .f32⟩) main_v123) (TRef.of (T := ⟨S150000x64, .f32⟩) main_call7_v0) (TRef.of (T := ⟨S150000x64, .f32⟩) main_v124) maximumf ]

/-- The buffers those operations write. -/
abbrev wl7 : List (Ref sig .tc) := [main_v110, main_v111, main_c_19, main_v112, main_v113, main_c_20, main_v114, main_v115, main_v116, main_v117, main_v118, main_v119, main_v120, main_cst_21, main_v121, main_v122, main_v123, main_call7_cst, main_call7_v0, main_v124]

theorem win7_writes : (win7 : List (HloOp τ sig (Elt F))).Forall fun op => op.writes ⊆ (wl7.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win7_fresh : (win7 : List (HloOp τ sig (Elt F))).Forall fun op => op.fresh = ∅ := by
  simp only [List.Forall]; repeat' constructor

/-- A buffer they do not write is as before them. -/
theorem win7_keep (V : Valuation τ sig (Elt F)) (r : Ref sig .tc) (h : r ∉ wl7) :
    after win7 V (Proc.devRef .tc r) = V (Proc.devRef .tc r) :=
  after_of_writes_sub win7 V win7_writes h

/-- The message: `main_v124` after the operations is its stage of the arguments, read off `V`. -/
theorem win7_out (V : Valuation τ sig (Elt F)) :
    after win7 V (Proc.devRef .tc main_v124)
      = ReadP.val_main_v124 (F := F) (V (Proc.devRef .tc main_arg2)) (V (Proc.devRef .tc main_arg38)) (V (Proc.devRef .tc main_arg39)) (V (Proc.devRef .tc main_arg40)) (V (Proc.devRef .tc main_arg49)) := by
  after_results_simp
  rfl

end Cert.Proof.Ref2

end
-- ==== Proof.Ref2.Win8.lean ====
/-
  Operations 165 … 184 of the reference's @main: one message — a sparse product (gather the source rows, scale each by its
  coefficient, add into the target rows) of a linear map of one rank's features, rectified — written to `main_v139`. From ANY
  contents `V` the operations are entered with, `main_v139` ends at the Read module's stage `val_main_v139` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 165 … 184 of the reference's @main, in order. -/
abbrev win8 : List (HloOp τ sig (Elt F)) :=
  [ binary main_arg1 main_arg50 main_v125 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg40 main_v126 (broadcastInDim S400000x1 ![0] bcast_S400000_S400000x1_0 : (⟨S400000, .f32⟩ : BufTy).Contents (Elt F) → (⟨S400000x1, .f32⟩ : BufTy).Contents (Elt F)),
    nullary main_c_22 (constantI S_ 32 0#32),
    unary main_c_22 main_v127 (broadcastInDim S400000 ![] bcast_S_S400000 : (⟨S_, .i32⟩ : BufTy).Contents (Elt F) → (⟨S400000, .i32⟩ : BufTy).Contents (Elt F)),
    binary main_arg38 main_v127 main_v128 (cmpi .slt : (⟨S400000, .i32⟩ : BufTy).Contents (Elt F) → (⟨S400000, .i32⟩ : BufTy).Contents (Elt F) → (⟨S400000, .i1⟩ : BufTy).Contents (Elt F)),
    nullary main_c_23 (constantI S_ 32 150000#32),
    unary main_c_23 main_v129 (broadcastInDim S400000 ![] bcast_S_S400000 : (⟨S_, .i32⟩ : BufTy).Contents (Elt F) → (⟨S400000, .i32⟩ : BufTy).Contents (Elt F)),
    binary main_arg38 main_v129 main_v130 (addi : (⟨S400000, .i32⟩ : BufTy).Contents (Elt F) → (⟨S400000, .i32⟩ : BufTy).Contents (Elt F) → (⟨S400000, .i32⟩ : BufTy).Contents (Elt F)),
    ternary main_v128 main_v130 main_arg38 main_v131 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v131 main_v132 (broadcastInDim S400000x1 ![0] bcast_S400000_S400000x1_0 : (⟨S400000, .i32⟩ : BufTy).Contents (Elt F) → (⟨S400000x1, .i32⟩ : BufTy).Contents (Elt F)),
    binary main_v125 main_v132 main_v133 ((fun x i => Host.gather gather_S150000x64_S400000x1_S400000x64_1_0_n_n_0_1_164 x i) : (⟨S150000x64, .f32⟩ : BufTy).Contents (Elt F) → (⟨S400000x1, .i32⟩ : BufTy).Contents (Elt F) → (⟨S400000x64, .f32⟩ : BufTy).Contents (Elt F)),
    unary main_v126 main_v134 (broadcastInDim S400000x64 ![0, 1] bcast_S400000x1_S400000x64_0_1 : (⟨S400000x1, .f32⟩ : BufTy).Contents (Elt F) → (⟨S400000x64, .f32⟩ : BufTy).Contents (Elt F)),
    binary main_v134 main_v133 main_v135 (mulf : (⟨S400000x64, .f32⟩ : BufTy).Contents (Elt F) → (⟨S400000x64, .f32⟩ : BufTy).Contents (Elt F) → (⟨S400000x64, .f32⟩ : BufTy).Contents (Elt F)),
    nullary main_cst_24 (constant S_ .f32 0x00000000#32),
    unary main_cst_24 main_v136 (broadcastInDim S100000x64 ![] bcast_S_S100000x64 : (⟨S_, .f32⟩ : BufTy).Contents (Elt F) → (⟨S100000x64, .f32⟩ : BufTy).Contents (Elt F)),
    unary main_arg39 main_v137 (broadcastInDim S400000x1 ![0] bcast_S400000_S400000x1_0 : (⟨S400000, .i32⟩ : BufTy).Contents (Elt F) → (⟨S400000x1, .i32⟩ : BufTy).Contents (Elt F)),
    ternary main_v136 main_v137 main_v135 main_v138 ((fun x i u => Host.scatterAdd scatter_S100000x64_S400000x1_S400000x64_1_0_0_1 x i u) : (⟨S100000x64, .f32⟩ : BufTy).Contents (Elt F) → (⟨S400000x1, .i32⟩ : BufTy).Contents (Elt F) → (⟨S400000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v138) (TRef.of (T := ⟨S100000x64, .f32⟩) main_call8_v0) (TRef.of (T := ⟨S100000x64, .f32⟩) main_v139) maximumf ]

/-- The buffers those operations write. -/
abbrev wl8 : List (Ref sig .tc) := [main_v125, main_v126, main_c_22, main_v127, main_v128, main_c_23, main_v129, main_v130, main_v131, main_v132, main_v133, main_v134, main_v135, main_cst_24, main_v136, main_v137, main_v138, main_call8_cst, main_call8_v0, main_v139]

theorem win8_writes : (win8 : List (HloOp τ sig (Elt F))).Forall fun op => op.writes ⊆ (wl8.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win8_fresh : (win8 : List (HloOp τ sig (Elt F))).Forall fun op => op.fresh = ∅ := by
  simp only [List.Forall]; repeat' constructor

/-- A buffer they do not write is as before them. -/
theorem win8_keep (V : Valuation τ sig (Elt F)) (r : Ref sig .tc) (h : r ∉ wl8) :
    after win8 V (Proc.devRef .tc r) = V (Proc.devRef .tc r) :=
  after_of_writes_sub win8 V win8_writes h

/-- The message: `main_v139` after the operations is its stage of the arguments, read off `V`. -/
theorem win8_out (V : Valuation τ sig (Elt F)) :
    after win8 V (Proc.devRef .tc main_v139)
      = ReadP.val_main_v139 (F := F) (V (Proc.devRef .tc main_arg1)) (V (Proc.devRef .tc main_arg38)) (V (Proc.devRef .tc main_arg39)) (V (Proc.devRef .tc main_arg40)) (V (Proc.devRef .tc main_arg50)) := by
  after_results_simp
  rfl

end Cert.Proof.Ref2

end
-- ==== Proof.Ref2.Win9.lean ====
/-
  Operations 185 … 204 of the reference's @main: one message — a sparse product (gather the source rows, scale each by its
  coefficient, add into the target rows) of a linear map of one rank's features, rectified — written to `main_v154`. From ANY
  contents `V` the operations are entered with, `main_v154` ends at the Read module's stage `val_main_v154` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 185 … 204 of the reference's @main, in order. -/
abbrev win9 : List (HloOp τ sig (Elt F)) :=
  [ binary main_arg3 main_arg51 main_v140 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)),
    unary main_arg43 main_v141 (broadcastInDim S160000x1 ![0] bcast_S160000_S160000x1_0 : (⟨S160000, .f32⟩ : BufTy).Contents (Elt F) → (⟨S160000x1, .f32⟩ : BufTy).Contents (Elt F)),
    nullary main_c_25 (constantI S_ 32 0#32),
    unary main_c_25 main_v142 (broadcastInDim S160000 ![] bcast_S_S160000 : (⟨S_, .i32⟩ : BufTy).Contents (Elt F) → (⟨S160000, .i32⟩ : BufTy).Contents (Elt F)),
    binary main_arg42 main_v142 main_v143 (cmpi .slt : (⟨S160000, .i32⟩ : BufTy).Contents (Elt F) → (⟨S160000, .i32⟩ : BufTy).Contents (Elt F) → (⟨S160000, .i1⟩ : BufTy).Contents (Elt F)),
    nullary main_c_26 (constantI S_ 32 40000#32),
    unary main_c_26 main_v144 (broadcastInDim S160000 ![] bcast_S_S160000 : (⟨S_, .i32⟩ : BufTy).Contents (Elt F) → (⟨S160000, .i32⟩ : BufTy).Contents (Elt F)),
    binary main_arg42 main_v144 main_v145 (addi : (⟨S160000, .i32⟩ : BufTy).Contents (Elt F) → (⟨S160000, .i32⟩ : BufTy).Contents (Elt F) → (⟨S160000, .i32⟩ : BufTy).Contents (Elt F)),
    ternary main_v143 main_v145 main_arg42 main_v146 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v146 main_v147 (broadcastInDim S160000x1 ![0] bcast_S160000_S160000x1_0 : (⟨S160000, .i32⟩ : BufTy).Contents (Elt F) → (⟨S160000x1, .i32⟩ : BufTy).Contents (Elt F)),
    binary main_v140 main_v147 main_v148 ((fun x i => Host.gather gather_S40000x64_S160000x1_S160000x64_1_0_n_n_0_1_164 x i) : (⟨S40000x64, .f32⟩ : BufTy).Contents (Elt F) → (⟨S160000x1, .i32⟩ : BufTy).Contents (Elt F) → (⟨S160000x64, .f32⟩ : BufTy).Contents (Elt F)),
    unary main_v141 main_v149 (broadcastInDim S160000x64 ![0, 1] bcast_S160000x1_S160000x64_0_1 : (⟨S160000x1, .f32⟩ : BufTy).Contents (Elt F) → (⟨S160000x64, .f32⟩ : BufTy).Contents (Elt F)),
    binary main_v149 main_v148 main_v150 (mulf : (⟨S160000x64, .f32⟩ : BufTy).Contents (Elt F) → (⟨S160000x64, .f32⟩ : BufTy).Contents (Elt F) → (⟨S160000x64, .f32⟩ : BufTy).Contents (Elt F)),
    nullary main_cst_27 (constant S_ .f32 0x00000000#32),
    unary main_cst_27 main_v151 (broadcastInDim S100000x64 ![] bcast_S_S100000x64 : (⟨S_, .f32⟩ : BufTy).Contents (Elt F) → (⟨S100000x64, .f32⟩ : BufTy).Contents (Elt F)),
    unary main_arg41 main_v152 (broadcastInDim S160000x1 ![0] bcast_S160000_S160000x1_0 : (⟨S160000, .i32⟩ : BufTy).Contents (Elt F) → (⟨S160000x1, .i32⟩ : BufTy).Contents (Elt F)),
    ternary main_v151 main_v152 main_v150 main_v153 ((fun x i u => Host.scatterAdd scatter_S100000x64_S160000x1_S160000x64_1_0_0_1 x i u) : (⟨S100000x64, .f32⟩ : BufTy).Contents (Elt F) → (⟨S160000x1, .i32⟩ : BufTy).Contents (Elt F) → (⟨S160000x64, .f32⟩ : BufTy).Contents (Elt F) → (⟨S100000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x64, .f32⟩) main_call9_v0) (broadcastInDim S100000x64 ![] bcast_S_S100000x64),
    TRef.binary (TRef.of (T := ⟨S100000x64, .f32⟩) main_v153) (TRef.of (T := ⟨S100000x64, .f32⟩) main_call9_v0) (TRef.of (T := ⟨S100000x64, .f32⟩) main_v154) maximumf ]

/-- The buffers those operations write. -/
abbrev wl9 : List (Ref sig .tc) := [main_v140, main_v141, main_c_25, main_v142, main_v143, main_c_26, main_v144, main_v145, main_v146, main_v147, main_v148, main_v149, main_v150, main_cst_27, main_v151, main_v152, main_v153, main_call9_cst, main_call9_v0, main_v154]

theorem win9_writes : (win9 : List (HloOp τ sig (Elt F))).Forall fun op => op.writes ⊆ (wl9.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win9_fresh : (win9 : List (HloOp τ sig (Elt F))).Forall fun op => op.fresh = ∅ := by
  simp only [List.Forall]; repeat' constructor

/-- A buffer they do not write is as before them. -/
theorem win9_keep (V : Valuation τ sig (Elt F)) (r : Ref sig .tc) (h : r ∉ wl9) :
    after win9 V (Proc.devRef .tc r) = V (Proc.devRef .tc r) :=
  after_of_writes_sub win9 V win9_writes h

/-- The message: `main_v154` after the operations is its stage of the arguments, read off `V`. -/
theorem win9_out (V : Valuation τ sig (Elt F)) :
    after win9 V (Proc.devRef .tc main_v154)
      = ReadP.val_main_v154 (F := F) (V (Proc.devRef .tc main_arg3)) (V (Proc.devRef .tc main_arg41)) (V (Proc.devRef .tc main_arg42)) (V (Proc.devRef .tc main_arg43)) (V (Proc.devRef .tc main_arg51)) := by
  after_results_simp
  rfl

end Cert.Proof.Ref2

end
-- ==== Proof.Ref2.Win10.lean ====
/-
  Operations 205 … 224 of the reference's @main: one message — a sparse product (gather the source rows, scale each by its
  coefficient, add into the target rows) of a linear map of one rank's features, rectified — written to `main_v169`. From ANY
  contents `V` the operations are entered with, `main_v169` ends at the Read module's stage `val_main_v169` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 205 … 224 of the reference's @main, in order. -/
abbrev win10 : List (HloOp τ sig (Elt F)) :=
  [ binary main_arg2 main_arg52 main_v155 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg43 main_v156 (broadcastInDim S160000x1 ![0] bcast_S160000_S160000x1_0 : (⟨S160000, .f32⟩ : BufTy).Contents (Elt F) → (⟨S160000x1, .f32⟩ : BufTy).Contents (Elt F)),
    nullary main_c_28 (constantI S_ 32 0#32),
    unary main_c_28 main_v157 (broadcastInDim S160000 ![] bcast_S_S160000 : (⟨S_, .i32⟩ : BufTy).Contents (Elt F) → (⟨S160000, .i32⟩ : BufTy).Contents (Elt F)),
    binary main_arg41 main_v157 main_v158 (cmpi .slt : (⟨S160000, .i32⟩ : BufTy).Contents (Elt F) → (⟨S160000, .i32⟩ : BufTy).Contents (Elt F) → (⟨S160000, .i1⟩ : BufTy).Contents (Elt F)),
    nullary main_c_29 (constantI S_ 32 100000#32),
    unary main_c_29 main_v159 (broadcastInDim S160000 ![] bcast_S_S160000 : (⟨S_, .i32⟩ : BufTy).Contents (Elt F) → (⟨S160000, .i32⟩ : BufTy).Contents (Elt F)),
    binary main_arg41 main_v159 main_v160 (addi : (⟨S160000, .i32⟩ : BufTy).Contents (Elt F) → (⟨S160000, .i32⟩ : BufTy).Contents (Elt F) → (⟨S160000, .i32⟩ : BufTy).Contents (Elt F)),
    ternary main_v158 main_v160 main_arg41 main_v161 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v161 main_v162 (broadcastInDim S160000x1 ![0] bcast_S160000_S160000x1_0 : (⟨S160000, .i32⟩ : BufTy).Contents (Elt F) → (⟨S160000x1, .i32⟩ : BufTy).Contents (Elt F)),
    binary main_v155 main_v162 main_v163 ((fun x i => Host.gather gather_S100000x64_S160000x1_S160000x64_1_0_n_n_0_1_164 x i) : (⟨S100000x64, .f32⟩ : BufTy).Contents (Elt F) → (⟨S160000x1, .i32⟩ : BufTy).Contents (Elt F) → (⟨S160000x64, .f32⟩ : BufTy).Contents (Elt F)),
    unary main_v156 main_v164 (broadcastInDim S160000x64 ![0, 1] bcast_S160000x1_S160000x64_0_1 : (⟨S160000x1, .f32⟩ : BufTy).Contents (Elt F) → (⟨S160000x64, .f32⟩ : BufTy).Contents (Elt F)),
    binary main_v164 main_v163 main_v165 (mulf : (⟨S160000x64, .f32⟩ : BufTy).Contents (Elt F) → (⟨S160000x64, .f32⟩ : BufTy).Contents (Elt F) → (⟨S160000x64, .f32⟩ : BufTy).Contents (Elt F)),
    nullary main_cst_30 (constant S_ .f32 0x00000000#32),
    unary main_cst_30 main_v166 (broadcastInDim S40000x64 ![] bcast_S_S40000x64 : (⟨S_, .f32⟩ : BufTy).Contents (Elt F) → (⟨S40000x64, .f32⟩ : BufTy).Contents (Elt F)),
    unary main_arg42 main_v167 (broadcastInDim S160000x1 ![0] bcast_S160000_S160000x1_0 : (⟨S160000, .i32⟩ : BufTy).Contents (Elt F) → (⟨S160000x1, .i32⟩ : BufTy).Contents (Elt F)),
    ternary main_v166 main_v167 main_v165 main_v168 ((fun x i u => Host.scatterAdd scatter_S40000x64_S160000x1_S160000x64_1_0_0_1 x i u) : (⟨S40000x64, .f32⟩ : BufTy).Contents (Elt F) → (⟨S160000x1, .i32⟩ : BufTy).Contents (Elt F) → (⟨S160000x64, .f32⟩ : BufTy).Contents (Elt F) → (⟨S40000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S40000x64, .f32⟩) main_call10_v0) (broadcastInDim S40000x64 ![] bcast_S_S40000x64),
    TRef.binary (TRef.of (T := ⟨S40000x64, .f32⟩) main_v168) (TRef.of (T := ⟨S40000x64, .f32⟩) main_call10_v0) (TRef.of (T := ⟨S40000x64, .f32⟩) main_v169) maximumf ]

/-- The buffers those operations write. -/
abbrev wl10 : List (Ref sig .tc) := [main_v155, main_v156, main_c_28, main_v157, main_v158, main_c_29, main_v159, main_v160, main_v161, main_v162, main_v163, main_v164, main_v165, main_cst_30, main_v166, main_v167, main_v168, main_call10_cst, main_call10_v0, main_v169]

theorem win10_writes : (win10 : List (HloOp τ sig (Elt F))).Forall fun op => op.writes ⊆ (wl10.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win10_fresh : (win10 : List (HloOp τ sig (Elt F))).Forall fun op => op.fresh = ∅ := by
  simp only [List.Forall]; repeat' constructor

/-- A buffer they do not write is as before them. -/
theorem win10_keep (V : Valuation τ sig (Elt F)) (r : Ref sig .tc) (h : r ∉ wl10) :
    after win10 V (Proc.devRef .tc r) = V (Proc.devRef .tc r) :=
  after_of_writes_sub win10 V win10_writes h

/-- The message: `main_v169` after the operations is its stage of the arguments, read off `V`. -/
theorem win10_out (V : Valuation τ sig (Elt F)) :
    after win10 V (Proc.devRef .tc main_v169)
      = ReadP.val_main_v169 (F := F) (V (Proc.devRef .tc main_arg2)) (V (Proc.devRef .tc main_arg41)) (V (Proc.devRef .tc main_arg42)) (V (Proc.devRef .tc main_arg43)) (V (Proc.devRef .tc main_arg52)) := by
  after_results_simp
  rfl

end Cert.Proof.Ref2

end
-- ==== Proof.Ref2.Win11.lean ====
/-
  Operations 225 … 244 of the reference's @main: one message — a sparse product (gather the source rows, scale each by its
  coefficient, add into the target rows) of a linear map of one rank's features, rectified — written to `main_v184`. From ANY
  contents `V` the operations are entered with, `main_v184` ends at the Read module's stage `val_main_v184` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 225 … 244 of the reference's @main, in order. -/
abbrev win11 : List (HloOp τ sig (Elt F)) :=
  [ binary main_arg4 main_arg53 main_v170 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    unary main_arg46 main_v171 (broadcastInDim S40000x1 ![0] bcast_S40000_S40000x1_0 : (⟨S40000, .f32⟩ : BufTy).Contents (Elt F) → (⟨S40000x1, .f32⟩ : BufTy).Contents (Elt F)),
    nullary main_c_31 (constantI S_ 32 0#32),
    unary main_c_31 main_v172 (broadcastInDim S40000 ![] bcast_S_S40000 : (⟨S_, .i32⟩ : BufTy).Contents (Elt F) → (⟨S40000, .i32⟩ : BufTy).Contents (Elt F)),
    binary main_arg45 main_v172 main_v173 (cmpi .slt : (⟨S40000, .i32⟩ : BufTy).Contents (Elt F) → (⟨S40000, .i32⟩ : BufTy).Contents (Elt F) → (⟨S40000, .i1⟩ : BufTy).Contents (Elt F)),
    nullary main_c_32 (constantI S_ 32 10000#32),
    unary main_c_32 main_v174 (broadcastInDim S40000 ![] bcast_S_S40000 : (⟨S_, .i32⟩ : BufTy).Contents (Elt F) → (⟨S40000, .i32⟩ : BufTy).Contents (Elt F)),
    binary main_arg45 main_v174 main_v175 (addi : (⟨S40000, .i32⟩ : BufTy).Contents (Elt F) → (⟨S40000, .i32⟩ : BufTy).Contents (Elt F) → (⟨S40000, .i32⟩ : BufTy).Contents (Elt F)),
    ternary main_v173 main_v175 main_arg45 main_v176 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v176 main_v177 (broadcastInDim S40000x1 ![0] bcast_S40000_S40000x1_0 : (⟨S40000, .i32⟩ : BufTy).Contents (Elt F) → (⟨S40000x1, .i32⟩ : BufTy).Contents (Elt F)),
    binary main_v170 main_v177 main_v178 ((fun x i => Host.gather gather_S10000x64_S40000x1_S40000x64_1_0_n_n_0_1_164 x i) : (⟨S10000x64, .f32⟩ : BufTy).Contents (Elt F) → (⟨S40000x1, .i32⟩ : BufTy).Contents (Elt F) → (⟨S40000x64, .f32⟩ : BufTy).Contents (Elt F)),
    unary main_v171 main_v179 (broadcastInDim S40000x64 ![0, 1] bcast_S40000x1_S40000x64_0_1 : (⟨S40000x1, .f32⟩ : BufTy).Contents (Elt F) → (⟨S40000x64, .f32⟩ : BufTy).Contents (Elt F)),
    binary main_v179 main_v178 main_v180 (mulf : (⟨S40000x64, .f32⟩ : BufTy).Contents (Elt F) → (⟨S40000x64, .f32⟩ : BufTy).Contents (Elt F) → (⟨S40000x64, .f32⟩ : BufTy).Contents (Elt F)),
    nullary main_cst_33 (constant S_ .f32 0x00000000#32),
    unary main_cst_33 main_v181 (broadcastInDim S40000x64 ![] bcast_S_S40000x64 : (⟨S_, .f32⟩ : BufTy).Contents (Elt F) → (⟨S40000x64, .f32⟩ : BufTy).Contents (Elt F)),
    unary main_arg44 main_v182 (broadcastInDim S40000x1 ![0] bcast_S40000_S40000x1_0 : (⟨S40000, .i32⟩ : BufTy).Contents (Elt F) → (⟨S40000x1, .i32⟩ : BufTy).Contents (Elt F)),
    ternary main_v181 main_v182 main_v180 main_v183 ((fun x i u => Host.scatterAdd scatter_S40000x64_S40000x1_S40000x64_1_0_0_1 x i u) : (⟨S40000x64, .f32⟩ : BufTy).Contents (Elt F) → (⟨S40000x1, .i32⟩ : BufTy).Contents (Elt F) → (⟨S40000x64, .f32⟩ : BufTy).Contents (Elt F) → (⟨S40000x64, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S40000x64, .f32⟩) main_call11_v0) (broadcastInDim S40000x64 ![] bcast_S_S40000x64),
    TRef.binary (TRef.of (T := ⟨S40000x64, .f32⟩) main_v183) (TRef.of (T := ⟨S40000x64, .f32⟩) main_call11_v0) (TRef.of (T := ⟨S40000x64, .f32⟩) main_v184) maximumf ]

/-- The buffers those operations write. -/
abbrev wl11 : List (Ref sig .tc) := [main_v170, main_v171, main_c_31, main_v172, main_v173, main_c_32, main_v174, main_v175, main_v176, main_v177, main_v178, main_v179, main_v180, main_cst_33, main_v181, main_v182, main_v183, main_call11_cst, main_call11_v0, main_v184]

theorem win11_writes : (win11 : List (HloOp τ sig (Elt F))).Forall fun op => op.writes ⊆ (wl11.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win11_fresh : (win11 : List (HloOp τ sig (Elt F))).Forall fun op => op.fresh = ∅ := by
  simp only [List.Forall]; repeat' constructor

/-- A buffer they do not write is as before them. -/
theorem win11_keep (V : Valuation τ sig (Elt F)) (r : Ref sig .tc) (h : r ∉ wl11) :
    after win11 V (Proc.devRef .tc r) = V (Proc.devRef .tc r) :=
  after_of_writes_sub win11 V win11_writes h

/-- The message: `main_v184` after the operations is its stage of the arguments, read off `V`. -/
theorem win11_out (V : Valuation τ sig (Elt F)) :
    after win11 V (Proc.devRef .tc main_v184)
      = ReadP.val_main_v184 (F := F) (V (Proc.devRef .tc main_arg4)) (V (Proc.devRef .tc main_arg44)) (V (Proc.devRef .tc main_arg45)) (V (Proc.devRef .tc main_arg46)) (V (Proc.devRef .tc main_arg53)) := by
  after_results_simp
  rfl

end Cert.Proof.Ref2

end
-- ==== Proof.Ref2.Win12.lean ====
/-
  Operations 245 … 264 of the reference's @main: one message — a sparse product (gather the source rows, scale each by its
  coefficient, add into the target rows) of a linear map of one rank's features, rectified — written to `main_v199`. From ANY
  contents `V` the operations are entered with, `main_v199` ends at the Read module's stage `val_main_v199` of the arguments as
  `V` holds them; every buffer the operations do not write is unchanged.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 245 … 264 of the reference's @main, in order. -/
abbrev win12 : List (HloOp τ sig (Elt F)) :=
  [ binary main_arg3 main_arg54 main_v185 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)),
    unary main_arg46 main_v186 (broadcastInDim S40000x1 ![0] bcast_S40000_S40000x1_0 : (⟨S40000, .f32⟩ : BufTy).Contents (Elt F) → (⟨S40000x1, .f32⟩ : BufTy).Contents (Elt F)),
    nullary main_c_34 (constantI S_ 32 0#32),
    unary main_c_34 main_v187 (broadcastInDim S40000 ![] bcast_S_S40000 : (⟨S_, .i32⟩ : BufTy).Contents (Elt F) → (⟨S40000, .i32⟩ : BufTy).Contents (Elt F)),
    binary main_arg44 main_v187 main_v188 (cmpi .slt : (⟨S40000, .i32⟩ : BufTy).Contents (Elt F) → (⟨S40000, .i32⟩ : BufTy).Contents (Elt F) → (⟨S40000, .i1⟩ : BufTy).Contents (Elt F)),
    nullary main_c_35 (constantI S_ 32 40000#32),
    unary main_c_35 main_v189 (broadcastInDim S40000 ![] bcast_S_S40000 : (⟨S_, .i32⟩ : BufTy).Contents (Elt F) → (⟨S40000, .i32⟩ : BufTy).Contents (Elt F)),
    binary main_arg44 main_v189 main_v190 (addi : (⟨S40000, .i32⟩ : BufTy).Contents (Elt F) → (⟨S40000, .i32⟩ : BufTy).Contents (Elt F) → (⟨S40000, .i32⟩ : BufTy).Contents (Elt F)),
    ternary main_v188 main_v190 main_arg44 main_v191 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v191 main_v192 (broadcastInDim S40000x1 ![0] bcast_S40000_S40000x1_0 : (⟨S40000, .i32⟩ : BufTy).Contents (Elt F) → (⟨S40000x1, .i32⟩ : BufTy).Contents (Elt F)),
    binary main_v185 main_v192 main_v193 ((fun x i => Host.gather gather_S40000x64_S40000x1_S40000x64_1_0_n_n_0_1_164 x i) : (⟨S40000x64, .f32⟩ : BufTy).Contents (Elt F) → (⟨S40000x1, .i32⟩ : BufTy).Contents (Elt F) → (⟨S40000x64, .f32⟩ : BufTy).Contents (Elt F)),
    unary main_v186 main_v194 (broadcastInDim S40000x64 ![0, 1] bcast_S40000x1_S40000x64_0_1 : (⟨S40000x1, .f32⟩ : BufTy).Contents (Elt F) → (⟨S40000x64, .f32⟩ : BufTy).Contents (Elt F)),
    binary main_v194 main_v193 main_v195 (mulf : (⟨S40000x64, .f32⟩ : BufTy).Contents (Elt F) → (⟨S40000x64, .f32⟩ : BufTy).Contents (Elt F) → (⟨S40000x64, .f32⟩ : BufTy).Contents (Elt F)),
    nullary main_cst_36 (constant S_ .f32 0x00000000#32),
    unary main_cst_36 main_v196 (broadcastInDim S10000x64 ![] bcast_S_S10000x64 : (⟨S_, .f32⟩ : BufTy).Contents (Elt F) → (⟨S10000x64, .f32⟩ : BufTy).Contents (Elt F)),
    unary main_arg45 main_v197 (broadcastInDim S40000x1 ![0] bcast_S40000_S40000x1_0 : (⟨S40000, .i32⟩ : BufTy).Contents (Elt F) → (⟨S40000x1, .i32⟩ : BufTy).Contents (Elt F)),
    ternary main_v196 main_v197 main_v195 main_v198 ((fun x i u => Host.scatterAdd scatter_S10000x64_S40000x1_S40000x64_1_0_0_1 x i u) : (⟨S10000x64, .f32⟩ : BufTy).Contents (Elt F) → (⟨S40000x1, .i32⟩ : BufTy).Contents (Elt F) → (⟨S40000x64, .f32⟩ : BufTy).Contents (Elt F) → (⟨S10000x64, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S10000x64, .f32⟩) main_call12_v0) (broadcastInDim S10000x64 ![] bcast_S_S10000x64),
    TRef.binary (TRef.of (T := ⟨S10000x64, .f32⟩) main_v198) (TRef.of (T := ⟨S10000x64, .f32⟩) main_call12_v0) (TRef.of (T := ⟨S10000x64, .f32⟩) main_v199) maximumf ]

/-- The buffers those operations write. -/
abbrev wl12 : List (Ref sig .tc) := [main_v185, main_v186, main_c_34, main_v187, main_v188, main_c_35, main_v189, main_v190, main_v191, main_v192, main_v193, main_v194, main_v195, main_cst_36, main_v196, main_v197, main_v198, main_call12_cst, main_call12_v0, main_v199]

theorem win12_writes : (win12 : List (HloOp τ sig (Elt F))).Forall fun op => op.writes ⊆ (wl12.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win12_fresh : (win12 : List (HloOp τ sig (Elt F))).Forall fun op => op.fresh = ∅ := by
  simp only [List.Forall]; repeat' constructor

/-- A buffer they do not write is as before them. -/
theorem win12_keep (V : Valuation τ sig (Elt F)) (r : Ref sig .tc) (h : r ∉ wl12) :
    after win12 V (Proc.devRef .tc r) = V (Proc.devRef .tc r) :=
  after_of_writes_sub win12 V win12_writes h

/-- The message: `main_v199` after the operations is its stage of the arguments, read off `V`. -/
theorem win12_out (V : Valuation τ sig (Elt F)) :
    after win12 V (Proc.devRef .tc main_v199)
      = ReadP.val_main_v199 (F := F) (V (Proc.devRef .tc main_arg3)) (V (Proc.devRef .tc main_arg44)) (V (Proc.devRef .tc main_arg45)) (V (Proc.devRef .tc main_arg46)) (V (Proc.devRef .tc main_arg54)) := by
  after_results_simp
  rfl

end Cert.Proof.Ref2

end
-- ==== Proof.Ref2.WinFin.lean ====
/-
  Operations 265 … 292 of the reference's @main: the five aggregations. Each adds the messages into one rank (two for
  the first and the last rank, three for the others), multiplies by that rank's weights and rectifies. From ANY contents
  `V` that hold each message at its stage of the arguments, each result ends at its stage of the arguments.
-/
import proofs.«140264_j78443282694634_2_alg».proof.Proof.Gen.ReferenceIdeal
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
/-- Operations 265 … 292 of the reference's @main, in order. -/
abbrev win13 : List (HloOp τ sig (Elt F)) :=
  [ binary main_v15 main_v94 main_v200 (addf : (⟨S50000x64, .f32⟩ : BufTy).Contents (Elt F) → (⟨S50000x64, .f32⟩ : BufTy).Contents (Elt F) → (⟨S50000x64, .f32⟩ : BufTy).Contents (Elt F)),
    binary main_v200 main_arg30 main_v201 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S50000x64, .f32⟩) main_call13_v0) (broadcastInDim S50000x64 ![] bcast_S_S50000x64),
    TRef.binary (TRef.of (T := ⟨S50000x64, .f32⟩) main_v201) (TRef.of (T := ⟨S50000x64, .f32⟩) main_call13_v0) (TRef.of (T := ⟨S50000x64, .f32⟩) main_v202) maximumf,
    binary main_v109 main_v31 main_v203 (addf : (⟨S150000x64, .f32⟩ : BufTy).Contents (Elt F) → (⟨S150000x64, .f32⟩ : BufTy).Contents (Elt F) → (⟨S150000x64, .f32⟩ : BufTy).Contents (Elt F)),
    binary main_v203 main_v124 main_v204 (addf : (⟨S150000x64, .f32⟩ : BufTy).Contents (Elt F) → (⟨S150000x64, .f32⟩ : BufTy).Contents (Elt F) → (⟨S150000x64, .f32⟩ : BufTy).Contents (Elt F)),
    binary main_v204 main_arg31 main_v205 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S150000x64, .f32⟩) main_call14_v0) (broadcastInDim S150000x64 ![] bcast_S_S150000x64),
    TRef.binary (TRef.of (T := ⟨S150000x64, .f32⟩) main_v205) (TRef.of (T := ⟨S150000x64, .f32⟩) main_call14_v0) (TRef.of (T := ⟨S150000x64, .f32⟩) main_v206) maximumf,
    binary main_v139 main_v47 main_v207 (addf : (⟨S100000x64, .f32⟩ : BufTy).Contents (Elt F) → (⟨S100000x64, .f32⟩ : BufTy).Contents (Elt F) → (⟨S100000x64, .f32⟩ : BufTy).Contents (Elt F)),
    binary main_v207 main_v154 main_v208 (addf : (⟨S100000x64, .f32⟩ : BufTy).Contents (Elt F) → (⟨S100000x64, .f32⟩ : BufTy).Contents (Elt F) → (⟨S100000x64, .f32⟩ : BufTy).Contents (Elt F)),
    binary main_v208 main_arg32 main_v209 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S100000x64, .f32⟩) main_call15_v0) (broadcastInDim S100000x64 ![] bcast_S_S100000x64),
    TRef.binary (TRef.of (T := ⟨S100000x64, .f32⟩) main_v209) (TRef.of (T := ⟨S100000x64, .f32⟩) main_call15_v0) (TRef.of (T := ⟨S100000x64, .f32⟩) main_v210) maximumf,
    binary main_v169 main_v63 main_v211 (addf : (⟨S40000x64, .f32⟩ : BufTy).Contents (Elt F) → (⟨S40000x64, .f32⟩ : BufTy).Contents (Elt F) → (⟨S40000x64, .f32⟩ : BufTy).Contents (Elt F)),
    binary main_v211 main_v184 main_v212 (addf : (⟨S40000x64, .f32⟩ : BufTy).Contents (Elt F) → (⟨S40000x64, .f32⟩ : BufTy).Contents (Elt F) → (⟨S40000x64, .f32⟩ : BufTy).Contents (Elt F)),
    binary main_v212 main_arg33 main_v213 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S40000x64, .f32⟩) main_call16_v0) (broadcastInDim S40000x64 ![] bcast_S_S40000x64),
    TRef.binary (TRef.of (T := ⟨S40000x64, .f32⟩) main_v213) (TRef.of (T := ⟨S40000x64, .f32⟩) main_call16_v0) (TRef.of (T := ⟨S40000x64, .f32⟩) main_v214) maximumf,
    binary main_v199 main_v79 main_v215 (addf : (⟨S10000x64, .f32⟩ : BufTy).Contents (Elt F) → (⟨S10000x64, .f32⟩ : BufTy).Contents (Elt F) → (⟨S10000x64, .f32⟩ : BufTy).Contents (Elt F)),
    binary main_v215 main_arg34 main_v216 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S10000x64, .f32⟩) main_call17_v0) (broadcastInDim S10000x64 ![] bcast_S_S10000x64),
    TRef.binary (TRef.of (T := ⟨S10000x64, .f32⟩) main_v216) (TRef.of (T := ⟨S10000x64, .f32⟩) main_call17_v0) (TRef.of (T := ⟨S10000x64, .f32⟩) main_v217) maximumf ]

/-- The buffers those operations write. -/
abbrev wl13 : List (Ref sig .tc) := [main_v200, main_v201, main_call13_cst, main_call13_v0, main_v202, main_v203, main_v204, main_v205, main_call14_cst, main_call14_v0, main_v206, main_v207, main_v208, main_v209, main_call15_cst, main_call15_v0, main_v210, main_v211, main_v212, main_v213, main_call16_cst, main_call16_v0, main_v214, main_v215, main_v216, main_call17_cst, main_call17_v0, main_v217]

theorem win13_writes : (win13 : List (HloOp τ sig (Elt F))).Forall fun op => op.writes ⊆ (wl13.map (Proc.devRef (τ := τ) .tc)).toFinset := by
  simp only [List.Forall, nullary_writes, unary_writes, binary_writes, ternary_writes, quaternary_writes, nary_writes, TRef.nullary, TRef.unary, TRef.binary, Finset.singleton_subset_iff, List.mem_toFinset]
  repeat' apply And.intro
  all_goals exact List.mem_map_of_mem (by decide)

/-- None of them allocates a buffer. -/
theorem win13_fresh : (win13 : List (HloOp τ sig (Elt F))).Forall fun op => op.fresh = ∅ := by
  simp only [List.Forall]; repeat' constructor

/-- A buffer they do not write is as before them. -/
theorem win13_keep (V : Valuation τ sig (Elt F)) (r : Ref sig .tc) (h : r ∉ wl13) :
    after win13 V (Proc.devRef .tc r) = V (Proc.devRef .tc r) :=
  after_of_writes_sub win13 V win13_writes h

/-- Result `main_v202`: the sum of the messages into its rank (as the contents `V` hold them), times the rank's weights
    (the argument `main_arg30`), rectified, is the Read module's stage `val_main_v202`. -/
theorem fin_v202 (V : Valuation τ sig (Elt F)) {x0 : (⟨S50000x64, .f32⟩ : BufTy).Contents (Elt F)} {x1 : (⟨S150000x64, .f32⟩ : BufTy).Contents (Elt F)} {x5 : (⟨S400000, .i32⟩ : BufTy).Contents (Elt F)} {x6 : (⟨S400000, .i32⟩ : BufTy).Contents (Elt F)} {x7 : (⟨S400000, .f32⟩ : BufTy).Contents (Elt F)} {x20 : (⟨S50000x64, .f32⟩ : BufTy).Contents (Elt F)} {x25 : (⟨S64x64, .f32⟩ : BufTy).Contents (Elt F)} {x30 : (⟨S64x64, .f32⟩ : BufTy).Contents (Elt F)} {x35 : (⟨S600000, .i32⟩ : BufTy).Contents (Elt F)} {x36 : (⟨S600000, .i32⟩ : BufTy).Contents (Elt F)} {x37 : (⟨S600000, .f32⟩ : BufTy).Contents (Elt F)} {x47 : (⟨S64x64, .f32⟩ : BufTy).Contents (Elt F)}
    (h_v15 : V (Proc.devRef .tc main_v15) = ReadP.val_main_v15 (F := F) x0 x5 x6 x7 x20 x25)
    (h_v94 : V (Proc.devRef .tc main_v94) = ReadP.val_main_v94 (F := F) x1 x35 x36 x37 x47)
    (h_w : V (Proc.devRef .tc main_arg30) = x30) :
    after win13 V (Proc.devRef .tc main_v202) = ReadP.val_main_v202 (F := F) x0 x1 x5 x6 x7 x20 x25 x30 x35 x36 x37 x47 := by
  after_results_simp
  rw [h_v15, h_v94, h_w]
  rfl

/-- Result `main_v206`: the sum of the messages into its rank (as the contents `V` hold them), times the rank's weights
    (the argument `main_arg31`), rectified, is the Read module's stage `val_main_v206`. -/
theorem fin_v206 (V : Valuation τ sig (Elt F)) {x0 : (⟨S50000x64, .f32⟩ : BufTy).Contents (Elt F)} {x1 : (⟨S150000x64, .f32⟩ : BufTy).Contents (Elt F)} {x2 : (⟨S100000x64, .f32⟩ : BufTy).Contents (Elt F)} {x8 : (⟨S1200000, .i32⟩ : BufTy).Contents (Elt F)} {x9 : (⟨S1200000, .i32⟩ : BufTy).Contents (Elt F)} {x10 : (⟨S1200000, .f32⟩ : BufTy).Contents (Elt F)} {x21 : (⟨S150000x64, .f32⟩ : BufTy).Contents (Elt F)} {x26 : (⟨S64x64, .f32⟩ : BufTy).Contents (Elt F)} {x31 : (⟨S64x64, .f32⟩ : BufTy).Contents (Elt F)} {x35 : (⟨S600000, .i32⟩ : BufTy).Contents (Elt F)} {x36 : (⟨S600000, .i32⟩ : BufTy).Contents (Elt F)} {x37 : (⟨S600000, .f32⟩ : BufTy).Contents (Elt F)} {x38 : (⟨S400000, .i32⟩ : BufTy).Contents (Elt F)} {x39 : (⟨S400000, .i32⟩ : BufTy).Contents (Elt F)} {x40 : (⟨S400000, .f32⟩ : BufTy).Contents (Elt F)} {x48 : (⟨S64x64, .f32⟩ : BufTy).Contents (Elt F)} {x49 : (⟨S64x64, .f32⟩ : BufTy).Contents (Elt F)}
    (h_v109 : V (Proc.devRef .tc main_v109) = ReadP.val_main_v109 (F := F) x0 x35 x36 x37 x48)
    (h_v31 : V (Proc.devRef .tc main_v31) = ReadP.val_main_v31 (F := F) x1 x8 x9 x10 x21 x26)
    (h_v124 : V (Proc.devRef .tc main_v124) = ReadP.val_main_v124 (F := F) x2 x38 x39 x40 x49)
    (h_w : V (Proc.devRef .tc main_arg31) = x31) :
    after win13 V (Proc.devRef .tc main_v206) = ReadP.val_main_v206 (F := F) x0 x1 x2 x8 x9 x10 x21 x26 x31 x35 x36 x37 x38 x39 x40 x48 x49 := by
  after_results_simp
  rw [h_v109, h_v31, h_v124, h_w]
  rfl

/-- Result `main_v210`: the sum of the messages into its rank (as the contents `V` hold them), times the rank's weights
    (the argument `main_arg32`), rectified, is the Read module's stage `val_main_v210`. -/
theorem fin_v210 (V : Valuation τ sig (Elt F)) {x1 : (⟨S150000x64, .f32⟩ : BufTy).Contents (Elt F)} {x2 : (⟨S100000x64, .f32⟩ : BufTy).Contents (Elt F)} {x3 : (⟨S40000x64, .f32⟩ : BufTy).Contents (Elt F)} {x11 : (⟨S800000, .i32⟩ : BufTy).Contents (Elt F)} {x12 : (⟨S800000, .i32⟩ : BufTy).Contents (Elt F)} {x13 : (⟨S800000, .f32⟩ : BufTy).Contents (Elt F)} {x22 : (⟨S100000x64, .f32⟩ : BufTy).Contents (Elt F)} {x27 : (⟨S64x64, .f32⟩ : BufTy).Contents (Elt F)} {x32 : (⟨S64x64, .f32⟩ : BufTy).Contents (Elt F)} {x38 : (⟨S400000, .i32⟩ : BufTy).Contents (Elt F)} {x39 : (⟨S400000, .i32⟩ : BufTy).Contents (Elt F)} {x40 : (⟨S400000, .f32⟩ : BufTy).Contents (Elt F)} {x41 : (⟨S160000, .i32⟩ : BufTy).Contents (Elt F)} {x42 : (⟨S160000, .i32⟩ : BufTy).Contents (Elt F)} {x43 : (⟨S160000, .f32⟩ : BufTy).Contents (Elt F)} {x50 : (⟨S64x64, .f32⟩ : BufTy).Contents (Elt F)} {x51 : (⟨S64x64, .f32⟩ : BufTy).Contents (Elt F)}
    (h_v139 : V (Proc.devRef .tc main_v139) = ReadP.val_main_v139 (F := F) x1 x38 x39 x40 x50)
    (h_v47 : V (Proc.devRef .tc main_v47) = ReadP.val_main_v47 (F := F) x2 x11 x12 x13 x22 x27)
    (h_v154 : V (Proc.devRef .tc main_v154) = ReadP.val_main_v154 (F := F) x3 x41 x42 x43 x51)
    (h_w : V (Proc.devRef .tc main_arg32) = x32) :
    after win13 V (Proc.devRef .tc main_v210) = ReadP.val_main_v210 (F := F) x1 x2 x3 x11 x12 x13 x22 x27 x32 x38 x39 x40 x41 x42 x43 x50 x51 := by
  after_results_simp
  rw [h_v139, h_v47, h_v154, h_w]
  rfl

/-- Result `main_v214`: the sum of the messages into its rank (as the contents `V` hold them), times the rank's weights
    (the argument `main_arg33`), rectified, is the Read module's stage `val_main_v214`. -/
theorem fin_v214 (V : Valuation τ sig (Elt F)) {x2 : (⟨S100000x64, .f32⟩ : BufTy).Contents (Elt F)} {x3 : (⟨S40000x64, .f32⟩ : BufTy).Contents (Elt F)} {x4 : (⟨S10000x64, .f32⟩ : BufTy).Contents (Elt F)} {x14 : (⟨S320000, .i32⟩ : BufTy).Contents (Elt F)} {x15 : (⟨S320000, .i32⟩ : BufTy).Contents (Elt F)} {x16 : (⟨S320000, .f32⟩ : BufTy).Contents (Elt F)} {x23 : (⟨S40000x64, .f32⟩ : BufTy).Contents (Elt F)} {x28 : (⟨S64x64, .f32⟩ : BufTy).Contents (Elt F)} {x33 : (⟨S64x64, .f32⟩ : BufTy).Contents (Elt F)} {x41 : (⟨S160000, .i32⟩ : BufTy).Contents (Elt F)} {x42 : (⟨S160000, .i32⟩ : BufTy).Contents (Elt F)} {x43 : (⟨S160000, .f32⟩ : BufTy).Contents (Elt F)} {x44 : (⟨S40000, .i32⟩ : BufTy).Contents (Elt F)} {x45 : (⟨S40000, .i32⟩ : BufTy).Contents (Elt F)} {x46 : (⟨S40000, .f32⟩ : BufTy).Contents (Elt F)} {x52 : (⟨S64x64, .f32⟩ : BufTy).Contents (Elt F)} {x53 : (⟨S64x64, .f32⟩ : BufTy).Contents (Elt F)}
    (h_v169 : V (Proc.devRef .tc main_v169) = ReadP.val_main_v169 (F := F) x2 x41 x42 x43 x52)
    (h_v63 : V (Proc.devRef .tc main_v63) = ReadP.val_main_v63 (F := F) x3 x14 x15 x16 x23 x28)
    (h_v184 : V (Proc.devRef .tc main_v184) = ReadP.val_main_v184 (F := F) x4 x44 x45 x46 x53)
    (h_w : V (Proc.devRef .tc main_arg33) = x33) :
    after win13 V (Proc.devRef .tc main_v214) = ReadP.val_main_v214 (F := F) x2 x3 x4 x14 x15 x16 x23 x28 x33 x41 x42 x43 x44 x45 x46 x52 x53 := by
  after_results_simp
  rw [h_v169, h_v63, h_v184, h_w]
  rfl

/-- Result `main_v217`: the sum of the messages into its rank (as the contents `V` hold them), times the rank's weights
    (the argument `main_arg34`), rectified, is the Read module's stage `val_main_v217`. -/
theorem fin_v217 (V : Valuation τ sig (Elt F)) {x3 : (⟨S40000x64, .f32⟩ : BufTy).Contents (Elt F)} {x4 : (⟨S10000x64, .f32⟩ : BufTy).Contents (Elt F)} {x17 : (⟨S80000, .i32⟩ : BufTy).Contents (Elt F)} {x18 : (⟨S80000, .i32⟩ : BufTy).Contents (Elt F)} {x19 : (⟨S80000, .f32⟩ : BufTy).Contents (Elt F)} {x24 : (⟨S10000x64, .f32⟩ : BufTy).Contents (Elt F)} {x29 : (⟨S64x64, .f32⟩ : BufTy).Contents (Elt F)} {x34 : (⟨S64x64, .f32⟩ : BufTy).Contents (Elt F)} {x44 : (⟨S40000, .i32⟩ : BufTy).Contents (Elt F)} {x45 : (⟨S40000, .i32⟩ : BufTy).Contents (Elt F)} {x46 : (⟨S40000, .f32⟩ : BufTy).Contents (Elt F)} {x54 : (⟨S64x64, .f32⟩ : BufTy).Contents (Elt F)}
    (h_v199 : V (Proc.devRef .tc main_v199) = ReadP.val_main_v199 (F := F) x3 x44 x45 x46 x54)
    (h_v79 : V (Proc.devRef .tc main_v79) = ReadP.val_main_v79 (F := F) x4 x17 x18 x19 x24 x29)
    (h_w : V (Proc.devRef .tc main_arg34) = x34) :
    after win13 V (Proc.devRef .tc main_v217) = ReadP.val_main_v217 (F := F) x3 x4 x17 x18 x19 x24 x29 x34 x44 x45 x46 x54 := by
  after_results_simp
  rw [h_v199, h_v79, h_w]
  rfl

end Cert.Proof.Ref2

end
-- ==== Proof.Ref2.Run.lean ====
/-
  The reference's run, read against the Read module's stages. @main is a line of 293 host operations; cut into the thirteen
  messages (each a sparse product of a linear map, rectified) and the final five aggregations, the contents after the line
  are the contents after the last window, started from the contents after the one before, and so on down to the launch
  memory. No window writes an argument, and no window writes a message an earlier window produced; so each message
  reaches the aggregations at its stage of the arguments, and each result ends at its stage of the arguments.
  So every weakly fair execution terminates with the five results at their stages and the 55 arguments unchanged.
-/
import proofs.«140264_j78443282694634_2_alg».proof.Proof.Ref2.RunLite
import proofs.«140264_j78443282694634_2_alg».proof.Proof.Ref2.LibAfter
import proofs.«140264_j78443282694634_2_alg».proof.Proof.Ref2.Win0
import proofs.«140264_j78443282694634_2_alg».proof.Proof.Ref2.Win1
import proofs.«140264_j78443282694634_2_alg».proof.Proof.Ref2.Win2
import proofs.«140264_j78443282694634_2_alg».proof.Proof.Ref2.Win3
import proofs.«140264_j78443282694634_2_alg».proof.Proof.Ref2.Win4
import proofs.«140264_j78443282694634_2_alg».proof.Proof.Ref2.Win5
import proofs.«140264_j78443282694634_2_alg».proof.Proof.Ref2.Win6
import proofs.«140264_j78443282694634_2_alg».proof.Proof.Ref2.Win7
import proofs.«140264_j78443282694634_2_alg».proof.Proof.Ref2.Win8
import proofs.«140264_j78443282694634_2_alg».proof.Proof.Ref2.Win9
import proofs.«140264_j78443282694634_2_alg».proof.Proof.Ref2.Win10
import proofs.«140264_j78443282694634_2_alg».proof.Proof.Ref2.Win11
import proofs.«140264_j78443282694634_2_alg».proof.Proof.Ref2.Win12
import proofs.«140264_j78443282694634_2_alg».proof.Proof.Ref2.WinFin
import proofs.«140264_j78443282694634_2_alg».proof.Proof.Ref.Read
import Idealize.ShloMosaic.Lib.StableHlo.Run

set_option maxRecDepth 16384

noncomputable section

namespace Cert.Proof.Ref2

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 4000000 in
/-- @main's operation list is the fourteen windows laid end to end. -/
theorem ops_eq : (ValueQ.ops : List (HloOp τ sig (Elt F))) = win0 ++ (win1 ++ (win2 ++ (win3 ++ (win4 ++ (win5 ++ (win6 ++ (win7 ++ (win8 ++ (win9 ++ (win10 ++ (win11 ++ (win12 ++ (win13))))))))))))) := rfl

/-- No operation of @main allocates a buffer. -/
theorem ops_fresh : ∀ op ∈ (ValueQ.ops : List (HloOp τ sig (Elt F))), op.fresh = ∅ := by
  rw [ops_eq]
  intro op hop
  simp only [List.mem_append] at hop
  rcases hop with h | h | h | h | h | h | h | h | h | h | h | h | h | h
  · exact List.forall_iff_forall_mem.mp win0_fresh op h
  · exact List.forall_iff_forall_mem.mp win1_fresh op h
  · exact List.forall_iff_forall_mem.mp win2_fresh op h
  · exact List.forall_iff_forall_mem.mp win3_fresh op h
  · exact List.forall_iff_forall_mem.mp win4_fresh op h
  · exact List.forall_iff_forall_mem.mp win5_fresh op h
  · exact List.forall_iff_forall_mem.mp win6_fresh op h
  · exact List.forall_iff_forall_mem.mp win7_fresh op h
  · exact List.forall_iff_forall_mem.mp win8_fresh op h
  · exact List.forall_iff_forall_mem.mp win9_fresh op h
  · exact List.forall_iff_forall_mem.mp win10_fresh op h
  · exact List.forall_iff_forall_mem.mp win11_fresh op h
  · exact List.forall_iff_forall_mem.mp win12_fresh op h
  · exact List.forall_iff_forall_mem.mp win13_fresh op h

/-- Every buffer some operation of @main writes. -/
abbrev written : List (Ref sig .tc) := wl0 ++ wl1 ++ wl2 ++ wl3 ++ wl4 ++ wl5 ++ wl6 ++ wl7 ++ wl8 ++ wl9 ++ wl10 ++ wl11 ++ wl12 ++ wl13

theorem wl0_sub : wl0 ⊆ (written : List (Ref sig .tc)) := by decide
theorem wl1_sub : wl1 ⊆ (written : List (Ref sig .tc)) := by decide
theorem wl2_sub : wl2 ⊆ (written : List (Ref sig .tc)) := by decide
theorem wl3_sub : wl3 ⊆ (written : List (Ref sig .tc)) := by decide
theorem wl4_sub : wl4 ⊆ (written : List (Ref sig .tc)) := by decide
theorem wl5_sub : wl5 ⊆ (written : List (Ref sig .tc)) := by decide
theorem wl6_sub : wl6 ⊆ (written : List (Ref sig .tc)) := by decide
theorem wl7_sub : wl7 ⊆ (written : List (Ref sig .tc)) := by decide
theorem wl8_sub : wl8 ⊆ (written : List (Ref sig .tc)) := by decide
theorem wl9_sub : wl9 ⊆ (written : List (Ref sig .tc)) := by decide
theorem wl10_sub : wl10 ⊆ (written : List (Ref sig .tc)) := by decide
theorem wl11_sub : wl11 ⊆ (written : List (Ref sig .tc)) := by decide
theorem wl12_sub : wl12 ⊆ (written : List (Ref sig .tc)) := by decide
theorem wl13_sub : wl13 ⊆ (written : List (Ref sig .tc)) := by decide

theorem arg0_nw : main_arg0 ∉ (written : List (Ref sig .tc)) := by decide
theorem arg1_nw : main_arg1 ∉ (written : List (Ref sig .tc)) := by decide
theorem arg2_nw : main_arg2 ∉ (written : List (Ref sig .tc)) := by decide
theorem arg3_nw : main_arg3 ∉ (written : List (Ref sig .tc)) := by decide
theorem arg4_nw : main_arg4 ∉ (written : List (Ref sig .tc)) := by decide
theorem arg5_nw : main_arg5 ∉ (written : List (Ref sig .tc)) := by decide
theorem arg6_nw : main_arg6 ∉ (written : List (Ref sig .tc)) := by decide
theorem arg7_nw : main_arg7 ∉ (written : List (Ref sig .tc)) := by decide
theorem arg8_nw : main_arg8 ∉ (written : List (Ref sig .tc)) := by decide
theorem arg9_nw : main_arg9 ∉ (written : List (Ref sig .tc)) := by decide
theorem arg10_nw : main_arg10 ∉ (written : List (Ref sig .tc)) := by decide
theorem arg11_nw : main_arg11 ∉ (written : List (Ref sig .tc)) := by decide
theorem arg12_nw : main_arg12 ∉ (written : List (Ref sig .tc)) := by decide
theorem arg13_nw : main_arg13 ∉ (written : List (Ref sig .tc)) := by decide
theorem arg14_nw : main_arg14 ∉ (written : List (Ref sig .tc)) := by decide
theorem arg15_nw : main_arg15 ∉ (written : List (Ref sig .tc)) := by decide
theorem arg16_nw : main_arg16 ∉ (written : List (Ref sig .tc)) := by decide
theorem arg17_nw : main_arg17 ∉ (written : List (Ref sig .tc)) := by decide
theorem arg18_nw : main_arg18 ∉ (written : List (Ref sig .tc)) := by decide
theorem arg19_nw : main_arg19 ∉ (written : List (Ref sig .tc)) := by decide
theorem arg20_nw : main_arg20 ∉ (written : List (Ref sig .tc)) := by decide
theorem arg21_nw : main_arg21 ∉ (written : List (Ref sig .tc)) := by decide
theorem arg22_nw : main_arg22 ∉ (written : List (Ref sig .tc)) := by decide
theorem arg23_nw : main_arg23 ∉ (written : List (Ref sig .tc)) := by decide
theorem arg24_nw : main_arg24 ∉ (written : List (Ref sig .tc)) := by decide
theorem arg25_nw : main_arg25 ∉ (written : List (Ref sig .tc)) := by decide
theorem arg26_nw : main_arg26 ∉ (written : List (Ref sig .tc)) := by decide
theorem arg27_nw : main_arg27 ∉ (written : List (Ref sig .tc)) := by decide
theorem arg28_nw : main_arg28 ∉ (written : List (Ref sig .tc)) := by decide
theorem arg29_nw : main_arg29 ∉ (written : List (Ref sig .tc)) := by decide
theorem arg30_nw : main_arg30 ∉ (written : List (Ref sig .tc)) := by decide
theorem arg31_nw : main_arg31 ∉ (written : List (Ref sig .tc)) := by decide
theorem arg32_nw : main_arg32 ∉ (written : List (Ref sig .tc)) := by decide
theorem arg33_nw : main_arg33 ∉ (written : List (Ref sig .tc)) := by decide
theorem arg34_nw : main_arg34 ∉ (written : List (Ref sig .tc)) := by decide
theorem arg35_nw : main_arg35 ∉ (written : List (Ref sig .tc)) := by decide
theorem arg36_nw : main_arg36 ∉ (written : List (Ref sig .tc)) := by decide
theorem arg37_nw : main_arg37 ∉ (written : List (Ref sig .tc)) := by decide
theorem arg38_nw : main_arg38 ∉ (written : List (Ref sig .tc)) := by decide
theorem arg39_nw : main_arg39 ∉ (written : List (Ref sig .tc)) := by decide
theorem arg40_nw : main_arg40 ∉ (written : List (Ref sig .tc)) := by decide
theorem arg41_nw : main_arg41 ∉ (written : List (Ref sig .tc)) := by decide
theorem arg42_nw : main_arg42 ∉ (written : List (Ref sig .tc)) := by decide
theorem arg43_nw : main_arg43 ∉ (written : List (Ref sig .tc)) := by decide
theorem arg44_nw : main_arg44 ∉ (written : List (Ref sig .tc)) := by decide
theorem arg45_nw : main_arg45 ∉ (written : List (Ref sig .tc)) := by decide
theorem arg46_nw : main_arg46 ∉ (written : List (Ref sig .tc)) := by decide
theorem arg47_nw : main_arg47 ∉ (written : List (Ref sig .tc)) := by decide
theorem arg48_nw : main_arg48 ∉ (written : List (Ref sig .tc)) := by decide
theorem arg49_nw : main_arg49 ∉ (written : List (Ref sig .tc)) := by decide
theorem arg50_nw : main_arg50 ∉ (written : List (Ref sig .tc)) := by decide
theorem arg51_nw : main_arg51 ∉ (written : List (Ref sig .tc)) := by decide
theorem arg52_nw : main_arg52 ∉ (written : List (Ref sig .tc)) := by decide
theorem arg53_nw : main_arg53 ∉ (written : List (Ref sig .tc)) := by decide
theorem arg54_nw : main_arg54 ∉ (written : List (Ref sig .tc)) := by decide

variable (m : (ℓ : Loc nD τ sig) → Buf (Elt F) ℓ)

/-- Core `c`'s buffers at launch, -/
abbrev U0 (c : Dev nD) : Valuation τ sig (Elt F) := launchContents m c
/-- and after window 0. -/
abbrev U1 (c : Dev nD) : Valuation τ sig (Elt F) := after win0 (U0 m c)
/-- and after window 1. -/
abbrev U2 (c : Dev nD) : Valuation τ sig (Elt F) := after win1 (U1 m c)
/-- and after window 2. -/
abbrev U3 (c : Dev nD) : Valuation τ sig (Elt F) := after win2 (U2 m c)
/-- and after window 3. -/
abbrev U4 (c : Dev nD) : Valuation τ sig (Elt F) := after win3 (U3 m c)
/-- and after window 4. -/
abbrev U5 (c : Dev nD) : Valuation τ sig (Elt F) := after win4 (U4 m c)
/-- and after window 5. -/
abbrev U6 (c : Dev nD) : Valuation τ sig (Elt F) := after win5 (U5 m c)
/-- and after window 6. -/
abbrev U7 (c : Dev nD) : Valuation τ sig (Elt F) := after win6 (U6 m c)
/-- and after window 7. -/
abbrev U8 (c : Dev nD) : Valuation τ sig (Elt F) := after win7 (U7 m c)
/-- and after window 8. -/
abbrev U9 (c : Dev nD) : Valuation τ sig (Elt F) := after win8 (U8 m c)
/-- and after window 9. -/
abbrev U10 (c : Dev nD) : Valuation τ sig (Elt F) := after win9 (U9 m c)
/-- and after window 10. -/
abbrev U11 (c : Dev nD) : Valuation τ sig (Elt F) := after win10 (U10 m c)
/-- and after window 11. -/
abbrev U12 (c : Dev nD) : Valuation τ sig (Elt F) := after win11 (U11 m c)
/-- and after window 12. -/
abbrev U13 (c : Dev nD) : Valuation τ sig (Elt F) := after win12 (U12 m c)
/-- and after window 13. -/
abbrev U14 (c : Dev nD) : Valuation τ sig (Elt F) := after win13 (U13 m c)

/-- The contents after the whole line are the contents after the last window. -/
theorem after_ops (c : Dev nD) : after ValueQ.ops (launchContents m c) = U14 m c := by
  rw [ops_eq]
  repeat rw [after_append]

/-- A buffer no operation writes holds at every boundary what the launch memory held. -/
theorem U0_unwritten (c : Dev nD) (r : Ref sig .tc) : U0 m c (Proc.devRef .tc r) = m ((c.tc : Thread nD τ).loc r) := rfl
theorem U1_unwritten (c : Dev nD) (r : Ref sig .tc) (h : r ∉ (written : List (Ref sig .tc))) :
    U1 m c (Proc.devRef .tc r) = m ((c.tc : Thread nD τ).loc r) :=
  (win0_keep (U0 m c) r (fun hm => h (wl0_sub hm))).trans (U0_unwritten m c r)
theorem U2_unwritten (c : Dev nD) (r : Ref sig .tc) (h : r ∉ (written : List (Ref sig .tc))) :
    U2 m c (Proc.devRef .tc r) = m ((c.tc : Thread nD τ).loc r) :=
  (win1_keep (U1 m c) r (fun hm => h (wl1_sub hm))).trans (U1_unwritten m c r h)
theorem U3_unwritten (c : Dev nD) (r : Ref sig .tc) (h : r ∉ (written : List (Ref sig .tc))) :
    U3 m c (Proc.devRef .tc r) = m ((c.tc : Thread nD τ).loc r) :=
  (win2_keep (U2 m c) r (fun hm => h (wl2_sub hm))).trans (U2_unwritten m c r h)
theorem U4_unwritten (c : Dev nD) (r : Ref sig .tc) (h : r ∉ (written : List (Ref sig .tc))) :
    U4 m c (Proc.devRef .tc r) = m ((c.tc : Thread nD τ).loc r) :=
  (win3_keep (U3 m c) r (fun hm => h (wl3_sub hm))).trans (U3_unwritten m c r h)
theorem U5_unwritten (c : Dev nD) (r : Ref sig .tc) (h : r ∉ (written : List (Ref sig .tc))) :
    U5 m c (Proc.devRef .tc r) = m ((c.tc : Thread nD τ).loc r) :=
  (win4_keep (U4 m c) r (fun hm => h (wl4_sub hm))).trans (U4_unwritten m c r h)
theorem U6_unwritten (c : Dev nD) (r : Ref sig .tc) (h : r ∉ (written : List (Ref sig .tc))) :
    U6 m c (Proc.devRef .tc r) = m ((c.tc : Thread nD τ).loc r) :=
  (win5_keep (U5 m c) r (fun hm => h (wl5_sub hm))).trans (U5_unwritten m c r h)
theorem U7_unwritten (c : Dev nD) (r : Ref sig .tc) (h : r ∉ (written : List (Ref sig .tc))) :
    U7 m c (Proc.devRef .tc r) = m ((c.tc : Thread nD τ).loc r) :=
  (win6_keep (U6 m c) r (fun hm => h (wl6_sub hm))).trans (U6_unwritten m c r h)
theorem U8_unwritten (c : Dev nD) (r : Ref sig .tc) (h : r ∉ (written : List (Ref sig .tc))) :
    U8 m c (Proc.devRef .tc r) = m ((c.tc : Thread nD τ).loc r) :=
  (win7_keep (U7 m c) r (fun hm => h (wl7_sub hm))).trans (U7_unwritten m c r h)
theorem U9_unwritten (c : Dev nD) (r : Ref sig .tc) (h : r ∉ (written : List (Ref sig .tc))) :
    U9 m c (Proc.devRef .tc r) = m ((c.tc : Thread nD τ).loc r) :=
  (win8_keep (U8 m c) r (fun hm => h (wl8_sub hm))).trans (U8_unwritten m c r h)
theorem U10_unwritten (c : Dev nD) (r : Ref sig .tc) (h : r ∉ (written : List (Ref sig .tc))) :
    U10 m c (Proc.devRef .tc r) = m ((c.tc : Thread nD τ).loc r) :=
  (win9_keep (U9 m c) r (fun hm => h (wl9_sub hm))).trans (U9_unwritten m c r h)
theorem U11_unwritten (c : Dev nD) (r : Ref sig .tc) (h : r ∉ (written : List (Ref sig .tc))) :
    U11 m c (Proc.devRef .tc r) = m ((c.tc : Thread nD τ).loc r) :=
  (win10_keep (U10 m c) r (fun hm => h (wl10_sub hm))).trans (U10_unwritten m c r h)
theorem U12_unwritten (c : Dev nD) (r : Ref sig .tc) (h : r ∉ (written : List (Ref sig .tc))) :
    U12 m c (Proc.devRef .tc r) = m ((c.tc : Thread nD τ).loc r) :=
  (win11_keep (U11 m c) r (fun hm => h (wl11_sub hm))).trans (U11_unwritten m c r h)
theorem U13_unwritten (c : Dev nD) (r : Ref sig .tc) (h : r ∉ (written : List (Ref sig .tc))) :
    U13 m c (Proc.devRef .tc r) = m ((c.tc : Thread nD τ).loc r) :=
  (win12_keep (U12 m c) r (fun hm => h (wl12_sub hm))).trans (U12_unwritten m c r h)
theorem U14_unwritten (c : Dev nD) (r : Ref sig .tc) (h : r ∉ (written : List (Ref sig .tc))) :
    U14 m c (Proc.devRef .tc r) = m ((c.tc : Thread nD τ).loc r) :=
  (win13_keep (U13 m c) r (fun hm => h (wl13_sub hm))).trans (U13_unwritten m c r h)

/-- The message `main_v15` reaches the aggregations at its stage of the arguments. -/
theorem hand_v15 (c : Dev nD) :
    U13 m c (Proc.devRef .tc main_v15) = ReadP.val_main_v15 (F := F) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg20)) (m ((c.tc : Thread nD τ).loc main_arg25)) :=
  ((win12_keep (U12 m c) main_v15 (by decide)).trans ((win11_keep (U11 m c) main_v15 (by decide)).trans ((win10_keep (U10 m c) main_v15 (by decide)).trans ((win9_keep (U9 m c) main_v15 (by decide)).trans ((win8_keep (U8 m c) main_v15 (by decide)).trans ((win7_keep (U7 m c) main_v15 (by decide)).trans ((win6_keep (U6 m c) main_v15 (by decide)).trans ((win5_keep (U5 m c) main_v15 (by decide)).trans ((win4_keep (U4 m c) main_v15 (by decide)).trans ((win3_keep (U3 m c) main_v15 (by decide)).trans ((win2_keep (U2 m c) main_v15 (by decide)).trans ((win1_keep (U1 m c) main_v15 (by decide)).trans ((win0_out (U0 m c)).trans (by rw [U0_unwritten m c main_arg0, U0_unwritten m c main_arg5, U0_unwritten m c main_arg6, U0_unwritten m c main_arg7, U0_unwritten m c main_arg20, U0_unwritten m c main_arg25]))))))))))))))

/-- The message `main_v31` reaches the aggregations at its stage of the arguments. -/
theorem hand_v31 (c : Dev nD) :
    U13 m c (Proc.devRef .tc main_v31) = ReadP.val_main_v31 (F := F) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg21)) (m ((c.tc : Thread nD τ).loc main_arg26)) :=
  ((win12_keep (U12 m c) main_v31 (by decide)).trans ((win11_keep (U11 m c) main_v31 (by decide)).trans ((win10_keep (U10 m c) main_v31 (by decide)).trans ((win9_keep (U9 m c) main_v31 (by decide)).trans ((win8_keep (U8 m c) main_v31 (by decide)).trans ((win7_keep (U7 m c) main_v31 (by decide)).trans ((win6_keep (U6 m c) main_v31 (by decide)).trans ((win5_keep (U5 m c) main_v31 (by decide)).trans ((win4_keep (U4 m c) main_v31 (by decide)).trans ((win3_keep (U3 m c) main_v31 (by decide)).trans ((win2_keep (U2 m c) main_v31 (by decide)).trans ((win1_out (U1 m c)).trans (by rw [U1_unwritten m c main_arg1 arg1_nw, U1_unwritten m c main_arg8 arg8_nw, U1_unwritten m c main_arg9 arg9_nw, U1_unwritten m c main_arg10 arg10_nw, U1_unwritten m c main_arg21 arg21_nw, U1_unwritten m c main_arg26 arg26_nw])))))))))))))

/-- The message `main_v47` reaches the aggregations at its stage of the arguments. -/
theorem hand_v47 (c : Dev nD) :
    U13 m c (Proc.devRef .tc main_v47) = ReadP.val_main_v47 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg22)) (m ((c.tc : Thread nD τ).loc main_arg27)) :=
  ((win12_keep (U12 m c) main_v47 (by decide)).trans ((win11_keep (U11 m c) main_v47 (by decide)).trans ((win10_keep (U10 m c) main_v47 (by decide)).trans ((win9_keep (U9 m c) main_v47 (by decide)).trans ((win8_keep (U8 m c) main_v47 (by decide)).trans ((win7_keep (U7 m c) main_v47 (by decide)).trans ((win6_keep (U6 m c) main_v47 (by decide)).trans ((win5_keep (U5 m c) main_v47 (by decide)).trans ((win4_keep (U4 m c) main_v47 (by decide)).trans ((win3_keep (U3 m c) main_v47 (by decide)).trans ((win2_out (U2 m c)).trans (by rw [U2_unwritten m c main_arg2 arg2_nw, U2_unwritten m c main_arg11 arg11_nw, U2_unwritten m c main_arg12 arg12_nw, U2_unwritten m c main_arg13 arg13_nw, U2_unwritten m c main_arg22 arg22_nw, U2_unwritten m c main_arg27 arg27_nw]))))))))))))

/-- The message `main_v63` reaches the aggregations at its stage of the arguments. -/
theorem hand_v63 (c : Dev nD) :
    U13 m c (Proc.devRef .tc main_v63) = ReadP.val_main_v63 (F := F) (m ((c.tc : Thread nD τ).loc main_arg3)) (m ((c.tc : Thread nD τ).loc main_arg14)) (m ((c.tc : Thread nD τ).loc main_arg15)) (m ((c.tc : Thread nD τ).loc main_arg16)) (m ((c.tc : Thread nD τ).loc main_arg23)) (m ((c.tc : Thread nD τ).loc main_arg28)) :=
  ((win12_keep (U12 m c) main_v63 (by decide)).trans ((win11_keep (U11 m c) main_v63 (by decide)).trans ((win10_keep (U10 m c) main_v63 (by decide)).trans ((win9_keep (U9 m c) main_v63 (by decide)).trans ((win8_keep (U8 m c) main_v63 (by decide)).trans ((win7_keep (U7 m c) main_v63 (by decide)).trans ((win6_keep (U6 m c) main_v63 (by decide)).trans ((win5_keep (U5 m c) main_v63 (by decide)).trans ((win4_keep (U4 m c) main_v63 (by decide)).trans ((win3_out (U3 m c)).trans (by rw [U3_unwritten m c main_arg3 arg3_nw, U3_unwritten m c main_arg14 arg14_nw, U3_unwritten m c main_arg15 arg15_nw, U3_unwritten m c main_arg16 arg16_nw, U3_unwritten m c main_arg23 arg23_nw, U3_unwritten m c main_arg28 arg28_nw])))))))))))

/-- The message `main_v79` reaches the aggregations at its stage of the arguments. -/
theorem hand_v79 (c : Dev nD) :
    U13 m c (Proc.devRef .tc main_v79) = ReadP.val_main_v79 (F := F) (m ((c.tc : Thread nD τ).loc main_arg4)) (m ((c.tc : Thread nD τ).loc main_arg17)) (m ((c.tc : Thread nD τ).loc main_arg18)) (m ((c.tc : Thread nD τ).loc main_arg19)) (m ((c.tc : Thread nD τ).loc main_arg24)) (m ((c.tc : Thread nD τ).loc main_arg29)) :=
  ((win12_keep (U12 m c) main_v79 (by decide)).trans ((win11_keep (U11 m c) main_v79 (by decide)).trans ((win10_keep (U10 m c) main_v79 (by decide)).trans ((win9_keep (U9 m c) main_v79 (by decide)).trans ((win8_keep (U8 m c) main_v79 (by decide)).trans ((win7_keep (U7 m c) main_v79 (by decide)).trans ((win6_keep (U6 m c) main_v79 (by decide)).trans ((win5_keep (U5 m c) main_v79 (by decide)).trans ((win4_out (U4 m c)).trans (by rw [U4_unwritten m c main_arg4 arg4_nw, U4_unwritten m c main_arg17 arg17_nw, U4_unwritten m c main_arg18 arg18_nw, U4_unwritten m c main_arg19 arg19_nw, U4_unwritten m c main_arg24 arg24_nw, U4_unwritten m c main_arg29 arg29_nw]))))))))))

/-- The message `main_v94` reaches the aggregations at its stage of the arguments. -/
theorem hand_v94 (c : Dev nD) :
    U13 m c (Proc.devRef .tc main_v94) = ReadP.val_main_v94 (F := F) (m ((c.tc : Thread nD τ).loc main_arg1)) (m ((c.tc : Thread nD τ).loc main_arg35)) (m ((c.tc : Thread nD τ).loc main_arg36)) (m ((c.tc : Thread nD τ).loc main_arg37)) (m ((c.tc : Thread nD τ).loc main_arg47)) :=
  ((win12_keep (U12 m c) main_v94 (by decide)).trans ((win11_keep (U11 m c) main_v94 (by decide)).trans ((win10_keep (U10 m c) main_v94 (by decide)).trans ((win9_keep (U9 m c) main_v94 (by decide)).trans ((win8_keep (U8 m c) main_v94 (by decide)).trans ((win7_keep (U7 m c) main_v94 (by decide)).trans ((win6_keep (U6 m c) main_v94 (by decide)).trans ((win5_out (U5 m c)).trans (by rw [U5_unwritten m c main_arg1 arg1_nw, U5_unwritten m c main_arg35 arg35_nw, U5_unwritten m c main_arg36 arg36_nw, U5_unwritten m c main_arg37 arg37_nw, U5_unwritten m c main_arg47 arg47_nw])))))))))

/-- The message `main_v109` reaches the aggregations at its stage of the arguments. -/
theorem hand_v109 (c : Dev nD) :
    U13 m c (Proc.devRef .tc main_v109) = ReadP.val_main_v109 (F := F) (m ((c.tc : Thread nD τ).loc main_arg0)) (m ((c.tc : Thread nD τ).loc main_arg35)) (m ((c.tc : Thread nD τ).loc main_arg36)) (m ((c.tc : Thread nD τ).loc main_arg37)) (m ((c.tc : Thread nD τ).loc main_arg48)) :=
  ((win12_keep (U12 m c) main_v109 (by decide)).trans ((win11_keep (U11 m c) main_v109 (by decide)).trans ((win10_keep (U10 m c) main_v109 (by decide)).trans ((win9_keep (U9 m c) main_v109 (by decide)).trans ((win8_keep (U8 m c) main_v109 (by decide)).trans ((win7_keep (U7 m c) main_v109 (by decide)).trans ((win6_out (U6 m c)).trans (by rw [U6_unwritten m c main_arg0 arg0_nw, U6_unwritten m c main_arg35 arg35_nw, U6_unwritten m c main_arg36 arg36_nw, U6_unwritten m c main_arg37 arg37_nw, U6_unwritten m c main_arg48 arg48_nw]))))))))

/-- The message `main_v124` reaches the aggregations at its stage of the arguments. -/
theorem hand_v124 (c : Dev nD) :
    U13 m c (Proc.devRef .tc main_v124) = ReadP.val_main_v124 (F := F) (m ((c.tc : Thread nD τ).loc main_arg2)) (m ((c.tc : Thread nD τ).loc main_arg38)) (m ((c.tc : Thread nD τ).loc main_arg39)) (m ((c.tc : Thread nD τ).loc main_arg40)) (m ((c.tc : Thread nD τ).loc main_arg49)) :=
  ((win12_keep (U12 m c) main_v124 (by decide)).trans ((win11_keep (U11 m c) main_v124 (by decide)).trans ((win10_keep (U10 m c) main_v124 (by decide)).trans ((win9_keep (U9 m c) main_v124 (by decide)).trans ((win8_keep (U8 m c) main_v124 (by decide)).trans ((win7_out (U7 m c)).trans (by rw [U7_unwritten m c main_arg2 arg2_nw, U7_unwritten m c main_arg38 arg38_nw, U7_unwritten m c main_arg39 arg39_nw, U7_unwritten m c main_arg40 arg40_nw, U7_unwritten m c main_arg49 arg49_nw])))))))

/-- The message `main_v139` reaches the aggregations at its stage of the arguments. -/
theorem hand_v139 (c : Dev nD) :
    U13 m c (Proc.devRef .tc main_v139) = ReadP.val_main_v139 (F := F) (m ((c.tc : Thread nD τ).loc main_arg1)) (m ((c.tc : Thread nD τ).loc main_arg38)) (m ((c.tc : Thread nD τ).loc main_arg39)) (m ((c.tc : Thread nD τ).loc main_arg40)) (m ((c.tc : Thread nD τ).loc main_arg50)) :=
  ((win12_keep (U12 m c) main_v139 (by decide)).trans ((win11_keep (U11 m c) main_v139 (by decide)).trans ((win10_keep (U10 m c) main_v139 (by decide)).trans ((win9_keep (U9 m c) main_v139 (by decide)).trans ((win8_out (U8 m c)).trans (by rw [U8_unwritten m c main_arg1 arg1_nw, U8_unwritten m c main_arg38 arg38_nw, U8_unwritten m c main_arg39 arg39_nw, U8_unwritten m c main_arg40 arg40_nw, U8_unwritten m c main_arg50 arg50_nw]))))))

/-- The message `main_v154` reaches the aggregations at its stage of the arguments. -/
theorem hand_v154 (c : Dev nD) :
    U13 m c (Proc.devRef .tc main_v154) = ReadP.val_main_v154 (F := F) (m ((c.tc : Thread nD τ).loc main_arg3)) (m ((c.tc : Thread nD τ).loc main_arg41)) (m ((c.tc : Thread nD τ).loc main_arg42)) (m ((c.tc : Thread nD τ).loc main_arg43)) (m ((c.tc : Thread nD τ).loc main_arg51)) :=
  ((win12_keep (U12 m c) main_v154 (by decide)).trans ((win11_keep (U11 m c) main_v154 (by decide)).trans ((win10_keep (U10 m c) main_v154 (by decide)).trans ((win9_out (U9 m c)).trans (by rw [U9_unwritten m c main_arg3 arg3_nw, U9_unwritten m c main_arg41 arg41_nw, U9_unwritten m c main_arg42 arg42_nw, U9_unwritten m c main_arg43 arg43_nw, U9_unwritten m c main_arg51 arg51_nw])))))

/-- The message `main_v169` reaches the aggregations at its stage of the arguments. -/
theorem hand_v169 (c : Dev nD) :
    U13 m c (Proc.devRef .tc main_v169) = ReadP.val_main_v169 (F := F) (m ((c.tc : Thread nD τ).loc main_arg2)) (m ((c.tc : Thread nD τ).loc main_arg41)) (m ((c.tc : Thread nD τ).loc main_arg42)) (m ((c.tc : Thread nD τ).loc main_arg43)) (m ((c.tc : Thread nD τ).loc main_arg52)) :=
  ((win12_keep (U12 m c) main_v169 (by decide)).trans ((win11_keep (U11 m c) main_v169 (by decide)).trans ((win10_out (U10 m c)).trans (by rw [U10_unwritten m c main_arg2 arg2_nw, U10_unwritten m c main_arg41 arg41_nw, U10_unwritten m c main_arg42 arg42_nw, U10_unwritten m c main_arg43 arg43_nw, U10_unwritten m c main_arg52 arg52_nw]))))

/-- The message `main_v184` reaches the aggregations at its stage of the arguments. -/
theorem hand_v184 (c : Dev nD) :
    U13 m c (Proc.devRef .tc main_v184) = ReadP.val_main_v184 (F := F) (m ((c.tc : Thread nD τ).loc main_arg4)) (m ((c.tc : Thread nD τ).loc main_arg44)) (m ((c.tc : Thread nD τ).loc main_arg45)) (m ((c.tc : Thread nD τ).loc main_arg46)) (m ((c.tc : Thread nD τ).loc main_arg53)) :=
  ((win12_keep (U12 m c) main_v184 (by decide)).trans ((win11_out (U11 m c)).trans (by rw [U11_unwritten m c main_arg4 arg4_nw, U11_unwritten m c main_arg44 arg44_nw, U11_unwritten m c main_arg45 arg45_nw, U11_unwritten m c main_arg46 arg46_nw, U11_unwritten m c main_arg53 arg53_nw])))

/-- The message `main_v199` reaches the aggregations at its stage of the arguments. -/
theorem hand_v199 (c : Dev nD) :
    U13 m c (Proc.devRef .tc main_v199) = ReadP.val_main_v199 (F := F) (m ((c.tc : Thread nD τ).loc main_arg3)) (m ((c.tc : Thread nD τ).loc main_arg44)) (m ((c.tc : Thread nD τ).loc main_arg45)) (m ((c.tc : Thread nD τ).loc main_arg46)) (m ((c.tc : Thread nD τ).loc main_arg54)) :=
  ((win12_out (U12 m c)).trans (by rw [U12_unwritten m c main_arg3 arg3_nw, U12_unwritten m c main_arg44 arg44_nw, U12_unwritten m c main_arg45 arg45_nw, U12_unwritten m c main_arg46 arg46_nw, U12_unwritten m c main_arg54 arg54_nw]))

/-- The result `main_v202` after the whole line is its stage of the arguments. -/
theorem res_v202 (c : Dev nD) :
    after ValueQ.ops (launchContents m c) (Proc.devRef .tc main_v202) = ReadP.val_main_v202 (F := F) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg20)) (m ((c.tc : Thread nD τ).loc main_arg25)) (m ((c.tc : Thread nD τ).loc main_arg30)) (m ((c.tc : Thread nD τ).loc main_arg35)) (m ((c.tc : Thread nD τ).loc main_arg36)) (m ((c.tc : Thread nD τ).loc main_arg37)) (m ((c.tc : Thread nD τ).loc main_arg47)) := by
  rw [after_ops]
  exact fin_v202 (U13 m c) (hand_v15 m c) (hand_v94 m c) (U13_unwritten m c main_arg30 arg30_nw)

/-- The result `main_v206` after the whole line is its stage of the arguments. -/
theorem res_v206 (c : Dev nD) :
    after ValueQ.ops (launchContents m c) (Proc.devRef .tc main_v206) = ReadP.val_main_v206 (F := F) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg21)) (m ((c.tc : Thread nD τ).loc main_arg26)) (m ((c.tc : Thread nD τ).loc main_arg31)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg48)) (m ((c.tc : Thread nD τ).loc main_arg49)) := by
  rw [after_ops]
  exact fin_v206 (U13 m c) (hand_v109 m c) (hand_v31 m c) (hand_v124 m c) (U13_unwritten m c main_arg31 arg31_nw)

/-- The result `main_v210` after the whole line is its stage of the arguments. -/
theorem res_v210 (c : Dev nD) :
    after ValueQ.ops (launchContents m c) (Proc.devRef .tc main_v210) = ReadP.val_main_v210 (F := F) (m ((c.tc : Thread nD τ).loc main_arg1)) (m ((c.tc : Thread nD τ).loc main_arg2)) (m ((c.tc : Thread nD τ).loc main_arg3)) (m ((c.tc : Thread nD τ).loc main_arg11)) (m ((c.tc : Thread nD τ).loc main_arg12)) (m ((c.tc : Thread nD τ).loc main_arg13)) (m ((c.tc : Thread nD τ).loc main_arg22)) (m ((c.tc : Thread nD τ).loc main_arg27)) (m ((c.tc : Thread nD τ).loc main_arg32)) (m ((c.tc : Thread nD τ).loc main_arg38)) (m ((c.tc : Thread nD τ).loc main_arg39)) (m ((c.tc : Thread nD τ).loc main_arg40)) (m ((c.tc : Thread nD τ).loc main_arg41)) (m ((c.tc : Thread nD τ).loc main_arg42)) (m ((c.tc : Thread nD τ).loc main_arg43)) (m ((c.tc : Thread nD τ).loc main_arg50)) (m ((c.tc : Thread nD τ).loc main_arg51)) := by
  rw [after_ops]
  exact fin_v210 (U13 m c) (hand_v139 m c) (hand_v47 m c) (hand_v154 m c) (U13_unwritten m c main_arg32 arg32_nw)

/-- The result `main_v214` after the whole line is its stage of the arguments. -/
theorem res_v214 (c : Dev nD) :
    after ValueQ.ops (launchContents m c) (Proc.devRef .tc main_v214) = ReadP.val_main_v214 (F := F) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) (m ((c.tc : Thread nD τ).loc main_arg16)) (m ((c.tc : Thread nD τ).loc main_arg23)) (m ((c.tc : Thread nD τ).loc main_arg28)) (m ((c.tc : Thread nD τ).loc main_arg33)) (m ((c.tc : Thread nD τ).loc main_arg41)) (m ((c.tc : Thread nD τ).loc main_arg42)) (m ((c.tc : Thread nD τ).loc main_arg43)) (m ((c.tc : Thread nD τ).loc main_arg44)) (m ((c.tc : Thread nD τ).loc main_arg45)) (m ((c.tc : Thread nD τ).loc main_arg46)) (m ((c.tc : Thread nD τ).loc main_arg52)) (m ((c.tc : Thread nD τ).loc main_arg53)) := by
  rw [after_ops]
  exact fin_v214 (U13 m c) (hand_v169 m c) (hand_v63 m c) (hand_v184 m c) (U13_unwritten m c main_arg33 arg33_nw)

/-- The result `main_v217` after the whole line is its stage of the arguments. -/
theorem res_v217 (c : Dev nD) :
    after ValueQ.ops (launchContents m c) (Proc.devRef .tc main_v217) = ReadP.val_main_v217 (F := F) (m ((c.tc : Thread nD τ).loc main_arg3)) (m ((c.tc : Thread nD τ).loc main_arg4)) (m ((c.tc : Thread nD τ).loc main_arg17)) (m ((c.tc : Thread nD τ).loc main_arg18)) (m ((c.tc : Thread nD τ).loc main_arg19)) (m ((c.tc : Thread nD τ).loc main_arg24)) (m ((c.tc : Thread nD τ).loc main_arg29)) (m ((c.tc : Thread nD τ).loc main_arg34)) (m ((c.tc : Thread nD τ).loc main_arg44)) (m ((c.tc : Thread nD τ).loc main_arg45)) (m ((c.tc : Thread nD τ).loc main_arg46)) (m ((c.tc : Thread nD τ).loc main_arg54)) := by
  rw [after_ops]
  exact fin_v217 (U13 m c) (hand_v199 m c) (hand_v79 m c) (U13_unwritten m c main_arg34 arg34_nw)

/-- A buffer no operation writes is, after the whole line, as launched. -/
theorem arg_end (c : Dev nD) (r : Ref sig .tc) (h : r ∉ (written : List (Ref sig .tc))) :
    after ValueQ.ops (launchContents m c) (Proc.devRef .tc r) = m ((c.tc : Thread nD τ).loc r) := by
  rw [after_ops]
  exact U14_unwritten m c r h

/-- On every device, for any float values, from any memory with zero counters: every weakly fair execution of the
    reference's @main terminates with each of the five results at its stage of the arguments' launch contents, and the
    arguments unchanged. -/
theorem run_stages (ρ : Dev nD → PrngReg) :
    θ_run defs (onTc (τ := τ) (main (F := F))) ⟨m, fun _ => 0, ρ⟩ fun r => ∀ c : Dev nD,
      r.2.mem ((c.tc : Thread nD τ).loc main_v202) = ReadP.val_main_v202 (F := F) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg20)) (m ((c.tc : Thread nD τ).loc main_arg25)) (m ((c.tc : Thread nD τ).loc main_arg30)) (m ((c.tc : Thread nD τ).loc main_arg35)) (m ((c.tc : Thread nD τ).loc main_arg36)) (m ((c.tc : Thread nD τ).loc main_arg37)) (m ((c.tc : Thread nD τ).loc main_arg47))
      ∧ r.2.mem ((c.tc : Thread nD τ).loc main_v206) = ReadP.val_main_v206 (F := F) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg21)) (m ((c.tc : Thread nD τ).loc main_arg26)) (m ((c.tc : Thread nD τ).loc main_arg31)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg48)) (m ((c.tc : Thread nD τ).loc main_arg49))
      ∧ r.2.mem ((c.tc : Thread nD τ).loc main_v210) = ReadP.val_main_v210 (F := F) (m ((c.tc : Thread nD τ).loc main_arg1)) (m ((c.tc : Thread nD τ).loc main_arg2)) (m ((c.tc : Thread nD τ).loc main_arg3)) (m ((c.tc : Thread nD τ).loc main_arg11)) (m ((c.tc : Thread nD τ).loc main_arg12)) (m ((c.tc : Thread nD τ).loc main_arg13)) (m ((c.tc : Thread nD τ).loc main_arg22)) (m ((c.tc : Thread nD τ).loc main_arg27)) (m ((c.tc : Thread nD τ).loc main_arg32)) (m ((c.tc : Thread nD τ).loc main_arg38)) (m ((c.tc : Thread nD τ).loc main_arg39)) (m ((c.tc : Thread nD τ).loc main_arg40)) (m ((c.tc : Thread nD τ).loc main_arg41)) (m ((c.tc : Thread nD τ).loc main_arg42)) (m ((c.tc : Thread nD τ).loc main_arg43)) (m ((c.tc : Thread nD τ).loc main_arg50)) (m ((c.tc : Thread nD τ).loc main_arg51))
      ∧ r.2.mem ((c.tc : Thread nD τ).loc main_v214) = ReadP.val_main_v214 (F := F) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) (m ((c.tc : Thread nD τ).loc main_arg16)) (m ((c.tc : Thread nD τ).loc main_arg23)) (m ((c.tc : Thread nD τ).loc main_arg28)) (m ((c.tc : Thread nD τ).loc main_arg33)) (m ((c.tc : Thread nD τ).loc main_arg41)) (m ((c.tc : Thread nD τ).loc main_arg42)) (m ((c.tc : Thread nD τ).loc main_arg43)) (m ((c.tc : Thread nD τ).loc main_arg44)) (m ((c.tc : Thread nD τ).loc main_arg45)) (m ((c.tc : Thread nD τ).loc main_arg46)) (m ((c.tc : Thread nD τ).loc main_arg52)) (m ((c.tc : Thread nD τ).loc main_arg53))
      ∧ r.2.mem ((c.tc : Thread nD τ).loc main_v217) = ReadP.val_main_v217 (F := F) (m ((c.tc : Thread nD τ).loc main_arg3)) (m ((c.tc : Thread nD τ).loc main_arg4)) (m ((c.tc : Thread nD τ).loc main_arg17)) (m ((c.tc : Thread nD τ).loc main_arg18)) (m ((c.tc : Thread nD τ).loc main_arg19)) (m ((c.tc : Thread nD τ).loc main_arg24)) (m ((c.tc : Thread nD τ).loc main_arg29)) (m ((c.tc : Thread nD τ).loc main_arg34)) (m ((c.tc : Thread nD τ).loc main_arg44)) (m ((c.tc : Thread nD τ).loc main_arg45)) (m ((c.tc : Thread nD τ).loc main_arg46)) (m ((c.tc : Thread nD τ).loc main_arg54))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54) :=
  (θ_run defs _ _).mono (fun _ h c => ⟨(h c main_v202).trans (res_v202 m c),
      (h c main_v206).trans (res_v206 m c),
      (h c main_v210).trans (res_v210 m c),
      (h c main_v214).trans (res_v214 m c),
      (h c main_v217).trans (res_v217 m c),
      (h c main_arg0).trans (arg_end m c main_arg0 arg0_nw),
      (h c main_arg1).trans (arg_end m c main_arg1 arg1_nw),
      (h c main_arg2).trans (arg_end m c main_arg2 arg2_nw),
      (h c main_arg3).trans (arg_end m c main_arg3 arg3_nw),
      (h c main_arg4).trans (arg_end m c main_arg4 arg4_nw),
      (h c main_arg5).trans (arg_end m c main_arg5 arg5_nw),
      (h c main_arg6).trans (arg_end m c main_arg6 arg6_nw),
      (h c main_arg7).trans (arg_end m c main_arg7 arg7_nw),
      (h c main_arg8).trans (arg_end m c main_arg8 arg8_nw),
      (h c main_arg9).trans (arg_end m c main_arg9 arg9_nw),
      (h c main_arg10).trans (arg_end m c main_arg10 arg10_nw),
      (h c main_arg11).trans (arg_end m c main_arg11 arg11_nw),
      (h c main_arg12).trans (arg_end m c main_arg12 arg12_nw),
      (h c main_arg13).trans (arg_end m c main_arg13 arg13_nw),
      (h c main_arg14).trans (arg_end m c main_arg14 arg14_nw),
      (h c main_arg15).trans (arg_end m c main_arg15 arg15_nw),
      (h c main_arg16).trans (arg_end m c main_arg16 arg16_nw),
      (h c main_arg17).trans (arg_end m c main_arg17 arg17_nw),
      (h c main_arg18).trans (arg_end m c main_arg18 arg18_nw),
      (h c main_arg19).trans (arg_end m c main_arg19 arg19_nw),
      (h c main_arg20).trans (arg_end m c main_arg20 arg20_nw),
      (h c main_arg21).trans (arg_end m c main_arg21 arg21_nw),
      (h c main_arg22).trans (arg_end m c main_arg22 arg22_nw),
      (h c main_arg23).trans (arg_end m c main_arg23 arg23_nw),
      (h c main_arg24).trans (arg_end m c main_arg24 arg24_nw),
      (h c main_arg25).trans (arg_end m c main_arg25 arg25_nw),
      (h c main_arg26).trans (arg_end m c main_arg26 arg26_nw),
      (h c main_arg27).trans (arg_end m c main_arg27 arg27_nw),
      (h c main_arg28).trans (arg_end m c main_arg28 arg28_nw),
      (h c main_arg29).trans (arg_end m c main_arg29 arg29_nw),
      (h c main_arg30).trans (arg_end m c main_arg30 arg30_nw),
      (h c main_arg31).trans (arg_end m c main_arg31 arg31_nw),
      (h c main_arg32).trans (arg_end m c main_arg32 arg32_nw),
      (h c main_arg33).trans (arg_end m c main_arg33 arg33_nw),
      (h c main_arg34).trans (arg_end m c main_arg34 arg34_nw),
      (h c main_arg35).trans (arg_end m c main_arg35 arg35_nw),
      (h c main_arg36).trans (arg_end m c main_arg36 arg36_nw),
      (h c main_arg37).trans (arg_end m c main_arg37 arg37_nw),
      (h c main_arg38).trans (arg_end m c main_arg38 arg38_nw),
      (h c main_arg39).trans (arg_end m c main_arg39 arg39_nw),
      (h c main_arg40).trans (arg_end m c main_arg40 arg40_nw),
      (h c main_arg41).trans (arg_end m c main_arg41 arg41_nw),
      (h c main_arg42).trans (arg_end m c main_arg42 arg42_nw),
      (h c main_arg43).trans (arg_end m c main_arg43 arg43_nw),
      (h c main_arg44).trans (arg_end m c main_arg44 arg44_nw),
      (h c main_arg45).trans (arg_end m c main_arg45 arg45_nw),
      (h c main_arg46).trans (arg_end m c main_arg46 arg46_nw),
      (h c main_arg47).trans (arg_end m c main_arg47 arg47_nw),
      (h c main_arg48).trans (arg_end m c main_arg48 arg48_nw),
      (h c main_arg49).trans (arg_end m c main_arg49 arg49_nw),
      (h c main_arg50).trans (arg_end m c main_arg50 arg50_nw),
      (h c main_arg51).trans (arg_end m c main_arg51 arg51_nw),
      (h c main_arg52).trans (arg_end m c main_arg52 arg52_nw),
      (h c main_arg53).trans (arg_end m c main_arg53 arg53_nw),
      (h c main_arg54).trans (arg_end m c main_arg54 arg54_nw)⟩)
    (run_seq ValueQ.scopedRefs_eq ValueQ.scopedSems_eq defs main (fun _ => ValueQ.ops) ValueQ.main_eq (fun _ => ValueQ.ops_sub) m ρ (fun _ => ops_fresh))

end Cert.Proof.Ref2

end
-- ==== Proof.KV.Relu.lean ====
/-
  The rectifier on the extended reals: the larger of a value and zero. A float maximum against the zero word,
  read at the exact extended reals, is this function of the operand.
-/
import Idealize.ShloMosaic.PureOps.Ideal.Laws

noncomputable section

namespace Cert.KV

open Idealize.ShloMosaic

/-- The rectifier: `x` where it is nonnegative, `0` elsewhere. -/
def relu (x : EReal) : EReal := max x 0

theorem relu_def (x : EReal) : relu x = max x 0 := rfl

/-- The maximum of a value and the f32 zero word, at the exact extended reals, is the rectifier of the value. -/
theorem max_ofBits_zero (x : EReal) : max x (Ideal.ofBits .f32 0x00000000#32) = relu x := by
  rw [Ideal.ofBits_zero_f32]; rfl

/-- A vector maximum against the broadcast f32 zero word, read at an index: the rectifier of the operand there. -/
theorem maximumf_zero_apply {s : Shape} (x : FVec Ideal s .f32) (i : s.Idx) :
    maximumf x (broadcast s (Scalar.ofBits (F := Ideal) .f32 0x00000000#32)) i = relu (x i) :=
  max_ofBits_zero (x i)

end Cert.KV

end
-- ==== Proof.KV.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.KV.AggBase.lean ====
/-
  What the five aggregator bodies share: a block [10000, 64] times the weights [64, 64], accumulated into zeros and
  read at row `p`, column `q`, is the sum over `k` of the block's entry `(p, k)` times the weights' entry `(k, q)`;
  and the offsets `(0, 0)` of a whole-buffer rectangle are the zero function.
-/
import proofs.«140264_j78443282694634_2_alg».proof.Proof.Gen.KernelIdeal
import proofs.«140264_j78443282694634_2_alg».proof.Proof.KV.LibMatmul
import Idealize.ShloMosaic.Lib.ValueIdx
import Idealize.ShloMosaic.PureOps.Ideal.Laws

set_option maxRecDepth 16384

noncomputable section

namespace Cert.KernelIdeal.KV

open Cert.KernelIdeal Cert.KernelIdeal.Gen
open Idealize.ShloMosaic Idealize.ShloMosaic.ValueIdx

/-- The offsets of a rectangle that starts at the origin of a rank-2 buffer. -/
theorem zero_offsets : (![0, 0] : Fin 2 → Nat) = fun _ => 0 := funext fun a => by fin_cases a <;> rfl

/-- The product keeps the left operand's row: its row coordinate is the output's. -/
theorem agg_dot_lhs0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- It contracts the left operand's column axis: its column coordinate is the contraction index. -/
theorem agg_dot_lhs1 (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q

/-- It contracts the right operand's row axis: its row coordinate is the contraction index. -/
theorem agg_dot_rhs0 (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q

/-- The product keeps the right operand's column: its column coordinate is the output's. -/
theorem agg_dot_rhs1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The aggregators' matrix product into zeros, at row `p` and column `q`: `∑ k, lhs (p, k) · rhs (k, q)`. -/
theorem agg_matmul_apply (lhs : FVec Ideal S10000x64 .f32) (rhs : FVec Ideal S64x64 .f32) (p : Fin 10000) (q : Fin 64) :
    matmul dot_S10000x64_S64x64_S10000x64_1_0_0_1_n_n none lhs rhs (constant (F := Ideal) S10000x64 .f32 0x00000000#32) (ix2 p q)
      = ∑ k : Fin 64, lhs (ix2 p k) * rhs (ix2 k q) :=
  Cert.LibMatmul.matmul_zero_ix2 dot_S10000x64_S64x64_S10000x64_1_0_0_1_n_n none rfl rfl agg_dot_lhs0 agg_dot_lhs1 agg_dot_rhs0 agg_dot_rhs1 lhs rhs (ix2 p q)

end Cert.KernelIdeal.KV

end
-- ==== Proof.KV.Agg5.lean ====
/-
  Region 5 (the first aggregator) at the exact extended reals: its output array [50000, 64] after the region, read
  at row `r` and column `q`, as a function of the four arrays the region is entered with — `s`, `cci`, `d` of shape
  [50000, 64] and the weights `wg` of shape [64, 64]:

      relu (∑ k, (relu (s (r, k) · cci (r, k)) + relu (d (r, k))) · wg (k, q)).

  The grid has five points; point `t` works on rows `10000 t … 10000 t + 9999` of the three row arrays and of the
  output, and on the whole of the weights. The body's value at row `p` of its block depends only on row `p` of the
  input blocks, which are rows `10000 t + p` of the arrays; so what every point writes back is its block of ONE
  function of the arrays, the five blocks tile the output, and the output ends holding that function.
-/
import proofs.«140264_j78443282694634_2_alg».proof.Proof.KI.R5
import proofs.«140264_j78443282694634_2_alg».proof.Proof.KV.Relu
import proofs.«140264_j78443282694634_2_alg».proof.Proof.KV.AggBase
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr Cert.KV
open Idealize.ShloMosaic Idealize.ShloMosaic.TcCoe Idealize.ShloMosaic.ValueIdx
open Idealize.ShloMosaic.Pipeline (Dat)

/-- The body's value at row `p`, column `q` of its block, from the loaded blocks: the product `s · cci` rectified, plus
    `d` rectified, times the weights, rectified. -/
theorem pay5_apply (x0 x1 x2 : Vec Ideal S10000x64 .f32) (x3 : Vec Ideal S64x64 .f32) (p : Fin 10000) (q : Fin 64) :
    k5_pay1 (F := Ideal) x0 x1 x2 x3 (ix2 p q)
      = relu (∑ k : Fin 64, (relu (x0 (ix2 p k) * x1 (ix2 p k)) + relu (x2 (ix2 p k))) * x3 (ix2 k q)) := by
  unfold k5_pay1
  refine (maximumf_zero_apply _ _).trans ?_
  refine congrArg relu ?_
  refine (agg_matmul_apply _ _ p q).trans ?_
  refine Finset.sum_congr rfl fun k _ => ?_
  refine congrArg (· * x3 (ix2 k q)) ?_
  rw [shapeCast_self, shapeCast_self]
  exact congrArg₂ (· + ·) (maximumf_zero_apply (mulf x0 x1) (ix2 p k)) (maximumf_zero_apply x2 (ix2 p k))

variable (V : (c : Dev nD) → (b : Ref sig .tc) → Buf (Elt Ideal) ((c : Thread nD τ).loc b))

/-- The function of the entry arrays the output ends holding, at row `r` and column `q`. -/
def agg5 (s cci d : S50000x64.Idx → EReal) (wg : S64x64.Idx → EReal) (r : Fin 50000) (q : Fin 64) : EReal :=
  relu (∑ k : Fin 64, (relu (s (ix2 r k) * cci (ix2 r k)) + relu (d (ix2 r k))) * wg (ix2 k q))

/-- The same as one array over the output's indices. -/
def G5 (c : Dev nD) : S50000x64.Idx → EReal := fun i =>
  agg5 (V c (Pipeline.arrRef spec5 0)) (V c (Pipeline.arrRef spec5 1)) (V c (Pipeline.arrRef spec5 2)) (V c (Pipeline.arrRef spec5 3))
    ⟨(i 0).val, idx2_lt0 i⟩ ⟨(i 1).val, idx2_lt1 i⟩

/-- `G5` at an index whose coordinates are `r` and `q`. -/
theorem G5_apply (c : Dev nD) (i : S50000x64.Idx) (r : Fin 50000) (q : Fin 64) (h0 : (i 0).val = r.val) (h1 : (i 1).val = q.val) :
    G5 V c i = agg5 (V c (Pipeline.arrRef spec5 0)) (V c (Pipeline.arrRef spec5 1)) (V c (Pipeline.arrRef spec5 2)) (V c (Pipeline.arrRef spec5 3)) r q := by
  unfold G5
  have e0 : (⟨(i 0).val, idx2_lt0 i⟩ : Fin 50000) = r := Fin.ext h0
  have e1 : (⟨(i 1).val, idx2_lt1 i⟩ : Fin 64) = q := Fin.ext h1
  rw [e0, e1]

/-- The printed index maps over the five points: a row window's block index is `(t, 0)`, the weights' is `(0, 0)`. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row `p` of point `t`'s block of `s` is row `10000 t + p` of `s`. -/
theorem iblk5_0_apply (c : Dev nD) (t : Fin cfg5.N) (p : Fin 10000) (k : Fin 64) (r : Fin 50000) (hr : r.val = t.val * 10000 + p.val) :
    (iblk5 V c 0 t : Vec Ideal S10000x64 .f32) (ix2 p k) = (V c (Pipeline.arrRef spec5 0) : S50000x64.Idx → EReal) (ix2 r k) := by
  obtain ⟨e0, e1, -⟩ := idx_facts5 t
  unfold iblk5
  rw [View.read_apply]
  refine congrArg (V c (Pipeline.arrRef spec5 0) : S50000x64.Idx → EReal) ?_
  funext a; apply Fin.ext
  match a with
  | ⟨0, _⟩ => show win5_0.index t (0 : Fin 2) * 10000 + 1 * p.val = r.val; omega
  | ⟨1, _⟩ => show win5_0.index t (1 : Fin 2) * 64 + 1 * k.val = k.val; omega

/-- Row `p` of point `t`'s block of `cci` is row `10000 t + p` of `cci`. -/
theorem iblk5_1_apply (c : Dev nD) (t : Fin cfg5.N) (p : Fin 10000) (k : Fin 64) (r : Fin 50000) (hr : r.val = t.val * 10000 + p.val) :
    (iblk5 V c 1 t : Vec Ideal S10000x64 .f32) (ix2 p k) = (V c (Pipeline.arrRef spec5 1) : S50000x64.Idx → EReal) (ix2 r k) := by
  obtain ⟨a0, a1, b0, b1, d0, d1, -⟩ := idx_facts5 t
  unfold iblk5
  rw [View.read_apply]
  refine congrArg (V c (Pipeline.arrRef spec5 1) : S50000x64.Idx → EReal) ?_
  funext a; apply Fin.ext
  match a with
  | ⟨0, _⟩ => show win5_1.index t (0 : Fin 2) * 10000 + 1 * p.val = r.val; omega
  | ⟨1, _⟩ => show win5_1.index t (1 : Fin 2) * 64 + 1 * k.val = k.val; omega

/-- Row `p` of point `t`'s block of `d` is row `10000 t + p` of `d`. -/
theorem iblk5_2_apply (c : Dev nD) (t : Fin cfg5.N) (p : Fin 10000) (k : Fin 64) (r : Fin 50000) (hr : r.val = t.val * 10000 + p.val) :
    (iblk5 V c 2 t : Vec Ideal S10000x64 .f32) (ix2 p k) = (V c (Pipeline.arrRef spec5 2) : S50000x64.Idx → EReal) (ix2 r k) := by
  obtain ⟨a0, a1, b0, b1, d0, d1, -⟩ := idx_facts5 t
  unfold iblk5
  rw [View.read_apply]
  refine congrArg (V c (Pipeline.arrRef spec5 2) : S50000x64.Idx → EReal) ?_
  funext a; apply Fin.ext
  match a with
  | ⟨0, _⟩ => show win5_2.index t (0 : Fin 2) * 10000 + 1 * p.val = r.val; omega
  | ⟨1, _⟩ => show win5_2.index t (1 : Fin 2) * 64 + 1 * k.val = k.val; omega

/-- Every point's block of the weights is the weights. -/
theorem iblk5_3_apply (c : Dev nD) (t : Fin cfg5.N) (k q : Fin 64) :
    (iblk5 V c 3 t : Vec Ideal S64x64 .f32) (ix2 k q) = (V c (Pipeline.arrRef spec5 3) : S64x64.Idx → EReal) (ix2 k q) := by
  obtain ⟨-, -, -, -, -, -, w0, w1, -⟩ := idx_facts5 t
  unfold iblk5
  rw [View.read_apply]
  refine congrArg (V c (Pipeline.arrRef spec5 3) : S64x64.Idx → EReal) ?_
  funext a; apply Fin.ext
  match a with
  | ⟨0, _⟩ => show win5_3.index t (0 : Fin 2) * 64 + 1 * k.val = k.val; omega
  | ⟨1, _⟩ => show win5_3.index t (1 : Fin 2) * 64 + 1 * q.val = q.val; omega

/-- What point `t` writes back is block `t` of `G5`: entry `(p, q)` of the body's value is `G5` at row `10000 t + p`. -/
theorem flushed5 (c : Dev nD) (t : Fin cfg5.N) :
    (dat5 V c).flushed 4 t = ((cfg5.win 4).blk t).view.read (Elt Ideal) (G5 V c) := by
  have hN : cfg5.N = 5 := N_5
  obtain ⟨-, -, -, -, -, -, -, -, o0, o1⟩ := idx_facts5 t
  show (cfg5.win 4).cut (grid5.coords t) ((dat5 V c).after 4 t) = _
  rw [after5_4]
  unfold out5_4
  rw [View.canon_unit_zero zero_offsets]
  simp only [View.ld_unit_zero (S := S10000x64) zero_offsets, View.ld_unit_zero (S := S64x64) zero_offsets]
  funext j
  obtain ⟨p, q, rfl⟩ : ∃ (p : Fin 10000) (q : Fin 64), j = ix2 p q := ⟨j 0, j 1, eq_ix2 j⟩
  have hp := p.isLt
  have ht := t.isLt
  obtain ⟨r, hr⟩ : ∃ r : Fin 50000, r.val = t.val * 10000 + p.val := ⟨⟨t.val * 10000 + p.val, by omega⟩, rfl⟩
  refine (pay5_apply (iblk5 V c 0 t) (iblk5 V c 1 t) (iblk5 V c 2 t) (iblk5 V c 3 t) p q).trans ?_
  refine Eq.trans ?_ (G5_apply V c _ r q ?_ ?_).symm
  · unfold agg5
    refine congrArg relu (Finset.sum_congr rfl fun k _ => ?_)
    rw [iblk5_0_apply V c t p k r hr, iblk5_1_apply V c t p k r hr, iblk5_2_apply V c t p k r hr, iblk5_3_apply V c t k q]
  · show win5_4.index t (0 : Fin 2) * 10000 + 1 * p.val = r.val; omega
  · show win5_4.index t (1 : Fin 2) * 64 + 1 * q.val = q.val; omega

/-- An index of the output is in point `t`'s block iff each coordinate is in the block's range on its axis. -/
theorem mem_blk5 (t : Fin cfg5.N) (i : S50000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v195).slice (win5_4.rect t)).set ↔ _
  rw [View.set_slice_whole, Rect.mem_set_unit]
  exact Iff.rfl

/-- The five blocks tile the output: row `r` lies in the block of point `r / 10000`. -/
theorem cover5 (i : S50000x64.Idx) : ∃ t : Fin cfg5.N, (cfg5.win 4).flush t = true ∧ i ∈ ((cfg5.win 4).blk t).view.set := by
  have hN : cfg5.N = 5 := N_5
  have hi0 : (i 0).val < 50000 := idx2_lt0 i
  have hi1 : (i 1).val < 64 := idx2_lt1 i
  obtain ⟨t, ht⟩ : ∃ t : Fin cfg5.N, t.val = (i 0).val / 10000 := ⟨⟨(i 0).val / 10000, by omega⟩, rfl⟩
  obtain ⟨-, -, -, -, -, -, -, -, o0, o1⟩ := idx_facts5 t
  refine ⟨t, flush5_4 t, ?_⟩
  rw [mem_blk5]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 64 ≤ (i 1).val ∧ (i 1).val < win5_4.index t (1 : Fin 2) * 64 + 64; omega

/-- The output array after the region is `G5` of the arrays the region was entered with. -/
theorem final5 (c : Dev nD) : (dat5 V c).arrAt 4 cfg5.N = G5 V c :=
  (dat5 V c).arrAt_eq_of_cover 4 (G5 V c) (fun t _ => flushed5 V c t) cover5

/-- `agg5` unfolded. -/
theorem agg5_def (s cci d : S50000x64.Idx → EReal) (wg : S64x64.Idx → EReal) (r : Fin 50000) (q : Fin 64) :
    agg5 s cci d wg r q = relu (∑ k : Fin 64, (relu (s (ix2 r k) * cci (ix2 r k)) + relu (d (ix2 r k))) * wg (ix2 k q)) := rfl

/-- The output array after the region, read at row `r` and column `q`: `agg5` of the four arrays the region was
    entered with (windows 0, 1, 2, 3: `s`, `cci`, `d`, the weights). -/
theorem agg5_arr (c : Dev nD) (r : Fin 50000) (q : Fin 64) :
    ((dat5 V c).arrAt 4 cfg5.N : S50000x64.Idx → EReal) (ix2 r q)
      = agg5 (V c (Pipeline.arrRef spec5 0)) (V c (Pipeline.arrRef spec5 1)) (V c (Pipeline.arrRef spec5 2)) (V c (Pipeline.arrRef spec5 3)) r q := by
  rw [final5]
  exact G5_apply V c (ix2 r q) r q rfl rfl

end Cert.KernelIdeal.KV

end
-- ==== Proof.KV.Out0.lean ====
/-
  The output array of region 5 at the last boundary of @main, read at row `p` and column `q`: it is not
  written after the region, the region leaves it at `agg5` of the arrays it was entered with, and those arrays
  are, at the region's entry, what they were before the first aggregator ran — an argument as launched, a sparse
  product as the host stretches left it (no aggregator writes another's inputs).
  Operands: `s` = the sparse product `main_v38`, `cci` = the argument `main_arg20`, `d` = the sparse product `main_v103`, `wg` = the argument `main_arg30`.
-/
import proofs.«140264_j78443282694634_2_alg».proof.Proof.KI.Fold
import proofs.«140264_j78443282694634_2_alg».proof.Proof.KV.Agg5

set_option maxRecDepth 16384

noncomputable section

namespace Cert.KernelIdeal.KV

open Cert.KernelIdeal Cert.KernelIdeal.Gen Cert.KernelIdeal.Fr Cert.KV
open Idealize.ShloMosaic Idealize.ShloMosaic.TcCoe Idealize.ShloMosaic.ValueIdx Idealize.SL.Sem

variable (m : (ℓ : Loc nD τ sig) → Buf (Elt Ideal) ℓ) (ρ : Dev nD → PrngReg)

/-- `agg5` of equal arrays. -/
theorem agg5_congr {s s' cci cci' d d' : S50000x64.Idx → EReal} {wg wg' : S64x64.Idx → EReal}
    (hs : s = s') (hcci : cci = cci') (hd : d = d') (hwg : wg = wg') (r : Fin 50000) (q : Fin 64) :
    agg5 s cci d wg r q = agg5 s' cci' d' wg' r q := by
  subst hs hcci hd hwg; rfl

/-- Region 5's output array `main_v195` at the last boundary, at `(p, q)`. -/
theorem out0_apply (c : Dev nD) (p : Fin 50000) (q : Fin 64) :
    (W22 m ρ c (Proc.devRef .tc main_v195) : S50000x64.Idx → EReal) (ix2 p q)
      = agg5 (W17 m ρ c (Proc.devRef .tc main_v38)) (m ((c : Thread nD τ).loc main_arg20)) (W17 m ρ c (Proc.devRef .tc main_v103)) (m ((c : Thread nD τ).loc main_arg30)) p q := by
  have hout : W22 m ρ c (Proc.devRef .tc main_v195) = (dat5 (V17 m ρ) c).arrAt 4 cfg5.N :=
    ((keep22 m ρ c main_v195 (by decide)).trans ((keep21 m ρ c main_v195 (by decide)).trans ((keep20 m ρ c main_v195 (by decide)).trans ((keep19 m ρ c main_v195 (by decide)).trans (W18_arr m ρ c 4)))))
  refine (congrFun hout (ix2 p q)).trans ?_
  refine (agg5_arr (V17 m ρ) c p q).trans ?_
  have e0 : (V17 m ρ c (Pipeline.arrRef spec5 0) : S50000x64.Idx → EReal) = (W17 m ρ c (Proc.devRef .tc main_v38)) := rfl
  have e1 : (V17 m ρ c (Pipeline.arrRef spec5 1) : S50000x64.Idx → EReal) = (m ((c : Thread nD τ).loc main_arg20)) := W17_unwritten m ρ c main_arg20 (by decide)
  have e2 : (V17 m ρ c (Pipeline.arrRef spec5 2) : S50000x64.Idx → EReal) = (W17 m ρ c (Proc.devRef .tc main_v103)) := rfl
  have e3 : (V17 m ρ c (Pipeline.arrRef spec5 3) : S64x64.Idx → EReal) = (m ((c : Thread nD τ).loc main_arg30)) := W17_unwritten m ρ c main_arg30 (by decide)
  exact agg5_congr e0 e1 e2 e3 p q

end Cert.KernelIdeal.KV

end
-- ==== Proof.KV.Agg6.lean ====
/-
  Region 6 (a middle aggregator) at the exact extended reals: its output array [150000, 64] after the region, read at row `r`
  and column `q`, as a function of the arrays the region is entered with — `u`, `s`, `cci`, `d` of shape [150000, 64] and the
  weights `wg` of shape [64, 64]:

      relu (∑ k, ((relu (u (r, k)) + relu (s (r, k) · cci (r, k))) + relu (d (r, k))) · wg (k, q)).

  The grid has 15 points; point `t` works on rows `10000 t … 10000 t + 9999` of the row arrays and of the output, and on the whole
  of the weights. The body's value at row `p` of its block depends only on row `p` of the input blocks, which are
  rows `10000 t + p` of the arrays; so what every point writes back is its block of ONE function of the arrays, the
  blocks tile the output, and the output ends holding that function.
-/
import proofs.«140264_j78443282694634_2_alg».proof.Proof.KI.R6
import proofs.«140264_j78443282694634_2_alg».proof.Proof.KV.Relu
import proofs.«140264_j78443282694634_2_alg».proof.Proof.KV.AggBase
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr Cert.KV
open Idealize.ShloMosaic Idealize.ShloMosaic.TcCoe Idealize.ShloMosaic.ValueIdx
open Idealize.ShloMosaic.Pipeline (Dat)

/-- The body's value at row `p`, column `q` of its block, from the loaded blocks (in the body's own order of
    operands and additions), times the weights, rectified. -/
theorem pay6_apply (x0 x1 x2 x3 : Vec Ideal S10000x64 .f32) (x4 : Vec Ideal S64x64 .f32) (p : Fin 10000) (q : Fin 64) :
    k6_pay1 (F := Ideal) x0 x1 x2 x3 x4 (ix2 p q)
      = relu (∑ k : Fin 64, ((relu (x0 (ix2 p k)) + relu (x1 (ix2 p k) * x2 (ix2 p k))) + relu (x3 (ix2 p k))) * x4 (ix2 k q)) := by
  unfold k6_pay1
  refine (maximumf_zero_apply _ _).trans ?_
  refine congrArg relu ?_
  refine (agg_matmul_apply _ _ p q).trans ?_
  refine Finset.sum_congr rfl fun k _ => ?_
  refine congrArg (· * x4 (ix2 k q)) ?_
  simp only [shapeCast_self]
  exact congrArg₂ (· + ·) (congrArg₂ (· + ·) (maximumf_zero_apply x0 (ix2 p k)) (maximumf_zero_apply (mulf x1 x2) (ix2 p k))) (maximumf_zero_apply x3 (ix2 p k))

variable (V : (c : Dev nD) → (b : Ref sig .tc) → Buf (Elt Ideal) ((c : Thread nD τ).loc b))

/-- The function of the entry arrays the output ends holding, at row `r` and column `q`. -/
def agg6 (u s cci d : S150000x64.Idx → EReal) (wg : S64x64.Idx → EReal) (r : Fin 150000) (q : Fin 64) : EReal :=
  relu (∑ k : Fin 64, ((relu (u (ix2 r k)) + relu (s (ix2 r k) * cci (ix2 r k))) + relu (d (ix2 r k))) * wg (ix2 k q))

/-- `agg6` unfolded. -/
theorem agg6_def (u s cci d : S150000x64.Idx → EReal) (wg : S64x64.Idx → EReal) (r : Fin 150000) (q : Fin 64) :
    agg6 u s cci d wg r q = relu (∑ k : Fin 64, ((relu (u (ix2 r k)) + relu (s (ix2 r k) * cci (ix2 r k))) + relu (d (ix2 r k))) * wg (ix2 k q)) := rfl

/-- The same as one array over the output's indices. -/
def G6 (c : Dev nD) : S150000x64.Idx → EReal := fun i =>
  agg6 (V c (Pipeline.arrRef spec6 0)) (V c (Pipeline.arrRef spec6 1)) (V c (Pipeline.arrRef spec6 2)) (V c (Pipeline.arrRef spec6 3)) (V c (Pipeline.arrRef spec6 4))
    ⟨(i 0).val, idx2_lt0 i⟩ ⟨(i 1).val, idx2_lt1 i⟩

/-- `G6` at an index whose coordinates are `r` and `q`. -/
theorem G6_apply (c : Dev nD) (i : S150000x64.Idx) (r : Fin 150000) (q : Fin 64) (h0 : (i 0).val = r.val) (h1 : (i 1).val = q.val) :
    G6 V c i = agg6 (V c (Pipeline.arrRef spec6 0)) (V c (Pipeline.arrRef spec6 1)) (V c (Pipeline.arrRef spec6 2)) (V c (Pipeline.arrRef spec6 3)) (V c (Pipeline.arrRef spec6 4)) r q := by
  unfold G6
  have e0 : (⟨(i 0).val, idx2_lt0 i⟩ : Fin 150000) = r := Fin.ext h0
  have e1 : (⟨(i 1).val, idx2_lt1 i⟩ : Fin 64) = q := Fin.ext h1
  rw [e0, e1]

/-- The printed index maps over the grid: a row window's block index is `(t, 0)`, the weights' is `(0, 0)`. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row `p` of point `t`'s block of `u` is row `10000 t + p` of `u`. -/
theorem iblk6_0_apply (c : Dev nD) (t : Fin cfg6.N) (p : Fin 10000) (k : Fin 64) (r : Fin 150000) (hr : r.val = t.val * 10000 + p.val) :
    (iblk6 V c 0 t : Vec Ideal S10000x64 .f32) (ix2 p k) = (V c (Pipeline.arrRef spec6 0) : S150000x64.Idx → EReal) (ix2 r k) := by
  obtain ⟨h0_0, h0_1, h1_0, h1_1, h2_0, h2_1, h3_0, h3_1, h4_0, h4_1, h5_0, h5_1⟩ := idx_facts6 t
  unfold iblk6
  rw [View.read_apply]
  refine congrArg (V c (Pipeline.arrRef spec6 0) : S150000x64.Idx → EReal) ?_
  funext a; apply Fin.ext
  match a with
  | ⟨0, _⟩ => show win6_0.index t (0 : Fin 2) * 10000 + 1 * p.val = r.val; omega
  | ⟨1, _⟩ => show win6_0.index t (1 : Fin 2) * 64 + 1 * k.val = k.val; omega

/-- Row `p` of point `t`'s block of `s` is row `10000 t + p` of `s`. -/
theorem iblk6_1_apply (c : Dev nD) (t : Fin cfg6.N) (p : Fin 10000) (k : Fin 64) (r : Fin 150000) (hr : r.val = t.val * 10000 + p.val) :
    (iblk6 V c 1 t : Vec Ideal S10000x64 .f32) (ix2 p k) = (V c (Pipeline.arrRef spec6 1) : S150000x64.Idx → EReal) (ix2 r k) := by
  obtain ⟨h0_0, h0_1, h1_0, h1_1, h2_0, h2_1, h3_0, h3_1, h4_0, h4_1, h5_0, h5_1⟩ := idx_facts6 t
  unfold iblk6
  rw [View.read_apply]
  refine congrArg (V c (Pipeline.arrRef spec6 1) : S150000x64.Idx → EReal) ?_
  funext a; apply Fin.ext
  match a with
  | ⟨0, _⟩ => show win6_1.index t (0 : Fin 2) * 10000 + 1 * p.val = r.val; omega
  | ⟨1, _⟩ => show win6_1.index t (1 : Fin 2) * 64 + 1 * k.val = k.val; omega

/-- Row `p` of point `t`'s block of `cci` is row `10000 t + p` of `cci`. -/
theorem iblk6_2_apply (c : Dev nD) (t : Fin cfg6.N) (p : Fin 10000) (k : Fin 64) (r : Fin 150000) (hr : r.val = t.val * 10000 + p.val) :
    (iblk6 V c 2 t : Vec Ideal S10000x64 .f32) (ix2 p k) = (V c (Pipeline.arrRef spec6 2) : S150000x64.Idx → EReal) (ix2 r k) := by
  obtain ⟨h0_0, h0_1, h1_0, h1_1, h2_0, h2_1, h3_0, h3_1, h4_0, h4_1, h5_0, h5_1⟩ := idx_facts6 t
  unfold iblk6
  rw [View.read_apply]
  refine congrArg (V c (Pipeline.arrRef spec6 2) : S150000x64.Idx → EReal) ?_
  funext a; apply Fin.ext
  match a with
  | ⟨0, _⟩ => show win6_2.index t (0 : Fin 2) * 10000 + 1 * p.val = r.val; omega
  | ⟨1, _⟩ => show win6_2.index t (1 : Fin 2) * 64 + 1 * k.val = k.val; omega

/-- Row `p` of point `t`'s block of `d` is row `10000 t + p` of `d`. -/
theorem iblk6_3_apply (c : Dev nD) (t : Fin cfg6.N) (p : Fin 10000) (k : Fin 64) (r : Fin 150000) (hr : r.val = t.val * 10000 + p.val) :
    (iblk6 V c 3 t : Vec Ideal S10000x64 .f32) (ix2 p k) = (V c (Pipeline.arrRef spec6 3) : S150000x64.Idx → EReal) (ix2 r k) := by
  obtain ⟨h0_0, h0_1, h1_0, h1_1, h2_0, h2_1, h3_0, h3_1, h4_0, h4_1, h5_0, h5_1⟩ := idx_facts6 t
  unfold iblk6
  rw [View.read_apply]
  refine congrArg (V c (Pipeline.arrRef spec6 3) : S150000x64.Idx → EReal) ?_
  funext a; apply Fin.ext
  match a with
  | ⟨0, _⟩ => show win6_3.index t (0 : Fin 2) * 10000 + 1 * p.val = r.val; omega
  | ⟨1, _⟩ => show win6_3.index t (1 : Fin 2) * 64 + 1 * k.val = k.val; omega

/-- Every point's block of the weights is the weights. -/
theorem iblk6_4_apply (c : Dev nD) (t : Fin cfg6.N) (k q : Fin 64) :
    (iblk6 V c 4 t : Vec Ideal S64x64 .f32) (ix2 k q) = (V c (Pipeline.arrRef spec6 4) : S64x64.Idx → EReal) (ix2 k q) := by
  obtain ⟨h0_0, h0_1, h1_0, h1_1, h2_0, h2_1, h3_0, h3_1, h4_0, h4_1, h5_0, h5_1⟩ := idx_facts6 t
  unfold iblk6
  rw [View.read_apply]
  refine congrArg (V c (Pipeline.arrRef spec6 4) : S64x64.Idx → EReal) ?_
  funext a; apply Fin.ext
  match a with
  | ⟨0, _⟩ => show win6_4.index t (0 : Fin 2) * 64 + 1 * k.val = k.val; omega
  | ⟨1, _⟩ => show win6_4.index t (1 : Fin 2) * 64 + 1 * q.val = q.val; omega

/-- What point `t` writes back is block `t` of `G6`: entry `(p, q)` of the body's value is `G6` at row `10000 t + p`. -/
theorem flushed6 (c : Dev nD) (t : Fin cfg6.N) :
    (dat6 V c).flushed 5 t = ((cfg6.win 5).blk t).view.read (Elt Ideal) (G6 V c) := by
  have hN : cfg6.N = 15 := N_6
  obtain ⟨h0_0, h0_1, h1_0, h1_1, h2_0, h2_1, h3_0, h3_1, h4_0, h4_1, h5_0, h5_1⟩ := idx_facts6 t
  show (cfg6.win 5).cut (grid6.coords t) ((dat6 V c).after 5 t) = _
  rw [after6_5]
  unfold out6_5
  rw [View.canon_unit_zero zero_offsets]
  simp only [View.ld_unit_zero (S := S10000x64) zero_offsets, View.ld_unit_zero (S := S64x64) zero_offsets]
  funext j
  obtain ⟨p, q, rfl⟩ : ∃ (p : Fin 10000) (q : Fin 64), j = ix2 p q := ⟨j 0, j 1, eq_ix2 j⟩
  have hp := p.isLt
  have ht := t.isLt
  obtain ⟨r, hr⟩ : ∃ r : Fin 150000, r.val = t.val * 10000 + p.val := ⟨⟨t.val * 10000 + p.val, by omega⟩, rfl⟩
  refine (pay6_apply (iblk6 V c 0 t) (iblk6 V c 1 t) (iblk6 V c 2 t) (iblk6 V c 3 t) (iblk6 V c 4 t) p q).trans ?_
  refine Eq.trans ?_ (G6_apply V c _ r q ?_ ?_).symm
  · unfold agg6
    refine congrArg relu (Finset.sum_congr rfl fun k _ => ?_)
    rw [iblk6_0_apply V c t p k r hr, iblk6_1_apply V c t p k r hr, iblk6_2_apply V c t p k r hr, iblk6_3_apply V c t p k r hr, iblk6_4_apply V c t k q]
  · show win6_5.index t (0 : Fin 2) * 10000 + 1 * p.val = r.val; omega
  · show win6_5.index t (1 : Fin 2) * 64 + 1 * q.val = q.val; omega

/-- An index of the output is in point `t`'s block iff each coordinate is in the block's range on its axis. -/
theorem mem_blk6 (t : Fin cfg6.N) (i : S150000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole main_v196).slice (win6_5.rect t)).set ↔ _
  rw [View.set_slice_whole, Rect.mem_set_unit]
  exact Iff.rfl

/-- The blocks tile the output: row `r` lies in the block of point `r / 10000`. -/
theorem cover6 (i : S150000x64.Idx) : ∃ t : Fin cfg6.N, (cfg6.win 5).flush t = true ∧ i ∈ ((cfg6.win 5).blk t).view.set := by
  have hN : cfg6.N = 15 := N_6
  have hi0 : (i 0).val < 150000 := idx2_lt0 i
  have hi1 : (i 1).val < 64 := idx2_lt1 i
  obtain ⟨t, ht⟩ : ∃ t : Fin cfg6.N, t.val = (i 0).val / 10000 := ⟨⟨(i 0).val / 10000, by omega⟩, rfl⟩
  obtain ⟨h0_0, h0_1, h1_0, h1_1, h2_0, h2_1, h3_0, h3_1, h4_0, h4_1, h5_0, h5_1⟩ := idx_facts6 t
  refine ⟨t, flush6_5 t, ?_⟩
  rw [mem_blk6]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 64 ≤ (i 1).val ∧ (i 1).val < win6_5.index t (1 : Fin 2) * 64 + 64; omega

/-- The output array after the region is `G6` of the arrays the region was entered with. -/
theorem final6 (c : Dev nD) : (dat6 V c).arrAt 5 cfg6.N = G6 V c :=
  (dat6 V c).arrAt_eq_of_cover 5 (G6 V c) (fun t _ => flushed6 V c t) cover6

/-- The output array after the region, read at row `r` and column `q`: `agg6` of the arrays the region was
    entered with (windows 0, 1, 2, 3, 4: `u`, `s`, `cci`, `d`, the weights). -/
theorem agg6_arr (c : Dev nD) (r : Fin 150000) (q : Fin 64) :
    ((dat6 V c).arrAt 5 cfg6.N : S150000x64.Idx → EReal) (ix2 r q)
      = agg6 (V c (Pipeline.arrRef spec6 0)) (V c (Pipeline.arrRef spec6 1)) (V c (Pipeline.arrRef spec6 2)) (V c (Pipeline.arrRef spec6 3)) (V c (Pipeline.arrRef spec6 4)) r q := by
  rw [final6]
  exact G6_apply V c (ix2 r q) r q rfl rfl

end Cert.KernelIdeal.KV

end
-- ==== Proof.KV.Out1.lean ====
/-
  The output array of region 6 at the last boundary of @main, read at row `p` and column `q`: it is not
  written after the region, the region leaves it at `agg6` of the arrays it was entered with, and those arrays
  are, at the region's entry, what they were before the first aggregator ran — an argument as launched, a sparse
  product as the host stretches left it (no aggregator writes another's inputs).
  Operands: `u` = the sparse product `main_v116`, `s` = the sparse product `main_v51`, `cci` = the argument `main_arg21`, `d` = the sparse product `main_v129`, `wg` = the argument `main_arg31`.
-/
import proofs.«140264_j78443282694634_2_alg».proof.Proof.KI.Fold
import proofs.«140264_j78443282694634_2_alg».proof.Proof.KV.Agg6

set_option maxRecDepth 16384

noncomputable section

namespace Cert.KernelIdeal.KV

open Cert.KernelIdeal Cert.KernelIdeal.Gen Cert.KernelIdeal.Fr Cert.KV
open Idealize.ShloMosaic Idealize.ShloMosaic.TcCoe Idealize.ShloMosaic.ValueIdx Idealize.SL.Sem

variable (m : (ℓ : Loc nD τ sig) → Buf (Elt Ideal) ℓ) (ρ : Dev nD → PrngReg)

/-- `agg6` of equal arrays. -/
theorem agg6_congr {u u' s s' cci cci' d d' : S150000x64.Idx → EReal} {wg wg' : S64x64.Idx → EReal}
    (hu : u = u') (hs : s = s') (hcci : cci = cci') (hd : d = d') (hwg : wg = wg') (r : Fin 150000) (q : Fin 64) :
    agg6 u s cci d wg r q = agg6 u' s' cci' d' wg' r q := by
  subst hu hs hcci hd hwg; rfl

/-- Region 6's output array `main_v196` at the last boundary, at `(p, q)`. -/
theorem out1_apply (c : Dev nD) (p : Fin 150000) (q : Fin 64) :
    (W22 m ρ c (Proc.devRef .tc main_v196) : S150000x64.Idx → EReal) (ix2 p q)
      = agg6 (W17 m ρ c (Proc.devRef .tc main_v116)) (W17 m ρ c (Proc.devRef .tc main_v51)) (m ((c : Thread nD τ).loc main_arg21)) (W17 m ρ c (Proc.devRef .tc main_v129)) (m ((c : Thread nD τ).loc main_arg31)) p q := by
  have hout : W22 m ρ c (Proc.devRef .tc main_v196) = (dat6 (V18 m ρ) c).arrAt 5 cfg6.N :=
    ((keep22 m ρ c main_v196 (by decide)).trans ((keep21 m ρ c main_v196 (by decide)).trans ((keep20 m ρ c main_v196 (by decide)).trans (W19_arr m ρ c 5))))
  refine (congrFun hout (ix2 p q)).trans ?_
  refine (agg6_arr (V18 m ρ) c p q).trans ?_
  have e0 : (V18 m ρ c (Pipeline.arrRef spec6 0) : S150000x64.Idx → EReal) = (W17 m ρ c (Proc.devRef .tc main_v116)) := (keep18 m ρ c main_v116 (by decide))
  have e1 : (V18 m ρ c (Pipeline.arrRef spec6 1) : S150000x64.Idx → EReal) = (W17 m ρ c (Proc.devRef .tc main_v51)) := (keep18 m ρ c main_v51 (by decide))
  have e2 : (V18 m ρ c (Pipeline.arrRef spec6 2) : S150000x64.Idx → EReal) = (m ((c : Thread nD τ).loc main_arg21)) := W18_unwritten m ρ c main_arg21 (by decide)
  have e3 : (V18 m ρ c (Pipeline.arrRef spec6 3) : S150000x64.Idx → EReal) = (W17 m ρ c (Proc.devRef .tc main_v129)) := (keep18 m ρ c main_v129 (by decide))
  have e4 : (V18 m ρ c (Pipeline.arrRef spec6 4) : S64x64.Idx → EReal) = (m ((c : Thread nD τ).loc main_arg31)) := W18_unwritten m ρ c main_arg31 (by decide)
  exact agg6_congr e0 e1 e2 e3 e4 p q

end Cert.KernelIdeal.KV

end
-- ==== Proof.KV.Agg7.lean ====
/-
  Region 7 (a middle aggregator) at the exact extended reals: its output array [100000, 64] after the region, read at row `r`
  and column `q`, as a function of the arrays the region is entered with — `u`, `s`, `cci`, `d` of shape [100000, 64] and the
  weights `wg` of shape [64, 64]:

      relu (∑ k, ((relu (u (r, k)) + relu (s (r, k) · cci (r, k))) + relu (d (r, k))) · wg (k, q)).

  The grid has 10 points; point `t` works on rows `10000 t … 10000 t + 9999` of the row arrays and of the output, and on the whole
  of the weights. The body's value at row `p` of its block depends only on row `p` of the input blocks, which are
  rows `10000 t + p` of the arrays; so what every point writes back is its block of ONE function of the arrays, the
  blocks tile the output, and the output ends holding that function.
-/
import proofs.«140264_j78443282694634_2_alg».proof.Proof.KI.R7
import proofs.«140264_j78443282694634_2_alg».proof.Proof.KV.Relu
import proofs.«140264_j78443282694634_2_alg».proof.Proof.KV.AggBase
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr Cert.KV
open Idealize.ShloMosaic Idealize.ShloMosaic.TcCoe Idealize.ShloMosaic.ValueIdx
open Idealize.ShloMosaic.Pipeline (Dat)

/-- The body's value at row `p`, column `q` of its block, from the loaded blocks (in the body's own order of
    operands and additions), times the weights, rectified. -/
theorem pay7_apply (x0 x1 x2 x3 : Vec Ideal S10000x64 .f32) (x4 : Vec Ideal S64x64 .f32) (p : Fin 10000) (q : Fin 64) :
    k7_pay1 (F := Ideal) x0 x1 x2 x3 x4 (ix2 p q)
      = relu (∑ k : Fin 64, ((relu (x0 (ix2 p k)) + relu (x1 (ix2 p k) * x2 (ix2 p k))) + relu (x3 (ix2 p k))) * x4 (ix2 k q)) := by
  unfold k7_pay1
  refine (maximumf_zero_apply _ _).trans ?_
  refine congrArg relu ?_
  refine (agg_matmul_apply _ _ p q).trans ?_
  refine Finset.sum_congr rfl fun k _ => ?_
  refine congrArg (· * x4 (ix2 k q)) ?_
  simp only [shapeCast_self]
  exact congrArg₂ (· + ·) (congrArg₂ (· + ·) (maximumf_zero_apply x0 (ix2 p k)) (maximumf_zero_apply (mulf x1 x2) (ix2 p k))) (maximumf_zero_apply x3 (ix2 p k))

variable (V : (c : Dev nD) → (b : Ref sig .tc) → Buf (Elt Ideal) ((c : Thread nD τ).loc b))

/-- The function of the entry arrays the output ends holding, at row `r` and column `q`. -/
def agg7 (u s cci d : S100000x64.Idx → EReal) (wg : S64x64.Idx → EReal) (r : Fin 100000) (q : Fin 64) : EReal :=
  relu (∑ k : Fin 64, ((relu (u (ix2 r k)) + relu (s (ix2 r k) * cci (ix2 r k))) + relu (d (ix2 r k))) * wg (ix2 k q))

/-- `agg7` unfolded. -/
theorem agg7_def (u s cci d : S100000x64.Idx → EReal) (wg : S64x64.Idx → EReal) (r : Fin 100000) (q : Fin 64) :
    agg7 u s cci d wg r q = relu (∑ k : Fin 64, ((relu (u (ix2 r k)) + relu (s (ix2 r k) * cci (ix2 r k))) + relu (d (ix2 r k))) * wg (ix2 k q)) := rfl

/-- The same as one array over the output's indices. -/
def G7 (c : Dev nD) : S100000x64.Idx → EReal := fun i =>
  agg7 (V c (Pipeline.arrRef spec7 0)) (V c (Pipeline.arrRef spec7 1)) (V c (Pipeline.arrRef spec7 2)) (V c (Pipeline.arrRef spec7 3)) (V c (Pipeline.arrRef spec7 4))
    ⟨(i 0).val, idx2_lt0 i⟩ ⟨(i 1).val, idx2_lt1 i⟩

/-- `G7` at an index whose coordinates are `r` and `q`. -/
theorem G7_apply (c : Dev nD) (i : S100000x64.Idx) (r : Fin 100000) (q : Fin 64) (h0 : (i 0).val = r.val) (h1 : (i 1).val = q.val) :
    G7 V c i = agg7 (V c (Pipeline.arrRef spec7 0)) (V c (Pipeline.arrRef spec7 1)) (V c (Pipeline.arrRef spec7 2)) (V c (Pipeline.arrRef spec7 3)) (V c (Pipeline.arrRef spec7 4)) r q := by
  unfold G7
  have e0 : (⟨(i 0).val, idx2_lt0 i⟩ : Fin 100000) = r := Fin.ext h0
  have e1 : (⟨(i 1).val, idx2_lt1 i⟩ : Fin 64) = q := Fin.ext h1
  rw [e0, e1]

/-- The printed index maps over the grid: a row window's block index is `(t, 0)`, the weights' is `(0, 0)`. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Row `p` of point `t`'s block of `u` is row `10000 t + p` of `u`. -/
theorem iblk7_0_apply (c : Dev nD) (t : Fin cfg7.N) (p : Fin 10000) (k : Fin 64) (r : Fin 100000) (hr : r.val = t.val * 10000 + p.val) :
    (iblk7 V c 0 t : Vec Ideal S10000x64 .f32) (ix2 p k) = (V c (Pipeline.arrRef spec7 0) : S100000x64.Idx → EReal) (ix2 r k) := by
  obtain ⟨h0_0, h0_1, h1_0, h1_1, h2_0, h2_1, h3_0, h3_1, h4_0, h4_1, h5_0, h5_1⟩ := idx_facts7 t
  unfold iblk7
  rw [View.read_apply]
  refine congrArg (V c (Pipeline.arrRef spec7 0) : S100000x64.Idx → EReal) ?_
  funext a; apply Fin.ext
  match a with
  | ⟨0, _⟩ => show win7_0.index t (0 : Fin 2) * 10000 + 1 * p.val = r.val; omega
  | ⟨1, _⟩ => show win7_0.index t (1 : Fin 2) * 64 + 1 * k.val = k.val; omega

/-- Row `p` of point `t`'s block of `s` is row `10000 t + p` of `s`. -/
theorem iblk7_1_apply (c : Dev nD) (t : Fin cfg7.N) (p : Fin 10000) (k : Fin 64) (r : Fin 100000) (hr : r.val = t.val * 10000 + p.val) :
    (iblk7 V c 1 t : Vec Ideal S10000x64 .f32) (ix2 p k) = (V c (Pipeline.arrRef spec7 1) : S100000x64.Idx → EReal) (ix2 r k) := by
  obtain ⟨h0_0, h0_1, h1_0, h1_1, h2_0, h2_1, h3_0, h3_1, h4_0, h4_1, h5_0, h5_1⟩ := idx_facts7 t
  unfold iblk7
  rw [View.read_apply]
  refine congrArg (V c (Pipeline.arrRef spec7 1) : S100000x64.Idx → EReal) ?_
  funext a; apply Fin.ext
  match a with
  | ⟨0, _⟩ => show win7_1.index t (0 : Fin 2) * 10000 + 1 * p.val = r.val; omega
  | ⟨1, _⟩ => show win7_1.index t (1 : Fin 2) * 64 + 1 * k.val = k.val; omega

/-- Row `p` of point `t`'s block of `cci` is row `10000 t + p` of `cci`. -/
theorem iblk7_2_apply (c : Dev nD) (t : Fin cfg7.N) (p : Fin 10000) (k : Fin 64) (r : Fin 100000) (hr : r.val = t.val * 10000 + p.val) :
    (iblk7 V c 2 t : Vec Ideal S10000x64 .f32) (ix2 p k) = (V c (Pipeline.arrRef spec7 2) : S100000x64.Idx → EReal) (ix2 r k) := by
  obtain ⟨h0_0, h0_1, h1_0, h1_1, h2_0, h2_1, h3_0, h3_1, h4_0, h4_1, h5_0, h5_1⟩ := idx_facts7 t
  unfold iblk7
  rw [View.read_apply]
  refine congrArg (V c (Pipeline.arrRef spec7 2) : S100000x64.Idx → EReal) ?_
  funext a; apply Fin.ext
  match a with
  | ⟨0, _⟩ => show win7_2.index t (0 : Fin 2) * 10000 + 1 * p.val = r.val; omega
  | ⟨1, _⟩ => show win7_2.index t (1 : Fin 2) * 64 + 1 * k.val = k.val; omega

/-- Row `p` of point `t`'s block of `d` is row `10000 t + p` of `d`. -/
theorem iblk7_3_apply (c : Dev nD) (t : Fin cfg7.N) (p : Fin 10000) (k : Fin 64) (r : Fin 100000) (hr : r.val = t.val * 10000 + p.val) :
    (iblk7 V c 3 t : Vec Ideal S10000x64 .f32) (ix2 p k) = (V c (Pipeline.arrRef spec7 3) : S100000x64.Idx → EReal) (ix2 r k) := by
  obtain ⟨h0_0, h0_1, h1_0, h1_1, h2_0, h2_1, h3_0, h3_1, h4_0, h4_1, h5_0, h5_1⟩ := idx_facts7 t
  unfold iblk7
  rw [View.read_apply]
  refine congrArg (V c (Pipeline.arrRef spec7 3) : S100000x64.Idx → EReal) ?_
  funext a; apply Fin.ext
  match a with
  | ⟨0, _⟩ => show win7_3.index t (0 : Fin 2) * 10000 + 1 * p.val = r.val; omega
  | ⟨1, _⟩ => show win7_3.index t (1 : Fin 2) * 64 + 1 * k.val = k.val; omega

/-- Every point's block of the weights is the weights. -/
theorem iblk7_4_apply (c : Dev nD) (t : Fin cfg7.N) (k q : Fin 64) :
    (iblk7 V c 4 t : Vec Ideal S64x64 .f32) (ix2 k q) = (V c (Pipeline.arrRef spec7 4) : S64x64.Idx → EReal) (ix2 k q) := by
  obtain ⟨h0_0, h0_1, h1_0, h1_1, h2_0, h2_1, h3_0, h3_1, h4_0, h4_1, h5_0, h5_1⟩ := idx_facts7 t
  unfold iblk7
  rw [View.read_apply]
  refine congrArg (V c (Pipeline.arrRef spec7 4) : S64x64.Idx → EReal) ?_
  funext a; apply Fin.ext
  match a with
  | ⟨0, _⟩ => show win7_4.index t (0 : Fin 2) * 64 + 1 * k.val = k.val; omega
  | ⟨1, _⟩ => show win7_4.index t (1 : Fin 2) * 64 + 1 * q.val = q.val; omega

/-- What point `t` writes back is block `t` of `G7`: entry `(p, q)` of the body's value is `G7` at row `10000 t + p`. -/
theorem flushed7 (c : Dev nD) (t : Fin cfg7.N) :
    (dat7 V c).flushed 5 t = ((cfg7.win 5).blk t).view.read (Elt Ideal) (G7 V c) := by
  have hN : cfg7.N = 10 := N_7
  obtain ⟨h0_0, h0_1, h1_0, h1_1, h2_0, h2_1, h3_0, h3_1, h4_0, h4_1, h5_0, h5_1⟩ := idx_facts7 t
  show (cfg7.win 5).cut (grid7.coords t) ((dat7 V c).after 5 t) = _
  rw [after7_5]
  unfold out7_5
  rw [View.canon_unit_zero zero_offsets]
  simp only [View.ld_unit_zero (S := S10000x64) zero_offsets, View.ld_unit_zero (S := S64x64) zero_offsets]
  funext j
  obtain ⟨p, q, rfl⟩ : ∃ (p : Fin 10000) (q : Fin 64), j = ix2 p q := ⟨j 0, j 1, eq_ix2 j⟩
  have hp := p.isLt
  have ht := t.isLt
  obtain ⟨r, hr⟩ : ∃ r : Fin 100000, r.val = t.val * 10000 + p.val := ⟨⟨t.val * 10000 + p.val, by omega⟩, rfl⟩
  refine (pay7_apply (iblk7 V c 0 t) (iblk7 V c 1 t) (iblk7 V c 2 t) (iblk7 V c 3 t) (iblk7 V c 4 t) p q).trans ?_
  refine Eq.trans ?_ (G7_apply V c _ r q ?_ ?_).symm
  · unfold agg7
    refine congrArg relu (Finset.sum_congr rfl fun k _ => ?_)
    rw [iblk7_0_apply V c t p k r hr, iblk7_1_apply V c t p k r hr, iblk7_2_apply V c t p k r hr, iblk7_3_apply V c t p k r hr, iblk7_4_apply V c t k q]
  · show win7_5.index t (0 : Fin 2) * 10000 + 1 * p.val = r.val; omega
  · show win7_5.index t (1 : Fin 2) * 64 + 1 * q.val = q.val; omega

/-- An index of the output is in point `t`'s block iff each coordinate is in the block's range on its axis. -/
theorem mem_blk7 (t : Fin cfg7.N) (i : S100000x64.Idx) :
    i ∈ ((cfg7.win 5).blk t).view.set ↔ ∀ a : Fin 2, win7_5.index t a * S10000x64.size a ≤ (i a).val ∧ (i a).val < win7_5.index t a * S10000x64.size a + S10000x64.size a := by
  show i ∈ ((View.whole main_v197).slice (win7_5.rect t)).set ↔ _
  rw [View.set_slice_whole, Rect.mem_set_unit]
  exact Iff.rfl

/-- The blocks tile the output: row `r` lies in the block of point `r / 10000`. -/
theorem cover7 (i : S100000x64.Idx) : ∃ t : Fin cfg7.N, (cfg7.win 5).flush t = true ∧ i ∈ ((cfg7.win 5).blk t).view.set := by
  have hN : cfg7.N = 10 := N_7
  have hi0 : (i 0).val < 100000 := idx2_lt0 i
  have hi1 : (i 1).val < 64 := idx2_lt1 i
  obtain ⟨t, ht⟩ : ∃ t : Fin cfg7.N, t.val = (i 0).val / 10000 := ⟨⟨(i 0).val / 10000, by omega⟩, rfl⟩
  obtain ⟨h0_0, h0_1, h1_0, h1_1, h2_0, h2_1, h3_0, h3_1, h4_0, h4_1, h5_0, h5_1⟩ := idx_facts7 t
  refine ⟨t, flush7_5 t, ?_⟩
  rw [mem_blk7]
  intro a
  match a with
  | ⟨0, _⟩ => show win7_5.index t (0 : Fin 2) * 10000 ≤ (i 0).val ∧ (i 0).val < win7_5.index t (0 : Fin 2) * 10000 + 10000; omega
  | ⟨1, _⟩ => show win7_5.index t (1 : Fin 2) * 64 ≤ (i 1).val ∧ (i 1).val < win7_5.index t (1 : Fin 2) * 64 + 64; omega

/-- The output array after the region is `G7` of the arrays the region was entered with. -/
theorem final7 (c : Dev nD) : (dat7 V c).arrAt 5 cfg7.N = G7 V c :=
  (dat7 V c).arrAt_eq_of_cover 5 (G7 V c) (fun t _ => flushed7 V c t) cover7

/-- The output array after the region, read at row `r` and column `q`: `agg7` of the arrays the region was
    entered with (windows 0, 1, 2, 3, 4: `u`, `s`, `cci`, `d`, the weights). -/
theorem agg7_arr (c : Dev nD) (r : Fin 100000) (q : Fin 64) :
    ((dat7 V c).arrAt 5 cfg7.N : S100000x64.Idx → EReal) (ix2 r q)
      = agg7 (V c (Pipeline.arrRef spec7 0)) (V c (Pipeline.arrRef spec7 1)) (V c (Pipeline.arrRef spec7 2)) (V c (Pipeline.arrRef spec7 3)) (V c (Pipeline.arrRef spec7 4)) r q := by
  rw [final7]
  exact G7_apply V c (ix2 r q) r q rfl rfl

end Cert.KernelIdeal.KV

end
-- ==== Proof.KV.Out2.lean ====
/-
  The output array of region 7 at the last boundary of @main, read at row `p` and column `q`: it is not
  written after the region, the region leaves it at `agg7` of the arrays it was entered with, and those arrays
  are, at the region's entry, what they were before the first aggregator ran — an argument as launched, a sparse
  product as the host stretches left it (no aggregator writes another's inputs).
  Operands: `u` = the sparse product `main_v142`, `s` = the sparse product `main_v64`, `cci` = the argument `main_arg22`, `d` = the sparse product `main_v155`, `wg` = the argument `main_arg32`.
-/
import proofs.«140264_j78443282694634_2_alg».proof.Proof.KI.Fold
import proofs.«140264_j78443282694634_2_alg».proof.Proof.KV.Agg7

set_option maxRecDepth 16384

noncomputable section

namespace Cert.KernelIdeal.KV

open Cert.KernelIdeal Cert.KernelIdeal.Gen Cert.KernelIdeal.Fr Cert.KV
open Idealize.ShloMosaic Idealize.ShloMosaic.TcCoe Idealize.ShloMosaic.ValueIdx Idealize.SL.Sem

variable (m : (ℓ : Loc nD τ sig) → Buf (Elt Ideal) ℓ) (ρ : Dev nD → PrngReg)

/-- `agg7` of equal arrays. -/
theorem agg7_congr {u u' s s' cci cci' d d' : S100000x64.Idx → EReal} {wg wg' : S64x64.Idx → EReal}
    (hu : u = u') (hs : s = s') (hcci : cci = cci') (hd : d = d') (hwg : wg = wg') (r : Fin 100000) (q : Fin 64) :
    agg7 u s cci d wg r q = agg7 u' s' cci' d' wg' r q := by
  subst hu hs hcci hd hwg; rfl

/-- Region 7's output array `main_v197` at the last boundary, at `(p, q)`. -/
theorem out2_apply (c : Dev nD) (p : Fin 100000) (q : Fin 64) :
    (W22 m ρ c (Proc.devRef .tc main_v197) : S100000x64.Idx → EReal) (ix2 p q)
      = agg7 (W17 m ρ c (Proc.devRef .tc main_v142)) (W17 m ρ c (Proc.devRef .tc main_v64)) (m ((c : Thread nD τ).loc main_arg22)) (W17 m ρ c (Proc.devRef .tc main_v155)) (m ((c : Thread nD τ).loc main_arg32)) p q := by
  have hout : W22 m ρ c (Proc.devRef .tc main_v197) = (dat7 (V19 m ρ) c).arrAt 5 cfg7.N :=
    ((keep22 m ρ c main_v197 (by decide)).trans ((keep21 m ρ c main_v197 (by decide)).trans (W20_arr m ρ c 5)))
  refine (congrFun hout (ix2 p q)).trans ?_
  refine (agg7_arr (V19 m ρ) c p q).trans ?_
  have e0 : (V19 m ρ c (Pipeline.arrRef spec7 0) : S100000x64.Idx → EReal) = (W17 m ρ c (Proc.devRef .tc main_v142)) := ((keep19 m ρ c main_v142 (by decide)).trans (keep18 m ρ c main_v142 (by decide)))
  have e1 : (V19 m ρ c (Pipeline.arrRef spec7 1) : S100000x64.Idx → EReal) = (W17 m ρ c (Proc.devRef .tc main_v64)) := ((keep19 m ρ c main_v64 (by decide)).trans (keep18 m ρ c main_v64 (by decide)))
  have e2 : (V19 m ρ c (Pipeline.arrRef spec7 2) : S100000x64.Idx → EReal) = (m ((c : Thread nD τ).loc main_arg22)) := W19_unwritten m ρ c main_arg22 (by decide)
  have e3 : (V19 m ρ c (Pipeline.arrRef spec7 3) : S100000x64.Idx → EReal) = (W17 m ρ c (Proc.devRef .tc main_v155)) := ((keep19 m ρ c main_v155 (by decide)).trans (keep18 m ρ c main_v155 (by decide)))
  have e4 : (V19 m ρ c (Pipeline.arrRef spec7 4) : S64x64.Idx → EReal) = (m ((c : Thread nD τ).loc main_arg32)) := W19_unwritten m ρ c main_arg32 (by decide)
  exact agg7_congr e0 e1 e2 e3 e4 p q

end Cert.KernelIdeal.KV

end
-- ==== Proof.KV.Agg8.lean ====
/-
  Region 8 (a middle aggregator) at the exact extended reals: its output array [40000, 64] after the region, read at row `r`
  and column `q`, as a function of the arrays the region is entered with — `u`, `s`, `cci`, `d` of shape [40000, 64] and the
  weights `wg` of shape [64, 64]:

      relu (∑ k, ((relu (u (r, k)) + relu (s (r, k) · cci (r, k))) + relu (d (r, k))) · wg (k, q)).

  The grid has 4 points; point `t` works on rows `10000 t … 10000 t + 9999` of the row arrays and of the output, and on the whole
  of the weights. The body's value at row `p` of its block depends only on row `p` of the input blocks, which are
  rows `10000 t + p` of the arrays; so what every point writes back is its block of ONE function of the arrays, the
  blocks tile the output, and the output ends holding that function.
-/
import proofs.«140264_j78443282694634_2_alg».proof.Proof.KI.R8
import proofs.«140264_j78443282694634_2_alg».proof.Proof.KV.Relu
import proofs.«140264_j78443282694634_2_alg».proof.Proof.KV.AggBase
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr Cert.KV
open Idealize.ShloMosaic Idealize.ShloMosaic.TcCoe Idealize.ShloMosaic.ValueIdx
open Idealize.ShloMosaic.Pipeline (Dat)

/-- The body's value at row `p`, column `q` of its block, from the loaded blocks (in the body's own order of
    operands and additions), times the weights, rectified. -/
theorem pay8_apply (x0 x1 x2 x3 : Vec Ideal S10000x64 .f32) (x4 : Vec Ideal S64x64 .f32) (p : Fin 10000) (q : Fin 64) :
    k8_pay1 (F := Ideal) x0 x1 x2 x3 x4 (ix2 p q)
      = relu (∑ k : Fin 64, ((relu (x0 (ix2 p k)) + relu (x1 (ix2 p k) * x2 (ix2 p k))) + relu (x3 (ix2 p k))) * x4 (ix2 k q)) := by
  unfold k8_pay1
  refine (maximumf_zero_apply _ _).trans ?_
  refine congrArg relu ?_
  refine (agg_matmul_apply _ _ p q).trans ?_
  refine Finset.sum_congr rfl fun k _ => ?_
  refine congrArg (· * x4 (ix2 k q)) ?_
  simp only [shapeCast_self]
  exact congrArg₂ (· + ·) (congrArg₂ (· + ·) (maximumf_zero_apply x0 (ix2 p k)) (maximumf_zero_apply (mulf x1 x2) (ix2 p k))) (maximumf_zero_apply x3 (ix2 p k))

variable (V : (c : Dev nD) → (b : Ref sig .tc) → Buf (Elt Ideal) ((c : Thread nD τ).loc b))

/-- The function of the entry arrays the output ends holding, at row `r` and column `q`. -/
def agg8 (u s cci d : S40000x64.Idx → EReal) (wg : S64x64.Idx → EReal) (r : Fin 40000) (q : Fin 64) : EReal :=
  relu (∑ k : Fin 64, ((relu (u (ix2 r k)) + relu (s (ix2 r k) * cci (ix2 r k))) + relu (d (ix2 r k))) * wg (ix2 k q))

/-- `agg8` unfolded. -/
theorem agg8_def (u s cci d : S40000x64.Idx → EReal) (wg : S64x64.Idx → EReal) (r : Fin 40000) (q : Fin 64) :
    agg8 u s cci d wg r q = relu (∑ k : Fin 64, ((relu (u (ix2 r k)) + relu (s (ix2 r k) * cci (ix2 r k))) + relu (d (ix2 r k))) * wg (ix2 k q)) := rfl

/-- The same as one array over the output's indices. -/
def G8 (c : Dev nD) : S40000x64.Idx → EReal := fun i =>
  agg8 (V c (Pipeline.arrRef spec8 0)) (V c (Pipeline.arrRef spec8 1)) (V c (Pipeline.arrRef spec8 2)) (V c (Pipeline.arrRef spec8 3)) (V c (Pipeline.arrRef spec8 4))
    ⟨(i 0).val, idx2_lt0 i⟩ ⟨(i 1).val, idx2_lt1 i⟩

/-- `G8` at an index whose coordinates are `r` and `q`. -/
theorem G8_apply (c : Dev nD) (i : S40000x64.Idx) (r : Fin 40000) (q : Fin 64) (h0 : (i 0).val = r.val) (h1 : (i 1).val = q.val) :
    G8 V c i = agg8 (V c (Pipeline.arrRef spec8 0)) (V c (Pipeline.arrRef spec8 1)) (V c (Pipeline.arrRef spec8 2)) (V c (Pipeline.arrRef spec8 3)) (V c (Pipeline.arrRef spec8 4)) r q := by
  unfold G8
  have e0 : (⟨(i 0).val, idx2_lt0 i⟩ : Fin 40000) = r := Fin.ext h0
  have e1 : (⟨(i 1).val, idx2_lt1 i⟩ : Fin 64) = q := Fin.ext h1
  rw [e0, e1]

/-- The printed index maps over the grid: a row window's block index is `(t, 0)`, the weights' is `(0, 0)`. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Row `p` of point `t`'s block of `u` is row `10000 t + p` of `u`. -/
theorem iblk8_0_apply (c : Dev nD) (t : Fin cfg8.N) (p : Fin 10000) (k : Fin 64) (r : Fin 40000) (hr : r.val = t.val * 10000 + p.val) :
    (iblk8 V c 0 t : Vec Ideal S10000x64 .f32) (ix2 p k) = (V c (Pipeline.arrRef spec8 0) : S40000x64.Idx → EReal) (ix2 r k) := by
  obtain ⟨h0_0, h0_1, h1_0, h1_1, h2_0, h2_1, h3_0, h3_1, h4_0, h4_1, h5_0, h5_1⟩ := idx_facts8 t
  unfold iblk8
  rw [View.read_apply]
  refine congrArg (V c (Pipeline.arrRef spec8 0) : S40000x64.Idx → EReal) ?_
  funext a; apply Fin.ext
  match a with
  | ⟨0, _⟩ => show win8_0.index t (0 : Fin 2) * 10000 + 1 * p.val = r.val; omega
  | ⟨1, _⟩ => show win8_0.index t (1 : Fin 2) * 64 + 1 * k.val = k.val; omega

/-- Row `p` of point `t`'s block of `s` is row `10000 t + p` of `s`. -/
theorem iblk8_1_apply (c : Dev nD) (t : Fin cfg8.N) (p : Fin 10000) (k : Fin 64) (r : Fin 40000) (hr : r.val = t.val * 10000 + p.val) :
    (iblk8 V c 1 t : Vec Ideal S10000x64 .f32) (ix2 p k) = (V c (Pipeline.arrRef spec8 1) : S40000x64.Idx → EReal) (ix2 r k) := by
  obtain ⟨h0_0, h0_1, h1_0, h1_1, h2_0, h2_1, h3_0, h3_1, h4_0, h4_1, h5_0, h5_1⟩ := idx_facts8 t
  unfold iblk8
  rw [View.read_apply]
  refine congrArg (V c (Pipeline.arrRef spec8 1) : S40000x64.Idx → EReal) ?_
  funext a; apply Fin.ext
  match a with
  | ⟨0, _⟩ => show win8_1.index t (0 : Fin 2) * 10000 + 1 * p.val = r.val; omega
  | ⟨1, _⟩ => show win8_1.index t (1 : Fin 2) * 64 + 1 * k.val = k.val; omega

/-- Row `p` of point `t`'s block of `cci` is row `10000 t + p` of `cci`. -/
theorem iblk8_2_apply (c : Dev nD) (t : Fin cfg8.N) (p : Fin 10000) (k : Fin 64) (r : Fin 40000) (hr : r.val = t.val * 10000 + p.val) :
    (iblk8 V c 2 t : Vec Ideal S10000x64 .f32) (ix2 p k) = (V c (Pipeline.arrRef spec8 2) : S40000x64.Idx → EReal) (ix2 r k) := by
  obtain ⟨h0_0, h0_1, h1_0, h1_1, h2_0, h2_1, h3_0, h3_1, h4_0, h4_1, h5_0, h5_1⟩ := idx_facts8 t
  unfold iblk8
  rw [View.read_apply]
  refine congrArg (V c (Pipeline.arrRef spec8 2) : S40000x64.Idx → EReal) ?_
  funext a; apply Fin.ext
  match a with
  | ⟨0, _⟩ => show win8_2.index t (0 : Fin 2) * 10000 + 1 * p.val = r.val; omega
  | ⟨1, _⟩ => show win8_2.index t (1 : Fin 2) * 64 + 1 * k.val = k.val; omega

/-- Row `p` of point `t`'s block of `d` is row `10000 t + p` of `d`. -/
theorem iblk8_3_apply (c : Dev nD) (t : Fin cfg8.N) (p : Fin 10000) (k : Fin 64) (r : Fin 40000) (hr : r.val = t.val * 10000 + p.val) :
    (iblk8 V c 3 t : Vec Ideal S10000x64 .f32) (ix2 p k) = (V c (Pipeline.arrRef spec8 3) : S40000x64.Idx → EReal) (ix2 r k) := by
  obtain ⟨h0_0, h0_1, h1_0, h1_1, h2_0, h2_1, h3_0, h3_1, h4_0, h4_1, h5_0, h5_1⟩ := idx_facts8 t
  unfold iblk8
  rw [View.read_apply]
  refine congrArg (V c (Pipeline.arrRef spec8 3) : S40000x64.Idx → EReal) ?_
  funext a; apply Fin.ext
  match a with
  | ⟨0, _⟩ => show win8_3.index t (0 : Fin 2) * 10000 + 1 * p.val = r.val; omega
  | ⟨1, _⟩ => show win8_3.index t (1 : Fin 2) * 64 + 1 * k.val = k.val; omega

/-- Every point's block of the weights is the weights. -/
theorem iblk8_4_apply (c : Dev nD) (t : Fin cfg8.N) (k q : Fin 64) :
    (iblk8 V c 4 t : Vec Ideal S64x64 .f32) (ix2 k q) = (V c (Pipeline.arrRef spec8 4) : S64x64.Idx → EReal) (ix2 k q) := by
  obtain ⟨h0_0, h0_1, h1_0, h1_1, h2_0, h2_1, h3_0, h3_1, h4_0, h4_1, h5_0, h5_1⟩ := idx_facts8 t
  unfold iblk8
  rw [View.read_apply]
  refine congrArg (V c (Pipeline.arrRef spec8 4) : S64x64.Idx → EReal) ?_
  funext a; apply Fin.ext
  match a with
  | ⟨0, _⟩ => show win8_4.index t (0 : Fin 2) * 64 + 1 * k.val = k.val; omega
  | ⟨1, _⟩ => show win8_4.index t (1 : Fin 2) * 64 + 1 * q.val = q.val; omega

/-- What point `t` writes back is block `t` of `G8`: entry `(p, q)` of the body's value is `G8` at row `10000 t + p`. -/
theorem flushed8 (c : Dev nD) (t : Fin cfg8.N) :
    (dat8 V c).flushed 5 t = ((cfg8.win 5).blk t).view.read (Elt Ideal) (G8 V c) := by
  have hN : cfg8.N = 4 := N_8
  obtain ⟨h0_0, h0_1, h1_0, h1_1, h2_0, h2_1, h3_0, h3_1, h4_0, h4_1, h5_0, h5_1⟩ := idx_facts8 t
  show (cfg8.win 5).cut (grid8.coords t) ((dat8 V c).after 5 t) = _
  rw [after8_5]
  unfold out8_5
  rw [View.canon_unit_zero zero_offsets]
  simp only [View.ld_unit_zero (S := S10000x64) zero_offsets, View.ld_unit_zero (S := S64x64) zero_offsets]
  funext j
  obtain ⟨p, q, rfl⟩ : ∃ (p : Fin 10000) (q : Fin 64), j = ix2 p q := ⟨j 0, j 1, eq_ix2 j⟩
  have hp := p.isLt
  have ht := t.isLt
  obtain ⟨r, hr⟩ : ∃ r : Fin 40000, r.val = t.val * 10000 + p.val := ⟨⟨t.val * 10000 + p.val, by omega⟩, rfl⟩
  refine (pay8_apply (iblk8 V c 0 t) (iblk8 V c 1 t) (iblk8 V c 2 t) (iblk8 V c 3 t) (iblk8 V c 4 t) p q).trans ?_
  refine Eq.trans ?_ (G8_apply V c _ r q ?_ ?_).symm
  · unfold agg8
    refine congrArg relu (Finset.sum_congr rfl fun k _ => ?_)
    rw [iblk8_0_apply V c t p k r hr, iblk8_1_apply V c t p k r hr, iblk8_2_apply V c t p k r hr, iblk8_3_apply V c t p k r hr, iblk8_4_apply V c t k q]
  · show win8_5.index t (0 : Fin 2) * 10000 + 1 * p.val = r.val; omega
  · show win8_5.index t (1 : Fin 2) * 64 + 1 * q.val = q.val; omega

/-- An index of the output is in point `t`'s block iff each coordinate is in the block's range on its axis. -/
theorem mem_blk8 (t : Fin cfg8.N) (i : S40000x64.Idx) :
    i ∈ ((cfg8.win 5).blk t).view.set ↔ ∀ a : Fin 2, win8_5.index t a * S10000x64.size a ≤ (i a).val ∧ (i a).val < win8_5.index t a * S10000x64.size a + S10000x64.size a := by
  show i ∈ ((View.whole main_v198).slice (win8_5.rect t)).set ↔ _
  rw [View.set_slice_whole, Rect.mem_set_unit]
  exact Iff.rfl

/-- The blocks tile the output: row `r` lies in the block of point `r / 10000`. -/
theorem cover8 (i : S40000x64.Idx) : ∃ t : Fin cfg8.N, (cfg8.win 5).flush t = true ∧ i ∈ ((cfg8.win 5).blk t).view.set := by
  have hN : cfg8.N = 4 := N_8
  have hi0 : (i 0).val < 40000 := idx2_lt0 i
  have hi1 : (i 1).val < 64 := idx2_lt1 i
  obtain ⟨t, ht⟩ : ∃ t : Fin cfg8.N, t.val = (i 0).val / 10000 := ⟨⟨(i 0).val / 10000, by omega⟩, rfl⟩
  obtain ⟨h0_0, h0_1, h1_0, h1_1, h2_0, h2_1, h3_0, h3_1, h4_0, h4_1, h5_0, h5_1⟩ := idx_facts8 t
  refine ⟨t, flush8_5 t, ?_⟩
  rw [mem_blk8]
  intro a
  match a with
  | ⟨0, _⟩ => show win8_5.index t (0 : Fin 2) * 10000 ≤ (i 0).val ∧ (i 0).val < win8_5.index t (0 : Fin 2) * 10000 + 10000; omega
  | ⟨1, _⟩ => show win8_5.index t (1 : Fin 2) * 64 ≤ (i 1).val ∧ (i 1).val < win8_5.index t (1 : Fin 2) * 64 + 64; omega

/-- The output array after the region is `G8` of the arrays the region was entered with. -/
theorem final8 (c : Dev nD) : (dat8 V c).arrAt 5 cfg8.N = G8 V c :=
  (dat8 V c).arrAt_eq_of_cover 5 (G8 V c) (fun t _ => flushed8 V c t) cover8

/-- The output array after the region, read at row `r` and column `q`: `agg8` of the arrays the region was
    entered with (windows 0, 1, 2, 3, 4: `u`, `s`, `cci`, `d`, the weights). -/
theorem agg8_arr (c : Dev nD) (r : Fin 40000) (q : Fin 64) :
    ((dat8 V c).arrAt 5 cfg8.N : S40000x64.Idx → EReal) (ix2 r q)
      = agg8 (V c (Pipeline.arrRef spec8 0)) (V c (Pipeline.arrRef spec8 1)) (V c (Pipeline.arrRef spec8 2)) (V c (Pipeline.arrRef spec8 3)) (V c (Pipeline.arrRef spec8 4)) r q := by
  rw [final8]
  exact G8_apply V c (ix2 r q) r q rfl rfl

end Cert.KernelIdeal.KV

end
-- ==== Proof.KV.Out3.lean ====
/-
  The output array of region 8 at the last boundary of @main, read at row `p` and column `q`: it is not
  written after the region, the region leaves it at `agg8` of the arrays it was entered with, and those arrays
  are, at the region's entry, what they were before the first aggregator ran — an argument as launched, a sparse
  product as the host stretches left it (no aggregator writes another's inputs).
  Operands: `u` = the sparse product `main_v168`, `s` = the sparse product `main_v77`, `cci` = the argument `main_arg23`, `d` = the sparse product `main_v181`, `wg` = the argument `main_arg33`.
-/
import proofs.«140264_j78443282694634_2_alg».proof.Proof.KI.Fold
import proofs.«140264_j78443282694634_2_alg».proof.Proof.KV.Agg8

set_option maxRecDepth 16384

noncomputable section

namespace Cert.KernelIdeal.KV

open Cert.KernelIdeal Cert.KernelIdeal.Gen Cert.KernelIdeal.Fr Cert.KV
open Idealize.ShloMosaic Idealize.ShloMosaic.TcCoe Idealize.ShloMosaic.ValueIdx Idealize.SL.Sem

variable (m : (ℓ : Loc nD τ sig) → Buf (Elt Ideal) ℓ) (ρ : Dev nD → PrngReg)

/-- `agg8` of equal arrays. -/
theorem agg8_congr {u u' s s' cci cci' d d' : S40000x64.Idx → EReal} {wg wg' : S64x64.Idx → EReal}
    (hu : u = u') (hs : s = s') (hcci : cci = cci') (hd : d = d') (hwg : wg = wg') (r : Fin 40000) (q : Fin 64) :
    agg8 u s cci d wg r q = agg8 u' s' cci' d' wg' r q := by
  subst hu hs hcci hd hwg; rfl

/-- Region 8's output array `main_v198` at the last boundary, at `(p, q)`. -/
theorem out3_apply (c : Dev nD) (p : Fin 40000) (q : Fin 64) :
    (W22 m ρ c (Proc.devRef .tc main_v198) : S40000x64.Idx → EReal) (ix2 p q)
      = agg8 (W17 m ρ c (Proc.devRef .tc main_v168)) (W17 m ρ c (Proc.devRef .tc main_v77)) (m ((c : Thread nD τ).loc main_arg23)) (W17 m ρ c (Proc.devRef .tc main_v181)) (m ((c : Thread nD τ).loc main_arg33)) p q := by
  have hout : W22 m ρ c (Proc.devRef .tc main_v198) = (dat8 (V20 m ρ) c).arrAt 5 cfg8.N :=
    ((keep22 m ρ c main_v198 (by decide)).trans (W21_arr m ρ c 5))
  refine (congrFun hout (ix2 p q)).trans ?_
  refine (agg8_arr (V20 m ρ) c p q).trans ?_
  have e0 : (V20 m ρ c (Pipeline.arrRef spec8 0) : S40000x64.Idx → EReal) = (W17 m ρ c (Proc.devRef .tc main_v168)) := ((keep20 m ρ c main_v168 (by decide)).trans ((keep19 m ρ c main_v168 (by decide)).trans (keep18 m ρ c main_v168 (by decide))))
  have e1 : (V20 m ρ c (Pipeline.arrRef spec8 1) : S40000x64.Idx → EReal) = (W17 m ρ c (Proc.devRef .tc main_v77)) := ((keep20 m ρ c main_v77 (by decide)).trans ((keep19 m ρ c main_v77 (by decide)).trans (keep18 m ρ c main_v77 (by decide))))
  have e2 : (V20 m ρ c (Pipeline.arrRef spec8 2) : S40000x64.Idx → EReal) = (m ((c : Thread nD τ).loc main_arg23)) := W20_unwritten m ρ c main_arg23 (by decide)
  have e3 : (V20 m ρ c (Pipeline.arrRef spec8 3) : S40000x64.Idx → EReal) = (W17 m ρ c (Proc.devRef .tc main_v181)) := ((keep20 m ρ c main_v181 (by decide)).trans ((keep19 m ρ c main_v181 (by decide)).trans (keep18 m ρ c main_v181 (by decide))))
  have e4 : (V20 m ρ c (Pipeline.arrRef spec8 4) : S64x64.Idx → EReal) = (m ((c : Thread nD τ).loc main_arg33)) := W20_unwritten m ρ c main_arg33 (by decide)
  exact agg8_congr e0 e1 e2 e3 e4 p q

end Cert.KernelIdeal.KV

end
-- ==== Proof.KV.Agg9.lean ====
/-
  Region 9 (the last aggregator) at the exact extended reals: its output array [10000, 64] after the region, read at row `r`
  and column `q`, as a function of the arrays the region is entered with — `u`, `s`, `cci` of shape [10000, 64] and the
  weights `wg` of shape [64, 64]:

      relu (∑ k, (relu (u (r, k)) + relu (s (r, k) · cci (r, k))) · wg (k, q)).

  The grid has one point, which works on rows `10000 t … 10000 t + 9999` of the row arrays and of the output, and on the whole
  of the weights. The body's value at row `p` of its block depends only on row `p` of the input blocks, which are
  rows `10000 t + p` of the arrays; so what every point writes back is its block of ONE function of the arrays, the
  blocks tile the output, and the output ends holding that function.
-/
import proofs.«140264_j78443282694634_2_alg».proof.Proof.KI.R9
import proofs.«140264_j78443282694634_2_alg».proof.Proof.KV.Relu
import proofs.«140264_j78443282694634_2_alg».proof.Proof.KV.AggBase
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr Cert.KV
open Idealize.ShloMosaic Idealize.ShloMosaic.TcCoe Idealize.ShloMosaic.ValueIdx
open Idealize.ShloMosaic.Pipeline (Dat)

/-- The body's value at row `p`, column `q` of its block, from the loaded blocks (in the body's own order of
    operands and additions), times the weights, rectified. -/
theorem pay9_apply (x0 x1 x2 : Vec Ideal S10000x64 .f32) (x3 : Vec Ideal S64x64 .f32) (p : Fin 10000) (q : Fin 64) :
    k9_pay1 (F := Ideal) x0 x1 x2 x3 (ix2 p q)
      = relu (∑ k : Fin 64, (relu (x0 (ix2 p k)) + relu (x1 (ix2 p k) * x2 (ix2 p k))) * x3 (ix2 k q)) := by
  unfold k9_pay1
  refine (maximumf_zero_apply _ _).trans ?_
  refine congrArg relu ?_
  refine (agg_matmul_apply _ _ p q).trans ?_
  refine Finset.sum_congr rfl fun k _ => ?_
  refine congrArg (· * x3 (ix2 k q)) ?_
  simp only [shapeCast_self]
  exact congrArg₂ (· + ·) (maximumf_zero_apply x0 (ix2 p k)) (maximumf_zero_apply (mulf x1 x2) (ix2 p k))

variable (V : (c : Dev nD) → (b : Ref sig .tc) → Buf (Elt Ideal) ((c : Thread nD τ).loc b))

/-- The function of the entry arrays the output ends holding, at row `r` and column `q`. -/
def agg9 (u s cci : S10000x64.Idx → EReal) (wg : S64x64.Idx → EReal) (r : Fin 10000) (q : Fin 64) : EReal :=
  relu (∑ k : Fin 64, (relu (u (ix2 r k)) + relu (s (ix2 r k) * cci (ix2 r k))) * wg (ix2 k q))

/-- `agg9` unfolded. -/
theorem agg9_def (u s cci : S10000x64.Idx → EReal) (wg : S64x64.Idx → EReal) (r : Fin 10000) (q : Fin 64) :
    agg9 u s cci wg r q = relu (∑ k : Fin 64, (relu (u (ix2 r k)) + relu (s (ix2 r k) * cci (ix2 r k))) * wg (ix2 k q)) := rfl

/-- The same as one array over the output's indices. -/
def G9 (c : Dev nD) : S10000x64.Idx → EReal := fun i =>
  agg9 (V c (Pipeline.arrRef spec9 0)) (V c (Pipeline.arrRef spec9 1)) (V c (Pipeline.arrRef spec9 2)) (V c (Pipeline.arrRef spec9 3))
    ⟨(i 0).val, idx2_lt0 i⟩ ⟨(i 1).val, idx2_lt1 i⟩

/-- `G9` at an index whose coordinates are `r` and `q`. -/
theorem G9_apply (c : Dev nD) (i : S10000x64.Idx) (r : Fin 10000) (q : Fin 64) (h0 : (i 0).val = r.val) (h1 : (i 1).val = q.val) :
    G9 V c i = agg9 (V c (Pipeline.arrRef spec9 0)) (V c (Pipeline.arrRef spec9 1)) (V c (Pipeline.arrRef spec9 2)) (V c (Pipeline.arrRef spec9 3)) r q := by
  unfold G9
  have e0 : (⟨(i 0).val, idx2_lt0 i⟩ : Fin 10000) = r := Fin.ext h0
  have e1 : (⟨(i 1).val, idx2_lt1 i⟩ : Fin 64) = q := Fin.ext h1
  rw [e0, e1]

/-- The printed index maps over the grid: a row window's block index is `(t, 0)`, the weights' is `(0, 0)`. -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- Row `p` of point `t`'s block of `u` is row `10000 t + p` of `u`. -/
theorem iblk9_0_apply (c : Dev nD) (t : Fin cfg9.N) (p : Fin 10000) (k : Fin 64) (r : Fin 10000) (hr : r.val = t.val * 10000 + p.val) :
    (iblk9 V c 0 t : Vec Ideal S10000x64 .f32) (ix2 p k) = (V c (Pipeline.arrRef spec9 0) : S10000x64.Idx → EReal) (ix2 r k) := by
  obtain ⟨h0_0, h0_1, h1_0, h1_1, h2_0, h2_1, h3_0, h3_1, h4_0, h4_1⟩ := idx_facts9 t
  unfold iblk9
  rw [View.read_apply]
  refine congrArg (V c (Pipeline.arrRef spec9 0) : S10000x64.Idx → EReal) ?_
  funext a; apply Fin.ext
  match a with
  | ⟨0, _⟩ => show win9_0.index t (0 : Fin 2) * 10000 + 1 * p.val = r.val; omega
  | ⟨1, _⟩ => show win9_0.index t (1 : Fin 2) * 64 + 1 * k.val = k.val; omega

/-- Row `p` of point `t`'s block of `s` is row `10000 t + p` of `s`. -/
theorem iblk9_1_apply (c : Dev nD) (t : Fin cfg9.N) (p : Fin 10000) (k : Fin 64) (r : Fin 10000) (hr : r.val = t.val * 10000 + p.val) :
    (iblk9 V c 1 t : Vec Ideal S10000x64 .f32) (ix2 p k) = (V c (Pipeline.arrRef spec9 1) : S10000x64.Idx → EReal) (ix2 r k) := by
  obtain ⟨h0_0, h0_1, h1_0, h1_1, h2_0, h2_1, h3_0, h3_1, h4_0, h4_1⟩ := idx_facts9 t
  unfold iblk9
  rw [View.read_apply]
  refine congrArg (V c (Pipeline.arrRef spec9 1) : S10000x64.Idx → EReal) ?_
  funext a; apply Fin.ext
  match a with
  | ⟨0, _⟩ => show win9_1.index t (0 : Fin 2) * 10000 + 1 * p.val = r.val; omega
  | ⟨1, _⟩ => show win9_1.index t (1 : Fin 2) * 64 + 1 * k.val = k.val; omega

/-- Row `p` of point `t`'s block of `cci` is row `10000 t + p` of `cci`. -/
theorem iblk9_2_apply (c : Dev nD) (t : Fin cfg9.N) (p : Fin 10000) (k : Fin 64) (r : Fin 10000) (hr : r.val = t.val * 10000 + p.val) :
    (iblk9 V c 2 t : Vec Ideal S10000x64 .f32) (ix2 p k) = (V c (Pipeline.arrRef spec9 2) : S10000x64.Idx → EReal) (ix2 r k) := by
  obtain ⟨h0_0, h0_1, h1_0, h1_1, h2_0, h2_1, h3_0, h3_1, h4_0, h4_1⟩ := idx_facts9 t
  unfold iblk9
  rw [View.read_apply]
  refine congrArg (V c (Pipeline.arrRef spec9 2) : S10000x64.Idx → EReal) ?_
  funext a; apply Fin.ext
  match a with
  | ⟨0, _⟩ => show win9_2.index t (0 : Fin 2) * 10000 + 1 * p.val = r.val; omega
  | ⟨1, _⟩ => show win9_2.index t (1 : Fin 2) * 64 + 1 * k.val = k.val; omega

/-- Every point's block of the weights is the weights. -/
theorem iblk9_3_apply (c : Dev nD) (t : Fin cfg9.N) (k q : Fin 64) :
    (iblk9 V c 3 t : Vec Ideal S64x64 .f32) (ix2 k q) = (V c (Pipeline.arrRef spec9 3) : S64x64.Idx → EReal) (ix2 k q) := by
  obtain ⟨h0_0, h0_1, h1_0, h1_1, h2_0, h2_1, h3_0, h3_1, h4_0, h4_1⟩ := idx_facts9 t
  unfold iblk9
  rw [View.read_apply]
  refine congrArg (V c (Pipeline.arrRef spec9 3) : S64x64.Idx → EReal) ?_
  funext a; apply Fin.ext
  match a with
  | ⟨0, _⟩ => show win9_3.index t (0 : Fin 2) * 64 + 1 * k.val = k.val; omega
  | ⟨1, _⟩ => show win9_3.index t (1 : Fin 2) * 64 + 1 * q.val = q.val; omega

/-- What point `t` writes back is block `t` of `G9`: entry `(p, q)` of the body's value is `G9` at row `10000 t + p`. -/
theorem flushed9 (c : Dev nD) (t : Fin cfg9.N) :
    (dat9 V c).flushed 4 t = ((cfg9.win 4).blk t).view.read (Elt Ideal) (G9 V c) := by
  have hN : cfg9.N = 1 := N_9
  obtain ⟨h0_0, h0_1, h1_0, h1_1, h2_0, h2_1, h3_0, h3_1, h4_0, h4_1⟩ := idx_facts9 t
  show (cfg9.win 4).cut (grid9.coords t) ((dat9 V c).after 4 t) = _
  rw [after9_4]
  unfold out9_4
  rw [View.canon_unit_zero zero_offsets]
  simp only [View.ld_unit_zero (S := S10000x64) zero_offsets, View.ld_unit_zero (S := S64x64) zero_offsets]
  funext j
  obtain ⟨p, q, rfl⟩ : ∃ (p : Fin 10000) (q : Fin 64), j = ix2 p q := ⟨j 0, j 1, eq_ix2 j⟩
  have hp := p.isLt
  have ht := t.isLt
  obtain ⟨r, hr⟩ : ∃ r : Fin 10000, r.val = t.val * 10000 + p.val := ⟨⟨t.val * 10000 + p.val, by omega⟩, rfl⟩
  refine (pay9_apply (iblk9 V c 0 t) (iblk9 V c 1 t) (iblk9 V c 2 t) (iblk9 V c 3 t) p q).trans ?_
  refine Eq.trans ?_ (G9_apply V c _ r q ?_ ?_).symm
  · unfold agg9
    refine congrArg relu (Finset.sum_congr rfl fun k _ => ?_)
    rw [iblk9_0_apply V c t p k r hr, iblk9_1_apply V c t p k r hr, iblk9_2_apply V c t p k r hr, iblk9_3_apply V c t k q]
  · show win9_4.index t (0 : Fin 2) * 10000 + 1 * p.val = r.val; omega
  · show win9_4.index t (1 : Fin 2) * 64 + 1 * q.val = q.val; omega

/-- An index of the output is in point `t`'s block iff each coordinate is in the block's range on its axis. -/
theorem mem_blk9 (t : Fin cfg9.N) (i : S10000x64.Idx) :
    i ∈ ((cfg9.win 4).blk t).view.set ↔ ∀ a : Fin 2, win9_4.index t a * S10000x64.size a ≤ (i a).val ∧ (i a).val < win9_4.index t a * S10000x64.size a + S10000x64.size a := by
  show i ∈ ((View.whole main_v199).slice (win9_4.rect t)).set ↔ _
  rw [View.set_slice_whole, Rect.mem_set_unit]
  exact Iff.rfl

/-- The blocks tile the output: row `r` lies in the block of point `r / 10000`. -/
theorem cover9 (i : S10000x64.Idx) : ∃ t : Fin cfg9.N, (cfg9.win 4).flush t = true ∧ i ∈ ((cfg9.win 4).blk t).view.set := by
  have hN : cfg9.N = 1 := N_9
  have hi0 : (i 0).val < 10000 := idx2_lt0 i
  have hi1 : (i 1).val < 64 := idx2_lt1 i
  obtain ⟨t, ht⟩ : ∃ t : Fin cfg9.N, t.val = (i 0).val / 10000 := ⟨⟨(i 0).val / 10000, by omega⟩, rfl⟩
  obtain ⟨h0_0, h0_1, h1_0, h1_1, h2_0, h2_1, h3_0, h3_1, h4_0, h4_1⟩ := idx_facts9 t
  refine ⟨t, flush9_4 t, ?_⟩
  rw [mem_blk9]
  intro a
  match a with
  | ⟨0, _⟩ => show win9_4.index t (0 : Fin 2) * 10000 ≤ (i 0).val ∧ (i 0).val < win9_4.index t (0 : Fin 2) * 10000 + 10000; omega
  | ⟨1, _⟩ => show win9_4.index t (1 : Fin 2) * 64 ≤ (i 1).val ∧ (i 1).val < win9_4.index t (1 : Fin 2) * 64 + 64; omega

/-- The output array after the region is `G9` of the arrays the region was entered with. -/
theorem final9 (c : Dev nD) : (dat9 V c).arrAt 4 cfg9.N = G9 V c :=
  (dat9 V c).arrAt_eq_of_cover 4 (G9 V c) (fun t _ => flushed9 V c t) cover9

/-- The output array after the region, read at row `r` and column `q`: `agg9` of the arrays the region was
    entered with (windows 0, 1, 2, 3: `u`, `s`, `cci`, the weights). -/
theorem agg9_arr (c : Dev nD) (r : Fin 10000) (q : Fin 64) :
    ((dat9 V c).arrAt 4 cfg9.N : S10000x64.Idx → EReal) (ix2 r q)
      = agg9 (V c (Pipeline.arrRef spec9 0)) (V c (Pipeline.arrRef spec9 1)) (V c (Pipeline.arrRef spec9 2)) (V c (Pipeline.arrRef spec9 3)) r q := by
  rw [final9]
  exact G9_apply V c (ix2 r q) r q rfl rfl

end Cert.KernelIdeal.KV

end
-- ==== Proof.KV.Out4.lean ====
/-
  The output array of region 9 at the last boundary of @main, read at row `p` and column `q`: it is not
  written after the region, the region leaves it at `agg9` of the arrays it was entered with, and those arrays
  are, at the region's entry, what they were before the first aggregator ran — an argument as launched, a sparse
  product as the host stretches left it (no aggregator writes another's inputs).
  Operands: `u` = the sparse product `main_v194`, `s` = the sparse product `main_v90`, `cci` = the argument `main_arg24`, `wg` = the argument `main_arg34`.
-/
import proofs.«140264_j78443282694634_2_alg».proof.Proof.KI.Fold
import proofs.«140264_j78443282694634_2_alg».proof.Proof.KV.Agg9

set_option maxRecDepth 16384

noncomputable section

namespace Cert.KernelIdeal.KV

open Cert.KernelIdeal Cert.KernelIdeal.Gen Cert.KernelIdeal.Fr Cert.KV
open Idealize.ShloMosaic Idealize.ShloMosaic.TcCoe Idealize.ShloMosaic.ValueIdx Idealize.SL.Sem

variable (m : (ℓ : Loc nD τ sig) → Buf (Elt Ideal) ℓ) (ρ : Dev nD → PrngReg)

/-- `agg9` of equal arrays. -/
theorem agg9_congr {u u' s s' cci cci' : S10000x64.Idx → EReal} {wg wg' : S64x64.Idx → EReal}
    (hu : u = u') (hs : s = s') (hcci : cci = cci') (hwg : wg = wg') (r : Fin 10000) (q : Fin 64) :
    agg9 u s cci wg r q = agg9 u' s' cci' wg' r q := by
  subst hu hs hcci hwg; rfl

/-- Region 9's output array `main_v199` at the last boundary, at `(p, q)`. -/
theorem out4_apply (c : Dev nD) (p : Fin 10000) (q : Fin 64) :
    (W22 m ρ c (Proc.devRef .tc main_v199) : S10000x64.Idx → EReal) (ix2 p q)
      = agg9 (W17 m ρ c (Proc.devRef .tc main_v194)) (W17 m ρ c (Proc.devRef .tc main_v90)) (m ((c : Thread nD τ).loc main_arg24)) (m ((c : Thread nD τ).loc main_arg34)) p q := by
  have hout : W22 m ρ c (Proc.devRef .tc main_v199) = (dat9 (V21 m ρ) c).arrAt 4 cfg9.N :=
    (W22_arr m ρ c 4)
  refine (congrFun hout (ix2 p q)).trans ?_
  refine (agg9_arr (V21 m ρ) c p q).trans ?_
  have e0 : (V21 m ρ c (Pipeline.arrRef spec9 0) : S10000x64.Idx → EReal) = (W17 m ρ c (Proc.devRef .tc main_v194)) := ((keep21 m ρ c main_v194 (by decide)).trans ((keep20 m ρ c main_v194 (by decide)).trans ((keep19 m ρ c main_v194 (by decide)).trans (keep18 m ρ c main_v194 (by decide)))))
  have e1 : (V21 m ρ c (Pipeline.arrRef spec9 1) : S10000x64.Idx → EReal) = (W17 m ρ c (Proc.devRef .tc main_v90)) := ((keep21 m ρ c main_v90 (by decide)).trans ((keep20 m ρ c main_v90 (by decide)).trans ((keep19 m ρ c main_v90 (by decide)).trans (keep18 m ρ c main_v90 (by decide)))))
  have e2 : (V21 m ρ c (Pipeline.arrRef spec9 2) : S10000x64.Idx → EReal) = (m ((c : Thread nD τ).loc main_arg24)) := W21_unwritten m ρ c main_arg24 (by decide)
  have e3 : (V21 m ρ c (Pipeline.arrRef spec9 3) : S64x64.Idx → EReal) = (m ((c : Thread nD τ).loc main_arg34)) := W21_unwritten m ρ c main_arg34 (by decide)
  exact agg9_congr e0 e1 e2 e3 p q

end Cert.KernelIdeal.KV

end
-- ==== Proof.KV.SpmmDefs.lean ====
/-
  The thirteen sparse products of the layer (five within a rank, four downward, four upward), each named as ONE
  function of its operands: the dense rows `h`, the row indices, the column indices and the values. Every product
  is the same composition — a column index below zero is shifted by the number of rows of `h`; row `cols e` of
  `h` is scaled by `vals e`; the scaled rows are added into a zero array at `rows e` — at its own extents.
-/
import proofs.«140264_j78443282694634_2_alg».proof.Proof.Gen.KernelIdeal

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- Sparse product 1 as one function of the dense rows `h`, the row indices, the column indices and the values:
    a negative column index is shifted by the number of rows of `h`, the rows of `h` at the column indices are
    scaled by the values, and the scaled rows are added into a zero array at the row indices. -/
def spmm_1 (h : (⟨S50000x64, .f32⟩ : BufTy).Contents (Elt F)) (rows cols : (⟨S400000, .i32⟩ : BufTy).Contents (Elt F)) (vals : (⟨S400000, .f32⟩ : BufTy).Contents (Elt F)) :
    (⟨S50000x64, .f32⟩ : BufTy).Contents (Elt F) :=
  Host.scatterAdd scatter_S50000x64_S400000x1_S400000x64_1_0_0_1
    (broadcastInDim S50000x64 ![] bcast_S_S50000x64 (constant S_ .f32 0x00000000#32))
    (broadcastInDim S400000x1 ![0] bcast_S400000_S400000x1_0 rows)
    (mulf (broadcastInDim S400000x64 ![0, 1] bcast_S400000x1_S400000x64_0_1 (broadcastInDim S400000x1 ![0] bcast_S400000_S400000x1_0 vals))
      (Host.gather gather_S50000x64_S400000x1_S400000x64_1_0_n_n_0_1_164 h
        (broadcastInDim S400000x1 ![0] bcast_S400000_S400000x1_0
          (select (cmpi .slt cols (broadcastInDim S400000 ![] bcast_S_S400000 (constantI S_ 32 0#32)))
            (addi cols (broadcastInDim S400000 ![] bcast_S_S400000 (constantI S_ 32 50000#32)))
            cols))))

/-- Sparse product 2 as one function of the dense rows `h`, the row indices, the column indices and the values:
    a negative column index is shifted by the number of rows of `h`, the rows of `h` at the column indices are
    scaled by the values, and the scaled rows are added into a zero array at the row indices. -/
def spmm_2 (h : (⟨S150000x64, .f32⟩ : BufTy).Contents (Elt F)) (rows cols : (⟨S1200000, .i32⟩ : BufTy).Contents (Elt F)) (vals : (⟨S1200000, .f32⟩ : BufTy).Contents (Elt F)) :
    (⟨S150000x64, .f32⟩ : BufTy).Contents (Elt F) :=
  Host.scatterAdd scatter_S150000x64_S1200000x1_S1200000x64_1_0_0_1
    (broadcastInDim S150000x64 ![] bcast_S_S150000x64 (constant S_ .f32 0x00000000#32))
    (broadcastInDim S1200000x1 ![0] bcast_S1200000_S1200000x1_0 rows)
    (mulf (broadcastInDim S1200000x64 ![0, 1] bcast_S1200000x1_S1200000x64_0_1 (broadcastInDim S1200000x1 ![0] bcast_S1200000_S1200000x1_0 vals))
      (Host.gather gather_S150000x64_S1200000x1_S1200000x64_1_0_n_n_0_1_164 h
        (broadcastInDim S1200000x1 ![0] bcast_S1200000_S1200000x1_0
          (select (cmpi .slt cols (broadcastInDim S1200000 ![] bcast_S_S1200000 (constantI S_ 32 0#32)))
            (addi cols (broadcastInDim S1200000 ![] bcast_S_S1200000 (constantI S_ 32 150000#32)))
            cols))))

/-- Sparse product 3 as one function of the dense rows `h`, the row indices, the column indices and the values:
    a negative column index is shifted by the number of rows of `h`, the rows of `h` at the column indices are
    scaled by the values, and the scaled rows are added into a zero array at the row indices. -/
def spmm_3 (h : (⟨S100000x64, .f32⟩ : BufTy).Contents (Elt F)) (rows cols : (⟨S800000, .i32⟩ : BufTy).Contents (Elt F)) (vals : (⟨S800000, .f32⟩ : BufTy).Contents (Elt F)) :
    (⟨S100000x64, .f32⟩ : BufTy).Contents (Elt F) :=
  Host.scatterAdd scatter_S100000x64_S800000x1_S800000x64_1_0_0_1
    (broadcastInDim S100000x64 ![] bcast_S_S100000x64 (constant S_ .f32 0x00000000#32))
    (broadcastInDim S800000x1 ![0] bcast_S800000_S800000x1_0 rows)
    (mulf (broadcastInDim S800000x64 ![0, 1] bcast_S800000x1_S800000x64_0_1 (broadcastInDim S800000x1 ![0] bcast_S800000_S800000x1_0 vals))
      (Host.gather gather_S100000x64_S800000x1_S800000x64_1_0_n_n_0_1_164 h
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 100000#32)))
            cols))))

/-- Sparse product 4 as one function of the dense rows `h`, the row indices, the column indices and the values:
    a negative column index is shifted by the number of rows of `h`, the rows of `h` at the column indices are
    scaled by the values, and the scaled rows are added into a zero array at the row indices. -/
def spmm_4 (h : (⟨S40000x64, .f32⟩ : BufTy).Contents (Elt F)) (rows cols : (⟨S320000, .i32⟩ : BufTy).Contents (Elt F)) (vals : (⟨S320000, .f32⟩ : BufTy).Contents (Elt F)) :
    (⟨S40000x64, .f32⟩ : BufTy).Contents (Elt F) :=
  Host.scatterAdd scatter_S40000x64_S320000x1_S320000x64_1_0_0_1
    (broadcastInDim S40000x64 ![] bcast_S_S40000x64 (constant S_ .f32 0x00000000#32))
    (broadcastInDim S320000x1 ![0] bcast_S320000_S320000x1_0 rows)
    (mulf (broadcastInDim S320000x64 ![0, 1] bcast_S320000x1_S320000x64_0_1 (broadcastInDim S320000x1 ![0] bcast_S320000_S320000x1_0 vals))
      (Host.gather gather_S40000x64_S320000x1_S320000x64_1_0_n_n_0_1_164 h
        (broadcastInDim S320000x1 ![0] bcast_S320000_S320000x1_0
          (select (cmpi .slt cols (broadcastInDim S320000 ![] bcast_S_S320000 (constantI S_ 32 0#32)))
            (addi cols (broadcastInDim S320000 ![] bcast_S_S320000 (constantI S_ 32 40000#32)))
            cols))))

/-- Sparse product 5 as one function of the dense rows `h`, the row indices, the column indices and the values:
    a negative column index is shifted by the number of rows of `h`, the rows of `h` at the column indices are
    scaled by the values, and the scaled rows are added into a zero array at the row indices. -/
def spmm_5 (h : (⟨S10000x64, .f32⟩ : BufTy).Contents (Elt F)) (rows cols : (⟨S80000, .i32⟩ : BufTy).Contents (Elt F)) (vals : (⟨S80000, .f32⟩ : BufTy).Contents (Elt F)) :
    (⟨S10000x64, .f32⟩ : BufTy).Contents (Elt F) :=
  Host.scatterAdd scatter_S10000x64_S80000x1_S80000x64_1_0_0_1
    (broadcastInDim S10000x64 ![] bcast_S_S10000x64 (constant S_ .f32 0x00000000#32))
    (broadcastInDim S80000x1 ![0] bcast_S80000_S80000x1_0 rows)
    (mulf (broadcastInDim S80000x64 ![0, 1] bcast_S80000x1_S80000x64_0_1 (broadcastInDim S80000x1 ![0] bcast_S80000_S80000x1_0 vals))
      (Host.gather gather_S10000x64_S80000x1_S80000x64_1_0_n_n_0_1_164 h
        (broadcastInDim S80000x1 ![0] bcast_S80000_S80000x1_0
          (select (cmpi .slt cols (broadcastInDim S80000 ![] bcast_S_S80000 (constantI S_ 32 0#32)))
            (addi cols (broadcastInDim S80000 ![] bcast_S_S80000 (constantI S_ 32 10000#32)))
            cols))))

/-- Sparse product 6 as one function of the dense rows `h`, the row indices, the column indices and the values:
    a negative column index is shifted by the number of rows of `h`, the rows of `h` at the column indices are
    scaled by the values, and the scaled rows are added into a zero array at the row indices. -/
def spmm_6 (h : (⟨S150000x64, .f32⟩ : BufTy).Contents (Elt F)) (rows cols : (⟨S600000, .i32⟩ : BufTy).Contents (Elt F)) (vals : (⟨S600000, .f32⟩ : BufTy).Contents (Elt F)) :
    (⟨S50000x64, .f32⟩ : BufTy).Contents (Elt F) :=
  Host.scatterAdd scatter_S50000x64_S600000x1_S600000x64_1_0_0_1
    (broadcastInDim S50000x64 ![] bcast_S_S50000x64 (constant S_ .f32 0x00000000#32))
    (broadcastInDim S600000x1 ![0] bcast_S600000_S600000x1_0 rows)
    (mulf (broadcastInDim S600000x64 ![0, 1] bcast_S600000x1_S600000x64_0_1 (broadcastInDim S600000x1 ![0] bcast_S600000_S600000x1_0 vals))
      (Host.gather gather_S150000x64_S600000x1_S600000x64_1_0_n_n_0_1_164 h
        (broadcastInDim S600000x1 ![0] bcast_S600000_S600000x1_0
          (select (cmpi .slt cols (broadcastInDim S600000 ![] bcast_S_S600000 (constantI S_ 32 0#32)))
            (addi cols (broadcastInDim S600000 ![] bcast_S_S600000 (constantI S_ 32 150000#32)))
            cols))))

/-- Sparse product 7 as one function of the dense rows `h`, the row indices, the column indices and the values:
    a negative column index is shifted by the number of rows of `h`, the rows of `h` at the column indices are
    scaled by the values, and the scaled rows are added into a zero array at the row indices. -/
def spmm_7 (h : (⟨S50000x64, .f32⟩ : BufTy).Contents (Elt F)) (rows cols : (⟨S600000, .i32⟩ : BufTy).Contents (Elt F)) (vals : (⟨S600000, .f32⟩ : BufTy).Contents (Elt F)) :
    (⟨S150000x64, .f32⟩ : BufTy).Contents (Elt F) :=
  Host.scatterAdd scatter_S150000x64_S600000x1_S600000x64_1_0_0_1
    (broadcastInDim S150000x64 ![] bcast_S_S150000x64 (constant S_ .f32 0x00000000#32))
    (broadcastInDim S600000x1 ![0] bcast_S600000_S600000x1_0 rows)
    (mulf (broadcastInDim S600000x64 ![0, 1] bcast_S600000x1_S600000x64_0_1 (broadcastInDim S600000x1 ![0] bcast_S600000_S600000x1_0 vals))
      (Host.gather gather_S50000x64_S600000x1_S600000x64_1_0_n_n_0_1_164 h
        (broadcastInDim S600000x1 ![0] bcast_S600000_S600000x1_0
          (select (cmpi .slt cols (broadcastInDim S600000 ![] bcast_S_S600000 (constantI S_ 32 0#32)))
            (addi cols (broadcastInDim S600000 ![] bcast_S_S600000 (constantI S_ 32 50000#32)))
            cols))))

/-- Sparse product 8 as one function of the dense rows `h`, the row indices, the column indices and the values:
    a negative column index is shifted by the number of rows of `h`, the rows of `h` at the column indices are
    scaled by the values, and the scaled rows are added into a zero array at the row indices. -/
def spmm_8 (h : (⟨S100000x64, .f32⟩ : BufTy).Contents (Elt F)) (rows cols : (⟨S400000, .i32⟩ : BufTy).Contents (Elt F)) (vals : (⟨S400000, .f32⟩ : BufTy).Contents (Elt F)) :
    (⟨S150000x64, .f32⟩ : BufTy).Contents (Elt F) :=
  Host.scatterAdd scatter_S150000x64_S400000x1_S400000x64_1_0_0_1
    (broadcastInDim S150000x64 ![] bcast_S_S150000x64 (constant S_ .f32 0x00000000#32))
    (broadcastInDim S400000x1 ![0] bcast_S400000_S400000x1_0 rows)
    (mulf (broadcastInDim S400000x64 ![0, 1] bcast_S400000x1_S400000x64_0_1 (broadcastInDim S400000x1 ![0] bcast_S400000_S400000x1_0 vals))
      (Host.gather gather_S100000x64_S400000x1_S400000x64_1_0_n_n_0_1_164 h
        (broadcastInDim S400000x1 ![0] bcast_S400000_S400000x1_0
          (select (cmpi .slt cols (broadcastInDim S400000 ![] bcast_S_S400000 (constantI S_ 32 0#32)))
            (addi cols (broadcastInDim S400000 ![] bcast_S_S400000 (constantI S_ 32 100000#32)))
            cols))))

/-- Sparse product 9 as one function of the dense rows `h`, the row indices, the column indices and the values:
    a negative column index is shifted by the number of rows of `h`, the rows of `h` at the column indices are
    scaled by the values, and the scaled rows are added into a zero array at the row indices. -/
def spmm_9 (h : (⟨S150000x64, .f32⟩ : BufTy).Contents (Elt F)) (rows cols : (⟨S400000, .i32⟩ : BufTy).Contents (Elt F)) (vals : (⟨S400000, .f32⟩ : BufTy).Contents (Elt F)) :
    (⟨S100000x64, .f32⟩ : BufTy).Contents (Elt F) :=
  Host.scatterAdd scatter_S100000x64_S400000x1_S400000x64_1_0_0_1
    (broadcastInDim S100000x64 ![] bcast_S_S100000x64 (constant S_ .f32 0x00000000#32))
    (broadcastInDim S400000x1 ![0] bcast_S400000_S400000x1_0 rows)
    (mulf (broadcastInDim S400000x64 ![0, 1] bcast_S400000x1_S400000x64_0_1 (broadcastInDim S400000x1 ![0] bcast_S400000_S400000x1_0 vals))
      (Host.gather gather_S150000x64_S400000x1_S400000x64_1_0_n_n_0_1_164 h
        (broadcastInDim S400000x1 ![0] bcast_S400000_S400000x1_0
          (select (cmpi .slt cols (broadcastInDim S400000 ![] bcast_S_S400000 (constantI S_ 32 0#32)))
            (addi cols (broadcastInDim S400000 ![] bcast_S_S400000 (constantI S_ 32 150000#32)))
            cols))))

/-- Sparse product 10 as one function of the dense rows `h`, the row indices, the column indices and the values:
    a negative column index is shifted by the number of rows of `h`, the rows of `h` at the column indices are
    scaled by the values, and the scaled rows are added into a zero array at the row indices. -/
def spmm_10 (h : (⟨S40000x64, .f32⟩ : BufTy).Contents (Elt F)) (rows cols : (⟨S160000, .i32⟩ : BufTy).Contents (Elt F)) (vals : (⟨S160000, .f32⟩ : BufTy).Contents (Elt F)) :
    (⟨S100000x64, .f32⟩ : BufTy).Contents (Elt F) :=
  Host.scatterAdd scatter_S100000x64_S160000x1_S160000x64_1_0_0_1
    (broadcastInDim S100000x64 ![] bcast_S_S100000x64 (constant S_ .f32 0x00000000#32))
    (broadcastInDim S160000x1 ![0] bcast_S160000_S160000x1_0 rows)
    (mulf (broadcastInDim S160000x64 ![0, 1] bcast_S160000x1_S160000x64_0_1 (broadcastInDim S160000x1 ![0] bcast_S160000_S160000x1_0 vals))
      (Host.gather gather_S40000x64_S160000x1_S160000x64_1_0_n_n_0_1_164 h
        (broadcastInDim S160000x1 ![0] bcast_S160000_S160000x1_0
          (select (cmpi .slt cols (broadcastInDim S160000 ![] bcast_S_S160000 (constantI S_ 32 0#32)))
            (addi cols (broadcastInDim S160000 ![] bcast_S_S160000 (constantI S_ 32 40000#32)))
            cols))))

/-- Sparse product 11 as one function of the dense rows `h`, the row indices, the column indices and the values:
    a negative column index is shifted by the number of rows of `h`, the rows of `h` at the column indices are
    scaled by the values, and the scaled rows are added into a zero array at the row indices. -/
def spmm_11 (h : (⟨S100000x64, .f32⟩ : BufTy).Contents (Elt F)) (rows cols : (⟨S160000, .i32⟩ : BufTy).Contents (Elt F)) (vals : (⟨S160000, .f32⟩ : BufTy).Contents (Elt F)) :
    (⟨S40000x64, .f32⟩ : BufTy).Contents (Elt F) :=
  Host.scatterAdd scatter_S40000x64_S160000x1_S160000x64_1_0_0_1
    (broadcastInDim S40000x64 ![] bcast_S_S40000x64 (constant S_ .f32 0x00000000#32))
    (broadcastInDim S160000x1 ![0] bcast_S160000_S160000x1_0 rows)
    (mulf (broadcastInDim S160000x64 ![0, 1] bcast_S160000x1_S160000x64_0_1 (broadcastInDim S160000x1 ![0] bcast_S160000_S160000x1_0 vals))
      (Host.gather gather_S100000x64_S160000x1_S160000x64_1_0_n_n_0_1_164 h
        (broadcastInDim S160000x1 ![0] bcast_S160000_S160000x1_0
          (select (cmpi .slt cols (broadcastInDim S160000 ![] bcast_S_S160000 (constantI S_ 32 0#32)))
            (addi cols (broadcastInDim S160000 ![] bcast_S_S160000 (constantI S_ 32 100000#32)))
            cols))))

/-- Sparse product 12 as one function of the dense rows `h`, the row indices, the column indices and the values:
    a negative column index is shifted by the number of rows of `h`, the rows of `h` at the column indices are
    scaled by the values, and the scaled rows are added into a zero array at the row indices. -/
def spmm_12 (h : (⟨S10000x64, .f32⟩ : BufTy).Contents (Elt F)) (rows cols : (⟨S40000, .i32⟩ : BufTy).Contents (Elt F)) (vals : (⟨S40000, .f32⟩ : BufTy).Contents (Elt F)) :
    (⟨S40000x64, .f32⟩ : BufTy).Contents (Elt F) :=
  Host.scatterAdd scatter_S40000x64_S40000x1_S40000x64_1_0_0_1
    (broadcastInDim S40000x64 ![] bcast_S_S40000x64 (constant S_ .f32 0x00000000#32))
    (broadcastInDim S40000x1 ![0] bcast_S40000_S40000x1_0 rows)
    (mulf (broadcastInDim S40000x64 ![0, 1] bcast_S40000x1_S40000x64_0_1 (broadcastInDim S40000x1 ![0] bcast_S40000_S40000x1_0 vals))
      (Host.gather gather_S10000x64_S40000x1_S40000x64_1_0_n_n_0_1_164 h
        (broadcastInDim S40000x1 ![0] bcast_S40000_S40000x1_0
          (select (cmpi .slt cols (broadcastInDim S40000 ![] bcast_S_S40000 (constantI S_ 32 0#32)))
            (addi cols (broadcastInDim S40000 ![] bcast_S_S40000 (constantI S_ 32 10000#32)))
            cols))))

/-- Sparse product 13 as one function of the dense rows `h`, the row indices, the column indices and the values:
    a negative column index is shifted by the number of rows of `h`, the rows of `h` at the column indices are
    scaled by the values, and the scaled rows are added into a zero array at the row indices. -/
def spmm_13 (h : (⟨S40000x64, .f32⟩ : BufTy).Contents (Elt F)) (rows cols : (⟨S40000, .i32⟩ : BufTy).Contents (Elt F)) (vals : (⟨S40000, .f32⟩ : BufTy).Contents (Elt F)) :
    (⟨S10000x64, .f32⟩ : BufTy).Contents (Elt F) :=
  Host.scatterAdd scatter_S10000x64_S40000x1_S40000x64_1_0_0_1
    (broadcastInDim S10000x64 ![] bcast_S_S10000x64 (constant S_ .f32 0x00000000#32))
    (broadcastInDim S40000x1 ![0] bcast_S40000_S40000x1_0 rows)
    (mulf (broadcastInDim S40000x64 ![0, 1] bcast_S40000x1_S40000x64_0_1 (broadcastInDim S40000x1 ![0] bcast_S40000_S40000x1_0 vals))
      (Host.gather gather_S40000x64_S40000x1_S40000x64_1_0_n_n_0_1_164 h
        (broadcastInDim S40000x1 ![0] bcast_S40000_S40000x1_0
          (select (cmpi .slt cols (broadcastInDim S40000 ![] bcast_S_S40000 (constantI S_ 32 0#32)))
            (addi cols (broadcastInDim S40000 ![] bcast_S_S40000 (constantI S_ 32 40000#32)))
            cols))))

end Cert.KernelIdeal.KV

end
-- ==== Proof.KV.SpmmW0.lean ====
/-
  What the host stretch `main_part0_ops8` of @main writes: the list of the references its operations write, and hence
  that every other buffer holds after the stretch what it held before it.
-/
import proofs.«140264_j78443282694634_2_alg».proof.Proof.Gen.KernelIdeal.Launch
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- The references the stretch's operations write, in order. -/
abbrev p0_W : List (Ref sig .tc) := [main_v24, main_v25, main_v26, main_c_2, main_v27, main_v28, main_c_3, main_v29, main_v30, main_v31, main_v32, main_v33, main_v34, main_v35, main_cst, main_v36, main_v37, main_v38, main_v39, main_c_4, main_v40, main_v41, main_c_5, main_v42, main_v43, main_v44, main_v45, main_v46, main_v47, main_v48, main_cst_6, main_v49, main_v50]

set_option maxHeartbeats 4000000 in
theorem p0_writes : (main_part0_ops8 : List (HloOp τ sig (Elt F))).Forall fun op => op.writes ⊆ (p0_W.map (Proc.devRef (τ := τ) .tc)).toFinset := by
  simp only [List.Forall]
  exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩

/-- A buffer the stretch does not write holds after it what it held before. -/
theorem p0_kept (V : Valuation τ sig (Elt F)) (r : Ref sig .tc) (h : r ∉ p0_W) :
    after main_part0_ops8 V (Proc.devRef .tc r) = V (Proc.devRef .tc r) :=
  after_of_writes_sub main_part0_ops8 V p0_writes h

end Cert.KernelIdeal.KV

end
-- ==== Proof.KV.SpmmP0.lean ====
/-
  The host stretch `main_part0_ops8` of @main read back at the buffers the sparse products need, from ANY contents `V` the
  stretch is entered with: product 1 whole, rank 4's two column slices, and the three buffers of product 2 that the next stretch sums.
-/
import proofs.«140264_j78443282694634_2_alg».proof.Proof.KV.SpmmDefs
import proofs.«140264_j78443282694634_2_alg».proof.Proof.Gen.KernelIdeal.Launch
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- Sparse product 1 is complete within the stretch. -/
theorem p0_v38 (V : Valuation τ sig (Elt F)) :
    after main_part0_ops8 V (Proc.devRef .tc main_v38)
      = spmm_1 (V (Proc.devRef .tc main_v2)) (V (Proc.devRef .tc main_arg5)) (V (Proc.devRef .tc main_arg6)) (V (Proc.devRef .tc main_arg7)) := by
  after_results_simp
  rfl

/-- Columns 0 … 63 of rank 4's linear maps. -/
theorem p0_v24 (V : Valuation τ sig (Elt F)) :
    after main_part0_ops8 V (Proc.devRef .tc main_v24)
      = extractStridedSlice S10000x64 ![0, 0] (V (Proc.devRef .tc main_v23)) slices_S10000x128_S10000x64_0_0 := by
  after_results_simp

/-- Columns 64 … 127 of rank 4's linear maps. -/
theorem p0_v25 (V : Valuation τ sig (Elt F)) :
    after main_part0_ops8 V (Proc.devRef .tc main_v25)
      = extractStridedSlice S10000x64 ![0, 64] (V (Proc.devRef .tc main_v23)) slices_S10000x128_S10000x64_0_64 := by
  after_results_simp

/-- Sparse product 2's scaled rows (its sum into the rows is the next stretch's first operation). -/
theorem p0_v48 (V : Valuation τ sig (Elt F)) :
    after main_part0_ops8 V (Proc.devRef .tc main_v48)
      = mulf (broadcastInDim S1200000x64 ![0, 1] bcast_S1200000x1_S1200000x64_0_1 (broadcastInDim S1200000x1 ![0] bcast_S1200000_S1200000x1_0 (V (Proc.devRef .tc main_arg10)))) (Host.gather gather_S150000x64_S1200000x1_S1200000x64_1_0_n_n_0_1_164 (V (Proc.devRef .tc main_v7)) (broadcastInDim S1200000x1 ![0] bcast_S1200000_S1200000x1_0 (select (cmpi .slt (V (Proc.devRef .tc main_arg9)) (broadcastInDim S1200000 ![] bcast_S_S1200000 (constantI S_ 32 0#32))) (addi (V (Proc.devRef .tc main_arg9)) (broadcastInDim S1200000 ![] bcast_S_S1200000 (constantI S_ 32 150000#32))) (V (Proc.devRef .tc main_arg9))))) := by
  after_results_simp

/-- Sparse product 2's zero array. -/
theorem p0_v49 (V : Valuation τ sig (Elt F)) :
    after main_part0_ops8 V (Proc.devRef .tc main_v49)
      = broadcastInDim S150000x64 ![] bcast_S_S150000x64 (constant S_ .f32 0x00000000#32) := by
  after_results_simp

/-- Sparse product 2's row indices as a column. -/
theorem p0_v50 (V : Valuation τ sig (Elt F)) :
    after main_part0_ops8 V (Proc.devRef .tc main_v50)
      = broadcastInDim S1200000x1 ![0] bcast_S1200000_S1200000x1_0 (V (Proc.devRef .tc main_arg8)) := by
  after_results_simp

end Cert.KernelIdeal.KV

end
-- ==== Proof.KV.SpmmW1.lean ====
/-
  What the host stretch `main_part1_ops0` of @main writes: the list of the references its operations write, and hence
  that every other buffer holds after the stretch what it held before it.
-/
import proofs.«140264_j78443282694634_2_alg».proof.Proof.Gen.KernelIdeal.Launch
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- The references the stretch's operations write, in order. -/
abbrev p1_W : List (Ref sig .tc) := [main_v51, main_v52, main_c_7, main_v53, main_v54, main_c_8, main_v55, main_v56, main_v57, main_v58, main_v59, main_v60, main_v61, main_cst_9, main_v62, main_v63, main_v64, main_v65, main_c_10, main_v66, main_v67, main_c_11, main_v68, main_v69, main_v70, main_v71, main_v72, main_v73, main_v74, main_cst_12, main_v75, main_v76, main_v77, main_v78, main_c_13, main_v79, main_v80, main_c_14, main_v81, main_v82, main_v83, main_v84, main_v85, main_v86, main_v87, main_cst_15, main_v88, main_v89, main_v90, main_v91, main_c_16, main_v92, main_v93, main_c_17, main_v94, main_v95, main_v96, main_v97, main_v98, main_v99]

set_option maxHeartbeats 4000000 in
theorem p1_writes : (main_part1_ops0 : List (HloOp τ sig (Elt F))).Forall fun op => op.writes ⊆ (p1_W.map (Proc.devRef (τ := τ) .tc)).toFinset := by
  simp only [List.Forall]
  exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩

/-- A buffer the stretch does not write holds after it what it held before. -/
theorem p1_kept (V : Valuation τ sig (Elt F)) (r : Ref sig .tc) (h : r ∉ p1_W) :
    after main_part1_ops0 V (Proc.devRef .tc r) = V (Proc.devRef .tc r) :=
  after_of_writes_sub main_part1_ops0 V p1_writes h

end Cert.KernelIdeal.KV

end
-- ==== Proof.KV.SpmmP1.lean ====
/-
  The host stretch `main_part1_ops0` of @main read back at the buffers the sparse products need, from ANY contents `V` the
  stretch is entered with: product 2's sum, products 3, 4 and 5 whole, and the two buffers of product 6 that the next stretch multiplies.
-/
import proofs.«140264_j78443282694634_2_alg».proof.Proof.KV.SpmmDefs
import proofs.«140264_j78443282694634_2_alg».proof.Proof.Gen.KernelIdeal.Launch
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- Sparse product 2's sum into the rows, from the three buffers the stretch before left. -/
theorem p1_v51 (V : Valuation τ sig (Elt F)) :
    after main_part1_ops0 V (Proc.devRef .tc main_v51)
      = Host.scatterAdd scatter_S150000x64_S1200000x1_S1200000x64_1_0_0_1 (V (Proc.devRef .tc main_v49)) (V (Proc.devRef .tc main_v50)) (V (Proc.devRef .tc main_v48)) := by
  after_results_simp

/-- Sparse product 3 is complete within the stretch. -/
theorem p1_v64 (V : Valuation τ sig (Elt F)) :
    after main_part1_ops0 V (Proc.devRef .tc main_v64)
      = spmm_3 (V (Proc.devRef .tc main_v13)) (V (Proc.devRef .tc main_arg11)) (V (Proc.devRef .tc main_arg12)) (V (Proc.devRef .tc main_arg13)) := by
  after_results_simp
  rfl

/-- Sparse product 4 is complete within the stretch. -/
theorem p1_v77 (V : Valuation τ sig (Elt F)) :
    after main_part1_ops0 V (Proc.devRef .tc main_v77)
      = spmm_4 (V (Proc.devRef .tc main_v19)) (V (Proc.devRef .tc main_arg14)) (V (Proc.devRef .tc main_arg15)) (V (Proc.devRef .tc main_arg16)) := by
  after_results_simp
  rfl

/-- Sparse product 5 is complete within the stretch. -/
theorem p1_v90 (V : Valuation τ sig (Elt F)) :
    after main_part1_ops0 V (Proc.devRef .tc main_v90)
      = spmm_5 (V (Proc.devRef .tc main_v24)) (V (Proc.devRef .tc main_arg17)) (V (Proc.devRef .tc main_arg18)) (V (Proc.devRef .tc main_arg19)) := by
  after_results_simp
  rfl

/-- Sparse product 6's gathered rows. -/
theorem p1_v98 (V : Valuation τ sig (Elt F)) :
    after main_part1_ops0 V (Proc.devRef .tc main_v98)
      = Host.gather gather_S150000x64_S600000x1_S600000x64_1_0_n_n_0_1_164 (V (Proc.devRef .tc main_v8)) (broadcastInDim S600000x1 ![0] bcast_S600000_S600000x1_0 (select (cmpi .slt (V (Proc.devRef .tc main_arg36)) (broadcastInDim S600000 ![] bcast_S_S600000 (constantI S_ 32 0#32))) (addi (V (Proc.devRef .tc main_arg36)) (broadcastInDim S600000 ![] bcast_S_S600000 (constantI S_ 32 150000#32))) (V (Proc.devRef .tc main_arg36)))) := by
  after_results_simp

/-- Sparse product 6's values, one per gathered row, spread along the row. -/
theorem p1_v99 (V : Valuation τ sig (Elt F)) :
    after main_part1_ops0 V (Proc.devRef .tc main_v99)
      = broadcastInDim S600000x64 ![0, 1] bcast_S600000x1_S600000x64_0_1 (broadcastInDim S600000x1 ![0] bcast_S600000_S600000x1_0 (V (Proc.devRef .tc main_arg37))) := by
  after_results_simp

end Cert.KernelIdeal.KV

end
-- ==== Proof.KV.SpmmW2.lean ====
/-
  What the host stretch `main_part2_ops0` of @main writes: the list of the references its operations write, and hence
  that every other buffer holds after the stretch what it held before it.
-/
import proofs.«140264_j78443282694634_2_alg».proof.Proof.Gen.KernelIdeal.Launch
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- The references the stretch's operations write, in order. -/
abbrev p2_W : List (Ref sig .tc) := [main_v100, main_cst_18, main_v101, main_v102, main_v103, main_v104, main_c_19, main_v105, main_v106, main_c_20, main_v107, main_v108, main_v109, main_v110, main_v111, main_v112, main_v113, main_cst_21, main_v114, main_v115, main_v116, main_v117, main_c_22, main_v118, main_v119, main_c_23, main_v120, main_v121, main_v122, main_v123, main_v124, main_v125, main_v126, main_cst_24, main_v127, main_v128, main_v129, main_v130, main_c_25, main_v131, main_v132, main_c_26, main_v133, main_v134, main_v135, main_v136, main_v137, main_v138, main_v139, main_cst_27, main_v140, main_v141, main_v142, main_v143, main_c_28, main_v144, main_v145, main_c_29, main_v146, main_v147]

set_option maxHeartbeats 4000000 in
theorem p2_writes : (main_part2_ops0 : List (HloOp τ sig (Elt F))).Forall fun op => op.writes ⊆ (p2_W.map (Proc.devRef (τ := τ) .tc)).toFinset := by
  simp only [List.Forall]
  exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩

/-- A buffer the stretch does not write holds after it what it held before. -/
theorem p2_kept (V : Valuation τ sig (Elt F)) (r : Ref sig .tc) (h : r ∉ p2_W) :
    after main_part2_ops0 V (Proc.devRef .tc r) = V (Proc.devRef .tc r) :=
  after_of_writes_sub main_part2_ops0 V p2_writes h

end Cert.KernelIdeal.KV

end
-- ==== Proof.KV.SpmmP2.lean ====
/-
  The host stretch `main_part2_ops0` of @main read back at the buffers the sparse products need, from ANY contents `V` the
  stretch is entered with: product 6's sum, products 7, 8 and 9 whole, and the three buffers of product 10 that the next stretch goes on from.
-/
import proofs.«140264_j78443282694634_2_alg».proof.Proof.KV.SpmmDefs
import proofs.«140264_j78443282694634_2_alg».proof.Proof.Gen.KernelIdeal.Launch
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- Sparse product 6's scaling and sum into the rows, from the two buffers the stretch before left. -/
theorem p2_v103 (V : Valuation τ sig (Elt F)) :
    after main_part2_ops0 V (Proc.devRef .tc main_v103)
      = Host.scatterAdd scatter_S50000x64_S600000x1_S600000x64_1_0_0_1 (broadcastInDim S50000x64 ![] bcast_S_S50000x64 (constant S_ .f32 0x00000000#32)) (broadcastInDim S600000x1 ![0] bcast_S600000_S600000x1_0 (V (Proc.devRef .tc main_arg35))) (mulf (V (Proc.devRef .tc main_v99)) (V (Proc.devRef .tc main_v98))) := by
  after_results_simp

/-- Sparse product 7 is complete within the stretch. -/
theorem p2_v116 (V : Valuation τ sig (Elt F)) :
    after main_part2_ops0 V (Proc.devRef .tc main_v116)
      = spmm_7 (V (Proc.devRef .tc main_v3)) (V (Proc.devRef .tc main_arg36)) (V (Proc.devRef .tc main_arg35)) (V (Proc.devRef .tc main_arg37)) := by
  after_results_simp
  rfl

/-- Sparse product 8 is complete within the stretch. -/
theorem p2_v129 (V : Valuation τ sig (Elt F)) :
    after main_part2_ops0 V (Proc.devRef .tc main_v129)
      = spmm_8 (V (Proc.devRef .tc main_v14)) (V (Proc.devRef .tc main_arg38)) (V (Proc.devRef .tc main_arg39)) (V (Proc.devRef .tc main_arg40)) := by
  after_results_simp
  rfl

/-- Sparse product 9 is complete within the stretch. -/
theorem p2_v142 (V : Valuation τ sig (Elt F)) :
    after main_part2_ops0 V (Proc.devRef .tc main_v142)
      = spmm_9 (V (Proc.devRef .tc main_v9)) (V (Proc.devRef .tc main_arg39)) (V (Proc.devRef .tc main_arg38)) (V (Proc.devRef .tc main_arg40)) := by
  after_results_simp
  rfl

/-- Sparse product 10's values as a column. -/
theorem p2_v143 (V : Valuation τ sig (Elt F)) :
    after main_part2_ops0 V (Proc.devRef .tc main_v143)
      = broadcastInDim S160000x1 ![0] bcast_S160000_S160000x1_0 (V (Proc.devRef .tc main_arg43)) := by
  after_results_simp

/-- Sparse product 10: which column indices are below zero. -/
theorem p2_v145 (V : Valuation τ sig (Elt F)) :
    after main_part2_ops0 V (Proc.devRef .tc main_v145)
      = cmpi .slt (V (Proc.devRef .tc main_arg42)) (broadcastInDim S160000 ![] bcast_S_S160000 (constantI S_ 32 0#32)) := by
  after_results_simp

/-- Sparse product 10: the column indices shifted by the row count. -/
theorem p2_v147 (V : Valuation τ sig (Elt F)) :
    after main_part2_ops0 V (Proc.devRef .tc main_v147)
      = addi (V (Proc.devRef .tc main_arg42)) (broadcastInDim S160000 ![] bcast_S_S160000 (constantI S_ 32 40000#32)) := by
  after_results_simp

end Cert.KernelIdeal.KV

end
-- ==== Proof.KV.SpmmW3.lean ====
/-
  What the host stretch `main_part3_ops0` of @main writes: the list of the references its operations write, and hence
  that every other buffer holds after the stretch what it held before it.
-/
import proofs.«140264_j78443282694634_2_alg».proof.Proof.Gen.KernelIdeal.Launch
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- The references the stretch's operations write, in order. -/
abbrev p3_W : List (Ref sig .tc) := [main_v148, main_v149, main_v150, main_v151, main_v152, main_cst_30, main_v153, main_v154, main_v155, main_v156, main_c_31, main_v157, main_v158, main_c_32, main_v159, main_v160, main_v161, main_v162, main_v163, main_v164, main_v165, main_cst_33, main_v166, main_v167, main_v168, main_v169, main_c_34, main_v170, main_v171, main_c_35, main_v172, main_v173, main_v174, main_v175, main_v176, main_v177, main_v178, main_cst_36, main_v179, main_v180, main_v181, main_v182, main_c_37, main_v183, main_v184, main_c_38, main_v185, main_v186, main_v187, main_v188, main_v189, main_v190, main_v191, main_cst_39, main_v192, main_v193, main_v194]

set_option maxHeartbeats 4000000 in
theorem p3_writes : (main_part3_ops0 : List (HloOp τ sig (Elt F))).Forall fun op => op.writes ⊆ (p3_W.map (Proc.devRef (τ := τ) .tc)).toFinset := by
  simp only [List.Forall]
  exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩

/-- A buffer the stretch does not write holds after it what it held before. -/
theorem p3_kept (V : Valuation τ sig (Elt F)) (r : Ref sig .tc) (h : r ∉ p3_W) :
    after main_part3_ops0 V (Proc.devRef .tc r) = V (Proc.devRef .tc r) :=
  after_of_writes_sub main_part3_ops0 V p3_writes h

end Cert.KernelIdeal.KV

end
-- ==== Proof.KV.SpmmP3.lean ====
/-
  The host stretch `main_part3_ops0` of @main read back at the buffers the sparse products need, from ANY contents `V` the
  stretch is entered with: product 10's remainder and products 11, 12 and 13 whole.
-/
import proofs.«140264_j78443282694634_2_alg».proof.Proof.KV.SpmmDefs
import proofs.«140264_j78443282694634_2_alg».proof.Proof.Gen.KernelIdeal.Launch
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- Sparse product 10 from the three buffers the stretch before left. -/
theorem p3_v155 (V : Valuation τ sig (Elt F)) :
    after main_part3_ops0 V (Proc.devRef .tc main_v155)
      = Host.scatterAdd scatter_S100000x64_S160000x1_S160000x64_1_0_0_1 (broadcastInDim S100000x64 ![] bcast_S_S100000x64 (constant S_ .f32 0x00000000#32)) (broadcastInDim S160000x1 ![0] bcast_S160000_S160000x1_0 (V (Proc.devRef .tc main_arg41))) (mulf (broadcastInDim S160000x64 ![0, 1] bcast_S160000x1_S160000x64_0_1 (V (Proc.devRef .tc main_v143))) (Host.gather gather_S40000x64_S160000x1_S160000x64_1_0_n_n_0_1_164 (V (Proc.devRef .tc main_v20)) (broadcastInDim S160000x1 ![0] bcast_S160000_S160000x1_0 (select (V (Proc.devRef .tc main_v145)) (V (Proc.devRef .tc main_v147)) (V (Proc.devRef .tc main_arg42)))))) := by
  after_results_simp

/-- Sparse product 11 is complete within the stretch. -/
theorem p3_v168 (V : Valuation τ sig (Elt F)) :
    after main_part3_ops0 V (Proc.devRef .tc main_v168)
      = spmm_11 (V (Proc.devRef .tc main_v15)) (V (Proc.devRef .tc main_arg42)) (V (Proc.devRef .tc main_arg41)) (V (Proc.devRef .tc main_arg43)) := by
  after_results_simp
  rfl

/-- Sparse product 12 is complete within the stretch. -/
theorem p3_v181 (V : Valuation τ sig (Elt F)) :
    after main_part3_ops0 V (Proc.devRef .tc main_v181)
      = spmm_12 (V (Proc.devRef .tc main_v25)) (V (Proc.devRef .tc main_arg44)) (V (Proc.devRef .tc main_arg45)) (V (Proc.devRef .tc main_arg46)) := by
  after_results_simp
  rfl

/-- Sparse product 13 is complete within the stretch. -/
theorem p3_v194 (V : Valuation τ sig (Elt F)) :
    after main_part3_ops0 V (Proc.devRef .tc main_v194)
      = spmm_13 (V (Proc.devRef .tc main_v21)) (V (Proc.devRef .tc main_arg45)) (V (Proc.devRef .tc main_arg44)) (V (Proc.devRef .tc main_arg46)) := by
  after_results_simp
  rfl

end Cert.KernelIdeal.KV

end
-- ==== Proof.KV.SpmmRun.lean ====
/-
  The sparse stage of @main — the four consecutive host stretches `main_part0_ops8`, `main_part1_ops0`,
  `main_part2_ops0`, `main_part3_ops0` — read back at the thirteen sparse products' result buffers, from ANY contents
  `W` the stage is entered with: each result is its product's function `spmm_j` of `W` at the product's dense rows
  (a column slice written before the stage; for products 5 and 12 a slice the stage's first two operations cut out of
  rank 4's linear maps), row indices, column indices and values.
-/
import proofs.«140264_j78443282694634_2_alg».proof.Proof.KV.SpmmDefs
import proofs.«140264_j78443282694634_2_alg».proof.Proof.KV.SpmmW0
import proofs.«140264_j78443282694634_2_alg».proof.Proof.KV.SpmmP0
import proofs.«140264_j78443282694634_2_alg».proof.Proof.KV.SpmmW1
import proofs.«140264_j78443282694634_2_alg».proof.Proof.KV.SpmmP1
import proofs.«140264_j78443282694634_2_alg».proof.Proof.KV.SpmmW2
import proofs.«140264_j78443282694634_2_alg».proof.Proof.KV.SpmmP2
import proofs.«140264_j78443282694634_2_alg».proof.Proof.KV.SpmmW3
import proofs.«140264_j78443282694634_2_alg».proof.Proof.KV.SpmmP3

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- Sparse product 1 (within rank 0) after the four stretches. -/
theorem sparse_v38 (W : Valuation τ sig (Elt F)) :
    after main_part3_ops0 (after main_part2_ops0 (after main_part1_ops0 (after main_part0_ops8 W))) (Proc.devRef .tc main_v38)
      = spmm_1 (W (Proc.devRef .tc main_v2)) (W (Proc.devRef .tc main_arg5)) (W (Proc.devRef .tc main_arg6)) (W (Proc.devRef .tc main_arg7)) := by
  rw [p3_kept _ main_v38 (by decide),
    p2_kept _ main_v38 (by decide),
    p1_kept _ main_v38 (by decide),
    p0_v38]

/-- Sparse product 2 (within rank 1) after the four stretches. -/
theorem sparse_v51 (W : Valuation τ sig (Elt F)) :
    after main_part3_ops0 (after main_part2_ops0 (after main_part1_ops0 (after main_part0_ops8 W))) (Proc.devRef .tc main_v51)
      = spmm_2 (W (Proc.devRef .tc main_v7)) (W (Proc.devRef .tc main_arg8)) (W (Proc.devRef .tc main_arg9)) (W (Proc.devRef .tc main_arg10)) := by
  unfold spmm_2
  rw [p3_kept _ main_v51 (by decide),
    p2_kept _ main_v51 (by decide),
    p1_v51,
    p0_v48,
    p0_v49,
    p0_v50]

/-- Sparse product 3 (within rank 2) after the four stretches. -/
theorem sparse_v64 (W : Valuation τ sig (Elt F)) :
    after main_part3_ops0 (after main_part2_ops0 (after main_part1_ops0 (after main_part0_ops8 W))) (Proc.devRef .tc main_v64)
      = spmm_3 (W (Proc.devRef .tc main_v13)) (W (Proc.devRef .tc main_arg11)) (W (Proc.devRef .tc main_arg12)) (W (Proc.devRef .tc main_arg13)) := by
  rw [p3_kept _ main_v64 (by decide),
    p2_kept _ main_v64 (by decide),
    p1_v64,
    p0_kept _ main_v13 (by decide),
    p0_kept _ main_arg11 (by decide),
    p0_kept _ main_arg12 (by decide),
    p0_kept _ main_arg13 (by decide)]

/-- Sparse product 4 (within rank 3) after the four stretches. -/
theorem sparse_v77 (W : Valuation τ sig (Elt F)) :
    after main_part3_ops0 (after main_part2_ops0 (after main_part1_ops0 (after main_part0_ops8 W))) (Proc.devRef .tc main_v77)
      = spmm_4 (W (Proc.devRef .tc main_v19)) (W (Proc.devRef .tc main_arg14)) (W (Proc.devRef .tc main_arg15)) (W (Proc.devRef .tc main_arg16)) := by
  rw [p3_kept _ main_v77 (by decide),
    p2_kept _ main_v77 (by decide),
    p1_v77,
    p0_kept _ main_v19 (by decide),
    p0_kept _ main_arg14 (by decide),
    p0_kept _ main_arg15 (by decide),
    p0_kept _ main_arg16 (by decide)]

/-- Sparse product 5 (within rank 4) after the four stretches; its dense rows are columns 0 … 63 of rank 4's linear maps, sliced in the first stretch. -/
theorem sparse_v90 (W : Valuation τ sig (Elt F)) :
    after main_part3_ops0 (after main_part2_ops0 (after main_part1_ops0 (after main_part0_ops8 W))) (Proc.devRef .tc main_v90)
      = spmm_5 (extractStridedSlice S10000x64 ![0, 0] (W (Proc.devRef .tc main_v23)) slices_S10000x128_S10000x64_0_0) (W (Proc.devRef .tc main_arg17)) (W (Proc.devRef .tc main_arg18)) (W (Proc.devRef .tc main_arg19)) := by
  rw [p3_kept _ main_v90 (by decide),
    p2_kept _ main_v90 (by decide),
    p1_v90,
    p0_v24,
    p0_kept _ main_arg17 (by decide),
    p0_kept _ main_arg18 (by decide),
    p0_kept _ main_arg19 (by decide)]

/-- Sparse product 6 (rank 1 down to rank 0) after the four stretches. -/
theorem sparse_v103 (W : Valuation τ sig (Elt F)) :
    after main_part3_ops0 (after main_part2_ops0 (after main_part1_ops0 (after main_part0_ops8 W))) (Proc.devRef .tc main_v103)
      = spmm_6 (W (Proc.devRef .tc main_v8)) (W (Proc.devRef .tc main_arg35)) (W (Proc.devRef .tc main_arg36)) (W (Proc.devRef .tc main_arg37)) := by
  unfold spmm_6
  rw [p3_kept _ main_v103 (by decide),
    p2_v103,
    p1_v99,
    p1_v98,
    p1_kept _ main_arg35 (by decide),
    p0_kept _ main_arg35 (by decide),
    p0_kept _ main_arg37 (by decide),
    p0_kept _ main_v8 (by decide),
    p0_kept _ main_arg36 (by decide)]

/-- Sparse product 7 (up01) after the four stretches. -/
theorem sparse_v116 (W : Valuation τ sig (Elt F)) :
    after main_part3_ops0 (after main_part2_ops0 (after main_part1_ops0 (after main_part0_ops8 W))) (Proc.devRef .tc main_v116)
      = spmm_7 (W (Proc.devRef .tc main_v3)) (W (Proc.devRef .tc main_arg36)) (W (Proc.devRef .tc main_arg35)) (W (Proc.devRef .tc main_arg37)) := by
  rw [p3_kept _ main_v116 (by decide),
    p2_v116,
    p1_kept _ main_v3 (by decide),
    p1_kept _ main_arg36 (by decide),
    p1_kept _ main_arg35 (by decide),
    p1_kept _ main_arg37 (by decide),
    p0_kept _ main_v3 (by decide),
    p0_kept _ main_arg36 (by decide),
    p0_kept _ main_arg35 (by decide),
    p0_kept _ main_arg37 (by decide)]

/-- Sparse product 8 (down21) after the four stretches. -/
theorem sparse_v129 (W : Valuation τ sig (Elt F)) :
    after main_part3_ops0 (after main_part2_ops0 (after main_part1_ops0 (after main_part0_ops8 W))) (Proc.devRef .tc main_v129)
      = spmm_8 (W (Proc.devRef .tc main_v14)) (W (Proc.devRef .tc main_arg38)) (W (Proc.devRef .tc main_arg39)) (W (Proc.devRef .tc main_arg40)) := by
  rw [p3_kept _ main_v129 (by decide),
    p2_v129,
    p1_kept _ main_v14 (by decide),
    p1_kept _ main_arg38 (by decide),
    p1_kept _ main_arg39 (by decide),
    p1_kept _ main_arg40 (by decide),
    p0_kept _ main_v14 (by decide),
    p0_kept _ main_arg38 (by decide),
    p0_kept _ main_arg39 (by decide),
    p0_kept _ main_arg40 (by decide)]

/-- Sparse product 9 (up12) after the four stretches. -/
theorem sparse_v142 (W : Valuation τ sig (Elt F)) :
    after main_part3_ops0 (after main_part2_ops0 (after main_part1_ops0 (after main_part0_ops8 W))) (Proc.devRef .tc main_v142)
      = spmm_9 (W (Proc.devRef .tc main_v9)) (W (Proc.devRef .tc main_arg39)) (W (Proc.devRef .tc main_arg38)) (W (Proc.devRef .tc main_arg40)) := by
  rw [p3_kept _ main_v142 (by decide),
    p2_v142,
    p1_kept _ main_v9 (by decide),
    p1_kept _ main_arg39 (by decide),
    p1_kept _ main_arg38 (by decide),
    p1_kept _ main_arg40 (by decide),
    p0_kept _ main_v9 (by decide),
    p0_kept _ main_arg39 (by decide),
    p0_kept _ main_arg38 (by decide),
    p0_kept _ main_arg40 (by decide)]

/-- Sparse product 10 (rank 3 down to rank 2) after the four stretches. -/
theorem sparse_v155 (W : Valuation τ sig (Elt F)) :
    after main_part3_ops0 (after main_part2_ops0 (after main_part1_ops0 (after main_part0_ops8 W))) (Proc.devRef .tc main_v155)
      = spmm_10 (W (Proc.devRef .tc main_v20)) (W (Proc.devRef .tc main_arg41)) (W (Proc.devRef .tc main_arg42)) (W (Proc.devRef .tc main_arg43)) := by
  unfold spmm_10
  rw [p3_v155,
    p2_v143,
    p2_v145,
    p2_v147,
    p2_kept _ main_arg41 (by decide),
    p2_kept _ main_v20 (by decide),
    p2_kept _ main_arg42 (by decide),
    p1_kept _ main_arg41 (by decide),
    p1_kept _ main_v20 (by decide),
    p1_kept _ main_arg42 (by decide),
    p1_kept _ main_arg43 (by decide),
    p0_kept _ main_arg41 (by decide),
    p0_kept _ main_v20 (by decide),
    p0_kept _ main_arg42 (by decide),
    p0_kept _ main_arg43 (by decide)]

/-- Sparse product 11 (rank 2 up to rank 3) after the four stretches. -/
theorem sparse_v168 (W : Valuation τ sig (Elt F)) :
    after main_part3_ops0 (after main_part2_ops0 (after main_part1_ops0 (after main_part0_ops8 W))) (Proc.devRef .tc main_v168)
      = spmm_11 (W (Proc.devRef .tc main_v15)) (W (Proc.devRef .tc main_arg42)) (W (Proc.devRef .tc main_arg41)) (W (Proc.devRef .tc main_arg43)) := by
  rw [p3_v168,
    p2_kept _ main_v15 (by decide),
    p2_kept _ main_arg42 (by decide),
    p2_kept _ main_arg41 (by decide),
    p2_kept _ main_arg43 (by decide),
    p1_kept _ main_v15 (by decide),
    p1_kept _ main_arg42 (by decide),
    p1_kept _ main_arg41 (by decide),
    p1_kept _ main_arg43 (by decide),
    p0_kept _ main_v15 (by decide),
    p0_kept _ main_arg42 (by decide),
    p0_kept _ main_arg41 (by decide),
    p0_kept _ main_arg43 (by decide)]

/-- Sparse product 12 (rank 4 down to rank 3) after the four stretches; its dense rows are columns 64 … 127 of rank 4's linear maps, sliced in the first stretch. -/
theorem sparse_v181 (W : Valuation τ sig (Elt F)) :
    after main_part3_ops0 (after main_part2_ops0 (after main_part1_ops0 (after main_part0_ops8 W))) (Proc.devRef .tc main_v181)
      = spmm_12 (extractStridedSlice S10000x64 ![0, 64] (W (Proc.devRef .tc main_v23)) slices_S10000x128_S10000x64_0_64) (W (Proc.devRef .tc main_arg44)) (W (Proc.devRef .tc main_arg45)) (W (Proc.devRef .tc main_arg46)) := by
  rw [p3_v181,
    p2_kept _ main_v25 (by decide),
    p1_kept _ main_v25 (by decide),
    p0_v25,
    p2_kept _ main_arg44 (by decide),
    p2_kept _ main_arg45 (by decide),
    p2_kept _ main_arg46 (by decide),
    p1_kept _ main_arg44 (by decide),
    p1_kept _ main_arg45 (by decide),
    p1_kept _ main_arg46 (by decide),
    p0_kept _ main_arg44 (by decide),
    p0_kept _ main_arg45 (by decide),
    p0_kept _ main_arg46 (by decide)]

/-- Sparse product 13 (rank 3 up to rank 4) after the four stretches. -/
theorem sparse_v194 (W : Valuation τ sig (Elt F)) :
    after main_part3_ops0 (after main_part2_ops0 (after main_part1_ops0 (after main_part0_ops8 W))) (Proc.devRef .tc main_v194)
      = spmm_13 (W (Proc.devRef .tc main_v21)) (W (Proc.devRef .tc main_arg45)) (W (Proc.devRef .tc main_arg44)) (W (Proc.devRef .tc main_arg46)) := by
  rw [p3_v194,
    p2_kept _ main_v21 (by decide),
    p2_kept _ main_arg45 (by decide),
    p2_kept _ main_arg44 (by decide),
    p2_kept _ main_arg46 (by decide),
    p1_kept _ main_v21 (by decide),
    p1_kept _ main_arg45 (by decide),
    p1_kept _ main_arg44 (by decide),
    p1_kept _ main_arg46 (by decide),
    p0_kept _ main_v21 (by decide),
    p0_kept _ main_arg45 (by decide),
    p0_kept _ main_arg44 (by decide),
    p0_kept _ main_arg46 (by decide)]

end Cert.KernelIdeal.KV

end
-- ==== Proof.KV.SpmmFold.lean ====
/-
  The thirteen sparse products at the boundary of @main where the aggregating pallas_calls begin (after the four
  sparse stretches, which follow the five linear-map pallas_calls and their column slices): each result buffer holds
  its product's function `spmm_j` of the dense rows as the sparse stage found them and of the launch contents of
  the row indices, the column indices and the values, which no item of @main writes.
-/
import proofs.«140264_j78443282694634_2_alg».proof.Proof.KI.Fold
import proofs.«140264_j78443282694634_2_alg».proof.Proof.KV.SpmmRun

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

open Cert.KernelIdeal.Fr

variable (m : (ℓ : Loc nD τ sig) → Buf (Elt F) ℓ) (ρ : Dev nD → PrngReg)

/-- Sparse product 1 (within rank 0) when the aggregating pallas_calls are entered: `spmm_1` of the dense rows as the
    sparse stage found them and of the launch contents of the index and value arguments. -/
theorem sparse_1 (c : Dev nD) :
    W17 m ρ c (Proc.devRef .tc main_v38)
      = spmm_1 (W13 m ρ c (Proc.devRef .tc main_v2)) (m ((c : Thread nD τ).loc main_arg5)) (m ((c : Thread nD τ).loc main_arg6)) (m ((c : Thread nD τ).loc main_arg7)) :=
  (sparse_v38 (W13 m ρ c)).trans (by
    rw [W13_unwritten m ρ c main_arg5 (by decide), W13_unwritten m ρ c main_arg6 (by decide), W13_unwritten m ρ c main_arg7 (by decide)])

/-- Sparse product 2 (within rank 1) when the aggregating pallas_calls are entered: `spmm_2` of the dense rows as the
    sparse stage found them and of the launch contents of the index and value arguments. -/
theorem sparse_2 (c : Dev nD) :
    W17 m ρ c (Proc.devRef .tc main_v51)
      = spmm_2 (W13 m ρ c (Proc.devRef .tc main_v7)) (m ((c : Thread nD τ).loc main_arg8)) (m ((c : Thread nD τ).loc main_arg9)) (m ((c : Thread nD τ).loc main_arg10)) :=
  (sparse_v51 (W13 m ρ c)).trans (by
    rw [W13_unwritten m ρ c main_arg8 (by decide), W13_unwritten m ρ c main_arg9 (by decide), W13_unwritten m ρ c main_arg10 (by decide)])

/-- Sparse product 3 (within rank 2) when the aggregating pallas_calls are entered: `spmm_3` of the dense rows as the
    sparse stage found them and of the launch contents of the index and value arguments. -/
theorem sparse_3 (c : Dev nD) :
    W17 m ρ c (Proc.devRef .tc main_v64)
      = spmm_3 (W13 m ρ c (Proc.devRef .tc main_v13)) (m ((c : Thread nD τ).loc main_arg11)) (m ((c : Thread nD τ).loc main_arg12)) (m ((c : Thread nD τ).loc main_arg13)) :=
  (sparse_v64 (W13 m ρ c)).trans (by
    rw [W13_unwritten m ρ c main_arg11 (by decide), W13_unwritten m ρ c main_arg12 (by decide), W13_unwritten m ρ c main_arg13 (by decide)])

/-- Sparse product 4 (within rank 3) when the aggregating pallas_calls are entered: `spmm_4` of the dense rows as the
    sparse stage found them and of the launch contents of the index and value arguments. -/
theorem sparse_4 (c : Dev nD) :
    W17 m ρ c (Proc.devRef .tc main_v77)
      = spmm_4 (W13 m ρ c (Proc.devRef .tc main_v19)) (m ((c : Thread nD τ).loc main_arg14)) (m ((c : Thread nD τ).loc main_arg15)) (m ((c : Thread nD τ).loc main_arg16)) :=
  (sparse_v77 (W13 m ρ c)).trans (by
    rw [W13_unwritten m ρ c main_arg14 (by decide), W13_unwritten m ρ c main_arg15 (by decide), W13_unwritten m ρ c main_arg16 (by decide)])

/-- Sparse product 5 (within rank 4) when the aggregating pallas_calls are entered: `spmm_5` of the dense rows as the
    sparse stage found them and of the launch contents of the index and value arguments. -/
theorem sparse_5 (c : Dev nD) :
    W17 m ρ c (Proc.devRef .tc main_v90)
      = spmm_5 (extractStridedSlice S10000x64 ![0, 0] (W13 m ρ c (Proc.devRef .tc main_v23)) slices_S10000x128_S10000x64_0_0) (m ((c : Thread nD τ).loc main_arg17)) (m ((c : Thread nD τ).loc main_arg18)) (m ((c : Thread nD τ).loc main_arg19)) :=
  (sparse_v90 (W13 m ρ c)).trans (by
    rw [W13_unwritten m ρ c main_arg17 (by decide), W13_unwritten m ρ c main_arg18 (by decide), W13_unwritten m ρ c main_arg19 (by decide)])

/-- Sparse product 6 (rank 1 down to rank 0) when the aggregating pallas_calls are entered: `spmm_6` of the dense rows as the
    sparse stage found them and of the launch contents of the index and value arguments. -/
theorem sparse_6 (c : Dev nD) :
    W17 m ρ c (Proc.devRef .tc main_v103)
      = spmm_6 (W13 m ρ c (Proc.devRef .tc main_v8)) (m ((c : Thread nD τ).loc main_arg35)) (m ((c : Thread nD τ).loc main_arg36)) (m ((c : Thread nD τ).loc main_arg37)) :=
  (sparse_v103 (W13 m ρ c)).trans (by
    rw [W13_unwritten m ρ c main_arg35 (by decide), W13_unwritten m ρ c main_arg36 (by decide), W13_unwritten m ρ c main_arg37 (by decide)])

/-- Sparse product 7 (rank 0 up to rank 1) when the aggregating pallas_calls are entered: `spmm_7` of the dense rows as the
    sparse stage found them and of the launch contents of the index and value arguments. -/
theorem sparse_7 (c : Dev nD) :
    W17 m ρ c (Proc.devRef .tc main_v116)
      = spmm_7 (W13 m ρ c (Proc.devRef .tc main_v3)) (m ((c : Thread nD τ).loc main_arg36)) (m ((c : Thread nD τ).loc main_arg35)) (m ((c : Thread nD τ).loc main_arg37)) :=
  (sparse_v116 (W13 m ρ c)).trans (by
    rw [W13_unwritten m ρ c main_arg36 (by decide), W13_unwritten m ρ c main_arg35 (by decide), W13_unwritten m ρ c main_arg37 (by decide)])

/-- Sparse product 8 (rank 2 down to rank 1) when the aggregating pallas_calls are entered: `spmm_8` of the dense rows as the
    sparse stage found them and of the launch contents of the index and value arguments. -/
theorem sparse_8 (c : Dev nD) :
    W17 m ρ c (Proc.devRef .tc main_v129)
      = spmm_8 (W13 m ρ c (Proc.devRef .tc main_v14)) (m ((c : Thread nD τ).loc main_arg38)) (m ((c : Thread nD τ).loc main_arg39)) (m ((c : Thread nD τ).loc main_arg40)) :=
  (sparse_v129 (W13 m ρ c)).trans (by
    rw [W13_unwritten m ρ c main_arg38 (by decide), W13_unwritten m ρ c main_arg39 (by decide), W13_unwritten m ρ c main_arg40 (by decide)])

/-- Sparse product 9 (rank 1 up to rank 2) when the aggregating pallas_calls are entered: `spmm_9` of the dense rows as the
    sparse stage found them and of the launch contents of the index and value arguments. -/
theorem sparse_9 (c : Dev nD) :
    W17 m ρ c (Proc.devRef .tc main_v142)
      = spmm_9 (W13 m ρ c (Proc.devRef .tc main_v9)) (m ((c : Thread nD τ).loc main_arg39)) (m ((c : Thread nD τ).loc main_arg38)) (m ((c : Thread nD τ).loc main_arg40)) :=
  (sparse_v142 (W13 m ρ c)).trans (by
    rw [W13_unwritten m ρ c main_arg39 (by decide), W13_unwritten m ρ c main_arg38 (by decide), W13_unwritten m ρ c main_arg40 (by decide)])

/-- Sparse product 10 (rank 3 down to rank 2) when the aggregating pallas_calls are entered: `spmm_10` of the dense rows as the
    sparse stage found them and of the launch contents of the index and value arguments. -/
theorem sparse_10 (c : Dev nD) :
    W17 m ρ c (Proc.devRef .tc main_v155)
      = spmm_10 (W13 m ρ c (Proc.devRef .tc main_v20)) (m ((c : Thread nD τ).loc main_arg41)) (m ((c : Thread nD τ).loc main_arg42)) (m ((c : Thread nD τ).loc main_arg43)) :=
  (sparse_v155 (W13 m ρ c)).trans (by
    rw [W13_unwritten m ρ c main_arg41 (by decide), W13_unwritten m ρ c main_arg42 (by decide), W13_unwritten m ρ c main_arg43 (by decide)])

/-- Sparse product 11 (rank 2 up to rank 3) when the aggregating pallas_calls are entered: `spmm_11` of the dense rows as the
    sparse stage found them and of the launch contents of the index and value arguments. -/
theorem sparse_11 (c : Dev nD) :
    W17 m ρ c (Proc.devRef .tc main_v168)
      = spmm_11 (W13 m ρ c (Proc.devRef .tc main_v15)) (m ((c : Thread nD τ).loc main_arg42)) (m ((c : Thread nD τ).loc main_arg41)) (m ((c : Thread nD τ).loc main_arg43)) :=
  (sparse_v168 (W13 m ρ c)).trans (by
    rw [W13_unwritten m ρ c main_arg42 (by decide), W13_unwritten m ρ c main_arg41 (by decide), W13_unwritten m ρ c main_arg43 (by decide)])

/-- Sparse product 12 (rank 4 down to rank 3) when the aggregating pallas_calls are entered: `spmm_12` of the dense rows as the
    sparse stage found them and of the launch contents of the index and value arguments. -/
theorem sparse_12 (c : Dev nD) :
    W17 m ρ c (Proc.devRef .tc main_v181)
      = spmm_12 (extractStridedSlice S10000x64 ![0, 64] (W13 m ρ c (Proc.devRef .tc main_v23)) slices_S10000x128_S10000x64_0_64) (m ((c : Thread nD τ).loc main_arg44)) (m ((c : Thread nD τ).loc main_arg45)) (m ((c : Thread nD τ).loc main_arg46)) :=
  (sparse_v181 (W13 m ρ c)).trans (by
    rw [W13_unwritten m ρ c main_arg44 (by decide), W13_unwritten m ρ c main_arg45 (by decide), W13_unwritten m ρ c main_arg46 (by decide)])

/-- Sparse product 13 (rank 3 up to rank 4) when the aggregating pallas_calls are entered: `spmm_13` of the dense rows as the
    sparse stage found them and of the launch contents of the index and value arguments. -/
theorem sparse_13 (c : Dev nD) :
    W17 m ρ c (Proc.devRef .tc main_v194)
      = spmm_13 (W13 m ρ c (Proc.devRef .tc main_v21)) (m ((c : Thread nD τ).loc main_arg45)) (m ((c : Thread nD τ).loc main_arg44)) (m ((c : Thread nD τ).loc main_arg46)) :=
  (sparse_v194 (W13 m ρ c)).trans (by
    rw [W13_unwritten m ρ c main_arg45 (by decide), W13_unwritten m ρ c main_arg44 (by decide), W13_unwritten m ρ c main_arg46 (by decide)])

end Cert.KernelIdeal.KV

end
-- ==== Proof.KV.SpmmRef.lean ====
/-
  The reference computes each sparse product by the same host operations as the kernel's program, printed from the
  same text: the reference's stages from a dense product to the sum into the rows are, as a function of the dense
  product and of the index and value arguments, the product's function `spmm_j`. The two programs' dimension
  records carry different names and the same fields, so each equation holds by unfolding the names.
-/
import proofs.«140264_j78443282694634_2_alg».proof.Proof.KV.SpmmDefs
import proofs.«140264_j78443282694634_2_alg».proof.Proof.Ref.Read

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- The reference's sparse product 1 (its stages from the dense product `val_main_v0` to the sum into the rows
    `val_main_v13`) is `spmm_1` of that dense product and the same index and value arguments. -/
theorem ref_spmm_1 (x0 : (⟨Cert.ReferenceIdeal.S50000x64, .f32⟩ : BufTy).Contents (Elt F)) (x5 : (⟨Cert.ReferenceIdeal.S400000, .i32⟩ : BufTy).Contents (Elt F)) (x6 : (⟨Cert.ReferenceIdeal.S400000, .i32⟩ : BufTy).Contents (Elt F)) (x7 : (⟨Cert.ReferenceIdeal.S400000, .f32⟩ : BufTy).Contents (Elt F)) (x25 : (⟨Cert.ReferenceIdeal.S64x64, .f32⟩ : BufTy).Contents (Elt F)) :
    Cert.ReferenceIdeal.ReadP.val_main_v13 (F := F) x0 x5 x6 x7 x25
      = spmm_1 (Cert.ReferenceIdeal.ReadP.val_main_v0 (F := F) x0 x25) x5 x6 x7 := rfl

/-- The reference's sparse product 2 (its stages from the dense product `val_main_v16` to the sum into the rows
    `val_main_v29`) is `spmm_2` of that dense product and the same index and value arguments. -/
theorem ref_spmm_2 (x1 : (⟨Cert.ReferenceIdeal.S150000x64, .f32⟩ : BufTy).Contents (Elt F)) (x8 : (⟨Cert.ReferenceIdeal.S1200000, .i32⟩ : BufTy).Contents (Elt F)) (x9 : (⟨Cert.ReferenceIdeal.S1200000, .i32⟩ : BufTy).Contents (Elt F)) (x10 : (⟨Cert.ReferenceIdeal.S1200000, .f32⟩ : BufTy).Contents (Elt F)) (x26 : (⟨Cert.ReferenceIdeal.S64x64, .f32⟩ : BufTy).Contents (Elt F)) :
    Cert.ReferenceIdeal.ReadP.val_main_v29 (F := F) x1 x8 x9 x10 x26
      = spmm_2 (Cert.ReferenceIdeal.ReadP.val_main_v16 (F := F) x1 x26) x8 x9 x10 := rfl

/-- The reference's sparse product 3 (its stages from the dense product `val_main_v32` to the sum into the rows
    `val_main_v45`) is `spmm_3` of that dense product and the same index and value arguments. -/
theorem ref_spmm_3 (x2 : (⟨Cert.ReferenceIdeal.S100000x64, .f32⟩ : BufTy).Contents (Elt F)) (x11 : (⟨Cert.ReferenceIdeal.S800000, .i32⟩ : BufTy).Contents (Elt F)) (x12 : (⟨Cert.ReferenceIdeal.S800000, .i32⟩ : BufTy).Contents (Elt F)) (x13 : (⟨Cert.ReferenceIdeal.S800000, .f32⟩ : BufTy).Contents (Elt F)) (x27 : (⟨Cert.ReferenceIdeal.S64x64, .f32⟩ : BufTy).Contents (Elt F)) :
    Cert.ReferenceIdeal.ReadP.val_main_v45 (F := F) x2 x11 x12 x13 x27
      = spmm_3 (Cert.ReferenceIdeal.ReadP.val_main_v32 (F := F) x2 x27) x11 x12 x13 := rfl

/-- The reference's sparse product 4 (its stages from the dense product `val_main_v48` to the sum into the rows
    `val_main_v61`) is `spmm_4` of that dense product and the same index and value arguments. -/
theorem ref_spmm_4 (x3 : (⟨Cert.ReferenceIdeal.S40000x64, .f32⟩ : BufTy).Contents (Elt F)) (x14 : (⟨Cert.ReferenceIdeal.S320000, .i32⟩ : BufTy).Contents (Elt F)) (x15 : (⟨Cert.ReferenceIdeal.S320000, .i32⟩ : BufTy).Contents (Elt F)) (x16 : (⟨Cert.ReferenceIdeal.S320000, .f32⟩ : BufTy).Contents (Elt F)) (x28 : (⟨Cert.ReferenceIdeal.S64x64, .f32⟩ : BufTy).Contents (Elt F)) :
    Cert.ReferenceIdeal.ReadP.val_main_v61 (F := F) x3 x14 x15 x16 x28
      = spmm_4 (Cert.ReferenceIdeal.ReadP.val_main_v48 (F := F) x3 x28) x14 x15 x16 := rfl

/-- The reference's sparse product 5 (its stages from the dense product `val_main_v64` to the sum into the rows
    `val_main_v77`) is `spmm_5` of that dense product and the same index and value arguments. -/
theorem ref_spmm_5 (x4 : (⟨Cert.ReferenceIdeal.S10000x64, .f32⟩ : BufTy).Contents (Elt F)) (x17 : (⟨Cert.ReferenceIdeal.S80000, .i32⟩ : BufTy).Contents (Elt F)) (x18 : (⟨Cert.ReferenceIdeal.S80000, .i32⟩ : BufTy).Contents (Elt F)) (x19 : (⟨Cert.ReferenceIdeal.S80000, .f32⟩ : BufTy).Contents (Elt F)) (x29 : (⟨Cert.ReferenceIdeal.S64x64, .f32⟩ : BufTy).Contents (Elt F)) :
    Cert.ReferenceIdeal.ReadP.val_main_v77 (F := F) x4 x17 x18 x19 x29
      = spmm_5 (Cert.ReferenceIdeal.ReadP.val_main_v64 (F := F) x4 x29) x17 x18 x19 := rfl

/-- The reference's sparse product 6 (its stages from the dense product `val_main_v80` to the sum into the rows
    `val_main_v93`) is `spmm_6` of that dense product and the same index and value arguments. -/
theorem ref_spmm_6 (x1 : (⟨Cert.ReferenceIdeal.S150000x64, .f32⟩ : BufTy).Contents (Elt F)) (x35 : (⟨Cert.ReferenceIdeal.S600000, .i32⟩ : BufTy).Contents (Elt F)) (x36 : (⟨Cert.ReferenceIdeal.S600000, .i32⟩ : BufTy).Contents (Elt F)) (x37 : (⟨Cert.ReferenceIdeal.S600000, .f32⟩ : BufTy).Contents (Elt F)) (x47 : (⟨Cert.ReferenceIdeal.S64x64, .f32⟩ : BufTy).Contents (Elt F)) :
    Cert.ReferenceIdeal.ReadP.val_main_v93 (F := F) x1 x35 x36 x37 x47
      = spmm_6 (Cert.ReferenceIdeal.ReadP.val_main_v80 (F := F) x1 x47) x35 x36 x37 := rfl

/-- The reference's sparse product 7 (its stages from the dense product `val_main_v95` to the sum into the rows
    `val_main_v108`) is `spmm_7` of that dense product and the same index and value arguments. -/
theorem ref_spmm_7 (x0 : (⟨Cert.ReferenceIdeal.S50000x64, .f32⟩ : BufTy).Contents (Elt F)) (x35 : (⟨Cert.ReferenceIdeal.S600000, .i32⟩ : BufTy).Contents (Elt F)) (x36 : (⟨Cert.ReferenceIdeal.S600000, .i32⟩ : BufTy).Contents (Elt F)) (x37 : (⟨Cert.ReferenceIdeal.S600000, .f32⟩ : BufTy).Contents (Elt F)) (x48 : (⟨Cert.ReferenceIdeal.S64x64, .f32⟩ : BufTy).Contents (Elt F)) :
    Cert.ReferenceIdeal.ReadP.val_main_v108 (F := F) x0 x35 x36 x37 x48
      = spmm_7 (Cert.ReferenceIdeal.ReadP.val_main_v95 (F := F) x0 x48) x36 x35 x37 := rfl

/-- The reference's sparse product 8 (its stages from the dense product `val_main_v110` to the sum into the rows
    `val_main_v123`) is `spmm_8` of that dense product and the same index and value arguments. -/
theorem ref_spmm_8 (x2 : (⟨Cert.ReferenceIdeal.S100000x64, .f32⟩ : BufTy).Contents (Elt F)) (x38 : (⟨Cert.ReferenceIdeal.S400000, .i32⟩ : BufTy).Contents (Elt F)) (x39 : (⟨Cert.ReferenceIdeal.S400000, .i32⟩ : BufTy).Contents (Elt F)) (x40 : (⟨Cert.ReferenceIdeal.S400000, .f32⟩ : BufTy).Contents (Elt F)) (x49 : (⟨Cert.ReferenceIdeal.S64x64, .f32⟩ : BufTy).Contents (Elt F)) :
    Cert.ReferenceIdeal.ReadP.val_main_v123 (F := F) x2 x38 x39 x40 x49
      = spmm_8 (Cert.ReferenceIdeal.ReadP.val_main_v110 (F := F) x2 x49) x38 x39 x40 := rfl

/-- The reference's sparse product 9 (its stages from the dense product `val_main_v125` to the sum into the rows
    `val_main_v138`) is `spmm_9` of that dense product and the same index and value arguments. -/
theorem ref_spmm_9 (x1 : (⟨Cert.ReferenceIdeal.S150000x64, .f32⟩ : BufTy).Contents (Elt F)) (x38 : (⟨Cert.ReferenceIdeal.S400000, .i32⟩ : BufTy).Contents (Elt F)) (x39 : (⟨Cert.ReferenceIdeal.S400000, .i32⟩ : BufTy).Contents (Elt F)) (x40 : (⟨Cert.ReferenceIdeal.S400000, .f32⟩ : BufTy).Contents (Elt F)) (x50 : (⟨Cert.ReferenceIdeal.S64x64, .f32⟩ : BufTy).Contents (Elt F)) :
    Cert.ReferenceIdeal.ReadP.val_main_v138 (F := F) x1 x38 x39 x40 x50
      = spmm_9 (Cert.ReferenceIdeal.ReadP.val_main_v125 (F := F) x1 x50) x39 x38 x40 := rfl

/-- The reference's sparse product 10 (its stages from the dense product `val_main_v140` to the sum into the rows
    `val_main_v153`) is `spmm_10` of that dense product and the same index and value arguments. -/
theorem ref_spmm_10 (x3 : (⟨Cert.ReferenceIdeal.S40000x64, .f32⟩ : BufTy).Contents (Elt F)) (x41 : (⟨Cert.ReferenceIdeal.S160000, .i32⟩ : BufTy).Contents (Elt F)) (x42 : (⟨Cert.ReferenceIdeal.S160000, .i32⟩ : BufTy).Contents (Elt F)) (x43 : (⟨Cert.ReferenceIdeal.S160000, .f32⟩ : BufTy).Contents (Elt F)) (x51 : (⟨Cert.ReferenceIdeal.S64x64, .f32⟩ : BufTy).Contents (Elt F)) :
    Cert.ReferenceIdeal.ReadP.val_main_v153 (F := F) x3 x41 x42 x43 x51
      = spmm_10 (Cert.ReferenceIdeal.ReadP.val_main_v140 (F := F) x3 x51) x41 x42 x43 := rfl

/-- The reference's sparse product 11 (its stages from the dense product `val_main_v155` to the sum into the rows
    `val_main_v168`) is `spmm_11` of that dense product and the same index and value arguments. -/
theorem ref_spmm_11 (x2 : (⟨Cert.ReferenceIdeal.S100000x64, .f32⟩ : BufTy).Contents (Elt F)) (x41 : (⟨Cert.ReferenceIdeal.S160000, .i32⟩ : BufTy).Contents (Elt F)) (x42 : (⟨Cert.ReferenceIdeal.S160000, .i32⟩ : BufTy).Contents (Elt F)) (x43 : (⟨Cert.ReferenceIdeal.S160000, .f32⟩ : BufTy).Contents (Elt F)) (x52 : (⟨Cert.ReferenceIdeal.S64x64, .f32⟩ : BufTy).Contents (Elt F)) :
    Cert.ReferenceIdeal.ReadP.val_main_v168 (F := F) x2 x41 x42 x43 x52
      = spmm_11 (Cert.ReferenceIdeal.ReadP.val_main_v155 (F := F) x2 x52) x42 x41 x43 := rfl

/-- The reference's sparse product 12 (its stages from the dense product `val_main_v170` to the sum into the rows
    `val_main_v183`) is `spmm_12` of that dense product and the same index and value arguments. -/
theorem ref_spmm_12 (x4 : (⟨Cert.ReferenceIdeal.S10000x64, .f32⟩ : BufTy).Contents (Elt F)) (x44 : (⟨Cert.ReferenceIdeal.S40000, .i32⟩ : BufTy).Contents (Elt F)) (x45 : (⟨Cert.ReferenceIdeal.S40000, .i32⟩ : BufTy).Contents (Elt F)) (x46 : (⟨Cert.ReferenceIdeal.S40000, .f32⟩ : BufTy).Contents (Elt F)) (x53 : (⟨Cert.ReferenceIdeal.S64x64, .f32⟩ : BufTy).Contents (Elt F)) :
    Cert.ReferenceIdeal.ReadP.val_main_v183 (F := F) x4 x44 x45 x46 x53
      = spmm_12 (Cert.ReferenceIdeal.ReadP.val_main_v170 (F := F) x4 x53) x44 x45 x46 := rfl

/-- The reference's sparse product 13 (its stages from the dense product `val_main_v185` to the sum into the rows
    `val_main_v198`) is `spmm_13` of that dense product and the same index and value arguments. -/
theorem ref_spmm_13 (x3 : (⟨Cert.ReferenceIdeal.S40000x64, .f32⟩ : BufTy).Contents (Elt F)) (x44 : (⟨Cert.ReferenceIdeal.S40000, .i32⟩ : BufTy).Contents (Elt F)) (x45 : (⟨Cert.ReferenceIdeal.S40000, .i32⟩ : BufTy).Contents (Elt F)) (x46 : (⟨Cert.ReferenceIdeal.S40000, .f32⟩ : BufTy).Contents (Elt F)) (x54 : (⟨Cert.ReferenceIdeal.S64x64, .f32⟩ : BufTy).Contents (Elt F)) :
    Cert.ReferenceIdeal.ReadP.val_main_v198 (F := F) x3 x44 x45 x46 x54
      = spmm_13 (Cert.ReferenceIdeal.ReadP.val_main_v185 (F := F) x3 x54) x45 x44 x46 := rfl

end Cert.KernelIdeal.KV

end
-- ==== Proof.Ref.Dense.lean ====
/- The thirteen dense products of the reference (a rank's feature array times a 64 × 64 weight), each feeding
   one sparse product, read at an index (p, q) at the exact extended reals: the sum over k : Fin 64 of the
   feature entry at (p, k) times the weight entry at (k, q). -/
import proofs.«140264_j78443282694634_2_alg».proof.Proof.Ref.Read

noncomputable section

namespace Cert.Proof.Ref

open Idealize.ShloMosaic Idealize.ShloMosaic.ValueIdx Cert.ReferenceIdeal Cert.ReferenceIdeal.ReadP

/-- The dense product of 50000 rows at (p, q): the sum over k of the row entry at (p, k) times the weight at (k, q). -/
theorem val_v0_ix (x0 : (⟨S50000x64, .f32⟩ : BufTy).Contents (Elt Ideal)) (x25 : (⟨S64x64, .f32⟩ : BufTy).Contents (Elt Ideal))
    (p : Fin 50000) (q : Fin 64) :
    val_main_v0 (F := Ideal) x0 x25 (ix2 p q) = ∑ k : Fin 64, x0 (ix2 p k) * x25 (ix2 k q) := by
  rw [val_main_v0_apply]
  refine Finset.sum_congr rfl fun k _ => ?_
  have hl : lidx_main_v0 (ix2 p q) k = ix2 p k := by
    funext a; match a with | ⟨0, _⟩ => rfl | ⟨1, _⟩ => rfl
  have hr : ridx_main_v0 (ix2 p q) k = ix2 k q := by
    funext a; match a with | ⟨0, _⟩ => rfl | ⟨1, _⟩ => rfl
  rw [hl, hr]

/-- The dense product of 150000 rows at (p, q): the sum over k of the row entry at (p, k) times the weight at (k, q). -/
theorem val_v16_ix (x1 : (⟨S150000x64, .f32⟩ : BufTy).Contents (Elt Ideal)) (x26 : (⟨S64x64, .f32⟩ : BufTy).Contents (Elt Ideal))
    (p : Fin 150000) (q : Fin 64) :
    val_main_v16 (F := Ideal) x1 x26 (ix2 p q) = ∑ k : Fin 64, x1 (ix2 p k) * x26 (ix2 k q) := by
  rw [val_main_v16_apply]
  refine Finset.sum_congr rfl fun k _ => ?_
  have hl : lidx_main_v16 (ix2 p q) k = ix2 p k := by
    funext a; match a with | ⟨0, _⟩ => rfl | ⟨1, _⟩ => rfl
  have hr : ridx_main_v16 (ix2 p q) k = ix2 k q := by
    funext a; match a with | ⟨0, _⟩ => rfl | ⟨1, _⟩ => rfl
  rw [hl, hr]

/-- The dense product of 100000 rows at (p, q): the sum over k of the row entry at (p, k) times the weight at (k, q). -/
theorem val_v32_ix (x2 : (⟨S100000x64, .f32⟩ : BufTy).Contents (Elt Ideal)) (x27 : (⟨S64x64, .f32⟩ : BufTy).Contents (Elt Ideal))
    (p : Fin 100000) (q : Fin 64) :
    val_main_v32 (F := Ideal) x2 x27 (ix2 p q) = ∑ k : Fin 64, x2 (ix2 p k) * x27 (ix2 k q) := by
  rw [val_main_v32_apply]
  refine Finset.sum_congr rfl fun k _ => ?_
  have hl : lidx_main_v32 (ix2 p q) k = ix2 p k := by
    funext a; match a with | ⟨0, _⟩ => rfl | ⟨1, _⟩ => rfl
  have hr : ridx_main_v32 (ix2 p q) k = ix2 k q := by
    funext a; match a with | ⟨0, _⟩ => rfl | ⟨1, _⟩ => rfl
  rw [hl, hr]

/-- The dense product of 40000 rows at (p, q): the sum over k of the row entry at (p, k) times the weight at (k, q). -/
theorem val_v48_ix (x3 : (⟨S40000x64, .f32⟩ : BufTy).Contents (Elt Ideal)) (x28 : (⟨S64x64, .f32⟩ : BufTy).Contents (Elt Ideal))
    (p : Fin 40000) (q : Fin 64) :
    val_main_v48 (F := Ideal) x3 x28 (ix2 p q) = ∑ k : Fin 64, x3 (ix2 p k) * x28 (ix2 k q) := by
  rw [val_main_v48_apply]
  refine Finset.sum_congr rfl fun k _ => ?_
  have hl : lidx_main_v48 (ix2 p q) k = ix2 p k := by
    funext a; match a with | ⟨0, _⟩ => rfl | ⟨1, _⟩ => rfl
  have hr : ridx_main_v48 (ix2 p q) k = ix2 k q := by
    funext a; match a with | ⟨0, _⟩ => rfl | ⟨1, _⟩ => rfl
  rw [hl, hr]

/-- The dense product of 10000 rows at (p, q): the sum over k of the row entry at (p, k) times the weight at (k, q). -/
theorem val_v64_ix (x4 : (⟨S10000x64, .f32⟩ : BufTy).Contents (Elt Ideal)) (x29 : (⟨S64x64, .f32⟩ : BufTy).Contents (Elt Ideal))
    (p : Fin 10000) (q : Fin 64) :
    val_main_v64 (F := Ideal) x4 x29 (ix2 p q) = ∑ k : Fin 64, x4 (ix2 p k) * x29 (ix2 k q) := by
  rw [val_main_v64_apply]
  refine Finset.sum_congr rfl fun k _ => ?_
  have hl : lidx_main_v64 (ix2 p q) k = ix2 p k := by
    funext a; match a with | ⟨0, _⟩ => rfl | ⟨1, _⟩ => rfl
  have hr : ridx_main_v64 (ix2 p q) k = ix2 k q := by
    funext a; match a with | ⟨0, _⟩ => rfl | ⟨1, _⟩ => rfl
  rw [hl, hr]

/-- The dense product of 150000 rows at (p, q): the sum over k of the row entry at (p, k) times the weight at (k, q). -/
theorem val_v80_ix (x1 : (⟨S150000x64, .f32⟩ : BufTy).Contents (Elt Ideal)) (x47 : (⟨S64x64, .f32⟩ : BufTy).Contents (Elt Ideal))
    (p : Fin 150000) (q : Fin 64) :
    val_main_v80 (F := Ideal) x1 x47 (ix2 p q) = ∑ k : Fin 64, x1 (ix2 p k) * x47 (ix2 k q) := by
  rw [val_main_v80_apply]
  refine Finset.sum_congr rfl fun k _ => ?_
  have hl : lidx_main_v80 (ix2 p q) k = ix2 p k := by
    funext a; match a with | ⟨0, _⟩ => rfl | ⟨1, _⟩ => rfl
  have hr : ridx_main_v80 (ix2 p q) k = ix2 k q := by
    funext a; match a with | ⟨0, _⟩ => rfl | ⟨1, _⟩ => rfl
  rw [hl, hr]

/-- The dense product of 50000 rows at (p, q): the sum over k of the row entry at (p, k) times the weight at (k, q). -/
theorem val_v95_ix (x0 : (⟨S50000x64, .f32⟩ : BufTy).Contents (Elt Ideal)) (x48 : (⟨S64x64, .f32⟩ : BufTy).Contents (Elt Ideal))
    (p : Fin 50000) (q : Fin 64) :
    val_main_v95 (F := Ideal) x0 x48 (ix2 p q) = ∑ k : Fin 64, x0 (ix2 p k) * x48 (ix2 k q) := by
  rw [val_main_v95_apply]
  refine Finset.sum_congr rfl fun k _ => ?_
  have hl : lidx_main_v95 (ix2 p q) k = ix2 p k := by
    funext a; match a with | ⟨0, _⟩ => rfl | ⟨1, _⟩ => rfl
  have hr : ridx_main_v95 (ix2 p q) k = ix2 k q := by
    funext a; match a with | ⟨0, _⟩ => rfl | ⟨1, _⟩ => rfl
  rw [hl, hr]

/-- The dense product of 100000 rows at (p, q): the sum over k of the row entry at (p, k) times the weight at (k, q). -/
theorem val_v110_ix (x2 : (⟨S100000x64, .f32⟩ : BufTy).Contents (Elt Ideal)) (x49 : (⟨S64x64, .f32⟩ : BufTy).Contents (Elt Ideal))
    (p : Fin 100000) (q : Fin 64) :
    val_main_v110 (F := Ideal) x2 x49 (ix2 p q) = ∑ k : Fin 64, x2 (ix2 p k) * x49 (ix2 k q) := by
  rw [val_main_v110_apply]
  refine Finset.sum_congr rfl fun k _ => ?_
  have hl : lidx_main_v110 (ix2 p q) k = ix2 p k := by
    funext a; match a with | ⟨0, _⟩ => rfl | ⟨1, _⟩ => rfl
  have hr : ridx_main_v110 (ix2 p q) k = ix2 k q := by
    funext a; match a with | ⟨0, _⟩ => rfl | ⟨1, _⟩ => rfl
  rw [hl, hr]

/-- The dense product of 150000 rows at (p, q): the sum over k of the row entry at (p, k) times the weight at (k, q). -/
theorem val_v125_ix (x1 : (⟨S150000x64, .f32⟩ : BufTy).Contents (Elt Ideal)) (x50 : (⟨S64x64, .f32⟩ : BufTy).Contents (Elt Ideal))
    (p : Fin 150000) (q : Fin 64) :
    val_main_v125 (F := Ideal) x1 x50 (ix2 p q) = ∑ k : Fin 64, x1 (ix2 p k) * x50 (ix2 k q) := by
  rw [val_main_v125_apply]
  refine Finset.sum_congr rfl fun k _ => ?_
  have hl : lidx_main_v125 (ix2 p q) k = ix2 p k := by
    funext a; match a with | ⟨0, _⟩ => rfl | ⟨1, _⟩ => rfl
  have hr : ridx_main_v125 (ix2 p q) k = ix2 k q := by
    funext a; match a with | ⟨0, _⟩ => rfl | ⟨1, _⟩ => rfl
  rw [hl, hr]

/-- The dense product of 40000 rows at (p, q): the sum over k of the row entry at (p, k) times the weight at (k, q). -/
theorem val_v140_ix (x3 : (⟨S40000x64, .f32⟩ : BufTy).Contents (Elt Ideal)) (x51 : (⟨S64x64, .f32⟩ : BufTy).Contents (Elt Ideal))
    (p : Fin 40000) (q : Fin 64) :
    val_main_v140 (F := Ideal) x3 x51 (ix2 p q) = ∑ k : Fin 64, x3 (ix2 p k) * x51 (ix2 k q) := by
  rw [val_main_v140_apply]
  refine Finset.sum_congr rfl fun k _ => ?_
  have hl : lidx_main_v140 (ix2 p q) k = ix2 p k := by
    funext a; match a with | ⟨0, _⟩ => rfl | ⟨1, _⟩ => rfl
  have hr : ridx_main_v140 (ix2 p q) k = ix2 k q := by
    funext a; match a with | ⟨0, _⟩ => rfl | ⟨1, _⟩ => rfl
  rw [hl, hr]

/-- The dense product of 100000 rows at (p, q): the sum over k of the row entry at (p, k) times the weight at (k, q). -/
theorem val_v155_ix (x2 : (⟨S100000x64, .f32⟩ : BufTy).Contents (Elt Ideal)) (x52 : (⟨S64x64, .f32⟩ : BufTy).Contents (Elt Ideal))
    (p : Fin 100000) (q : Fin 64) :
    val_main_v155 (F := Ideal) x2 x52 (ix2 p q) = ∑ k : Fin 64, x2 (ix2 p k) * x52 (ix2 k q) := by
  rw [val_main_v155_apply]
  refine Finset.sum_congr rfl fun k _ => ?_
  have hl : lidx_main_v155 (ix2 p q) k = ix2 p k := by
    funext a; match a with | ⟨0, _⟩ => rfl | ⟨1, _⟩ => rfl
  have hr : ridx_main_v155 (ix2 p q) k = ix2 k q := by
    funext a; match a with | ⟨0, _⟩ => rfl | ⟨1, _⟩ => rfl
  rw [hl, hr]

/-- The dense product of 10000 rows at (p, q): the sum over k of the row entry at (p, k) times the weight at (k, q). -/
theorem val_v170_ix (x4 : (⟨S10000x64, .f32⟩ : BufTy).Contents (Elt Ideal)) (x53 : (⟨S64x64, .f32⟩ : BufTy).Contents (Elt Ideal))
    (p : Fin 10000) (q : Fin 64) :
    val_main_v170 (F := Ideal) x4 x53 (ix2 p q) = ∑ k : Fin 64, x4 (ix2 p k) * x53 (ix2 k q) := by
  rw [val_main_v170_apply]
  refine Finset.sum_congr rfl fun k _ => ?_
  have hl : lidx_main_v170 (ix2 p q) k = ix2 p k := by
    funext a; match a with | ⟨0, _⟩ => rfl | ⟨1, _⟩ => rfl
  have hr : ridx_main_v170 (ix2 p q) k = ix2 k q := by
    funext a; match a with | ⟨0, _⟩ => rfl | ⟨1, _⟩ => rfl
  rw [hl, hr]

/-- The dense product of 40000 rows at (p, q): the sum over k of the row entry at (p, k) times the weight at (k, q). -/
theorem val_v185_ix (x3 : (⟨S40000x64, .f32⟩ : BufTy).Contents (Elt Ideal)) (x54 : (⟨S64x64, .f32⟩ : BufTy).Contents (Elt Ideal))
    (p : Fin 40000) (q : Fin 64) :
    val_main_v185 (F := Ideal) x3 x54 (ix2 p q) = ∑ k : Fin 64, x3 (ix2 p k) * x54 (ix2 k q) := by
  rw [val_main_v185_apply]
  refine Finset.sum_congr rfl fun k _ => ?_
  have hl : lidx_main_v185 (ix2 p q) k = ix2 p k := by
    funext a; match a with | ⟨0, _⟩ => rfl | ⟨1, _⟩ => rfl
  have hr : ridx_main_v185 (ix2 p q) k = ix2 k q := by
    funext a; match a with | ⟨0, _⟩ => rfl | ⟨1, _⟩ => rfl
  rw [hl, hr]

end Cert.Proof.Ref

end
-- ==== Proof.KV.Lin0.lean ====
/-
  Region 0: the rows of the first input times the column-joined weights. The body multiplies the row block by the whole
  weight array into a zero accumulator, so the output block at a grid point is, entry by entry, the sum over the 64
  shared coordinates of (input row entry) · (weight column entry); grid point t writes rows 10000·t … 10000·t + 9999,
  the points together cover every row, and so the output array after the region holds that sum at every entry.
-/
import proofs.«140264_j78443282694634_2_alg».proof.Proof.KI.R0
import proofs.«140264_j78443282694634_2_alg».proof.Proof.KV.LibMatmul
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

/-! ## The product's dimension numbers: which operand entries meet at a contraction index -/

theorem d0_l0 (j : S10000x128.Idx) (q : dot_S10000x64_S64x128_S10000x128_1_0_0_1_n_n.contr.Idx) :
    (dot_S10000x64_S64x128_S10000x128_1_0_0_1_n_n.lhsIdx j q 0).val = (j 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem d0_l1 (j : S10000x128.Idx) (q : dot_S10000x64_S64x128_S10000x128_1_0_0_1_n_n.contr.Idx) :
    (dot_S10000x64_S64x128_S10000x128_1_0_0_1_n_n.lhsIdx j q 1).val = (q ⟨0, by decide⟩).val :=
  dot_S10000x64_S64x128_S10000x128_1_0_0_1_n_n.lhsIdx_val_of_single rfl j q
theorem d0_r0 (j : S10000x128.Idx) (q : dot_S10000x64_S64x128_S10000x128_1_0_0_1_n_n.contr.Idx) :
    (dot_S10000x64_S64x128_S10000x128_1_0_0_1_n_n.rhsIdx j q 0).val = (q ⟨0, by decide⟩).val :=
  dot_S10000x64_S64x128_S10000x128_1_0_0_1_n_n.rhsIdx_val_of_single rfl j q
theorem d0_r1 (j : S10000x128.Idx) (q : dot_S10000x64_S64x128_S10000x128_1_0_0_1_n_n.contr.Idx) :
    (dot_S10000x64_S64x128_S10000x128_1_0_0_1_n_n.rhsIdx j q 1).val = (j 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The body's value at an entry of the block: the sum over the shared coordinate of row entry times column entry. -/
theorem pay0_apply (x0 : Vec Ideal S10000x64 .f32) (x1 : Vec Ideal S64x128 .f32) (p : Fin 10000) (q : Fin 128) :
    k0_pay1 (F := Ideal) x0 x1 (ix2 p q) = ∑ k : Fin 64, x0 (ix2 p k) * x1 (ix2 k q) := by
  unfold k0_pay1
  simp only [shapeCast_self]
  exact Cert.LibMatmul.matmul_zero_ix2 dot_S10000x64_S64x128_S10000x128_1_0_0_1_n_n none rfl rfl d0_l0 d0_l1 d0_r0 d0_r1 x0 x1 (ix2 p q)

variable (V : (c : Dev nD) → (b : Ref sig .tc) → Buf (Elt Ideal) ((c : Thread nD τ).loc b))

/-! ## From blocks to the array -/

/-- The index maps over the grid: the row-blocked windows sit at block (t, 0), the weights at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input array, the weight array, as the region finds them, -/
abbrev xin0 (c : Dev nD) : S50000x64.Idx → Elt Ideal .f32 := V c (Pipeline.arrRef spec0 0)
abbrev wts0 (c : Dev nD) : S64x128.Idx → Elt Ideal .f32 := V c (Pipeline.arrRef spec0 1)
/-- and the output array after the region. -/
abbrev yout0 (c : Dev nD) : S50000x128.Idx → Elt Ideal .f32 := (dat0 (F := Ideal) V c).arrAt 2 cfg0.N

/-- What the output array ends holding: at (r, q) the sum over k of input (r, k) times weights (k, q). -/
def lin0 (c : Dev nD) : S50000x128.Idx → Elt Ideal .f32 := fun i =>
  ∑ k : Fin 64, xin0 V c (ix2 (i 0) k) * wts0 V c (ix2 k (i 1))

/-- What grid point t writes back is block t of that array: rows 10000·t onwards of the input meet the whole weights. -/
theorem flushed0_eq (c : Dev nD) (t : Fin cfg0.N) :
    (dat0 (F := Ideal) V c).flushed 2 t = ((cfg0.win 2).blk t).view.read (Elt Ideal) (lin0 V c) := by
  show (cfg0.win 2).cut (grid0.coords t) ((dat0 (F := Ideal) V c).after 2 t) = _
  rw [after0_2]
  unfold out0_2
  rw [View.canon_unit_zero hz2]
  simp only [View.ld_unit_zero (S := S10000x64) hz2, View.ld_unit_zero (S := S64x128) hz2]
  obtain ⟨e0, e1, e2, e3, e4, e5⟩ := idx_facts0 t
  funext j
  have ht : t.val < 5 := lt_of_lt_of_eq t.isLt N_0
  have hp : (j 0).val < 10000 := (j 0).isLt
  have hq : (j 1).val < 128 := (j 1).isLt
  have hx : (cfg0.win 2).xinj (grid0.coords t) j = ix2 (⟨(j 0).val, hp⟩ : Fin 10000) (⟨(j 1).val, hq⟩ : Fin 128) :=
    funext fun a => by match a with | ⟨0, _⟩ => rfl | ⟨1, _⟩ => rfl
  have he : ((cfg0.win 2).blk t).view.emb j = ix2 (⟨t.val * 10000 + (j 0).val, by omega⟩ : Fin 50000) (⟨(j 1).val, hq⟩ : Fin 128) :=
    funext fun a => Fin.ext (by
      match a with
      | ⟨0, _⟩ => show win0_2.index t (0 : Fin 2) * 10000 + 1 * (j 0).val = t.val * 10000 + (j 0).val; omega
      | ⟨1, _⟩ => show win0_2.index t (1 : Fin 2) * 128 + 1 * (j 1).val = (j 1).val; omega)
  show k0_pay1 (F := Ideal) (iblk0 V c 0 t) (iblk0 V c 1 t) ((cfg0.win 2).xinj (grid0.coords t) j) = lin0 V c (((cfg0.win 2).blk t).view.emb j)
  rw [hx, he]
  refine (pay0_apply _ _ _ _).trans ?_
  refine Finset.sum_congr rfl fun k _ => ?_
  have a0 : iblk0 V c 0 t (ix2 (⟨(j 0).val, hp⟩ : Fin 10000) k)
      = xin0 V c (ix2 (⟨t.val * 10000 + (j 0).val, by omega⟩ : Fin 50000) k) :=
    congrArg (V c (Pipeline.arrRef spec0 0)) (funext fun a => Fin.ext (by
      match a with
      | ⟨0, _⟩ => show win0_0.index t (0 : Fin 2) * 10000 + 1 * (j 0).val = t.val * 10000 + (j 0).val; omega
      | ⟨1, _⟩ => show win0_0.index t (1 : Fin 2) * 64 + 1 * k.val = k.val; omega))
  have a1 : iblk0 V c 1 t (ix2 k (⟨(j 1).val, hq⟩ : Fin 128))
      = wts0 V c (ix2 k (⟨(j 1).val, hq⟩ : Fin 128)) :=
    congrArg (V c (Pipeline.arrRef spec0 1)) (funext fun a => Fin.ext (by
      match a with
      | ⟨0, _⟩ => show win0_1.index t (0 : Fin 2) * 64 + 1 * k.val = k.val; omega
      | ⟨1, _⟩ => show win0_1.index t (1 : Fin 2) * 128 + 1 * (j 1).val = (j 1).val; omega))
  rw [a0, a1]

/-- An entry of the array is in point t's block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v1).slice (win0_2.rect t)).set ↔ _
  rw [View.set_slice_whole, Rect.mem_set_unit]
  exact Iff.rfl

/-- Every entry is in some point's block: row r is in the block of point r / 10000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  have hb : (i 0).val / 10000 < cfg0.N := by rw [hN]; omega
  obtain ⟨-, -, -, -, e4, e5⟩ := idx_facts0 ⟨(i 0).val / 10000, hb⟩
  refine ⟨⟨(i 0).val / 10000, hb⟩, flush0_2 _, ?_⟩
  rw [mem_blk0]
  intro a
  match a with
  | ⟨0, _⟩ =>
    show win0_2.index ⟨(i 0).val / 10000, hb⟩ (0 : Fin 2) * 10000 ≤ (i 0).val ∧ (i 0).val < win0_2.index ⟨(i 0).val / 10000, hb⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hb⟩ (1 : Fin 2) * 128 ≤ (i 1).val ∧ (i 1).val < win0_2.index ⟨(i 0).val / 10000, hb⟩ (1 : Fin 2) * 128 + 128
    rw [e5]; omega

/-- The output array after the region. -/
theorem final0 (c : Dev nD) : (dat0 (F := Ideal) V c).arrAt 2 cfg0.N = lin0 V c :=
  (dat0 (F := Ideal) V c).arrAt_eq_of_cover 2 (lin0 V c) (fun t _ => flushed0_eq V c t) cover0

/-- The output array after the region, read at an entry. -/
theorem lin0_apply (c : Dev nD) (r : Fin 50000) (q : Fin 128) :
    yout0 V c (ix2 r q) = ∑ k : Fin 64, xin0 V c (ix2 r k) * wts0 V c (ix2 k q) :=
  congrFun (final0 V c) (ix2 r q)

end Cert.KernelIdeal.KV

end
-- ==== Proof.KV.LibCols.lean ====
/-
  Columns of rank-2 arrays read at an entry: two arrays `[a, n₁]` and `[a, n₂]` joined side by side into `[a, n]` read, at
  `(p, q)`, the first at `(p, q)` while `q < n₁` and the second at `(p, q - n₁)` after that; and the one-column slice
  `[a, 1]` of `[a, n]` at column `c` reads, at `(p, 0)`, the array at `(p, c)`.
-/
import Idealize.ShloMosaic.Lib.Pipeline.Value
import Idealize.ShloMosaic.Lib.ValueIdx

namespace Cert.LibCols

open Idealize.ShloMosaic Idealize.ShloMosaic.ValueIdx

variable {α : Type}

/-- Left of the seam, the join reads its first piece at the same entry. -/
theorem concat_cols_left {a n₁ n₂ n : ℕ} (x₁ : (⟨2, ![a, n₁]⟩ : Shape).Idx → α) (x₂ : (⟨2, ![a, n₂]⟩ : Shape).Idx → α)
    (h : Shape.Concatenates [(⟨2, ![a, n₁]⟩ : Shape), ⟨2, ![a, n₂]⟩] ⟨2, ![a, n]⟩ 1) (p : Fin a) (q : Fin n) (hq : q.val < n₁) :
    concatenate ⟨2, ![a, n]⟩ 1 [⟨⟨2, ![a, n₁]⟩, x₁⟩, ⟨⟨2, ![a, n₂]⟩, x₂⟩] h (ix2 p q) = x₁ (ix2 p ⟨q.val, hq⟩) :=
  concatenate_pair_apply_left 1 x₁ x₂ h (ix2 p q) rfl (ix2 p ⟨q.val, hq⟩) fun b => by
    match b with
    | ⟨0, _⟩ => rfl
    | ⟨1, _⟩ => rfl

/-- Right of the seam, the join reads its second piece, the first piece's width less. -/
theorem concat_cols_right {a n₁ n₂ n : ℕ} (x₁ : (⟨2, ![a, n₁]⟩ : Shape).Idx → α) (x₂ : (⟨2, ![a, n₂]⟩ : Shape).Idx → α)
    (h : Shape.Concatenates [(⟨2, ![a, n₁]⟩ : Shape), ⟨2, ![a, n₂]⟩] ⟨2, ![a, n]⟩ 1) (p : Fin a) (q : Fin n) (hq : n₁ ≤ q.val)
    (hq₂ : q.val - n₁ < n₂) :
    concatenate ⟨2, ![a, n]⟩ 1 [⟨⟨2, ![a, n₁]⟩, x₁⟩, ⟨⟨2, ![a, n₂]⟩, x₂⟩] h (ix2 p q) = x₂ (ix2 p ⟨q.val - n₁, hq₂⟩) :=
  concatenate_pair_apply_right 1 x₁ x₂ h (ix2 p q) rfl rfl (ix2 p ⟨q.val - n₁, hq₂⟩)
    (fun b hb => by
      match b with
      | ⟨0, _⟩ => rfl
      | ⟨1, _⟩ => exact absurd rfl hb)
    (by show q.val - n₁ + n₁ = q.val; omega)

/-- The one-column slice at column `c` reads the array at `(p, c)`. -/
theorem slice_col {a n : ℕ} (c : ℕ) (hc : c < n) (y : (⟨2, ![a, n]⟩ : Shape).Idx → α)
    (h : (⟨2, ![a, n]⟩ : Shape).Slices ![0, c] ⟨2, ![a, 1]⟩) (p : Fin a) (u : Fin 1) :
    extractStridedSlice ⟨2, ![a, 1]⟩ ![0, c] y h (ix2 p u) = y (ix2 p ⟨c, hc⟩) :=
  extractStridedSlice_apply _ y h _ _ fun d => by
    match d with
    | ⟨0, _⟩ => show p.val = 0 + p.val; omega
    | ⟨1, _⟩ => show c = c + u.val; omega

end Cert.LibCols
-- ==== Proof.KV.Cols.lean ====
/-
  Rank-2 arrays cut and joined along their columns, and padded with extra columns, read at an entry (r, q):
  * the slice of width m starting at column o reads the array at (r, o + q);
  * three arrays joined side by side read the first, second or third piece according to where q falls;
  * an array padded on the right reads itself left of the seam and the padding value right of it.
-/
import Idealize.ShloMosaic.Lib.Pipeline.Value
import Idealize.ShloMosaic.Lib.KernelVsHost
import Idealize.ShloMosaic.Lib.ValueIdx

noncomputable section

namespace Cert.KernelIdeal.KV

open Idealize.ShloMosaic Idealize.ShloMosaic.ValueIdx

variable {α : Type}

/-- The slice of columns o … o + m - 1 reads the array at the same row, column o + q. -/
theorem slice_cols_apply {a n m : ℕ} (o : ℕ) (y : (⟨2, ![a, n]⟩ : Shape).Idx → α)
    (h : (⟨2, ![a, n]⟩ : Shape).Slices ![0, o] ⟨2, ![a, m]⟩) (r : Fin a) (q : Fin m) (q' : Fin n) (hq : q'.val = o + q.val) :
    extractStridedSlice ⟨2, ![a, m]⟩ ![0, o] y h (ix2 r q) = y (ix2 r q') :=
  extractStridedSlice_apply _ y h _ _ fun d => by
    match d with
    | ⟨0, _⟩ => show r.val = 0 + r.val; omega
    | ⟨1, _⟩ => exact hq

section Three
variable {a n₀ n₁ n₂ m : ℕ} (x₀ : (⟨2, ![a, n₀]⟩ : Shape).Idx → α) (x₁ : (⟨2, ![a, n₁]⟩ : Shape).Idx → α)
  (x₂ : (⟨2, ![a, n₂]⟩ : Shape).Idx → α)
  (h : Shape.Concatenates [(⟨2, ![a, n₀]⟩ : Shape), ⟨2, ![a, n₁]⟩, ⟨2, ![a, n₂]⟩] ⟨2, ![a, m]⟩ 1)

/-- Three arrays side by side, a column inside the first piece. -/
theorem concat3_cols_fst (r : Fin a) (q : Fin m) (q' : Fin n₀) (hq : q'.val = q.val) :
    concatenate ⟨2, ![a, m]⟩ 1 [⟨⟨2, ![a, n₀]⟩, x₀⟩, ⟨⟨2, ![a, n₁]⟩, x₁⟩, ⟨⟨2, ![a, n₂]⟩, x₂⟩] h (ix2 r q) = x₀ (ix2 r q') :=
  concatenate_apply_piece 1 [⟨⟨2, ![a, n₀]⟩, x₀⟩, ⟨⟨2, ![a, n₁]⟩, x₁⟩, ⟨⟨2, ![a, n₂]⟩, x₂⟩] h (ix2 r q) 0 (by simp) _ x₀ rfl rfl 0 rfl (ix2 r q')
    (fun b hb => by
      match b with
      | ⟨0, _⟩ => rfl
      | ⟨1, _⟩ => exact absurd rfl hb)
    (by show 0 + q'.val = q.val; omega)

/-- Three arrays side by side, a column inside the second piece. -/
theorem concat3_cols_snd (r : Fin a) (q : Fin m) (q' : Fin n₁) (hq : n₀ + q'.val = q.val) :
    concatenate ⟨2, ![a, m]⟩ 1 [⟨⟨2, ![a, n₀]⟩, x₀⟩, ⟨⟨2, ![a, n₁]⟩, x₁⟩, ⟨⟨2, ![a, n₂]⟩, x₂⟩] h (ix2 r q) = x₁ (ix2 r q') :=
  concatenate_apply_piece 1 [⟨⟨2, ![a, n₀]⟩, x₀⟩, ⟨⟨2, ![a, n₁]⟩, x₁⟩, ⟨⟨2, ![a, n₂]⟩, x₂⟩] h (ix2 r q) 1 (by simp) _ x₁ rfl rfl n₀ (by simp) (ix2 r q')
    (fun b hb => by
      match b with
      | ⟨0, _⟩ => rfl
      | ⟨1, _⟩ => exact absurd rfl hb)
    hq

/-- Three arrays side by side, a column inside the third piece. -/
theorem concat3_cols_thd (r : Fin a) (q : Fin m) (q' : Fin n₂) (hq : n₀ + n₁ + q'.val = q.val) :
    concatenate ⟨2, ![a, m]⟩ 1 [⟨⟨2, ![a, n₀]⟩, x₀⟩, ⟨⟨2, ![a, n₁]⟩, x₁⟩, ⟨⟨2, ![a, n₂]⟩, x₂⟩] h (ix2 r q) = x₂ (ix2 r q') :=
  concatenate_apply_piece 1 [⟨⟨2, ![a, n₀]⟩, x₀⟩, ⟨⟨2, ![a, n₁]⟩, x₁⟩, ⟨⟨2, ![a, n₂]⟩, x₂⟩] h (ix2 r q) 2 (by simp) _ x₂ rfl rfl (n₀ + n₁) (by simp) (ix2 r q')
    (fun b hb => by
      match b with
      | ⟨0, _⟩ => rfl
      | ⟨1, _⟩ => exact absurd rfl hb)
    hq

end Three

section Pad
variable {a n e m : ℕ} (x : (⟨2, ![a, n]⟩ : Shape).Idx → α) {u : Shape} (v : u.Idx → α)
  (h : (⟨2, ![a, n]⟩ : Shape).Pads ![0, 0] ![0, e] ![0, 0] ⟨2, ![a, m]⟩) (hu : 0 < u.numel)

/-- Columns added on the right: left of the seam the padded array reads the array. -/
theorem pad_cols_inside (r : Fin a) (q : Fin m) (q' : Fin n) (hq : q'.val = q.val) :
    pad ⟨2, ![a, m]⟩ ![0, 0] ![0, e] ![0, 0] x v h hu (ix2 r q) = x (ix2 r q') :=
  pad_apply_of_inside _ _ _ x v h hu (ix2 r q) (ix2 r q') fun d => by
    match d with
    | ⟨0, _⟩ => show r.val = 0 + r.val * (0 + 1); omega
    | ⟨1, _⟩ => show q.val = 0 + q'.val * (0 + 1); omega

/-- Columns added on the right: right of the seam it reads the padding value. -/
theorem pad_cols_outside (r : Fin a) (q : Fin m) (hq : n ≤ q.val) :
    pad ⟨2, ![a, m]⟩ ![0, 0] ![0, e] ![0, 0] x v h hu (ix2 r q) = v (Shape.Idx.first hu) :=
  pad_apply_of_not_inside _ _ _ x v h hu (ix2 r q) 1 (by
    show ¬(0 ≤ q.val ∧ (q.val - 0) % (0 + 1) = 0 ∧ (q.val - 0) / (0 + 1) < n)
    rw [Nat.sub_zero, Nat.zero_add, Nat.div_one]
    omega)

end Pad

end Cert.KernelIdeal.KV

end
-- ==== Proof.KV.Glue.lean ====
/-
  The host operations between the five linear regions, read at an entry, from any contents W of the buffers:
  * the weights a region multiplies by are two or three 64 × 64 arguments joined side by side (three pieces are then
    padded on the right with 64 further columns), so column 64·i + q of the joined array is column q of piece i;
  * each product a later stage uses is a 64-column slice of a region's output, so its column q is the output's
    column 64·i + q.
-/
import proofs.«140264_j78443282694634_2_alg».proof.Proof.Gen.KernelIdeal.Launch
import proofs.«140264_j78443282694634_2_alg».proof.Proof.KV.LibCols
import proofs.«140264_j78443282694634_2_alg».proof.Proof.KV.Cols
import Idealize.ShloMosaic.Lib.StableHlo.Run
import Idealize.ShloMosaic.Lib.ValueIdx

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx Idealize.ShloMosaic.StableHlo

/-- A join of three literal operands leaves, at its result, its function of the three operands' contents, each at its
    own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

variable (W : Valuation τ sig (Elt Ideal))

/-! ## `main_v0`: two pieces side by side -/

theorem v0_eq : StableHlo.after (main_part0_ops0 (F := Ideal)) W (Proc.devRef .tc main_v0)
    = concatenate S64x128 1 [⟨S64x64, W (Proc.devRef .tc main_arg25)⟩, ⟨S64x64, W (Proc.devRef .tc main_arg48)⟩] concatenates_S64x64_S64x64_S64x128_d1 := by
  after_results
  try rfl

/-- Column q of the join is column q of the first piece, -/
theorem v0_left (k q : Fin 64) :
    (StableHlo.after (main_part0_ops0 (F := Ideal)) W (Proc.devRef .tc main_v0) : S64x128.Idx → Elt Ideal .f32) (ix2 k (⟨q.val, by omega⟩ : Fin 128))
      = (W (Proc.devRef .tc main_arg25) : S64x64.Idx → Elt Ideal .f32) (ix2 k q) :=
  (congrFun (v0_eq W) _).trans (Cert.LibCols.concat_cols_left _ _ _ k (⟨q.val, by omega⟩ : Fin 128) q.isLt)

/-- and column 64 + q is column q of the second. -/
theorem v0_right (k q : Fin 64) :
    (StableHlo.after (main_part0_ops0 (F := Ideal)) W (Proc.devRef .tc main_v0) : S64x128.Idx → Elt Ideal .f32) (ix2 k (⟨64 + q.val, by omega⟩ : Fin 128))
      = (W (Proc.devRef .tc main_arg48) : S64x64.Idx → Elt Ideal .f32) (ix2 k q) :=
  (congrFun (v0_eq W) _).trans ((Cert.LibCols.concat_cols_right _ _ _ k (⟨64 + q.val, by omega⟩ : Fin 128) (by show 64 ≤ 64 + q.val; omega) (by show 64 + q.val - 64 < 64; omega)).trans
    (congrArg (W (Proc.devRef .tc main_arg48)) (funext fun d => Fin.ext (by
      match d with
      | ⟨0, _⟩ => rfl
      | ⟨1, _⟩ => show 64 + q.val - 64 = q.val; omega))))

/-! ## After region 0 -/

/-- `main_v2` is columns 0 … 63 of `main_v1`. -/
theorem v2_apply (r : Fin 50000) (q : Fin 64) :
    (StableHlo.after (main_part0_ops1 (F := Ideal)) W (Proc.devRef .tc main_v2) : S50000x64.Idx → Elt Ideal .f32) (ix2 r q)
      = (W (Proc.devRef .tc main_v1) : S50000x128.Idx → Elt Ideal .f32) (ix2 r (⟨q.val, by omega⟩ : Fin 128)) := by
  have e : StableHlo.after (main_part0_ops1 (F := Ideal)) W (Proc.devRef .tc main_v2)
      = extractStridedSlice S50000x64 ![0, 0] (W (Proc.devRef .tc main_v1)) slices_S50000x128_S50000x64_0_0 := by
    after_results
    try rfl
  exact (congrFun e _).trans (slice_cols_apply 0 _ _ r q _ (by show q.val = 0 + q.val; omega))

/-- `main_v3` is columns 64 … 127 of `main_v1`. -/
theorem v3_apply (r : Fin 50000) (q : Fin 64) :
    (StableHlo.after (main_part0_ops1 (F := Ideal)) W (Proc.devRef .tc main_v3) : S50000x64.Idx → Elt Ideal .f32) (ix2 r q)
      = (W (Proc.devRef .tc main_v1) : S50000x128.Idx → Elt Ideal .f32) (ix2 r (⟨64 + q.val, by omega⟩ : Fin 128)) := by
  have e : StableHlo.after (main_part0_ops1 (F := Ideal)) W (Proc.devRef .tc main_v3)
      = extractStridedSlice S50000x64 ![0, 64] (W (Proc.devRef .tc main_v1)) slices_S50000x128_S50000x64_0_64 := by
    after_results
    try rfl
  exact (congrFun e _).trans (slice_cols_apply 64 _ _ r q _ (by rfl))

/-! ## `main_v4`: three pieces side by side -/

theorem v4_eq : StableHlo.after (main_part0_ops1 (F := Ideal)) W (Proc.devRef .tc main_v4)
    = concatenate S64x192 1 [⟨S64x64, W (Proc.devRef .tc main_arg26)⟩, ⟨S64x64, W (Proc.devRef .tc main_arg47)⟩, ⟨S64x64, W (Proc.devRef .tc main_arg50)⟩] concatenates_S64x64_S64x64_S64x64_S64x192_d1 := by
  simp only [StableHlo.after_cons, StableHlo.after_nil]
  rw [StableHlo.nullary_result_ne]; rotate_left; decide
  rw [nary3_result]
  repeat (rw [StableHlo.unary_result_ne]; rotate_left; decide)
  rfl

/-- Column q of the join is column q of the first piece, -/
theorem v4_fst (k q : Fin 64) :
    (StableHlo.after (main_part0_ops1 (F := Ideal)) W (Proc.devRef .tc main_v4) : S64x192.Idx → Elt Ideal .f32) (ix2 k (⟨q.val, by omega⟩ : Fin 192))
      = (W (Proc.devRef .tc main_arg26) : S64x64.Idx → Elt Ideal .f32) (ix2 k q) :=
  (congrFun (v4_eq W) _).trans (concat3_cols_fst _ _ _ _ k (⟨q.val, by omega⟩ : Fin 192) q rfl)

/-- column 64 + q is column q of the second, -/
theorem v4_snd (k q : Fin 64) :
    (StableHlo.after (main_part0_ops1 (F := Ideal)) W (Proc.devRef .tc main_v4) : S64x192.Idx → Elt Ideal .f32) (ix2 k (⟨64 + q.val, by omega⟩ : Fin 192))
      = (W (Proc.devRef .tc main_arg47) : S64x64.Idx → Elt Ideal .f32) (ix2 k q) :=
  (congrFun (v4_eq W) _).trans (concat3_cols_snd _ _ _ _ k (⟨64 + q.val, by omega⟩ : Fin 192) q rfl)

/-- and column 128 + q is column q of the third. -/
theorem v4_thd (k q : Fin 64) :
    (StableHlo.after (main_part0_ops1 (F := Ideal)) W (Proc.devRef .tc main_v4) : S64x192.Idx → Elt Ideal .f32) (ix2 k (⟨128 + q.val, by omega⟩ : Fin 192))
      = (W (Proc.devRef .tc main_arg50) : S64x64.Idx → Elt Ideal .f32) (ix2 k q) :=
  (congrFun (v4_eq W) _).trans (concat3_cols_thd _ _ _ _ k (⟨128 + q.val, by omega⟩ : Fin 192) q (by show 64 + 64 + q.val = 128 + q.val; omega))

/-! ## `main_v5`: `main_v4` with 64 further columns on the right -/

theorem v5_eq : StableHlo.after (main_part0_ops2 (F := Ideal)) W (Proc.devRef .tc main_v5)
    = pad S64x256 ![0, 0] ![0, 64] ![0, 0] (W (Proc.devRef .tc main_v4)) (sitofp (F := Ideal) .f32 (W (Proc.devRef .tc main_c))) pads_S64x192_S64x256_000_0640 h_S_ := by
  after_results
  try rfl

/-- Left of the seam the padded array is the array. -/
theorem v5_inside (k : Fin 64) (q : Fin 192) :
    (StableHlo.after (main_part0_ops2 (F := Ideal)) W (Proc.devRef .tc main_v5) : S64x256.Idx → Elt Ideal .f32) (ix2 k (⟨q.val, by omega⟩ : Fin 256))
      = (W (Proc.devRef .tc main_v4) : S64x192.Idx → Elt Ideal .f32) (ix2 k q) :=
  (congrFun (v5_eq W) _).trans (pad_cols_inside _ _ _ _ k (⟨q.val, by omega⟩ : Fin 256) q rfl)

/-! ## After region 1 -/

/-- `main_v7` is columns 0 … 63 of `main_v6`. -/
theorem v7_apply (r : Fin 150000) (q : Fin 64) :
    (StableHlo.after (main_part0_ops3 (F := Ideal)) W (Proc.devRef .tc main_v7) : S150000x64.Idx → Elt Ideal .f32) (ix2 r q)
      = (W (Proc.devRef .tc main_v6) : S150000x256.Idx → Elt Ideal .f32) (ix2 r (⟨q.val, by omega⟩ : Fin 256)) := by
  have e : StableHlo.after (main_part0_ops3 (F := Ideal)) W (Proc.devRef .tc main_v7)
      = extractStridedSlice S150000x64 ![0, 0] (W (Proc.devRef .tc main_v6)) slices_S150000x256_S150000x64_0_0 := by
    after_results
    try rfl
  exact (congrFun e _).trans (slice_cols_apply 0 _ _ r q _ (by show q.val = 0 + q.val; omega))

/-- `main_v8` is columns 64 … 127 of `main_v6`. -/
theorem v8_apply (r : Fin 150000) (q : Fin 64) :
    (StableHlo.after (main_part0_ops3 (F := Ideal)) W (Proc.devRef .tc main_v8) : S150000x64.Idx → Elt Ideal .f32) (ix2 r q)
      = (W (Proc.devRef .tc main_v6) : S150000x256.Idx → Elt Ideal .f32) (ix2 r (⟨64 + q.val, by omega⟩ : Fin 256)) := by
  have e : StableHlo.after (main_part0_ops3 (F := Ideal)) W (Proc.devRef .tc main_v8)
      = extractStridedSlice S150000x64 ![0, 64] (W (Proc.devRef .tc main_v6)) slices_S150000x256_S150000x64_0_64 := by
    after_results
    try rfl
  exact (congrFun e _).trans (slice_cols_apply 64 _ _ r q _ (by rfl))

/-- `main_v9` is columns 128 … 191 of `main_v6`. -/
theorem v9_apply (r : Fin 150000) (q : Fin 64) :
    (StableHlo.after (main_part0_ops3 (F := Ideal)) W (Proc.devRef .tc main_v9) : S150000x64.Idx → Elt Ideal .f32) (ix2 r q)
      = (W (Proc.devRef .tc main_v6) : S150000x256.Idx → Elt Ideal .f32) (ix2 r (⟨128 + q.val, by omega⟩ : Fin 256)) := by
  have e : StableHlo.after (main_part0_ops3 (F := Ideal)) W (Proc.devRef .tc main_v9)
      = extractStridedSlice S150000x64 ![0, 128] (W (Proc.devRef .tc main_v6)) slices_S150000x256_S150000x64_0_128 := by
    after_results
    try rfl
  exact (congrFun e _).trans (slice_cols_apply 128 _ _ r q _ (by rfl))

/-! ## `main_v10`: three pieces side by side -/

theorem v10_eq : StableHlo.after (main_part0_ops3 (F := Ideal)) W (Proc.devRef .tc main_v10)
    = concatenate S64x192 1 [⟨S64x64, W (Proc.devRef .tc main_arg27)⟩, ⟨S64x64, W (Proc.devRef .tc main_arg49)⟩, ⟨S64x64, W (Proc.devRef .tc main_arg52)⟩] concatenates_S64x64_S64x64_S64x64_S64x192_d1 := by
  simp only [StableHlo.after_cons, StableHlo.after_nil]
  rw [StableHlo.nullary_result_ne]; rotate_left; decide
  rw [nary3_result]
  repeat (rw [StableHlo.unary_result_ne]; rotate_left; decide)
  rfl

/-- Column q of the join is column q of the first piece, -/
theorem v10_fst (k q : Fin 64) :
    (StableHlo.after (main_part0_ops3 (F := Ideal)) W (Proc.devRef .tc main_v10) : S64x192.Idx → Elt Ideal .f32) (ix2 k (⟨q.val, by omega⟩ : Fin 192))
      = (W (Proc.devRef .tc main_arg27) : S64x64.Idx → Elt Ideal .f32) (ix2 k q) :=
  (congrFun (v10_eq W) _).trans (concat3_cols_fst _ _ _ _ k (⟨q.val, by omega⟩ : Fin 192) q rfl)

/-- column 64 + q is column q of the second, -/
theorem v10_snd (k q : Fin 64) :
    (StableHlo.after (main_part0_ops3 (F := Ideal)) W (Proc.devRef .tc main_v10) : S64x192.Idx → Elt Ideal .f32) (ix2 k (⟨64 + q.val, by omega⟩ : Fin 192))
      = (W (Proc.devRef .tc main_arg49) : S64x64.Idx → Elt Ideal .f32) (ix2 k q) :=
  (congrFun (v10_eq W) _).trans (concat3_cols_snd _ _ _ _ k (⟨64 + q.val, by omega⟩ : Fin 192) q rfl)

/-- and column 128 + q is column q of the third. -/
theorem v10_thd (k q : Fin 64) :
    (StableHlo.after (main_part0_ops3 (F := Ideal)) W (Proc.devRef .tc main_v10) : S64x192.Idx → Elt Ideal .f32) (ix2 k (⟨128 + q.val, by omega⟩ : Fin 192))
      = (W (Proc.devRef .tc main_arg52) : S64x64.Idx → Elt Ideal .f32) (ix2 k q) :=
  (congrFun (v10_eq W) _).trans (concat3_cols_thd _ _ _ _ k (⟨128 + q.val, by omega⟩ : Fin 192) q (by show 64 + 64 + q.val = 128 + q.val; omega))

/-! ## `main_v11`: `main_v10` with 64 further columns on the right -/

theorem v11_eq : StableHlo.after (main_part0_ops4 (F := Ideal)) W (Proc.devRef .tc main_v11)
    = pad S64x256 ![0, 0] ![0, 64] ![0, 0] (W (Proc.devRef .tc main_v10)) (sitofp (F := Ideal) .f32 (W (Proc.devRef .tc main_c_0))) pads_S64x192_S64x256_000_0640 h_S_ := by
  after_results
  try rfl

/-- Left of the seam the padded array is the array. -/
theorem v11_inside (k : Fin 64) (q : Fin 192) :
    (StableHlo.after (main_part0_ops4 (F := Ideal)) W (Proc.devRef .tc main_v11) : S64x256.Idx → Elt Ideal .f32) (ix2 k (⟨q.val, by omega⟩ : Fin 256))
      = (W (Proc.devRef .tc main_v10) : S64x192.Idx → Elt Ideal .f32) (ix2 k q) :=
  (congrFun (v11_eq W) _).trans (pad_cols_inside _ _ _ _ k (⟨q.val, by omega⟩ : Fin 256) q rfl)

/-! ## After region 2 -/

/-- `main_v13` is columns 0 … 63 of `main_v12`. -/
theorem v13_apply (r : Fin 100000) (q : Fin 64) :
    (StableHlo.after (main_part0_ops5 (F := Ideal)) W (Proc.devRef .tc main_v13) : S100000x64.Idx → Elt Ideal .f32) (ix2 r q)
      = (W (Proc.devRef .tc main_v12) : S100000x256.Idx → Elt Ideal .f32) (ix2 r (⟨q.val, by omega⟩ : Fin 256)) := by
  have e : StableHlo.after (main_part0_ops5 (F := Ideal)) W (Proc.devRef .tc main_v13)
      = extractStridedSlice S100000x64 ![0, 0] (W (Proc.devRef .tc main_v12)) slices_S100000x256_S100000x64_0_0 := by
    after_results
    try rfl
  exact (congrFun e _).trans (slice_cols_apply 0 _ _ r q _ (by show q.val = 0 + q.val; omega))

/-- `main_v14` is columns 64 … 127 of `main_v12`. -/
theorem v14_apply (r : Fin 100000) (q : Fin 64) :
    (StableHlo.after (main_part0_ops5 (F := Ideal)) W (Proc.devRef .tc main_v14) : S100000x64.Idx → Elt Ideal .f32) (ix2 r q)
      = (W (Proc.devRef .tc main_v12) : S100000x256.Idx → Elt Ideal .f32) (ix2 r (⟨64 + q.val, by omega⟩ : Fin 256)) := by
  have e : StableHlo.after (main_part0_ops5 (F := Ideal)) W (Proc.devRef .tc main_v14)
      = extractStridedSlice S100000x64 ![0, 64] (W (Proc.devRef .tc main_v12)) slices_S100000x256_S100000x64_0_64 := by
    after_results
    try rfl
  exact (congrFun e _).trans (slice_cols_apply 64 _ _ r q _ (by rfl))

/-- `main_v15` is columns 128 … 191 of `main_v12`. -/
theorem v15_apply (r : Fin 100000) (q : Fin 64) :
    (StableHlo.after (main_part0_ops5 (F := Ideal)) W (Proc.devRef .tc main_v15) : S100000x64.Idx → Elt Ideal .f32) (ix2 r q)
      = (W (Proc.devRef .tc main_v12) : S100000x256.Idx → Elt Ideal .f32) (ix2 r (⟨128 + q.val, by omega⟩ : Fin 256)) := by
  have e : StableHlo.after (main_part0_ops5 (F := Ideal)) W (Proc.devRef .tc main_v15)
      = extractStridedSlice S100000x64 ![0, 128] (W (Proc.devRef .tc main_v12)) slices_S100000x256_S100000x64_0_128 := by
    after_results
    try rfl
  exact (congrFun e _).trans (slice_cols_apply 128 _ _ r q _ (by rfl))

/-! ## `main_v16`: three pieces side by side -/

theorem v16_eq : StableHlo.after (main_part0_ops5 (F := Ideal)) W (Proc.devRef .tc main_v16)
    = concatenate S64x192 1 [⟨S64x64, W (Proc.devRef .tc main_arg28)⟩, ⟨S64x64, W (Proc.devRef .tc main_arg51)⟩, ⟨S64x64, W (Proc.devRef .tc main_arg54)⟩] concatenates_S64x64_S64x64_S64x64_S64x192_d1 := by
  simp only [StableHlo.after_cons, StableHlo.after_nil]
  rw [StableHlo.nullary_result_ne]; rotate_left; decide
  rw [nary3_result]
  repeat (rw [StableHlo.unary_result_ne]; rotate_left; decide)
  rfl

/-- Column q of the join is column q of the first piece, -/
theorem v16_fst (k q : Fin 64) :
    (StableHlo.after (main_part0_ops5 (F := Ideal)) W (Proc.devRef .tc main_v16) : S64x192.Idx → Elt Ideal .f32) (ix2 k (⟨q.val, by omega⟩ : Fin 192))
      = (W (Proc.devRef .tc main_arg28) : S64x64.Idx → Elt Ideal .f32) (ix2 k q) :=
  (congrFun (v16_eq W) _).trans (concat3_cols_fst _ _ _ _ k (⟨q.val, by omega⟩ : Fin 192) q rfl)

/-- column 64 + q is column q of the second, -/
theorem v16_snd (k q : Fin 64) :
    (StableHlo.after (main_part0_ops5 (F := Ideal)) W (Proc.devRef .tc main_v16) : S64x192.Idx → Elt Ideal .f32) (ix2 k (⟨64 + q.val, by omega⟩ : Fin 192))
      = (W (Proc.devRef .tc main_arg51) : S64x64.Idx → Elt Ideal .f32) (ix2 k q) :=
  (congrFun (v16_eq W) _).trans (concat3_cols_snd _ _ _ _ k (⟨64 + q.val, by omega⟩ : Fin 192) q rfl)

/-- and column 128 + q is column q of the third. -/
theorem v16_thd (k q : Fin 64) :
    (StableHlo.after (main_part0_ops5 (F := Ideal)) W (Proc.devRef .tc main_v16) : S64x192.Idx → Elt Ideal .f32) (ix2 k (⟨128 + q.val, by omega⟩ : Fin 192))
      = (W (Proc.devRef .tc main_arg54) : S64x64.Idx → Elt Ideal .f32) (ix2 k q) :=
  (congrFun (v16_eq W) _).trans (concat3_cols_thd _ _ _ _ k (⟨128 + q.val, by omega⟩ : Fin 192) q (by show 64 + 64 + q.val = 128 + q.val; omega))

/-! ## `main_v17`: `main_v16` with 64 further columns on the right -/

theorem v17_eq : StableHlo.after (main_part0_ops6 (F := Ideal)) W (Proc.devRef .tc main_v17)
    = pad S64x256 ![0, 0] ![0, 64] ![0, 0] (W (Proc.devRef .tc main_v16)) (sitofp (F := Ideal) .f32 (W (Proc.devRef .tc main_c_1))) pads_S64x192_S64x256_000_0640 h_S_ := by
  after_results
  try rfl

/-- Left of the seam the padded array is the array. -/
theorem v17_inside (k : Fin 64) (q : Fin 192) :
    (StableHlo.after (main_part0_ops6 (F := Ideal)) W (Proc.devRef .tc main_v17) : S64x256.Idx → Elt Ideal .f32) (ix2 k (⟨q.val, by omega⟩ : Fin 256))
      = (W (Proc.devRef .tc main_v16) : S64x192.Idx → Elt Ideal .f32) (ix2 k q) :=
  (congrFun (v17_eq W) _).trans (pad_cols_inside _ _ _ _ k (⟨q.val, by omega⟩ : Fin 256) q rfl)

/-! ## After region 3 -/

/-- `main_v19` is columns 0 … 63 of `main_v18`. -/
theorem v19_apply (r : Fin 40000) (q : Fin 64) :
    (StableHlo.after (main_part0_ops7 (F := Ideal)) W (Proc.devRef .tc main_v19) : S40000x64.Idx → Elt Ideal .f32) (ix2 r q)
      = (W (Proc.devRef .tc main_v18) : S40000x256.Idx → Elt Ideal .f32) (ix2 r (⟨q.val, by omega⟩ : Fin 256)) := by
  have e : StableHlo.after (main_part0_ops7 (F := Ideal)) W (Proc.devRef .tc main_v19)
      = extractStridedSlice S40000x64 ![0, 0] (W (Proc.devRef .tc main_v18)) slices_S40000x256_S40000x64_0_0 := by
    after_results
    try rfl
  exact (congrFun e _).trans (slice_cols_apply 0 _ _ r q _ (by show q.val = 0 + q.val; omega))

/-- `main_v20` is columns 64 … 127 of `main_v18`. -/
theorem v20_apply (r : Fin 40000) (q : Fin 64) :
    (StableHlo.after (main_part0_ops7 (F := Ideal)) W (Proc.devRef .tc main_v20) : S40000x64.Idx → Elt Ideal .f32) (ix2 r q)
      = (W (Proc.devRef .tc main_v18) : S40000x256.Idx → Elt Ideal .f32) (ix2 r (⟨64 + q.val, by omega⟩ : Fin 256)) := by
  have e : StableHlo.after (main_part0_ops7 (F := Ideal)) W (Proc.devRef .tc main_v20)
      = extractStridedSlice S40000x64 ![0, 64] (W (Proc.devRef .tc main_v18)) slices_S40000x256_S40000x64_0_64 := by
    after_results
    try rfl
  exact (congrFun e _).trans (slice_cols_apply 64 _ _ r q _ (by rfl))

/-- `main_v21` is columns 128 … 191 of `main_v18`. -/
theorem v21_apply (r : Fin 40000) (q : Fin 64) :
    (StableHlo.after (main_part0_ops7 (F := Ideal)) W (Proc.devRef .tc main_v21) : S40000x64.Idx → Elt Ideal .f32) (ix2 r q)
      = (W (Proc.devRef .tc main_v18) : S40000x256.Idx → Elt Ideal .f32) (ix2 r (⟨128 + q.val, by omega⟩ : Fin 256)) := by
  have e : StableHlo.after (main_part0_ops7 (F := Ideal)) W (Proc.devRef .tc main_v21)
      = extractStridedSlice S40000x64 ![0, 128] (W (Proc.devRef .tc main_v18)) slices_S40000x256_S40000x64_0_128 := by
    after_results
    try rfl
  exact (congrFun e _).trans (slice_cols_apply 128 _ _ r q _ (by rfl))

/-! ## `main_v22`: two pieces side by side -/

theorem v22_eq : StableHlo.after (main_part0_ops7 (F := Ideal)) W (Proc.devRef .tc main_v22)
    = concatenate S64x128 1 [⟨S64x64, W (Proc.devRef .tc main_arg29)⟩, ⟨S64x64, W (Proc.devRef .tc main_arg53)⟩] concatenates_S64x64_S64x64_S64x128_d1 := by
  after_results
  try rfl

/-- Column q of the join is column q of the first piece, -/
theorem v22_left (k q : Fin 64) :
    (StableHlo.after (main_part0_ops7 (F := Ideal)) W (Proc.devRef .tc main_v22) : S64x128.Idx → Elt Ideal .f32) (ix2 k (⟨q.val, by omega⟩ : Fin 128))
      = (W (Proc.devRef .tc main_arg29) : S64x64.Idx → Elt Ideal .f32) (ix2 k q) :=
  (congrFun (v22_eq W) _).trans (Cert.LibCols.concat_cols_left _ _ _ k (⟨q.val, by omega⟩ : Fin 128) q.isLt)

/-- and column 64 + q is column q of the second. -/
theorem v22_right (k q : Fin 64) :
    (StableHlo.after (main_part0_ops7 (F := Ideal)) W (Proc.devRef .tc main_v22) : S64x128.Idx → Elt Ideal .f32) (ix2 k (⟨64 + q.val, by omega⟩ : Fin 128))
      = (W (Proc.devRef .tc main_arg53) : S64x64.Idx → Elt Ideal .f32) (ix2 k q) :=
  (congrFun (v22_eq W) _).trans ((Cert.LibCols.concat_cols_right _ _ _ k (⟨64 + q.val, by omega⟩ : Fin 128) (by show 64 ≤ 64 + q.val; omega) (by show 64 + q.val - 64 < 64; omega)).trans
    (congrArg (W (Proc.devRef .tc main_arg53)) (funext fun d => Fin.ext (by
      match d with
      | ⟨0, _⟩ => rfl
      | ⟨1, _⟩ => show 64 + q.val - 64 = q.val; omega))))

end Cert.KernelIdeal.KV

end
-- ==== Proof.KV.Dense0.lean ====
/-
  The dense products of region 0, as arrays at the boundary after the five linear regions: each 64-column slice of
  the region's output is, entry by entry, the sum over k of (input row entry) · (weight entry) of the launch contents,
  the weight being the piece of the joined weights that the slice's columns meet. That is the reference's dense stage.
-/
import proofs.«140264_j78443282694634_2_alg».proof.Proof.KI.Fold
import proofs.«140264_j78443282694634_2_alg».proof.Proof.Ref.Dense
import proofs.«140264_j78443282694634_2_alg».proof.Proof.KV.Lin0
import proofs.«140264_j78443282694634_2_alg».proof.Proof.KV.Glue

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- Product 1: columns 0 … 63 of region 0's output are the rows of `main_arg0` times `main_arg25`. -/
theorem dense_1 (c : Dev nD) :
    W13 m ρ c (Proc.devRef .tc main_v2)
      = Cert.ReferenceIdeal.ReadP.val_main_v0 (F := Ideal) (m ((c : Thread nD τ).loc main_arg0)) (m ((c : Thread nD τ).loc main_arg25)) := by
  refine funext fun (i : S50000x64.Idx) => ?_
  obtain ⟨p, q, rfl⟩ : ∃ (p : Fin 50000) (q : Fin 64), i = ix2 p q := ⟨i 0, i 1, eq_ix2 i⟩
  refine Eq.trans ?_ (Cert.Proof.Ref.val_v0_ix _ _ p q).symm
  have hk : W13 m ρ c (Proc.devRef .tc main_v2) = W3 m ρ c (Proc.devRef .tc main_v2) :=
    ((keep13 m ρ c main_v2 (by decide)).trans ((keep12 m ρ c main_v2 (by decide)).trans ((keep11 m ρ c main_v2 (by decide)).trans ((keep10 m ρ c main_v2 (by decide)).trans ((keep9 m ρ c main_v2 (by decide)).trans ((keep8 m ρ c main_v2 (by decide)).trans ((keep7 m ρ c main_v2 (by decide)).trans ((keep6 m ρ c main_v2 (by decide)).trans ((keep5 m ρ c main_v2 (by decide)).trans (keep4 m ρ c main_v2 (by decide)))))))))))
  refine (congrFun hk (ix2 p q)).trans ?_
  refine (v2_apply (W2 m ρ c) p q).trans ?_
  refine (congrFun (W2_arr m ρ c 2) (ix2 p (⟨q.val, by omega⟩ : Fin 128))).trans ?_
  refine (lin0_apply (V1 m ρ) c p (⟨q.val, by omega⟩ : Fin 128)).trans ?_
  refine Finset.sum_congr rfl fun k _ => ?_
  have ea : xin0 (V1 m ρ) c (ix2 p k) = m ((c : Thread nD τ).loc main_arg0) (ix2 p k) :=
    congrFun (W1_unwritten m ρ c main_arg0 (by decide)) (ix2 p k)
  have eb : wts0 (V1 m ρ) c (ix2 k (⟨q.val, by omega⟩ : Fin 128)) = m ((c : Thread nD τ).loc main_arg25) (ix2 k q) :=
    (v0_left (W0 m ρ c) k q).trans (congrFun (W0_unwritten m ρ c main_arg25 (by decide)) (ix2 k q))
  exact congrArg₂ (fun a b : Elt Ideal .f32 => a * b) ea eb

/-- Product 7: columns 64 … 127 of region 0's output are the rows of `main_arg0` times `main_arg48`. -/
theorem dense_7 (c : Dev nD) :
    W13 m ρ c (Proc.devRef .tc main_v3)
      = Cert.ReferenceIdeal.ReadP.val_main_v95 (F := Ideal) (m ((c : Thread nD τ).loc main_arg0)) (m ((c : Thread nD τ).loc main_arg48)) := by
  refine funext fun (i : S50000x64.Idx) => ?_
  obtain ⟨p, q, rfl⟩ : ∃ (p : Fin 50000) (q : Fin 64), i = ix2 p q := ⟨i 0, i 1, eq_ix2 i⟩
  refine Eq.trans ?_ (Cert.Proof.Ref.val_v95_ix _ _ p q).symm
  have hk : W13 m ρ c (Proc.devRef .tc main_v3) = W3 m ρ c (Proc.devRef .tc main_v3) :=
    ((keep13 m ρ c main_v3 (by decide)).trans ((keep12 m ρ c main_v3 (by decide)).trans ((keep11 m ρ c main_v3 (by decide)).trans ((keep10 m ρ c main_v3 (by decide)).trans ((keep9 m ρ c main_v3 (by decide)).trans ((keep8 m ρ c main_v3 (by decide)).trans ((keep7 m ρ c main_v3 (by decide)).trans ((keep6 m ρ c main_v3 (by decide)).trans ((keep5 m ρ c main_v3 (by decide)).trans (keep4 m ρ c main_v3 (by decide)))))))))))
  refine (congrFun hk (ix2 p q)).trans ?_
  refine (v3_apply (W2 m ρ c) p q).trans ?_
  refine (congrFun (W2_arr m ρ c 2) (ix2 p (⟨64 + q.val, by omega⟩ : Fin 128))).trans ?_
  refine (lin0_apply (V1 m ρ) c p (⟨64 + q.val, by omega⟩ : Fin 128)).trans ?_
  refine Finset.sum_congr rfl fun k _ => ?_
  have ea : xin0 (V1 m ρ) c (ix2 p k) = m ((c : Thread nD τ).loc main_arg0) (ix2 p k) :=
    congrFun (W1_unwritten m ρ c main_arg0 (by decide)) (ix2 p k)
  have eb : wts0 (V1 m ρ) c (ix2 k (⟨64 + q.val, by omega⟩ : Fin 128)) = m ((c : Thread nD τ).loc main_arg48) (ix2 k q) :=
    (v0_right (W0 m ρ c) k q).trans (congrFun (W0_unwritten m ρ c main_arg48 (by decide)) (ix2 k q))
  exact congrArg₂ (fun a b : Elt Ideal .f32 => a * b) ea eb

end Cert.KernelIdeal.KV

end
-- ==== Proof.KV.Lin1.lean ====
/-
  Region 1: the rows of input 1 times the column-joined weights. The body multiplies the row block by the whole
  weight array into a zero accumulator, so the output block at a grid point is, entry by entry, the sum over the 64
  shared coordinates of (input row entry) · (weight column entry); grid point t writes rows 10000·t … 10000·t + 9999,
  the points together cover every row, and so the output array after the region holds that sum at every entry.
-/
import proofs.«140264_j78443282694634_2_alg».proof.Proof.KI.R1
import proofs.«140264_j78443282694634_2_alg».proof.Proof.KV.LibMatmul
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

theorem hz2_1 : (![0, 0] : Fin 2 → Nat) = fun _ => 0 := funext fun a => by fin_cases a <;> rfl

/-! ## The product's dimension numbers: which operand entries meet at a contraction index -/

theorem d1_l0 (j : S10000x256.Idx) (q : dot_S10000x64_S64x256_S10000x256_1_0_0_1_n_n.contr.Idx) :
    (dot_S10000x64_S64x256_S10000x256_1_0_0_1_n_n.lhsIdx j q 0).val = (j 0).val := by
  unfold DotDims.lhsIdx
  rw [dif_neg (show ¬(0 : Fin S10000x64.rank) ∈ dot_S10000x64_S64x256_S10000x256_1_0_0_1_n_n.lhsBatch by decide), dif_pos (show (0 : Fin S10000x64.rank) ∈ dot_S10000x64_S64x256_S10000x256_1_0_0_1_n_n.lhsNonContracting by decide)]
  rfl
theorem d1_l1 (j : S10000x256.Idx) (q : dot_S10000x64_S64x256_S10000x256_1_0_0_1_n_n.contr.Idx) :
    (dot_S10000x64_S64x256_S10000x256_1_0_0_1_n_n.lhsIdx j q 1).val = (q ⟨0, by decide⟩).val :=
  dot_S10000x64_S64x256_S10000x256_1_0_0_1_n_n.lhsIdx_val_of_single rfl j q
theorem d1_r0 (j : S10000x256.Idx) (q : dot_S10000x64_S64x256_S10000x256_1_0_0_1_n_n.contr.Idx) :
    (dot_S10000x64_S64x256_S10000x256_1_0_0_1_n_n.rhsIdx j q 0).val = (q ⟨0, by decide⟩).val :=
  dot_S10000x64_S64x256_S10000x256_1_0_0_1_n_n.rhsIdx_val_of_single rfl j q
theorem d1_r1 (j : S10000x256.Idx) (q : dot_S10000x64_S64x256_S10000x256_1_0_0_1_n_n.contr.Idx) :
    (dot_S10000x64_S64x256_S10000x256_1_0_0_1_n_n.rhsIdx j q 1).val = (j 1).val := by
  unfold DotDims.rhsIdx
  rw [dif_neg (show ¬(1 : Fin S64x256.rank) ∈ dot_S10000x64_S64x256_S10000x256_1_0_0_1_n_n.rhsBatch by decide), dif_pos (show (1 : Fin S64x256.rank) ∈ dot_S10000x64_S64x256_S10000x256_1_0_0_1_n_n.rhsNonContracting by decide)]
  rfl

/-- The body's value at an entry of the block: the sum over the shared coordinate of row entry times column entry. -/
theorem pay1_apply (x0 : Vec Ideal S10000x64 .f32) (x1 : Vec Ideal S64x256 .f32) (p : Fin 10000) (q : Fin 256) :
    k1_pay1 (F := Ideal) x0 x1 (ix2 p q) = ∑ k : Fin 64, x0 (ix2 p k) * x1 (ix2 k q) := by
  unfold k1_pay1
  simp only [shapeCast_self]
  exact Cert.LibMatmul.matmul_zero_ix2 dot_S10000x64_S64x256_S10000x256_1_0_0_1_n_n none rfl rfl d1_l0 d1_l1 d1_r0 d1_r1 x0 x1 (ix2 p q)

variable (V : (c : Dev nD) → (b : Ref sig .tc) → Buf (Elt Ideal) ((c : Thread nD τ).loc b))

/-! ## From blocks to the array -/

/-- The index maps over the grid: the row-blocked windows sit at block (t, 0), the weights at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input array, the weight array, as the region finds them, -/
abbrev xin1 (c : Dev nD) : S150000x64.Idx → Elt Ideal .f32 := V c (Pipeline.arrRef spec1 0)
abbrev wts1 (c : Dev nD) : S64x256.Idx → Elt Ideal .f32 := V c (Pipeline.arrRef spec1 1)
/-- and the output array after the region. -/
abbrev yout1 (c : Dev nD) : S150000x256.Idx → Elt Ideal .f32 := (dat1 (F := Ideal) V c).arrAt 2 cfg1.N

/-- What the output array ends holding: at (r, q) the sum over k of input (r, k) times weights (k, q). -/
def lin1 (c : Dev nD) : S150000x256.Idx → Elt Ideal .f32 := fun i =>
  ∑ k : Fin 64, xin1 V c (ix2 (i 0) k) * wts1 V c (ix2 k (i 1))

/-- What grid point t writes back is block t of that array: rows 10000·t onwards of the input meet the whole weights. -/
theorem flushed1_eq (c : Dev nD) (t : Fin cfg1.N) :
    (dat1 (F := Ideal) V c).flushed 2 t = ((cfg1.win 2).blk t).view.read (Elt Ideal) (lin1 V c) := by
  show (cfg1.win 2).cut (grid1.coords t) ((dat1 (F := Ideal) V c).after 2 t) = _
  rw [after1_2]
  unfold out1_2
  rw [View.canon_unit_zero hz2_1]
  simp only [View.ld_unit_zero (S := S10000x64) hz2_1, View.ld_unit_zero (S := S64x256) hz2_1]
  obtain ⟨e0, e1, e2, e3, e4, e5⟩ := idx_facts1 t
  funext j
  have ht : t.val < 15 := lt_of_lt_of_eq t.isLt N_1
  have hp : (j 0).val < 10000 := (j 0).isLt
  have hq : (j 1).val < 256 := (j 1).isLt
  have hx : (cfg1.win 2).xinj (grid1.coords t) j = ix2 (⟨(j 0).val, hp⟩ : Fin 10000) (⟨(j 1).val, hq⟩ : Fin 256) :=
    funext fun a => by match a with | ⟨0, _⟩ => rfl | ⟨1, _⟩ => rfl
  have he : ((cfg1.win 2).blk t).view.emb j = ix2 (⟨t.val * 10000 + (j 0).val, by omega⟩ : Fin 150000) (⟨(j 1).val, hq⟩ : Fin 256) :=
    funext fun a => Fin.ext (by
      match a with
      | ⟨0, _⟩ => show win1_2.index t (0 : Fin 2) * 10000 + 1 * (j 0).val = t.val * 10000 + (j 0).val; omega
      | ⟨1, _⟩ => show win1_2.index t (1 : Fin 2) * 256 + 1 * (j 1).val = (j 1).val; omega)
  show k1_pay1 (F := Ideal) (iblk1 V c 0 t) (iblk1 V c 1 t) ((cfg1.win 2).xinj (grid1.coords t) j) = lin1 V c (((cfg1.win 2).blk t).view.emb j)
  rw [hx, he]
  refine (pay1_apply _ _ _ _).trans ?_
  refine Finset.sum_congr rfl fun k _ => ?_
  have a0 : iblk1 V c 0 t (ix2 (⟨(j 0).val, hp⟩ : Fin 10000) k)
      = xin1 V c (ix2 (⟨t.val * 10000 + (j 0).val, by omega⟩ : Fin 150000) k) :=
    congrArg (V c (Pipeline.arrRef spec1 0)) (funext fun a => Fin.ext (by
      match a with
      | ⟨0, _⟩ => show win1_0.index t (0 : Fin 2) * 10000 + 1 * (j 0).val = t.val * 10000 + (j 0).val; omega
      | ⟨1, _⟩ => show win1_0.index t (1 : Fin 2) * 64 + 1 * k.val = k.val; omega))
  have a1 : iblk1 V c 1 t (ix2 k (⟨(j 1).val, hq⟩ : Fin 256))
      = wts1 V c (ix2 k (⟨(j 1).val, hq⟩ : Fin 256)) :=
    congrArg (V c (Pipeline.arrRef spec1 1)) (funext fun a => Fin.ext (by
      match a with
      | ⟨0, _⟩ => show win1_1.index t (0 : Fin 2) * 64 + 1 * k.val = k.val; omega
      | ⟨1, _⟩ => show win1_1.index t (1 : Fin 2) * 256 + 1 * (j 1).val = (j 1).val; omega))
  rw [a0, a1]

/-- An entry of the array is in point t's block iff each coordinate is in the block's range on its axis. -/
theorem mem_blk1 (t : Fin cfg1.N) (i : S150000x256.Idx) :
    i ∈ ((cfg1.win 2).blk t).view.set ↔ ∀ a : Fin 2, win1_2.index t a * S10000x256.size a ≤ (i a).val ∧ (i a).val < win1_2.index t a * S10000x256.size a + S10000x256.size a := by
  show i ∈ ((View.whole main_v6).slice (win1_2.rect t)).set ↔ _
  rw [View.set_slice_whole, Rect.mem_set_unit]
  exact Iff.rfl

/-- Every entry is in some point's block: row r is in the block of point r / 10000. -/
theorem cover1 (i : S150000x256.Idx) : ∃ t : Fin cfg1.N, (cfg1.win 2).flush t = true ∧ i ∈ ((cfg1.win 2).blk t).view.set := by
  have hi0 : (i 0).val < 150000 := (i 0).isLt
  have hi1 : (i 1).val < 256 := (i 1).isLt
  have hN : cfg1.N = 15 := N_1
  have hb : (i 0).val / 10000 < cfg1.N := by rw [hN]; omega
  obtain ⟨-, -, -, -, e4, e5⟩ := idx_facts1 ⟨(i 0).val / 10000, hb⟩
  refine ⟨⟨(i 0).val / 10000, hb⟩, flush1_2 _, ?_⟩
  rw [mem_blk1]
  intro a
  match a with
  | ⟨0, _⟩ =>
    show win1_2.index ⟨(i 0).val / 10000, hb⟩ (0 : Fin 2) * 10000 ≤ (i 0).val ∧ (i 0).val < win1_2.index ⟨(i 0).val / 10000, hb⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hb⟩ (1 : Fin 2) * 256 ≤ (i 1).val ∧ (i 1).val < win1_2.index ⟨(i 0).val / 10000, hb⟩ (1 : Fin 2) * 256 + 256
    rw [e5]; omega

/-- The output array after the region. -/
theorem final1 (c : Dev nD) : (dat1 (F := Ideal) V c).arrAt 2 cfg1.N = lin1 V c :=
  (dat1 (F := Ideal) V c).arrAt_eq_of_cover 2 (lin1 V c) (fun t _ => flushed1_eq V c t) cover1

/-- The output array after the region, read at an entry. -/
theorem lin1_apply (c : Dev nD) (r : Fin 150000) (q : Fin 256) :
    yout1 V c (ix2 r q) = ∑ k : Fin 64, xin1 V c (ix2 r k) * wts1 V c (ix2 k q) :=
  congrFun (final1 V c) (ix2 r q)

end Cert.KernelIdeal.KV

end
-- ==== Proof.KV.Dense1.lean ====
/-
  The dense products of region 1, as arrays at the boundary after the five linear regions: each 64-column slice of
  the region's output is, entry by entry, the sum over k of (input row entry) · (weight entry) of the launch contents,
  the weight being the piece of the joined weights that the slice's columns meet. That is the reference's dense stage.
-/
import proofs.«140264_j78443282694634_2_alg».proof.Proof.KI.Fold
import proofs.«140264_j78443282694634_2_alg».proof.Proof.Ref.Dense
import proofs.«140264_j78443282694634_2_alg».proof.Proof.KV.Lin1
import proofs.«140264_j78443282694634_2_alg».proof.Proof.KV.Glue

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- Product 2: columns 0 … 63 of region 1's output are the rows of `main_arg1` times `main_arg26`. -/
theorem dense_2 (c : Dev nD) :
    W13 m ρ c (Proc.devRef .tc main_v7)
      = Cert.ReferenceIdeal.ReadP.val_main_v16 (F := Ideal) (m ((c : Thread nD τ).loc main_arg1)) (m ((c : Thread nD τ).loc main_arg26)) := by
  refine funext fun (i : S150000x64.Idx) => ?_
  obtain ⟨p, q, rfl⟩ : ∃ (p : Fin 150000) (q : Fin 64), i = ix2 p q := ⟨i 0, i 1, eq_ix2 i⟩
  refine Eq.trans ?_ (Cert.Proof.Ref.val_v16_ix _ _ p q).symm
  have hk : W13 m ρ c (Proc.devRef .tc main_v7) = W6 m ρ c (Proc.devRef .tc main_v7) :=
    ((keep13 m ρ c main_v7 (by decide)).trans ((keep12 m ρ c main_v7 (by decide)).trans ((keep11 m ρ c main_v7 (by decide)).trans ((keep10 m ρ c main_v7 (by decide)).trans ((keep9 m ρ c main_v7 (by decide)).trans ((keep8 m ρ c main_v7 (by decide)).trans (keep7 m ρ c main_v7 (by decide))))))))
  refine (congrFun hk (ix2 p q)).trans ?_
  refine (v7_apply (W5 m ρ c) p q).trans ?_
  refine (congrFun (W5_arr m ρ c 2) (ix2 p (⟨q.val, by omega⟩ : Fin 256))).trans ?_
  refine (lin1_apply (V4 m ρ) c p (⟨q.val, by omega⟩ : Fin 256)).trans ?_
  refine Finset.sum_congr rfl fun k _ => ?_
  have ea : xin1 (V4 m ρ) c (ix2 p k) = m ((c : Thread nD τ).loc main_arg1) (ix2 p k) :=
    congrFun (W4_unwritten m ρ c main_arg1 (by decide)) (ix2 p k)
  have eb : wts1 (V4 m ρ) c (ix2 k (⟨q.val, by omega⟩ : Fin 256)) = m ((c : Thread nD τ).loc main_arg26) (ix2 k q) :=
    (v5_inside (W3 m ρ c) k (⟨q.val, by omega⟩ : Fin 192)).trans ((v4_fst (W2 m ρ c) k q).trans (congrFun (W2_unwritten m ρ c main_arg26 (by decide)) (ix2 k q)))
  exact congrArg₂ (fun a b : Elt Ideal .f32 => a * b) ea eb

/-- Product 6: columns 64 … 127 of region 1's output are the rows of `main_arg1` times `main_arg47`. -/
theorem dense_6 (c : Dev nD) :
    W13 m ρ c (Proc.devRef .tc main_v8)
      = Cert.ReferenceIdeal.ReadP.val_main_v80 (F := Ideal) (m ((c : Thread nD τ).loc main_arg1)) (m ((c : Thread nD τ).loc main_arg47)) := by
  refine funext fun (i : S150000x64.Idx) => ?_
  obtain ⟨p, q, rfl⟩ : ∃ (p : Fin 150000) (q : Fin 64), i = ix2 p q := ⟨i 0, i 1, eq_ix2 i⟩
  refine Eq.trans ?_ (Cert.Proof.Ref.val_v80_ix _ _ p q).symm
  have hk : W13 m ρ c (Proc.devRef .tc main_v8) = W6 m ρ c (Proc.devRef .tc main_v8) :=
    ((keep13 m ρ c main_v8 (by decide)).trans ((keep12 m ρ c main_v8 (by decide)).trans ((keep11 m ρ c main_v8 (by decide)).trans ((keep10 m ρ c main_v8 (by decide)).trans ((keep9 m ρ c main_v8 (by decide)).trans ((keep8 m ρ c main_v8 (by decide)).trans (keep7 m ρ c main_v8 (by decide))))))))
  refine (congrFun hk (ix2 p q)).trans ?_
  refine (v8_apply (W5 m ρ c) p q).trans ?_
  refine (congrFun (W5_arr m ρ c 2) (ix2 p (⟨64 + q.val, by omega⟩ : Fin 256))).trans ?_
  refine (lin1_apply (V4 m ρ) c p (⟨64 + q.val, by omega⟩ : Fin 256)).trans ?_
  refine Finset.sum_congr rfl fun k _ => ?_
  have ea : xin1 (V4 m ρ) c (ix2 p k) = m ((c : Thread nD τ).loc main_arg1) (ix2 p k) :=
    congrFun (W4_unwritten m ρ c main_arg1 (by decide)) (ix2 p k)
  have eb : wts1 (V4 m ρ) c (ix2 k (⟨64 + q.val, by omega⟩ : Fin 256)) = m ((c : Thread nD τ).loc main_arg47) (ix2 k q) :=
    (v5_inside (W3 m ρ c) k (⟨64 + q.val, by omega⟩ : Fin 192)).trans ((v4_snd (W2 m ρ c) k q).trans (congrFun (W2_unwritten m ρ c main_arg47 (by decide)) (ix2 k q)))
  exact congrArg₂ (fun a b : Elt Ideal .f32 => a * b) ea eb

/-- Product 9: columns 128 … 191 of region 1's output are the rows of `main_arg1` times `main_arg50`. -/
theorem dense_9 (c : Dev nD) :
    W13 m ρ c (Proc.devRef .tc main_v9)
      = Cert.ReferenceIdeal.ReadP.val_main_v125 (F := Ideal) (m ((c : Thread nD τ).loc main_arg1)) (m ((c : Thread nD τ).loc main_arg50)) := by
  refine funext fun (i : S150000x64.Idx) => ?_
  obtain ⟨p, q, rfl⟩ : ∃ (p : Fin 150000) (q : Fin 64), i = ix2 p q := ⟨i 0, i 1, eq_ix2 i⟩
  refine Eq.trans ?_ (Cert.Proof.Ref.val_v125_ix _ _ p q).symm
  have hk : W13 m ρ c (Proc.devRef .tc main_v9) = W6 m ρ c (Proc.devRef .tc main_v9) :=
    ((keep13 m ρ c main_v9 (by decide)).trans ((keep12 m ρ c main_v9 (by decide)).trans ((keep11 m ρ c main_v9 (by decide)).trans ((keep10 m ρ c main_v9 (by decide)).trans ((keep9 m ρ c main_v9 (by decide)).trans ((keep8 m ρ c main_v9 (by decide)).trans (keep7 m ρ c main_v9 (by decide))))))))
  refine (congrFun hk (ix2 p q)).trans ?_
  refine (v9_apply (W5 m ρ c) p q).trans ?_
  refine (congrFun (W5_arr m ρ c 2) (ix2 p (⟨128 + q.val, by omega⟩ : Fin 256))).trans ?_
  refine (lin1_apply (V4 m ρ) c p (⟨128 + q.val, by omega⟩ : Fin 256)).trans ?_
  refine Finset.sum_congr rfl fun k _ => ?_
  have ea : xin1 (V4 m ρ) c (ix2 p k) = m ((c : Thread nD τ).loc main_arg1) (ix2 p k) :=
    congrFun (W4_unwritten m ρ c main_arg1 (by decide)) (ix2 p k)
  have eb : wts1 (V4 m ρ) c (ix2 k (⟨128 + q.val, by omega⟩ : Fin 256)) = m ((c : Thread nD τ).loc main_arg50) (ix2 k q) :=
    (v5_inside (W3 m ρ c) k (⟨128 + q.val, by omega⟩ : Fin 192)).trans ((v4_thd (W2 m ρ c) k q).trans (congrFun (W2_unwritten m ρ c main_arg50 (by decide)) (ix2 k q)))
  exact congrArg₂ (fun a b : Elt Ideal .f32 => a * b) ea eb

end Cert.KernelIdeal.KV

end
-- ==== Proof.KV.Lin2.lean ====
/-
  Region 2: the rows of input 2 times the column-joined weights. The body multiplies the row block by the whole
  weight array into a zero accumulator, so the output block at a grid point is, entry by entry, the sum over the 64
  shared coordinates of (input row entry) · (weight column entry); grid point t writes rows 10000·t … 10000·t + 9999,
  the points together cover every row, and so the output array after the region holds that sum at every entry.
-/
import proofs.«140264_j78443282694634_2_alg».proof.Proof.KI.R2
import proofs.«140264_j78443282694634_2_alg».proof.Proof.KV.LibMatmul
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

theorem hz2_2 : (![0, 0] : Fin 2 → Nat) = fun _ => 0 := funext fun a => by fin_cases a <;> rfl

/-! ## The product's dimension numbers: which operand entries meet at a contraction index -/

theorem d2_l0 (j : S10000x256.Idx) (q : dot_S10000x64_S64x256_S10000x256_1_0_0_1_n_n.contr.Idx) :
    (dot_S10000x64_S64x256_S10000x256_1_0_0_1_n_n.lhsIdx j q 0).val = (j 0).val := by
  unfold DotDims.lhsIdx
  rw [dif_neg (show ¬(0 : Fin S10000x64.rank) ∈ dot_S10000x64_S64x256_S10000x256_1_0_0_1_n_n.lhsBatch by decide), dif_pos (show (0 : Fin S10000x64.rank) ∈ dot_S10000x64_S64x256_S10000x256_1_0_0_1_n_n.lhsNonContracting by decide)]
  rfl
theorem d2_l1 (j : S10000x256.Idx) (q : dot_S10000x64_S64x256_S10000x256_1_0_0_1_n_n.contr.Idx) :
    (dot_S10000x64_S64x256_S10000x256_1_0_0_1_n_n.lhsIdx j q 1).val = (q ⟨0, by decide⟩).val :=
  dot_S10000x64_S64x256_S10000x256_1_0_0_1_n_n.lhsIdx_val_of_single rfl j q
theorem d2_r0 (j : S10000x256.Idx) (q : dot_S10000x64_S64x256_S10000x256_1_0_0_1_n_n.contr.Idx) :
    (dot_S10000x64_S64x256_S10000x256_1_0_0_1_n_n.rhsIdx j q 0).val = (q ⟨0, by decide⟩).val :=
  dot_S10000x64_S64x256_S10000x256_1_0_0_1_n_n.rhsIdx_val_of_single rfl j q
theorem d2_r1 (j : S10000x256.Idx) (q : dot_S10000x64_S64x256_S10000x256_1_0_0_1_n_n.contr.Idx) :
    (dot_S10000x64_S64x256_S10000x256_1_0_0_1_n_n.rhsIdx j q 1).val = (j 1).val := by
  unfold DotDims.rhsIdx
  rw [dif_neg (show ¬(1 : Fin S64x256.rank) ∈ dot_S10000x64_S64x256_S10000x256_1_0_0_1_n_n.rhsBatch by decide), dif_pos (show (1 : Fin S64x256.rank) ∈ dot_S10000x64_S64x256_S10000x256_1_0_0_1_n_n.rhsNonContracting by decide)]
  rfl

/-- The body's value at an entry of the block: the sum over the shared coordinate of row entry times column entry. -/
theorem pay2_apply (x0 : Vec Ideal S10000x64 .f32) (x1 : Vec Ideal S64x256 .f32) (p : Fin 10000) (q : Fin 256) :
    k2_pay1 (F := Ideal) x0 x1 (ix2 p q) = ∑ k : Fin 64, x0 (ix2 p k) * x1 (ix2 k q) := by
  unfold k2_pay1
  simp only [shapeCast_self]
  exact Cert.LibMatmul.matmul_zero_ix2 dot_S10000x64_S64x256_S10000x256_1_0_0_1_n_n none rfl rfl d2_l0 d2_l1 d2_r0 d2_r1 x0 x1 (ix2 p q)

variable (V : (c : Dev nD) → (b : Ref sig .tc) → Buf (Elt Ideal) ((c : Thread nD τ).loc b))

/-! ## From blocks to the array -/

/-- The index maps over the grid: the row-blocked windows sit at block (t, 0), the weights at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input array, the weight array, as the region finds them, -/
abbrev xin2 (c : Dev nD) : S100000x64.Idx → Elt Ideal .f32 := V c (Pipeline.arrRef spec2 0)
abbrev wts2 (c : Dev nD) : S64x256.Idx → Elt Ideal .f32 := V c (Pipeline.arrRef spec2 1)
/-- and the output array after the region. -/
abbrev yout2 (c : Dev nD) : S100000x256.Idx → Elt Ideal .f32 := (dat2 (F := Ideal) V c).arrAt 2 cfg2.N

/-- What the output array ends holding: at (r, q) the sum over k of input (r, k) times weights (k, q). -/
def lin2 (c : Dev nD) : S100000x256.Idx → Elt Ideal .f32 := fun i =>
  ∑ k : Fin 64, xin2 V c (ix2 (i 0) k) * wts2 V c (ix2 k (i 1))

/-- What grid point t writes back is block t of that array: rows 10000·t onwards of the input meet the whole weights. -/
theorem flushed2_eq (c : Dev nD) (t : Fin cfg2.N) :
    (dat2 (F := Ideal) V c).flushed 2 t = ((cfg2.win 2).blk t).view.read (Elt Ideal) (lin2 V c) := by
  show (cfg2.win 2).cut (grid2.coords t) ((dat2 (F := Ideal) V c).after 2 t) = _
  rw [after2_2]
  unfold out2_2
  rw [View.canon_unit_zero hz2_2]
  simp only [View.ld_unit_zero (S := S10000x64) hz2_2, View.ld_unit_zero (S := S64x256) hz2_2]
  obtain ⟨e0, e1, e2, e3, e4, e5⟩ := idx_facts2 t
  funext j
  have ht : t.val < 10 := lt_of_lt_of_eq t.isLt N_2
  have hp : (j 0).val < 10000 := (j 0).isLt
  have hq : (j 1).val < 256 := (j 1).isLt
  have hx : (cfg2.win 2).xinj (grid2.coords t) j = ix2 (⟨(j 0).val, hp⟩ : Fin 10000) (⟨(j 1).val, hq⟩ : Fin 256) :=
    funext fun a => by match a with | ⟨0, _⟩ => rfl | ⟨1, _⟩ => rfl
  have he : ((cfg2.win 2).blk t).view.emb j = ix2 (⟨t.val * 10000 + (j 0).val, by omega⟩ : Fin 100000) (⟨(j 1).val, hq⟩ : Fin 256) :=
    funext fun a => Fin.ext (by
      match a with
      | ⟨0, _⟩ => show win2_2.index t (0 : Fin 2) * 10000 + 1 * (j 0).val = t.val * 10000 + (j 0).val; omega
      | ⟨1, _⟩ => show win2_2.index t (1 : Fin 2) * 256 + 1 * (j 1).val = (j 1).val; omega)
  show k2_pay1 (F := Ideal) (iblk2 V c 0 t) (iblk2 V c 1 t) ((cfg2.win 2).xinj (grid2.coords t) j) = lin2 V c (((cfg2.win 2).blk t).view.emb j)
  rw [hx, he]
  refine (pay2_apply _ _ _ _).trans ?_
  refine Finset.sum_congr rfl fun k _ => ?_
  have a0 : iblk2 V c 0 t (ix2 (⟨(j 0).val, hp⟩ : Fin 10000) k)
      = xin2 V c (ix2 (⟨t.val * 10000 + (j 0).val, by omega⟩ : Fin 100000) k) :=
    congrArg (V c (Pipeline.arrRef spec2 0)) (funext fun a => Fin.ext (by
      match a with
      | ⟨0, _⟩ => show win2_0.index t (0 : Fin 2) * 10000 + 1 * (j 0).val = t.val * 10000 + (j 0).val; omega
      | ⟨1, _⟩ => show win2_0.index t (1 : Fin 2) * 64 + 1 * k.val = k.val; omega))
  have a1 : iblk2 V c 1 t (ix2 k (⟨(j 1).val, hq⟩ : Fin 256))
      = wts2 V c (ix2 k (⟨(j 1).val, hq⟩ : Fin 256)) :=
    congrArg (V c (Pipeline.arrRef spec2 1)) (funext fun a => Fin.ext (by
      match a with
      | ⟨0, _⟩ => show win2_1.index t (0 : Fin 2) * 64 + 1 * k.val = k.val; omega
      | ⟨1, _⟩ => show win2_1.index t (1 : Fin 2) * 256 + 1 * (j 1).val = (j 1).val; omega))
  rw [a0, a1]

/-- An entry of the array is in point t's block iff each coordinate is in the block's range on its axis. -/
theorem mem_blk2 (t : Fin cfg2.N) (i : S100000x256.Idx) :
    i ∈ ((cfg2.win 2).blk t).view.set ↔ ∀ a : Fin 2, win2_2.index t a * S10000x256.size a ≤ (i a).val ∧ (i a).val < win2_2.index t a * S10000x256.size a + S10000x256.size a := by
  show i ∈ ((View.whole main_v12).slice (win2_2.rect t)).set ↔ _
  rw [View.set_slice_whole, Rect.mem_set_unit]
  exact Iff.rfl

/-- Every entry is in some point's block: row r is in the block of point r / 10000. -/
theorem cover2 (i : S100000x256.Idx) : ∃ t : Fin cfg2.N, (cfg2.win 2).flush t = true ∧ i ∈ ((cfg2.win 2).blk t).view.set := by
  have hi0 : (i 0).val < 100000 := (i 0).isLt
  have hi1 : (i 1).val < 256 := (i 1).isLt
  have hN : cfg2.N = 10 := N_2
  have hb : (i 0).val / 10000 < cfg2.N := by rw [hN]; omega
  obtain ⟨-, -, -, -, e4, e5⟩ := idx_facts2 ⟨(i 0).val / 10000, hb⟩
  refine ⟨⟨(i 0).val / 10000, hb⟩, flush2_2 _, ?_⟩
  rw [mem_blk2]
  intro a
  match a with
  | ⟨0, _⟩ =>
    show win2_2.index ⟨(i 0).val / 10000, hb⟩ (0 : Fin 2) * 10000 ≤ (i 0).val ∧ (i 0).val < win2_2.index ⟨(i 0).val / 10000, hb⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hb⟩ (1 : Fin 2) * 256 ≤ (i 1).val ∧ (i 1).val < win2_2.index ⟨(i 0).val / 10000, hb⟩ (1 : Fin 2) * 256 + 256
    rw [e5]; omega

/-- The output array after the region. -/
theorem final2 (c : Dev nD) : (dat2 (F := Ideal) V c).arrAt 2 cfg2.N = lin2 V c :=
  (dat2 (F := Ideal) V c).arrAt_eq_of_cover 2 (lin2 V c) (fun t _ => flushed2_eq V c t) cover2

/-- The output array after the region, read at an entry. -/
theorem lin2_apply (c : Dev nD) (r : Fin 100000) (q : Fin 256) :
    yout2 V c (ix2 r q) = ∑ k : Fin 64, xin2 V c (ix2 r k) * wts2 V c (ix2 k q) :=
  congrFun (final2 V c) (ix2 r q)

end Cert.KernelIdeal.KV

end
-- ==== Proof.KV.Dense2.lean ====
/-
  The dense products of region 2, as arrays at the boundary after the five linear regions: each 64-column slice of
  the region's output is, entry by entry, the sum over k of (input row entry) · (weight entry) of the launch contents,
  the weight being the piece of the joined weights that the slice's columns meet. That is the reference's dense stage.
-/
import proofs.«140264_j78443282694634_2_alg».proof.Proof.KI.Fold
import proofs.«140264_j78443282694634_2_alg».proof.Proof.Ref.Dense
import proofs.«140264_j78443282694634_2_alg».proof.Proof.KV.Lin2
import proofs.«140264_j78443282694634_2_alg».proof.Proof.KV.Glue

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- Product 3: columns 0 … 63 of region 2's output are the rows of `main_arg2` times `main_arg27`. -/
theorem dense_3 (c : Dev nD) :
    W13 m ρ c (Proc.devRef .tc main_v13)
      = Cert.ReferenceIdeal.ReadP.val_main_v32 (F := Ideal) (m ((c : Thread nD τ).loc main_arg2)) (m ((c : Thread nD τ).loc main_arg27)) := by
  refine funext fun (i : S100000x64.Idx) => ?_
  obtain ⟨p, q, rfl⟩ : ∃ (p : Fin 100000) (q : Fin 64), i = ix2 p q := ⟨i 0, i 1, eq_ix2 i⟩
  refine Eq.trans ?_ (Cert.Proof.Ref.val_v32_ix _ _ p q).symm
  have hk : W13 m ρ c (Proc.devRef .tc main_v13) = W9 m ρ c (Proc.devRef .tc main_v13) :=
    ((keep13 m ρ c main_v13 (by decide)).trans ((keep12 m ρ c main_v13 (by decide)).trans ((keep11 m ρ c main_v13 (by decide)).trans (keep10 m ρ c main_v13 (by decide)))))
  refine (congrFun hk (ix2 p q)).trans ?_
  refine (v13_apply (W8 m ρ c) p q).trans ?_
  refine (congrFun (W8_arr m ρ c 2) (ix2 p (⟨q.val, by omega⟩ : Fin 256))).trans ?_
  refine (lin2_apply (V7 m ρ) c p (⟨q.val, by omega⟩ : Fin 256)).trans ?_
  refine Finset.sum_congr rfl fun k _ => ?_
  have ea : xin2 (V7 m ρ) c (ix2 p k) = m ((c : Thread nD τ).loc main_arg2) (ix2 p k) :=
    congrFun (W7_unwritten m ρ c main_arg2 (by decide)) (ix2 p k)
  have eb : wts2 (V7 m ρ) c (ix2 k (⟨q.val, by omega⟩ : Fin 256)) = m ((c : Thread nD τ).loc main_arg27) (ix2 k q) :=
    (v11_inside (W6 m ρ c) k (⟨q.val, by omega⟩ : Fin 192)).trans ((v10_fst (W5 m ρ c) k q).trans (congrFun (W5_unwritten m ρ c main_arg27 (by decide)) (ix2 k q)))
  exact congrArg₂ (fun a b : Elt Ideal .f32 => a * b) ea eb

/-- Product 8: columns 64 … 127 of region 2's output are the rows of `main_arg2` times `main_arg49`. -/
theorem dense_8 (c : Dev nD) :
    W13 m ρ c (Proc.devRef .tc main_v14)
      = Cert.ReferenceIdeal.ReadP.val_main_v110 (F := Ideal) (m ((c : Thread nD τ).loc main_arg2)) (m ((c : Thread nD τ).loc main_arg49)) := by
  refine funext fun (i : S100000x64.Idx) => ?_
  obtain ⟨p, q, rfl⟩ : ∃ (p : Fin 100000) (q : Fin 64), i = ix2 p q := ⟨i 0, i 1, eq_ix2 i⟩
  refine Eq.trans ?_ (Cert.Proof.Ref.val_v110_ix _ _ p q).symm
  have hk : W13 m ρ c (Proc.devRef .tc main_v14) = W9 m ρ c (Proc.devRef .tc main_v14) :=
    ((keep13 m ρ c main_v14 (by decide)).trans ((keep12 m ρ c main_v14 (by decide)).trans ((keep11 m ρ c main_v14 (by decide)).trans (keep10 m ρ c main_v14 (by decide)))))
  refine (congrFun hk (ix2 p q)).trans ?_
  refine (v14_apply (W8 m ρ c) p q).trans ?_
  refine (congrFun (W8_arr m ρ c 2) (ix2 p (⟨64 + q.val, by omega⟩ : Fin 256))).trans ?_
  refine (lin2_apply (V7 m ρ) c p (⟨64 + q.val, by omega⟩ : Fin 256)).trans ?_
  refine Finset.sum_congr rfl fun k _ => ?_
  have ea : xin2 (V7 m ρ) c (ix2 p k) = m ((c : Thread nD τ).loc main_arg2) (ix2 p k) :=
    congrFun (W7_unwritten m ρ c main_arg2 (by decide)) (ix2 p k)
  have eb : wts2 (V7 m ρ) c (ix2 k (⟨64 + q.val, by omega⟩ : Fin 256)) = m ((c : Thread nD τ).loc main_arg49) (ix2 k q) :=
    (v11_inside (W6 m ρ c) k (⟨64 + q.val, by omega⟩ : Fin 192)).trans ((v10_snd (W5 m ρ c) k q).trans (congrFun (W5_unwritten m ρ c main_arg49 (by decide)) (ix2 k q)))
  exact congrArg₂ (fun a b : Elt Ideal .f32 => a * b) ea eb

/-- Product 11: columns 128 … 191 of region 2's output are the rows of `main_arg2` times `main_arg52`. -/
theorem dense_11 (c : Dev nD) :
    W13 m ρ c (Proc.devRef .tc main_v15)
      = Cert.ReferenceIdeal.ReadP.val_main_v155 (F := Ideal) (m ((c : Thread nD τ).loc main_arg2)) (m ((c : Thread nD τ).loc main_arg52)) := by
  refine funext fun (i : S100000x64.Idx) => ?_
  obtain ⟨p, q, rfl⟩ : ∃ (p : Fin 100000) (q : Fin 64), i = ix2 p q := ⟨i 0, i 1, eq_ix2 i⟩
  refine Eq.trans ?_ (Cert.Proof.Ref.val_v155_ix _ _ p q).symm
  have hk : W13 m ρ c (Proc.devRef .tc main_v15) = W9 m ρ c (Proc.devRef .tc main_v15) :=
    ((keep13 m ρ c main_v15 (by decide)).trans ((keep12 m ρ c main_v15 (by decide)).trans ((keep11 m ρ c main_v15 (by decide)).trans (keep10 m ρ c main_v15 (by decide)))))
  refine (congrFun hk (ix2 p q)).trans ?_
  refine (v15_apply (W8 m ρ c) p q).trans ?_
  refine (congrFun (W8_arr m ρ c 2) (ix2 p (⟨128 + q.val, by omega⟩ : Fin 256))).trans ?_
  refine (lin2_apply (V7 m ρ) c p (⟨128 + q.val, by omega⟩ : Fin 256)).trans ?_
  refine Finset.sum_congr rfl fun k _ => ?_
  have ea : xin2 (V7 m ρ) c (ix2 p k) = m ((c : Thread nD τ).loc main_arg2) (ix2 p k) :=
    congrFun (W7_unwritten m ρ c main_arg2 (by decide)) (ix2 p k)
  have eb : wts2 (V7 m ρ) c (ix2 k (⟨128 + q.val, by omega⟩ : Fin 256)) = m ((c : Thread nD τ).loc main_arg52) (ix2 k q) :=
    (v11_inside (W6 m ρ c) k (⟨128 + q.val, by omega⟩ : Fin 192)).trans ((v10_thd (W5 m ρ c) k q).trans (congrFun (W5_unwritten m ρ c main_arg52 (by decide)) (ix2 k q)))
  exact congrArg₂ (fun a b : Elt Ideal .f32 => a * b) ea eb

end Cert.KernelIdeal.KV

end
-- ==== Proof.KV.Lin3.lean ====
/-
  Region 3: the rows of input 3 times the column-joined weights. The body multiplies the row block by the whole
  weight array into a zero accumulator, so the output block at a grid point is, entry by entry, the sum over the 64
  shared coordinates of (input row entry) · (weight column entry); grid point t writes rows 10000·t … 10000·t + 9999,
  the points together cover every row, and so the output array after the region holds that sum at every entry.
-/
import proofs.«140264_j78443282694634_2_alg».proof.Proof.KI.R3
import proofs.«140264_j78443282694634_2_alg».proof.Proof.KV.LibMatmul
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

theorem hz2_3 : (![0, 0] : Fin 2 → Nat) = fun _ => 0 := funext fun a => by fin_cases a <;> rfl

/-! ## The product's dimension numbers: which operand entries meet at a contraction index -/

theorem d3_l0 (j : S10000x256.Idx) (q : dot_S10000x64_S64x256_S10000x256_1_0_0_1_n_n.contr.Idx) :
    (dot_S10000x64_S64x256_S10000x256_1_0_0_1_n_n.lhsIdx j q 0).val = (j 0).val := by
  unfold DotDims.lhsIdx
  rw [dif_neg (show ¬(0 : Fin S10000x64.rank) ∈ dot_S10000x64_S64x256_S10000x256_1_0_0_1_n_n.lhsBatch by decide), dif_pos (show (0 : Fin S10000x64.rank) ∈ dot_S10000x64_S64x256_S10000x256_1_0_0_1_n_n.lhsNonContracting by decide)]
  rfl
theorem d3_l1 (j : S10000x256.Idx) (q : dot_S10000x64_S64x256_S10000x256_1_0_0_1_n_n.contr.Idx) :
    (dot_S10000x64_S64x256_S10000x256_1_0_0_1_n_n.lhsIdx j q 1).val = (q ⟨0, by decide⟩).val :=
  dot_S10000x64_S64x256_S10000x256_1_0_0_1_n_n.lhsIdx_val_of_single rfl j q
theorem d3_r0 (j : S10000x256.Idx) (q : dot_S10000x64_S64x256_S10000x256_1_0_0_1_n_n.contr.Idx) :
    (dot_S10000x64_S64x256_S10000x256_1_0_0_1_n_n.rhsIdx j q 0).val = (q ⟨0, by decide⟩).val :=
  dot_S10000x64_S64x256_S10000x256_1_0_0_1_n_n.rhsIdx_val_of_single rfl j q
theorem d3_r1 (j : S10000x256.Idx) (q : dot_S10000x64_S64x256_S10000x256_1_0_0_1_n_n.contr.Idx) :
    (dot_S10000x64_S64x256_S10000x256_1_0_0_1_n_n.rhsIdx j q 1).val = (j 1).val := by
  unfold DotDims.rhsIdx
  rw [dif_neg (show ¬(1 : Fin S64x256.rank) ∈ dot_S10000x64_S64x256_S10000x256_1_0_0_1_n_n.rhsBatch by decide), dif_pos (show (1 : Fin S64x256.rank) ∈ dot_S10000x64_S64x256_S10000x256_1_0_0_1_n_n.rhsNonContracting by decide)]
  rfl

/-- The body's value at an entry of the block: the sum over the shared coordinate of row entry times column entry. -/
theorem pay3_apply (x0 : Vec Ideal S10000x64 .f32) (x1 : Vec Ideal S64x256 .f32) (p : Fin 10000) (q : Fin 256) :
    k3_pay1 (F := Ideal) x0 x1 (ix2 p q) = ∑ k : Fin 64, x0 (ix2 p k) * x1 (ix2 k q) := by
  unfold k3_pay1
  simp only [shapeCast_self]
  exact Cert.LibMatmul.matmul_zero_ix2 dot_S10000x64_S64x256_S10000x256_1_0_0_1_n_n none rfl rfl d3_l0 d3_l1 d3_r0 d3_r1 x0 x1 (ix2 p q)

variable (V : (c : Dev nD) → (b : Ref sig .tc) → Buf (Elt Ideal) ((c : Thread nD τ).loc b))

/-! ## From blocks to the array -/

/-- The index maps over the grid: the row-blocked windows sit at block (t, 0), the weights at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input array, the weight array, as the region finds them, -/
abbrev xin3 (c : Dev nD) : S40000x64.Idx → Elt Ideal .f32 := V c (Pipeline.arrRef spec3 0)
abbrev wts3 (c : Dev nD) : S64x256.Idx → Elt Ideal .f32 := V c (Pipeline.arrRef spec3 1)
/-- and the output array after the region. -/
abbrev yout3 (c : Dev nD) : S40000x256.Idx → Elt Ideal .f32 := (dat3 (F := Ideal) V c).arrAt 2 cfg3.N

/-- What the output array ends holding: at (r, q) the sum over k of input (r, k) times weights (k, q). -/
def lin3 (c : Dev nD) : S40000x256.Idx → Elt Ideal .f32 := fun i =>
  ∑ k : Fin 64, xin3 V c (ix2 (i 0) k) * wts3 V c (ix2 k (i 1))

/-- What grid point t writes back is block t of that array: rows 10000·t onwards of the input meet the whole weights. -/
theorem flushed3_eq (c : Dev nD) (t : Fin cfg3.N) :
    (dat3 (F := Ideal) V c).flushed 2 t = ((cfg3.win 2).blk t).view.read (Elt Ideal) (lin3 V c) := by
  show (cfg3.win 2).cut (grid3.coords t) ((dat3 (F := Ideal) V c).after 2 t) = _
  rw [after3_2]
  unfold out3_2
  rw [View.canon_unit_zero hz2_3]
  simp only [View.ld_unit_zero (S := S10000x64) hz2_3, View.ld_unit_zero (S := S64x256) hz2_3]
  obtain ⟨e0, e1, e2, e3, e4, e5⟩ := idx_facts3 t
  funext j
  have ht : t.val < 4 := lt_of_lt_of_eq t.isLt N_3
  have hp : (j 0).val < 10000 := (j 0).isLt
  have hq : (j 1).val < 256 := (j 1).isLt
  have hx : (cfg3.win 2).xinj (grid3.coords t) j = ix2 (⟨(j 0).val, hp⟩ : Fin 10000) (⟨(j 1).val, hq⟩ : Fin 256) :=
    funext fun a => by match a with | ⟨0, _⟩ => rfl | ⟨1, _⟩ => rfl
  have he : ((cfg3.win 2).blk t).view.emb j = ix2 (⟨t.val * 10000 + (j 0).val, by omega⟩ : Fin 40000) (⟨(j 1).val, hq⟩ : Fin 256) :=
    funext fun a => Fin.ext (by
      match a with
      | ⟨0, _⟩ => show win3_2.index t (0 : Fin 2) * 10000 + 1 * (j 0).val = t.val * 10000 + (j 0).val; omega
      | ⟨1, _⟩ => show win3_2.index t (1 : Fin 2) * 256 + 1 * (j 1).val = (j 1).val; omega)
  show k3_pay1 (F := Ideal) (iblk3 V c 0 t) (iblk3 V c 1 t) ((cfg3.win 2).xinj (grid3.coords t) j) = lin3 V c (((cfg3.win 2).blk t).view.emb j)
  rw [hx, he]
  refine (pay3_apply _ _ _ _).trans ?_
  refine Finset.sum_congr rfl fun k _ => ?_
  have a0 : iblk3 V c 0 t (ix2 (⟨(j 0).val, hp⟩ : Fin 10000) k)
      = xin3 V c (ix2 (⟨t.val * 10000 + (j 0).val, by omega⟩ : Fin 40000) k) :=
    congrArg (V c (Pipeline.arrRef spec3 0)) (funext fun a => Fin.ext (by
      match a with
      | ⟨0, _⟩ => show win3_0.index t (0 : Fin 2) * 10000 + 1 * (j 0).val = t.val * 10000 + (j 0).val; omega
      | ⟨1, _⟩ => show win3_0.index t (1 : Fin 2) * 64 + 1 * k.val = k.val; omega))
  have a1 : iblk3 V c 1 t (ix2 k (⟨(j 1).val, hq⟩ : Fin 256))
      = wts3 V c (ix2 k (⟨(j 1).val, hq⟩ : Fin 256)) :=
    congrArg (V c (Pipeline.arrRef spec3 1)) (funext fun a => Fin.ext (by
      match a with
      | ⟨0, _⟩ => show win3_1.index t (0 : Fin 2) * 64 + 1 * k.val = k.val; omega
      | ⟨1, _⟩ => show win3_1.index t (1 : Fin 2) * 256 + 1 * (j 1).val = (j 1).val; omega))
  rw [a0, a1]

/-- An entry of the array is in point t's block iff each coordinate is in the block's range on its axis. -/
theorem mem_blk3 (t : Fin cfg3.N) (i : S40000x256.Idx) :
    i ∈ ((cfg3.win 2).blk t).view.set ↔ ∀ a : Fin 2, win3_2.index t a * S10000x256.size a ≤ (i a).val ∧ (i a).val < win3_2.index t a * S10000x256.size a + S10000x256.size a := by
  show i ∈ ((View.whole main_v18).slice (win3_2.rect t)).set ↔ _
  rw [View.set_slice_whole, Rect.mem_set_unit]
  exact Iff.rfl

/-- Every entry is in some point's block: row r is in the block of point r / 10000. -/
theorem cover3 (i : S40000x256.Idx) : ∃ t : Fin cfg3.N, (cfg3.win 2).flush t = true ∧ i ∈ ((cfg3.win 2).blk t).view.set := by
  have hi0 : (i 0).val < 40000 := (i 0).isLt
  have hi1 : (i 1).val < 256 := (i 1).isLt
  have hN : cfg3.N = 4 := N_3
  have hb : (i 0).val / 10000 < cfg3.N := by rw [hN]; omega
  obtain ⟨-, -, -, -, e4, e5⟩ := idx_facts3 ⟨(i 0).val / 10000, hb⟩
  refine ⟨⟨(i 0).val / 10000, hb⟩, flush3_2 _, ?_⟩
  rw [mem_blk3]
  intro a
  match a with
  | ⟨0, _⟩ =>
    show win3_2.index ⟨(i 0).val / 10000, hb⟩ (0 : Fin 2) * 10000 ≤ (i 0).val ∧ (i 0).val < win3_2.index ⟨(i 0).val / 10000, hb⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hb⟩ (1 : Fin 2) * 256 ≤ (i 1).val ∧ (i 1).val < win3_2.index ⟨(i 0).val / 10000, hb⟩ (1 : Fin 2) * 256 + 256
    rw [e5]; omega

/-- The output array after the region. -/
theorem final3 (c : Dev nD) : (dat3 (F := Ideal) V c).arrAt 2 cfg3.N = lin3 V c :=
  (dat3 (F := Ideal) V c).arrAt_eq_of_cover 2 (lin3 V c) (fun t _ => flushed3_eq V c t) cover3

/-- The output array after the region, read at an entry. -/
theorem lin3_apply (c : Dev nD) (r : Fin 40000) (q : Fin 256) :
    yout3 V c (ix2 r q) = ∑ k : Fin 64, xin3 V c (ix2 r k) * wts3 V c (ix2 k q) :=
  congrFun (final3 V c) (ix2 r q)

end Cert.KernelIdeal.KV

end
-- ==== Proof.KV.Dense3.lean ====
/-
  The dense products of region 3, as arrays at the boundary after the five linear regions: each 64-column slice of
  the region's output is, entry by entry, the sum over k of (input row entry) · (weight entry) of the launch contents,
  the weight being the piece of the joined weights that the slice's columns meet. That is the reference's dense stage.
-/
import proofs.«140264_j78443282694634_2_alg».proof.Proof.KI.Fold
import proofs.«140264_j78443282694634_2_alg».proof.Proof.Ref.Dense
import proofs.«140264_j78443282694634_2_alg».proof.Proof.KV.Lin3
import proofs.«140264_j78443282694634_2_alg».proof.Proof.KV.Glue

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- Product 4: columns 0 … 63 of region 3's output are the rows of `main_arg3` times `main_arg28`. -/
theorem dense_4 (c : Dev nD) :
    W13 m ρ c (Proc.devRef .tc main_v19)
      = Cert.ReferenceIdeal.ReadP.val_main_v48 (F := Ideal) (m ((c : Thread nD τ).loc main_arg3)) (m ((c : Thread nD τ).loc main_arg28)) := by
  refine funext fun (i : S40000x64.Idx) => ?_
  obtain ⟨p, q, rfl⟩ : ∃ (p : Fin 40000) (q : Fin 64), i = ix2 p q := ⟨i 0, i 1, eq_ix2 i⟩
  refine Eq.trans ?_ (Cert.Proof.Ref.val_v48_ix _ _ p q).symm
  have hk : W13 m ρ c (Proc.devRef .tc main_v19) = W12 m ρ c (Proc.devRef .tc main_v19) :=
    (keep13 m ρ c main_v19 (by decide))
  refine (congrFun hk (ix2 p q)).trans ?_
  refine (v19_apply (W11 m ρ c) p q).trans ?_
  refine (congrFun (W11_arr m ρ c 2) (ix2 p (⟨q.val, by omega⟩ : Fin 256))).trans ?_
  refine (lin3_apply (V10 m ρ) c p (⟨q.val, by omega⟩ : Fin 256)).trans ?_
  refine Finset.sum_congr rfl fun k _ => ?_
  have ea : xin3 (V10 m ρ) c (ix2 p k) = m ((c : Thread nD τ).loc main_arg3) (ix2 p k) :=
    congrFun (W10_unwritten m ρ c main_arg3 (by decide)) (ix2 p k)
  have eb : wts3 (V10 m ρ) c (ix2 k (⟨q.val, by omega⟩ : Fin 256)) = m ((c : Thread nD τ).loc main_arg28) (ix2 k q) :=
    (v17_inside (W9 m ρ c) k (⟨q.val, by omega⟩ : Fin 192)).trans ((v16_fst (W8 m ρ c) k q).trans (congrFun (W8_unwritten m ρ c main_arg28 (by decide)) (ix2 k q)))
  exact congrArg₂ (fun a b : Elt Ideal .f32 => a * b) ea eb

/-- Product 10: columns 64 … 127 of region 3's output are the rows of `main_arg3` times `main_arg51`. -/
theorem dense_10 (c : Dev nD) :
    W13 m ρ c (Proc.devRef .tc main_v20)
      = Cert.ReferenceIdeal.ReadP.val_main_v140 (F := Ideal) (m ((c : Thread nD τ).loc main_arg3)) (m ((c : Thread nD τ).loc main_arg51)) := by
  refine funext fun (i : S40000x64.Idx) => ?_
  obtain ⟨p, q, rfl⟩ : ∃ (p : Fin 40000) (q : Fin 64), i = ix2 p q := ⟨i 0, i 1, eq_ix2 i⟩
  refine Eq.trans ?_ (Cert.Proof.Ref.val_v140_ix _ _ p q).symm
  have hk : W13 m ρ c (Proc.devRef .tc main_v20) = W12 m ρ c (Proc.devRef .tc main_v20) :=
    (keep13 m ρ c main_v20 (by decide))
  refine (congrFun hk (ix2 p q)).trans ?_
  refine (v20_apply (W11 m ρ c) p q).trans ?_
  refine (congrFun (W11_arr m ρ c 2) (ix2 p (⟨64 + q.val, by omega⟩ : Fin 256))).trans ?_
  refine (lin3_apply (V10 m ρ) c p (⟨64 + q.val, by omega⟩ : Fin 256)).trans ?_
  refine Finset.sum_congr rfl fun k _ => ?_
  have ea : xin3 (V10 m ρ) c (ix2 p k) = m ((c : Thread nD τ).loc main_arg3) (ix2 p k) :=
    congrFun (W10_unwritten m ρ c main_arg3 (by decide)) (ix2 p k)
  have eb : wts3 (V10 m ρ) c (ix2 k (⟨64 + q.val, by omega⟩ : Fin 256)) = m ((c : Thread nD τ).loc main_arg51) (ix2 k q) :=
    (v17_inside (W9 m ρ c) k (⟨64 + q.val, by omega⟩ : Fin 192)).trans ((v16_snd (W8 m ρ c) k q).trans (congrFun (W8_unwritten m ρ c main_arg51 (by decide)) (ix2 k q)))
  exact congrArg₂ (fun a b : Elt Ideal .f32 => a * b) ea eb

/-- Product 13: columns 128 … 191 of region 3's output are the rows of `main_arg3` times `main_arg54`. -/
theorem dense_13 (c : Dev nD) :
    W13 m ρ c (Proc.devRef .tc main_v21)
      = Cert.ReferenceIdeal.ReadP.val_main_v185 (F := Ideal) (m ((c : Thread nD τ).loc main_arg3)) (m ((c : Thread nD τ).loc main_arg54)) := by
  refine funext fun (i : S40000x64.Idx) => ?_
  obtain ⟨p, q, rfl⟩ : ∃ (p : Fin 40000) (q : Fin 64), i = ix2 p q := ⟨i 0, i 1, eq_ix2 i⟩
  refine Eq.trans ?_ (Cert.Proof.Ref.val_v185_ix _ _ p q).symm
  have hk : W13 m ρ c (Proc.devRef .tc main_v21) = W12 m ρ c (Proc.devRef .tc main_v21) :=
    (keep13 m ρ c main_v21 (by decide))
  refine (congrFun hk (ix2 p q)).trans ?_
  refine (v21_apply (W11 m ρ c) p q).trans ?_
  refine (congrFun (W11_arr m ρ c 2) (ix2 p (⟨128 + q.val, by omega⟩ : Fin 256))).trans ?_
  refine (lin3_apply (V10 m ρ) c p (⟨128 + q.val, by omega⟩ : Fin 256)).trans ?_
  refine Finset.sum_congr rfl fun k _ => ?_
  have ea : xin3 (V10 m ρ) c (ix2 p k) = m ((c : Thread nD τ).loc main_arg3) (ix2 p k) :=
    congrFun (W10_unwritten m ρ c main_arg3 (by decide)) (ix2 p k)
  have eb : wts3 (V10 m ρ) c (ix2 k (⟨128 + q.val, by omega⟩ : Fin 256)) = m ((c : Thread nD τ).loc main_arg54) (ix2 k q) :=
    (v17_inside (W9 m ρ c) k (⟨128 + q.val, by omega⟩ : Fin 192)).trans ((v16_thd (W8 m ρ c) k q).trans (congrFun (W8_unwritten m ρ c main_arg54 (by decide)) (ix2 k q)))
  exact congrArg₂ (fun a b : Elt Ideal .f32 => a * b) ea eb

end Cert.KernelIdeal.KV

end
-- ==== Proof.KV.Lin4.lean ====
/-
  Region 4: the rows of input 4 times the column-joined weights. The body multiplies the row block by the whole
  weight array into a zero accumulator, so the output block at a grid point is, entry by entry, the sum over the 64
  shared coordinates of (input row entry) · (weight column entry); grid point t writes rows 10000·t … 10000·t + 9999,
  the points together cover every row, and so the output array after the region holds that sum at every entry.
-/
import proofs.«140264_j78443282694634_2_alg».proof.Proof.KI.R4
import proofs.«140264_j78443282694634_2_alg».proof.Proof.KV.LibMatmul
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

theorem hz2_4 : (![0, 0] : Fin 2 → Nat) = fun _ => 0 := funext fun a => by fin_cases a <;> rfl

/-! ## The product's dimension numbers: which operand entries meet at a contraction index -/

theorem d4_l0 (j : S10000x128.Idx) (q : dot_S10000x64_S64x128_S10000x128_1_0_0_1_n_n.contr.Idx) :
    (dot_S10000x64_S64x128_S10000x128_1_0_0_1_n_n.lhsIdx j q 0).val = (j 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem d4_l1 (j : S10000x128.Idx) (q : dot_S10000x64_S64x128_S10000x128_1_0_0_1_n_n.contr.Idx) :
    (dot_S10000x64_S64x128_S10000x128_1_0_0_1_n_n.lhsIdx j q 1).val = (q ⟨0, by decide⟩).val :=
  dot_S10000x64_S64x128_S10000x128_1_0_0_1_n_n.lhsIdx_val_of_single rfl j q
theorem d4_r0 (j : S10000x128.Idx) (q : dot_S10000x64_S64x128_S10000x128_1_0_0_1_n_n.contr.Idx) :
    (dot_S10000x64_S64x128_S10000x128_1_0_0_1_n_n.rhsIdx j q 0).val = (q ⟨0, by decide⟩).val :=
  dot_S10000x64_S64x128_S10000x128_1_0_0_1_n_n.rhsIdx_val_of_single rfl j q
theorem d4_r1 (j : S10000x128.Idx) (q : dot_S10000x64_S64x128_S10000x128_1_0_0_1_n_n.contr.Idx) :
    (dot_S10000x64_S64x128_S10000x128_1_0_0_1_n_n.rhsIdx j q 1).val = (j 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The body's value at an entry of the block: the sum over the shared coordinate of row entry times column entry. -/
theorem pay4_apply (x0 : Vec Ideal S10000x64 .f32) (x1 : Vec Ideal S64x128 .f32) (p : Fin 10000) (q : Fin 128) :
    k4_pay1 (F := Ideal) x0 x1 (ix2 p q) = ∑ k : Fin 64, x0 (ix2 p k) * x1 (ix2 k q) := by
  unfold k4_pay1
  simp only [shapeCast_self]
  exact Cert.LibMatmul.matmul_zero_ix2 dot_S10000x64_S64x128_S10000x128_1_0_0_1_n_n none rfl rfl d4_l0 d4_l1 d4_r0 d4_r1 x0 x1 (ix2 p q)

variable (V : (c : Dev nD) → (b : Ref sig .tc) → Buf (Elt Ideal) ((c : Thread nD τ).loc b))

/-! ## From blocks to the array -/

/-- The index maps over the grid: the row-blocked windows sit at block (t, 0), the weights at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The input array, the weight array, as the region finds them, -/
abbrev xin4 (c : Dev nD) : S10000x64.Idx → Elt Ideal .f32 := V c (Pipeline.arrRef spec4 0)
abbrev wts4 (c : Dev nD) : S64x128.Idx → Elt Ideal .f32 := V c (Pipeline.arrRef spec4 1)
/-- and the output array after the region. -/
abbrev yout4 (c : Dev nD) : S10000x128.Idx → Elt Ideal .f32 := (dat4 (F := Ideal) V c).arrAt 2 cfg4.N

/-- What the output array ends holding: at (r, q) the sum over k of input (r, k) times weights (k, q). -/
def lin4 (c : Dev nD) : S10000x128.Idx → Elt Ideal .f32 := fun i =>
  ∑ k : Fin 64, xin4 V c (ix2 (i 0) k) * wts4 V c (ix2 k (i 1))

/-- What grid point t writes back is block t of that array: rows 10000·t onwards of the input meet the whole weights. -/
theorem flushed4_eq (c : Dev nD) (t : Fin cfg4.N) :
    (dat4 (F := Ideal) V c).flushed 2 t = ((cfg4.win 2).blk t).view.read (Elt Ideal) (lin4 V c) := by
  show (cfg4.win 2).cut (grid4.coords t) ((dat4 (F := Ideal) V c).after 2 t) = _
  rw [after4_2]
  unfold out4_2
  rw [View.canon_unit_zero hz2_4]
  simp only [View.ld_unit_zero (S := S10000x64) hz2_4, View.ld_unit_zero (S := S64x128) hz2_4]
  obtain ⟨e0, e1, e2, e3, e4, e5⟩ := idx_facts4 t
  funext j
  have ht : t.val < 1 := lt_of_lt_of_eq t.isLt N_4
  have hp : (j 0).val < 10000 := (j 0).isLt
  have hq : (j 1).val < 128 := (j 1).isLt
  have hx : (cfg4.win 2).xinj (grid4.coords t) j = ix2 (⟨(j 0).val, hp⟩ : Fin 10000) (⟨(j 1).val, hq⟩ : Fin 128) :=
    funext fun a => by match a with | ⟨0, _⟩ => rfl | ⟨1, _⟩ => rfl
  have he : ((cfg4.win 2).blk t).view.emb j = ix2 (⟨t.val * 10000 + (j 0).val, by omega⟩ : Fin 10000) (⟨(j 1).val, hq⟩ : Fin 128) :=
    funext fun a => Fin.ext (by
      match a with
      | ⟨0, _⟩ => show win4_2.index t (0 : Fin 2) * 10000 + 1 * (j 0).val = t.val * 10000 + (j 0).val; omega
      | ⟨1, _⟩ => show win4_2.index t (1 : Fin 2) * 128 + 1 * (j 1).val = (j 1).val; omega)
  show k4_pay1 (F := Ideal) (iblk4 V c 0 t) (iblk4 V c 1 t) ((cfg4.win 2).xinj (grid4.coords t) j) = lin4 V c (((cfg4.win 2).blk t).view.emb j)
  rw [hx, he]
  refine (pay4_apply _ _ _ _).trans ?_
  refine Finset.sum_congr rfl fun k _ => ?_
  have a0 : iblk4 V c 0 t (ix2 (⟨(j 0).val, hp⟩ : Fin 10000) k)
      = xin4 V c (ix2 (⟨t.val * 10000 + (j 0).val, by omega⟩ : Fin 10000) k) :=
    congrArg (V c (Pipeline.arrRef spec4 0)) (funext fun a => Fin.ext (by
      match a with
      | ⟨0, _⟩ => show win4_0.index t (0 : Fin 2) * 10000 + 1 * (j 0).val = t.val * 10000 + (j 0).val; omega
      | ⟨1, _⟩ => show win4_0.index t (1 : Fin 2) * 64 + 1 * k.val = k.val; omega))
  have a1 : iblk4 V c 1 t (ix2 k (⟨(j 1).val, hq⟩ : Fin 128))
      = wts4 V c (ix2 k (⟨(j 1).val, hq⟩ : Fin 128)) :=
    congrArg (V c (Pipeline.arrRef spec4 1)) (funext fun a => Fin.ext (by
      match a with
      | ⟨0, _⟩ => show win4_1.index t (0 : Fin 2) * 64 + 1 * k.val = k.val; omega
      | ⟨1, _⟩ => show win4_1.index t (1 : Fin 2) * 128 + 1 * (j 1).val = (j 1).val; omega))
  rw [a0, a1]

/-- An entry of the array is in point t's block iff each coordinate is in the block's range on its axis. -/
theorem mem_blk4 (t : Fin cfg4.N) (i : S10000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v23).slice (win4_2.rect t)).set ↔ _
  rw [View.set_slice_whole, Rect.mem_set_unit]
  exact Iff.rfl

/-- Every entry is in some point's block: row r is in the block of point r / 10000. -/
theorem cover4 (i : S10000x128.Idx) : ∃ t : Fin cfg4.N, (cfg4.win 2).flush t = true ∧ i ∈ ((cfg4.win 2).blk t).view.set := by
  have hi0 : (i 0).val < 10000 := (i 0).isLt
  have hi1 : (i 1).val < 128 := (i 1).isLt
  have hN : cfg4.N = 1 := N_4
  have hb : (i 0).val / 10000 < cfg4.N := by rw [hN]; omega
  obtain ⟨-, -, -, -, e4, e5⟩ := idx_facts4 ⟨(i 0).val / 10000, hb⟩
  refine ⟨⟨(i 0).val / 10000, hb⟩, flush4_2 _, ?_⟩
  rw [mem_blk4]
  intro a
  match a with
  | ⟨0, _⟩ =>
    show win4_2.index ⟨(i 0).val / 10000, hb⟩ (0 : Fin 2) * 10000 ≤ (i 0).val ∧ (i 0).val < win4_2.index ⟨(i 0).val / 10000, hb⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hb⟩ (1 : Fin 2) * 128 ≤ (i 1).val ∧ (i 1).val < win4_2.index ⟨(i 0).val / 10000, hb⟩ (1 : Fin 2) * 128 + 128
    rw [e5]; omega

/-- The output array after the region. -/
theorem final4 (c : Dev nD) : (dat4 (F := Ideal) V c).arrAt 2 cfg4.N = lin4 V c :=
  (dat4 (F := Ideal) V c).arrAt_eq_of_cover 2 (lin4 V c) (fun t _ => flushed4_eq V c t) cover4

/-- The output array after the region, read at an entry. -/
theorem lin4_apply (c : Dev nD) (r : Fin 10000) (q : Fin 128) :
    yout4 V c (ix2 r q) = ∑ k : Fin 64, xin4 V c (ix2 r k) * wts4 V c (ix2 k q) :=
  congrFun (final4 V c) (ix2 r q)

end Cert.KernelIdeal.KV

end
-- ==== Proof.KV.Dense4.lean ====
/-
  The dense products of region 4, as arrays at the boundary after the five linear regions: each 64-column slice of
  the region's output is, entry by entry, the sum over k of (input row entry) · (weight entry) of the launch contents,
  the weight being the piece of the joined weights that the slice's columns meet. That is the reference's dense stage.
-/
import proofs.«140264_j78443282694634_2_alg».proof.Proof.KI.Fold
import proofs.«140264_j78443282694634_2_alg».proof.Proof.Ref.Dense
import proofs.«140264_j78443282694634_2_alg».proof.Proof.KV.Lin4
import proofs.«140264_j78443282694634_2_alg».proof.Proof.KV.Glue
import proofs.«140264_j78443282694634_2_alg».proof.Proof.KV.Cols

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- Product 5: columns 0 … 63 of region 4's output are the rows of `main_arg4` times `main_arg29`. -/
theorem dense_5 (c : Dev nD) :
    extractStridedSlice S10000x64 ![0, 0] (W13 m ρ c (Proc.devRef .tc main_v23)) slices_S10000x128_S10000x64_0_0
      = Cert.ReferenceIdeal.ReadP.val_main_v64 (F := Ideal) (m ((c : Thread nD τ).loc main_arg4)) (m ((c : Thread nD τ).loc main_arg29)) := by
  refine funext fun (i : S10000x64.Idx) => ?_
  obtain ⟨p, q, rfl⟩ : ∃ (p : Fin 10000) (q : Fin 64), i = ix2 p q := ⟨i 0, i 1, eq_ix2 i⟩
  refine Eq.trans ?_ (Cert.Proof.Ref.val_v64_ix _ _ p q).symm
  refine (slice_cols_apply 0 _ _ p q (⟨q.val, by omega⟩ : Fin 128) (by show q.val = 0 + q.val; omega)).trans ?_
  refine (congrFun (W13_arr m ρ c 2) (ix2 p (⟨q.val, by omega⟩ : Fin 128))).trans ?_
  refine (lin4_apply (V12 m ρ) c p (⟨q.val, by omega⟩ : Fin 128)).trans ?_
  refine Finset.sum_congr rfl fun k _ => ?_
  have ea : xin4 (V12 m ρ) c (ix2 p k) = m ((c : Thread nD τ).loc main_arg4) (ix2 p k) :=
    congrFun (W12_unwritten m ρ c main_arg4 (by decide)) (ix2 p k)
  have eb : wts4 (V12 m ρ) c (ix2 k (⟨q.val, by omega⟩ : Fin 128)) = m ((c : Thread nD τ).loc main_arg29) (ix2 k q) :=
    (v22_left (W11 m ρ c) k q).trans (congrFun (W11_unwritten m ρ c main_arg29 (by decide)) (ix2 k q))
  exact congrArg₂ (fun a b : Elt Ideal .f32 => a * b) ea eb

/-- Product 12: columns 64 … 127 of region 4's output are the rows of `main_arg4` times `main_arg53`. -/
theorem dense_12 (c : Dev nD) :
    extractStridedSlice S10000x64 ![0, 64] (W13 m ρ c (Proc.devRef .tc main_v23)) slices_S10000x128_S10000x64_0_64
      = Cert.ReferenceIdeal.ReadP.val_main_v170 (F := Ideal) (m ((c : Thread nD τ).loc main_arg4)) (m ((c : Thread nD τ).loc main_arg53)) := by
  refine funext fun (i : S10000x64.Idx) => ?_
  obtain ⟨p, q, rfl⟩ : ∃ (p : Fin 10000) (q : Fin 64), i = ix2 p q := ⟨i 0, i 1, eq_ix2 i⟩
  refine Eq.trans ?_ (Cert.Proof.Ref.val_v170_ix _ _ p q).symm
  refine (slice_cols_apply 64 _ _ p q (⟨64 + q.val, by omega⟩ : Fin 128) (by rfl)).trans ?_
  refine (congrFun (W13_arr m ρ c 2) (ix2 p (⟨64 + q.val, by omega⟩ : Fin 128))).trans ?_
  refine (lin4_apply (V12 m ρ) c p (⟨64 + q.val, by omega⟩ : Fin 128)).trans ?_
  refine Finset.sum_congr rfl fun k _ => ?_
  have ea : xin4 (V12 m ρ) c (ix2 p k) = m ((c : Thread nD τ).loc main_arg4) (ix2 p k) :=
    congrFun (W12_unwritten m ρ c main_arg4 (by decide)) (ix2 p k)
  have eb : wts4 (V12 m ρ) c (ix2 k (⟨64 + q.val, by omega⟩ : Fin 128)) = m ((c : Thread nD τ).loc main_arg53) (ix2 k q) :=
    (v22_right (W11 m ρ c) k q).trans (congrFun (W11_unwritten m ρ c main_arg53 (by decide)) (ix2 k q))
  exact congrArg₂ (fun a b : Elt Ideal .f32 => a * b) ea eb

end Cert.KernelIdeal.KV

end
-- ==== Proof.Ref.Vals.lean ====
/- Reading the reference's results at an index: the shared first step. Each result and each message of the
   reference is a float maximum against the f32 zero word; at the exact extended reals that maximum is the
   rectifier `relu x = max x 0` of its other operand. -/
import proofs.«140264_j78443282694634_2_alg».proof.Proof.Ref.Read
import proofs.«140264_j78443282694634_2_alg».proof.Proof.KV.Relu

noncomputable section

namespace Cert.Proof.Ref

open Idealize.ShloMosaic Cert.KV

/-- The float maximum of a value and the f32 zero word, at the exact extended reals: the rectifier of the value. -/
theorem maxf_zero (x : Ideal .f32) :
    FloatOps.maximumf (F := Ideal) x (FloatOps.ofBits (F := Ideal) .f32 0x00000000#32) = relu x :=
  max_ofBits_zero x

end Cert.Proof.Ref

end
-- ==== Proof.Ref.V202.lean ====
/- The reference's result of 50000 rows read at an index (p, q): the rectifier of the sum over k of the
   summed messages at (p, k) times the aggregation weight at (k, q). The messages, in the reference's order:
   the rectified product of the scaling array and a sparse product, a rectified sparse product. Each sparse product is left as its stage (the scatter-add's
   value as a function of the arguments), read at (p, k). -/
import proofs.«140264_j78443282694634_2_alg».proof.Proof.Ref.Vals

noncomputable section

namespace Cert.Proof.Ref

open Idealize.ShloMosaic Idealize.ShloMosaic.ValueIdx Cert.ReferenceIdeal Cert.ReferenceIdeal.ReadP Cert.KV

/-- The result at (p, q): relu of the sum over k of (the sum of the rectified messages at (p, k)) times the weight at (k, q). -/
theorem val_v202_ix (x0 : (⟨S50000x64, .f32⟩ : BufTy).Contents (Elt Ideal)) (x1 : (⟨S150000x64, .f32⟩ : BufTy).Contents (Elt Ideal)) (x5 x6 : (⟨S400000, .i32⟩ : BufTy).Contents (Elt Ideal)) (x7 : (⟨S400000, .f32⟩ : BufTy).Contents (Elt Ideal)) (x20 : (⟨S50000x64, .f32⟩ : BufTy).Contents (Elt Ideal)) (x25 x30 : (⟨S64x64, .f32⟩ : BufTy).Contents (Elt Ideal)) (x35 x36 : (⟨S600000, .i32⟩ : BufTy).Contents (Elt Ideal)) (x37 : (⟨S600000, .f32⟩ : BufTy).Contents (Elt Ideal)) (x47 : (⟨S64x64, .f32⟩ : BufTy).Contents (Elt Ideal))
    (p : Fin 50000) (q : Fin 64) :
    val_main_v202 (F := Ideal) x0 x1 x5 x6 x7 x20 x25 x30 x35 x36 x37 x47 (ix2 p q)
      = relu (∑ k : Fin 64, (relu (x20 (ix2 p k) * val_main_v13 (F := Ideal) x0 x5 x6 x7 x25 (ix2 p k)) + relu (val_main_v93 (F := Ideal) x1 x35 x36 x37 x47 (ix2 p k))) * x30 (ix2 k q)) := by
  rw [val_main_v202_apply, val_main_call13_v0_apply, val_main_call13_cst_apply, maxf_zero, val_main_v201_apply]
  refine congrArg relu (Finset.sum_congr rfl fun k _ => ?_)
  have hl : lidx_main_v201 (ix2 p q) k = ix2 p k := by
    funext a; match a with | ⟨0, _⟩ => rfl | ⟨1, _⟩ => rfl
  have hr : ridx_main_v201 (ix2 p q) k = ix2 k q := by
    funext a; match a with | ⟨0, _⟩ => rfl | ⟨1, _⟩ => rfl
  rw [hl, hr, val_main_v200_apply, val_main_v15_apply, val_main_v14_apply, val_main_call0_v0_apply, val_main_call0_cst_apply, val_main_v94_apply, val_main_call5_v0_apply, val_main_call5_cst_apply]
  simp only [maxf_zero]
  rfl

end Cert.Proof.Ref

end
-- ==== Proof.Ref.V206.lean ====
/- The reference's result of 150000 rows read at an index (p, q): the rectifier of the sum over k of the
   summed messages at (p, k) times the aggregation weight at (k, q). The messages, in the reference's order:
   a rectified sparse product, the rectified product of the scaling array and a sparse product, a rectified sparse product. Each sparse product is left as its stage (the scatter-add's
   value as a function of the arguments), read at (p, k). -/
import proofs.«140264_j78443282694634_2_alg».proof.Proof.Ref.Vals

noncomputable section

namespace Cert.Proof.Ref

open Idealize.ShloMosaic Idealize.ShloMosaic.ValueIdx Cert.ReferenceIdeal Cert.ReferenceIdeal.ReadP Cert.KV

/-- The result at (p, q): relu of the sum over k of (the sum of the rectified messages at (p, k)) times the weight at (k, q). -/
theorem val_v206_ix (x0 : (⟨S50000x64, .f32⟩ : BufTy).Contents (Elt Ideal)) (x1 : (⟨S150000x64, .f32⟩ : BufTy).Contents (Elt Ideal)) (x2 : (⟨S100000x64, .f32⟩ : BufTy).Contents (Elt Ideal)) (x8 x9 : (⟨S1200000, .i32⟩ : BufTy).Contents (Elt Ideal)) (x10 : (⟨S1200000, .f32⟩ : BufTy).Contents (Elt Ideal)) (x21 : (⟨S150000x64, .f32⟩ : BufTy).Contents (Elt Ideal)) (x26 x31 : (⟨S64x64, .f32⟩ : BufTy).Contents (Elt Ideal)) (x35 x36 : (⟨S600000, .i32⟩ : BufTy).Contents (Elt Ideal)) (x37 : (⟨S600000, .f32⟩ : BufTy).Contents (Elt Ideal)) (x38 x39 : (⟨S400000, .i32⟩ : BufTy).Contents (Elt Ideal)) (x40 : (⟨S400000, .f32⟩ : BufTy).Contents (Elt Ideal)) (x48 x49 : (⟨S64x64, .f32⟩ : BufTy).Contents (Elt Ideal))
    (p : Fin 150000) (q : Fin 64) :
    val_main_v206 (F := Ideal) x0 x1 x2 x8 x9 x10 x21 x26 x31 x35 x36 x37 x38 x39 x40 x48 x49 (ix2 p q)
      = relu (∑ k : Fin 64, ((relu (val_main_v108 (F := Ideal) x0 x35 x36 x37 x48 (ix2 p k)) + relu (x21 (ix2 p k) * val_main_v29 (F := Ideal) x1 x8 x9 x10 x26 (ix2 p k))) + relu (val_main_v123 (F := Ideal) x2 x38 x39 x40 x49 (ix2 p k))) * x31 (ix2 k q)) := by
  rw [val_main_v206_apply, val_main_call14_v0_apply, val_main_call14_cst_apply, maxf_zero, val_main_v205_apply]
  refine congrArg relu (Finset.sum_congr rfl fun k _ => ?_)
  have hl : lidx_main_v205 (ix2 p q) k = ix2 p k := by
    funext a; match a with | ⟨0, _⟩ => rfl | ⟨1, _⟩ => rfl
  have hr : ridx_main_v205 (ix2 p q) k = ix2 k q := by
    funext a; match a with | ⟨0, _⟩ => rfl | ⟨1, _⟩ => rfl
  rw [hl, hr, val_main_v204_apply, val_main_v203_apply, val_main_v109_apply, val_main_call6_v0_apply, val_main_call6_cst_apply, val_main_v31_apply, val_main_v30_apply, val_main_call1_v0_apply, val_main_call1_cst_apply, val_main_v124_apply, val_main_call7_v0_apply, val_main_call7_cst_apply]
  simp only [maxf_zero]
  rfl

end Cert.Proof.Ref

end
-- ==== Proof.Ref.V210.lean ====
/- The reference's result of 100000 rows read at an index (p, q): the rectifier of the sum over k of the
   summed messages at (p, k) times the aggregation weight at (k, q). The messages, in the reference's order:
   a rectified sparse product, the rectified product of the scaling array and a sparse product, a rectified sparse product. Each sparse product is left as its stage (the scatter-add's
   value as a function of the arguments), read at (p, k). -/
import proofs.«140264_j78443282694634_2_alg».proof.Proof.Ref.Vals

noncomputable section

namespace Cert.Proof.Ref

open Idealize.ShloMosaic Idealize.ShloMosaic.ValueIdx Cert.ReferenceIdeal Cert.ReferenceIdeal.ReadP Cert.KV

/-- The result at (p, q): relu of the sum over k of (the sum of the rectified messages at (p, k)) times the weight at (k, q). -/
theorem val_v210_ix (x1 : (⟨S150000x64, .f32⟩ : BufTy).Contents (Elt Ideal)) (x2 : (⟨S100000x64, .f32⟩ : BufTy).Contents (Elt Ideal)) (x3 : (⟨S40000x64, .f32⟩ : BufTy).Contents (Elt Ideal)) (x11 x12 : (⟨S800000, .i32⟩ : BufTy).Contents (Elt Ideal)) (x13 : (⟨S800000, .f32⟩ : BufTy).Contents (Elt Ideal)) (x22 : (⟨S100000x64, .f32⟩ : BufTy).Contents (Elt Ideal)) (x27 x32 : (⟨S64x64, .f32⟩ : BufTy).Contents (Elt Ideal)) (x38 x39 : (⟨S400000, .i32⟩ : BufTy).Contents (Elt Ideal)) (x40 : (⟨S400000, .f32⟩ : BufTy).Contents (Elt Ideal)) (x41 x42 : (⟨S160000, .i32⟩ : BufTy).Contents (Elt Ideal)) (x43 : (⟨S160000, .f32⟩ : BufTy).Contents (Elt Ideal)) (x50 x51 : (⟨S64x64, .f32⟩ : BufTy).Contents (Elt Ideal))
    (p : Fin 100000) (q : Fin 64) :
    val_main_v210 (F := Ideal) x1 x2 x3 x11 x12 x13 x22 x27 x32 x38 x39 x40 x41 x42 x43 x50 x51 (ix2 p q)
      = relu (∑ k : Fin 64, ((relu (val_main_v138 (F := Ideal) x1 x38 x39 x40 x50 (ix2 p k)) + relu (x22 (ix2 p k) * val_main_v45 (F := Ideal) x2 x11 x12 x13 x27 (ix2 p k))) + relu (val_main_v153 (F := Ideal) x3 x41 x42 x43 x51 (ix2 p k))) * x32 (ix2 k q)) := by
  rw [val_main_v210_apply, val_main_call15_v0_apply, val_main_call15_cst_apply, maxf_zero, val_main_v209_apply]
  refine congrArg relu (Finset.sum_congr rfl fun k _ => ?_)
  have hl : lidx_main_v209 (ix2 p q) k = ix2 p k := by
    funext a; match a with | ⟨0, _⟩ => rfl | ⟨1, _⟩ => rfl
  have hr : ridx_main_v209 (ix2 p q) k = ix2 k q := by
    funext a; match a with | ⟨0, _⟩ => rfl | ⟨1, _⟩ => rfl
  rw [hl, hr, val_main_v208_apply, val_main_v207_apply, val_main_v139_apply, val_main_call8_v0_apply, val_main_call8_cst_apply, val_main_v47_apply, val_main_v46_apply, val_main_call2_v0_apply, val_main_call2_cst_apply, val_main_v154_apply, val_main_call9_v0_apply, val_main_call9_cst_apply]
  simp only [maxf_zero]
  rfl

end Cert.Proof.Ref

end
-- ==== Proof.Ref.V214.lean ====
/- The reference's result of 40000 rows read at an index (p, q): the rectifier of the sum over k of the
   summed messages at (p, k) times the aggregation weight at (k, q). The messages, in the reference's order:
   a rectified sparse product, the rectified product of the scaling array and a sparse product, a rectified sparse product. Each sparse product is left as its stage (the scatter-add's
   value as a function of the arguments), read at (p, k). -/
import proofs.«140264_j78443282694634_2_alg».proof.Proof.Ref.Vals

noncomputable section

namespace Cert.Proof.Ref

open Idealize.ShloMosaic Idealize.ShloMosaic.ValueIdx Cert.ReferenceIdeal Cert.ReferenceIdeal.ReadP Cert.KV

/-- The result at (p, q): relu of the sum over k of (the sum of the rectified messages at (p, k)) times the weight at (k, q). -/
theorem val_v214_ix (x2 : (⟨S100000x64, .f32⟩ : BufTy).Contents (Elt Ideal)) (x3 : (⟨S40000x64, .f32⟩ : BufTy).Contents (Elt Ideal)) (x4 : (⟨S10000x64, .f32⟩ : BufTy).Contents (Elt Ideal)) (x14 x15 : (⟨S320000, .i32⟩ : BufTy).Contents (Elt Ideal)) (x16 : (⟨S320000, .f32⟩ : BufTy).Contents (Elt Ideal)) (x23 : (⟨S40000x64, .f32⟩ : BufTy).Contents (Elt Ideal)) (x28 x33 : (⟨S64x64, .f32⟩ : BufTy).Contents (Elt Ideal)) (x41 x42 : (⟨S160000, .i32⟩ : BufTy).Contents (Elt Ideal)) (x43 : (⟨S160000, .f32⟩ : BufTy).Contents (Elt Ideal)) (x44 x45 : (⟨S40000, .i32⟩ : BufTy).Contents (Elt Ideal)) (x46 : (⟨S40000, .f32⟩ : BufTy).Contents (Elt Ideal)) (x52 x53 : (⟨S64x64, .f32⟩ : BufTy).Contents (Elt Ideal))
    (p : Fin 40000) (q : Fin 64) :
    val_main_v214 (F := Ideal) x2 x3 x4 x14 x15 x16 x23 x28 x33 x41 x42 x43 x44 x45 x46 x52 x53 (ix2 p q)
      = relu (∑ k : Fin 64, ((relu (val_main_v168 (F := Ideal) x2 x41 x42 x43 x52 (ix2 p k)) + relu (x23 (ix2 p k) * val_main_v61 (F := Ideal) x3 x14 x15 x16 x28 (ix2 p k))) + relu (val_main_v183 (F := Ideal) x4 x44 x45 x46 x53 (ix2 p k))) * x33 (ix2 k q)) := by
  rw [val_main_v214_apply, val_main_call16_v0_apply, val_main_call16_cst_apply, maxf_zero, val_main_v213_apply]
  refine congrArg relu (Finset.sum_congr rfl fun k _ => ?_)
  have hl : lidx_main_v213 (ix2 p q) k = ix2 p k := by
    funext a; match a with | ⟨0, _⟩ => rfl | ⟨1, _⟩ => rfl
  have hr : ridx_main_v213 (ix2 p q) k = ix2 k q := by
    funext a; match a with | ⟨0, _⟩ => rfl | ⟨1, _⟩ => rfl
  rw [hl, hr, val_main_v212_apply, val_main_v211_apply, val_main_v169_apply, val_main_call10_v0_apply, val_main_call10_cst_apply, val_main_v63_apply, val_main_v62_apply, val_main_call3_v0_apply, val_main_call3_cst_apply, val_main_v184_apply, val_main_call11_v0_apply, val_main_call11_cst_apply]
  simp only [maxf_zero]
  rfl

end Cert.Proof.Ref

end
-- ==== Proof.Ref.V217.lean ====
/- The reference's result of 10000 rows read at an index (p, q): the rectifier of the sum over k of the
   summed messages at (p, k) times the aggregation weight at (k, q). The messages, in the reference's order:
   a rectified sparse product, the rectified product of the scaling array and a sparse product. Each sparse product is left as its stage (the scatter-add's
   value as a function of the arguments), read at (p, k). -/
import proofs.«140264_j78443282694634_2_alg».proof.Proof.Ref.Vals

noncomputable section

namespace Cert.Proof.Ref

open Idealize.ShloMosaic Idealize.ShloMosaic.ValueIdx Cert.ReferenceIdeal Cert.ReferenceIdeal.ReadP Cert.KV

/-- The result at (p, q): relu of the sum over k of (the sum of the rectified messages at (p, k)) times the weight at (k, q). -/
theorem val_v217_ix (x3 : (⟨S40000x64, .f32⟩ : BufTy).Contents (Elt Ideal)) (x4 : (⟨S10000x64, .f32⟩ : BufTy).Contents (Elt Ideal)) (x17 x18 : (⟨S80000, .i32⟩ : BufTy).Contents (Elt Ideal)) (x19 : (⟨S80000, .f32⟩ : BufTy).Contents (Elt Ideal)) (x24 : (⟨S10000x64, .f32⟩ : BufTy).Contents (Elt Ideal)) (x29 x34 : (⟨S64x64, .f32⟩ : BufTy).Contents (Elt Ideal)) (x44 x45 : (⟨S40000, .i32⟩ : BufTy).Contents (Elt Ideal)) (x46 : (⟨S40000, .f32⟩ : BufTy).Contents (Elt Ideal)) (x54 : (⟨S64x64, .f32⟩ : BufTy).Contents (Elt Ideal))
    (p : Fin 10000) (q : Fin 64) :
    val_main_v217 (F := Ideal) x3 x4 x17 x18 x19 x24 x29 x34 x44 x45 x46 x54 (ix2 p q)
      = relu (∑ k : Fin 64, (relu (val_main_v198 (F := Ideal) x3 x44 x45 x46 x54 (ix2 p k)) + relu (x24 (ix2 p k) * val_main_v77 (F := Ideal) x4 x17 x18 x19 x29 (ix2 p k))) * x34 (ix2 k q)) := by
  rw [val_main_v217_apply, val_main_call17_v0_apply, val_main_call17_cst_apply, maxf_zero, val_main_v216_apply]
  refine congrArg relu (Finset.sum_congr rfl fun k _ => ?_)
  have hl : lidx_main_v216 (ix2 p q) k = ix2 p k := by
    funext a; match a with | ⟨0, _⟩ => rfl | ⟨1, _⟩ => rfl
  have hr : ridx_main_v216 (ix2 p q) k = ix2 k q := by
    funext a; match a with | ⟨0, _⟩ => rfl | ⟨1, _⟩ => rfl
  rw [hl, hr, val_main_v215_apply, val_main_v199_apply, val_main_call12_v0_apply, val_main_call12_cst_apply, val_main_v79_apply, val_main_v78_apply, val_main_call4_v0_apply, val_main_call4_cst_apply]
  simp only [maxf_zero]
  rfl

end Cert.Proof.Ref

end
-- ==== Proof.AlgRes.lean ====
/-
  The two idealized programs compute one function. Each result of the kernel's program is, entry by entry, the rectified
  sum over k of the summed rectified messages at (p, k) times the aggregation weight at (k, q); each message is a sparse
  product, the same composition of host operations in both programs, of a dense product x · W, which the kernel takes as a
  column slice of x times the column-joined weights and the reference computes directly: at every entry both are the sum over
  the shared coordinate of x's row entry times W's column entry. The only other difference is the order of the two factors
  in the scaled message (the sparse product times the scaling array against the scaling array times the sparse product), and multiplication on
  the extended reals is commutative.
-/
import proofs.«140264_j78443282694634_2_alg».proof.Defs
import proofs.«140264_j78443282694634_2_alg».proof.Proof.KV.Out0
import proofs.«140264_j78443282694634_2_alg».proof.Proof.KV.Out1
import proofs.«140264_j78443282694634_2_alg».proof.Proof.KV.Out2
import proofs.«140264_j78443282694634_2_alg».proof.Proof.KV.Out3
import proofs.«140264_j78443282694634_2_alg».proof.Proof.KV.Out4
import proofs.«140264_j78443282694634_2_alg».proof.Proof.KV.SpmmFold
import proofs.«140264_j78443282694634_2_alg».proof.Proof.KV.SpmmRef
import proofs.«140264_j78443282694634_2_alg».proof.Proof.KV.Dense0
import proofs.«140264_j78443282694634_2_alg».proof.Proof.KV.Dense1
import proofs.«140264_j78443282694634_2_alg».proof.Proof.KV.Dense2
import proofs.«140264_j78443282694634_2_alg».proof.Proof.KV.Dense3
import proofs.«140264_j78443282694634_2_alg».proof.Proof.KV.Dense4
import proofs.«140264_j78443282694634_2_alg».proof.Proof.Ref.V202
import proofs.«140264_j78443282694634_2_alg».proof.Proof.Ref.V206
import proofs.«140264_j78443282694634_2_alg».proof.Proof.Ref.V210
import proofs.«140264_j78443282694634_2_alg».proof.Proof.Ref.V214
import proofs.«140264_j78443282694634_2_alg».proof.Proof.Ref.V217

set_option maxRecDepth 16384

noncomputable section

namespace Cert.Proof.Alg

open Cert.KernelIdeal Cert.KernelIdeal.Gen Cert.KernelIdeal.Fr Cert.KernelIdeal.KV Cert.KV
open Idealize.ShloMosaic Idealize.ShloMosaic.TcCoe Idealize.SL.Sem Idealize.ShloMosaic.ValueIdx

variable (m : (ℓ : Loc nD τ sig) → Buf (Elt Ideal) ℓ) (ρ : Dev nD → PrngReg)

/-- Result 0 of the kernel's program is the reference's result 0, as a function of the launch contents. -/
theorem res0 (c : Dev nD) :
    (W22 m ρ c (Proc.devRef .tc main_v195) : S50000x64.Idx → EReal)
      = Cert.ReferenceIdeal.ReadP.val_main_v202 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg20)) (m ((c : Thread nD τ).loc main_arg25)) (m ((c : Thread nD τ).loc main_arg30)) (m ((c : Thread nD τ).loc main_arg35)) (m ((c : Thread nD τ).loc main_arg36)) (m ((c : Thread nD τ).loc main_arg37)) (m ((c : Thread nD τ).loc main_arg47)) := by
  funext i
  obtain ⟨p, q, rfl⟩ : ∃ (p : Fin 50000) (q : Fin 64), i = ix2 p q := ⟨i 0, i 1, eq_ix2 i⟩
  rw [out0_apply, agg5_def, Cert.Proof.Ref.val_v202_ix]
  rw [sparse_1, dense_1, ← ref_spmm_1, sparse_6, dense_6, ← ref_spmm_6]
  refine congrArg relu (Finset.sum_congr rfl fun k _ => ?_)
  rw [mul_comm (Cert.ReferenceIdeal.ReadP.val_main_v13 (F := Ideal) _ _ _ _ _ (ix2 p k))]

/-- Result 1 of the kernel's program is the reference's result 1, as a function of the launch contents. -/
theorem res1 (c : Dev nD) :
    (W22 m ρ c (Proc.devRef .tc main_v196) : S150000x64.Idx → EReal)
      = Cert.ReferenceIdeal.ReadP.val_main_v206 (F := Ideal) (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg21)) (m ((c : Thread nD τ).loc main_arg26)) (m ((c : Thread nD τ).loc main_arg31)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg48)) (m ((c : Thread nD τ).loc main_arg49)) := by
  funext i
  obtain ⟨p, q, rfl⟩ : ∃ (p : Fin 150000) (q : Fin 64), i = ix2 p q := ⟨i 0, i 1, eq_ix2 i⟩
  rw [out1_apply, agg6_def, Cert.Proof.Ref.val_v206_ix]
  rw [sparse_7, dense_7, ← ref_spmm_7, sparse_2, dense_2, ← ref_spmm_2, sparse_8, dense_8, ← ref_spmm_8]
  refine congrArg relu (Finset.sum_congr rfl fun k _ => ?_)
  rw [mul_comm (Cert.ReferenceIdeal.ReadP.val_main_v29 (F := Ideal) _ _ _ _ _ (ix2 p k))]

/-- Result 2 of the kernel's program is the reference's result 2, as a function of the launch contents. -/
theorem res2 (c : Dev nD) :
    (W22 m ρ c (Proc.devRef .tc main_v197) : S100000x64.Idx → EReal)
      = Cert.ReferenceIdeal.ReadP.val_main_v210 (F := Ideal) (m ((c : Thread nD τ).loc main_arg1)) (m ((c : Thread nD τ).loc main_arg2)) (m ((c : Thread nD τ).loc main_arg3)) (m ((c : Thread nD τ).loc main_arg11)) (m ((c : Thread nD τ).loc main_arg12)) (m ((c : Thread nD τ).loc main_arg13)) (m ((c : Thread nD τ).loc main_arg22)) (m ((c : Thread nD τ).loc main_arg27)) (m ((c : Thread nD τ).loc main_arg32)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg50)) (m ((c : Thread nD τ).loc main_arg51)) := by
  funext i
  obtain ⟨p, q, rfl⟩ : ∃ (p : Fin 100000) (q : Fin 64), i = ix2 p q := ⟨i 0, i 1, eq_ix2 i⟩
  rw [out2_apply, agg7_def, Cert.Proof.Ref.val_v210_ix]
  rw [sparse_9, dense_9, ← ref_spmm_9, sparse_3, dense_3, ← ref_spmm_3, sparse_10, dense_10, ← ref_spmm_10]
  refine congrArg relu (Finset.sum_congr rfl fun k _ => ?_)
  rw [mul_comm (Cert.ReferenceIdeal.ReadP.val_main_v45 (F := Ideal) _ _ _ _ _ (ix2 p k))]

/-- Result 3 of the kernel's program is the reference's result 3, as a function of the launch contents. -/
theorem res3 (c : Dev nD) :
    (W22 m ρ c (Proc.devRef .tc main_v198) : S40000x64.Idx → EReal)
      = Cert.ReferenceIdeal.ReadP.val_main_v214 (F := Ideal) (m ((c : Thread nD τ).loc main_arg2)) (m ((c : Thread nD τ).loc main_arg3)) (m ((c : Thread nD τ).loc main_arg4)) (m ((c : Thread nD τ).loc main_arg14)) (m ((c : Thread nD τ).loc main_arg15)) (m ((c : Thread nD τ).loc main_arg16)) (m ((c : Thread nD τ).loc main_arg23)) (m ((c : Thread nD τ).loc main_arg28)) (m ((c : Thread nD τ).loc main_arg33)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg52)) (m ((c : Thread nD τ).loc main_arg53)) := by
  funext i
  obtain ⟨p, q, rfl⟩ : ∃ (p : Fin 40000) (q : Fin 64), i = ix2 p q := ⟨i 0, i 1, eq_ix2 i⟩
  rw [out3_apply, agg8_def, Cert.Proof.Ref.val_v214_ix]
  rw [sparse_11, dense_11, ← ref_spmm_11, sparse_4, dense_4, ← ref_spmm_4, sparse_12, dense_12, ← ref_spmm_12]
  refine congrArg relu (Finset.sum_congr rfl fun k _ => ?_)
  rw [mul_comm (Cert.ReferenceIdeal.ReadP.val_main_v61 (F := Ideal) _ _ _ _ _ (ix2 p k))]

/-- Result 4 of the kernel's program is the reference's result 4, as a function of the launch contents. -/
theorem res4 (c : Dev nD) :
    (W22 m ρ c (Proc.devRef .tc main_v199) : S10000x64.Idx → EReal)
      = Cert.ReferenceIdeal.ReadP.val_main_v217 (F := Ideal) (m ((c : Thread nD τ).loc main_arg3)) (m ((c : Thread nD τ).loc main_arg4)) (m ((c : Thread nD τ).loc main_arg17)) (m ((c : Thread nD τ).loc main_arg18)) (m ((c : Thread nD τ).loc main_arg19)) (m ((c : Thread nD τ).loc main_arg24)) (m ((c : Thread nD τ).loc main_arg29)) (m ((c : Thread nD τ).loc main_arg34)) (m ((c : Thread nD τ).loc main_arg44)) (m ((c : Thread nD τ).loc main_arg45)) (m ((c : Thread nD τ).loc main_arg46)) (m ((c : Thread nD τ).loc main_arg54)) := by
  funext i
  obtain ⟨p, q, rfl⟩ : ∃ (p : Fin 10000) (q : Fin 64), i = ix2 p q := ⟨i 0, i 1, eq_ix2 i⟩
  rw [out4_apply, agg9_def, Cert.Proof.Ref.val_v217_ix]
  rw [sparse_13, dense_13, ← ref_spmm_13, sparse_5, dense_5, ← ref_spmm_5]
  refine congrArg relu (Finset.sum_congr rfl fun k _ => ?_)
  rw [mul_comm (Cert.ReferenceIdeal.ReadP.val_main_v77 (F := Ideal) _ _ _ _ _ (ix2 p k))]

end Cert.Proof.Alg

end
-- ==== Proof.Alg.lean ====
/-
  The algebraic claim: from memories agreeing on the arguments both idealized programs run to the end with the arguments
  unchanged and equal results — the kernel's results are its last boundary's contents, the reference's run names each result
  as a term of the launch arguments, and the two are one function of the arguments (the five equalities of the module this
  one imports).
-/
import proofs.«140264_j78443282694634_2_alg».proof.Defs
import proofs.«140264_j78443282694634_2_alg».proof.Proof.Gen.KernelIdeal
import proofs.«140264_j78443282694634_2_alg».proof.Proof.Gen.ReferenceIdeal
import proofs.«140264_j78443282694634_2_alg».proof.Proof.Gen.Pre_finite_inputs
import proofs.«140264_j78443282694634_2_alg».proof.Proof.KI.Frame
import proofs.«140264_j78443282694634_2_alg».proof.Proof.AlgRes
import proofs.«140264_j78443282694634_2_alg».proof.Proof.Ref2.Run

set_option maxRecDepth 16384

noncomputable section

namespace Cert.Proof.Alg

open Cert.KernelIdeal Cert.KernelIdeal.Gen Cert.KernelIdeal.Fr Cert.KernelIdeal.KV Cert.KV
open Idealize.ShloMosaic Idealize.ShloMosaic.TcCoe Idealize.SL.Sem Idealize.ShloMosaic.ValueIdx

/-- From memories agreeing on the arguments both idealized programs run to the end, the arguments unchanged, and end
    with equal results: the kernel's results are the last boundary's contents, and the reference's run names each result as
    the term that `res0` … `res4` show equal to them. -/
theorem algebraic : Cert.algebraic_KernelIdeal_ReferenceIdeal := by
  intro m ρ m' ρ' _ hagree
  refine ⟨fun c => W22 m ρ c (Proc.devRef .tc main_v195), fun c => W22 m ρ c (Proc.devRef .tc main_v196), fun c => W22 m ρ c (Proc.devRef .tc main_v197),
    fun c => W22 m ρ c (Proc.devRef .tc main_v198), fun c => W22 m ρ c (Proc.devRef .tc main_v199), Cert.KernelIdeal.Fr.run_results (F := Ideal) m ρ, ?_⟩
  refine (θ_run Cert.ReferenceIdeal.defs _ _).mono (fun r h c => ?_) (Cert.Proof.Ref2.run_stages (F := Ideal) m' ρ')
  obtain ⟨h0, h1, h2, h3, h4, hargs⟩ := h c
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54⟩ := hagree c
  refine ⟨?_, ?_, ?_, ?_, ?_, hargs⟩
  · refine h0.trans ?_
    rw [e0, e1, e5, e6, e7, e20, e25, e30, e35, e36, e37, e47]
    exact (res0 m ρ c).symm
  · refine h1.trans ?_
    rw [e0, e1, e2, e8, e9, e10, e21, e26, e31, e35, e36, e37, e38, e39, e40, e48, e49]
    exact (res1 m ρ c).symm
  · refine h2.trans ?_
    rw [e1, e2, e3, e11, e12, e13, e22, e27, e32, e38, e39, e40, e41, e42, e43, e50, e51]
    exact (res2 m ρ c).symm
  · refine h3.trans ?_
    rw [e2, e3, e4, e14, e15, e16, e23, e28, e33, e41, e42, e43, e44, e45, e46, e52, e53]
    exact (res3 m ρ c).symm
  · refine h4.trans ?_
    rw [e3, e4, e17, e18, e19, e24, e29, e34, e44, e45, e46, e54]
    exact (res4 m ρ c).symm

end Cert.Proof.Alg

end
-- ==== Proof.lean ====
/-
  A five-rank message-passing layer: per rank a dense product x · W for each weight that uses x, thirteen sparse products
  (gather rows, scale, add into destination rows) of those dense products, and per rank the rectified product of the summed
  rectified messages with an aggregation weight. The kernel's program takes each rank's dense products as column slices of
  ONE product of x with the column-joined (and zero-padded) weights, and fuses the rectifiers, the elementwise scaling, the sum and the last
  product into one pallas_call per rank; the reference does every step as its own host operation.

  The frames. The kernel's program is ten pallas_calls among twelve stretches of host operations. Its frame is the run of
  these twenty-two items one after the other: a stretch of host operations leaves in the buffers what the operations compute;
  a pallas_call's body reads its input blocks whole and stores one value of them whole, so the pipeline leaves the input
  arrays as entered and the output array block by block at that value; no item writes an argument. This is proved once at
  any float instance and used at the word-level instance and at the exact one. The reference is a straight line of host
  operations, and its frame is its run.

  The values, on the extended reals. The sparse products are the same function in both programs. A column slice of
  x times the joined weights is, at every entry, the sum over the shared coordinate of x's row entry times the column entry
  of the weight that the slice's columns come from: the reference's dense product. The fused pallas_call's output at (p, q)
  is the rectified sum over k of the summed rectified messages at (p, k) times the weight at (k, q): the reference's result,
  up to the order of the two factors of the scaled message. No law used needs finiteness.
-/
import proofs.«140264_j78443282694634_2_alg».proof.Defs
import proofs.«140264_j78443282694634_2_alg».proof.Proof.Gen.Kernel
import proofs.«140264_j78443282694634_2_alg».proof.Proof.Gen.KernelIdeal
import proofs.«140264_j78443282694634_2_alg».proof.Proof.Gen.ReferenceIdeal
import proofs.«140264_j78443282694634_2_alg».proof.Proof.Gen.Pre_finite_inputs
import proofs.«140264_j78443282694634_2_alg».proof.Proof.K.Frame
import proofs.«140264_j78443282694634_2_alg».proof.Proof.KI.Frame
import proofs.«140264_j78443282694634_2_alg».proof.Proof.Ref2.Run
import proofs.«140264_j78443282694634_2_alg».proof.Proof.Alg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame (F := Bits) m ρ,
  fun m ρ _ => Cert.KernelIdeal.Fr.frame (F := Ideal) m ρ,
  (fun m ρ _ => (θ_run Cert.ReferenceIdeal.defs _ _).mono (fun _ h c => (h c).2.2.2.2.2) (Cert.Proof.Ref2.run_stages (F := Ideal) m ρ)),
  trivial,
  Cert.Proof.Alg.algebraic⟩

end Cert.Proof

end
